-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x32 : Shape := ⟨2, ![1000000, 32]⟩
abbrev S100000x32 : Shape := ⟨2, ![100000, 32]⟩
abbrev S1000x32 : Shape := ⟨2, ![1000, 32]⟩
abbrev S64x128 : Shape := ⟨2, ![64, 128]⟩
abbrev S64 : Shape := ⟨1, ![64]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S1000x32 : S_.BroadcastsInDim S1000x32 (![] : Fin 0 → Fin S1000x32.rank)
  reducesTo_S1000x32_S_d0_1 : S1000x32.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg3 : IVec S16384 32) (main_v49 : IVec S_ 1) (main_c_19 : IVec S_ 32) : IVec S_ 1 :=
  let main_v50 : IVec S16384 32 := broadcastInDim S16384 ![] bcast_S_S16384 main_c_19
  let main_v51 : IVec S16384 1 := cmpi .sge main_arg3 main_v50
  let main_c_20 : IVec S_ 32 := constantI S_ 32 999999#32
  let main_v52 : IVec S16384 32 := broadcastInDim S16384 ![] bcast_S_S16384 main_c_20
  let main_v53 : IVec S16384 1 := cmpi .sle main_arg3 main_v52
  let main_v54 : IVec S16384 1 := andi main_v51 main_v53
  let main_c_21 : IVec S_ 1 := constantI S_ 1 1#1
  let main_v55 : IVec S_ 1 := (fun x v => Host.reduce IntOp.andi x v reducesTo_S16384_S_d0 h_S_) main_v54 main_c_21
  let main_v56 : IVec S_ 1 := andi main_v49 main_v55
  main_v56

def fn_part2 {F : FTy → Type} [FloatOps F] (main_arg1 : IVec S16384 32) (main_arg2 : IVec S16384 32) (main_arg3 : IVec S16384 32) (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  let main_c_13 : IVec S_ 32 := constantI S_ 32 0#32
  let main_v36 : IVec S16384 32 := broadcastInDim S16384 ![] bcast_S_S16384 main_c_13
  let main_v37 : IVec S16384 1 := cmpi .sge main_arg1 main_v36
  let main_c_14 : IVec S_ 32 := constantI S_ 32 99999#32
  let main_v38 : IVec S16384 32 := broadcastInDim S16384 ![] bcast_S_S16384 main_c_14
  let main_v39 : IVec S16384 1 := cmpi .sle main_arg1 main_v38
  let main_v40 : IVec S16384 1 := andi main_v37 main_v39
  let main_c_15 : IVec S_ 1 := constantI S_ 1 1#1
  let main_v41 : IVec S_ 1 := (fun x v => Host.reduce IntOp.andi x v reducesTo_S16384_S_d0 h_S_) main_v40 main_c_15
  let main_v42 : IVec S_ 1 := andi main_v35 main_v41
  let main_c_16 : IVec S_ 32 := constantI S_ 32 0#32
  let main_v43 : IVec S16384 32 := broadcastInDim S16384 ![] bcast_S_S16384 main_c_16
  let main_v44 : IVec S16384 1 := cmpi .sge main_arg2 main_v43
  let main_c_17 : IVec S_ 32 := constantI S_ 32 999#32
  let main_v45 : IVec S16384 32 := broadcastInDim S16384 ![] bcast_S_S16384 main_c_17
  let main_v46 : IVec S16384 1 := cmpi .sle main_arg2 main_v45
  let main_v47 : IVec S16384 1 := andi main_v44 main_v46
  let main_c_18 : IVec S_ 1 := constantI S_ 1 1#1
  let main_v48 : IVec S_ 1 := (fun x v => Host.reduce IntOp.andi x v reducesTo_S16384_S_d0 h_S_) main_v47 main_c_18
  let main_v49 : IVec S_ 1 := andi main_v42 main_v48
  let main_c_19 : IVec S_ 32 := constantI S_ 32 0#32
  fn_part3 (F := F) main_arg3 main_v49 main_c_19

def fn_part1 {F : FTy → Type} [FloatOps F] (main_arg0 : IVec S16384 32) (main_arg1 : IVec S16384 32) (main_arg2 : IVec S16384 32) (main_arg3 : IVec S16384 32) (main_arg8 : FVec F S64x128 .f32) (main_arg9 : FVec F S64 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S64x128 .f32 := Host.absf main_arg8
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg0 main_v29
  let main_c_11 : IVec S_ 32 := constantI S_ 32 999999#32
  let main_v31 : IVec S16384 32 := broadcastInDim S16384 ![] bcast_S_S16384 main_c_11
  let main_v32 : IVec S16384 1 := cmpi .sle main_arg0 main_v31
  let main_v33 : IVec S16384 1 := andi main_v30 main_v32
  fn_part2 (F := F) main_arg1 main_arg2 main_arg3 main_v28 main_v33

def fn {F : FTy → Type} [FloatOps F] (main_arg0 : IVec S16384 32) (main_arg1 : IVec S16384 32) (main_arg2 : IVec S16384 32) (main_arg3 : IVec S16384 32) (main_arg4 : FVec F S1000000x32 .f32) (main_arg5 : FVec F S100000x32 .f32) (main_arg6 : FVec F S1000x32 .f32) (main_arg7 : FVec F S1000000x32 .f32) (main_arg8 : FVec F S64x128 .f32) (main_arg9 : FVec F S64 .f32) : IVec S_ 1 :=
  let main_v0 : FVec F S1000000x32 .f32 := Host.absf main_arg4
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S100000x32 .f32 := Host.absf main_arg5
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S1000x32 .f32 := Host.absf main_arg6
  let main_cst_2 : FVec F S_ .f32 := constant S_ .f32 0x7F800000#32
  let main_v10 : FVec F S1000x32 .f32 := broadcastInDim S1000x32 ![] bcast_S_S1000x32 main_cst_2
  let main_v11 : IVec S1000x32 1 := cmpf .olt main_v9 main_v10
  let main_c_3 : IVec S_ 1 := constantI S_ 1 1#1
  let main_v12 : IVec S_ 1 := (fun x v => Host.reduce IntOp.andi x v reducesTo_S1000x32_S_d0_1 h_S_) main_v11 main_c_3
  let main_v13 : IVec S_ 1 := andi main_v8 main_v12
  let main_v14 : FVec F S1000000x32 .f32 := Host.absf main_arg7
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg0 main_arg1 main_arg2 main_arg3 main_arg8 main_arg9 main_v13 main_v16
-- ==== Kernel.lean ====
abbrev S16384 : Shape := ⟨1, ![16384]⟩
abbrev S1000000x32 : Shape := ⟨2, ![1000000, 32]⟩
abbrev S100000x32 : Shape := ⟨2, ![100000, 32]⟩
abbrev S1000x32 : Shape := ⟨2, ![1000, 32]⟩
abbrev S64x128 : Shape := ⟨2, ![64, 128]⟩
abbrev S64 : Shape := ⟨1, ![64]⟩
abbrev S32x1000000 : Shape := ⟨2, ![32, 1000000]⟩
abbrev S64x32 : Shape := ⟨2, ![64, 32]⟩
abbrev S2048 : Shape := ⟨1, ![2048]⟩
abbrev S32x16384 : Shape := ⟨2, ![32, 16384]⟩
abbrev S528 : Shape := ⟨1, ![528]⟩
abbrev S32x128 : Shape := ⟨2, ![32, 128]⟩
abbrev S32x512 : Shape := ⟨2, ![32, 512]⟩
abbrev S_ : Shape := ⟨0, ![]⟩
abbrev S512 : Shape := ⟨1, ![512]⟩
abbrev S16 : Shape := ⟨1, ![16]⟩
abbrev S1 : Shape := ⟨1, ![1]⟩
abbrev S25000x128 : Shape := ⟨2, ![25000, 128]⟩
abbrev S256x128 : Shape := ⟨2, ![256, 128]⟩
abbrev S256 : Shape := ⟨1, ![256]⟩
abbrev S1x16 : Shape := ⟨2, ![1, 16]⟩
abbrev S250x128 : Shape := ⟨2, ![250, 128]⟩
abbrev S1x64 : Shape := ⟨2, ![1, 64]⟩
abbrev S16384x64 : Shape := ⟨2, ![16384, 64]⟩
abbrev S32x2048 : Shape := ⟨2, ![32, 2048]⟩
abbrev S2048x64 : Shape := ⟨2, ![2048, 64]⟩

abbrev nBuf : Table → Nat
  | .hbm => 24
  | .local .tc .vmem => 12
  | .local .scVector .vmem => 32
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S1000000x32, .f32⟩
  | .hbm, ⟨5, _⟩ => ⟨S100000x32, .f32⟩
  | .hbm, ⟨6, _⟩ => ⟨S1000x32, .f32⟩
  | .hbm, ⟨7, _⟩ => ⟨S1000000x32, .f32⟩
  | .hbm, ⟨8, _⟩ => ⟨S64x128, .f32⟩
  | .hbm, ⟨9, _⟩ => ⟨S64, .f32⟩
  | .hbm, ⟨10, _⟩ => ⟨S32x1000000, .f32⟩
  | .hbm, ⟨11, _⟩ => ⟨S64x32, .f32⟩
  | .hbm, ⟨12, _⟩ => ⟨S2048, .f32⟩
  | .hbm, ⟨13, _⟩ => ⟨S32x16384, .f32⟩
  | .hbm, ⟨14, _⟩ => ⟨S25000x128, .f32⟩
  | .hbm, ⟨15, _⟩ => ⟨S32x16384, .f32⟩
  | .hbm, ⟨16, _⟩ => ⟨S250x128, .f32⟩
  | .hbm, ⟨17, _⟩ => ⟨S32x16384, .f32⟩
  | .hbm, ⟨18, _⟩ => ⟨S32x1000000, .f32⟩
  | .hbm, ⟨19, _⟩ => ⟨S64x32, .f32⟩
  | .hbm, ⟨20, _⟩ => ⟨S2048, .f32⟩
  | .hbm, ⟨21, _⟩ => ⟨S32x16384, .f32⟩
  | .hbm, ⟨22, _⟩ => ⟨S1x64, .f32⟩
  | .hbm, ⟨23, _⟩ => ⟨S16384x64, .f32⟩
  | .local .tc .vmem, ⟨0, _⟩ => ⟨S32x2048, .f32⟩
  | .local .tc .vmem, ⟨1, _⟩ => ⟨S32x2048, .f32⟩
  | .local .tc .vmem, ⟨2, _⟩ => ⟨S32x2048, .f32⟩
  | .local .tc .vmem, ⟨3, _⟩ => ⟨S32x2048, .f32⟩
  | .local .tc .vmem, ⟨4, _⟩ => ⟨S32x2048, .f32⟩
  | .local .tc .vmem, ⟨5, _⟩ => ⟨S32x2048, .f32⟩
  | .local .tc .vmem, ⟨6, _⟩ => ⟨S32x2048, .f32⟩
  | .local .tc .vmem, ⟨7, _⟩ => ⟨S32x2048, .f32⟩
  | .local .tc .vmem, ⟨8, _⟩ => ⟨S64x128, .f32⟩
  | .local .tc .vmem, ⟨9, _⟩ => ⟨S1x64, .f32⟩
  | .local .tc .vmem, ⟨10, _⟩ => ⟨S2048x64, .f32⟩
  | .local .tc .vmem, ⟨11, _⟩ => ⟨S2048x64, .f32⟩
  | .local .scVector .vmem, ⟨0, _⟩ => ⟨S528, .i32⟩
  | .local .scVector .vmem, ⟨1, _⟩ => ⟨S32x128, .f32⟩
  | .local .scVector .vmem, ⟨2, _⟩ => ⟨S32x128, .f32⟩
  | .local .scVector .vmem, ⟨3, _⟩ => ⟨S32x128, .f32⟩
  | .local .scVector .vmem, ⟨4, _⟩ => ⟨S32x128, .f32⟩
  | .local .scVector .vmem, ⟨5, _⟩ => ⟨S32x128, .f32⟩
  | .local .scVector .vmem, ⟨6, _⟩ => ⟨S32x128, .f32⟩
  | .local .scVector .vmem, ⟨7, _⟩ => ⟨S32x128, .f32⟩
  | .local .scVector .vmem, ⟨8, _⟩ => ⟨S32x128, .f32⟩
  | .local .scVector .vmem, ⟨9, _⟩ => ⟨S2048, .f32⟩
  | .local .scVector .vmem, ⟨10, _⟩ => ⟨S32x512, .f32⟩
  | .local .scVector .vmem, ⟨11, _⟩ => ⟨S512, .i32⟩
  | .local .scVector .vmem, ⟨12, _⟩ => ⟨S512, .i32⟩
  | .local .scVector .vmem, ⟨13, _⟩ => ⟨S256x128, .f32⟩
  | .local .scVector .vmem, ⟨14, _⟩ => ⟨S256x128, .f32⟩
  | .local .scVector .vmem, ⟨15, _⟩ => ⟨S32x512, .f32⟩
  | .local .scVector .vmem, ⟨16, _⟩ => ⟨S512, .i32⟩
  | .local .scVector .vmem, ⟨17, _⟩ => ⟨S512, .i32⟩
  | .local .scVector .vmem, ⟨18, _⟩ => ⟨S256x128, .f32⟩
  | .local .scVector .vmem, ⟨19, _⟩ => ⟨S256x128, .f32⟩
  | .local .scVector .vmem, ⟨20, _⟩ => ⟨S32x512, .f32⟩
  | .local .scVector .vmem, ⟨21, _⟩ => ⟨S528, .i32⟩
  | .local .scVector .vmem, ⟨22, _⟩ => ⟨S32x128, .f32⟩
  | .local .scVector .vmem, ⟨23, _⟩ => ⟨S32x128, .f32⟩
  | .local .scVector .vmem, ⟨24, _⟩ => ⟨S32x128, .f32⟩
  | .local .scVector .vmem, ⟨25, _⟩ => ⟨S32x128, .f32⟩
  | .local .scVector .vmem, ⟨26, _⟩ => ⟨S32x128, .f32⟩
  | .local .scVector .vmem, ⟨27, _⟩ => ⟨S32x128, .f32⟩
  | .local .scVector .vmem, ⟨28, _⟩ => ⟨S32x128, .f32⟩
  | .local .scVector .vmem, ⟨29, _⟩ => ⟨S32x128, .f32⟩
  | .local .scVector .vmem, ⟨30, _⟩ => ⟨S2048, .f32⟩
  | .local .scVector .vmem, ⟨31, _⟩ => ⟨S32x512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 42 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTables nBuf rfl bufTy 4 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_arg0_scv : Ref sig .scVector := ⟨.hbm, 0, rfl⟩
abbrev main_v0_scv : Ref sig .scVector := ⟨.hbm, 10, rfl⟩
abbrev main_v2_scv : Ref sig .scVector := ⟨.hbm, 12, rfl⟩
abbrev main_v3_scv : Ref sig .scVector := ⟨.hbm, 13, rfl⟩
abbrev main_arg1_scv : Ref sig .scVector := ⟨.hbm, 1, rfl⟩
abbrev main_v4_scv : Ref sig .scVector := ⟨.hbm, 14, rfl⟩
abbrev main_v5_scv : Ref sig .scVector := ⟨.hbm, 15, rfl⟩
abbrev main_arg2_scv : Ref sig .scVector := ⟨.hbm, 2, rfl⟩
abbrev main_v6_scv : Ref sig .scVector := ⟨.hbm, 16, rfl⟩
abbrev main_v7_scv : Ref sig .scVector := ⟨.hbm, 17, rfl⟩
abbrev main_arg3_scv : Ref sig .scVector := ⟨.hbm, 3, rfl⟩
abbrev main_v8_scv : Ref sig .scVector := ⟨.hbm, 18, rfl⟩
abbrev main_v10_scv : Ref sig .scVector := ⟨.hbm, 20, rfl⟩
abbrev main_v11_scv : Ref sig .scVector := ⟨.hbm, 21, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg1_1 : Ref sig .tc := ⟨.vmem, 3, rfl⟩
abbrev cc4_stg2_0 : Ref sig .tc := ⟨.vmem, 4, rfl⟩
abbrev cc4_stg2_1 : Ref sig .tc := ⟨.vmem, 5, rfl⟩
abbrev cc4_stg3_0 : Ref sig .tc := ⟨.vmem, 6, rfl⟩
abbrev cc4_stg3_1 : Ref sig .tc := ⟨.vmem, 7, rfl⟩
abbrev cc4_stg4_0 : Ref sig .tc := ⟨.vmem, 8, rfl⟩
abbrev cc4_stg5_0 : Ref sig .tc := ⟨.vmem, 9, rfl⟩
abbrev cc4_stg6_0 : Ref sig .tc := ⟨.vmem, 10, rfl⟩
abbrev cc4_stg6_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc1_scratch0 : Ref sig .scVector := ⟨.vmem, 11, rfl⟩
abbrev cc1_scratch1 : Ref sig .scVector := ⟨.vmem, 12, rfl⟩
abbrev cc1_scratch2 : Ref sig .scVector := ⟨.vmem, 13, rfl⟩
abbrev cc1_scratch3 : Ref sig .scVector := ⟨.vmem, 14, rfl⟩
abbrev cc1_scratch4 : Ref sig .scVector := ⟨.vmem, 15, rfl⟩
abbrev cc2_scratch0 : Ref sig .scVector := ⟨.vmem, 16, rfl⟩
abbrev cc2_scratch1 : Ref sig .scVector := ⟨.vmem, 17, rfl⟩
abbrev cc2_scratch2 : Ref sig .scVector := ⟨.vmem, 18, rfl⟩
abbrev cc2_scratch3 : Ref sig .scVector := ⟨.vmem, 19, rfl⟩
abbrev cc2_scratch4 : Ref sig .scVector := ⟨.vmem, 20, rfl⟩
abbrev cc3_scratch0 : Ref sig .scVector := ⟨.vmem, 21, rfl⟩
abbrev cc3_scratch1 : Ref sig .scVector := ⟨.vmem, 22, rfl⟩
abbrev cc3_scratch2 : Ref sig .scVector := ⟨.vmem, 23, rfl⟩
abbrev cc3_scratch3 : Ref sig .scVector := ⟨.vmem, 24, rfl⟩
abbrev cc3_scratch4 : Ref sig .scVector := ⟨.vmem, 25, rfl⟩
abbrev cc3_scratch5 : Ref sig .scVector := ⟨.vmem, 26, rfl⟩
abbrev cc3_scratch6 : Ref sig .scVector := ⟨.vmem, 27, rfl⟩
abbrev cc3_scratch7 : Ref sig .scVector := ⟨.vmem, 28, rfl⟩
abbrev cc3_scratch8 : Ref sig .scVector := ⟨.vmem, 29, rfl⟩
abbrev cc3_scratch9 : Ref sig .scVector := ⟨.vmem, 30, rfl⟩
abbrev cc3_scratch10 : Ref sig .scVector := ⟨.vmem, 31, rfl⟩
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem5_0 : DmaSem sig := 39
abbrev cc4_sem6_0 : DmaSem sig := 40
abbrev cc4_sem6_1 : DmaSem sig := 41
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_mult1 (v5 : BitVec 32) : BitVec 32 :=
  let c7_i32 : BitVec 32 := 7#32
  let v6 : BitVec 32 := Scalar.shrui v5 c7_i32
  let c7811_i32 : BitVec 32 := 7811#32
  let v7 : BitVec 32 := Scalar.minsi v6 c7811_i32
  let c128_i32 : BitVec 32 := 128#32
  let v8 : BitVec 32 := Scalar.muli v7 c128_i32
  v8

def k0_off2 (v5 : BitVec 32) : Fin 2 → Nat :=
  let c0_i32 : BitVec 32 := 0#32
  let c7_i32 : BitVec 32 := 7#32
  let v6 : BitVec 32 := Scalar.shrui v5 c7_i32
  let c7811_i32 : BitVec 32 := 7811#32
  let v7 : BitVec 32 := Scalar.minsi v6 c7811_i32
  let c128_i32 : BitVec 32 := 128#32
  let v8 : BitVec 32 := Scalar.muli v7 c128_i32
  let v9 : BitVec 32 := v8
  ![0, v9.toNat]

def k0_chk1 (v5 : BitVec 32) : Prop :=
  (128 ∣ (k0_mult1 v5).toNat) ∧
  (∀ a, (k0_off2 v5) a + S32x128.size a ≤ S32x1000000.size a)
instance k0_chk1.dec : ∀ (v5 : BitVec 32), Decidable (k0_chk1 v5) := fun v5 => decidable_of_iff' _ (Iff.of_eq (k0_chk1.eq_1 v5))
theorem k0_mult1_dvd : ∀ (v5 : BitVec 32) (k0_hw1 : k0_chk1 v5), 128 ∣ (k0_mult1 v5).toNat := fun v5 k0_hw1 => k0_hw1.1
theorem k0_off2_inb : ∀ (v5 : BitVec 32) (k0_hw1 : k0_chk1 v5), ∀ a, (k0_off2 v5) a + S32x128.size a ≤ S32x1000000.size a := fun v5 k0_hw1 => k0_hw1.2

def k0_mult2 (v14 : BitVec 32) : BitVec 32 :=
  let c7_i32_1 : BitVec 32 := 7#32
  let v15 : BitVec 32 := Scalar.shrui v14 c7_i32_1
  let c7811_i32_2 : BitVec 32 := 7811#32
  let v16 : BitVec 32 := Scalar.minsi v15 c7811_i32_2
  let c128_i32_3 : BitVec 32 := 128#32
  let v17 : BitVec 32 := Scalar.muli v16 c128_i32_3
  v17

def k0_off3 (v14 : BitVec 32) : Fin 2 → Nat :=
  let c0_i32_4 : BitVec 32 := 0#32
  let c7_i32_1 : BitVec 32 := 7#32
  let v15 : BitVec 32 := Scalar.shrui v14 c7_i32_1
  let c7811_i32_2 : BitVec 32 := 7811#32
  let v16 : BitVec 32 := Scalar.minsi v15 c7811_i32_2
  let c128_i32_3 : BitVec 32 := 128#32
  let v17 : BitVec 32 := Scalar.muli v16 c128_i32_3
  let v18 : BitVec 32 := v17
  ![0, v18.toNat]

def k0_chk2 (v14 : BitVec 32) : Prop :=
  (128 ∣ (k0_mult2 v14).toNat) ∧
  (∀ a, (k0_off3 v14) a + S32x128.size a ≤ S32x1000000.size a)
instance k0_chk2.dec : ∀ (v14 : BitVec 32), Decidable (k0_chk2 v14) := fun v14 => decidable_of_iff' _ (Iff.of_eq (k0_chk2.eq_1 v14))
theorem k0_mult2_dvd : ∀ (v14 : BitVec 32) (k0_hw2 : k0_chk2 v14), 128 ∣ (k0_mult2 v14).toNat := fun v14 k0_hw2 => k0_hw2.1
theorem k0_off3_inb : ∀ (v14 : BitVec 32) (k0_hw2 : k0_chk2 v14), ∀ a, (k0_off3 v14) a + S32x128.size a ≤ S32x1000000.size a := fun v14 k0_hw2 => k0_hw2.2

def k0_mult3 (v23 : BitVec 32) : BitVec 32 :=
  let c7_i32_6 : BitVec 32 := 7#32
  let v24 : BitVec 32 := Scalar.shrui v23 c7_i32_6
  let c7811_i32_7 : BitVec 32 := 7811#32
  let v25 : BitVec 32 := Scalar.minsi v24 c7811_i32_7
  let c128_i32_8 : BitVec 32 := 128#32
  let v26 : BitVec 32 := Scalar.muli v25 c128_i32_8
  v26

def k0_off4 (v23 : BitVec 32) : Fin 2 → Nat :=
  let c0_i32_9 : BitVec 32 := 0#32
  let c7_i32_6 : BitVec 32 := 7#32
  let v24 : BitVec 32 := Scalar.shrui v23 c7_i32_6
  let c7811_i32_7 : BitVec 32 := 7811#32
  let v25 : BitVec 32 := Scalar.minsi v24 c7811_i32_7
  let c128_i32_8 : BitVec 32 := 128#32
  let v26 : BitVec 32 := Scalar.muli v25 c128_i32_8
  let v27 : BitVec 32 := v26
  ![0, v27.toNat]

def k0_chk3 (v23 : BitVec 32) : Prop :=
  (128 ∣ (k0_mult3 v23).toNat) ∧
  (∀ a, (k0_off4 v23) a + S32x128.size a ≤ S32x1000000.size a)
instance k0_chk3.dec : ∀ (v23 : BitVec 32), Decidable (k0_chk3 v23) := fun v23 => decidable_of_iff' _ (Iff.of_eq (k0_chk3.eq_1 v23))
theorem k0_mult3_dvd : ∀ (v23 : BitVec 32) (k0_hw3 : k0_chk3 v23), 128 ∣ (k0_mult3 v23).toNat := fun v23 k0_hw3 => k0_hw3.1
theorem k0_off4_inb : ∀ (v23 : BitVec 32) (k0_hw3 : k0_chk3 v23), ∀ a, (k0_off4 v23) a + S32x128.size a ≤ S32x1000000.size a := fun v23 k0_hw3 => k0_hw3.2

def k0_mult4 (v32 : BitVec 32) : BitVec 32 :=
  let c7_i32_11 : BitVec 32 := 7#32
  let v33 : BitVec 32 := Scalar.shrui v32 c7_i32_11
  let c7811_i32_12 : BitVec 32 := 7811#32
  let v34 : BitVec 32 := Scalar.minsi v33 c7811_i32_12
  let c128_i32_13 : BitVec 32 := 128#32
  let v35 : BitVec 32 := Scalar.muli v34 c128_i32_13
  v35

def k0_off5 (v32 : BitVec 32) : Fin 2 → Nat :=
  let c0_i32_14 : BitVec 32 := 0#32
  let c7_i32_11 : BitVec 32 := 7#32
  let v33 : BitVec 32 := Scalar.shrui v32 c7_i32_11
  let c7811_i32_12 : BitVec 32 := 7811#32
  let v34 : BitVec 32 := Scalar.minsi v33 c7811_i32_12
  let c128_i32_13 : BitVec 32 := 128#32
  let v35 : BitVec 32 := Scalar.muli v34 c128_i32_13
  let v36 : BitVec 32 := v35
  ![0, v36.toNat]

def k0_chk4 (v32 : BitVec 32) : Prop :=
  (128 ∣ (k0_mult4 v32).toNat) ∧
  (∀ a, (k0_off5 v32) a + S32x128.size a ≤ S32x1000000.size a)
instance k0_chk4.dec : ∀ (v32 : BitVec 32), Decidable (k0_chk4 v32) := fun v32 => decidable_of_iff' _ (Iff.of_eq (k0_chk4.eq_1 v32))
theorem k0_mult4_dvd : ∀ (v32 : BitVec 32) (k0_hw4 : k0_chk4 v32), 128 ∣ (k0_mult4 v32).toNat := fun v32 k0_hw4 => k0_hw4.1
theorem k0_off5_inb : ∀ (v32 : BitVec 32) (k0_hw4 : k0_chk4 v32), ∀ a, (k0_off5 v32) a + S32x128.size a ≤ S32x1000000.size a := fun v32 k0_hw4 => k0_hw4.2

def k0_mult5 (v41 : BitVec 32) : BitVec 32 :=
  let c7_i32_16 : BitVec 32 := 7#32
  let v42 : BitVec 32 := Scalar.shrui v41 c7_i32_16
  let c7811_i32_17 : BitVec 32 := 7811#32
  let v43 : BitVec 32 := Scalar.minsi v42 c7811_i32_17
  let c128_i32_18 : BitVec 32 := 128#32
  let v44 : BitVec 32 := Scalar.muli v43 c128_i32_18
  v44

def k0_off6 (v41 : BitVec 32) : Fin 2 → Nat :=
  let c0_i32_19 : BitVec 32 := 0#32
  let c7_i32_16 : BitVec 32 := 7#32
  let v42 : BitVec 32 := Scalar.shrui v41 c7_i32_16
  let c7811_i32_17 : BitVec 32 := 7811#32
  let v43 : BitVec 32 := Scalar.minsi v42 c7811_i32_17
  let c128_i32_18 : BitVec 32 := 128#32
  let v44 : BitVec 32 := Scalar.muli v43 c128_i32_18
  let v45 : BitVec 32 := v44
  ![0, v45.toNat]

def k0_chk5 (v41 : BitVec 32) : Prop :=
  (128 ∣ (k0_mult5 v41).toNat) ∧
  (∀ a, (k0_off6 v41) a + S32x128.size a ≤ S32x1000000.size a)
instance k0_chk5.dec : ∀ (v41 : BitVec 32), Decidable (k0_chk5 v41) := fun v41 => decidable_of_iff' _ (Iff.of_eq (k0_chk5.eq_1 v41))
theorem k0_mult5_dvd : ∀ (v41 : BitVec 32) (k0_hw5 : k0_chk5 v41), 128 ∣ (k0_mult5 v41).toNat := fun v41 k0_hw5 => k0_hw5.1
theorem k0_off6_inb : ∀ (v41 : BitVec 32) (k0_hw5 : k0_chk5 v41), ∀ a, (k0_off6 v41) a + S32x128.size a ≤ S32x1000000.size a := fun v41 k0_hw5 => k0_hw5.2

def k0_mult6 (v50 : BitVec 32) : BitVec 32 :=
  let c7_i32_21 : BitVec 32 := 7#32
  let v51 : BitVec 32 := Scalar.shrui v50 c7_i32_21
  let c7811_i32_22 : BitVec 32 := 7811#32
  let v52 : BitVec 32 := Scalar.minsi v51 c7811_i32_22
  let c128_i32_23 : BitVec 32 := 128#32
  let v53 : BitVec 32 := Scalar.muli v52 c128_i32_23
  v53

def k0_off7 (v50 : BitVec 32) : Fin 2 → Nat :=
  let c0_i32_24 : BitVec 32 := 0#32
  let c7_i32_21 : BitVec 32 := 7#32
  let v51 : BitVec 32 := Scalar.shrui v50 c7_i32_21
  let c7811_i32_22 : BitVec 32 := 7811#32
  let v52 : BitVec 32 := Scalar.minsi v51 c7811_i32_22
  let c128_i32_23 : BitVec 32 := 128#32
  let v53 : BitVec 32 := Scalar.muli v52 c128_i32_23
  let v54 : BitVec 32 := v53
  ![0, v54.toNat]

def k0_chk6 (v50 : BitVec 32) : Prop :=
  (128 ∣ (k0_mult6 v50).toNat) ∧
  (∀ a, (k0_off7 v50) a + S32x128.size a ≤ S32x1000000.size a)
instance k0_chk6.dec : ∀ (v50 : BitVec 32), Decidable (k0_chk6 v50) := fun v50 => decidable_of_iff' _ (Iff.of_eq (k0_chk6.eq_1 v50))
theorem k0_mult6_dvd : ∀ (v50 : BitVec 32) (k0_hw6 : k0_chk6 v50), 128 ∣ (k0_mult6 v50).toNat := fun v50 k0_hw6 => k0_hw6.1
theorem k0_off7_inb : ∀ (v50 : BitVec 32) (k0_hw6 : k0_chk6 v50), ∀ a, (k0_off7 v50) a + S32x128.size a ≤ S32x1000000.size a := fun v50 k0_hw6 => k0_hw6.2

def k0_mult7 (v59 : BitVec 32) : BitVec 32 :=
  let c7_i32_26 : BitVec 32 := 7#32
  let v60 : BitVec 32 := Scalar.shrui v59 c7_i32_26
  let c7811_i32_27 : BitVec 32 := 7811#32
  let v61 : BitVec 32 := Scalar.minsi v60 c7811_i32_27
  let c128_i32_28 : BitVec 32 := 128#32
  let v62 : BitVec 32 := Scalar.muli v61 c128_i32_28
  v62

def k0_off8 (v59 : BitVec 32) : Fin 2 → Nat :=
  let c0_i32_29 : BitVec 32 := 0#32
  let c7_i32_26 : BitVec 32 := 7#32
  let v60 : BitVec 32 := Scalar.shrui v59 c7_i32_26
  let c7811_i32_27 : BitVec 32 := 7811#32
  let v61 : BitVec 32 := Scalar.minsi v60 c7811_i32_27
  let c128_i32_28 : BitVec 32 := 128#32
  let v62 : BitVec 32 := Scalar.muli v61 c128_i32_28
  let v63 : BitVec 32 := v62
  ![0, v63.toNat]

def k0_chk7 (v59 : BitVec 32) : Prop :=
  (128 ∣ (k0_mult7 v59).toNat) ∧
  (∀ a, (k0_off8 v59) a + S32x128.size a ≤ S32x1000000.size a)
instance k0_chk7.dec : ∀ (v59 : BitVec 32), Decidable (k0_chk7 v59) := fun v59 => decidable_of_iff' _ (Iff.of_eq (k0_chk7.eq_1 v59))
theorem k0_mult7_dvd : ∀ (v59 : BitVec 32) (k0_hw7 : k0_chk7 v59), 128 ∣ (k0_mult7 v59).toNat := fun v59 k0_hw7 => k0_hw7.1
theorem k0_off8_inb : ∀ (v59 : BitVec 32) (k0_hw7 : k0_chk7 v59), ∀ a, (k0_off8 v59) a + S32x128.size a ≤ S32x1000000.size a := fun v59 k0_hw7 => k0_hw7.2

def k0_mult8 (v68 : BitVec 32) : BitVec 32 :=
  let c7_i32_31 : BitVec 32 := 7#32
  let v69 : BitVec 32 := Scalar.shrui v68 c7_i32_31
  let c7811_i32_32 : BitVec 32 := 7811#32
  let v70 : BitVec 32 := Scalar.minsi v69 c7811_i32_32
  let c128_i32_33 : BitVec 32 := 128#32
  let v71 : BitVec 32 := Scalar.muli v70 c128_i32_33
  v71

def k0_off9 (v68 : BitVec 32) : Fin 2 → Nat :=
  let c0_i32_34 : BitVec 32 := 0#32
  let c7_i32_31 : BitVec 32 := 7#32
  let v69 : BitVec 32 := Scalar.shrui v68 c7_i32_31
  let c7811_i32_32 : BitVec 32 := 7811#32
  let v70 : BitVec 32 := Scalar.minsi v69 c7811_i32_32
  let c128_i32_33 : BitVec 32 := 128#32
  let v71 : BitVec 32 := Scalar.muli v70 c128_i32_33
  let v72 : BitVec 32 := v71
  ![0, v72.toNat]

def k0_chk8 (v68 : BitVec 32) : Prop :=
  (128 ∣ (k0_mult8 v68).toNat) ∧
  (∀ a, (k0_off9 v68) a + S32x128.size a ≤ S32x1000000.size a)
instance k0_chk8.dec : ∀ (v68 : BitVec 32), Decidable (k0_chk8 v68) := fun v68 => decidable_of_iff' _ (Iff.of_eq (k0_chk8.eq_1 v68))
theorem k0_mult8_dvd : ∀ (v68 : BitVec 32) (k0_hw8 : k0_chk8 v68), 128 ∣ (k0_mult8 v68).toNat := fun v68 k0_hw8 => k0_hw8.1
theorem k0_off9_inb : ∀ (v68 : BitVec 32) (k0_hw8 : k0_chk8 v68), ∀ a, (k0_off9 v68) a + S32x128.size a ≤ S32x1000000.size a := fun v68 k0_hw8 => k0_hw8.2

@[reducible] def k0_t1_loop : Scf.Loop 32 :=
  let c0_i32_36 : BitVec 32 := 0#32
  let c512_i32_37 : BitVec 32 := 512#32
  let v75 : BitVec 32 := Scalar.addi c0_i32_36 c512_i32_37
  let c1_i32 : BitVec 32 := 1#32
  ⟨c0_i32_36, v75, c1_i32⟩
def k0_off10 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let v78 : Index := Scalar.indexCast v77
  ![v78.toNat]
def k0_cond1 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32 : BitVec 32 := 8#32
  let c0_i32_41 : BitVec 32 := 0#32
  let v83 : BitVec 1 := Scalar.cmpi .eq c8_i32 c0_i32_41
  let c1_i32_42 : BitVec 32 := 1#32
  let v84 : BitVec 32 := Scalar.select v83 c1_i32_42 c8_i32
  let v85 : BitVec 32 := Scalar.remsi v77 v84
  let c0_i32_44 : BitVec 32 := 0#32
  let v87 : BitVec 1 := Scalar.cmpi .slt v85 c0_i32_44
  let c0_i32_45 : BitVec 32 := 0#32
  let v88 : BitVec 1 := Scalar.cmpi .slt v84 c0_i32_45
  let v89 : BitVec 1 := Scalar.xori v87 v88
  let c0_i32_43 : BitVec 32 := 0#32
  let v86 : BitVec 1 := Scalar.cmpi .ne v85 c0_i32_43
  let v90 : BitVec 1 := Scalar.andi v89 v86
  let v91 : BitVec 32 := Scalar.addi v85 v84
  let v92 : BitVec 32 := Scalar.select v90 v91 v85
  let c0_i32_46 : BitVec 32 := 0#32
  let v93 : BitVec 1 := Scalar.cmpi .eq v92 c0_i32_46
  let v94 : BitVec 32 := Scalar.extui v93
  let c0_i32_47 : BitVec 32 := 0#32
  let v95 : BitVec 1 := Scalar.cmpi .ne v94 c0_i32_47
  v95

def k0_chk9 (k0_t1 : Fin k0_t1_loop.trips) (v195 : IVec S16 32) (v198 : IVec S16 32) : Prop :=
  (∀ (k0_h1 : k0_cond1 k0_t1 = 1#1), ∀ a x, ((![v195, v198] : Fin 2 → IVec S16 32) a x).toNat < S32x128.size a)
instance k0_chk9.dec : ∀ (k0_t1 : Fin k0_t1_loop.trips) (v195 : IVec S16 32) (v198 : IVec S16 32), Decidable (k0_chk9 k0_t1 v195 v198) := fun k0_t1 v195 v198 => decidable_of_iff' _ (Iff.of_eq (k0_chk9.eq_1 k0_t1 v195 v198))
theorem k0_idx1_inb : ∀ (k0_t1 : Fin k0_t1_loop.trips) (v195 : IVec S16 32) (v198 : IVec S16 32) (k0_hw9 : k0_chk9 k0_t1 v195 v198), ∀ (k0_h1 : k0_cond1 k0_t1 = 1#1), ∀ a x, ((![v195, v198] : Fin 2 → IVec S16 32) a x).toNat < S32x128.size a := fun k0_t1 v195 v198 k0_hw9 k0_h1 => k0_hw9 k0_h1

def k0_chk10 (k0_t1 : Fin k0_t1_loop.trips) (v201 : IVec S16 32) : Prop :=
  (∀ (k0_h1 : k0_cond1 k0_t1 = 1#1), ∀ a x, ((![v201] : Fin 1 → IVec S16 32) a x).toNat < S2048.size a)
instance k0_chk10.dec : ∀ (k0_t1 : Fin k0_t1_loop.trips) (v201 : IVec S16 32), Decidable (k0_chk10 k0_t1 v201) := fun k0_t1 v201 => decidable_of_iff' _ (Iff.of_eq (k0_chk10.eq_1 k0_t1 v201))
theorem k0_idx2_inb : ∀ (k0_t1 : Fin k0_t1_loop.trips) (v201 : IVec S16 32) (k0_hw10 : k0_chk10 k0_t1 v201), ∀ (k0_h1 : k0_cond1 k0_t1 = 1#1), ∀ a x, ((![v201] : Fin 1 → IVec S16 32) a x).toNat < S2048.size a := fun k0_t1 v201 k0_hw10 k0_h1 => k0_hw10 k0_h1

def k0_chk11 (k0_t1 : Fin k0_t1_loop.trips) (v195 : IVec S16 32) (v207 : IVec S16 32) : Prop :=
  (∀ (k0_h1 : k0_cond1 k0_t1 = 1#1), ∀ a x, ((![v195, v207] : Fin 2 → IVec S16 32) a x).toNat < S32x512.size a)
instance k0_chk11.dec : ∀ (k0_t1 : Fin k0_t1_loop.trips) (v195 : IVec S16 32) (v207 : IVec S16 32), Decidable (k0_chk11 k0_t1 v195 v207) := fun k0_t1 v195 v207 => decidable_of_iff' _ (Iff.of_eq (k0_chk11.eq_1 k0_t1 v195 v207))
theorem k0_idx3_inb : ∀ (k0_t1 : Fin k0_t1_loop.trips) (v195 : IVec S16 32) (v207 : IVec S16 32) (k0_hw11 : k0_chk11 k0_t1 v195 v207), ∀ (k0_h1 : k0_cond1 k0_t1 = 1#1), ∀ a x, ((![v195, v207] : Fin 2 → IVec S16 32) a x).toNat < S32x512.size a := fun k0_t1 v195 v207 k0_hw11 k0_h1 => k0_hw11 k0_h1

def k0_chk12 (k0_t1 : Fin k0_t1_loop.trips) (v210 : IVec S16 32) (v213 : IVec S16 32) : Prop :=
  (∀ (k0_h1 : k0_cond1 k0_t1 = 1#1), ∀ a x, ((![v210, v213] : Fin 2 → IVec S16 32) a x).toNat < S32x128.size a)
instance k0_chk12.dec : ∀ (k0_t1 : Fin k0_t1_loop.trips) (v210 : IVec S16 32) (v213 : IVec S16 32), Decidable (k0_chk12 k0_t1 v210 v213) := fun k0_t1 v210 v213 => decidable_of_iff' _ (Iff.of_eq (k0_chk12.eq_1 k0_t1 v210 v213))
theorem k0_idx4_inb : ∀ (k0_t1 : Fin k0_t1_loop.trips) (v210 : IVec S16 32) (v213 : IVec S16 32) (k0_hw12 : k0_chk12 k0_t1 v210 v213), ∀ (k0_h1 : k0_cond1 k0_t1 = 1#1), ∀ a x, ((![v210, v213] : Fin 2 → IVec S16 32) a x).toNat < S32x128.size a := fun k0_t1 v210 v213 k0_hw12 k0_h1 => k0_hw12 k0_h1

def k0_chk13 (k0_t1 : Fin k0_t1_loop.trips) (v216 : IVec S16 32) : Prop :=
  (∀ (k0_h1 : k0_cond1 k0_t1 = 1#1), ∀ a x, ((![v216] : Fin 1 → IVec S16 32) a x).toNat < S2048.size a)
instance k0_chk13.dec : ∀ (k0_t1 : Fin k0_t1_loop.trips) (v216 : IVec S16 32), Decidable (k0_chk13 k0_t1 v216) := fun k0_t1 v216 => decidable_of_iff' _ (Iff.of_eq (k0_chk13.eq_1 k0_t1 v216))
theorem k0_idx5_inb : ∀ (k0_t1 : Fin k0_t1_loop.trips) (v216 : IVec S16 32) (k0_hw13 : k0_chk13 k0_t1 v216), ∀ (k0_h1 : k0_cond1 k0_t1 = 1#1), ∀ a x, ((![v216] : Fin 1 → IVec S16 32) a x).toNat < S2048.size a := fun k0_t1 v216 k0_hw13 k0_h1 => k0_hw13 k0_h1

def k0_chk14 (k0_t1 : Fin k0_t1_loop.trips) (v210 : IVec S16 32) (v222 : IVec S16 32) : Prop :=
  (∀ (k0_h1 : k0_cond1 k0_t1 = 1#1), ∀ a x, ((![v210, v222] : Fin 2 → IVec S16 32) a x).toNat < S32x512.size a)
instance k0_chk14.dec : ∀ (k0_t1 : Fin k0_t1_loop.trips) (v210 : IVec S16 32) (v222 : IVec S16 32), Decidable (k0_chk14 k0_t1 v210 v222) := fun k0_t1 v210 v222 => decidable_of_iff' _ (Iff.of_eq (k0_chk14.eq_1 k0_t1 v210 v222))
theorem k0_idx6_inb : ∀ (k0_t1 : Fin k0_t1_loop.trips) (v210 : IVec S16 32) (v222 : IVec S16 32) (k0_hw14 : k0_chk14 k0_t1 v210 v222), ∀ (k0_h1 : k0_cond1 k0_t1 = 1#1), ∀ a x, ((![v210, v222] : Fin 2 → IVec S16 32) a x).toNat < S32x512.size a := fun k0_t1 v210 v222 k0_hw14 k0_h1 => k0_hw14 k0_h1
def k0_cond2 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off11 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult9 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off12 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk15 (k0_t1 : Fin k0_t1_loop.trips) (v231 : BitVec 32) : Prop :=
  (∀ (k0_h1 : k0_cond1 k0_t1 = 1#1), ∀ (k0_h2 : k0_cond2 k0_t1 = 1#1), 128 ∣ (k0_mult9 v231).toNat) ∧
  (∀ (k0_h1 : k0_cond1 k0_t1 = 1#1), ∀ (k0_h2 : k0_cond2 k0_t1 = 1#1), ∀ a, (k0_off12 v231) a + S32x128.size a ≤ S32x1000000.size a)
instance k0_chk15.dec : ∀ (k0_t1 : Fin k0_t1_loop.trips) (v231 : BitVec 32), Decidable (k0_chk15 k0_t1 v231) := fun k0_t1 v231 => decidable_of_iff' _ (Iff.of_eq (k0_chk15.eq_1 k0_t1 v231))
theorem k0_mult9_dvd : ∀ (k0_t1 : Fin k0_t1_loop.trips) (v231 : BitVec 32) (k0_hw15 : k0_chk15 k0_t1 v231), ∀ (k0_h1 : k0_cond1 k0_t1 = 1#1), ∀ (k0_h2 : k0_cond2 k0_t1 = 1#1), 128 ∣ (k0_mult9 v231).toNat := fun k0_t1 v231 k0_hw15 k0_h1 k0_h2 => k0_hw15.1 k0_h1 k0_h2
theorem k0_off12_inb : ∀ (k0_t1 : Fin k0_t1_loop.trips) (v231 : BitVec 32) (k0_hw15 : k0_chk15 k0_t1 v231), ∀ (k0_h1 : k0_cond1 k0_t1 = 1#1), ∀ (k0_h2 : k0_cond2 k0_t1 = 1#1), ∀ a, (k0_off12 v231) a + S32x128.size a ≤ S32x1000000.size a := fun k0_t1 v231 k0_hw15 k0_h1 k0_h2 => k0_hw15.2 k0_h1 k0_h2

def k0_cond3 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_48 : BitVec 32 := 8#32
  let c0_i32_49 : BitVec 32 := 0#32
  let v96 : BitVec 1 := Scalar.cmpi .eq c8_i32_48 c0_i32_49
  let c1_i32_50 : BitVec 32 := 1#32
  let v97 : BitVec 32 := Scalar.select v96 c1_i32_50 c8_i32_48
  let v98 : BitVec 32 := Scalar.remsi v77 v97
  let c0_i32_52 : BitVec 32 := 0#32
  let v100 : BitVec 1 := Scalar.cmpi .slt v98 c0_i32_52
  let c0_i32_53 : BitVec 32 := 0#32
  let v101 : BitVec 1 := Scalar.cmpi .slt v97 c0_i32_53
  let v102 : BitVec 1 := Scalar.xori v100 v101
  let c0_i32_51 : BitVec 32 := 0#32
  let v99 : BitVec 1 := Scalar.cmpi .ne v98 c0_i32_51
  let v103 : BitVec 1 := Scalar.andi v102 v99
  let v104 : BitVec 32 := Scalar.addi v98 v97
  let v105 : BitVec 32 := Scalar.select v103 v104 v98
  let c1_i32_54 : BitVec 32 := 1#32
  let v106 : BitVec 1 := Scalar.cmpi .eq v105 c1_i32_54
  let v107 : BitVec 32 := Scalar.extui v106
  let c0_i32_55 : BitVec 32 := 0#32
  let v108 : BitVec 1 := Scalar.cmpi .ne v107 c0_i32_55
  v108

def k0_chk16 (k0_t1 : Fin k0_t1_loop.trips) (v195 : IVec S16 32) (v198 : IVec S16 32) : Prop :=
  (∀ (k0_h3 : k0_cond3 k0_t1 = 1#1), ∀ a x, ((![v195, v198] : Fin 2 → IVec S16 32) a x).toNat < S32x128.size a)
instance k0_chk16.dec : ∀ (k0_t1 : Fin k0_t1_loop.trips) (v195 : IVec S16 32) (v198 : IVec S16 32), Decidable (k0_chk16 k0_t1 v195 v198) := fun k0_t1 v195 v198 => decidable_of_iff' _ (Iff.of_eq (k0_chk16.eq_1 k0_t1 v195 v198))
theorem k0_idx7_inb : ∀ (k0_t1 : Fin k0_t1_loop.trips) (v195 : IVec S16 32) (v198 : IVec S16 32) (k0_hw16 : k0_chk16 k0_t1 v195 v198), ∀ (k0_h3 : k0_cond3 k0_t1 = 1#1), ∀ a x, ((![v195, v198] : Fin 2 → IVec S16 32) a x).toNat < S32x128.size a := fun k0_t1 v195 v198 k0_hw16 k0_h3 => k0_hw16 k0_h3

def k0_chk17 (k0_t1 : Fin k0_t1_loop.trips) (v201 : IVec S16 32) : Prop :=
  (∀ (k0_h3 : k0_cond3 k0_t1 = 1#1), ∀ a x, ((![v201] : Fin 1 → IVec S16 32) a x).toNat < S2048.size a)
instance k0_chk17.dec : ∀ (k0_t1 : Fin k0_t1_loop.trips) (v201 : IVec S16 32), Decidable (k0_chk17 k0_t1 v201) := fun k0_t1 v201 => decidable_of_iff' _ (Iff.of_eq (k0_chk17.eq_1 k0_t1 v201))
theorem k0_idx8_inb : ∀ (k0_t1 : Fin k0_t1_loop.trips) (v201 : IVec S16 32) (k0_hw17 : k0_chk17 k0_t1 v201), ∀ (k0_h3 : k0_cond3 k0_t1 = 1#1), ∀ a x, ((![v201] : Fin 1 → IVec S16 32) a x).toNat < S2048.size a := fun k0_t1 v201 k0_hw17 k0_h3 => k0_hw17 k0_h3

def k0_chk18 (k0_t1 : Fin k0_t1_loop.trips) (v195 : IVec S16 32) (v207 : IVec S16 32) : Prop :=
  (∀ (k0_h3 : k0_cond3 k0_t1 = 1#1), ∀ a x, ((![v195, v207] : Fin 2 → IVec S16 32) a x).toNat < S32x512.size a)
instance k0_chk18.dec : ∀ (k0_t1 : Fin k0_t1_loop.trips) (v195 : IVec S16 32) (v207 : IVec S16 32), Decidable (k0_chk18 k0_t1 v195 v207) := fun k0_t1 v195 v207 => decidable_of_iff' _ (Iff.of_eq (k0_chk18.eq_1 k0_t1 v195 v207))
theorem k0_idx9_inb : ∀ (k0_t1 : Fin k0_t1_loop.trips) (v195 : IVec S16 32) (v207 : IVec S16 32) (k0_hw18 : k0_chk18 k0_t1 v195 v207), ∀ (k0_h3 : k0_cond3 k0_t1 = 1#1), ∀ a x, ((![v195, v207] : Fin 2 → IVec S16 32) a x).toNat < S32x512.size a := fun k0_t1 v195 v207 k0_hw18 k0_h3 => k0_hw18 k0_h3

def k0_chk19 (k0_t1 : Fin k0_t1_loop.trips) (v210 : IVec S16 32) (v213 : IVec S16 32) : Prop :=
  (∀ (k0_h3 : k0_cond3 k0_t1 = 1#1), ∀ a x, ((![v210, v213] : Fin 2 → IVec S16 32) a x).toNat < S32x128.size a)
instance k0_chk19.dec : ∀ (k0_t1 : Fin k0_t1_loop.trips) (v210 : IVec S16 32) (v213 : IVec S16 32), Decidable (k0_chk19 k0_t1 v210 v213) := fun k0_t1 v210 v213 => decidable_of_iff' _ (Iff.of_eq (k0_chk19.eq_1 k0_t1 v210 v213))
theorem k0_idx10_inb : ∀ (k0_t1 : Fin k0_t1_loop.trips) (v210 : IVec S16 32) (v213 : IVec S16 32) (k0_hw19 : k0_chk19 k0_t1 v210 v213), ∀ (k0_h3 : k0_cond3 k0_t1 = 1#1), ∀ a x, ((![v210, v213] : Fin 2 → IVec S16 32) a x).toNat < S32x128.size a := fun k0_t1 v210 v213 k0_hw19 k0_h3 => k0_hw19 k0_h3

def k0_chk20 (k0_t1 : Fin k0_t1_loop.trips) (v216 : IVec S16 32) : Prop :=
  (∀ (k0_h3 : k0_cond3 k0_t1 = 1#1), ∀ a x, ((![v216] : Fin 1 → IVec S16 32) a x).toNat < S2048.size a)
instance k0_chk20.dec : ∀ (k0_t1 : Fin k0_t1_loop.trips) (v216 : IVec S16 32), Decidable (k0_chk20 k0_t1 v216) := fun k0_t1 v216 => decidable_of_iff' _ (Iff.of_eq (k0_chk20.eq_1 k0_t1 v216))
theorem k0_idx11_inb : ∀ (k0_t1 : Fin k0_t1_loop.trips) (v216 : IVec S16 32) (k0_hw20 : k0_chk20 k0_t1 v216), ∀ (k0_h3 : k0_cond3 k0_t1 = 1#1), ∀ a x, ((![v216] : Fin 1 → IVec S16 32) a x).toNat < S2048.size a := fun k0_t1 v216 k0_hw20 k0_h3 => k0_hw20 k0_h3

def k0_chk21 (k0_t1 : Fin k0_t1_loop.trips) (v210 : IVec S16 32) (v222 : IVec S16 32) : Prop :=
  (∀ (k0_h3 : k0_cond3 k0_t1 = 1#1), ∀ a x, ((![v210, v222] : Fin 2 → IVec S16 32) a x).toNat < S32x512.size a)
instance k0_chk21.dec : ∀ (k0_t1 : Fin k0_t1_loop.trips) (v210 : IVec S16 32) (v222 : IVec S16 32), Decidable (k0_chk21 k0_t1 v210 v222) := fun k0_t1 v210 v222 => decidable_of_iff' _ (Iff.of_eq (k0_chk21.eq_1 k0_t1 v210 v222))
theorem k0_idx12_inb : ∀ (k0_t1 : Fin k0_t1_loop.trips) (v210 : IVec S16 32) (v222 : IVec S16 32) (k0_hw21 : k0_chk21 k0_t1 v210 v222), ∀ (k0_h3 : k0_cond3 k0_t1 = 1#1), ∀ a x, ((![v210, v222] : Fin 2 → IVec S16 32) a x).toNat < S32x512.size a := fun k0_t1 v210 v222 k0_hw21 k0_h3 => k0_hw21 k0_h3
def k0_cond4 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off13 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult10 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off14 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk22 (k0_t1 : Fin k0_t1_loop.trips) (v231 : BitVec 32) : Prop :=
  (∀ (k0_h3 : k0_cond3 k0_t1 = 1#1), ∀ (k0_h4 : k0_cond4 k0_t1 = 1#1), 128 ∣ (k0_mult10 v231).toNat) ∧
  (∀ (k0_h3 : k0_cond3 k0_t1 = 1#1), ∀ (k0_h4 : k0_cond4 k0_t1 = 1#1), ∀ a, (k0_off14 v231) a + S32x128.size a ≤ S32x1000000.size a)
instance k0_chk22.dec : ∀ (k0_t1 : Fin k0_t1_loop.trips) (v231 : BitVec 32), Decidable (k0_chk22 k0_t1 v231) := fun k0_t1 v231 => decidable_of_iff' _ (Iff.of_eq (k0_chk22.eq_1 k0_t1 v231))
theorem k0_mult10_dvd : ∀ (k0_t1 : Fin k0_t1_loop.trips) (v231 : BitVec 32) (k0_hw22 : k0_chk22 k0_t1 v231), ∀ (k0_h3 : k0_cond3 k0_t1 = 1#1), ∀ (k0_h4 : k0_cond4 k0_t1 = 1#1), 128 ∣ (k0_mult10 v231).toNat := fun k0_t1 v231 k0_hw22 k0_h3 k0_h4 => k0_hw22.1 k0_h3 k0_h4
theorem k0_off14_inb : ∀ (k0_t1 : Fin k0_t1_loop.trips) (v231 : BitVec 32) (k0_hw22 : k0_chk22 k0_t1 v231), ∀ (k0_h3 : k0_cond3 k0_t1 = 1#1), ∀ (k0_h4 : k0_cond4 k0_t1 = 1#1), ∀ a, (k0_off14 v231) a + S32x128.size a ≤ S32x1000000.size a := fun k0_t1 v231 k0_hw22 k0_h3 k0_h4 => k0_hw22.2 k0_h3 k0_h4

def k0_cond5 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_56 : BitVec 32 := 8#32
  let c0_i32_57 : BitVec 32 := 0#32
  let v109 : BitVec 1 := Scalar.cmpi .eq c8_i32_56 c0_i32_57
  let c1_i32_58 : BitVec 32 := 1#32
  let v110 : BitVec 32 := Scalar.select v109 c1_i32_58 c8_i32_56
  let v111 : BitVec 32 := Scalar.remsi v77 v110
  let c0_i32_60 : BitVec 32 := 0#32
  let v113 : BitVec 1 := Scalar.cmpi .slt v111 c0_i32_60
  let c0_i32_61 : BitVec 32 := 0#32
  let v114 : BitVec 1 := Scalar.cmpi .slt v110 c0_i32_61
  let v115 : BitVec 1 := Scalar.xori v113 v114
  let c0_i32_59 : BitVec 32 := 0#32
  let v112 : BitVec 1 := Scalar.cmpi .ne v111 c0_i32_59
  let v116 : BitVec 1 := Scalar.andi v115 v112
  let v117 : BitVec 32 := Scalar.addi v111 v110
  let v118 : BitVec 32 := Scalar.select v116 v117 v111
  let c2_i32_62 : BitVec 32 := 2#32
  let v119 : BitVec 1 := Scalar.cmpi .eq v118 c2_i32_62
  let v120 : BitVec 32 := Scalar.extui v119
  let c0_i32_63 : BitVec 32 := 0#32
  let v121 : BitVec 1 := Scalar.cmpi .ne v120 c0_i32_63
  v121

def k0_chk23 (k0_t1 : Fin k0_t1_loop.trips) (v195 : IVec S16 32) (v198 : IVec S16 32) : Prop :=
  (∀ (k0_h5 : k0_cond5 k0_t1 = 1#1), ∀ a x, ((![v195, v198] : Fin 2 → IVec S16 32) a x).toNat < S32x128.size a)
instance k0_chk23.dec : ∀ (k0_t1 : Fin k0_t1_loop.trips) (v195 : IVec S16 32) (v198 : IVec S16 32), Decidable (k0_chk23 k0_t1 v195 v198) := fun k0_t1 v195 v198 => decidable_of_iff' _ (Iff.of_eq (k0_chk23.eq_1 k0_t1 v195 v198))
theorem k0_idx13_inb : ∀ (k0_t1 : Fin k0_t1_loop.trips) (v195 : IVec S16 32) (v198 : IVec S16 32) (k0_hw23 : k0_chk23 k0_t1 v195 v198), ∀ (k0_h5 : k0_cond5 k0_t1 = 1#1), ∀ a x, ((![v195, v198] : Fin 2 → IVec S16 32) a x).toNat < S32x128.size a := fun k0_t1 v195 v198 k0_hw23 k0_h5 => k0_hw23 k0_h5

def k0_chk24 (k0_t1 : Fin k0_t1_loop.trips) (v201 : IVec S16 32) : Prop :=
  (∀ (k0_h5 : k0_cond5 k0_t1 = 1#1), ∀ a x, ((![v201] : Fin 1 → IVec S16 32) a x).toNat < S2048.size a)
instance k0_chk24.dec : ∀ (k0_t1 : Fin k0_t1_loop.trips) (v201 : IVec S16 32), Decidable (k0_chk24 k0_t1 v201) := fun k0_t1 v201 => decidable_of_iff' _ (Iff.of_eq (k0_chk24.eq_1 k0_t1 v201))
theorem k0_idx14_inb : ∀ (k0_t1 : Fin k0_t1_loop.trips) (v201 : IVec S16 32) (k0_hw24 : k0_chk24 k0_t1 v201), ∀ (k0_h5 : k0_cond5 k0_t1 = 1#1), ∀ a x, ((![v201] : Fin 1 → IVec S16 32) a x).toNat < S2048.size a := fun k0_t1 v201 k0_hw24 k0_h5 => k0_hw24 k0_h5

def k0_chk25 (k0_t1 : Fin k0_t1_loop.trips) (v195 : IVec S16 32) (v207 : IVec S16 32) : Prop :=
  (∀ (k0_h5 : k0_cond5 k0_t1 = 1#1), ∀ a x, ((![v195, v207] : Fin 2 → IVec S16 32) a x).toNat < S32x512.size a)
instance k0_chk25.dec : ∀ (k0_t1 : Fin k0_t1_loop.trips) (v195 : IVec S16 32) (v207 : IVec S16 32), Decidable (k0_chk25 k0_t1 v195 v207) := fun k0_t1 v195 v207 => decidable_of_iff' _ (Iff.of_eq (k0_chk25.eq_1 k0_t1 v195 v207))
theorem k0_idx15_inb : ∀ (k0_t1 : Fin k0_t1_loop.trips) (v195 : IVec S16 32) (v207 : IVec S16 32) (k0_hw25 : k0_chk25 k0_t1 v195 v207), ∀ (k0_h5 : k0_cond5 k0_t1 = 1#1), ∀ a x, ((![v195, v207] : Fin 2 → IVec S16 32) a x).toNat < S32x512.size a := fun k0_t1 v195 v207 k0_hw25 k0_h5 => k0_hw25 k0_h5

def k0_chk26 (k0_t1 : Fin k0_t1_loop.trips) (v210 : IVec S16 32) (v213 : IVec S16 32) : Prop :=
  (∀ (k0_h5 : k0_cond5 k0_t1 = 1#1), ∀ a x, ((![v210, v213] : Fin 2 → IVec S16 32) a x).toNat < S32x128.size a)
instance k0_chk26.dec : ∀ (k0_t1 : Fin k0_t1_loop.trips) (v210 : IVec S16 32) (v213 : IVec S16 32), Decidable (k0_chk26 k0_t1 v210 v213) := fun k0_t1 v210 v213 => decidable_of_iff' _ (Iff.of_eq (k0_chk26.eq_1 k0_t1 v210 v213))
theorem k0_idx16_inb : ∀ (k0_t1 : Fin k0_t1_loop.trips) (v210 : IVec S16 32) (v213 : IVec S16 32) (k0_hw26 : k0_chk26 k0_t1 v210 v213), ∀ (k0_h5 : k0_cond5 k0_t1 = 1#1), ∀ a x, ((![v210, v213] : Fin 2 → IVec S16 32) a x).toNat < S32x128.size a := fun k0_t1 v210 v213 k0_hw26 k0_h5 => k0_hw26 k0_h5

def k0_chk27 (k0_t1 : Fin k0_t1_loop.trips) (v216 : IVec S16 32) : Prop :=
  (∀ (k0_h5 : k0_cond5 k0_t1 = 1#1), ∀ a x, ((![v216] : Fin 1 → IVec S16 32) a x).toNat < S2048.size a)
instance k0_chk27.dec : ∀ (k0_t1 : Fin k0_t1_loop.trips) (v216 : IVec S16 32), Decidable (k0_chk27 k0_t1 v216) := fun k0_t1 v216 => decidable_of_iff' _ (Iff.of_eq (k0_chk27.eq_1 k0_t1 v216))
theorem k0_idx17_inb : ∀ (k0_t1 : Fin k0_t1_loop.trips) (v216 : IVec S16 32) (k0_hw27 : k0_chk27 k0_t1 v216), ∀ (k0_h5 : k0_cond5 k0_t1 = 1#1), ∀ a x, ((![v216] : Fin 1 → IVec S16 32) a x).toNat < S2048.size a := fun k0_t1 v216 k0_hw27 k0_h5 => k0_hw27 k0_h5

def k0_chk28 (k0_t1 : Fin k0_t1_loop.trips) (v210 : IVec S16 32) (v222 : IVec S16 32) : Prop :=
  (∀ (k0_h5 : k0_cond5 k0_t1 = 1#1), ∀ a x, ((![v210, v222] : Fin 2 → IVec S16 32) a x).toNat < S32x512.size a)
instance k0_chk28.dec : ∀ (k0_t1 : Fin k0_t1_loop.trips) (v210 : IVec S16 32) (v222 : IVec S16 32), Decidable (k0_chk28 k0_t1 v210 v222) := fun k0_t1 v210 v222 => decidable_of_iff' _ (Iff.of_eq (k0_chk28.eq_1 k0_t1 v210 v222))
theorem k0_idx18_inb : ∀ (k0_t1 : Fin k0_t1_loop.trips) (v210 : IVec S16 32) (v222 : IVec S16 32) (k0_hw28 : k0_chk28 k0_t1 v210 v222), ∀ (k0_h5 : k0_cond5 k0_t1 = 1#1), ∀ a x, ((![v210, v222] : Fin 2 → IVec S16 32) a x).toNat < S32x512.size a := fun k0_t1 v210 v222 k0_hw28 k0_h5 => k0_hw28 k0_h5
def k0_cond6 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off15 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult11 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off16 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk29 (k0_t1 : Fin k0_t1_loop.trips) (v231 : BitVec 32) : Prop :=
  (∀ (k0_h5 : k0_cond5 k0_t1 = 1#1), ∀ (k0_h6 : k0_cond6 k0_t1 = 1#1), 128 ∣ (k0_mult11 v231).toNat) ∧
  (∀ (k0_h5 : k0_cond5 k0_t1 = 1#1), ∀ (k0_h6 : k0_cond6 k0_t1 = 1#1), ∀ a, (k0_off16 v231) a + S32x128.size a ≤ S32x1000000.size a)
instance k0_chk29.dec : ∀ (k0_t1 : Fin k0_t1_loop.trips) (v231 : BitVec 32), Decidable (k0_chk29 k0_t1 v231) := fun k0_t1 v231 => decidable_of_iff' _ (Iff.of_eq (k0_chk29.eq_1 k0_t1 v231))
theorem k0_mult11_dvd : ∀ (k0_t1 : Fin k0_t1_loop.trips) (v231 : BitVec 32) (k0_hw29 : k0_chk29 k0_t1 v231), ∀ (k0_h5 : k0_cond5 k0_t1 = 1#1), ∀ (k0_h6 : k0_cond6 k0_t1 = 1#1), 128 ∣ (k0_mult11 v231).toNat := fun k0_t1 v231 k0_hw29 k0_h5 k0_h6 => k0_hw29.1 k0_h5 k0_h6
theorem k0_off16_inb : ∀ (k0_t1 : Fin k0_t1_loop.trips) (v231 : BitVec 32) (k0_hw29 : k0_chk29 k0_t1 v231), ∀ (k0_h5 : k0_cond5 k0_t1 = 1#1), ∀ (k0_h6 : k0_cond6 k0_t1 = 1#1), ∀ a, (k0_off16 v231) a + S32x128.size a ≤ S32x1000000.size a := fun k0_t1 v231 k0_hw29 k0_h5 k0_h6 => k0_hw29.2 k0_h5 k0_h6

def k0_cond7 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_64 : BitVec 32 := 8#32
  let c0_i32_65 : BitVec 32 := 0#32
  let v122 : BitVec 1 := Scalar.cmpi .eq c8_i32_64 c0_i32_65
  let c1_i32_66 : BitVec 32 := 1#32
  let v123 : BitVec 32 := Scalar.select v122 c1_i32_66 c8_i32_64
  let v124 : BitVec 32 := Scalar.remsi v77 v123
  let c0_i32_68 : BitVec 32 := 0#32
  let v126 : BitVec 1 := Scalar.cmpi .slt v124 c0_i32_68
  let c0_i32_69 : BitVec 32 := 0#32
  let v127 : BitVec 1 := Scalar.cmpi .slt v123 c0_i32_69
  let v128 : BitVec 1 := Scalar.xori v126 v127
  let c0_i32_67 : BitVec 32 := 0#32
  let v125 : BitVec 1 := Scalar.cmpi .ne v124 c0_i32_67
  let v129 : BitVec 1 := Scalar.andi v128 v125
  let v130 : BitVec 32 := Scalar.addi v124 v123
  let v131 : BitVec 32 := Scalar.select v129 v130 v124
  let c3_i32 : BitVec 32 := 3#32
  let v132 : BitVec 1 := Scalar.cmpi .eq v131 c3_i32
  let v133 : BitVec 32 := Scalar.extui v132
  let c0_i32_70 : BitVec 32 := 0#32
  let v134 : BitVec 1 := Scalar.cmpi .ne v133 c0_i32_70
  v134

def k0_chk30 (k0_t1 : Fin k0_t1_loop.trips) (v195 : IVec S16 32) (v198 : IVec S16 32) : Prop :=
  (∀ (k0_h7 : k0_cond7 k0_t1 = 1#1), ∀ a x, ((![v195, v198] : Fin 2 → IVec S16 32) a x).toNat < S32x128.size a)
instance k0_chk30.dec : ∀ (k0_t1 : Fin k0_t1_loop.trips) (v195 : IVec S16 32) (v198 : IVec S16 32), Decidable (k0_chk30 k0_t1 v195 v198) := fun k0_t1 v195 v198 => decidable_of_iff' _ (Iff.of_eq (k0_chk30.eq_1 k0_t1 v195 v198))
theorem k0_idx19_inb : ∀ (k0_t1 : Fin k0_t1_loop.trips) (v195 : IVec S16 32) (v198 : IVec S16 32) (k0_hw30 : k0_chk30 k0_t1 v195 v198), ∀ (k0_h7 : k0_cond7 k0_t1 = 1#1), ∀ a x, ((![v195, v198] : Fin 2 → IVec S16 32) a x).toNat < S32x128.size a := fun k0_t1 v195 v198 k0_hw30 k0_h7 => k0_hw30 k0_h7

def k0_chk31 (k0_t1 : Fin k0_t1_loop.trips) (v201 : IVec S16 32) : Prop :=
  (∀ (k0_h7 : k0_cond7 k0_t1 = 1#1), ∀ a x, ((![v201] : Fin 1 → IVec S16 32) a x).toNat < S2048.size a)
instance k0_chk31.dec : ∀ (k0_t1 : Fin k0_t1_loop.trips) (v201 : IVec S16 32), Decidable (k0_chk31 k0_t1 v201) := fun k0_t1 v201 => decidable_of_iff' _ (Iff.of_eq (k0_chk31.eq_1 k0_t1 v201))
theorem k0_idx20_inb : ∀ (k0_t1 : Fin k0_t1_loop.trips) (v201 : IVec S16 32) (k0_hw31 : k0_chk31 k0_t1 v201), ∀ (k0_h7 : k0_cond7 k0_t1 = 1#1), ∀ a x, ((![v201] : Fin 1 → IVec S16 32) a x).toNat < S2048.size a := fun k0_t1 v201 k0_hw31 k0_h7 => k0_hw31 k0_h7

def k0_chk32 (k0_t1 : Fin k0_t1_loop.trips) (v195 : IVec S16 32) (v207 : IVec S16 32) : Prop :=
  (∀ (k0_h7 : k0_cond7 k0_t1 = 1#1), ∀ a x, ((![v195, v207] : Fin 2 → IVec S16 32) a x).toNat < S32x512.size a)
instance k0_chk32.dec : ∀ (k0_t1 : Fin k0_t1_loop.trips) (v195 : IVec S16 32) (v207 : IVec S16 32), Decidable (k0_chk32 k0_t1 v195 v207) := fun k0_t1 v195 v207 => decidable_of_iff' _ (Iff.of_eq (k0_chk32.eq_1 k0_t1 v195 v207))
theorem k0_idx21_inb : ∀ (k0_t1 : Fin k0_t1_loop.trips) (v195 : IVec S16 32) (v207 : IVec S16 32) (k0_hw32 : k0_chk32 k0_t1 v195 v207), ∀ (k0_h7 : k0_cond7 k0_t1 = 1#1), ∀ a x, ((![v195, v207] : Fin 2 → IVec S16 32) a x).toNat < S32x512.size a := fun k0_t1 v195 v207 k0_hw32 k0_h7 => k0_hw32 k0_h7

def k0_chk33 (k0_t1 : Fin k0_t1_loop.trips) (v210 : IVec S16 32) (v213 : IVec S16 32) : Prop :=
  (∀ (k0_h7 : k0_cond7 k0_t1 = 1#1), ∀ a x, ((![v210, v213] : Fin 2 → IVec S16 32) a x).toNat < S32x128.size a)
instance k0_chk33.dec : ∀ (k0_t1 : Fin k0_t1_loop.trips) (v210 : IVec S16 32) (v213 : IVec S16 32), Decidable (k0_chk33 k0_t1 v210 v213) := fun k0_t1 v210 v213 => decidable_of_iff' _ (Iff.of_eq (k0_chk33.eq_1 k0_t1 v210 v213))
theorem k0_idx22_inb : ∀ (k0_t1 : Fin k0_t1_loop.trips) (v210 : IVec S16 32) (v213 : IVec S16 32) (k0_hw33 : k0_chk33 k0_t1 v210 v213), ∀ (k0_h7 : k0_cond7 k0_t1 = 1#1), ∀ a x, ((![v210, v213] : Fin 2 → IVec S16 32) a x).toNat < S32x128.size a := fun k0_t1 v210 v213 k0_hw33 k0_h7 => k0_hw33 k0_h7

def k0_chk34 (k0_t1 : Fin k0_t1_loop.trips) (v216 : IVec S16 32) : Prop :=
  (∀ (k0_h7 : k0_cond7 k0_t1 = 1#1), ∀ a x, ((![v216] : Fin 1 → IVec S16 32) a x).toNat < S2048.size a)
instance k0_chk34.dec : ∀ (k0_t1 : Fin k0_t1_loop.trips) (v216 : IVec S16 32), Decidable (k0_chk34 k0_t1 v216) := fun k0_t1 v216 => decidable_of_iff' _ (Iff.of_eq (k0_chk34.eq_1 k0_t1 v216))
theorem k0_idx23_inb : ∀ (k0_t1 : Fin k0_t1_loop.trips) (v216 : IVec S16 32) (k0_hw34 : k0_chk34 k0_t1 v216), ∀ (k0_h7 : k0_cond7 k0_t1 = 1#1), ∀ a x, ((![v216] : Fin 1 → IVec S16 32) a x).toNat < S2048.size a := fun k0_t1 v216 k0_hw34 k0_h7 => k0_hw34 k0_h7

def k0_chk35 (k0_t1 : Fin k0_t1_loop.trips) (v210 : IVec S16 32) (v222 : IVec S16 32) : Prop :=
  (∀ (k0_h7 : k0_cond7 k0_t1 = 1#1), ∀ a x, ((![v210, v222] : Fin 2 → IVec S16 32) a x).toNat < S32x512.size a)
instance k0_chk35.dec : ∀ (k0_t1 : Fin k0_t1_loop.trips) (v210 : IVec S16 32) (v222 : IVec S16 32), Decidable (k0_chk35 k0_t1 v210 v222) := fun k0_t1 v210 v222 => decidable_of_iff' _ (Iff.of_eq (k0_chk35.eq_1 k0_t1 v210 v222))
theorem k0_idx24_inb : ∀ (k0_t1 : Fin k0_t1_loop.trips) (v210 : IVec S16 32) (v222 : IVec S16 32) (k0_hw35 : k0_chk35 k0_t1 v210 v222), ∀ (k0_h7 : k0_cond7 k0_t1 = 1#1), ∀ a x, ((![v210, v222] : Fin 2 → IVec S16 32) a x).toNat < S32x512.size a := fun k0_t1 v210 v222 k0_hw35 k0_h7 => k0_hw35 k0_h7
def k0_cond8 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off17 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult12 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off18 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk36 (k0_t1 : Fin k0_t1_loop.trips) (v231 : BitVec 32) : Prop :=
  (∀ (k0_h7 : k0_cond7 k0_t1 = 1#1), ∀ (k0_h8 : k0_cond8 k0_t1 = 1#1), 128 ∣ (k0_mult12 v231).toNat) ∧
  (∀ (k0_h7 : k0_cond7 k0_t1 = 1#1), ∀ (k0_h8 : k0_cond8 k0_t1 = 1#1), ∀ a, (k0_off18 v231) a + S32x128.size a ≤ S32x1000000.size a)
instance k0_chk36.dec : ∀ (k0_t1 : Fin k0_t1_loop.trips) (v231 : BitVec 32), Decidable (k0_chk36 k0_t1 v231) := fun k0_t1 v231 => decidable_of_iff' _ (Iff.of_eq (k0_chk36.eq_1 k0_t1 v231))
theorem k0_mult12_dvd : ∀ (k0_t1 : Fin k0_t1_loop.trips) (v231 : BitVec 32) (k0_hw36 : k0_chk36 k0_t1 v231), ∀ (k0_h7 : k0_cond7 k0_t1 = 1#1), ∀ (k0_h8 : k0_cond8 k0_t1 = 1#1), 128 ∣ (k0_mult12 v231).toNat := fun k0_t1 v231 k0_hw36 k0_h7 k0_h8 => k0_hw36.1 k0_h7 k0_h8
theorem k0_off18_inb : ∀ (k0_t1 : Fin k0_t1_loop.trips) (v231 : BitVec 32) (k0_hw36 : k0_chk36 k0_t1 v231), ∀ (k0_h7 : k0_cond7 k0_t1 = 1#1), ∀ (k0_h8 : k0_cond8 k0_t1 = 1#1), ∀ a, (k0_off18 v231) a + S32x128.size a ≤ S32x1000000.size a := fun k0_t1 v231 k0_hw36 k0_h7 k0_h8 => k0_hw36.2 k0_h7 k0_h8

def k0_cond9 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_71 : BitVec 32 := 8#32
  let c0_i32_72 : BitVec 32 := 0#32
  let v135 : BitVec 1 := Scalar.cmpi .eq c8_i32_71 c0_i32_72
  let c1_i32_73 : BitVec 32 := 1#32
  let v136 : BitVec 32 := Scalar.select v135 c1_i32_73 c8_i32_71
  let v137 : BitVec 32 := Scalar.remsi v77 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let c4_i32 : BitVec 32 := 4#32
  let v145 : BitVec 1 := Scalar.cmpi .eq v144 c4_i32
  let v146 : BitVec 32 := Scalar.extui v145
  let c0_i32_77 : BitVec 32 := 0#32
  let v147 : BitVec 1 := Scalar.cmpi .ne v146 c0_i32_77
  v147

def k0_chk37 (k0_t1 : Fin k0_t1_loop.trips) (v195 : IVec S16 32) (v198 : IVec S16 32) : Prop :=
  (∀ (k0_h9 : k0_cond9 k0_t1 = 1#1), ∀ a x, ((![v195, v198] : Fin 2 → IVec S16 32) a x).toNat < S32x128.size a)
instance k0_chk37.dec : ∀ (k0_t1 : Fin k0_t1_loop.trips) (v195 : IVec S16 32) (v198 : IVec S16 32), Decidable (k0_chk37 k0_t1 v195 v198) := fun k0_t1 v195 v198 => decidable_of_iff' _ (Iff.of_eq (k0_chk37.eq_1 k0_t1 v195 v198))
theorem k0_idx25_inb : ∀ (k0_t1 : Fin k0_t1_loop.trips) (v195 : IVec S16 32) (v198 : IVec S16 32) (k0_hw37 : k0_chk37 k0_t1 v195 v198), ∀ (k0_h9 : k0_cond9 k0_t1 = 1#1), ∀ a x, ((![v195, v198] : Fin 2 → IVec S16 32) a x).toNat < S32x128.size a := fun k0_t1 v195 v198 k0_hw37 k0_h9 => k0_hw37 k0_h9

def k0_chk38 (k0_t1 : Fin k0_t1_loop.trips) (v201 : IVec S16 32) : Prop :=
  (∀ (k0_h9 : k0_cond9 k0_t1 = 1#1), ∀ a x, ((![v201] : Fin 1 → IVec S16 32) a x).toNat < S2048.size a)
instance k0_chk38.dec : ∀ (k0_t1 : Fin k0_t1_loop.trips) (v201 : IVec S16 32), Decidable (k0_chk38 k0_t1 v201) := fun k0_t1 v201 => decidable_of_iff' _ (Iff.of_eq (k0_chk38.eq_1 k0_t1 v201))
theorem k0_idx26_inb : ∀ (k0_t1 : Fin k0_t1_loop.trips) (v201 : IVec S16 32) (k0_hw38 : k0_chk38 k0_t1 v201), ∀ (k0_h9 : k0_cond9 k0_t1 = 1#1), ∀ a x, ((![v201] : Fin 1 → IVec S16 32) a x).toNat < S2048.size a := fun k0_t1 v201 k0_hw38 k0_h9 => k0_hw38 k0_h9

def k0_chk39 (k0_t1 : Fin k0_t1_loop.trips) (v195 : IVec S16 32) (v207 : IVec S16 32) : Prop :=
  (∀ (k0_h9 : k0_cond9 k0_t1 = 1#1), ∀ a x, ((![v195, v207] : Fin 2 → IVec S16 32) a x).toNat < S32x512.size a)
instance k0_chk39.dec : ∀ (k0_t1 : Fin k0_t1_loop.trips) (v195 : IVec S16 32) (v207 : IVec S16 32), Decidable (k0_chk39 k0_t1 v195 v207) := fun k0_t1 v195 v207 => decidable_of_iff' _ (Iff.of_eq (k0_chk39.eq_1 k0_t1 v195 v207))
theorem k0_idx27_inb : ∀ (k0_t1 : Fin k0_t1_loop.trips) (v195 : IVec S16 32) (v207 : IVec S16 32) (k0_hw39 : k0_chk39 k0_t1 v195 v207), ∀ (k0_h9 : k0_cond9 k0_t1 = 1#1), ∀ a x, ((![v195, v207] : Fin 2 → IVec S16 32) a x).toNat < S32x512.size a := fun k0_t1 v195 v207 k0_hw39 k0_h9 => k0_hw39 k0_h9

def k0_chk40 (k0_t1 : Fin k0_t1_loop.trips) (v210 : IVec S16 32) (v213 : IVec S16 32) : Prop :=
  (∀ (k0_h9 : k0_cond9 k0_t1 = 1#1), ∀ a x, ((![v210, v213] : Fin 2 → IVec S16 32) a x).toNat < S32x128.size a)
instance k0_chk40.dec : ∀ (k0_t1 : Fin k0_t1_loop.trips) (v210 : IVec S16 32) (v213 : IVec S16 32), Decidable (k0_chk40 k0_t1 v210 v213) := fun k0_t1 v210 v213 => decidable_of_iff' _ (Iff.of_eq (k0_chk40.eq_1 k0_t1 v210 v213))
theorem k0_idx28_inb : ∀ (k0_t1 : Fin k0_t1_loop.trips) (v210 : IVec S16 32) (v213 : IVec S16 32) (k0_hw40 : k0_chk40 k0_t1 v210 v213), ∀ (k0_h9 : k0_cond9 k0_t1 = 1#1), ∀ a x, ((![v210, v213] : Fin 2 → IVec S16 32) a x).toNat < S32x128.size a := fun k0_t1 v210 v213 k0_hw40 k0_h9 => k0_hw40 k0_h9

def k0_chk41 (k0_t1 : Fin k0_t1_loop.trips) (v216 : IVec S16 32) : Prop :=
  (∀ (k0_h9 : k0_cond9 k0_t1 = 1#1), ∀ a x, ((![v216] : Fin 1 → IVec S16 32) a x).toNat < S2048.size a)
instance k0_chk41.dec : ∀ (k0_t1 : Fin k0_t1_loop.trips) (v216 : IVec S16 32), Decidable (k0_chk41 k0_t1 v216) := fun k0_t1 v216 => decidable_of_iff' _ (Iff.of_eq (k0_chk41.eq_1 k0_t1 v216))
theorem k0_idx29_inb : ∀ (k0_t1 : Fin k0_t1_loop.trips) (v216 : IVec S16 32) (k0_hw41 : k0_chk41 k0_t1 v216), ∀ (k0_h9 : k0_cond9 k0_t1 = 1#1), ∀ a x, ((![v216] : Fin 1 → IVec S16 32) a x).toNat < S2048.size a := fun k0_t1 v216 k0_hw41 k0_h9 => k0_hw41 k0_h9

def k0_chk42 (k0_t1 : Fin k0_t1_loop.trips) (v210 : IVec S16 32) (v222 : IVec S16 32) : Prop :=
  (∀ (k0_h9 : k0_cond9 k0_t1 = 1#1), ∀ a x, ((![v210, v222] : Fin 2 → IVec S16 32) a x).toNat < S32x512.size a)
instance k0_chk42.dec : ∀ (k0_t1 : Fin k0_t1_loop.trips) (v210 : IVec S16 32) (v222 : IVec S16 32), Decidable (k0_chk42 k0_t1 v210 v222) := fun k0_t1 v210 v222 => decidable_of_iff' _ (Iff.of_eq (k0_chk42.eq_1 k0_t1 v210 v222))
theorem k0_idx30_inb : ∀ (k0_t1 : Fin k0_t1_loop.trips) (v210 : IVec S16 32) (v222 : IVec S16 32) (k0_hw42 : k0_chk42 k0_t1 v210 v222), ∀ (k0_h9 : k0_cond9 k0_t1 = 1#1), ∀ a x, ((![v210, v222] : Fin 2 → IVec S16 32) a x).toNat < S32x512.size a := fun k0_t1 v210 v222 k0_hw42 k0_h9 => k0_hw42 k0_h9
def k0_cond10 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off19 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult13 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off20 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk43 (k0_t1 : Fin k0_t1_loop.trips) (v231 : BitVec 32) : Prop :=
  (∀ (k0_h9 : k0_cond9 k0_t1 = 1#1), ∀ (k0_h10 : k0_cond10 k0_t1 = 1#1), 128 ∣ (k0_mult13 v231).toNat) ∧
  (∀ (k0_h9 : k0_cond9 k0_t1 = 1#1), ∀ (k0_h10 : k0_cond10 k0_t1 = 1#1), ∀ a, (k0_off20 v231) a + S32x128.size a ≤ S32x1000000.size a)
instance k0_chk43.dec : ∀ (k0_t1 : Fin k0_t1_loop.trips) (v231 : BitVec 32), Decidable (k0_chk43 k0_t1 v231) := fun k0_t1 v231 => decidable_of_iff' _ (Iff.of_eq (k0_chk43.eq_1 k0_t1 v231))
theorem k0_mult13_dvd : ∀ (k0_t1 : Fin k0_t1_loop.trips) (v231 : BitVec 32) (k0_hw43 : k0_chk43 k0_t1 v231), ∀ (k0_h9 : k0_cond9 k0_t1 = 1#1), ∀ (k0_h10 : k0_cond10 k0_t1 = 1#1), 128 ∣ (k0_mult13 v231).toNat := fun k0_t1 v231 k0_hw43 k0_h9 k0_h10 => k0_hw43.1 k0_h9 k0_h10
theorem k0_off20_inb : ∀ (k0_t1 : Fin k0_t1_loop.trips) (v231 : BitVec 32) (k0_hw43 : k0_chk43 k0_t1 v231), ∀ (k0_h9 : k0_cond9 k0_t1 = 1#1), ∀ (k0_h10 : k0_cond10 k0_t1 = 1#1), ∀ a, (k0_off20 v231) a + S32x128.size a ≤ S32x1000000.size a := fun k0_t1 v231 k0_hw43 k0_h9 k0_h10 => k0_hw43.2 k0_h9 k0_h10

def k0_cond11 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_78 : BitVec 32 := 8#32
  let c0_i32_79 : BitVec 32 := 0#32
  let v148 : BitVec 1 := Scalar.cmpi .eq c8_i32_78 c0_i32_79
  let c1_i32_80 : BitVec 32 := 1#32
  let v149 : BitVec 32 := Scalar.select v148 c1_i32_80 c8_i32_78
  let v150 : BitVec 32 := Scalar.remsi v77 v149
  let c0_i32_82 : BitVec 32 := 0#32
  let v152 : BitVec 1 := Scalar.cmpi .slt v150 c0_i32_82
  let c0_i32_83 : BitVec 32 := 0#32
  let v153 : BitVec 1 := Scalar.cmpi .slt v149 c0_i32_83
  let v154 : BitVec 1 := Scalar.xori v152 v153
  let c0_i32_81 : BitVec 32 := 0#32
  let v151 : BitVec 1 := Scalar.cmpi .ne v150 c0_i32_81
  let v155 : BitVec 1 := Scalar.andi v154 v151
  let v156 : BitVec 32 := Scalar.addi v150 v149
  let v157 : BitVec 32 := Scalar.select v155 v156 v150
  let c5_i32 : BitVec 32 := 5#32
  let v158 : BitVec 1 := Scalar.cmpi .eq v157 c5_i32
  let v159 : BitVec 32 := Scalar.extui v158
  let c0_i32_84 : BitVec 32 := 0#32
  let v160 : BitVec 1 := Scalar.cmpi .ne v159 c0_i32_84
  v160

def k0_chk44 (k0_t1 : Fin k0_t1_loop.trips) (v195 : IVec S16 32) (v198 : IVec S16 32) : Prop :=
  (∀ (k0_h11 : k0_cond11 k0_t1 = 1#1), ∀ a x, ((![v195, v198] : Fin 2 → IVec S16 32) a x).toNat < S32x128.size a)
instance k0_chk44.dec : ∀ (k0_t1 : Fin k0_t1_loop.trips) (v195 : IVec S16 32) (v198 : IVec S16 32), Decidable (k0_chk44 k0_t1 v195 v198) := fun k0_t1 v195 v198 => decidable_of_iff' _ (Iff.of_eq (k0_chk44.eq_1 k0_t1 v195 v198))
theorem k0_idx31_inb : ∀ (k0_t1 : Fin k0_t1_loop.trips) (v195 : IVec S16 32) (v198 : IVec S16 32) (k0_hw44 : k0_chk44 k0_t1 v195 v198), ∀ (k0_h11 : k0_cond11 k0_t1 = 1#1), ∀ a x, ((![v195, v198] : Fin 2 → IVec S16 32) a x).toNat < S32x128.size a := fun k0_t1 v195 v198 k0_hw44 k0_h11 => k0_hw44 k0_h11

def k0_chk45 (k0_t1 : Fin k0_t1_loop.trips) (v201 : IVec S16 32) : Prop :=
  (∀ (k0_h11 : k0_cond11 k0_t1 = 1#1), ∀ a x, ((![v201] : Fin 1 → IVec S16 32) a x).toNat < S2048.size a)
instance k0_chk45.dec : ∀ (k0_t1 : Fin k0_t1_loop.trips) (v201 : IVec S16 32), Decidable (k0_chk45 k0_t1 v201) := fun k0_t1 v201 => decidable_of_iff' _ (Iff.of_eq (k0_chk45.eq_1 k0_t1 v201))
theorem k0_idx32_inb : ∀ (k0_t1 : Fin k0_t1_loop.trips) (v201 : IVec S16 32) (k0_hw45 : k0_chk45 k0_t1 v201), ∀ (k0_h11 : k0_cond11 k0_t1 = 1#1), ∀ a x, ((![v201] : Fin 1 → IVec S16 32) a x).toNat < S2048.size a := fun k0_t1 v201 k0_hw45 k0_h11 => k0_hw45 k0_h11

def k0_chk46 (k0_t1 : Fin k0_t1_loop.trips) (v195 : IVec S16 32) (v207 : IVec S16 32) : Prop :=
  (∀ (k0_h11 : k0_cond11 k0_t1 = 1#1), ∀ a x, ((![v195, v207] : Fin 2 → IVec S16 32) a x).toNat < S32x512.size a)
instance k0_chk46.dec : ∀ (k0_t1 : Fin k0_t1_loop.trips) (v195 : IVec S16 32) (v207 : IVec S16 32), Decidable (k0_chk46 k0_t1 v195 v207) := fun k0_t1 v195 v207 => decidable_of_iff' _ (Iff.of_eq (k0_chk46.eq_1 k0_t1 v195 v207))
theorem k0_idx33_inb : ∀ (k0_t1 : Fin k0_t1_loop.trips) (v195 : IVec S16 32) (v207 : IVec S16 32) (k0_hw46 : k0_chk46 k0_t1 v195 v207), ∀ (k0_h11 : k0_cond11 k0_t1 = 1#1), ∀ a x, ((![v195, v207] : Fin 2 → IVec S16 32) a x).toNat < S32x512.size a := fun k0_t1 v195 v207 k0_hw46 k0_h11 => k0_hw46 k0_h11

def k0_chk47 (k0_t1 : Fin k0_t1_loop.trips) (v210 : IVec S16 32) (v213 : IVec S16 32) : Prop :=
  (∀ (k0_h11 : k0_cond11 k0_t1 = 1#1), ∀ a x, ((![v210, v213] : Fin 2 → IVec S16 32) a x).toNat < S32x128.size a)
instance k0_chk47.dec : ∀ (k0_t1 : Fin k0_t1_loop.trips) (v210 : IVec S16 32) (v213 : IVec S16 32), Decidable (k0_chk47 k0_t1 v210 v213) := fun k0_t1 v210 v213 => decidable_of_iff' _ (Iff.of_eq (k0_chk47.eq_1 k0_t1 v210 v213))
theorem k0_idx34_inb : ∀ (k0_t1 : Fin k0_t1_loop.trips) (v210 : IVec S16 32) (v213 : IVec S16 32) (k0_hw47 : k0_chk47 k0_t1 v210 v213), ∀ (k0_h11 : k0_cond11 k0_t1 = 1#1), ∀ a x, ((![v210, v213] : Fin 2 → IVec S16 32) a x).toNat < S32x128.size a := fun k0_t1 v210 v213 k0_hw47 k0_h11 => k0_hw47 k0_h11

def k0_chk48 (k0_t1 : Fin k0_t1_loop.trips) (v216 : IVec S16 32) : Prop :=
  (∀ (k0_h11 : k0_cond11 k0_t1 = 1#1), ∀ a x, ((![v216] : Fin 1 → IVec S16 32) a x).toNat < S2048.size a)
instance k0_chk48.dec : ∀ (k0_t1 : Fin k0_t1_loop.trips) (v216 : IVec S16 32), Decidable (k0_chk48 k0_t1 v216) := fun k0_t1 v216 => decidable_of_iff' _ (Iff.of_eq (k0_chk48.eq_1 k0_t1 v216))
theorem k0_idx35_inb : ∀ (k0_t1 : Fin k0_t1_loop.trips) (v216 : IVec S16 32) (k0_hw48 : k0_chk48 k0_t1 v216), ∀ (k0_h11 : k0_cond11 k0_t1 = 1#1), ∀ a x, ((![v216] : Fin 1 → IVec S16 32) a x).toNat < S2048.size a := fun k0_t1 v216 k0_hw48 k0_h11 => k0_hw48 k0_h11

def k0_chk49 (k0_t1 : Fin k0_t1_loop.trips) (v210 : IVec S16 32) (v222 : IVec S16 32) : Prop :=
  (∀ (k0_h11 : k0_cond11 k0_t1 = 1#1), ∀ a x, ((![v210, v222] : Fin 2 → IVec S16 32) a x).toNat < S32x512.size a)
instance k0_chk49.dec : ∀ (k0_t1 : Fin k0_t1_loop.trips) (v210 : IVec S16 32) (v222 : IVec S16 32), Decidable (k0_chk49 k0_t1 v210 v222) := fun k0_t1 v210 v222 => decidable_of_iff' _ (Iff.of_eq (k0_chk49.eq_1 k0_t1 v210 v222))
theorem k0_idx36_inb : ∀ (k0_t1 : Fin k0_t1_loop.trips) (v210 : IVec S16 32) (v222 : IVec S16 32) (k0_hw49 : k0_chk49 k0_t1 v210 v222), ∀ (k0_h11 : k0_cond11 k0_t1 = 1#1), ∀ a x, ((![v210, v222] : Fin 2 → IVec S16 32) a x).toNat < S32x512.size a := fun k0_t1 v210 v222 k0_hw49 k0_h11 => k0_hw49 k0_h11
def k0_cond12 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off21 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult14 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off22 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk50 (k0_t1 : Fin k0_t1_loop.trips) (v231 : BitVec 32) : Prop :=
  (∀ (k0_h11 : k0_cond11 k0_t1 = 1#1), ∀ (k0_h12 : k0_cond12 k0_t1 = 1#1), 128 ∣ (k0_mult14 v231).toNat) ∧
  (∀ (k0_h11 : k0_cond11 k0_t1 = 1#1), ∀ (k0_h12 : k0_cond12 k0_t1 = 1#1), ∀ a, (k0_off22 v231) a + S32x128.size a ≤ S32x1000000.size a)
instance k0_chk50.dec : ∀ (k0_t1 : Fin k0_t1_loop.trips) (v231 : BitVec 32), Decidable (k0_chk50 k0_t1 v231) := fun k0_t1 v231 => decidable_of_iff' _ (Iff.of_eq (k0_chk50.eq_1 k0_t1 v231))
theorem k0_mult14_dvd : ∀ (k0_t1 : Fin k0_t1_loop.trips) (v231 : BitVec 32) (k0_hw50 : k0_chk50 k0_t1 v231), ∀ (k0_h11 : k0_cond11 k0_t1 = 1#1), ∀ (k0_h12 : k0_cond12 k0_t1 = 1#1), 128 ∣ (k0_mult14 v231).toNat := fun k0_t1 v231 k0_hw50 k0_h11 k0_h12 => k0_hw50.1 k0_h11 k0_h12
theorem k0_off22_inb : ∀ (k0_t1 : Fin k0_t1_loop.trips) (v231 : BitVec 32) (k0_hw50 : k0_chk50 k0_t1 v231), ∀ (k0_h11 : k0_cond11 k0_t1 = 1#1), ∀ (k0_h12 : k0_cond12 k0_t1 = 1#1), ∀ a, (k0_off22 v231) a + S32x128.size a ≤ S32x1000000.size a := fun k0_t1 v231 k0_hw50 k0_h11 k0_h12 => k0_hw50.2 k0_h11 k0_h12

def k0_cond13 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_85 : BitVec 32 := 8#32
  let c0_i32_86 : BitVec 32 := 0#32
  let v161 : BitVec 1 := Scalar.cmpi .eq c8_i32_85 c0_i32_86
  let c1_i32_87 : BitVec 32 := 1#32
  let v162 : BitVec 32 := Scalar.select v161 c1_i32_87 c8_i32_85
  let v163 : BitVec 32 := Scalar.remsi v77 v162
  let c0_i32_89 : BitVec 32 := 0#32
  let v165 : BitVec 1 := Scalar.cmpi .slt v163 c0_i32_89
  let c0_i32_90 : BitVec 32 := 0#32
  let v166 : BitVec 1 := Scalar.cmpi .slt v162 c0_i32_90
  let v167 : BitVec 1 := Scalar.xori v165 v166
  let c0_i32_88 : BitVec 32 := 0#32
  let v164 : BitVec 1 := Scalar.cmpi .ne v163 c0_i32_88
  let v168 : BitVec 1 := Scalar.andi v167 v164
  let v169 : BitVec 32 := Scalar.addi v163 v162
  let v170 : BitVec 32 := Scalar.select v168 v169 v163
  let c6_i32 : BitVec 32 := 6#32
  let v171 : BitVec 1 := Scalar.cmpi .eq v170 c6_i32
  let v172 : BitVec 32 := Scalar.extui v171
  let c0_i32_91 : BitVec 32 := 0#32
  let v173 : BitVec 1 := Scalar.cmpi .ne v172 c0_i32_91
  v173

def k0_chk51 (k0_t1 : Fin k0_t1_loop.trips) (v195 : IVec S16 32) (v198 : IVec S16 32) : Prop :=
  (∀ (k0_h13 : k0_cond13 k0_t1 = 1#1), ∀ a x, ((![v195, v198] : Fin 2 → IVec S16 32) a x).toNat < S32x128.size a)
instance k0_chk51.dec : ∀ (k0_t1 : Fin k0_t1_loop.trips) (v195 : IVec S16 32) (v198 : IVec S16 32), Decidable (k0_chk51 k0_t1 v195 v198) := fun k0_t1 v195 v198 => decidable_of_iff' _ (Iff.of_eq (k0_chk51.eq_1 k0_t1 v195 v198))
theorem k0_idx37_inb : ∀ (k0_t1 : Fin k0_t1_loop.trips) (v195 : IVec S16 32) (v198 : IVec S16 32) (k0_hw51 : k0_chk51 k0_t1 v195 v198), ∀ (k0_h13 : k0_cond13 k0_t1 = 1#1), ∀ a x, ((![v195, v198] : Fin 2 → IVec S16 32) a x).toNat < S32x128.size a := fun k0_t1 v195 v198 k0_hw51 k0_h13 => k0_hw51 k0_h13

def k0_chk52 (k0_t1 : Fin k0_t1_loop.trips) (v201 : IVec S16 32) : Prop :=
  (∀ (k0_h13 : k0_cond13 k0_t1 = 1#1), ∀ a x, ((![v201] : Fin 1 → IVec S16 32) a x).toNat < S2048.size a)
instance k0_chk52.dec : ∀ (k0_t1 : Fin k0_t1_loop.trips) (v201 : IVec S16 32), Decidable (k0_chk52 k0_t1 v201) := fun k0_t1 v201 => decidable_of_iff' _ (Iff.of_eq (k0_chk52.eq_1 k0_t1 v201))
theorem k0_idx38_inb : ∀ (k0_t1 : Fin k0_t1_loop.trips) (v201 : IVec S16 32) (k0_hw52 : k0_chk52 k0_t1 v201), ∀ (k0_h13 : k0_cond13 k0_t1 = 1#1), ∀ a x, ((![v201] : Fin 1 → IVec S16 32) a x).toNat < S2048.size a := fun k0_t1 v201 k0_hw52 k0_h13 => k0_hw52 k0_h13

def k0_chk53 (k0_t1 : Fin k0_t1_loop.trips) (v195 : IVec S16 32) (v207 : IVec S16 32) : Prop :=
  (∀ (k0_h13 : k0_cond13 k0_t1 = 1#1), ∀ a x, ((![v195, v207] : Fin 2 → IVec S16 32) a x).toNat < S32x512.size a)
instance k0_chk53.dec : ∀ (k0_t1 : Fin k0_t1_loop.trips) (v195 : IVec S16 32) (v207 : IVec S16 32), Decidable (k0_chk53 k0_t1 v195 v207) := fun k0_t1 v195 v207 => decidable_of_iff' _ (Iff.of_eq (k0_chk53.eq_1 k0_t1 v195 v207))
theorem k0_idx39_inb : ∀ (k0_t1 : Fin k0_t1_loop.trips) (v195 : IVec S16 32) (v207 : IVec S16 32) (k0_hw53 : k0_chk53 k0_t1 v195 v207), ∀ (k0_h13 : k0_cond13 k0_t1 = 1#1), ∀ a x, ((![v195, v207] : Fin 2 → IVec S16 32) a x).toNat < S32x512.size a := fun k0_t1 v195 v207 k0_hw53 k0_h13 => k0_hw53 k0_h13

def k0_chk54 (k0_t1 : Fin k0_t1_loop.trips) (v210 : IVec S16 32) (v213 : IVec S16 32) : Prop :=
  (∀ (k0_h13 : k0_cond13 k0_t1 = 1#1), ∀ a x, ((![v210, v213] : Fin 2 → IVec S16 32) a x).toNat < S32x128.size a)
instance k0_chk54.dec : ∀ (k0_t1 : Fin k0_t1_loop.trips) (v210 : IVec S16 32) (v213 : IVec S16 32), Decidable (k0_chk54 k0_t1 v210 v213) := fun k0_t1 v210 v213 => decidable_of_iff' _ (Iff.of_eq (k0_chk54.eq_1 k0_t1 v210 v213))
theorem k0_idx40_inb : ∀ (k0_t1 : Fin k0_t1_loop.trips) (v210 : IVec S16 32) (v213 : IVec S16 32) (k0_hw54 : k0_chk54 k0_t1 v210 v213), ∀ (k0_h13 : k0_cond13 k0_t1 = 1#1), ∀ a x, ((![v210, v213] : Fin 2 → IVec S16 32) a x).toNat < S32x128.size a := fun k0_t1 v210 v213 k0_hw54 k0_h13 => k0_hw54 k0_h13

def k0_chk55 (k0_t1 : Fin k0_t1_loop.trips) (v216 : IVec S16 32) : Prop :=
  (∀ (k0_h13 : k0_cond13 k0_t1 = 1#1), ∀ a x, ((![v216] : Fin 1 → IVec S16 32) a x).toNat < S2048.size a)
instance k0_chk55.dec : ∀ (k0_t1 : Fin k0_t1_loop.trips) (v216 : IVec S16 32), Decidable (k0_chk55 k0_t1 v216) := fun k0_t1 v216 => decidable_of_iff' _ (Iff.of_eq (k0_chk55.eq_1 k0_t1 v216))
theorem k0_idx41_inb : ∀ (k0_t1 : Fin k0_t1_loop.trips) (v216 : IVec S16 32) (k0_hw55 : k0_chk55 k0_t1 v216), ∀ (k0_h13 : k0_cond13 k0_t1 = 1#1), ∀ a x, ((![v216] : Fin 1 → IVec S16 32) a x).toNat < S2048.size a := fun k0_t1 v216 k0_hw55 k0_h13 => k0_hw55 k0_h13

def k0_chk56 (k0_t1 : Fin k0_t1_loop.trips) (v210 : IVec S16 32) (v222 : IVec S16 32) : Prop :=
  (∀ (k0_h13 : k0_cond13 k0_t1 = 1#1), ∀ a x, ((![v210, v222] : Fin 2 → IVec S16 32) a x).toNat < S32x512.size a)
instance k0_chk56.dec : ∀ (k0_t1 : Fin k0_t1_loop.trips) (v210 : IVec S16 32) (v222 : IVec S16 32), Decidable (k0_chk56 k0_t1 v210 v222) := fun k0_t1 v210 v222 => decidable_of_iff' _ (Iff.of_eq (k0_chk56.eq_1 k0_t1 v210 v222))
theorem k0_idx42_inb : ∀ (k0_t1 : Fin k0_t1_loop.trips) (v210 : IVec S16 32) (v222 : IVec S16 32) (k0_hw56 : k0_chk56 k0_t1 v210 v222), ∀ (k0_h13 : k0_cond13 k0_t1 = 1#1), ∀ a x, ((![v210, v222] : Fin 2 → IVec S16 32) a x).toNat < S32x512.size a := fun k0_t1 v210 v222 k0_hw56 k0_h13 => k0_hw56 k0_h13
def k0_cond14 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off23 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult15 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off24 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk57 (k0_t1 : Fin k0_t1_loop.trips) (v231 : BitVec 32) : Prop :=
  (∀ (k0_h13 : k0_cond13 k0_t1 = 1#1), ∀ (k0_h14 : k0_cond14 k0_t1 = 1#1), 128 ∣ (k0_mult15 v231).toNat) ∧
  (∀ (k0_h13 : k0_cond13 k0_t1 = 1#1), ∀ (k0_h14 : k0_cond14 k0_t1 = 1#1), ∀ a, (k0_off24 v231) a + S32x128.size a ≤ S32x1000000.size a)
instance k0_chk57.dec : ∀ (k0_t1 : Fin k0_t1_loop.trips) (v231 : BitVec 32), Decidable (k0_chk57 k0_t1 v231) := fun k0_t1 v231 => decidable_of_iff' _ (Iff.of_eq (k0_chk57.eq_1 k0_t1 v231))
theorem k0_mult15_dvd : ∀ (k0_t1 : Fin k0_t1_loop.trips) (v231 : BitVec 32) (k0_hw57 : k0_chk57 k0_t1 v231), ∀ (k0_h13 : k0_cond13 k0_t1 = 1#1), ∀ (k0_h14 : k0_cond14 k0_t1 = 1#1), 128 ∣ (k0_mult15 v231).toNat := fun k0_t1 v231 k0_hw57 k0_h13 k0_h14 => k0_hw57.1 k0_h13 k0_h14
theorem k0_off24_inb : ∀ (k0_t1 : Fin k0_t1_loop.trips) (v231 : BitVec 32) (k0_hw57 : k0_chk57 k0_t1 v231), ∀ (k0_h13 : k0_cond13 k0_t1 = 1#1), ∀ (k0_h14 : k0_cond14 k0_t1 = 1#1), ∀ a, (k0_off24 v231) a + S32x128.size a ≤ S32x1000000.size a := fun k0_t1 v231 k0_hw57 k0_h13 k0_h14 => k0_hw57.2 k0_h13 k0_h14

def k0_cond15 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_92 : BitVec 32 := 8#32
  let c0_i32_93 : BitVec 32 := 0#32
  let v174 : BitVec 1 := Scalar.cmpi .eq c8_i32_92 c0_i32_93
  let c1_i32_94 : BitVec 32 := 1#32
  let v175 : BitVec 32 := Scalar.select v174 c1_i32_94 c8_i32_92
  let v176 : BitVec 32 := Scalar.remsi v77 v175
  let c0_i32_96 : BitVec 32 := 0#32
  let v178 : BitVec 1 := Scalar.cmpi .slt v176 c0_i32_96
  let c0_i32_97 : BitVec 32 := 0#32
  let v179 : BitVec 1 := Scalar.cmpi .slt v175 c0_i32_97
  let v180 : BitVec 1 := Scalar.xori v178 v179
  let c0_i32_95 : BitVec 32 := 0#32
  let v177 : BitVec 1 := Scalar.cmpi .ne v176 c0_i32_95
  let v181 : BitVec 1 := Scalar.andi v180 v177
  let v182 : BitVec 32 := Scalar.addi v176 v175
  let v183 : BitVec 32 := Scalar.select v181 v182 v176
  let c7_i32_98 : BitVec 32 := 7#32
  let v184 : BitVec 1 := Scalar.cmpi .eq v183 c7_i32_98
  let v185 : BitVec 32 := Scalar.extui v184
  let c0_i32_99 : BitVec 32 := 0#32
  let v186 : BitVec 1 := Scalar.cmpi .ne v185 c0_i32_99
  v186

def k0_chk58 (k0_t1 : Fin k0_t1_loop.trips) (v195 : IVec S16 32) (v198 : IVec S16 32) : Prop :=
  (∀ (k0_h15 : k0_cond15 k0_t1 = 1#1), ∀ a x, ((![v195, v198] : Fin 2 → IVec S16 32) a x).toNat < S32x128.size a)
instance k0_chk58.dec : ∀ (k0_t1 : Fin k0_t1_loop.trips) (v195 : IVec S16 32) (v198 : IVec S16 32), Decidable (k0_chk58 k0_t1 v195 v198) := fun k0_t1 v195 v198 => decidable_of_iff' _ (Iff.of_eq (k0_chk58.eq_1 k0_t1 v195 v198))
theorem k0_idx43_inb : ∀ (k0_t1 : Fin k0_t1_loop.trips) (v195 : IVec S16 32) (v198 : IVec S16 32) (k0_hw58 : k0_chk58 k0_t1 v195 v198), ∀ (k0_h15 : k0_cond15 k0_t1 = 1#1), ∀ a x, ((![v195, v198] : Fin 2 → IVec S16 32) a x).toNat < S32x128.size a := fun k0_t1 v195 v198 k0_hw58 k0_h15 => k0_hw58 k0_h15

def k0_chk59 (k0_t1 : Fin k0_t1_loop.trips) (v201 : IVec S16 32) : Prop :=
  (∀ (k0_h15 : k0_cond15 k0_t1 = 1#1), ∀ a x, ((![v201] : Fin 1 → IVec S16 32) a x).toNat < S2048.size a)
instance k0_chk59.dec : ∀ (k0_t1 : Fin k0_t1_loop.trips) (v201 : IVec S16 32), Decidable (k0_chk59 k0_t1 v201) := fun k0_t1 v201 => decidable_of_iff' _ (Iff.of_eq (k0_chk59.eq_1 k0_t1 v201))
theorem k0_idx44_inb : ∀ (k0_t1 : Fin k0_t1_loop.trips) (v201 : IVec S16 32) (k0_hw59 : k0_chk59 k0_t1 v201), ∀ (k0_h15 : k0_cond15 k0_t1 = 1#1), ∀ a x, ((![v201] : Fin 1 → IVec S16 32) a x).toNat < S2048.size a := fun k0_t1 v201 k0_hw59 k0_h15 => k0_hw59 k0_h15

def k0_chk60 (k0_t1 : Fin k0_t1_loop.trips) (v195 : IVec S16 32) (v207 : IVec S16 32) : Prop :=
  (∀ (k0_h15 : k0_cond15 k0_t1 = 1#1), ∀ a x, ((![v195, v207] : Fin 2 → IVec S16 32) a x).toNat < S32x512.size a)
instance k0_chk60.dec : ∀ (k0_t1 : Fin k0_t1_loop.trips) (v195 : IVec S16 32) (v207 : IVec S16 32), Decidable (k0_chk60 k0_t1 v195 v207) := fun k0_t1 v195 v207 => decidable_of_iff' _ (Iff.of_eq (k0_chk60.eq_1 k0_t1 v195 v207))
theorem k0_idx45_inb : ∀ (k0_t1 : Fin k0_t1_loop.trips) (v195 : IVec S16 32) (v207 : IVec S16 32) (k0_hw60 : k0_chk60 k0_t1 v195 v207), ∀ (k0_h15 : k0_cond15 k0_t1 = 1#1), ∀ a x, ((![v195, v207] : Fin 2 → IVec S16 32) a x).toNat < S32x512.size a := fun k0_t1 v195 v207 k0_hw60 k0_h15 => k0_hw60 k0_h15

def k0_chk61 (k0_t1 : Fin k0_t1_loop.trips) (v210 : IVec S16 32) (v213 : IVec S16 32) : Prop :=
  (∀ (k0_h15 : k0_cond15 k0_t1 = 1#1), ∀ a x, ((![v210, v213] : Fin 2 → IVec S16 32) a x).toNat < S32x128.size a)
instance k0_chk61.dec : ∀ (k0_t1 : Fin k0_t1_loop.trips) (v210 : IVec S16 32) (v213 : IVec S16 32), Decidable (k0_chk61 k0_t1 v210 v213) := fun k0_t1 v210 v213 => decidable_of_iff' _ (Iff.of_eq (k0_chk61.eq_1 k0_t1 v210 v213))
theorem k0_idx46_inb : ∀ (k0_t1 : Fin k0_t1_loop.trips) (v210 : IVec S16 32) (v213 : IVec S16 32) (k0_hw61 : k0_chk61 k0_t1 v210 v213), ∀ (k0_h15 : k0_cond15 k0_t1 = 1#1), ∀ a x, ((![v210, v213] : Fin 2 → IVec S16 32) a x).toNat < S32x128.size a := fun k0_t1 v210 v213 k0_hw61 k0_h15 => k0_hw61 k0_h15

def k0_chk62 (k0_t1 : Fin k0_t1_loop.trips) (v216 : IVec S16 32) : Prop :=
  (∀ (k0_h15 : k0_cond15 k0_t1 = 1#1), ∀ a x, ((![v216] : Fin 1 → IVec S16 32) a x).toNat < S2048.size a)
instance k0_chk62.dec : ∀ (k0_t1 : Fin k0_t1_loop.trips) (v216 : IVec S16 32), Decidable (k0_chk62 k0_t1 v216) := fun k0_t1 v216 => decidable_of_iff' _ (Iff.of_eq (k0_chk62.eq_1 k0_t1 v216))
theorem k0_idx47_inb : ∀ (k0_t1 : Fin k0_t1_loop.trips) (v216 : IVec S16 32) (k0_hw62 : k0_chk62 k0_t1 v216), ∀ (k0_h15 : k0_cond15 k0_t1 = 1#1), ∀ a x, ((![v216] : Fin 1 → IVec S16 32) a x).toNat < S2048.size a := fun k0_t1 v216 k0_hw62 k0_h15 => k0_hw62 k0_h15

def k0_chk63 (k0_t1 : Fin k0_t1_loop.trips) (v210 : IVec S16 32) (v222 : IVec S16 32) : Prop :=
  (∀ (k0_h15 : k0_cond15 k0_t1 = 1#1), ∀ a x, ((![v210, v222] : Fin 2 → IVec S16 32) a x).toNat < S32x512.size a)
instance k0_chk63.dec : ∀ (k0_t1 : Fin k0_t1_loop.trips) (v210 : IVec S16 32) (v222 : IVec S16 32), Decidable (k0_chk63 k0_t1 v210 v222) := fun k0_t1 v210 v222 => decidable_of_iff' _ (Iff.of_eq (k0_chk63.eq_1 k0_t1 v210 v222))
theorem k0_idx48_inb : ∀ (k0_t1 : Fin k0_t1_loop.trips) (v210 : IVec S16 32) (v222 : IVec S16 32) (k0_hw63 : k0_chk63 k0_t1 v210 v222), ∀ (k0_h15 : k0_cond15 k0_t1 = 1#1), ∀ a x, ((![v210, v222] : Fin 2 → IVec S16 32) a x).toNat < S32x512.size a := fun k0_t1 v210 v222 k0_hw63 k0_h15 => k0_hw63 k0_h15
def k0_cond16 (k0_t1 : Fin k0_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k0_off25 (k0_t1 : Fin k0_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k0_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k0_mult16 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k0_off26 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k0_chk64 (k0_t1 : Fin k0_t1_loop.trips) (v231 : BitVec 32) : Prop :=
  (∀ (k0_h15 : k0_cond15 k0_t1 = 1#1), ∀ (k0_h16 : k0_cond16 k0_t1 = 1#1), 128 ∣ (k0_mult16 v231).toNat) ∧
  (∀ (k0_h15 : k0_cond15 k0_t1 = 1#1), ∀ (k0_h16 : k0_cond16 k0_t1 = 1#1), ∀ a, (k0_off26 v231) a + S32x128.size a ≤ S32x1000000.size a)
instance k0_chk64.dec : ∀ (k0_t1 : Fin k0_t1_loop.trips) (v231 : BitVec 32), Decidable (k0_chk64 k0_t1 v231) := fun k0_t1 v231 => decidable_of_iff' _ (Iff.of_eq (k0_chk64.eq_1 k0_t1 v231))
theorem k0_mult16_dvd : ∀ (k0_t1 : Fin k0_t1_loop.trips) (v231 : BitVec 32) (k0_hw64 : k0_chk64 k0_t1 v231), ∀ (k0_h15 : k0_cond15 k0_t1 = 1#1), ∀ (k0_h16 : k0_cond16 k0_t1 = 1#1), 128 ∣ (k0_mult16 v231).toNat := fun k0_t1 v231 k0_hw64 k0_h15 k0_h16 => k0_hw64.1 k0_h15 k0_h16
theorem k0_off26_inb : ∀ (k0_t1 : Fin k0_t1_loop.trips) (v231 : BitVec 32) (k0_hw64 : k0_chk64 k0_t1 v231), ∀ (k0_h15 : k0_cond15 k0_t1 = 1#1), ∀ (k0_h16 : k0_cond16 k0_t1 = 1#1), ∀ a, (k0_off26 v231) a + S32x128.size a ≤ S32x1000000.size a := fun k0_t1 v231 k0_hw64 k0_h15 k0_h16 => k0_hw64.2 k0_h15 k0_h16

def k0_off27 (i : grid0.Coords) : Fin 2 → Nat :=
  let c0_i32_39_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k1_off2 (k1_t1 : Fin k1_t1_loop.trips) : Fin 1 → Nat :=
  let c0_i32_21 : BitVec 32 := 0#32
  let c0_i32 : BitVec 32 := 0#32
  let c1_i32 : BitVec 32 := 1#32
  let arg12 : BitVec 32 := Scf.iv c0_i32 c1_i32 k1_t1
  let c1_i32_20 : BitVec 32 := 1#32
  let v14 : BitVec 32 := Scalar.muli arg12 c1_i32_20
  let v15 : BitVec 32 := Scalar.addi c0_i32_21 v14
  let c16_i32 : BitVec 32 := 16#32
  let v16 : BitVec 32 := Scalar.muli v15 c16_i32
  let v17 : Index := Scalar.indexCast v16
  ![v17.toNat]
@[reducible] def k1_t2_loop : Scf.Loop 32 :=
  let c0_i32_9 : BitVec 32 := 0#32
  let c32_i32_10 : BitVec 32 := 32#32
  let v10 : BitVec 32 := Scalar.addi c0_i32_9 c32_i32_10
  let c1_i32_11 : BitVec 32 := 1#32
  ⟨c0_i32_9, v10, c1_i32_11⟩

def k1_chk1 (v18 : IVec S16 32) (v25 : IVec S16 32) : Prop :=
  (∀ a x, ((![v18, v25] : Fin 2 → IVec S16 32) a x).toNat < S256x128.size a)
instance k1_chk1.dec : ∀ (v18 : IVec S16 32) (v25 : IVec S16 32), Decidable (k1_chk1 v18 v25) := fun v18 v25 => decidable_of_iff' _ (Iff.of_eq (k1_chk1.eq_1 v18 v25))
theorem k1_idx1_inb : ∀ (v18 : IVec S16 32) (v25 : IVec S16 32) (k1_hw1 : k1_chk1 v18 v25), ∀ a x, ((![v18, v25] : Fin 2 → IVec S16 32) a x).toNat < S256x128.size a := fun v18 v25 k1_hw1 => k1_hw1
def k1_off3 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v27 : Index := Scalar.indexCast v15
  let c0_23 : Index := 0#32
  ![v27.toNat, 0]

def k1_chk2 (v31 : IVec S16 32) (v38 : IVec S16 32) : Prop :=
  (∀ a x, ((![v31, v38] : Fin 2 → IVec S16 32) a x).toNat < S256x128.size a)
instance k1_chk2.dec : ∀ (v31 : IVec S16 32) (v38 : IVec S16 32), Decidable (k1_chk2 v31 v38) := fun v31 v38 => decidable_of_iff' _ (Iff.of_eq (k1_chk2.eq_1 v31 v38))
theorem k1_idx2_inb : ∀ (v31 : IVec S16 32) (v38 : IVec S16 32) (k1_hw2 : k1_chk2 v31 v38), ∀ a x, ((![v31, v38] : Fin 2 → IVec S16 32) a x).toNat < S256x128.size a := fun v31 v38 k1_hw2 => k1_hw2
def k1_off4 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v40 : Index := Scalar.indexCast v15
  let c16_26 : Index := 16#32
  ![v40.toNat, 16]

def k1_chk3 (v44 : IVec S16 32) (v51 : IVec S16 32) : Prop :=
  (∀ a x, ((![v44, v51] : Fin 2 → IVec S16 32) a x).toNat < S256x128.size a)
instance k1_chk3.dec : ∀ (v44 : IVec S16 32) (v51 : IVec S16 32), Decidable (k1_chk3 v44 v51) := fun v44 v51 => decidable_of_iff' _ (Iff.of_eq (k1_chk3.eq_1 v44 v51))
theorem k1_idx3_inb : ∀ (v44 : IVec S16 32) (v51 : IVec S16 32) (k1_hw3 : k1_chk3 v44 v51), ∀ a x, ((![v44, v51] : Fin 2 → IVec S16 32) a x).toNat < S256x128.size a := fun v44 v51 k1_hw3 => k1_hw3
def k1_off5 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v53 : Index := Scalar.indexCast v15
  let c32_30 : Index := 32#32
  ![v53.toNat, 32]

def k1_chk4 (v57 : IVec S16 32) (v64 : IVec S16 32) : Prop :=
  (∀ a x, ((![v57, v64] : Fin 2 → IVec S16 32) a x).toNat < S256x128.size a)
instance k1_chk4.dec : ∀ (v57 : IVec S16 32) (v64 : IVec S16 32), Decidable (k1_chk4 v57 v64) := fun v57 v64 => decidable_of_iff' _ (Iff.of_eq (k1_chk4.eq_1 v57 v64))
theorem k1_idx4_inb : ∀ (v57 : IVec S16 32) (v64 : IVec S16 32) (k1_hw4 : k1_chk4 v57 v64), ∀ a x, ((![v57, v64] : Fin 2 → IVec S16 32) a x).toNat < S256x128.size a := fun v57 v64 k1_hw4 => k1_hw4
def k1_off6 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v66 : Index := Scalar.indexCast v15
  let c48_33 : Index := 48#32
  ![v66.toNat, 48]

def k1_chk5 (v70 : IVec S16 32) (v77 : IVec S16 32) : Prop :=
  (∀ a x, ((![v70, v77] : Fin 2 → IVec S16 32) a x).toNat < S256x128.size a)
instance k1_chk5.dec : ∀ (v70 : IVec S16 32) (v77 : IVec S16 32), Decidable (k1_chk5 v70 v77) := fun v70 v77 => decidable_of_iff' _ (Iff.of_eq (k1_chk5.eq_1 v70 v77))
theorem k1_idx5_inb : ∀ (v70 : IVec S16 32) (v77 : IVec S16 32) (k1_hw5 : k1_chk5 v70 v77), ∀ a x, ((![v70, v77] : Fin 2 → IVec S16 32) a x).toNat < S256x128.size a := fun v70 v77 k1_hw5 => k1_hw5
def k1_off7 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v79 : Index := Scalar.indexCast v15
  let c64_36 : Index := 64#32
  ![v79.toNat, 64]

def k1_chk6 (v83 : IVec S16 32) (v90 : IVec S16 32) : Prop :=
  (∀ a x, ((![v83, v90] : Fin 2 → IVec S16 32) a x).toNat < S256x128.size a)
instance k1_chk6.dec : ∀ (v83 : IVec S16 32) (v90 : IVec S16 32), Decidable (k1_chk6 v83 v90) := fun v83 v90 => decidable_of_iff' _ (Iff.of_eq (k1_chk6.eq_1 v83 v90))
theorem k1_idx6_inb : ∀ (v83 : IVec S16 32) (v90 : IVec S16 32) (k1_hw6 : k1_chk6 v83 v90), ∀ a x, ((![v83, v90] : Fin 2 → IVec S16 32) a x).toNat < S256x128.size a := fun v83 v90 k1_hw6 => k1_hw6
def k1_off8 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v92 : Index := Scalar.indexCast v15
  let c80_39 : Index := 80#32
  ![v92.toNat, 80]

def k1_chk7 (v96 : IVec S16 32) (v103 : IVec S16 32) : Prop :=
  (∀ a x, ((![v96, v103] : Fin 2 → IVec S16 32) a x).toNat < S256x128.size a)
instance k1_chk7.dec : ∀ (v96 : IVec S16 32) (v103 : IVec S16 32), Decidable (k1_chk7 v96 v103) := fun v96 v103 => decidable_of_iff' _ (Iff.of_eq (k1_chk7.eq_1 v96 v103))
theorem k1_idx7_inb : ∀ (v96 : IVec S16 32) (v103 : IVec S16 32) (k1_hw7 : k1_chk7 v96 v103), ∀ a x, ((![v96, v103] : Fin 2 → IVec S16 32) a x).toNat < S256x128.size a := fun v96 v103 k1_hw7 => k1_hw7
def k1_off9 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v105 : Index := Scalar.indexCast v15
  let c96_42 : Index := 96#32
  ![v105.toNat, 96]

def k1_chk8 (v109 : IVec S16 32) (v116 : IVec S16 32) : Prop :=
  (∀ a x, ((![v109, v116] : Fin 2 → IVec S16 32) a x).toNat < S256x128.size a)
instance k1_chk8.dec : ∀ (v109 : IVec S16 32) (v116 : IVec S16 32), Decidable (k1_chk8 v109 v116) := fun v109 v116 => decidable_of_iff' _ (Iff.of_eq (k1_chk8.eq_1 v109 v116))
theorem k1_idx8_inb : ∀ (v109 : IVec S16 32) (v116 : IVec S16 32) (k1_hw8 : k1_chk8 v109 v116), ∀ a x, ((![v109, v116] : Fin 2 → IVec S16 32) a x).toNat < S256x128.size a := fun v109 v116 k1_hw8 => k1_hw8
def k1_off10 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v118 : Index := Scalar.indexCast v15
  let c112_45 : Index := 112#32
  ![v118.toNat, 112]

def k1_chk9 (v122 : IVec S16 32) (v129 : IVec S16 32) : Prop :=
  (∀ a x, ((![v122, v129] : Fin 2 → IVec S16 32) a x).toNat < S256x128.size a)
instance k1_chk9.dec : ∀ (v122 : IVec S16 32) (v129 : IVec S16 32), Decidable (k1_chk9 v122 v129) := fun v122 v129 => decidable_of_iff' _ (Iff.of_eq (k1_chk9.eq_1 v122 v129))
theorem k1_idx9_inb : ∀ (v122 : IVec S16 32) (v129 : IVec S16 32) (k1_hw9 : k1_chk9 v122 v129), ∀ a x, ((![v122, v129] : Fin 2 → IVec S16 32) a x).toNat < S256x128.size a := fun v122 v129 k1_hw9 => k1_hw9
def k1_off11 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v131 : Index := Scalar.indexCast v15
  let c128_48 : Index := 128#32
  ![v131.toNat, 128]

def k1_chk10 (v135 : IVec S16 32) (v142 : IVec S16 32) : Prop :=
  (∀ a x, ((![v135, v142] : Fin 2 → IVec S16 32) a x).toNat < S256x128.size a)
instance k1_chk10.dec : ∀ (v135 : IVec S16 32) (v142 : IVec S16 32), Decidable (k1_chk10 v135 v142) := fun v135 v142 => decidable_of_iff' _ (Iff.of_eq (k1_chk10.eq_1 v135 v142))
theorem k1_idx10_inb : ∀ (v135 : IVec S16 32) (v142 : IVec S16 32) (k1_hw10 : k1_chk10 v135 v142), ∀ a x, ((![v135, v142] : Fin 2 → IVec S16 32) a x).toNat < S256x128.size a := fun v135 v142 k1_hw10 => k1_hw10
def k1_off12 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v144 : Index := Scalar.indexCast v15
  let c144_51 : Index := 144#32
  ![v144.toNat, 144]

def k1_chk11 (v148 : IVec S16 32) (v155 : IVec S16 32) : Prop :=
  (∀ a x, ((![v148, v155] : Fin 2 → IVec S16 32) a x).toNat < S256x128.size a)
instance k1_chk11.dec : ∀ (v148 : IVec S16 32) (v155 : IVec S16 32), Decidable (k1_chk11 v148 v155) := fun v148 v155 => decidable_of_iff' _ (Iff.of_eq (k1_chk11.eq_1 v148 v155))
theorem k1_idx11_inb : ∀ (v148 : IVec S16 32) (v155 : IVec S16 32) (k1_hw11 : k1_chk11 v148 v155), ∀ a x, ((![v148, v155] : Fin 2 → IVec S16 32) a x).toNat < S256x128.size a := fun v148 v155 k1_hw11 => k1_hw11
def k1_off13 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v157 : Index := Scalar.indexCast v15
  let c160_54 : Index := 160#32
  ![v157.toNat, 160]

def k1_chk12 (v161 : IVec S16 32) (v168 : IVec S16 32) : Prop :=
  (∀ a x, ((![v161, v168] : Fin 2 → IVec S16 32) a x).toNat < S256x128.size a)
instance k1_chk12.dec : ∀ (v161 : IVec S16 32) (v168 : IVec S16 32), Decidable (k1_chk12 v161 v168) := fun v161 v168 => decidable_of_iff' _ (Iff.of_eq (k1_chk12.eq_1 v161 v168))
theorem k1_idx12_inb : ∀ (v161 : IVec S16 32) (v168 : IVec S16 32) (k1_hw12 : k1_chk12 v161 v168), ∀ a x, ((![v161, v168] : Fin 2 → IVec S16 32) a x).toNat < S256x128.size a := fun v161 v168 k1_hw12 => k1_hw12
def k1_off14 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v170 : Index := Scalar.indexCast v15
  let c176_57 : Index := 176#32
  ![v170.toNat, 176]

def k1_chk13 (v174 : IVec S16 32) (v181 : IVec S16 32) : Prop :=
  (∀ a x, ((![v174, v181] : Fin 2 → IVec S16 32) a x).toNat < S256x128.size a)
instance k1_chk13.dec : ∀ (v174 : IVec S16 32) (v181 : IVec S16 32), Decidable (k1_chk13 v174 v181) := fun v174 v181 => decidable_of_iff' _ (Iff.of_eq (k1_chk13.eq_1 v174 v181))
theorem k1_idx13_inb : ∀ (v174 : IVec S16 32) (v181 : IVec S16 32) (k1_hw13 : k1_chk13 v174 v181), ∀ a x, ((![v174, v181] : Fin 2 → IVec S16 32) a x).toNat < S256x128.size a := fun v174 v181 k1_hw13 => k1_hw13
def k1_off15 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v183 : Index := Scalar.indexCast v15
  let c192_60 : Index := 192#32
  ![v183.toNat, 192]

def k1_chk14 (v187 : IVec S16 32) (v194 : IVec S16 32) : Prop :=
  (∀ a x, ((![v187, v194] : Fin 2 → IVec S16 32) a x).toNat < S256x128.size a)
instance k1_chk14.dec : ∀ (v187 : IVec S16 32) (v194 : IVec S16 32), Decidable (k1_chk14 v187 v194) := fun v187 v194 => decidable_of_iff' _ (Iff.of_eq (k1_chk14.eq_1 v187 v194))
theorem k1_idx14_inb : ∀ (v187 : IVec S16 32) (v194 : IVec S16 32) (k1_hw14 : k1_chk14 v187 v194), ∀ a x, ((![v187, v194] : Fin 2 → IVec S16 32) a x).toNat < S256x128.size a := fun v187 v194 k1_hw14 => k1_hw14
def k1_off16 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v196 : Index := Scalar.indexCast v15
  let c208_63 : Index := 208#32
  ![v196.toNat, 208]

def k1_chk15 (v200 : IVec S16 32) (v207 : IVec S16 32) : Prop :=
  (∀ a x, ((![v200, v207] : Fin 2 → IVec S16 32) a x).toNat < S256x128.size a)
instance k1_chk15.dec : ∀ (v200 : IVec S16 32) (v207 : IVec S16 32), Decidable (k1_chk15 v200 v207) := fun v200 v207 => decidable_of_iff' _ (Iff.of_eq (k1_chk15.eq_1 v200 v207))
theorem k1_idx15_inb : ∀ (v200 : IVec S16 32) (v207 : IVec S16 32) (k1_hw15 : k1_chk15 v200 v207), ∀ a x, ((![v200, v207] : Fin 2 → IVec S16 32) a x).toNat < S256x128.size a := fun v200 v207 k1_hw15 => k1_hw15
def k1_off17 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v209 : Index := Scalar.indexCast v15
  let c224_66 : Index := 224#32
  ![v209.toNat, 224]

def k1_chk16 (v213 : IVec S16 32) (v220 : IVec S16 32) : Prop :=
  (∀ a x, ((![v213, v220] : Fin 2 → IVec S16 32) a x).toNat < S256x128.size a)
instance k1_chk16.dec : ∀ (v213 : IVec S16 32) (v220 : IVec S16 32), Decidable (k1_chk16 v213 v220) := fun v213 v220 => decidable_of_iff' _ (Iff.of_eq (k1_chk16.eq_1 v213 v220))
theorem k1_idx16_inb : ∀ (v213 : IVec S16 32) (v220 : IVec S16 32) (k1_hw16 : k1_chk16 v213 v220), ∀ a x, ((![v213, v220] : Fin 2 → IVec S16 32) a x).toNat < S256x128.size a := fun v213 v220 k1_hw16 => k1_hw16
def k1_off18 (k1_t2 : Fin k1_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k1_t2
  let c1_i32_20 : BitVec 32 := 1#32
  let v14 : BitVec 32 := Scalar.muli arg12 c1_i32_20
  let v15 : BitVec 32 := Scalar.addi c0_i32_21 v14
  let v222 : Index := Scalar.indexCast v15
  let c240_69 : Index := 240#32
  ![v222.toNat, 240]
@[reducible] def k1_t3_loop : Scf.Loop 32 :=
  let c0_i32_16 : BitVec 32 := 0#32
  let c32_i32_17 : BitVec 32 := 32#32
  let v13 : BitVec 32 := Scalar.addi c0_i32_16 c32_i32_17
  let c1_i32_18 : BitVec 32 := 1#32
  ⟨c0_i32_16, v13, c1_i32_18⟩

def k1_chk17 (v18 : IVec S16 32) (v25 : IVec S16 32) : Prop :=
  (∀ a x, ((![v18, v25] : Fin 2 → IVec S16 32) a x).toNat < S256x128.size a)
instance k1_chk17.dec : ∀ (v18 : IVec S16 32) (v25 : IVec S16 32), Decidable (k1_chk17 v18 v25) := fun v18 v25 => decidable_of_iff' _ (Iff.of_eq (k1_chk17.eq_1 v18 v25))
theorem k1_idx17_inb : ∀ (v18 : IVec S16 32) (v25 : IVec S16 32) (k1_hw17 : k1_chk17 v18 v25), ∀ a x, ((![v18, v25] : Fin 2 → IVec S16 32) a x).toNat < S256x128.size a := fun v18 v25 k1_hw17 => k1_hw17
def k1_off19 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v27 : Index := Scalar.indexCast v15
  let c256_23 : Index := 256#32
  ![v27.toNat, 256]

def k1_chk18 (v31 : IVec S16 32) (v38 : IVec S16 32) : Prop :=
  (∀ a x, ((![v31, v38] : Fin 2 → IVec S16 32) a x).toNat < S256x128.size a)
instance k1_chk18.dec : ∀ (v31 : IVec S16 32) (v38 : IVec S16 32), Decidable (k1_chk18 v31 v38) := fun v31 v38 => decidable_of_iff' _ (Iff.of_eq (k1_chk18.eq_1 v31 v38))
theorem k1_idx18_inb : ∀ (v31 : IVec S16 32) (v38 : IVec S16 32) (k1_hw18 : k1_chk18 v31 v38), ∀ a x, ((![v31, v38] : Fin 2 → IVec S16 32) a x).toNat < S256x128.size a := fun v31 v38 k1_hw18 => k1_hw18
def k1_off20 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v40 : Index := Scalar.indexCast v15
  let c272_26 : Index := 272#32
  ![v40.toNat, 272]

def k1_chk19 (v44 : IVec S16 32) (v51 : IVec S16 32) : Prop :=
  (∀ a x, ((![v44, v51] : Fin 2 → IVec S16 32) a x).toNat < S256x128.size a)
instance k1_chk19.dec : ∀ (v44 : IVec S16 32) (v51 : IVec S16 32), Decidable (k1_chk19 v44 v51) := fun v44 v51 => decidable_of_iff' _ (Iff.of_eq (k1_chk19.eq_1 v44 v51))
theorem k1_idx19_inb : ∀ (v44 : IVec S16 32) (v51 : IVec S16 32) (k1_hw19 : k1_chk19 v44 v51), ∀ a x, ((![v44, v51] : Fin 2 → IVec S16 32) a x).toNat < S256x128.size a := fun v44 v51 k1_hw19 => k1_hw19
def k1_off21 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v53 : Index := Scalar.indexCast v15
  let c288_30 : Index := 288#32
  ![v53.toNat, 288]

def k1_chk20 (v57 : IVec S16 32) (v64 : IVec S16 32) : Prop :=
  (∀ a x, ((![v57, v64] : Fin 2 → IVec S16 32) a x).toNat < S256x128.size a)
instance k1_chk20.dec : ∀ (v57 : IVec S16 32) (v64 : IVec S16 32), Decidable (k1_chk20 v57 v64) := fun v57 v64 => decidable_of_iff' _ (Iff.of_eq (k1_chk20.eq_1 v57 v64))
theorem k1_idx20_inb : ∀ (v57 : IVec S16 32) (v64 : IVec S16 32) (k1_hw20 : k1_chk20 v57 v64), ∀ a x, ((![v57, v64] : Fin 2 → IVec S16 32) a x).toNat < S256x128.size a := fun v57 v64 k1_hw20 => k1_hw20
def k1_off22 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v66 : Index := Scalar.indexCast v15
  let c304_33 : Index := 304#32
  ![v66.toNat, 304]

def k1_chk21 (v70 : IVec S16 32) (v77 : IVec S16 32) : Prop :=
  (∀ a x, ((![v70, v77] : Fin 2 → IVec S16 32) a x).toNat < S256x128.size a)
instance k1_chk21.dec : ∀ (v70 : IVec S16 32) (v77 : IVec S16 32), Decidable (k1_chk21 v70 v77) := fun v70 v77 => decidable_of_iff' _ (Iff.of_eq (k1_chk21.eq_1 v70 v77))
theorem k1_idx21_inb : ∀ (v70 : IVec S16 32) (v77 : IVec S16 32) (k1_hw21 : k1_chk21 v70 v77), ∀ a x, ((![v70, v77] : Fin 2 → IVec S16 32) a x).toNat < S256x128.size a := fun v70 v77 k1_hw21 => k1_hw21
def k1_off23 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v79 : Index := Scalar.indexCast v15
  let c320_36 : Index := 320#32
  ![v79.toNat, 320]

def k1_chk22 (v83 : IVec S16 32) (v90 : IVec S16 32) : Prop :=
  (∀ a x, ((![v83, v90] : Fin 2 → IVec S16 32) a x).toNat < S256x128.size a)
instance k1_chk22.dec : ∀ (v83 : IVec S16 32) (v90 : IVec S16 32), Decidable (k1_chk22 v83 v90) := fun v83 v90 => decidable_of_iff' _ (Iff.of_eq (k1_chk22.eq_1 v83 v90))
theorem k1_idx22_inb : ∀ (v83 : IVec S16 32) (v90 : IVec S16 32) (k1_hw22 : k1_chk22 v83 v90), ∀ a x, ((![v83, v90] : Fin 2 → IVec S16 32) a x).toNat < S256x128.size a := fun v83 v90 k1_hw22 => k1_hw22
def k1_off24 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v92 : Index := Scalar.indexCast v15
  let c336_39 : Index := 336#32
  ![v92.toNat, 336]

def k1_chk23 (v96 : IVec S16 32) (v103 : IVec S16 32) : Prop :=
  (∀ a x, ((![v96, v103] : Fin 2 → IVec S16 32) a x).toNat < S256x128.size a)
instance k1_chk23.dec : ∀ (v96 : IVec S16 32) (v103 : IVec S16 32), Decidable (k1_chk23 v96 v103) := fun v96 v103 => decidable_of_iff' _ (Iff.of_eq (k1_chk23.eq_1 v96 v103))
theorem k1_idx23_inb : ∀ (v96 : IVec S16 32) (v103 : IVec S16 32) (k1_hw23 : k1_chk23 v96 v103), ∀ a x, ((![v96, v103] : Fin 2 → IVec S16 32) a x).toNat < S256x128.size a := fun v96 v103 k1_hw23 => k1_hw23
def k1_off25 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v105 : Index := Scalar.indexCast v15
  let c352_42 : Index := 352#32
  ![v105.toNat, 352]

def k1_chk24 (v109 : IVec S16 32) (v116 : IVec S16 32) : Prop :=
  (∀ a x, ((![v109, v116] : Fin 2 → IVec S16 32) a x).toNat < S256x128.size a)
instance k1_chk24.dec : ∀ (v109 : IVec S16 32) (v116 : IVec S16 32), Decidable (k1_chk24 v109 v116) := fun v109 v116 => decidable_of_iff' _ (Iff.of_eq (k1_chk24.eq_1 v109 v116))
theorem k1_idx24_inb : ∀ (v109 : IVec S16 32) (v116 : IVec S16 32) (k1_hw24 : k1_chk24 v109 v116), ∀ a x, ((![v109, v116] : Fin 2 → IVec S16 32) a x).toNat < S256x128.size a := fun v109 v116 k1_hw24 => k1_hw24
def k1_off26 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v118 : Index := Scalar.indexCast v15
  let c368_45 : Index := 368#32
  ![v118.toNat, 368]

def k1_chk25 (v122 : IVec S16 32) (v129 : IVec S16 32) : Prop :=
  (∀ a x, ((![v122, v129] : Fin 2 → IVec S16 32) a x).toNat < S256x128.size a)
instance k1_chk25.dec : ∀ (v122 : IVec S16 32) (v129 : IVec S16 32), Decidable (k1_chk25 v122 v129) := fun v122 v129 => decidable_of_iff' _ (Iff.of_eq (k1_chk25.eq_1 v122 v129))
theorem k1_idx25_inb : ∀ (v122 : IVec S16 32) (v129 : IVec S16 32) (k1_hw25 : k1_chk25 v122 v129), ∀ a x, ((![v122, v129] : Fin 2 → IVec S16 32) a x).toNat < S256x128.size a := fun v122 v129 k1_hw25 => k1_hw25
def k1_off27 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v131 : Index := Scalar.indexCast v15
  let c384_48 : Index := 384#32
  ![v131.toNat, 384]

def k1_chk26 (v135 : IVec S16 32) (v142 : IVec S16 32) : Prop :=
  (∀ a x, ((![v135, v142] : Fin 2 → IVec S16 32) a x).toNat < S256x128.size a)
instance k1_chk26.dec : ∀ (v135 : IVec S16 32) (v142 : IVec S16 32), Decidable (k1_chk26 v135 v142) := fun v135 v142 => decidable_of_iff' _ (Iff.of_eq (k1_chk26.eq_1 v135 v142))
theorem k1_idx26_inb : ∀ (v135 : IVec S16 32) (v142 : IVec S16 32) (k1_hw26 : k1_chk26 v135 v142), ∀ a x, ((![v135, v142] : Fin 2 → IVec S16 32) a x).toNat < S256x128.size a := fun v135 v142 k1_hw26 => k1_hw26
def k1_off28 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v144 : Index := Scalar.indexCast v15
  let c400_51 : Index := 400#32
  ![v144.toNat, 400]

def k1_chk27 (v148 : IVec S16 32) (v155 : IVec S16 32) : Prop :=
  (∀ a x, ((![v148, v155] : Fin 2 → IVec S16 32) a x).toNat < S256x128.size a)
instance k1_chk27.dec : ∀ (v148 : IVec S16 32) (v155 : IVec S16 32), Decidable (k1_chk27 v148 v155) := fun v148 v155 => decidable_of_iff' _ (Iff.of_eq (k1_chk27.eq_1 v148 v155))
theorem k1_idx27_inb : ∀ (v148 : IVec S16 32) (v155 : IVec S16 32) (k1_hw27 : k1_chk27 v148 v155), ∀ a x, ((![v148, v155] : Fin 2 → IVec S16 32) a x).toNat < S256x128.size a := fun v148 v155 k1_hw27 => k1_hw27
def k1_off29 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v157 : Index := Scalar.indexCast v15
  let c416_54 : Index := 416#32
  ![v157.toNat, 416]

def k1_chk28 (v161 : IVec S16 32) (v168 : IVec S16 32) : Prop :=
  (∀ a x, ((![v161, v168] : Fin 2 → IVec S16 32) a x).toNat < S256x128.size a)
instance k1_chk28.dec : ∀ (v161 : IVec S16 32) (v168 : IVec S16 32), Decidable (k1_chk28 v161 v168) := fun v161 v168 => decidable_of_iff' _ (Iff.of_eq (k1_chk28.eq_1 v161 v168))
theorem k1_idx28_inb : ∀ (v161 : IVec S16 32) (v168 : IVec S16 32) (k1_hw28 : k1_chk28 v161 v168), ∀ a x, ((![v161, v168] : Fin 2 → IVec S16 32) a x).toNat < S256x128.size a := fun v161 v168 k1_hw28 => k1_hw28
def k1_off30 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v170 : Index := Scalar.indexCast v15
  let c432_57 : Index := 432#32
  ![v170.toNat, 432]

def k1_chk29 (v174 : IVec S16 32) (v181 : IVec S16 32) : Prop :=
  (∀ a x, ((![v174, v181] : Fin 2 → IVec S16 32) a x).toNat < S256x128.size a)
instance k1_chk29.dec : ∀ (v174 : IVec S16 32) (v181 : IVec S16 32), Decidable (k1_chk29 v174 v181) := fun v174 v181 => decidable_of_iff' _ (Iff.of_eq (k1_chk29.eq_1 v174 v181))
theorem k1_idx29_inb : ∀ (v174 : IVec S16 32) (v181 : IVec S16 32) (k1_hw29 : k1_chk29 v174 v181), ∀ a x, ((![v174, v181] : Fin 2 → IVec S16 32) a x).toNat < S256x128.size a := fun v174 v181 k1_hw29 => k1_hw29
def k1_off31 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v183 : Index := Scalar.indexCast v15
  let c448_60 : Index := 448#32
  ![v183.toNat, 448]

def k1_chk30 (v187 : IVec S16 32) (v194 : IVec S16 32) : Prop :=
  (∀ a x, ((![v187, v194] : Fin 2 → IVec S16 32) a x).toNat < S256x128.size a)
instance k1_chk30.dec : ∀ (v187 : IVec S16 32) (v194 : IVec S16 32), Decidable (k1_chk30 v187 v194) := fun v187 v194 => decidable_of_iff' _ (Iff.of_eq (k1_chk30.eq_1 v187 v194))
theorem k1_idx30_inb : ∀ (v187 : IVec S16 32) (v194 : IVec S16 32) (k1_hw30 : k1_chk30 v187 v194), ∀ a x, ((![v187, v194] : Fin 2 → IVec S16 32) a x).toNat < S256x128.size a := fun v187 v194 k1_hw30 => k1_hw30
def k1_off32 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v196 : Index := Scalar.indexCast v15
  let c464_63 : Index := 464#32
  ![v196.toNat, 464]

def k1_chk31 (v200 : IVec S16 32) (v207 : IVec S16 32) : Prop :=
  (∀ a x, ((![v200, v207] : Fin 2 → IVec S16 32) a x).toNat < S256x128.size a)
instance k1_chk31.dec : ∀ (v200 : IVec S16 32) (v207 : IVec S16 32), Decidable (k1_chk31 v200 v207) := fun v200 v207 => decidable_of_iff' _ (Iff.of_eq (k1_chk31.eq_1 v200 v207))
theorem k1_idx31_inb : ∀ (v200 : IVec S16 32) (v207 : IVec S16 32) (k1_hw31 : k1_chk31 v200 v207), ∀ a x, ((![v200, v207] : Fin 2 → IVec S16 32) a x).toNat < S256x128.size a := fun v200 v207 k1_hw31 => k1_hw31
def k1_off33 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v209 : Index := Scalar.indexCast v15
  let c480_66 : Index := 480#32
  ![v209.toNat, 480]

def k1_chk32 (v213 : IVec S16 32) (v220 : IVec S16 32) : Prop :=
  (∀ a x, ((![v213, v220] : Fin 2 → IVec S16 32) a x).toNat < S256x128.size a)
instance k1_chk32.dec : ∀ (v213 : IVec S16 32) (v220 : IVec S16 32), Decidable (k1_chk32 v213 v220) := fun v213 v220 => decidable_of_iff' _ (Iff.of_eq (k1_chk32.eq_1 v213 v220))
theorem k1_idx32_inb : ∀ (v213 : IVec S16 32) (v220 : IVec S16 32) (k1_hw32 : k1_chk32 v213 v220), ∀ a x, ((![v213, v220] : Fin 2 → IVec S16 32) a x).toNat < S256x128.size a := fun v213 v220 k1_hw32 => k1_hw32
def k1_off34 (k1_t3 : Fin k1_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k1_t3
  let c1_i32_20 : BitVec 32 := 1#32
  let v14 : BitVec 32 := Scalar.muli arg12 c1_i32_20
  let v15 : BitVec 32 := Scalar.addi c0_i32_21 v14
  let v222 : Index := Scalar.indexCast v15
  let c496_69 : Index := 496#32
  ![v222.toNat, 496]
def k1_off35 (i : grid1.Coords) : Fin 2 → Nat :=
  let c0_i32_20_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k2_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k2_off2 (k2_t1 : Fin k2_t1_loop.trips) : Fin 1 → Nat :=
  let c0_i32_21 : BitVec 32 := 0#32
  let c0_i32 : BitVec 32 := 0#32
  let c1_i32 : BitVec 32 := 1#32
  let arg12 : BitVec 32 := Scf.iv c0_i32 c1_i32 k2_t1
  let c1_i32_20 : BitVec 32 := 1#32
  let v14 : BitVec 32 := Scalar.muli arg12 c1_i32_20
  let v15 : BitVec 32 := Scalar.addi c0_i32_21 v14
  let c16_i32 : BitVec 32 := 16#32
  let v16 : BitVec 32 := Scalar.muli v15 c16_i32
  let v17 : Index := Scalar.indexCast v16
  ![v17.toNat]
@[reducible] def k2_t2_loop : Scf.Loop 32 :=
  let c0_i32_9 : BitVec 32 := 0#32
  let c32_i32_10 : BitVec 32 := 32#32
  let v10 : BitVec 32 := Scalar.addi c0_i32_9 c32_i32_10
  let c1_i32_11 : BitVec 32 := 1#32
  ⟨c0_i32_9, v10, c1_i32_11⟩

def k2_chk1 (v18 : IVec S16 32) (v25 : IVec S16 32) : Prop :=
  (∀ a x, ((![v18, v25] : Fin 2 → IVec S16 32) a x).toNat < S256x128.size a)
instance k2_chk1.dec : ∀ (v18 : IVec S16 32) (v25 : IVec S16 32), Decidable (k2_chk1 v18 v25) := fun v18 v25 => decidable_of_iff' _ (Iff.of_eq (k2_chk1.eq_1 v18 v25))
theorem k2_idx1_inb : ∀ (v18 : IVec S16 32) (v25 : IVec S16 32) (k2_hw1 : k2_chk1 v18 v25), ∀ a x, ((![v18, v25] : Fin 2 → IVec S16 32) a x).toNat < S256x128.size a := fun v18 v25 k2_hw1 => k2_hw1
def k2_off3 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v27 : Index := Scalar.indexCast v15
  let c0_23 : Index := 0#32
  ![v27.toNat, 0]

def k2_chk2 (v31 : IVec S16 32) (v38 : IVec S16 32) : Prop :=
  (∀ a x, ((![v31, v38] : Fin 2 → IVec S16 32) a x).toNat < S256x128.size a)
instance k2_chk2.dec : ∀ (v31 : IVec S16 32) (v38 : IVec S16 32), Decidable (k2_chk2 v31 v38) := fun v31 v38 => decidable_of_iff' _ (Iff.of_eq (k2_chk2.eq_1 v31 v38))
theorem k2_idx2_inb : ∀ (v31 : IVec S16 32) (v38 : IVec S16 32) (k2_hw2 : k2_chk2 v31 v38), ∀ a x, ((![v31, v38] : Fin 2 → IVec S16 32) a x).toNat < S256x128.size a := fun v31 v38 k2_hw2 => k2_hw2
def k2_off4 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v40 : Index := Scalar.indexCast v15
  let c16_26 : Index := 16#32
  ![v40.toNat, 16]

def k2_chk3 (v44 : IVec S16 32) (v51 : IVec S16 32) : Prop :=
  (∀ a x, ((![v44, v51] : Fin 2 → IVec S16 32) a x).toNat < S256x128.size a)
instance k2_chk3.dec : ∀ (v44 : IVec S16 32) (v51 : IVec S16 32), Decidable (k2_chk3 v44 v51) := fun v44 v51 => decidable_of_iff' _ (Iff.of_eq (k2_chk3.eq_1 v44 v51))
theorem k2_idx3_inb : ∀ (v44 : IVec S16 32) (v51 : IVec S16 32) (k2_hw3 : k2_chk3 v44 v51), ∀ a x, ((![v44, v51] : Fin 2 → IVec S16 32) a x).toNat < S256x128.size a := fun v44 v51 k2_hw3 => k2_hw3
def k2_off5 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v53 : Index := Scalar.indexCast v15
  let c32_30 : Index := 32#32
  ![v53.toNat, 32]

def k2_chk4 (v57 : IVec S16 32) (v64 : IVec S16 32) : Prop :=
  (∀ a x, ((![v57, v64] : Fin 2 → IVec S16 32) a x).toNat < S256x128.size a)
instance k2_chk4.dec : ∀ (v57 : IVec S16 32) (v64 : IVec S16 32), Decidable (k2_chk4 v57 v64) := fun v57 v64 => decidable_of_iff' _ (Iff.of_eq (k2_chk4.eq_1 v57 v64))
theorem k2_idx4_inb : ∀ (v57 : IVec S16 32) (v64 : IVec S16 32) (k2_hw4 : k2_chk4 v57 v64), ∀ a x, ((![v57, v64] : Fin 2 → IVec S16 32) a x).toNat < S256x128.size a := fun v57 v64 k2_hw4 => k2_hw4
def k2_off6 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v66 : Index := Scalar.indexCast v15
  let c48_33 : Index := 48#32
  ![v66.toNat, 48]

def k2_chk5 (v70 : IVec S16 32) (v77 : IVec S16 32) : Prop :=
  (∀ a x, ((![v70, v77] : Fin 2 → IVec S16 32) a x).toNat < S256x128.size a)
instance k2_chk5.dec : ∀ (v70 : IVec S16 32) (v77 : IVec S16 32), Decidable (k2_chk5 v70 v77) := fun v70 v77 => decidable_of_iff' _ (Iff.of_eq (k2_chk5.eq_1 v70 v77))
theorem k2_idx5_inb : ∀ (v70 : IVec S16 32) (v77 : IVec S16 32) (k2_hw5 : k2_chk5 v70 v77), ∀ a x, ((![v70, v77] : Fin 2 → IVec S16 32) a x).toNat < S256x128.size a := fun v70 v77 k2_hw5 => k2_hw5
def k2_off7 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v79 : Index := Scalar.indexCast v15
  let c64_36 : Index := 64#32
  ![v79.toNat, 64]

def k2_chk6 (v83 : IVec S16 32) (v90 : IVec S16 32) : Prop :=
  (∀ a x, ((![v83, v90] : Fin 2 → IVec S16 32) a x).toNat < S256x128.size a)
instance k2_chk6.dec : ∀ (v83 : IVec S16 32) (v90 : IVec S16 32), Decidable (k2_chk6 v83 v90) := fun v83 v90 => decidable_of_iff' _ (Iff.of_eq (k2_chk6.eq_1 v83 v90))
theorem k2_idx6_inb : ∀ (v83 : IVec S16 32) (v90 : IVec S16 32) (k2_hw6 : k2_chk6 v83 v90), ∀ a x, ((![v83, v90] : Fin 2 → IVec S16 32) a x).toNat < S256x128.size a := fun v83 v90 k2_hw6 => k2_hw6
def k2_off8 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v92 : Index := Scalar.indexCast v15
  let c80_39 : Index := 80#32
  ![v92.toNat, 80]

def k2_chk7 (v96 : IVec S16 32) (v103 : IVec S16 32) : Prop :=
  (∀ a x, ((![v96, v103] : Fin 2 → IVec S16 32) a x).toNat < S256x128.size a)
instance k2_chk7.dec : ∀ (v96 : IVec S16 32) (v103 : IVec S16 32), Decidable (k2_chk7 v96 v103) := fun v96 v103 => decidable_of_iff' _ (Iff.of_eq (k2_chk7.eq_1 v96 v103))
theorem k2_idx7_inb : ∀ (v96 : IVec S16 32) (v103 : IVec S16 32) (k2_hw7 : k2_chk7 v96 v103), ∀ a x, ((![v96, v103] : Fin 2 → IVec S16 32) a x).toNat < S256x128.size a := fun v96 v103 k2_hw7 => k2_hw7
def k2_off9 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v105 : Index := Scalar.indexCast v15
  let c96_42 : Index := 96#32
  ![v105.toNat, 96]

def k2_chk8 (v109 : IVec S16 32) (v116 : IVec S16 32) : Prop :=
  (∀ a x, ((![v109, v116] : Fin 2 → IVec S16 32) a x).toNat < S256x128.size a)
instance k2_chk8.dec : ∀ (v109 : IVec S16 32) (v116 : IVec S16 32), Decidable (k2_chk8 v109 v116) := fun v109 v116 => decidable_of_iff' _ (Iff.of_eq (k2_chk8.eq_1 v109 v116))
theorem k2_idx8_inb : ∀ (v109 : IVec S16 32) (v116 : IVec S16 32) (k2_hw8 : k2_chk8 v109 v116), ∀ a x, ((![v109, v116] : Fin 2 → IVec S16 32) a x).toNat < S256x128.size a := fun v109 v116 k2_hw8 => k2_hw8
def k2_off10 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v118 : Index := Scalar.indexCast v15
  let c112_45 : Index := 112#32
  ![v118.toNat, 112]

def k2_chk9 (v122 : IVec S16 32) (v129 : IVec S16 32) : Prop :=
  (∀ a x, ((![v122, v129] : Fin 2 → IVec S16 32) a x).toNat < S256x128.size a)
instance k2_chk9.dec : ∀ (v122 : IVec S16 32) (v129 : IVec S16 32), Decidable (k2_chk9 v122 v129) := fun v122 v129 => decidable_of_iff' _ (Iff.of_eq (k2_chk9.eq_1 v122 v129))
theorem k2_idx9_inb : ∀ (v122 : IVec S16 32) (v129 : IVec S16 32) (k2_hw9 : k2_chk9 v122 v129), ∀ a x, ((![v122, v129] : Fin 2 → IVec S16 32) a x).toNat < S256x128.size a := fun v122 v129 k2_hw9 => k2_hw9
def k2_off11 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v131 : Index := Scalar.indexCast v15
  let c128_48 : Index := 128#32
  ![v131.toNat, 128]

def k2_chk10 (v135 : IVec S16 32) (v142 : IVec S16 32) : Prop :=
  (∀ a x, ((![v135, v142] : Fin 2 → IVec S16 32) a x).toNat < S256x128.size a)
instance k2_chk10.dec : ∀ (v135 : IVec S16 32) (v142 : IVec S16 32), Decidable (k2_chk10 v135 v142) := fun v135 v142 => decidable_of_iff' _ (Iff.of_eq (k2_chk10.eq_1 v135 v142))
theorem k2_idx10_inb : ∀ (v135 : IVec S16 32) (v142 : IVec S16 32) (k2_hw10 : k2_chk10 v135 v142), ∀ a x, ((![v135, v142] : Fin 2 → IVec S16 32) a x).toNat < S256x128.size a := fun v135 v142 k2_hw10 => k2_hw10
def k2_off12 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v144 : Index := Scalar.indexCast v15
  let c144_51 : Index := 144#32
  ![v144.toNat, 144]

def k2_chk11 (v148 : IVec S16 32) (v155 : IVec S16 32) : Prop :=
  (∀ a x, ((![v148, v155] : Fin 2 → IVec S16 32) a x).toNat < S256x128.size a)
instance k2_chk11.dec : ∀ (v148 : IVec S16 32) (v155 : IVec S16 32), Decidable (k2_chk11 v148 v155) := fun v148 v155 => decidable_of_iff' _ (Iff.of_eq (k2_chk11.eq_1 v148 v155))
theorem k2_idx11_inb : ∀ (v148 : IVec S16 32) (v155 : IVec S16 32) (k2_hw11 : k2_chk11 v148 v155), ∀ a x, ((![v148, v155] : Fin 2 → IVec S16 32) a x).toNat < S256x128.size a := fun v148 v155 k2_hw11 => k2_hw11
def k2_off13 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v157 : Index := Scalar.indexCast v15
  let c160_54 : Index := 160#32
  ![v157.toNat, 160]

def k2_chk12 (v161 : IVec S16 32) (v168 : IVec S16 32) : Prop :=
  (∀ a x, ((![v161, v168] : Fin 2 → IVec S16 32) a x).toNat < S256x128.size a)
instance k2_chk12.dec : ∀ (v161 : IVec S16 32) (v168 : IVec S16 32), Decidable (k2_chk12 v161 v168) := fun v161 v168 => decidable_of_iff' _ (Iff.of_eq (k2_chk12.eq_1 v161 v168))
theorem k2_idx12_inb : ∀ (v161 : IVec S16 32) (v168 : IVec S16 32) (k2_hw12 : k2_chk12 v161 v168), ∀ a x, ((![v161, v168] : Fin 2 → IVec S16 32) a x).toNat < S256x128.size a := fun v161 v168 k2_hw12 => k2_hw12
def k2_off14 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v170 : Index := Scalar.indexCast v15
  let c176_57 : Index := 176#32
  ![v170.toNat, 176]

def k2_chk13 (v174 : IVec S16 32) (v181 : IVec S16 32) : Prop :=
  (∀ a x, ((![v174, v181] : Fin 2 → IVec S16 32) a x).toNat < S256x128.size a)
instance k2_chk13.dec : ∀ (v174 : IVec S16 32) (v181 : IVec S16 32), Decidable (k2_chk13 v174 v181) := fun v174 v181 => decidable_of_iff' _ (Iff.of_eq (k2_chk13.eq_1 v174 v181))
theorem k2_idx13_inb : ∀ (v174 : IVec S16 32) (v181 : IVec S16 32) (k2_hw13 : k2_chk13 v174 v181), ∀ a x, ((![v174, v181] : Fin 2 → IVec S16 32) a x).toNat < S256x128.size a := fun v174 v181 k2_hw13 => k2_hw13
def k2_off15 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v183 : Index := Scalar.indexCast v15
  let c192_60 : Index := 192#32
  ![v183.toNat, 192]

def k2_chk14 (v187 : IVec S16 32) (v194 : IVec S16 32) : Prop :=
  (∀ a x, ((![v187, v194] : Fin 2 → IVec S16 32) a x).toNat < S256x128.size a)
instance k2_chk14.dec : ∀ (v187 : IVec S16 32) (v194 : IVec S16 32), Decidable (k2_chk14 v187 v194) := fun v187 v194 => decidable_of_iff' _ (Iff.of_eq (k2_chk14.eq_1 v187 v194))
theorem k2_idx14_inb : ∀ (v187 : IVec S16 32) (v194 : IVec S16 32) (k2_hw14 : k2_chk14 v187 v194), ∀ a x, ((![v187, v194] : Fin 2 → IVec S16 32) a x).toNat < S256x128.size a := fun v187 v194 k2_hw14 => k2_hw14
def k2_off16 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v196 : Index := Scalar.indexCast v15
  let c208_63 : Index := 208#32
  ![v196.toNat, 208]

def k2_chk15 (v200 : IVec S16 32) (v207 : IVec S16 32) : Prop :=
  (∀ a x, ((![v200, v207] : Fin 2 → IVec S16 32) a x).toNat < S256x128.size a)
instance k2_chk15.dec : ∀ (v200 : IVec S16 32) (v207 : IVec S16 32), Decidable (k2_chk15 v200 v207) := fun v200 v207 => decidable_of_iff' _ (Iff.of_eq (k2_chk15.eq_1 v200 v207))
theorem k2_idx15_inb : ∀ (v200 : IVec S16 32) (v207 : IVec S16 32) (k2_hw15 : k2_chk15 v200 v207), ∀ a x, ((![v200, v207] : Fin 2 → IVec S16 32) a x).toNat < S256x128.size a := fun v200 v207 k2_hw15 => k2_hw15
def k2_off17 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v209 : Index := Scalar.indexCast v15
  let c224_66 : Index := 224#32
  ![v209.toNat, 224]

def k2_chk16 (v213 : IVec S16 32) (v220 : IVec S16 32) : Prop :=
  (∀ a x, ((![v213, v220] : Fin 2 → IVec S16 32) a x).toNat < S256x128.size a)
instance k2_chk16.dec : ∀ (v213 : IVec S16 32) (v220 : IVec S16 32), Decidable (k2_chk16 v213 v220) := fun v213 v220 => decidable_of_iff' _ (Iff.of_eq (k2_chk16.eq_1 v213 v220))
theorem k2_idx16_inb : ∀ (v213 : IVec S16 32) (v220 : IVec S16 32) (k2_hw16 : k2_chk16 v213 v220), ∀ a x, ((![v213, v220] : Fin 2 → IVec S16 32) a x).toNat < S256x128.size a := fun v213 v220 k2_hw16 => k2_hw16
def k2_off18 (k2_t2 : Fin k2_t2_loop.trips) : Fin 2 → Nat :=
  let c0_i32_21 : BitVec 32 := 0#32
  let c0_i32_9 : BitVec 32 := 0#32
  let c1_i32_11 : BitVec 32 := 1#32
  let arg12 : BitVec 32 := Scf.iv c0_i32_9 c1_i32_11 k2_t2
  let c1_i32_20 : BitVec 32 := 1#32
  let v14 : BitVec 32 := Scalar.muli arg12 c1_i32_20
  let v15 : BitVec 32 := Scalar.addi c0_i32_21 v14
  let v222 : Index := Scalar.indexCast v15
  let c240_69 : Index := 240#32
  ![v222.toNat, 240]
@[reducible] def k2_t3_loop : Scf.Loop 32 :=
  let c0_i32_16 : BitVec 32 := 0#32
  let c32_i32_17 : BitVec 32 := 32#32
  let v13 : BitVec 32 := Scalar.addi c0_i32_16 c32_i32_17
  let c1_i32_18 : BitVec 32 := 1#32
  ⟨c0_i32_16, v13, c1_i32_18⟩

def k2_chk17 (v18 : IVec S16 32) (v25 : IVec S16 32) : Prop :=
  (∀ a x, ((![v18, v25] : Fin 2 → IVec S16 32) a x).toNat < S256x128.size a)
instance k2_chk17.dec : ∀ (v18 : IVec S16 32) (v25 : IVec S16 32), Decidable (k2_chk17 v18 v25) := fun v18 v25 => decidable_of_iff' _ (Iff.of_eq (k2_chk17.eq_1 v18 v25))
theorem k2_idx17_inb : ∀ (v18 : IVec S16 32) (v25 : IVec S16 32) (k2_hw17 : k2_chk17 v18 v25), ∀ a x, ((![v18, v25] : Fin 2 → IVec S16 32) a x).toNat < S256x128.size a := fun v18 v25 k2_hw17 => k2_hw17
def k2_off19 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v27 : Index := Scalar.indexCast v15
  let c256_23 : Index := 256#32
  ![v27.toNat, 256]

def k2_chk18 (v31 : IVec S16 32) (v38 : IVec S16 32) : Prop :=
  (∀ a x, ((![v31, v38] : Fin 2 → IVec S16 32) a x).toNat < S256x128.size a)
instance k2_chk18.dec : ∀ (v31 : IVec S16 32) (v38 : IVec S16 32), Decidable (k2_chk18 v31 v38) := fun v31 v38 => decidable_of_iff' _ (Iff.of_eq (k2_chk18.eq_1 v31 v38))
theorem k2_idx18_inb : ∀ (v31 : IVec S16 32) (v38 : IVec S16 32) (k2_hw18 : k2_chk18 v31 v38), ∀ a x, ((![v31, v38] : Fin 2 → IVec S16 32) a x).toNat < S256x128.size a := fun v31 v38 k2_hw18 => k2_hw18
def k2_off20 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v40 : Index := Scalar.indexCast v15
  let c272_26 : Index := 272#32
  ![v40.toNat, 272]

def k2_chk19 (v44 : IVec S16 32) (v51 : IVec S16 32) : Prop :=
  (∀ a x, ((![v44, v51] : Fin 2 → IVec S16 32) a x).toNat < S256x128.size a)
instance k2_chk19.dec : ∀ (v44 : IVec S16 32) (v51 : IVec S16 32), Decidable (k2_chk19 v44 v51) := fun v44 v51 => decidable_of_iff' _ (Iff.of_eq (k2_chk19.eq_1 v44 v51))
theorem k2_idx19_inb : ∀ (v44 : IVec S16 32) (v51 : IVec S16 32) (k2_hw19 : k2_chk19 v44 v51), ∀ a x, ((![v44, v51] : Fin 2 → IVec S16 32) a x).toNat < S256x128.size a := fun v44 v51 k2_hw19 => k2_hw19
def k2_off21 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v53 : Index := Scalar.indexCast v15
  let c288_30 : Index := 288#32
  ![v53.toNat, 288]

def k2_chk20 (v57 : IVec S16 32) (v64 : IVec S16 32) : Prop :=
  (∀ a x, ((![v57, v64] : Fin 2 → IVec S16 32) a x).toNat < S256x128.size a)
instance k2_chk20.dec : ∀ (v57 : IVec S16 32) (v64 : IVec S16 32), Decidable (k2_chk20 v57 v64) := fun v57 v64 => decidable_of_iff' _ (Iff.of_eq (k2_chk20.eq_1 v57 v64))
theorem k2_idx20_inb : ∀ (v57 : IVec S16 32) (v64 : IVec S16 32) (k2_hw20 : k2_chk20 v57 v64), ∀ a x, ((![v57, v64] : Fin 2 → IVec S16 32) a x).toNat < S256x128.size a := fun v57 v64 k2_hw20 => k2_hw20
def k2_off22 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v66 : Index := Scalar.indexCast v15
  let c304_33 : Index := 304#32
  ![v66.toNat, 304]

def k2_chk21 (v70 : IVec S16 32) (v77 : IVec S16 32) : Prop :=
  (∀ a x, ((![v70, v77] : Fin 2 → IVec S16 32) a x).toNat < S256x128.size a)
instance k2_chk21.dec : ∀ (v70 : IVec S16 32) (v77 : IVec S16 32), Decidable (k2_chk21 v70 v77) := fun v70 v77 => decidable_of_iff' _ (Iff.of_eq (k2_chk21.eq_1 v70 v77))
theorem k2_idx21_inb : ∀ (v70 : IVec S16 32) (v77 : IVec S16 32) (k2_hw21 : k2_chk21 v70 v77), ∀ a x, ((![v70, v77] : Fin 2 → IVec S16 32) a x).toNat < S256x128.size a := fun v70 v77 k2_hw21 => k2_hw21
def k2_off23 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v79 : Index := Scalar.indexCast v15
  let c320_36 : Index := 320#32
  ![v79.toNat, 320]

def k2_chk22 (v83 : IVec S16 32) (v90 : IVec S16 32) : Prop :=
  (∀ a x, ((![v83, v90] : Fin 2 → IVec S16 32) a x).toNat < S256x128.size a)
instance k2_chk22.dec : ∀ (v83 : IVec S16 32) (v90 : IVec S16 32), Decidable (k2_chk22 v83 v90) := fun v83 v90 => decidable_of_iff' _ (Iff.of_eq (k2_chk22.eq_1 v83 v90))
theorem k2_idx22_inb : ∀ (v83 : IVec S16 32) (v90 : IVec S16 32) (k2_hw22 : k2_chk22 v83 v90), ∀ a x, ((![v83, v90] : Fin 2 → IVec S16 32) a x).toNat < S256x128.size a := fun v83 v90 k2_hw22 => k2_hw22
def k2_off24 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v92 : Index := Scalar.indexCast v15
  let c336_39 : Index := 336#32
  ![v92.toNat, 336]

def k2_chk23 (v96 : IVec S16 32) (v103 : IVec S16 32) : Prop :=
  (∀ a x, ((![v96, v103] : Fin 2 → IVec S16 32) a x).toNat < S256x128.size a)
instance k2_chk23.dec : ∀ (v96 : IVec S16 32) (v103 : IVec S16 32), Decidable (k2_chk23 v96 v103) := fun v96 v103 => decidable_of_iff' _ (Iff.of_eq (k2_chk23.eq_1 v96 v103))
theorem k2_idx23_inb : ∀ (v96 : IVec S16 32) (v103 : IVec S16 32) (k2_hw23 : k2_chk23 v96 v103), ∀ a x, ((![v96, v103] : Fin 2 → IVec S16 32) a x).toNat < S256x128.size a := fun v96 v103 k2_hw23 => k2_hw23
def k2_off25 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v105 : Index := Scalar.indexCast v15
  let c352_42 : Index := 352#32
  ![v105.toNat, 352]

def k2_chk24 (v109 : IVec S16 32) (v116 : IVec S16 32) : Prop :=
  (∀ a x, ((![v109, v116] : Fin 2 → IVec S16 32) a x).toNat < S256x128.size a)
instance k2_chk24.dec : ∀ (v109 : IVec S16 32) (v116 : IVec S16 32), Decidable (k2_chk24 v109 v116) := fun v109 v116 => decidable_of_iff' _ (Iff.of_eq (k2_chk24.eq_1 v109 v116))
theorem k2_idx24_inb : ∀ (v109 : IVec S16 32) (v116 : IVec S16 32) (k2_hw24 : k2_chk24 v109 v116), ∀ a x, ((![v109, v116] : Fin 2 → IVec S16 32) a x).toNat < S256x128.size a := fun v109 v116 k2_hw24 => k2_hw24
def k2_off26 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v118 : Index := Scalar.indexCast v15
  let c368_45 : Index := 368#32
  ![v118.toNat, 368]

def k2_chk25 (v122 : IVec S16 32) (v129 : IVec S16 32) : Prop :=
  (∀ a x, ((![v122, v129] : Fin 2 → IVec S16 32) a x).toNat < S256x128.size a)
instance k2_chk25.dec : ∀ (v122 : IVec S16 32) (v129 : IVec S16 32), Decidable (k2_chk25 v122 v129) := fun v122 v129 => decidable_of_iff' _ (Iff.of_eq (k2_chk25.eq_1 v122 v129))
theorem k2_idx25_inb : ∀ (v122 : IVec S16 32) (v129 : IVec S16 32) (k2_hw25 : k2_chk25 v122 v129), ∀ a x, ((![v122, v129] : Fin 2 → IVec S16 32) a x).toNat < S256x128.size a := fun v122 v129 k2_hw25 => k2_hw25
def k2_off27 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v131 : Index := Scalar.indexCast v15
  let c384_48 : Index := 384#32
  ![v131.toNat, 384]

def k2_chk26 (v135 : IVec S16 32) (v142 : IVec S16 32) : Prop :=
  (∀ a x, ((![v135, v142] : Fin 2 → IVec S16 32) a x).toNat < S256x128.size a)
instance k2_chk26.dec : ∀ (v135 : IVec S16 32) (v142 : IVec S16 32), Decidable (k2_chk26 v135 v142) := fun v135 v142 => decidable_of_iff' _ (Iff.of_eq (k2_chk26.eq_1 v135 v142))
theorem k2_idx26_inb : ∀ (v135 : IVec S16 32) (v142 : IVec S16 32) (k2_hw26 : k2_chk26 v135 v142), ∀ a x, ((![v135, v142] : Fin 2 → IVec S16 32) a x).toNat < S256x128.size a := fun v135 v142 k2_hw26 => k2_hw26
def k2_off28 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v144 : Index := Scalar.indexCast v15
  let c400_51 : Index := 400#32
  ![v144.toNat, 400]

def k2_chk27 (v148 : IVec S16 32) (v155 : IVec S16 32) : Prop :=
  (∀ a x, ((![v148, v155] : Fin 2 → IVec S16 32) a x).toNat < S256x128.size a)
instance k2_chk27.dec : ∀ (v148 : IVec S16 32) (v155 : IVec S16 32), Decidable (k2_chk27 v148 v155) := fun v148 v155 => decidable_of_iff' _ (Iff.of_eq (k2_chk27.eq_1 v148 v155))
theorem k2_idx27_inb : ∀ (v148 : IVec S16 32) (v155 : IVec S16 32) (k2_hw27 : k2_chk27 v148 v155), ∀ a x, ((![v148, v155] : Fin 2 → IVec S16 32) a x).toNat < S256x128.size a := fun v148 v155 k2_hw27 => k2_hw27
def k2_off29 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v157 : Index := Scalar.indexCast v15
  let c416_54 : Index := 416#32
  ![v157.toNat, 416]

def k2_chk28 (v161 : IVec S16 32) (v168 : IVec S16 32) : Prop :=
  (∀ a x, ((![v161, v168] : Fin 2 → IVec S16 32) a x).toNat < S256x128.size a)
instance k2_chk28.dec : ∀ (v161 : IVec S16 32) (v168 : IVec S16 32), Decidable (k2_chk28 v161 v168) := fun v161 v168 => decidable_of_iff' _ (Iff.of_eq (k2_chk28.eq_1 v161 v168))
theorem k2_idx28_inb : ∀ (v161 : IVec S16 32) (v168 : IVec S16 32) (k2_hw28 : k2_chk28 v161 v168), ∀ a x, ((![v161, v168] : Fin 2 → IVec S16 32) a x).toNat < S256x128.size a := fun v161 v168 k2_hw28 => k2_hw28
def k2_off30 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v170 : Index := Scalar.indexCast v15
  let c432_57 : Index := 432#32
  ![v170.toNat, 432]

def k2_chk29 (v174 : IVec S16 32) (v181 : IVec S16 32) : Prop :=
  (∀ a x, ((![v174, v181] : Fin 2 → IVec S16 32) a x).toNat < S256x128.size a)
instance k2_chk29.dec : ∀ (v174 : IVec S16 32) (v181 : IVec S16 32), Decidable (k2_chk29 v174 v181) := fun v174 v181 => decidable_of_iff' _ (Iff.of_eq (k2_chk29.eq_1 v174 v181))
theorem k2_idx29_inb : ∀ (v174 : IVec S16 32) (v181 : IVec S16 32) (k2_hw29 : k2_chk29 v174 v181), ∀ a x, ((![v174, v181] : Fin 2 → IVec S16 32) a x).toNat < S256x128.size a := fun v174 v181 k2_hw29 => k2_hw29
def k2_off31 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v183 : Index := Scalar.indexCast v15
  let c448_60 : Index := 448#32
  ![v183.toNat, 448]

def k2_chk30 (v187 : IVec S16 32) (v194 : IVec S16 32) : Prop :=
  (∀ a x, ((![v187, v194] : Fin 2 → IVec S16 32) a x).toNat < S256x128.size a)
instance k2_chk30.dec : ∀ (v187 : IVec S16 32) (v194 : IVec S16 32), Decidable (k2_chk30 v187 v194) := fun v187 v194 => decidable_of_iff' _ (Iff.of_eq (k2_chk30.eq_1 v187 v194))
theorem k2_idx30_inb : ∀ (v187 : IVec S16 32) (v194 : IVec S16 32) (k2_hw30 : k2_chk30 v187 v194), ∀ a x, ((![v187, v194] : Fin 2 → IVec S16 32) a x).toNat < S256x128.size a := fun v187 v194 k2_hw30 => k2_hw30
def k2_off32 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v196 : Index := Scalar.indexCast v15
  let c464_63 : Index := 464#32
  ![v196.toNat, 464]

def k2_chk31 (v200 : IVec S16 32) (v207 : IVec S16 32) : Prop :=
  (∀ a x, ((![v200, v207] : Fin 2 → IVec S16 32) a x).toNat < S256x128.size a)
instance k2_chk31.dec : ∀ (v200 : IVec S16 32) (v207 : IVec S16 32), Decidable (k2_chk31 v200 v207) := fun v200 v207 => decidable_of_iff' _ (Iff.of_eq (k2_chk31.eq_1 v200 v207))
theorem k2_idx31_inb : ∀ (v200 : IVec S16 32) (v207 : IVec S16 32) (k2_hw31 : k2_chk31 v200 v207), ∀ a x, ((![v200, v207] : Fin 2 → IVec S16 32) a x).toNat < S256x128.size a := fun v200 v207 k2_hw31 => k2_hw31
def k2_off33 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v209 : Index := Scalar.indexCast v15
  let c480_66 : Index := 480#32
  ![v209.toNat, 480]

def k2_chk32 (v213 : IVec S16 32) (v220 : IVec S16 32) : Prop :=
  (∀ a x, ((![v213, v220] : Fin 2 → IVec S16 32) a x).toNat < S256x128.size a)
instance k2_chk32.dec : ∀ (v213 : IVec S16 32) (v220 : IVec S16 32), Decidable (k2_chk32 v213 v220) := fun v213 v220 => decidable_of_iff' _ (Iff.of_eq (k2_chk32.eq_1 v213 v220))
theorem k2_idx32_inb : ∀ (v213 : IVec S16 32) (v220 : IVec S16 32) (k2_hw32 : k2_chk32 v213 v220), ∀ a x, ((![v213, v220] : Fin 2 → IVec S16 32) a x).toNat < S256x128.size a := fun v213 v220 k2_hw32 => k2_hw32
def k2_off34 (k2_t3 : Fin k2_t3_loop.trips) : Fin 2 → Nat :=
  let c0_i32_21 : BitVec 32 := 0#32
  let c0_i32_16 : BitVec 32 := 0#32
  let c1_i32_18 : BitVec 32 := 1#32
  let arg12 : BitVec 32 := Scf.iv c0_i32_16 c1_i32_18 k2_t3
  let c1_i32_20 : BitVec 32 := 1#32
  let v14 : BitVec 32 := Scalar.muli arg12 c1_i32_20
  let v15 : BitVec 32 := Scalar.addi c0_i32_21 v14
  let v222 : Index := Scalar.indexCast v15
  let c496_69 : Index := 496#32
  ![v222.toNat, 496]
def k2_off35 (i : grid2.Coords) : Fin 2 → Nat :=
  let c0_i32_20_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k3_mult1 (v5 : BitVec 32) : BitVec 32 :=
  let c7_i32 : BitVec 32 := 7#32
  let v6 : BitVec 32 := Scalar.shrui v5 c7_i32
  let c7811_i32 : BitVec 32 := 7811#32
  let v7 : BitVec 32 := Scalar.minsi v6 c7811_i32
  let c128_i32 : BitVec 32 := 128#32
  let v8 : BitVec 32 := Scalar.muli v7 c128_i32
  v8

def k3_off2 (v5 : BitVec 32) : Fin 2 → Nat :=
  let c0_i32 : BitVec 32 := 0#32
  let c7_i32 : BitVec 32 := 7#32
  let v6 : BitVec 32 := Scalar.shrui v5 c7_i32
  let c7811_i32 : BitVec 32 := 7811#32
  let v7 : BitVec 32 := Scalar.minsi v6 c7811_i32
  let c128_i32 : BitVec 32 := 128#32
  let v8 : BitVec 32 := Scalar.muli v7 c128_i32
  let v9 : BitVec 32 := v8
  ![0, v9.toNat]

def k3_chk1 (v5 : BitVec 32) : Prop :=
  (128 ∣ (k3_mult1 v5).toNat) ∧
  (∀ a, (k3_off2 v5) a + S32x128.size a ≤ S32x1000000.size a)
instance k3_chk1.dec : ∀ (v5 : BitVec 32), Decidable (k3_chk1 v5) := fun v5 => decidable_of_iff' _ (Iff.of_eq (k3_chk1.eq_1 v5))
theorem k3_mult1_dvd : ∀ (v5 : BitVec 32) (k3_hw1 : k3_chk1 v5), 128 ∣ (k3_mult1 v5).toNat := fun v5 k3_hw1 => k3_hw1.1
theorem k3_off2_inb : ∀ (v5 : BitVec 32) (k3_hw1 : k3_chk1 v5), ∀ a, (k3_off2 v5) a + S32x128.size a ≤ S32x1000000.size a := fun v5 k3_hw1 => k3_hw1.2

def k3_mult2 (v14 : BitVec 32) : BitVec 32 :=
  let c7_i32_1 : BitVec 32 := 7#32
  let v15 : BitVec 32 := Scalar.shrui v14 c7_i32_1
  let c7811_i32_2 : BitVec 32 := 7811#32
  let v16 : BitVec 32 := Scalar.minsi v15 c7811_i32_2
  let c128_i32_3 : BitVec 32 := 128#32
  let v17 : BitVec 32 := Scalar.muli v16 c128_i32_3
  v17

def k3_off3 (v14 : BitVec 32) : Fin 2 → Nat :=
  let c0_i32_4 : BitVec 32 := 0#32
  let c7_i32_1 : BitVec 32 := 7#32
  let v15 : BitVec 32 := Scalar.shrui v14 c7_i32_1
  let c7811_i32_2 : BitVec 32 := 7811#32
  let v16 : BitVec 32 := Scalar.minsi v15 c7811_i32_2
  let c128_i32_3 : BitVec 32 := 128#32
  let v17 : BitVec 32 := Scalar.muli v16 c128_i32_3
  let v18 : BitVec 32 := v17
  ![0, v18.toNat]

def k3_chk2 (v14 : BitVec 32) : Prop :=
  (128 ∣ (k3_mult2 v14).toNat) ∧
  (∀ a, (k3_off3 v14) a + S32x128.size a ≤ S32x1000000.size a)
instance k3_chk2.dec : ∀ (v14 : BitVec 32), Decidable (k3_chk2 v14) := fun v14 => decidable_of_iff' _ (Iff.of_eq (k3_chk2.eq_1 v14))
theorem k3_mult2_dvd : ∀ (v14 : BitVec 32) (k3_hw2 : k3_chk2 v14), 128 ∣ (k3_mult2 v14).toNat := fun v14 k3_hw2 => k3_hw2.1
theorem k3_off3_inb : ∀ (v14 : BitVec 32) (k3_hw2 : k3_chk2 v14), ∀ a, (k3_off3 v14) a + S32x128.size a ≤ S32x1000000.size a := fun v14 k3_hw2 => k3_hw2.2

def k3_mult3 (v23 : BitVec 32) : BitVec 32 :=
  let c7_i32_6 : BitVec 32 := 7#32
  let v24 : BitVec 32 := Scalar.shrui v23 c7_i32_6
  let c7811_i32_7 : BitVec 32 := 7811#32
  let v25 : BitVec 32 := Scalar.minsi v24 c7811_i32_7
  let c128_i32_8 : BitVec 32 := 128#32
  let v26 : BitVec 32 := Scalar.muli v25 c128_i32_8
  v26

def k3_off4 (v23 : BitVec 32) : Fin 2 → Nat :=
  let c0_i32_9 : BitVec 32 := 0#32
  let c7_i32_6 : BitVec 32 := 7#32
  let v24 : BitVec 32 := Scalar.shrui v23 c7_i32_6
  let c7811_i32_7 : BitVec 32 := 7811#32
  let v25 : BitVec 32 := Scalar.minsi v24 c7811_i32_7
  let c128_i32_8 : BitVec 32 := 128#32
  let v26 : BitVec 32 := Scalar.muli v25 c128_i32_8
  let v27 : BitVec 32 := v26
  ![0, v27.toNat]

def k3_chk3 (v23 : BitVec 32) : Prop :=
  (128 ∣ (k3_mult3 v23).toNat) ∧
  (∀ a, (k3_off4 v23) a + S32x128.size a ≤ S32x1000000.size a)
instance k3_chk3.dec : ∀ (v23 : BitVec 32), Decidable (k3_chk3 v23) := fun v23 => decidable_of_iff' _ (Iff.of_eq (k3_chk3.eq_1 v23))
theorem k3_mult3_dvd : ∀ (v23 : BitVec 32) (k3_hw3 : k3_chk3 v23), 128 ∣ (k3_mult3 v23).toNat := fun v23 k3_hw3 => k3_hw3.1
theorem k3_off4_inb : ∀ (v23 : BitVec 32) (k3_hw3 : k3_chk3 v23), ∀ a, (k3_off4 v23) a + S32x128.size a ≤ S32x1000000.size a := fun v23 k3_hw3 => k3_hw3.2

def k3_mult4 (v32 : BitVec 32) : BitVec 32 :=
  let c7_i32_11 : BitVec 32 := 7#32
  let v33 : BitVec 32 := Scalar.shrui v32 c7_i32_11
  let c7811_i32_12 : BitVec 32 := 7811#32
  let v34 : BitVec 32 := Scalar.minsi v33 c7811_i32_12
  let c128_i32_13 : BitVec 32 := 128#32
  let v35 : BitVec 32 := Scalar.muli v34 c128_i32_13
  v35

def k3_off5 (v32 : BitVec 32) : Fin 2 → Nat :=
  let c0_i32_14 : BitVec 32 := 0#32
  let c7_i32_11 : BitVec 32 := 7#32
  let v33 : BitVec 32 := Scalar.shrui v32 c7_i32_11
  let c7811_i32_12 : BitVec 32 := 7811#32
  let v34 : BitVec 32 := Scalar.minsi v33 c7811_i32_12
  let c128_i32_13 : BitVec 32 := 128#32
  let v35 : BitVec 32 := Scalar.muli v34 c128_i32_13
  let v36 : BitVec 32 := v35
  ![0, v36.toNat]

def k3_chk4 (v32 : BitVec 32) : Prop :=
  (128 ∣ (k3_mult4 v32).toNat) ∧
  (∀ a, (k3_off5 v32) a + S32x128.size a ≤ S32x1000000.size a)
instance k3_chk4.dec : ∀ (v32 : BitVec 32), Decidable (k3_chk4 v32) := fun v32 => decidable_of_iff' _ (Iff.of_eq (k3_chk4.eq_1 v32))
theorem k3_mult4_dvd : ∀ (v32 : BitVec 32) (k3_hw4 : k3_chk4 v32), 128 ∣ (k3_mult4 v32).toNat := fun v32 k3_hw4 => k3_hw4.1
theorem k3_off5_inb : ∀ (v32 : BitVec 32) (k3_hw4 : k3_chk4 v32), ∀ a, (k3_off5 v32) a + S32x128.size a ≤ S32x1000000.size a := fun v32 k3_hw4 => k3_hw4.2

def k3_mult5 (v41 : BitVec 32) : BitVec 32 :=
  let c7_i32_16 : BitVec 32 := 7#32
  let v42 : BitVec 32 := Scalar.shrui v41 c7_i32_16
  let c7811_i32_17 : BitVec 32 := 7811#32
  let v43 : BitVec 32 := Scalar.minsi v42 c7811_i32_17
  let c128_i32_18 : BitVec 32 := 128#32
  let v44 : BitVec 32 := Scalar.muli v43 c128_i32_18
  v44

def k3_off6 (v41 : BitVec 32) : Fin 2 → Nat :=
  let c0_i32_19 : BitVec 32 := 0#32
  let c7_i32_16 : BitVec 32 := 7#32
  let v42 : BitVec 32 := Scalar.shrui v41 c7_i32_16
  let c7811_i32_17 : BitVec 32 := 7811#32
  let v43 : BitVec 32 := Scalar.minsi v42 c7811_i32_17
  let c128_i32_18 : BitVec 32 := 128#32
  let v44 : BitVec 32 := Scalar.muli v43 c128_i32_18
  let v45 : BitVec 32 := v44
  ![0, v45.toNat]

def k3_chk5 (v41 : BitVec 32) : Prop :=
  (128 ∣ (k3_mult5 v41).toNat) ∧
  (∀ a, (k3_off6 v41) a + S32x128.size a ≤ S32x1000000.size a)
instance k3_chk5.dec : ∀ (v41 : BitVec 32), Decidable (k3_chk5 v41) := fun v41 => decidable_of_iff' _ (Iff.of_eq (k3_chk5.eq_1 v41))
theorem k3_mult5_dvd : ∀ (v41 : BitVec 32) (k3_hw5 : k3_chk5 v41), 128 ∣ (k3_mult5 v41).toNat := fun v41 k3_hw5 => k3_hw5.1
theorem k3_off6_inb : ∀ (v41 : BitVec 32) (k3_hw5 : k3_chk5 v41), ∀ a, (k3_off6 v41) a + S32x128.size a ≤ S32x1000000.size a := fun v41 k3_hw5 => k3_hw5.2

def k3_mult6 (v50 : BitVec 32) : BitVec 32 :=
  let c7_i32_21 : BitVec 32 := 7#32
  let v51 : BitVec 32 := Scalar.shrui v50 c7_i32_21
  let c7811_i32_22 : BitVec 32 := 7811#32
  let v52 : BitVec 32 := Scalar.minsi v51 c7811_i32_22
  let c128_i32_23 : BitVec 32 := 128#32
  let v53 : BitVec 32 := Scalar.muli v52 c128_i32_23
  v53

def k3_off7 (v50 : BitVec 32) : Fin 2 → Nat :=
  let c0_i32_24 : BitVec 32 := 0#32
  let c7_i32_21 : BitVec 32 := 7#32
  let v51 : BitVec 32 := Scalar.shrui v50 c7_i32_21
  let c7811_i32_22 : BitVec 32 := 7811#32
  let v52 : BitVec 32 := Scalar.minsi v51 c7811_i32_22
  let c128_i32_23 : BitVec 32 := 128#32
  let v53 : BitVec 32 := Scalar.muli v52 c128_i32_23
  let v54 : BitVec 32 := v53
  ![0, v54.toNat]

def k3_chk6 (v50 : BitVec 32) : Prop :=
  (128 ∣ (k3_mult6 v50).toNat) ∧
  (∀ a, (k3_off7 v50) a + S32x128.size a ≤ S32x1000000.size a)
instance k3_chk6.dec : ∀ (v50 : BitVec 32), Decidable (k3_chk6 v50) := fun v50 => decidable_of_iff' _ (Iff.of_eq (k3_chk6.eq_1 v50))
theorem k3_mult6_dvd : ∀ (v50 : BitVec 32) (k3_hw6 : k3_chk6 v50), 128 ∣ (k3_mult6 v50).toNat := fun v50 k3_hw6 => k3_hw6.1
theorem k3_off7_inb : ∀ (v50 : BitVec 32) (k3_hw6 : k3_chk6 v50), ∀ a, (k3_off7 v50) a + S32x128.size a ≤ S32x1000000.size a := fun v50 k3_hw6 => k3_hw6.2

def k3_mult7 (v59 : BitVec 32) : BitVec 32 :=
  let c7_i32_26 : BitVec 32 := 7#32
  let v60 : BitVec 32 := Scalar.shrui v59 c7_i32_26
  let c7811_i32_27 : BitVec 32 := 7811#32
  let v61 : BitVec 32 := Scalar.minsi v60 c7811_i32_27
  let c128_i32_28 : BitVec 32 := 128#32
  let v62 : BitVec 32 := Scalar.muli v61 c128_i32_28
  v62

def k3_off8 (v59 : BitVec 32) : Fin 2 → Nat :=
  let c0_i32_29 : BitVec 32 := 0#32
  let c7_i32_26 : BitVec 32 := 7#32
  let v60 : BitVec 32 := Scalar.shrui v59 c7_i32_26
  let c7811_i32_27 : BitVec 32 := 7811#32
  let v61 : BitVec 32 := Scalar.minsi v60 c7811_i32_27
  let c128_i32_28 : BitVec 32 := 128#32
  let v62 : BitVec 32 := Scalar.muli v61 c128_i32_28
  let v63 : BitVec 32 := v62
  ![0, v63.toNat]

def k3_chk7 (v59 : BitVec 32) : Prop :=
  (128 ∣ (k3_mult7 v59).toNat) ∧
  (∀ a, (k3_off8 v59) a + S32x128.size a ≤ S32x1000000.size a)
instance k3_chk7.dec : ∀ (v59 : BitVec 32), Decidable (k3_chk7 v59) := fun v59 => decidable_of_iff' _ (Iff.of_eq (k3_chk7.eq_1 v59))
theorem k3_mult7_dvd : ∀ (v59 : BitVec 32) (k3_hw7 : k3_chk7 v59), 128 ∣ (k3_mult7 v59).toNat := fun v59 k3_hw7 => k3_hw7.1
theorem k3_off8_inb : ∀ (v59 : BitVec 32) (k3_hw7 : k3_chk7 v59), ∀ a, (k3_off8 v59) a + S32x128.size a ≤ S32x1000000.size a := fun v59 k3_hw7 => k3_hw7.2

def k3_mult8 (v68 : BitVec 32) : BitVec 32 :=
  let c7_i32_31 : BitVec 32 := 7#32
  let v69 : BitVec 32 := Scalar.shrui v68 c7_i32_31
  let c7811_i32_32 : BitVec 32 := 7811#32
  let v70 : BitVec 32 := Scalar.minsi v69 c7811_i32_32
  let c128_i32_33 : BitVec 32 := 128#32
  let v71 : BitVec 32 := Scalar.muli v70 c128_i32_33
  v71

def k3_off9 (v68 : BitVec 32) : Fin 2 → Nat :=
  let c0_i32_34 : BitVec 32 := 0#32
  let c7_i32_31 : BitVec 32 := 7#32
  let v69 : BitVec 32 := Scalar.shrui v68 c7_i32_31
  let c7811_i32_32 : BitVec 32 := 7811#32
  let v70 : BitVec 32 := Scalar.minsi v69 c7811_i32_32
  let c128_i32_33 : BitVec 32 := 128#32
  let v71 : BitVec 32 := Scalar.muli v70 c128_i32_33
  let v72 : BitVec 32 := v71
  ![0, v72.toNat]

def k3_chk8 (v68 : BitVec 32) : Prop :=
  (128 ∣ (k3_mult8 v68).toNat) ∧
  (∀ a, (k3_off9 v68) a + S32x128.size a ≤ S32x1000000.size a)
instance k3_chk8.dec : ∀ (v68 : BitVec 32), Decidable (k3_chk8 v68) := fun v68 => decidable_of_iff' _ (Iff.of_eq (k3_chk8.eq_1 v68))
theorem k3_mult8_dvd : ∀ (v68 : BitVec 32) (k3_hw8 : k3_chk8 v68), 128 ∣ (k3_mult8 v68).toNat := fun v68 k3_hw8 => k3_hw8.1
theorem k3_off9_inb : ∀ (v68 : BitVec 32) (k3_hw8 : k3_chk8 v68), ∀ a, (k3_off9 v68) a + S32x128.size a ≤ S32x1000000.size a := fun v68 k3_hw8 => k3_hw8.2

@[reducible] def k3_t1_loop : Scf.Loop 32 :=
  let c0_i32_36 : BitVec 32 := 0#32
  let c512_i32_37 : BitVec 32 := 512#32
  let v75 : BitVec 32 := Scalar.addi c0_i32_36 c512_i32_37
  let c1_i32 : BitVec 32 := 1#32
  ⟨c0_i32_36, v75, c1_i32⟩
def k3_off10 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let v78 : Index := Scalar.indexCast v77
  ![v78.toNat]
def k3_cond1 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32 : BitVec 32 := 8#32
  let c0_i32_41 : BitVec 32 := 0#32
  let v83 : BitVec 1 := Scalar.cmpi .eq c8_i32 c0_i32_41
  let c1_i32_42 : BitVec 32 := 1#32
  let v84 : BitVec 32 := Scalar.select v83 c1_i32_42 c8_i32
  let v85 : BitVec 32 := Scalar.remsi v77 v84
  let c0_i32_44 : BitVec 32 := 0#32
  let v87 : BitVec 1 := Scalar.cmpi .slt v85 c0_i32_44
  let c0_i32_45 : BitVec 32 := 0#32
  let v88 : BitVec 1 := Scalar.cmpi .slt v84 c0_i32_45
  let v89 : BitVec 1 := Scalar.xori v87 v88
  let c0_i32_43 : BitVec 32 := 0#32
  let v86 : BitVec 1 := Scalar.cmpi .ne v85 c0_i32_43
  let v90 : BitVec 1 := Scalar.andi v89 v86
  let v91 : BitVec 32 := Scalar.addi v85 v84
  let v92 : BitVec 32 := Scalar.select v90 v91 v85
  let c0_i32_46 : BitVec 32 := 0#32
  let v93 : BitVec 1 := Scalar.cmpi .eq v92 c0_i32_46
  let v94 : BitVec 32 := Scalar.extui v93
  let c0_i32_47 : BitVec 32 := 0#32
  let v95 : BitVec 1 := Scalar.cmpi .ne v94 c0_i32_47
  v95

def k3_chk9 (k3_t1 : Fin k3_t1_loop.trips) (v195 : IVec S16 32) (v198 : IVec S16 32) : Prop :=
  (∀ (k3_h1 : k3_cond1 k3_t1 = 1#1), ∀ a x, ((![v195, v198] : Fin 2 → IVec S16 32) a x).toNat < S32x128.size a)
instance k3_chk9.dec : ∀ (k3_t1 : Fin k3_t1_loop.trips) (v195 : IVec S16 32) (v198 : IVec S16 32), Decidable (k3_chk9 k3_t1 v195 v198) := fun k3_t1 v195 v198 => decidable_of_iff' _ (Iff.of_eq (k3_chk9.eq_1 k3_t1 v195 v198))
theorem k3_idx1_inb : ∀ (k3_t1 : Fin k3_t1_loop.trips) (v195 : IVec S16 32) (v198 : IVec S16 32) (k3_hw9 : k3_chk9 k3_t1 v195 v198), ∀ (k3_h1 : k3_cond1 k3_t1 = 1#1), ∀ a x, ((![v195, v198] : Fin 2 → IVec S16 32) a x).toNat < S32x128.size a := fun k3_t1 v195 v198 k3_hw9 k3_h1 => k3_hw9 k3_h1

def k3_chk10 (k3_t1 : Fin k3_t1_loop.trips) (v201 : IVec S16 32) : Prop :=
  (∀ (k3_h1 : k3_cond1 k3_t1 = 1#1), ∀ a x, ((![v201] : Fin 1 → IVec S16 32) a x).toNat < S2048.size a)
instance k3_chk10.dec : ∀ (k3_t1 : Fin k3_t1_loop.trips) (v201 : IVec S16 32), Decidable (k3_chk10 k3_t1 v201) := fun k3_t1 v201 => decidable_of_iff' _ (Iff.of_eq (k3_chk10.eq_1 k3_t1 v201))
theorem k3_idx2_inb : ∀ (k3_t1 : Fin k3_t1_loop.trips) (v201 : IVec S16 32) (k3_hw10 : k3_chk10 k3_t1 v201), ∀ (k3_h1 : k3_cond1 k3_t1 = 1#1), ∀ a x, ((![v201] : Fin 1 → IVec S16 32) a x).toNat < S2048.size a := fun k3_t1 v201 k3_hw10 k3_h1 => k3_hw10 k3_h1

def k3_chk11 (k3_t1 : Fin k3_t1_loop.trips) (v195 : IVec S16 32) (v207 : IVec S16 32) : Prop :=
  (∀ (k3_h1 : k3_cond1 k3_t1 = 1#1), ∀ a x, ((![v195, v207] : Fin 2 → IVec S16 32) a x).toNat < S32x512.size a)
instance k3_chk11.dec : ∀ (k3_t1 : Fin k3_t1_loop.trips) (v195 : IVec S16 32) (v207 : IVec S16 32), Decidable (k3_chk11 k3_t1 v195 v207) := fun k3_t1 v195 v207 => decidable_of_iff' _ (Iff.of_eq (k3_chk11.eq_1 k3_t1 v195 v207))
theorem k3_idx3_inb : ∀ (k3_t1 : Fin k3_t1_loop.trips) (v195 : IVec S16 32) (v207 : IVec S16 32) (k3_hw11 : k3_chk11 k3_t1 v195 v207), ∀ (k3_h1 : k3_cond1 k3_t1 = 1#1), ∀ a x, ((![v195, v207] : Fin 2 → IVec S16 32) a x).toNat < S32x512.size a := fun k3_t1 v195 v207 k3_hw11 k3_h1 => k3_hw11 k3_h1

def k3_chk12 (k3_t1 : Fin k3_t1_loop.trips) (v210 : IVec S16 32) (v213 : IVec S16 32) : Prop :=
  (∀ (k3_h1 : k3_cond1 k3_t1 = 1#1), ∀ a x, ((![v210, v213] : Fin 2 → IVec S16 32) a x).toNat < S32x128.size a)
instance k3_chk12.dec : ∀ (k3_t1 : Fin k3_t1_loop.trips) (v210 : IVec S16 32) (v213 : IVec S16 32), Decidable (k3_chk12 k3_t1 v210 v213) := fun k3_t1 v210 v213 => decidable_of_iff' _ (Iff.of_eq (k3_chk12.eq_1 k3_t1 v210 v213))
theorem k3_idx4_inb : ∀ (k3_t1 : Fin k3_t1_loop.trips) (v210 : IVec S16 32) (v213 : IVec S16 32) (k3_hw12 : k3_chk12 k3_t1 v210 v213), ∀ (k3_h1 : k3_cond1 k3_t1 = 1#1), ∀ a x, ((![v210, v213] : Fin 2 → IVec S16 32) a x).toNat < S32x128.size a := fun k3_t1 v210 v213 k3_hw12 k3_h1 => k3_hw12 k3_h1

def k3_chk13 (k3_t1 : Fin k3_t1_loop.trips) (v216 : IVec S16 32) : Prop :=
  (∀ (k3_h1 : k3_cond1 k3_t1 = 1#1), ∀ a x, ((![v216] : Fin 1 → IVec S16 32) a x).toNat < S2048.size a)
instance k3_chk13.dec : ∀ (k3_t1 : Fin k3_t1_loop.trips) (v216 : IVec S16 32), Decidable (k3_chk13 k3_t1 v216) := fun k3_t1 v216 => decidable_of_iff' _ (Iff.of_eq (k3_chk13.eq_1 k3_t1 v216))
theorem k3_idx5_inb : ∀ (k3_t1 : Fin k3_t1_loop.trips) (v216 : IVec S16 32) (k3_hw13 : k3_chk13 k3_t1 v216), ∀ (k3_h1 : k3_cond1 k3_t1 = 1#1), ∀ a x, ((![v216] : Fin 1 → IVec S16 32) a x).toNat < S2048.size a := fun k3_t1 v216 k3_hw13 k3_h1 => k3_hw13 k3_h1

def k3_chk14 (k3_t1 : Fin k3_t1_loop.trips) (v210 : IVec S16 32) (v222 : IVec S16 32) : Prop :=
  (∀ (k3_h1 : k3_cond1 k3_t1 = 1#1), ∀ a x, ((![v210, v222] : Fin 2 → IVec S16 32) a x).toNat < S32x512.size a)
instance k3_chk14.dec : ∀ (k3_t1 : Fin k3_t1_loop.trips) (v210 : IVec S16 32) (v222 : IVec S16 32), Decidable (k3_chk14 k3_t1 v210 v222) := fun k3_t1 v210 v222 => decidable_of_iff' _ (Iff.of_eq (k3_chk14.eq_1 k3_t1 v210 v222))
theorem k3_idx6_inb : ∀ (k3_t1 : Fin k3_t1_loop.trips) (v210 : IVec S16 32) (v222 : IVec S16 32) (k3_hw14 : k3_chk14 k3_t1 v210 v222), ∀ (k3_h1 : k3_cond1 k3_t1 = 1#1), ∀ a x, ((![v210, v222] : Fin 2 → IVec S16 32) a x).toNat < S32x512.size a := fun k3_t1 v210 v222 k3_hw14 k3_h1 => k3_hw14 k3_h1
def k3_cond2 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off11 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult9 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off12 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk15 (k3_t1 : Fin k3_t1_loop.trips) (v231 : BitVec 32) : Prop :=
  (∀ (k3_h1 : k3_cond1 k3_t1 = 1#1), ∀ (k3_h2 : k3_cond2 k3_t1 = 1#1), 128 ∣ (k3_mult9 v231).toNat) ∧
  (∀ (k3_h1 : k3_cond1 k3_t1 = 1#1), ∀ (k3_h2 : k3_cond2 k3_t1 = 1#1), ∀ a, (k3_off12 v231) a + S32x128.size a ≤ S32x1000000.size a)
instance k3_chk15.dec : ∀ (k3_t1 : Fin k3_t1_loop.trips) (v231 : BitVec 32), Decidable (k3_chk15 k3_t1 v231) := fun k3_t1 v231 => decidable_of_iff' _ (Iff.of_eq (k3_chk15.eq_1 k3_t1 v231))
theorem k3_mult9_dvd : ∀ (k3_t1 : Fin k3_t1_loop.trips) (v231 : BitVec 32) (k3_hw15 : k3_chk15 k3_t1 v231), ∀ (k3_h1 : k3_cond1 k3_t1 = 1#1), ∀ (k3_h2 : k3_cond2 k3_t1 = 1#1), 128 ∣ (k3_mult9 v231).toNat := fun k3_t1 v231 k3_hw15 k3_h1 k3_h2 => k3_hw15.1 k3_h1 k3_h2
theorem k3_off12_inb : ∀ (k3_t1 : Fin k3_t1_loop.trips) (v231 : BitVec 32) (k3_hw15 : k3_chk15 k3_t1 v231), ∀ (k3_h1 : k3_cond1 k3_t1 = 1#1), ∀ (k3_h2 : k3_cond2 k3_t1 = 1#1), ∀ a, (k3_off12 v231) a + S32x128.size a ≤ S32x1000000.size a := fun k3_t1 v231 k3_hw15 k3_h1 k3_h2 => k3_hw15.2 k3_h1 k3_h2

def k3_cond3 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_48 : BitVec 32 := 8#32
  let c0_i32_49 : BitVec 32 := 0#32
  let v96 : BitVec 1 := Scalar.cmpi .eq c8_i32_48 c0_i32_49
  let c1_i32_50 : BitVec 32 := 1#32
  let v97 : BitVec 32 := Scalar.select v96 c1_i32_50 c8_i32_48
  let v98 : BitVec 32 := Scalar.remsi v77 v97
  let c0_i32_52 : BitVec 32 := 0#32
  let v100 : BitVec 1 := Scalar.cmpi .slt v98 c0_i32_52
  let c0_i32_53 : BitVec 32 := 0#32
  let v101 : BitVec 1 := Scalar.cmpi .slt v97 c0_i32_53
  let v102 : BitVec 1 := Scalar.xori v100 v101
  let c0_i32_51 : BitVec 32 := 0#32
  let v99 : BitVec 1 := Scalar.cmpi .ne v98 c0_i32_51
  let v103 : BitVec 1 := Scalar.andi v102 v99
  let v104 : BitVec 32 := Scalar.addi v98 v97
  let v105 : BitVec 32 := Scalar.select v103 v104 v98
  let c1_i32_54 : BitVec 32 := 1#32
  let v106 : BitVec 1 := Scalar.cmpi .eq v105 c1_i32_54
  let v107 : BitVec 32 := Scalar.extui v106
  let c0_i32_55 : BitVec 32 := 0#32
  let v108 : BitVec 1 := Scalar.cmpi .ne v107 c0_i32_55
  v108

def k3_chk16 (k3_t1 : Fin k3_t1_loop.trips) (v195 : IVec S16 32) (v198 : IVec S16 32) : Prop :=
  (∀ (k3_h3 : k3_cond3 k3_t1 = 1#1), ∀ a x, ((![v195, v198] : Fin 2 → IVec S16 32) a x).toNat < S32x128.size a)
instance k3_chk16.dec : ∀ (k3_t1 : Fin k3_t1_loop.trips) (v195 : IVec S16 32) (v198 : IVec S16 32), Decidable (k3_chk16 k3_t1 v195 v198) := fun k3_t1 v195 v198 => decidable_of_iff' _ (Iff.of_eq (k3_chk16.eq_1 k3_t1 v195 v198))
theorem k3_idx7_inb : ∀ (k3_t1 : Fin k3_t1_loop.trips) (v195 : IVec S16 32) (v198 : IVec S16 32) (k3_hw16 : k3_chk16 k3_t1 v195 v198), ∀ (k3_h3 : k3_cond3 k3_t1 = 1#1), ∀ a x, ((![v195, v198] : Fin 2 → IVec S16 32) a x).toNat < S32x128.size a := fun k3_t1 v195 v198 k3_hw16 k3_h3 => k3_hw16 k3_h3

def k3_chk17 (k3_t1 : Fin k3_t1_loop.trips) (v201 : IVec S16 32) : Prop :=
  (∀ (k3_h3 : k3_cond3 k3_t1 = 1#1), ∀ a x, ((![v201] : Fin 1 → IVec S16 32) a x).toNat < S2048.size a)
instance k3_chk17.dec : ∀ (k3_t1 : Fin k3_t1_loop.trips) (v201 : IVec S16 32), Decidable (k3_chk17 k3_t1 v201) := fun k3_t1 v201 => decidable_of_iff' _ (Iff.of_eq (k3_chk17.eq_1 k3_t1 v201))
theorem k3_idx8_inb : ∀ (k3_t1 : Fin k3_t1_loop.trips) (v201 : IVec S16 32) (k3_hw17 : k3_chk17 k3_t1 v201), ∀ (k3_h3 : k3_cond3 k3_t1 = 1#1), ∀ a x, ((![v201] : Fin 1 → IVec S16 32) a x).toNat < S2048.size a := fun k3_t1 v201 k3_hw17 k3_h3 => k3_hw17 k3_h3

def k3_chk18 (k3_t1 : Fin k3_t1_loop.trips) (v195 : IVec S16 32) (v207 : IVec S16 32) : Prop :=
  (∀ (k3_h3 : k3_cond3 k3_t1 = 1#1), ∀ a x, ((![v195, v207] : Fin 2 → IVec S16 32) a x).toNat < S32x512.size a)
instance k3_chk18.dec : ∀ (k3_t1 : Fin k3_t1_loop.trips) (v195 : IVec S16 32) (v207 : IVec S16 32), Decidable (k3_chk18 k3_t1 v195 v207) := fun k3_t1 v195 v207 => decidable_of_iff' _ (Iff.of_eq (k3_chk18.eq_1 k3_t1 v195 v207))
theorem k3_idx9_inb : ∀ (k3_t1 : Fin k3_t1_loop.trips) (v195 : IVec S16 32) (v207 : IVec S16 32) (k3_hw18 : k3_chk18 k3_t1 v195 v207), ∀ (k3_h3 : k3_cond3 k3_t1 = 1#1), ∀ a x, ((![v195, v207] : Fin 2 → IVec S16 32) a x).toNat < S32x512.size a := fun k3_t1 v195 v207 k3_hw18 k3_h3 => k3_hw18 k3_h3

def k3_chk19 (k3_t1 : Fin k3_t1_loop.trips) (v210 : IVec S16 32) (v213 : IVec S16 32) : Prop :=
  (∀ (k3_h3 : k3_cond3 k3_t1 = 1#1), ∀ a x, ((![v210, v213] : Fin 2 → IVec S16 32) a x).toNat < S32x128.size a)
instance k3_chk19.dec : ∀ (k3_t1 : Fin k3_t1_loop.trips) (v210 : IVec S16 32) (v213 : IVec S16 32), Decidable (k3_chk19 k3_t1 v210 v213) := fun k3_t1 v210 v213 => decidable_of_iff' _ (Iff.of_eq (k3_chk19.eq_1 k3_t1 v210 v213))
theorem k3_idx10_inb : ∀ (k3_t1 : Fin k3_t1_loop.trips) (v210 : IVec S16 32) (v213 : IVec S16 32) (k3_hw19 : k3_chk19 k3_t1 v210 v213), ∀ (k3_h3 : k3_cond3 k3_t1 = 1#1), ∀ a x, ((![v210, v213] : Fin 2 → IVec S16 32) a x).toNat < S32x128.size a := fun k3_t1 v210 v213 k3_hw19 k3_h3 => k3_hw19 k3_h3

def k3_chk20 (k3_t1 : Fin k3_t1_loop.trips) (v216 : IVec S16 32) : Prop :=
  (∀ (k3_h3 : k3_cond3 k3_t1 = 1#1), ∀ a x, ((![v216] : Fin 1 → IVec S16 32) a x).toNat < S2048.size a)
instance k3_chk20.dec : ∀ (k3_t1 : Fin k3_t1_loop.trips) (v216 : IVec S16 32), Decidable (k3_chk20 k3_t1 v216) := fun k3_t1 v216 => decidable_of_iff' _ (Iff.of_eq (k3_chk20.eq_1 k3_t1 v216))
theorem k3_idx11_inb : ∀ (k3_t1 : Fin k3_t1_loop.trips) (v216 : IVec S16 32) (k3_hw20 : k3_chk20 k3_t1 v216), ∀ (k3_h3 : k3_cond3 k3_t1 = 1#1), ∀ a x, ((![v216] : Fin 1 → IVec S16 32) a x).toNat < S2048.size a := fun k3_t1 v216 k3_hw20 k3_h3 => k3_hw20 k3_h3

def k3_chk21 (k3_t1 : Fin k3_t1_loop.trips) (v210 : IVec S16 32) (v222 : IVec S16 32) : Prop :=
  (∀ (k3_h3 : k3_cond3 k3_t1 = 1#1), ∀ a x, ((![v210, v222] : Fin 2 → IVec S16 32) a x).toNat < S32x512.size a)
instance k3_chk21.dec : ∀ (k3_t1 : Fin k3_t1_loop.trips) (v210 : IVec S16 32) (v222 : IVec S16 32), Decidable (k3_chk21 k3_t1 v210 v222) := fun k3_t1 v210 v222 => decidable_of_iff' _ (Iff.of_eq (k3_chk21.eq_1 k3_t1 v210 v222))
theorem k3_idx12_inb : ∀ (k3_t1 : Fin k3_t1_loop.trips) (v210 : IVec S16 32) (v222 : IVec S16 32) (k3_hw21 : k3_chk21 k3_t1 v210 v222), ∀ (k3_h3 : k3_cond3 k3_t1 = 1#1), ∀ a x, ((![v210, v222] : Fin 2 → IVec S16 32) a x).toNat < S32x512.size a := fun k3_t1 v210 v222 k3_hw21 k3_h3 => k3_hw21 k3_h3
def k3_cond4 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off13 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult10 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off14 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk22 (k3_t1 : Fin k3_t1_loop.trips) (v231 : BitVec 32) : Prop :=
  (∀ (k3_h3 : k3_cond3 k3_t1 = 1#1), ∀ (k3_h4 : k3_cond4 k3_t1 = 1#1), 128 ∣ (k3_mult10 v231).toNat) ∧
  (∀ (k3_h3 : k3_cond3 k3_t1 = 1#1), ∀ (k3_h4 : k3_cond4 k3_t1 = 1#1), ∀ a, (k3_off14 v231) a + S32x128.size a ≤ S32x1000000.size a)
instance k3_chk22.dec : ∀ (k3_t1 : Fin k3_t1_loop.trips) (v231 : BitVec 32), Decidable (k3_chk22 k3_t1 v231) := fun k3_t1 v231 => decidable_of_iff' _ (Iff.of_eq (k3_chk22.eq_1 k3_t1 v231))
theorem k3_mult10_dvd : ∀ (k3_t1 : Fin k3_t1_loop.trips) (v231 : BitVec 32) (k3_hw22 : k3_chk22 k3_t1 v231), ∀ (k3_h3 : k3_cond3 k3_t1 = 1#1), ∀ (k3_h4 : k3_cond4 k3_t1 = 1#1), 128 ∣ (k3_mult10 v231).toNat := fun k3_t1 v231 k3_hw22 k3_h3 k3_h4 => k3_hw22.1 k3_h3 k3_h4
theorem k3_off14_inb : ∀ (k3_t1 : Fin k3_t1_loop.trips) (v231 : BitVec 32) (k3_hw22 : k3_chk22 k3_t1 v231), ∀ (k3_h3 : k3_cond3 k3_t1 = 1#1), ∀ (k3_h4 : k3_cond4 k3_t1 = 1#1), ∀ a, (k3_off14 v231) a + S32x128.size a ≤ S32x1000000.size a := fun k3_t1 v231 k3_hw22 k3_h3 k3_h4 => k3_hw22.2 k3_h3 k3_h4

def k3_cond5 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_56 : BitVec 32 := 8#32
  let c0_i32_57 : BitVec 32 := 0#32
  let v109 : BitVec 1 := Scalar.cmpi .eq c8_i32_56 c0_i32_57
  let c1_i32_58 : BitVec 32 := 1#32
  let v110 : BitVec 32 := Scalar.select v109 c1_i32_58 c8_i32_56
  let v111 : BitVec 32 := Scalar.remsi v77 v110
  let c0_i32_60 : BitVec 32 := 0#32
  let v113 : BitVec 1 := Scalar.cmpi .slt v111 c0_i32_60
  let c0_i32_61 : BitVec 32 := 0#32
  let v114 : BitVec 1 := Scalar.cmpi .slt v110 c0_i32_61
  let v115 : BitVec 1 := Scalar.xori v113 v114
  let c0_i32_59 : BitVec 32 := 0#32
  let v112 : BitVec 1 := Scalar.cmpi .ne v111 c0_i32_59
  let v116 : BitVec 1 := Scalar.andi v115 v112
  let v117 : BitVec 32 := Scalar.addi v111 v110
  let v118 : BitVec 32 := Scalar.select v116 v117 v111
  let c2_i32_62 : BitVec 32 := 2#32
  let v119 : BitVec 1 := Scalar.cmpi .eq v118 c2_i32_62
  let v120 : BitVec 32 := Scalar.extui v119
  let c0_i32_63 : BitVec 32 := 0#32
  let v121 : BitVec 1 := Scalar.cmpi .ne v120 c0_i32_63
  v121

def k3_chk23 (k3_t1 : Fin k3_t1_loop.trips) (v195 : IVec S16 32) (v198 : IVec S16 32) : Prop :=
  (∀ (k3_h5 : k3_cond5 k3_t1 = 1#1), ∀ a x, ((![v195, v198] : Fin 2 → IVec S16 32) a x).toNat < S32x128.size a)
instance k3_chk23.dec : ∀ (k3_t1 : Fin k3_t1_loop.trips) (v195 : IVec S16 32) (v198 : IVec S16 32), Decidable (k3_chk23 k3_t1 v195 v198) := fun k3_t1 v195 v198 => decidable_of_iff' _ (Iff.of_eq (k3_chk23.eq_1 k3_t1 v195 v198))
theorem k3_idx13_inb : ∀ (k3_t1 : Fin k3_t1_loop.trips) (v195 : IVec S16 32) (v198 : IVec S16 32) (k3_hw23 : k3_chk23 k3_t1 v195 v198), ∀ (k3_h5 : k3_cond5 k3_t1 = 1#1), ∀ a x, ((![v195, v198] : Fin 2 → IVec S16 32) a x).toNat < S32x128.size a := fun k3_t1 v195 v198 k3_hw23 k3_h5 => k3_hw23 k3_h5

def k3_chk24 (k3_t1 : Fin k3_t1_loop.trips) (v201 : IVec S16 32) : Prop :=
  (∀ (k3_h5 : k3_cond5 k3_t1 = 1#1), ∀ a x, ((![v201] : Fin 1 → IVec S16 32) a x).toNat < S2048.size a)
instance k3_chk24.dec : ∀ (k3_t1 : Fin k3_t1_loop.trips) (v201 : IVec S16 32), Decidable (k3_chk24 k3_t1 v201) := fun k3_t1 v201 => decidable_of_iff' _ (Iff.of_eq (k3_chk24.eq_1 k3_t1 v201))
theorem k3_idx14_inb : ∀ (k3_t1 : Fin k3_t1_loop.trips) (v201 : IVec S16 32) (k3_hw24 : k3_chk24 k3_t1 v201), ∀ (k3_h5 : k3_cond5 k3_t1 = 1#1), ∀ a x, ((![v201] : Fin 1 → IVec S16 32) a x).toNat < S2048.size a := fun k3_t1 v201 k3_hw24 k3_h5 => k3_hw24 k3_h5

def k3_chk25 (k3_t1 : Fin k3_t1_loop.trips) (v195 : IVec S16 32) (v207 : IVec S16 32) : Prop :=
  (∀ (k3_h5 : k3_cond5 k3_t1 = 1#1), ∀ a x, ((![v195, v207] : Fin 2 → IVec S16 32) a x).toNat < S32x512.size a)
instance k3_chk25.dec : ∀ (k3_t1 : Fin k3_t1_loop.trips) (v195 : IVec S16 32) (v207 : IVec S16 32), Decidable (k3_chk25 k3_t1 v195 v207) := fun k3_t1 v195 v207 => decidable_of_iff' _ (Iff.of_eq (k3_chk25.eq_1 k3_t1 v195 v207))
theorem k3_idx15_inb : ∀ (k3_t1 : Fin k3_t1_loop.trips) (v195 : IVec S16 32) (v207 : IVec S16 32) (k3_hw25 : k3_chk25 k3_t1 v195 v207), ∀ (k3_h5 : k3_cond5 k3_t1 = 1#1), ∀ a x, ((![v195, v207] : Fin 2 → IVec S16 32) a x).toNat < S32x512.size a := fun k3_t1 v195 v207 k3_hw25 k3_h5 => k3_hw25 k3_h5

def k3_chk26 (k3_t1 : Fin k3_t1_loop.trips) (v210 : IVec S16 32) (v213 : IVec S16 32) : Prop :=
  (∀ (k3_h5 : k3_cond5 k3_t1 = 1#1), ∀ a x, ((![v210, v213] : Fin 2 → IVec S16 32) a x).toNat < S32x128.size a)
instance k3_chk26.dec : ∀ (k3_t1 : Fin k3_t1_loop.trips) (v210 : IVec S16 32) (v213 : IVec S16 32), Decidable (k3_chk26 k3_t1 v210 v213) := fun k3_t1 v210 v213 => decidable_of_iff' _ (Iff.of_eq (k3_chk26.eq_1 k3_t1 v210 v213))
theorem k3_idx16_inb : ∀ (k3_t1 : Fin k3_t1_loop.trips) (v210 : IVec S16 32) (v213 : IVec S16 32) (k3_hw26 : k3_chk26 k3_t1 v210 v213), ∀ (k3_h5 : k3_cond5 k3_t1 = 1#1), ∀ a x, ((![v210, v213] : Fin 2 → IVec S16 32) a x).toNat < S32x128.size a := fun k3_t1 v210 v213 k3_hw26 k3_h5 => k3_hw26 k3_h5

def k3_chk27 (k3_t1 : Fin k3_t1_loop.trips) (v216 : IVec S16 32) : Prop :=
  (∀ (k3_h5 : k3_cond5 k3_t1 = 1#1), ∀ a x, ((![v216] : Fin 1 → IVec S16 32) a x).toNat < S2048.size a)
instance k3_chk27.dec : ∀ (k3_t1 : Fin k3_t1_loop.trips) (v216 : IVec S16 32), Decidable (k3_chk27 k3_t1 v216) := fun k3_t1 v216 => decidable_of_iff' _ (Iff.of_eq (k3_chk27.eq_1 k3_t1 v216))
theorem k3_idx17_inb : ∀ (k3_t1 : Fin k3_t1_loop.trips) (v216 : IVec S16 32) (k3_hw27 : k3_chk27 k3_t1 v216), ∀ (k3_h5 : k3_cond5 k3_t1 = 1#1), ∀ a x, ((![v216] : Fin 1 → IVec S16 32) a x).toNat < S2048.size a := fun k3_t1 v216 k3_hw27 k3_h5 => k3_hw27 k3_h5

def k3_chk28 (k3_t1 : Fin k3_t1_loop.trips) (v210 : IVec S16 32) (v222 : IVec S16 32) : Prop :=
  (∀ (k3_h5 : k3_cond5 k3_t1 = 1#1), ∀ a x, ((![v210, v222] : Fin 2 → IVec S16 32) a x).toNat < S32x512.size a)
instance k3_chk28.dec : ∀ (k3_t1 : Fin k3_t1_loop.trips) (v210 : IVec S16 32) (v222 : IVec S16 32), Decidable (k3_chk28 k3_t1 v210 v222) := fun k3_t1 v210 v222 => decidable_of_iff' _ (Iff.of_eq (k3_chk28.eq_1 k3_t1 v210 v222))
theorem k3_idx18_inb : ∀ (k3_t1 : Fin k3_t1_loop.trips) (v210 : IVec S16 32) (v222 : IVec S16 32) (k3_hw28 : k3_chk28 k3_t1 v210 v222), ∀ (k3_h5 : k3_cond5 k3_t1 = 1#1), ∀ a x, ((![v210, v222] : Fin 2 → IVec S16 32) a x).toNat < S32x512.size a := fun k3_t1 v210 v222 k3_hw28 k3_h5 => k3_hw28 k3_h5
def k3_cond6 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off15 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult11 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off16 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk29 (k3_t1 : Fin k3_t1_loop.trips) (v231 : BitVec 32) : Prop :=
  (∀ (k3_h5 : k3_cond5 k3_t1 = 1#1), ∀ (k3_h6 : k3_cond6 k3_t1 = 1#1), 128 ∣ (k3_mult11 v231).toNat) ∧
  (∀ (k3_h5 : k3_cond5 k3_t1 = 1#1), ∀ (k3_h6 : k3_cond6 k3_t1 = 1#1), ∀ a, (k3_off16 v231) a + S32x128.size a ≤ S32x1000000.size a)
instance k3_chk29.dec : ∀ (k3_t1 : Fin k3_t1_loop.trips) (v231 : BitVec 32), Decidable (k3_chk29 k3_t1 v231) := fun k3_t1 v231 => decidable_of_iff' _ (Iff.of_eq (k3_chk29.eq_1 k3_t1 v231))
theorem k3_mult11_dvd : ∀ (k3_t1 : Fin k3_t1_loop.trips) (v231 : BitVec 32) (k3_hw29 : k3_chk29 k3_t1 v231), ∀ (k3_h5 : k3_cond5 k3_t1 = 1#1), ∀ (k3_h6 : k3_cond6 k3_t1 = 1#1), 128 ∣ (k3_mult11 v231).toNat := fun k3_t1 v231 k3_hw29 k3_h5 k3_h6 => k3_hw29.1 k3_h5 k3_h6
theorem k3_off16_inb : ∀ (k3_t1 : Fin k3_t1_loop.trips) (v231 : BitVec 32) (k3_hw29 : k3_chk29 k3_t1 v231), ∀ (k3_h5 : k3_cond5 k3_t1 = 1#1), ∀ (k3_h6 : k3_cond6 k3_t1 = 1#1), ∀ a, (k3_off16 v231) a + S32x128.size a ≤ S32x1000000.size a := fun k3_t1 v231 k3_hw29 k3_h5 k3_h6 => k3_hw29.2 k3_h5 k3_h6

def k3_cond7 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_64 : BitVec 32 := 8#32
  let c0_i32_65 : BitVec 32 := 0#32
  let v122 : BitVec 1 := Scalar.cmpi .eq c8_i32_64 c0_i32_65
  let c1_i32_66 : BitVec 32 := 1#32
  let v123 : BitVec 32 := Scalar.select v122 c1_i32_66 c8_i32_64
  let v124 : BitVec 32 := Scalar.remsi v77 v123
  let c0_i32_68 : BitVec 32 := 0#32
  let v126 : BitVec 1 := Scalar.cmpi .slt v124 c0_i32_68
  let c0_i32_69 : BitVec 32 := 0#32
  let v127 : BitVec 1 := Scalar.cmpi .slt v123 c0_i32_69
  let v128 : BitVec 1 := Scalar.xori v126 v127
  let c0_i32_67 : BitVec 32 := 0#32
  let v125 : BitVec 1 := Scalar.cmpi .ne v124 c0_i32_67
  let v129 : BitVec 1 := Scalar.andi v128 v125
  let v130 : BitVec 32 := Scalar.addi v124 v123
  let v131 : BitVec 32 := Scalar.select v129 v130 v124
  let c3_i32 : BitVec 32 := 3#32
  let v132 : BitVec 1 := Scalar.cmpi .eq v131 c3_i32
  let v133 : BitVec 32 := Scalar.extui v132
  let c0_i32_70 : BitVec 32 := 0#32
  let v134 : BitVec 1 := Scalar.cmpi .ne v133 c0_i32_70
  v134

def k3_chk30 (k3_t1 : Fin k3_t1_loop.trips) (v195 : IVec S16 32) (v198 : IVec S16 32) : Prop :=
  (∀ (k3_h7 : k3_cond7 k3_t1 = 1#1), ∀ a x, ((![v195, v198] : Fin 2 → IVec S16 32) a x).toNat < S32x128.size a)
instance k3_chk30.dec : ∀ (k3_t1 : Fin k3_t1_loop.trips) (v195 : IVec S16 32) (v198 : IVec S16 32), Decidable (k3_chk30 k3_t1 v195 v198) := fun k3_t1 v195 v198 => decidable_of_iff' _ (Iff.of_eq (k3_chk30.eq_1 k3_t1 v195 v198))
theorem k3_idx19_inb : ∀ (k3_t1 : Fin k3_t1_loop.trips) (v195 : IVec S16 32) (v198 : IVec S16 32) (k3_hw30 : k3_chk30 k3_t1 v195 v198), ∀ (k3_h7 : k3_cond7 k3_t1 = 1#1), ∀ a x, ((![v195, v198] : Fin 2 → IVec S16 32) a x).toNat < S32x128.size a := fun k3_t1 v195 v198 k3_hw30 k3_h7 => k3_hw30 k3_h7

def k3_chk31 (k3_t1 : Fin k3_t1_loop.trips) (v201 : IVec S16 32) : Prop :=
  (∀ (k3_h7 : k3_cond7 k3_t1 = 1#1), ∀ a x, ((![v201] : Fin 1 → IVec S16 32) a x).toNat < S2048.size a)
instance k3_chk31.dec : ∀ (k3_t1 : Fin k3_t1_loop.trips) (v201 : IVec S16 32), Decidable (k3_chk31 k3_t1 v201) := fun k3_t1 v201 => decidable_of_iff' _ (Iff.of_eq (k3_chk31.eq_1 k3_t1 v201))
theorem k3_idx20_inb : ∀ (k3_t1 : Fin k3_t1_loop.trips) (v201 : IVec S16 32) (k3_hw31 : k3_chk31 k3_t1 v201), ∀ (k3_h7 : k3_cond7 k3_t1 = 1#1), ∀ a x, ((![v201] : Fin 1 → IVec S16 32) a x).toNat < S2048.size a := fun k3_t1 v201 k3_hw31 k3_h7 => k3_hw31 k3_h7

def k3_chk32 (k3_t1 : Fin k3_t1_loop.trips) (v195 : IVec S16 32) (v207 : IVec S16 32) : Prop :=
  (∀ (k3_h7 : k3_cond7 k3_t1 = 1#1), ∀ a x, ((![v195, v207] : Fin 2 → IVec S16 32) a x).toNat < S32x512.size a)
instance k3_chk32.dec : ∀ (k3_t1 : Fin k3_t1_loop.trips) (v195 : IVec S16 32) (v207 : IVec S16 32), Decidable (k3_chk32 k3_t1 v195 v207) := fun k3_t1 v195 v207 => decidable_of_iff' _ (Iff.of_eq (k3_chk32.eq_1 k3_t1 v195 v207))
theorem k3_idx21_inb : ∀ (k3_t1 : Fin k3_t1_loop.trips) (v195 : IVec S16 32) (v207 : IVec S16 32) (k3_hw32 : k3_chk32 k3_t1 v195 v207), ∀ (k3_h7 : k3_cond7 k3_t1 = 1#1), ∀ a x, ((![v195, v207] : Fin 2 → IVec S16 32) a x).toNat < S32x512.size a := fun k3_t1 v195 v207 k3_hw32 k3_h7 => k3_hw32 k3_h7

def k3_chk33 (k3_t1 : Fin k3_t1_loop.trips) (v210 : IVec S16 32) (v213 : IVec S16 32) : Prop :=
  (∀ (k3_h7 : k3_cond7 k3_t1 = 1#1), ∀ a x, ((![v210, v213] : Fin 2 → IVec S16 32) a x).toNat < S32x128.size a)
instance k3_chk33.dec : ∀ (k3_t1 : Fin k3_t1_loop.trips) (v210 : IVec S16 32) (v213 : IVec S16 32), Decidable (k3_chk33 k3_t1 v210 v213) := fun k3_t1 v210 v213 => decidable_of_iff' _ (Iff.of_eq (k3_chk33.eq_1 k3_t1 v210 v213))
theorem k3_idx22_inb : ∀ (k3_t1 : Fin k3_t1_loop.trips) (v210 : IVec S16 32) (v213 : IVec S16 32) (k3_hw33 : k3_chk33 k3_t1 v210 v213), ∀ (k3_h7 : k3_cond7 k3_t1 = 1#1), ∀ a x, ((![v210, v213] : Fin 2 → IVec S16 32) a x).toNat < S32x128.size a := fun k3_t1 v210 v213 k3_hw33 k3_h7 => k3_hw33 k3_h7

def k3_chk34 (k3_t1 : Fin k3_t1_loop.trips) (v216 : IVec S16 32) : Prop :=
  (∀ (k3_h7 : k3_cond7 k3_t1 = 1#1), ∀ a x, ((![v216] : Fin 1 → IVec S16 32) a x).toNat < S2048.size a)
instance k3_chk34.dec : ∀ (k3_t1 : Fin k3_t1_loop.trips) (v216 : IVec S16 32), Decidable (k3_chk34 k3_t1 v216) := fun k3_t1 v216 => decidable_of_iff' _ (Iff.of_eq (k3_chk34.eq_1 k3_t1 v216))
theorem k3_idx23_inb : ∀ (k3_t1 : Fin k3_t1_loop.trips) (v216 : IVec S16 32) (k3_hw34 : k3_chk34 k3_t1 v216), ∀ (k3_h7 : k3_cond7 k3_t1 = 1#1), ∀ a x, ((![v216] : Fin 1 → IVec S16 32) a x).toNat < S2048.size a := fun k3_t1 v216 k3_hw34 k3_h7 => k3_hw34 k3_h7

def k3_chk35 (k3_t1 : Fin k3_t1_loop.trips) (v210 : IVec S16 32) (v222 : IVec S16 32) : Prop :=
  (∀ (k3_h7 : k3_cond7 k3_t1 = 1#1), ∀ a x, ((![v210, v222] : Fin 2 → IVec S16 32) a x).toNat < S32x512.size a)
instance k3_chk35.dec : ∀ (k3_t1 : Fin k3_t1_loop.trips) (v210 : IVec S16 32) (v222 : IVec S16 32), Decidable (k3_chk35 k3_t1 v210 v222) := fun k3_t1 v210 v222 => decidable_of_iff' _ (Iff.of_eq (k3_chk35.eq_1 k3_t1 v210 v222))
theorem k3_idx24_inb : ∀ (k3_t1 : Fin k3_t1_loop.trips) (v210 : IVec S16 32) (v222 : IVec S16 32) (k3_hw35 : k3_chk35 k3_t1 v210 v222), ∀ (k3_h7 : k3_cond7 k3_t1 = 1#1), ∀ a x, ((![v210, v222] : Fin 2 → IVec S16 32) a x).toNat < S32x512.size a := fun k3_t1 v210 v222 k3_hw35 k3_h7 => k3_hw35 k3_h7
def k3_cond8 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off17 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult12 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off18 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk36 (k3_t1 : Fin k3_t1_loop.trips) (v231 : BitVec 32) : Prop :=
  (∀ (k3_h7 : k3_cond7 k3_t1 = 1#1), ∀ (k3_h8 : k3_cond8 k3_t1 = 1#1), 128 ∣ (k3_mult12 v231).toNat) ∧
  (∀ (k3_h7 : k3_cond7 k3_t1 = 1#1), ∀ (k3_h8 : k3_cond8 k3_t1 = 1#1), ∀ a, (k3_off18 v231) a + S32x128.size a ≤ S32x1000000.size a)
instance k3_chk36.dec : ∀ (k3_t1 : Fin k3_t1_loop.trips) (v231 : BitVec 32), Decidable (k3_chk36 k3_t1 v231) := fun k3_t1 v231 => decidable_of_iff' _ (Iff.of_eq (k3_chk36.eq_1 k3_t1 v231))
theorem k3_mult12_dvd : ∀ (k3_t1 : Fin k3_t1_loop.trips) (v231 : BitVec 32) (k3_hw36 : k3_chk36 k3_t1 v231), ∀ (k3_h7 : k3_cond7 k3_t1 = 1#1), ∀ (k3_h8 : k3_cond8 k3_t1 = 1#1), 128 ∣ (k3_mult12 v231).toNat := fun k3_t1 v231 k3_hw36 k3_h7 k3_h8 => k3_hw36.1 k3_h7 k3_h8
theorem k3_off18_inb : ∀ (k3_t1 : Fin k3_t1_loop.trips) (v231 : BitVec 32) (k3_hw36 : k3_chk36 k3_t1 v231), ∀ (k3_h7 : k3_cond7 k3_t1 = 1#1), ∀ (k3_h8 : k3_cond8 k3_t1 = 1#1), ∀ a, (k3_off18 v231) a + S32x128.size a ≤ S32x1000000.size a := fun k3_t1 v231 k3_hw36 k3_h7 k3_h8 => k3_hw36.2 k3_h7 k3_h8

def k3_cond9 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_71 : BitVec 32 := 8#32
  let c0_i32_72 : BitVec 32 := 0#32
  let v135 : BitVec 1 := Scalar.cmpi .eq c8_i32_71 c0_i32_72
  let c1_i32_73 : BitVec 32 := 1#32
  let v136 : BitVec 32 := Scalar.select v135 c1_i32_73 c8_i32_71
  let v137 : BitVec 32 := Scalar.remsi v77 v136
  let c0_i32_75 : BitVec 32 := 0#32
  let v139 : BitVec 1 := Scalar.cmpi .slt v137 c0_i32_75
  let c0_i32_76 : BitVec 32 := 0#32
  let v140 : BitVec 1 := Scalar.cmpi .slt v136 c0_i32_76
  let v141 : BitVec 1 := Scalar.xori v139 v140
  let c0_i32_74 : BitVec 32 := 0#32
  let v138 : BitVec 1 := Scalar.cmpi .ne v137 c0_i32_74
  let v142 : BitVec 1 := Scalar.andi v141 v138
  let v143 : BitVec 32 := Scalar.addi v137 v136
  let v144 : BitVec 32 := Scalar.select v142 v143 v137
  let c4_i32 : BitVec 32 := 4#32
  let v145 : BitVec 1 := Scalar.cmpi .eq v144 c4_i32
  let v146 : BitVec 32 := Scalar.extui v145
  let c0_i32_77 : BitVec 32 := 0#32
  let v147 : BitVec 1 := Scalar.cmpi .ne v146 c0_i32_77
  v147

def k3_chk37 (k3_t1 : Fin k3_t1_loop.trips) (v195 : IVec S16 32) (v198 : IVec S16 32) : Prop :=
  (∀ (k3_h9 : k3_cond9 k3_t1 = 1#1), ∀ a x, ((![v195, v198] : Fin 2 → IVec S16 32) a x).toNat < S32x128.size a)
instance k3_chk37.dec : ∀ (k3_t1 : Fin k3_t1_loop.trips) (v195 : IVec S16 32) (v198 : IVec S16 32), Decidable (k3_chk37 k3_t1 v195 v198) := fun k3_t1 v195 v198 => decidable_of_iff' _ (Iff.of_eq (k3_chk37.eq_1 k3_t1 v195 v198))
theorem k3_idx25_inb : ∀ (k3_t1 : Fin k3_t1_loop.trips) (v195 : IVec S16 32) (v198 : IVec S16 32) (k3_hw37 : k3_chk37 k3_t1 v195 v198), ∀ (k3_h9 : k3_cond9 k3_t1 = 1#1), ∀ a x, ((![v195, v198] : Fin 2 → IVec S16 32) a x).toNat < S32x128.size a := fun k3_t1 v195 v198 k3_hw37 k3_h9 => k3_hw37 k3_h9

def k3_chk38 (k3_t1 : Fin k3_t1_loop.trips) (v201 : IVec S16 32) : Prop :=
  (∀ (k3_h9 : k3_cond9 k3_t1 = 1#1), ∀ a x, ((![v201] : Fin 1 → IVec S16 32) a x).toNat < S2048.size a)
instance k3_chk38.dec : ∀ (k3_t1 : Fin k3_t1_loop.trips) (v201 : IVec S16 32), Decidable (k3_chk38 k3_t1 v201) := fun k3_t1 v201 => decidable_of_iff' _ (Iff.of_eq (k3_chk38.eq_1 k3_t1 v201))
theorem k3_idx26_inb : ∀ (k3_t1 : Fin k3_t1_loop.trips) (v201 : IVec S16 32) (k3_hw38 : k3_chk38 k3_t1 v201), ∀ (k3_h9 : k3_cond9 k3_t1 = 1#1), ∀ a x, ((![v201] : Fin 1 → IVec S16 32) a x).toNat < S2048.size a := fun k3_t1 v201 k3_hw38 k3_h9 => k3_hw38 k3_h9

def k3_chk39 (k3_t1 : Fin k3_t1_loop.trips) (v195 : IVec S16 32) (v207 : IVec S16 32) : Prop :=
  (∀ (k3_h9 : k3_cond9 k3_t1 = 1#1), ∀ a x, ((![v195, v207] : Fin 2 → IVec S16 32) a x).toNat < S32x512.size a)
instance k3_chk39.dec : ∀ (k3_t1 : Fin k3_t1_loop.trips) (v195 : IVec S16 32) (v207 : IVec S16 32), Decidable (k3_chk39 k3_t1 v195 v207) := fun k3_t1 v195 v207 => decidable_of_iff' _ (Iff.of_eq (k3_chk39.eq_1 k3_t1 v195 v207))
theorem k3_idx27_inb : ∀ (k3_t1 : Fin k3_t1_loop.trips) (v195 : IVec S16 32) (v207 : IVec S16 32) (k3_hw39 : k3_chk39 k3_t1 v195 v207), ∀ (k3_h9 : k3_cond9 k3_t1 = 1#1), ∀ a x, ((![v195, v207] : Fin 2 → IVec S16 32) a x).toNat < S32x512.size a := fun k3_t1 v195 v207 k3_hw39 k3_h9 => k3_hw39 k3_h9

def k3_chk40 (k3_t1 : Fin k3_t1_loop.trips) (v210 : IVec S16 32) (v213 : IVec S16 32) : Prop :=
  (∀ (k3_h9 : k3_cond9 k3_t1 = 1#1), ∀ a x, ((![v210, v213] : Fin 2 → IVec S16 32) a x).toNat < S32x128.size a)
instance k3_chk40.dec : ∀ (k3_t1 : Fin k3_t1_loop.trips) (v210 : IVec S16 32) (v213 : IVec S16 32), Decidable (k3_chk40 k3_t1 v210 v213) := fun k3_t1 v210 v213 => decidable_of_iff' _ (Iff.of_eq (k3_chk40.eq_1 k3_t1 v210 v213))
theorem k3_idx28_inb : ∀ (k3_t1 : Fin k3_t1_loop.trips) (v210 : IVec S16 32) (v213 : IVec S16 32) (k3_hw40 : k3_chk40 k3_t1 v210 v213), ∀ (k3_h9 : k3_cond9 k3_t1 = 1#1), ∀ a x, ((![v210, v213] : Fin 2 → IVec S16 32) a x).toNat < S32x128.size a := fun k3_t1 v210 v213 k3_hw40 k3_h9 => k3_hw40 k3_h9

def k3_chk41 (k3_t1 : Fin k3_t1_loop.trips) (v216 : IVec S16 32) : Prop :=
  (∀ (k3_h9 : k3_cond9 k3_t1 = 1#1), ∀ a x, ((![v216] : Fin 1 → IVec S16 32) a x).toNat < S2048.size a)
instance k3_chk41.dec : ∀ (k3_t1 : Fin k3_t1_loop.trips) (v216 : IVec S16 32), Decidable (k3_chk41 k3_t1 v216) := fun k3_t1 v216 => decidable_of_iff' _ (Iff.of_eq (k3_chk41.eq_1 k3_t1 v216))
theorem k3_idx29_inb : ∀ (k3_t1 : Fin k3_t1_loop.trips) (v216 : IVec S16 32) (k3_hw41 : k3_chk41 k3_t1 v216), ∀ (k3_h9 : k3_cond9 k3_t1 = 1#1), ∀ a x, ((![v216] : Fin 1 → IVec S16 32) a x).toNat < S2048.size a := fun k3_t1 v216 k3_hw41 k3_h9 => k3_hw41 k3_h9

def k3_chk42 (k3_t1 : Fin k3_t1_loop.trips) (v210 : IVec S16 32) (v222 : IVec S16 32) : Prop :=
  (∀ (k3_h9 : k3_cond9 k3_t1 = 1#1), ∀ a x, ((![v210, v222] : Fin 2 → IVec S16 32) a x).toNat < S32x512.size a)
instance k3_chk42.dec : ∀ (k3_t1 : Fin k3_t1_loop.trips) (v210 : IVec S16 32) (v222 : IVec S16 32), Decidable (k3_chk42 k3_t1 v210 v222) := fun k3_t1 v210 v222 => decidable_of_iff' _ (Iff.of_eq (k3_chk42.eq_1 k3_t1 v210 v222))
theorem k3_idx30_inb : ∀ (k3_t1 : Fin k3_t1_loop.trips) (v210 : IVec S16 32) (v222 : IVec S16 32) (k3_hw42 : k3_chk42 k3_t1 v210 v222), ∀ (k3_h9 : k3_cond9 k3_t1 = 1#1), ∀ a x, ((![v210, v222] : Fin 2 → IVec S16 32) a x).toNat < S32x512.size a := fun k3_t1 v210 v222 k3_hw42 k3_h9 => k3_hw42 k3_h9
def k3_cond10 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off19 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult13 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off20 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk43 (k3_t1 : Fin k3_t1_loop.trips) (v231 : BitVec 32) : Prop :=
  (∀ (k3_h9 : k3_cond9 k3_t1 = 1#1), ∀ (k3_h10 : k3_cond10 k3_t1 = 1#1), 128 ∣ (k3_mult13 v231).toNat) ∧
  (∀ (k3_h9 : k3_cond9 k3_t1 = 1#1), ∀ (k3_h10 : k3_cond10 k3_t1 = 1#1), ∀ a, (k3_off20 v231) a + S32x128.size a ≤ S32x1000000.size a)
instance k3_chk43.dec : ∀ (k3_t1 : Fin k3_t1_loop.trips) (v231 : BitVec 32), Decidable (k3_chk43 k3_t1 v231) := fun k3_t1 v231 => decidable_of_iff' _ (Iff.of_eq (k3_chk43.eq_1 k3_t1 v231))
theorem k3_mult13_dvd : ∀ (k3_t1 : Fin k3_t1_loop.trips) (v231 : BitVec 32) (k3_hw43 : k3_chk43 k3_t1 v231), ∀ (k3_h9 : k3_cond9 k3_t1 = 1#1), ∀ (k3_h10 : k3_cond10 k3_t1 = 1#1), 128 ∣ (k3_mult13 v231).toNat := fun k3_t1 v231 k3_hw43 k3_h9 k3_h10 => k3_hw43.1 k3_h9 k3_h10
theorem k3_off20_inb : ∀ (k3_t1 : Fin k3_t1_loop.trips) (v231 : BitVec 32) (k3_hw43 : k3_chk43 k3_t1 v231), ∀ (k3_h9 : k3_cond9 k3_t1 = 1#1), ∀ (k3_h10 : k3_cond10 k3_t1 = 1#1), ∀ a, (k3_off20 v231) a + S32x128.size a ≤ S32x1000000.size a := fun k3_t1 v231 k3_hw43 k3_h9 k3_h10 => k3_hw43.2 k3_h9 k3_h10

def k3_cond11 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_78 : BitVec 32 := 8#32
  let c0_i32_79 : BitVec 32 := 0#32
  let v148 : BitVec 1 := Scalar.cmpi .eq c8_i32_78 c0_i32_79
  let c1_i32_80 : BitVec 32 := 1#32
  let v149 : BitVec 32 := Scalar.select v148 c1_i32_80 c8_i32_78
  let v150 : BitVec 32 := Scalar.remsi v77 v149
  let c0_i32_82 : BitVec 32 := 0#32
  let v152 : BitVec 1 := Scalar.cmpi .slt v150 c0_i32_82
  let c0_i32_83 : BitVec 32 := 0#32
  let v153 : BitVec 1 := Scalar.cmpi .slt v149 c0_i32_83
  let v154 : BitVec 1 := Scalar.xori v152 v153
  let c0_i32_81 : BitVec 32 := 0#32
  let v151 : BitVec 1 := Scalar.cmpi .ne v150 c0_i32_81
  let v155 : BitVec 1 := Scalar.andi v154 v151
  let v156 : BitVec 32 := Scalar.addi v150 v149
  let v157 : BitVec 32 := Scalar.select v155 v156 v150
  let c5_i32 : BitVec 32 := 5#32
  let v158 : BitVec 1 := Scalar.cmpi .eq v157 c5_i32
  let v159 : BitVec 32 := Scalar.extui v158
  let c0_i32_84 : BitVec 32 := 0#32
  let v160 : BitVec 1 := Scalar.cmpi .ne v159 c0_i32_84
  v160

def k3_chk44 (k3_t1 : Fin k3_t1_loop.trips) (v195 : IVec S16 32) (v198 : IVec S16 32) : Prop :=
  (∀ (k3_h11 : k3_cond11 k3_t1 = 1#1), ∀ a x, ((![v195, v198] : Fin 2 → IVec S16 32) a x).toNat < S32x128.size a)
instance k3_chk44.dec : ∀ (k3_t1 : Fin k3_t1_loop.trips) (v195 : IVec S16 32) (v198 : IVec S16 32), Decidable (k3_chk44 k3_t1 v195 v198) := fun k3_t1 v195 v198 => decidable_of_iff' _ (Iff.of_eq (k3_chk44.eq_1 k3_t1 v195 v198))
theorem k3_idx31_inb : ∀ (k3_t1 : Fin k3_t1_loop.trips) (v195 : IVec S16 32) (v198 : IVec S16 32) (k3_hw44 : k3_chk44 k3_t1 v195 v198), ∀ (k3_h11 : k3_cond11 k3_t1 = 1#1), ∀ a x, ((![v195, v198] : Fin 2 → IVec S16 32) a x).toNat < S32x128.size a := fun k3_t1 v195 v198 k3_hw44 k3_h11 => k3_hw44 k3_h11

def k3_chk45 (k3_t1 : Fin k3_t1_loop.trips) (v201 : IVec S16 32) : Prop :=
  (∀ (k3_h11 : k3_cond11 k3_t1 = 1#1), ∀ a x, ((![v201] : Fin 1 → IVec S16 32) a x).toNat < S2048.size a)
instance k3_chk45.dec : ∀ (k3_t1 : Fin k3_t1_loop.trips) (v201 : IVec S16 32), Decidable (k3_chk45 k3_t1 v201) := fun k3_t1 v201 => decidable_of_iff' _ (Iff.of_eq (k3_chk45.eq_1 k3_t1 v201))
theorem k3_idx32_inb : ∀ (k3_t1 : Fin k3_t1_loop.trips) (v201 : IVec S16 32) (k3_hw45 : k3_chk45 k3_t1 v201), ∀ (k3_h11 : k3_cond11 k3_t1 = 1#1), ∀ a x, ((![v201] : Fin 1 → IVec S16 32) a x).toNat < S2048.size a := fun k3_t1 v201 k3_hw45 k3_h11 => k3_hw45 k3_h11

def k3_chk46 (k3_t1 : Fin k3_t1_loop.trips) (v195 : IVec S16 32) (v207 : IVec S16 32) : Prop :=
  (∀ (k3_h11 : k3_cond11 k3_t1 = 1#1), ∀ a x, ((![v195, v207] : Fin 2 → IVec S16 32) a x).toNat < S32x512.size a)
instance k3_chk46.dec : ∀ (k3_t1 : Fin k3_t1_loop.trips) (v195 : IVec S16 32) (v207 : IVec S16 32), Decidable (k3_chk46 k3_t1 v195 v207) := fun k3_t1 v195 v207 => decidable_of_iff' _ (Iff.of_eq (k3_chk46.eq_1 k3_t1 v195 v207))
theorem k3_idx33_inb : ∀ (k3_t1 : Fin k3_t1_loop.trips) (v195 : IVec S16 32) (v207 : IVec S16 32) (k3_hw46 : k3_chk46 k3_t1 v195 v207), ∀ (k3_h11 : k3_cond11 k3_t1 = 1#1), ∀ a x, ((![v195, v207] : Fin 2 → IVec S16 32) a x).toNat < S32x512.size a := fun k3_t1 v195 v207 k3_hw46 k3_h11 => k3_hw46 k3_h11

def k3_chk47 (k3_t1 : Fin k3_t1_loop.trips) (v210 : IVec S16 32) (v213 : IVec S16 32) : Prop :=
  (∀ (k3_h11 : k3_cond11 k3_t1 = 1#1), ∀ a x, ((![v210, v213] : Fin 2 → IVec S16 32) a x).toNat < S32x128.size a)
instance k3_chk47.dec : ∀ (k3_t1 : Fin k3_t1_loop.trips) (v210 : IVec S16 32) (v213 : IVec S16 32), Decidable (k3_chk47 k3_t1 v210 v213) := fun k3_t1 v210 v213 => decidable_of_iff' _ (Iff.of_eq (k3_chk47.eq_1 k3_t1 v210 v213))
theorem k3_idx34_inb : ∀ (k3_t1 : Fin k3_t1_loop.trips) (v210 : IVec S16 32) (v213 : IVec S16 32) (k3_hw47 : k3_chk47 k3_t1 v210 v213), ∀ (k3_h11 : k3_cond11 k3_t1 = 1#1), ∀ a x, ((![v210, v213] : Fin 2 → IVec S16 32) a x).toNat < S32x128.size a := fun k3_t1 v210 v213 k3_hw47 k3_h11 => k3_hw47 k3_h11

def k3_chk48 (k3_t1 : Fin k3_t1_loop.trips) (v216 : IVec S16 32) : Prop :=
  (∀ (k3_h11 : k3_cond11 k3_t1 = 1#1), ∀ a x, ((![v216] : Fin 1 → IVec S16 32) a x).toNat < S2048.size a)
instance k3_chk48.dec : ∀ (k3_t1 : Fin k3_t1_loop.trips) (v216 : IVec S16 32), Decidable (k3_chk48 k3_t1 v216) := fun k3_t1 v216 => decidable_of_iff' _ (Iff.of_eq (k3_chk48.eq_1 k3_t1 v216))
theorem k3_idx35_inb : ∀ (k3_t1 : Fin k3_t1_loop.trips) (v216 : IVec S16 32) (k3_hw48 : k3_chk48 k3_t1 v216), ∀ (k3_h11 : k3_cond11 k3_t1 = 1#1), ∀ a x, ((![v216] : Fin 1 → IVec S16 32) a x).toNat < S2048.size a := fun k3_t1 v216 k3_hw48 k3_h11 => k3_hw48 k3_h11

def k3_chk49 (k3_t1 : Fin k3_t1_loop.trips) (v210 : IVec S16 32) (v222 : IVec S16 32) : Prop :=
  (∀ (k3_h11 : k3_cond11 k3_t1 = 1#1), ∀ a x, ((![v210, v222] : Fin 2 → IVec S16 32) a x).toNat < S32x512.size a)
instance k3_chk49.dec : ∀ (k3_t1 : Fin k3_t1_loop.trips) (v210 : IVec S16 32) (v222 : IVec S16 32), Decidable (k3_chk49 k3_t1 v210 v222) := fun k3_t1 v210 v222 => decidable_of_iff' _ (Iff.of_eq (k3_chk49.eq_1 k3_t1 v210 v222))
theorem k3_idx36_inb : ∀ (k3_t1 : Fin k3_t1_loop.trips) (v210 : IVec S16 32) (v222 : IVec S16 32) (k3_hw49 : k3_chk49 k3_t1 v210 v222), ∀ (k3_h11 : k3_cond11 k3_t1 = 1#1), ∀ a x, ((![v210, v222] : Fin 2 → IVec S16 32) a x).toNat < S32x512.size a := fun k3_t1 v210 v222 k3_hw49 k3_h11 => k3_hw49 k3_h11
def k3_cond12 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off21 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult14 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off22 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk50 (k3_t1 : Fin k3_t1_loop.trips) (v231 : BitVec 32) : Prop :=
  (∀ (k3_h11 : k3_cond11 k3_t1 = 1#1), ∀ (k3_h12 : k3_cond12 k3_t1 = 1#1), 128 ∣ (k3_mult14 v231).toNat) ∧
  (∀ (k3_h11 : k3_cond11 k3_t1 = 1#1), ∀ (k3_h12 : k3_cond12 k3_t1 = 1#1), ∀ a, (k3_off22 v231) a + S32x128.size a ≤ S32x1000000.size a)
instance k3_chk50.dec : ∀ (k3_t1 : Fin k3_t1_loop.trips) (v231 : BitVec 32), Decidable (k3_chk50 k3_t1 v231) := fun k3_t1 v231 => decidable_of_iff' _ (Iff.of_eq (k3_chk50.eq_1 k3_t1 v231))
theorem k3_mult14_dvd : ∀ (k3_t1 : Fin k3_t1_loop.trips) (v231 : BitVec 32) (k3_hw50 : k3_chk50 k3_t1 v231), ∀ (k3_h11 : k3_cond11 k3_t1 = 1#1), ∀ (k3_h12 : k3_cond12 k3_t1 = 1#1), 128 ∣ (k3_mult14 v231).toNat := fun k3_t1 v231 k3_hw50 k3_h11 k3_h12 => k3_hw50.1 k3_h11 k3_h12
theorem k3_off22_inb : ∀ (k3_t1 : Fin k3_t1_loop.trips) (v231 : BitVec 32) (k3_hw50 : k3_chk50 k3_t1 v231), ∀ (k3_h11 : k3_cond11 k3_t1 = 1#1), ∀ (k3_h12 : k3_cond12 k3_t1 = 1#1), ∀ a, (k3_off22 v231) a + S32x128.size a ≤ S32x1000000.size a := fun k3_t1 v231 k3_hw50 k3_h11 k3_h12 => k3_hw50.2 k3_h11 k3_h12

def k3_cond13 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_85 : BitVec 32 := 8#32
  let c0_i32_86 : BitVec 32 := 0#32
  let v161 : BitVec 1 := Scalar.cmpi .eq c8_i32_85 c0_i32_86
  let c1_i32_87 : BitVec 32 := 1#32
  let v162 : BitVec 32 := Scalar.select v161 c1_i32_87 c8_i32_85
  let v163 : BitVec 32 := Scalar.remsi v77 v162
  let c0_i32_89 : BitVec 32 := 0#32
  let v165 : BitVec 1 := Scalar.cmpi .slt v163 c0_i32_89
  let c0_i32_90 : BitVec 32 := 0#32
  let v166 : BitVec 1 := Scalar.cmpi .slt v162 c0_i32_90
  let v167 : BitVec 1 := Scalar.xori v165 v166
  let c0_i32_88 : BitVec 32 := 0#32
  let v164 : BitVec 1 := Scalar.cmpi .ne v163 c0_i32_88
  let v168 : BitVec 1 := Scalar.andi v167 v164
  let v169 : BitVec 32 := Scalar.addi v163 v162
  let v170 : BitVec 32 := Scalar.select v168 v169 v163
  let c6_i32 : BitVec 32 := 6#32
  let v171 : BitVec 1 := Scalar.cmpi .eq v170 c6_i32
  let v172 : BitVec 32 := Scalar.extui v171
  let c0_i32_91 : BitVec 32 := 0#32
  let v173 : BitVec 1 := Scalar.cmpi .ne v172 c0_i32_91
  v173

def k3_chk51 (k3_t1 : Fin k3_t1_loop.trips) (v195 : IVec S16 32) (v198 : IVec S16 32) : Prop :=
  (∀ (k3_h13 : k3_cond13 k3_t1 = 1#1), ∀ a x, ((![v195, v198] : Fin 2 → IVec S16 32) a x).toNat < S32x128.size a)
instance k3_chk51.dec : ∀ (k3_t1 : Fin k3_t1_loop.trips) (v195 : IVec S16 32) (v198 : IVec S16 32), Decidable (k3_chk51 k3_t1 v195 v198) := fun k3_t1 v195 v198 => decidable_of_iff' _ (Iff.of_eq (k3_chk51.eq_1 k3_t1 v195 v198))
theorem k3_idx37_inb : ∀ (k3_t1 : Fin k3_t1_loop.trips) (v195 : IVec S16 32) (v198 : IVec S16 32) (k3_hw51 : k3_chk51 k3_t1 v195 v198), ∀ (k3_h13 : k3_cond13 k3_t1 = 1#1), ∀ a x, ((![v195, v198] : Fin 2 → IVec S16 32) a x).toNat < S32x128.size a := fun k3_t1 v195 v198 k3_hw51 k3_h13 => k3_hw51 k3_h13

def k3_chk52 (k3_t1 : Fin k3_t1_loop.trips) (v201 : IVec S16 32) : Prop :=
  (∀ (k3_h13 : k3_cond13 k3_t1 = 1#1), ∀ a x, ((![v201] : Fin 1 → IVec S16 32) a x).toNat < S2048.size a)
instance k3_chk52.dec : ∀ (k3_t1 : Fin k3_t1_loop.trips) (v201 : IVec S16 32), Decidable (k3_chk52 k3_t1 v201) := fun k3_t1 v201 => decidable_of_iff' _ (Iff.of_eq (k3_chk52.eq_1 k3_t1 v201))
theorem k3_idx38_inb : ∀ (k3_t1 : Fin k3_t1_loop.trips) (v201 : IVec S16 32) (k3_hw52 : k3_chk52 k3_t1 v201), ∀ (k3_h13 : k3_cond13 k3_t1 = 1#1), ∀ a x, ((![v201] : Fin 1 → IVec S16 32) a x).toNat < S2048.size a := fun k3_t1 v201 k3_hw52 k3_h13 => k3_hw52 k3_h13

def k3_chk53 (k3_t1 : Fin k3_t1_loop.trips) (v195 : IVec S16 32) (v207 : IVec S16 32) : Prop :=
  (∀ (k3_h13 : k3_cond13 k3_t1 = 1#1), ∀ a x, ((![v195, v207] : Fin 2 → IVec S16 32) a x).toNat < S32x512.size a)
instance k3_chk53.dec : ∀ (k3_t1 : Fin k3_t1_loop.trips) (v195 : IVec S16 32) (v207 : IVec S16 32), Decidable (k3_chk53 k3_t1 v195 v207) := fun k3_t1 v195 v207 => decidable_of_iff' _ (Iff.of_eq (k3_chk53.eq_1 k3_t1 v195 v207))
theorem k3_idx39_inb : ∀ (k3_t1 : Fin k3_t1_loop.trips) (v195 : IVec S16 32) (v207 : IVec S16 32) (k3_hw53 : k3_chk53 k3_t1 v195 v207), ∀ (k3_h13 : k3_cond13 k3_t1 = 1#1), ∀ a x, ((![v195, v207] : Fin 2 → IVec S16 32) a x).toNat < S32x512.size a := fun k3_t1 v195 v207 k3_hw53 k3_h13 => k3_hw53 k3_h13

def k3_chk54 (k3_t1 : Fin k3_t1_loop.trips) (v210 : IVec S16 32) (v213 : IVec S16 32) : Prop :=
  (∀ (k3_h13 : k3_cond13 k3_t1 = 1#1), ∀ a x, ((![v210, v213] : Fin 2 → IVec S16 32) a x).toNat < S32x128.size a)
instance k3_chk54.dec : ∀ (k3_t1 : Fin k3_t1_loop.trips) (v210 : IVec S16 32) (v213 : IVec S16 32), Decidable (k3_chk54 k3_t1 v210 v213) := fun k3_t1 v210 v213 => decidable_of_iff' _ (Iff.of_eq (k3_chk54.eq_1 k3_t1 v210 v213))
theorem k3_idx40_inb : ∀ (k3_t1 : Fin k3_t1_loop.trips) (v210 : IVec S16 32) (v213 : IVec S16 32) (k3_hw54 : k3_chk54 k3_t1 v210 v213), ∀ (k3_h13 : k3_cond13 k3_t1 = 1#1), ∀ a x, ((![v210, v213] : Fin 2 → IVec S16 32) a x).toNat < S32x128.size a := fun k3_t1 v210 v213 k3_hw54 k3_h13 => k3_hw54 k3_h13

def k3_chk55 (k3_t1 : Fin k3_t1_loop.trips) (v216 : IVec S16 32) : Prop :=
  (∀ (k3_h13 : k3_cond13 k3_t1 = 1#1), ∀ a x, ((![v216] : Fin 1 → IVec S16 32) a x).toNat < S2048.size a)
instance k3_chk55.dec : ∀ (k3_t1 : Fin k3_t1_loop.trips) (v216 : IVec S16 32), Decidable (k3_chk55 k3_t1 v216) := fun k3_t1 v216 => decidable_of_iff' _ (Iff.of_eq (k3_chk55.eq_1 k3_t1 v216))
theorem k3_idx41_inb : ∀ (k3_t1 : Fin k3_t1_loop.trips) (v216 : IVec S16 32) (k3_hw55 : k3_chk55 k3_t1 v216), ∀ (k3_h13 : k3_cond13 k3_t1 = 1#1), ∀ a x, ((![v216] : Fin 1 → IVec S16 32) a x).toNat < S2048.size a := fun k3_t1 v216 k3_hw55 k3_h13 => k3_hw55 k3_h13

def k3_chk56 (k3_t1 : Fin k3_t1_loop.trips) (v210 : IVec S16 32) (v222 : IVec S16 32) : Prop :=
  (∀ (k3_h13 : k3_cond13 k3_t1 = 1#1), ∀ a x, ((![v210, v222] : Fin 2 → IVec S16 32) a x).toNat < S32x512.size a)
instance k3_chk56.dec : ∀ (k3_t1 : Fin k3_t1_loop.trips) (v210 : IVec S16 32) (v222 : IVec S16 32), Decidable (k3_chk56 k3_t1 v210 v222) := fun k3_t1 v210 v222 => decidable_of_iff' _ (Iff.of_eq (k3_chk56.eq_1 k3_t1 v210 v222))
theorem k3_idx42_inb : ∀ (k3_t1 : Fin k3_t1_loop.trips) (v210 : IVec S16 32) (v222 : IVec S16 32) (k3_hw56 : k3_chk56 k3_t1 v210 v222), ∀ (k3_h13 : k3_cond13 k3_t1 = 1#1), ∀ a x, ((![v210, v222] : Fin 2 → IVec S16 32) a x).toNat < S32x512.size a := fun k3_t1 v210 v222 k3_hw56 k3_h13 => k3_hw56 k3_h13
def k3_cond14 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off23 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult15 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off24 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk57 (k3_t1 : Fin k3_t1_loop.trips) (v231 : BitVec 32) : Prop :=
  (∀ (k3_h13 : k3_cond13 k3_t1 = 1#1), ∀ (k3_h14 : k3_cond14 k3_t1 = 1#1), 128 ∣ (k3_mult15 v231).toNat) ∧
  (∀ (k3_h13 : k3_cond13 k3_t1 = 1#1), ∀ (k3_h14 : k3_cond14 k3_t1 = 1#1), ∀ a, (k3_off24 v231) a + S32x128.size a ≤ S32x1000000.size a)
instance k3_chk57.dec : ∀ (k3_t1 : Fin k3_t1_loop.trips) (v231 : BitVec 32), Decidable (k3_chk57 k3_t1 v231) := fun k3_t1 v231 => decidable_of_iff' _ (Iff.of_eq (k3_chk57.eq_1 k3_t1 v231))
theorem k3_mult15_dvd : ∀ (k3_t1 : Fin k3_t1_loop.trips) (v231 : BitVec 32) (k3_hw57 : k3_chk57 k3_t1 v231), ∀ (k3_h13 : k3_cond13 k3_t1 = 1#1), ∀ (k3_h14 : k3_cond14 k3_t1 = 1#1), 128 ∣ (k3_mult15 v231).toNat := fun k3_t1 v231 k3_hw57 k3_h13 k3_h14 => k3_hw57.1 k3_h13 k3_h14
theorem k3_off24_inb : ∀ (k3_t1 : Fin k3_t1_loop.trips) (v231 : BitVec 32) (k3_hw57 : k3_chk57 k3_t1 v231), ∀ (k3_h13 : k3_cond13 k3_t1 = 1#1), ∀ (k3_h14 : k3_cond14 k3_t1 = 1#1), ∀ a, (k3_off24 v231) a + S32x128.size a ≤ S32x1000000.size a := fun k3_t1 v231 k3_hw57 k3_h13 k3_h14 => k3_hw57.2 k3_h13 k3_h14

def k3_cond15 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_92 : BitVec 32 := 8#32
  let c0_i32_93 : BitVec 32 := 0#32
  let v174 : BitVec 1 := Scalar.cmpi .eq c8_i32_92 c0_i32_93
  let c1_i32_94 : BitVec 32 := 1#32
  let v175 : BitVec 32 := Scalar.select v174 c1_i32_94 c8_i32_92
  let v176 : BitVec 32 := Scalar.remsi v77 v175
  let c0_i32_96 : BitVec 32 := 0#32
  let v178 : BitVec 1 := Scalar.cmpi .slt v176 c0_i32_96
  let c0_i32_97 : BitVec 32 := 0#32
  let v179 : BitVec 1 := Scalar.cmpi .slt v175 c0_i32_97
  let v180 : BitVec 1 := Scalar.xori v178 v179
  let c0_i32_95 : BitVec 32 := 0#32
  let v177 : BitVec 1 := Scalar.cmpi .ne v176 c0_i32_95
  let v181 : BitVec 1 := Scalar.andi v180 v177
  let v182 : BitVec 32 := Scalar.addi v176 v175
  let v183 : BitVec 32 := Scalar.select v181 v182 v176
  let c7_i32_98 : BitVec 32 := 7#32
  let v184 : BitVec 1 := Scalar.cmpi .eq v183 c7_i32_98
  let v185 : BitVec 32 := Scalar.extui v184
  let c0_i32_99 : BitVec 32 := 0#32
  let v186 : BitVec 1 := Scalar.cmpi .ne v185 c0_i32_99
  v186

def k3_chk58 (k3_t1 : Fin k3_t1_loop.trips) (v195 : IVec S16 32) (v198 : IVec S16 32) : Prop :=
  (∀ (k3_h15 : k3_cond15 k3_t1 = 1#1), ∀ a x, ((![v195, v198] : Fin 2 → IVec S16 32) a x).toNat < S32x128.size a)
instance k3_chk58.dec : ∀ (k3_t1 : Fin k3_t1_loop.trips) (v195 : IVec S16 32) (v198 : IVec S16 32), Decidable (k3_chk58 k3_t1 v195 v198) := fun k3_t1 v195 v198 => decidable_of_iff' _ (Iff.of_eq (k3_chk58.eq_1 k3_t1 v195 v198))
theorem k3_idx43_inb : ∀ (k3_t1 : Fin k3_t1_loop.trips) (v195 : IVec S16 32) (v198 : IVec S16 32) (k3_hw58 : k3_chk58 k3_t1 v195 v198), ∀ (k3_h15 : k3_cond15 k3_t1 = 1#1), ∀ a x, ((![v195, v198] : Fin 2 → IVec S16 32) a x).toNat < S32x128.size a := fun k3_t1 v195 v198 k3_hw58 k3_h15 => k3_hw58 k3_h15

def k3_chk59 (k3_t1 : Fin k3_t1_loop.trips) (v201 : IVec S16 32) : Prop :=
  (∀ (k3_h15 : k3_cond15 k3_t1 = 1#1), ∀ a x, ((![v201] : Fin 1 → IVec S16 32) a x).toNat < S2048.size a)
instance k3_chk59.dec : ∀ (k3_t1 : Fin k3_t1_loop.trips) (v201 : IVec S16 32), Decidable (k3_chk59 k3_t1 v201) := fun k3_t1 v201 => decidable_of_iff' _ (Iff.of_eq (k3_chk59.eq_1 k3_t1 v201))
theorem k3_idx44_inb : ∀ (k3_t1 : Fin k3_t1_loop.trips) (v201 : IVec S16 32) (k3_hw59 : k3_chk59 k3_t1 v201), ∀ (k3_h15 : k3_cond15 k3_t1 = 1#1), ∀ a x, ((![v201] : Fin 1 → IVec S16 32) a x).toNat < S2048.size a := fun k3_t1 v201 k3_hw59 k3_h15 => k3_hw59 k3_h15

def k3_chk60 (k3_t1 : Fin k3_t1_loop.trips) (v195 : IVec S16 32) (v207 : IVec S16 32) : Prop :=
  (∀ (k3_h15 : k3_cond15 k3_t1 = 1#1), ∀ a x, ((![v195, v207] : Fin 2 → IVec S16 32) a x).toNat < S32x512.size a)
instance k3_chk60.dec : ∀ (k3_t1 : Fin k3_t1_loop.trips) (v195 : IVec S16 32) (v207 : IVec S16 32), Decidable (k3_chk60 k3_t1 v195 v207) := fun k3_t1 v195 v207 => decidable_of_iff' _ (Iff.of_eq (k3_chk60.eq_1 k3_t1 v195 v207))
theorem k3_idx45_inb : ∀ (k3_t1 : Fin k3_t1_loop.trips) (v195 : IVec S16 32) (v207 : IVec S16 32) (k3_hw60 : k3_chk60 k3_t1 v195 v207), ∀ (k3_h15 : k3_cond15 k3_t1 = 1#1), ∀ a x, ((![v195, v207] : Fin 2 → IVec S16 32) a x).toNat < S32x512.size a := fun k3_t1 v195 v207 k3_hw60 k3_h15 => k3_hw60 k3_h15

def k3_chk61 (k3_t1 : Fin k3_t1_loop.trips) (v210 : IVec S16 32) (v213 : IVec S16 32) : Prop :=
  (∀ (k3_h15 : k3_cond15 k3_t1 = 1#1), ∀ a x, ((![v210, v213] : Fin 2 → IVec S16 32) a x).toNat < S32x128.size a)
instance k3_chk61.dec : ∀ (k3_t1 : Fin k3_t1_loop.trips) (v210 : IVec S16 32) (v213 : IVec S16 32), Decidable (k3_chk61 k3_t1 v210 v213) := fun k3_t1 v210 v213 => decidable_of_iff' _ (Iff.of_eq (k3_chk61.eq_1 k3_t1 v210 v213))
theorem k3_idx46_inb : ∀ (k3_t1 : Fin k3_t1_loop.trips) (v210 : IVec S16 32) (v213 : IVec S16 32) (k3_hw61 : k3_chk61 k3_t1 v210 v213), ∀ (k3_h15 : k3_cond15 k3_t1 = 1#1), ∀ a x, ((![v210, v213] : Fin 2 → IVec S16 32) a x).toNat < S32x128.size a := fun k3_t1 v210 v213 k3_hw61 k3_h15 => k3_hw61 k3_h15

def k3_chk62 (k3_t1 : Fin k3_t1_loop.trips) (v216 : IVec S16 32) : Prop :=
  (∀ (k3_h15 : k3_cond15 k3_t1 = 1#1), ∀ a x, ((![v216] : Fin 1 → IVec S16 32) a x).toNat < S2048.size a)
instance k3_chk62.dec : ∀ (k3_t1 : Fin k3_t1_loop.trips) (v216 : IVec S16 32), Decidable (k3_chk62 k3_t1 v216) := fun k3_t1 v216 => decidable_of_iff' _ (Iff.of_eq (k3_chk62.eq_1 k3_t1 v216))
theorem k3_idx47_inb : ∀ (k3_t1 : Fin k3_t1_loop.trips) (v216 : IVec S16 32) (k3_hw62 : k3_chk62 k3_t1 v216), ∀ (k3_h15 : k3_cond15 k3_t1 = 1#1), ∀ a x, ((![v216] : Fin 1 → IVec S16 32) a x).toNat < S2048.size a := fun k3_t1 v216 k3_hw62 k3_h15 => k3_hw62 k3_h15

def k3_chk63 (k3_t1 : Fin k3_t1_loop.trips) (v210 : IVec S16 32) (v222 : IVec S16 32) : Prop :=
  (∀ (k3_h15 : k3_cond15 k3_t1 = 1#1), ∀ a x, ((![v210, v222] : Fin 2 → IVec S16 32) a x).toNat < S32x512.size a)
instance k3_chk63.dec : ∀ (k3_t1 : Fin k3_t1_loop.trips) (v210 : IVec S16 32) (v222 : IVec S16 32), Decidable (k3_chk63 k3_t1 v210 v222) := fun k3_t1 v210 v222 => decidable_of_iff' _ (Iff.of_eq (k3_chk63.eq_1 k3_t1 v210 v222))
theorem k3_idx48_inb : ∀ (k3_t1 : Fin k3_t1_loop.trips) (v210 : IVec S16 32) (v222 : IVec S16 32) (k3_hw63 : k3_chk63 k3_t1 v210 v222), ∀ (k3_h15 : k3_cond15 k3_t1 = 1#1), ∀ a x, ((![v210, v222] : Fin 2 → IVec S16 32) a x).toNat < S32x512.size a := fun k3_t1 v210 v222 k3_hw63 k3_h15 => k3_hw63 k3_h15
def k3_cond16 (k3_t1 : Fin k3_t1_loop.trips) : BitVec 1 :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_112 : BitVec 32 := 8#32
  let v223 : BitVec 32 := Scalar.addi v77 c8_i32_112
  let c512_i32_113 : BitVec 32 := 512#32
  let v224 : BitVec 1 := Scalar.cmpi .slt v223 c512_i32_113
  let v225 : BitVec 32 := Scalar.extui v224
  let c0_i32_114 : BitVec 32 := 0#32
  let v226 : BitVec 1 := Scalar.cmpi .ne v225 c0_i32_114
  v226

def k3_off25 (k3_t1 : Fin k3_t1_loop.trips) : Fin 1 → Nat :=
  let c0_i32_40 : BitVec 32 := 0#32
  let c0_i32_36 : BitVec 32 := 0#32
  let c1_i32 : BitVec 32 := 1#32
  let arg26 : BitVec 32 := Scf.iv c0_i32_36 c1_i32 k3_t1
  let c1_i32_39 : BitVec 32 := 1#32
  let v76 : BitVec 32 := Scalar.muli arg26 c1_i32_39
  let v77 : BitVec 32 := Scalar.addi c0_i32_40 v76
  let c8_i32_115 : BitVec 32 := 8#32
  let v227 : BitVec 32 := Scalar.addi v77 c8_i32_115
  let v228 : Index := Scalar.indexCast v227
  ![v228.toNat]
def k3_mult16 (v231 : BitVec 32) : BitVec 32 :=
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  v234

def k3_off26 (v231 : BitVec 32) : Fin 2 → Nat :=
  let c0_i32_119 : BitVec 32 := 0#32
  let c7_i32_116 : BitVec 32 := 7#32
  let v232 : BitVec 32 := Scalar.shrui v231 c7_i32_116
  let c7811_i32_117 : BitVec 32 := 7811#32
  let v233 : BitVec 32 := Scalar.minsi v232 c7811_i32_117
  let c128_i32_118 : BitVec 32 := 128#32
  let v234 : BitVec 32 := Scalar.muli v233 c128_i32_118
  let v235 : BitVec 32 := v234
  ![0, v235.toNat]

def k3_chk64 (k3_t1 : Fin k3_t1_loop.trips) (v231 : BitVec 32) : Prop :=
  (∀ (k3_h15 : k3_cond15 k3_t1 = 1#1), ∀ (k3_h16 : k3_cond16 k3_t1 = 1#1), 128 ∣ (k3_mult16 v231).toNat) ∧
  (∀ (k3_h15 : k3_cond15 k3_t1 = 1#1), ∀ (k3_h16 : k3_cond16 k3_t1 = 1#1), ∀ a, (k3_off26 v231) a + S32x128.size a ≤ S32x1000000.size a)
instance k3_chk64.dec : ∀ (k3_t1 : Fin k3_t1_loop.trips) (v231 : BitVec 32), Decidable (k3_chk64 k3_t1 v231) := fun k3_t1 v231 => decidable_of_iff' _ (Iff.of_eq (k3_chk64.eq_1 k3_t1 v231))
theorem k3_mult16_dvd : ∀ (k3_t1 : Fin k3_t1_loop.trips) (v231 : BitVec 32) (k3_hw64 : k3_chk64 k3_t1 v231), ∀ (k3_h15 : k3_cond15 k3_t1 = 1#1), ∀ (k3_h16 : k3_cond16 k3_t1 = 1#1), 128 ∣ (k3_mult16 v231).toNat := fun k3_t1 v231 k3_hw64 k3_h15 k3_h16 => k3_hw64.1 k3_h15 k3_h16
theorem k3_off26_inb : ∀ (k3_t1 : Fin k3_t1_loop.trips) (v231 : BitVec 32) (k3_hw64 : k3_chk64 k3_t1 v231), ∀ (k3_h15 : k3_cond15 k3_t1 = 1#1), ∀ (k3_h16 : k3_cond16 k3_t1 = 1#1), ∀ a, (k3_off26 v231) a + S32x128.size a ≤ S32x1000000.size a := fun k3_t1 v231 k3_hw64 k3_h15 k3_h16 => k3_hw64.2 k3_h15 k3_h16

def k3_off27 (i : grid3.Coords) : Fin 2 → Nat :=
  let c0_i32_39_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S32x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S32x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S32x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S32x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2048x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  transposes_S1000000x32_S32x1000000_1_0 : S1000000x32.Transposes [1, 0] S32x1000000
  slices_S1000000x32_S64x32_999936_0 : S1000000x32.Slices ![999936, 0] S64x32
  shapeCasts_S64x32_S2048 : S64x32.ShapeCasts S2048
  inb_S528_S512_0 : ∀ a, (![0] : Fin 1 → Nat) a + S512.size a ≤ S528.size a
  inb_S528_S16_0 : ∀ a, (![0] : Fin 1 → Nat) a + S16.size a ≤ S528.size a
  h_S16 : 0 < S16.numel
  slices_S16_o0_S1 : S16.Slices ![0] S1
  inpos_S1_p0 : ∀ a, (![0] : Fin 1 → Nat) a < S1.size a
  inb_S528_S16_1 : ∀ a, (![1] : Fin 1 → Nat) a + S16.size a ≤ S528.size a
  inb_S528_S16_2 : ∀ a, (![2] : Fin 1 → Nat) a + S16.size a ≤ S528.size a
  inb_S528_S16_3 : ∀ a, (![3] : Fin 1 → Nat) a + S16.size a ≤ S528.size a
  inb_S528_S16_4 : ∀ a, (![4] : Fin 1 → Nat) a + S16.size a ≤ S528.size a
  inb_S528_S16_5 : ∀ a, (![5] : Fin 1 → Nat) a + S16.size a ≤ S528.size a
  inb_S528_S16_6 : ∀ a, (![6] : Fin 1 → Nat) a + S16.size a ≤ S528.size a
  inb_S528_S16_7 : ∀ a, (![7] : Fin 1 → Nat) a + S16.size a ≤ S528.size a
  inb_S32x1000000_S32x128_0_0 : ∀ a, (![0, 0] : Fin 2 → Nat) a + S32x128.size a ≤ S32x1000000.size a
  iota_S16_d0_w32_scVector : S16.Iotas .scVector 32 [0]
  h_S32x128 : 0 < S32x128.numel
  h_S2048 : 0 < S2048.numel
  h_S32x512 : 0 < S32x512.numel
  shapeCasts_S100000x32_S25000x128 : S100000x32.ShapeCasts S25000x128
  inb_S512_S256_0 : ∀ a, (![0] : Fin 1 → Nat) a + S256.size a ≤ S512.size a
  inb_S25000x128_S25000x128_0_0 : ∀ a, (![0, 0] : Fin 2 → Nat) a + S25000x128.size a ≤ S25000x128.size a
  gathers_S25000x128_S256x128 : S25000x128.Gathers 0 S256x128
  inb_S512_S256_256 : ∀ a, (![256] : Fin 1 → Nat) a + S256.size a ≤ S512.size a
  inb_S512_S16_0 : ∀ a, (![0] : Fin 1 → Nat) a + S16.size a ≤ S512.size a
  h_S256x128 : 0 < S256x128.numel
  h_S1x16 : 0 < S1x16.numel
  shapeCasts_S1x16_S16 : S1x16.ShapeCasts S16
  shapeCasts_S16_S1x16 : S16.ShapeCasts S1x16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  shapeCasts_S1000x32_S250x128 : S1000x32.ShapeCasts S250x128
  inb_S250x128_S250x128_0_0 : ∀ a, (![0, 0] : Fin 2 → Nat) a + S250x128.size a ≤ S250x128.size a
  gathers_S250x128_S256x128 : S250x128.Gathers 0 S256x128
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S64x128_S64x32_0_0 : ∀ a, (![0, 0] : Fin 2 → Nat) a + S64x32.size a ≤ S64x128.size a
  h_S64x32 : 0 < S64x32.numel
  broadcasts_S1x64_S2048x64 : S1x64.Broadcasts S2048x64
  inb_S64x128_S64x32_0_32 : ∀ a, (![0, 32] : Fin 2 → Nat) a + S64x32.size a ≤ S64x128.size a
  inb_S64x128_S64x32_0_64 : ∀ a, (![0, 64] : Fin 2 → Nat) a + S64x32.size a ≤ S64x128.size a
  inb_S64x128_S64x32_0_96 : ∀ a, (![0, 96] : Fin 2 → Nat) a + S64x32.size a ≤ S64x128.size a
  inb_S2048x64_S2048x64_0_0 : ∀ a, (![0, 0] : Fin 2 → Nat) a + S2048x64.size a ≤ S2048x64.size a
  h_S2048x64 : 0 < S2048x64.numel
  dot_S32x2048_S64x32_S2048x64_0_1_1_0_n_n_wf : DotDims.WF S32x2048 S64x32 S2048x64 [0] [1] [1] [0] [] []
  hcc0_scratch11 : 0 + S_.numel ≤ 42
  hcc0_scratch12 : 1 + S_.numel ≤ 42
  hcc0_scratch13 : 2 + S_.numel ≤ 42
  hcc0_scratch14 : 3 + S_.numel ≤ 42
  hcc0_scratch15 : 4 + S_.numel ≤ 42
  hcc0_scratch16 : 5 + S_.numel ≤ 42
  hcc0_scratch17 : 6 + S_.numel ≤ 42
  hcc0_scratch18 : 7 + S_.numel ≤ 42
  hcc0_scratch19 : 8 + S_.numel ≤ 42
  hcc0_scoped0 : 9 + S_.numel ≤ 42
  hcc0_scoped1 : 10 + S_.numel ≤ 42
  hcc1_scratch5 : 11 + S_.numel ≤ 42
  hcc1_scratch6 : 12 + S_.numel ≤ 42
  hcc1_scoped0 : 13 + S_.numel ≤ 42
  hcc1_scoped1 : 14 + S_.numel ≤ 42
  hcc2_scratch5 : 15 + S_.numel ≤ 42
  hcc2_scratch6 : 16 + S_.numel ≤ 42
  hcc2_scoped0 : 17 + S_.numel ≤ 42
  hcc2_scoped1 : 18 + S_.numel ≤ 42
  hcc3_scratch11 : 19 + S_.numel ≤ 42
  hcc3_scratch12 : 20 + S_.numel ≤ 42
  hcc3_scratch13 : 21 + S_.numel ≤ 42
  hcc3_scratch14 : 22 + S_.numel ≤ 42
  hcc3_scratch15 : 23 + S_.numel ≤ 42
  hcc3_scratch16 : 24 + S_.numel ≤ 42
  hcc3_scratch17 : 25 + S_.numel ≤ 42
  hcc3_scratch18 : 26 + S_.numel ≤ 42
  hcc3_scratch19 : 27 + S_.numel ≤ 42
  hcc3_scoped0 : 28 + S_.numel ≤ 42
  hcc3_scoped1 : 29 + S_.numel ≤ 42
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off10_inb : ∀ k0_t1 : Fin k0_t1_loop.trips, ∀ a, (k0_off10 k0_t1) a + S16.size a ≤ S528.size a
  k0_off11_inb : ∀ k0_t1 : Fin k0_t1_loop.trips, ∀ (k0_h1 : k0_cond1 k0_t1 = 1#1), ∀ (k0_h2 : k0_cond2 k0_t1 = 1#1), ∀ a, (k0_off11 k0_t1) a + S16.size a ≤ S528.size a
  k0_off13_inb : ∀ k0_t1 : Fin k0_t1_loop.trips, ∀ (k0_h3 : k0_cond3 k0_t1 = 1#1), ∀ (k0_h4 : k0_cond4 k0_t1 = 1#1), ∀ a, (k0_off13 k0_t1) a + S16.size a ≤ S528.size a
  k0_off15_inb : ∀ k0_t1 : Fin k0_t1_loop.trips, ∀ (k0_h5 : k0_cond5 k0_t1 = 1#1), ∀ (k0_h6 : k0_cond6 k0_t1 = 1#1), ∀ a, (k0_off15 k0_t1) a + S16.size a ≤ S528.size a
  k0_off17_inb : ∀ k0_t1 : Fin k0_t1_loop.trips, ∀ (k0_h7 : k0_cond7 k0_t1 = 1#1), ∀ (k0_h8 : k0_cond8 k0_t1 = 1#1), ∀ a, (k0_off17 k0_t1) a + S16.size a ≤ S528.size a
  k0_off19_inb : ∀ k0_t1 : Fin k0_t1_loop.trips, ∀ (k0_h9 : k0_cond9 k0_t1 = 1#1), ∀ (k0_h10 : k0_cond10 k0_t1 = 1#1), ∀ a, (k0_off19 k0_t1) a + S16.size a ≤ S528.size a
  k0_off21_inb : ∀ k0_t1 : Fin k0_t1_loop.trips, ∀ (k0_h11 : k0_cond11 k0_t1 = 1#1), ∀ (k0_h12 : k0_cond12 k0_t1 = 1#1), ∀ a, (k0_off21 k0_t1) a + S16.size a ≤ S528.size a
  k0_off23_inb : ∀ k0_t1 : Fin k0_t1_loop.trips, ∀ (k0_h13 : k0_cond13 k0_t1 = 1#1), ∀ (k0_h14 : k0_cond14 k0_t1 = 1#1), ∀ a, (k0_off23 k0_t1) a + S16.size a ≤ S528.size a
  k0_off25_inb : ∀ k0_t1 : Fin k0_t1_loop.trips, ∀ (k0_h15 : k0_cond15 k0_t1 = 1#1), ∀ (k0_h16 : k0_cond16 k0_t1 = 1#1), ∀ a, (k0_off25 k0_t1) a + S16.size a ≤ S528.size a
  k0_off27_inb : ∀ i : grid0.Coords, ∀ a, (k0_off27 i) a + S32x512.size a ≤ S32x16384.size a
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ a, (k1_off2 k1_t1) a + S16.size a ≤ S512.size a
  k1_t2_ok : k1_t2_loop.OK
  k1_off3_inb : ∀ k1_t2 : Fin k1_t2_loop.trips, ∀ a, (k1_off3 k1_t2) a + S1x16.size a ≤ S32x512.size a
  k1_off4_inb : ∀ k1_t2 : Fin k1_t2_loop.trips, ∀ a, (k1_off4 k1_t2) a + S1x16.size a ≤ S32x512.size a
  k1_off5_inb : ∀ k1_t2 : Fin k1_t2_loop.trips, ∀ a, (k1_off5 k1_t2) a + S1x16.size a ≤ S32x512.size a
  k1_off6_inb : ∀ k1_t2 : Fin k1_t2_loop.trips, ∀ a, (k1_off6 k1_t2) a + S1x16.size a ≤ S32x512.size a
  k1_off7_inb : ∀ k1_t2 : Fin k1_t2_loop.trips, ∀ a, (k1_off7 k1_t2) a + S1x16.size a ≤ S32x512.size a
  k1_off8_inb : ∀ k1_t2 : Fin k1_t2_loop.trips, ∀ a, (k1_off8 k1_t2) a + S1x16.size a ≤ S32x512.size a
  k1_off9_inb : ∀ k1_t2 : Fin k1_t2_loop.trips, ∀ a, (k1_off9 k1_t2) a + S1x16.size a ≤ S32x512.size a
  k1_off10_inb : ∀ k1_t2 : Fin k1_t2_loop.trips, ∀ a, (k1_off10 k1_t2) a + S1x16.size a ≤ S32x512.size a
  k1_off11_inb : ∀ k1_t2 : Fin k1_t2_loop.trips, ∀ a, (k1_off11 k1_t2) a + S1x16.size a ≤ S32x512.size a
  k1_off12_inb : ∀ k1_t2 : Fin k1_t2_loop.trips, ∀ a, (k1_off12 k1_t2) a + S1x16.size a ≤ S32x512.size a
  k1_off13_inb : ∀ k1_t2 : Fin k1_t2_loop.trips, ∀ a, (k1_off13 k1_t2) a + S1x16.size a ≤ S32x512.size a
  k1_off14_inb : ∀ k1_t2 : Fin k1_t2_loop.trips, ∀ a, (k1_off14 k1_t2) a + S1x16.size a ≤ S32x512.size a
  k1_off15_inb : ∀ k1_t2 : Fin k1_t2_loop.trips, ∀ a, (k1_off15 k1_t2) a + S1x16.size a ≤ S32x512.size a
  k1_off16_inb : ∀ k1_t2 : Fin k1_t2_loop.trips, ∀ a, (k1_off16 k1_t2) a + S1x16.size a ≤ S32x512.size a
  k1_off17_inb : ∀ k1_t2 : Fin k1_t2_loop.trips, ∀ a, (k1_off17 k1_t2) a + S1x16.size a ≤ S32x512.size a
  k1_off18_inb : ∀ k1_t2 : Fin k1_t2_loop.trips, ∀ a, (k1_off18 k1_t2) a + S1x16.size a ≤ S32x512.size a
  k1_t3_ok : k1_t3_loop.OK
  k1_off19_inb : ∀ k1_t3 : Fin k1_t3_loop.trips, ∀ a, (k1_off19 k1_t3) a + S1x16.size a ≤ S32x512.size a
  k1_off20_inb : ∀ k1_t3 : Fin k1_t3_loop.trips, ∀ a, (k1_off20 k1_t3) a + S1x16.size a ≤ S32x512.size a
  k1_off21_inb : ∀ k1_t3 : Fin k1_t3_loop.trips, ∀ a, (k1_off21 k1_t3) a + S1x16.size a ≤ S32x512.size a
  k1_off22_inb : ∀ k1_t3 : Fin k1_t3_loop.trips, ∀ a, (k1_off22 k1_t3) a + S1x16.size a ≤ S32x512.size a
  k1_off23_inb : ∀ k1_t3 : Fin k1_t3_loop.trips, ∀ a, (k1_off23 k1_t3) a + S1x16.size a ≤ S32x512.size a
  k1_off24_inb : ∀ k1_t3 : Fin k1_t3_loop.trips, ∀ a, (k1_off24 k1_t3) a + S1x16.size a ≤ S32x512.size a
  k1_off25_inb : ∀ k1_t3 : Fin k1_t3_loop.trips, ∀ a, (k1_off25 k1_t3) a + S1x16.size a ≤ S32x512.size a
  k1_off26_inb : ∀ k1_t3 : Fin k1_t3_loop.trips, ∀ a, (k1_off26 k1_t3) a + S1x16.size a ≤ S32x512.size a
  k1_off27_inb : ∀ k1_t3 : Fin k1_t3_loop.trips, ∀ a, (k1_off27 k1_t3) a + S1x16.size a ≤ S32x512.size a
  k1_off28_inb : ∀ k1_t3 : Fin k1_t3_loop.trips, ∀ a, (k1_off28 k1_t3) a + S1x16.size a ≤ S32x512.size a
  k1_off29_inb : ∀ k1_t3 : Fin k1_t3_loop.trips, ∀ a, (k1_off29 k1_t3) a + S1x16.size a ≤ S32x512.size a
  k1_off30_inb : ∀ k1_t3 : Fin k1_t3_loop.trips, ∀ a, (k1_off30 k1_t3) a + S1x16.size a ≤ S32x512.size a
  k1_off31_inb : ∀ k1_t3 : Fin k1_t3_loop.trips, ∀ a, (k1_off31 k1_t3) a + S1x16.size a ≤ S32x512.size a
  k1_off32_inb : ∀ k1_t3 : Fin k1_t3_loop.trips, ∀ a, (k1_off32 k1_t3) a + S1x16.size a ≤ S32x512.size a
  k1_off33_inb : ∀ k1_t3 : Fin k1_t3_loop.trips, ∀ a, (k1_off33 k1_t3) a + S1x16.size a ≤ S32x512.size a
  k1_off34_inb : ∀ k1_t3 : Fin k1_t3_loop.trips, ∀ a, (k1_off34 k1_t3) a + S1x16.size a ≤ S32x512.size a
  k1_off35_inb : ∀ i : grid1.Coords, ∀ a, (k1_off35 i) a + S32x512.size a ≤ S32x16384.size a
  hcore2 : grid2.bound 0 ≤ τ.nSC
  hsub2 : grid2.bound 1 ≤ τ.nSub
  k2_off1_inb : ∀ i : grid2.Coords, ∀ a, (k2_off1 i) a + S512.size a ≤ S16384.size a
  k2_t1_ok : k2_t1_loop.OK
  k2_off2_inb : ∀ k2_t1 : Fin k2_t1_loop.trips, ∀ a, (k2_off2 k2_t1) a + S16.size a ≤ S512.size a
  k2_t2_ok : k2_t2_loop.OK
  k2_off3_inb : ∀ k2_t2 : Fin k2_t2_loop.trips, ∀ a, (k2_off3 k2_t2) a + S1x16.size a ≤ S32x512.size a
  k2_off4_inb : ∀ k2_t2 : Fin k2_t2_loop.trips, ∀ a, (k2_off4 k2_t2) a + S1x16.size a ≤ S32x512.size a
  k2_off5_inb : ∀ k2_t2 : Fin k2_t2_loop.trips, ∀ a, (k2_off5 k2_t2) a + S1x16.size a ≤ S32x512.size a
  k2_off6_inb : ∀ k2_t2 : Fin k2_t2_loop.trips, ∀ a, (k2_off6 k2_t2) a + S1x16.size a ≤ S32x512.size a
  k2_off7_inb : ∀ k2_t2 : Fin k2_t2_loop.trips, ∀ a, (k2_off7 k2_t2) a + S1x16.size a ≤ S32x512.size a
  k2_off8_inb : ∀ k2_t2 : Fin k2_t2_loop.trips, ∀ a, (k2_off8 k2_t2) a + S1x16.size a ≤ S32x512.size a
  k2_off9_inb : ∀ k2_t2 : Fin k2_t2_loop.trips, ∀ a, (k2_off9 k2_t2) a + S1x16.size a ≤ S32x512.size a
  k2_off10_inb : ∀ k2_t2 : Fin k2_t2_loop.trips, ∀ a, (k2_off10 k2_t2) a + S1x16.size a ≤ S32x512.size a
  k2_off11_inb : ∀ k2_t2 : Fin k2_t2_loop.trips, ∀ a, (k2_off11 k2_t2) a + S1x16.size a ≤ S32x512.size a
  k2_off12_inb : ∀ k2_t2 : Fin k2_t2_loop.trips, ∀ a, (k2_off12 k2_t2) a + S1x16.size a ≤ S32x512.size a
  k2_off13_inb : ∀ k2_t2 : Fin k2_t2_loop.trips, ∀ a, (k2_off13 k2_t2) a + S1x16.size a ≤ S32x512.size a
  k2_off14_inb : ∀ k2_t2 : Fin k2_t2_loop.trips, ∀ a, (k2_off14 k2_t2) a + S1x16.size a ≤ S32x512.size a
  k2_off15_inb : ∀ k2_t2 : Fin k2_t2_loop.trips, ∀ a, (k2_off15 k2_t2) a + S1x16.size a ≤ S32x512.size a
  k2_off16_inb : ∀ k2_t2 : Fin k2_t2_loop.trips, ∀ a, (k2_off16 k2_t2) a + S1x16.size a ≤ S32x512.size a
  k2_off17_inb : ∀ k2_t2 : Fin k2_t2_loop.trips, ∀ a, (k2_off17 k2_t2) a + S1x16.size a ≤ S32x512.size a
  k2_off18_inb : ∀ k2_t2 : Fin k2_t2_loop.trips, ∀ a, (k2_off18 k2_t2) a + S1x16.size a ≤ S32x512.size a
  k2_t3_ok : k2_t3_loop.OK
  k2_off19_inb : ∀ k2_t3 : Fin k2_t3_loop.trips, ∀ a, (k2_off19 k2_t3) a + S1x16.size a ≤ S32x512.size a
  k2_off20_inb : ∀ k2_t3 : Fin k2_t3_loop.trips, ∀ a, (k2_off20 k2_t3) a + S1x16.size a ≤ S32x512.size a
  k2_off21_inb : ∀ k2_t3 : Fin k2_t3_loop.trips, ∀ a, (k2_off21 k2_t3) a + S1x16.size a ≤ S32x512.size a
  k2_off22_inb : ∀ k2_t3 : Fin k2_t3_loop.trips, ∀ a, (k2_off22 k2_t3) a + S1x16.size a ≤ S32x512.size a
  k2_off23_inb : ∀ k2_t3 : Fin k2_t3_loop.trips, ∀ a, (k2_off23 k2_t3) a + S1x16.size a ≤ S32x512.size a
  k2_off24_inb : ∀ k2_t3 : Fin k2_t3_loop.trips, ∀ a, (k2_off24 k2_t3) a + S1x16.size a ≤ S32x512.size a
  k2_off25_inb : ∀ k2_t3 : Fin k2_t3_loop.trips, ∀ a, (k2_off25 k2_t3) a + S1x16.size a ≤ S32x512.size a
  k2_off26_inb : ∀ k2_t3 : Fin k2_t3_loop.trips, ∀ a, (k2_off26 k2_t3) a + S1x16.size a ≤ S32x512.size a
  k2_off27_inb : ∀ k2_t3 : Fin k2_t3_loop.trips, ∀ a, (k2_off27 k2_t3) a + S1x16.size a ≤ S32x512.size a
  k2_off28_inb : ∀ k2_t3 : Fin k2_t3_loop.trips, ∀ a, (k2_off28 k2_t3) a + S1x16.size a ≤ S32x512.size a
  k2_off29_inb : ∀ k2_t3 : Fin k2_t3_loop.trips, ∀ a, (k2_off29 k2_t3) a + S1x16.size a ≤ S32x512.size a
  k2_off30_inb : ∀ k2_t3 : Fin k2_t3_loop.trips, ∀ a, (k2_off30 k2_t3) a + S1x16.size a ≤ S32x512.size a
  k2_off31_inb : ∀ k2_t3 : Fin k2_t3_loop.trips, ∀ a, (k2_off31 k2_t3) a + S1x16.size a ≤ S32x512.size a
  k2_off32_inb : ∀ k2_t3 : Fin k2_t3_loop.trips, ∀ a, (k2_off32 k2_t3) a + S1x16.size a ≤ S32x512.size a
  k2_off33_inb : ∀ k2_t3 : Fin k2_t3_loop.trips, ∀ a, (k2_off33 k2_t3) a + S1x16.size a ≤ S32x512.size a
  k2_off34_inb : ∀ k2_t3 : Fin k2_t3_loop.trips, ∀ a, (k2_off34 k2_t3) a + S1x16.size a ≤ S32x512.size a
  k2_off35_inb : ∀ i : grid2.Coords, ∀ a, (k2_off35 i) a + S32x512.size a ≤ S32x16384.size a
  hcore3 : grid3.bound 0 ≤ τ.nSC
  hsub3 : grid3.bound 1 ≤ τ.nSub
  k3_off1_inb : ∀ i : grid3.Coords, ∀ a, (k3_off1 i) a + S512.size a ≤ S16384.size a
  k3_t1_ok : k3_t1_loop.OK
  k3_off10_inb : ∀ k3_t1 : Fin k3_t1_loop.trips, ∀ a, (k3_off10 k3_t1) a + S16.size a ≤ S528.size a
  k3_off11_inb : ∀ k3_t1 : Fin k3_t1_loop.trips, ∀ (k3_h1 : k3_cond1 k3_t1 = 1#1), ∀ (k3_h2 : k3_cond2 k3_t1 = 1#1), ∀ a, (k3_off11 k3_t1) a + S16.size a ≤ S528.size a
  k3_off13_inb : ∀ k3_t1 : Fin k3_t1_loop.trips, ∀ (k3_h3 : k3_cond3 k3_t1 = 1#1), ∀ (k3_h4 : k3_cond4 k3_t1 = 1#1), ∀ a, (k3_off13 k3_t1) a + S16.size a ≤ S528.size a
  k3_off15_inb : ∀ k3_t1 : Fin k3_t1_loop.trips, ∀ (k3_h5 : k3_cond5 k3_t1 = 1#1), ∀ (k3_h6 : k3_cond6 k3_t1 = 1#1), ∀ a, (k3_off15 k3_t1) a + S16.size a ≤ S528.size a
  k3_off17_inb : ∀ k3_t1 : Fin k3_t1_loop.trips, ∀ (k3_h7 : k3_cond7 k3_t1 = 1#1), ∀ (k3_h8 : k3_cond8 k3_t1 = 1#1), ∀ a, (k3_off17 k3_t1) a + S16.size a ≤ S528.size a
  k3_off19_inb : ∀ k3_t1 : Fin k3_t1_loop.trips, ∀ (k3_h9 : k3_cond9 k3_t1 = 1#1), ∀ (k3_h10 : k3_cond10 k3_t1 = 1#1), ∀ a, (k3_off19 k3_t1) a + S16.size a ≤ S528.size a
  k3_off21_inb : ∀ k3_t1 : Fin k3_t1_loop.trips, ∀ (k3_h11 : k3_cond11 k3_t1 = 1#1), ∀ (k3_h12 : k3_cond12 k3_t1 = 1#1), ∀ a, (k3_off21 k3_t1) a + S16.size a ≤ S528.size a
  k3_off23_inb : ∀ k3_t1 : Fin k3_t1_loop.trips, ∀ (k3_h13 : k3_cond13 k3_t1 = 1#1), ∀ (k3_h14 : k3_cond14 k3_t1 = 1#1), ∀ a, (k3_off23 k3_t1) a + S16.size a ≤ S528.size a
  k3_off25_inb : ∀ k3_t1 : Fin k3_t1_loop.trips, ∀ (k3_h15 : k3_cond15 k3_t1 = 1#1), ∀ (k3_h16 : k3_cond16 k3_t1 = 1#1), ∀ a, (k3_off25 k3_t1) a + S16.size a ≤ S528.size a
  k3_off27_inb : ∀ i : grid3.Coords, ∀ a, (k3_off27 i) a + S32x512.size a ≤ S32x16384.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x2048.size a ≤ S32x16384.size a
  hwx4_0 : ∀ i : grid4.Coords, EltTy.bits .f32 = 32 ∨ (Rect.block (s := S32x16384) S32x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S32x2048.size a ≤ S32x16384.size a
  hwx4_1 : ∀ i : grid4.Coords, EltTy.bits .f32 = 32 ∨ (Rect.block (s := S32x16384) S32x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S32x2048.size a ≤ S32x16384.size a
  hwx4_2 : ∀ i : grid4.Coords, EltTy.bits .f32 = 32 ∨ (Rect.block (s := S32x16384) S32x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S32x2048.size a ≤ S32x16384.size a
  hwx4_3 : ∀ i : grid4.Coords, EltTy.bits .f32 = 32 ∨ (Rect.block (s := S32x16384) S32x2048.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S64x128.size a
  hwx4_4 : ∀ i : grid4.Coords, EltTy.bits .f32 = 32 ∨ (Rect.block (s := S64x128) S64x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x64.size a ≤ S16384x64.size a
  hwx4_6 : ∀ i : grid4.Coords, EltTy.bits .f32 = 32 ∨ (Rect.block (s := S16384x64) S2048x64.size (cc4_transform_6 i) (hinb4_6 i)).WholeWords (EltTy.packing .f32)

variable [Facts₀]

abbrev cc0_scratch11 : DmaSems sig S_ := SemArray.consecutive 0 S_ hcc0_scratch11
abbrev cc0_scratch12 : DmaSems sig S_ := SemArray.consecutive 1 S_ hcc0_scratch12
abbrev cc0_scratch13 : DmaSems sig S_ := SemArray.consecutive 2 S_ hcc0_scratch13
abbrev cc0_scratch14 : DmaSems sig S_ := SemArray.consecutive 3 S_ hcc0_scratch14
abbrev cc0_scratch15 : DmaSems sig S_ := SemArray.consecutive 4 S_ hcc0_scratch15
abbrev cc0_scratch16 : DmaSems sig S_ := SemArray.consecutive 5 S_ hcc0_scratch16
abbrev cc0_scratch17 : DmaSems sig S_ := SemArray.consecutive 6 S_ hcc0_scratch17
abbrev cc0_scratch18 : DmaSems sig S_ := SemArray.consecutive 7 S_ hcc0_scratch18
abbrev cc0_scratch19 : DmaSems sig S_ := SemArray.consecutive 8 S_ hcc0_scratch19
abbrev cc0_scoped0 : DmaSems sig S_ := SemArray.consecutive 9 S_ hcc0_scoped0
abbrev cc0_scoped1 : DmaSems sig S_ := SemArray.consecutive 10 S_ hcc0_scoped1
abbrev cc1_scratch5 : DmaSems sig S_ := SemArray.consecutive 11 S_ hcc1_scratch5
abbrev cc1_scratch6 : DmaSems sig S_ := SemArray.consecutive 12 S_ hcc1_scratch6
abbrev cc1_scoped0 : DmaSems sig S_ := SemArray.consecutive 13 S_ hcc1_scoped0
abbrev cc1_scoped1 : DmaSems sig S_ := SemArray.consecutive 14 S_ hcc1_scoped1
abbrev cc2_scratch5 : DmaSems sig S_ := SemArray.consecutive 15 S_ hcc2_scratch5
abbrev cc2_scratch6 : DmaSems sig S_ := SemArray.consecutive 16 S_ hcc2_scratch6
abbrev cc2_scoped0 : DmaSems sig S_ := SemArray.consecutive 17 S_ hcc2_scoped0
abbrev cc2_scoped1 : DmaSems sig S_ := SemArray.consecutive 18 S_ hcc2_scoped1
abbrev cc3_scratch11 : DmaSems sig S_ := SemArray.consecutive 19 S_ hcc3_scratch11
abbrev cc3_scratch12 : DmaSems sig S_ := SemArray.consecutive 20 S_ hcc3_scratch12
abbrev cc3_scratch13 : DmaSems sig S_ := SemArray.consecutive 21 S_ hcc3_scratch13
abbrev cc3_scratch14 : DmaSems sig S_ := SemArray.consecutive 22 S_ hcc3_scratch14
abbrev cc3_scratch15 : DmaSems sig S_ := SemArray.consecutive 23 S_ hcc3_scratch15
abbrev cc3_scratch16 : DmaSems sig S_ := SemArray.consecutive 24 S_ hcc3_scratch16
abbrev cc3_scratch17 : DmaSems sig S_ := SemArray.consecutive 25 S_ hcc3_scratch17
abbrev cc3_scratch18 : DmaSems sig S_ := SemArray.consecutive 26 S_ hcc3_scratch18
abbrev cc3_scratch19 : DmaSems sig S_ := SemArray.consecutive 27 S_ hcc3_scratch19
abbrev cc3_scoped0 : DmaSems sig S_ := SemArray.consecutive 28 S_ hcc3_scoped0
abbrev cc3_scoped1 : DmaSems sig S_ := SemArray.consecutive 29 S_ hcc3_scoped1
def dot_S32x2048_S64x32_S2048x64_0_1_1_0_n_n : DotDims S32x2048 S64x32 S2048x64 where
  lhsContracting := [0]
  rhsContracting := [1]
  lhsNonContracting := [1]
  rhsNonContracting := [0]
  lhsBatch := []
  rhsBatch := []
  wf := dot_S32x2048_S64x32_S2048x64_0_1_1_0_n_n_wf

abbrev win4_0 : Pipeline.Window sig grid4 :=
  Pipeline.Window.ofSpec (Memref.whole main_v3) S32x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S32x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S32x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S32x2048.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S64x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v12) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v13) S2048x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S16384 : Shape := ⟨1, ![16384]⟩
abbrev S1000000x32 : Shape := ⟨2, ![1000000, 32]⟩
abbrev S100000x32 : Shape := ⟨2, ![100000, 32]⟩
abbrev S1000x32 : Shape := ⟨2, ![1000, 32]⟩
abbrev S64x128 : Shape := ⟨2, ![64, 128]⟩
abbrev S64 : Shape := ⟨1, ![64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x128 : Shape := ⟨2, ![16384, 128]⟩
abbrev S128x64 : Shape := ⟨2, ![128, 64]⟩
abbrev S16384x64 : Shape := ⟨2, ![16384, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S1000000x32, .f32⟩
  | .hbm, ⟨5, _⟩ => ⟨S100000x32, .f32⟩
  | .hbm, ⟨6, _⟩ => ⟨S1000x32, .f32⟩
  | .hbm, ⟨7, _⟩ => ⟨S1000000x32, .f32⟩
  | .hbm, ⟨8, _⟩ => ⟨S64x128, .f32⟩
  | .hbm, ⟨9, _⟩ => ⟨S64, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x32, .f32⟩
  | .hbm, ⟨29, _⟩ => ⟨S16384x32, .i1⟩
  | .hbm, ⟨30, _⟩ => ⟨S_, .f32⟩
  | .hbm, ⟨31, _⟩ => ⟨S16384x32, .f32⟩
  | .hbm, ⟨32, _⟩ => ⟨S16384x32, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x32, .f32⟩
  | .hbm, ⟨52, _⟩ => ⟨S16384x32, .i1⟩
  | .hbm, ⟨53, _⟩ => ⟨S_, .f32⟩
  | .hbm, ⟨54, _⟩ => ⟨S16384x32, .f32⟩
  | .hbm, ⟨55, _⟩ => ⟨S16384x32, .f32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384x32, .f32⟩
  | .hbm, ⟨75, _⟩ => ⟨S16384x32, .i1⟩
  | .hbm, ⟨76, _⟩ => ⟨S_, .f32⟩
  | .hbm, ⟨77, _⟩ => ⟨S16384x32, .f32⟩
  | .hbm, ⟨78, _⟩ => ⟨S16384x32, .f32⟩
  | .hbm, ⟨79, _⟩ => ⟨S_, .i32⟩
  | .hbm, ⟨80, _⟩ => ⟨S16384, .i32⟩
  | .hbm, ⟨81, _⟩ => ⟨S16384, .i1⟩
  | .hbm, ⟨82, _⟩ => ⟨S_, .i32⟩
  | .hbm, ⟨83, _⟩ => ⟨S16384, .i32⟩
  | .hbm, ⟨84, _⟩ => ⟨S16384, .i32⟩
  | .hbm, ⟨85, _⟩ => ⟨S16384, .i32⟩
  | .hbm, ⟨86, _⟩ => ⟨S16384x1, .i32⟩
  | .hbm, ⟨87, _⟩ => ⟨S1, .i32⟩
  | .hbm, ⟨88, _⟩ => ⟨S_, .i32⟩
  | .hbm, ⟨89, _⟩ => ⟨S16384x1, .i32⟩
  | .hbm, ⟨90, _⟩ => ⟨S16384x1, .i1⟩
  | .hbm, ⟨91, _⟩ => ⟨S1x1, .i32⟩
  | .hbm, ⟨92, _⟩ => ⟨S16384x1, .i32⟩
  | .hbm, ⟨93, _⟩ => ⟨S16384x1, .i1⟩
  | .hbm, ⟨94, _⟩ => ⟨S16384x1, .i1⟩
  | .hbm, ⟨95, _⟩ => ⟨S_, .i1⟩
  | .hbm, ⟨96, _⟩ => ⟨S16384, .i1⟩
  | .hbm, ⟨97, _⟩ => ⟨S16384x32, .f32⟩
  | .hbm, ⟨98, _⟩ => ⟨S16384x32, .i1⟩
  | .hbm, ⟨99, _⟩ => ⟨S_, .f32⟩
  | .hbm, ⟨100, _⟩ => ⟨S16384x32, .f32⟩
  | .hbm, ⟨101, _⟩ => ⟨S16384x32, .f32⟩
  | .hbm, ⟨102, _⟩ => ⟨S16384x128, .f32⟩
  | .hbm, ⟨103, _⟩ => ⟨S128x64, .f32⟩
  | .hbm, ⟨104, _⟩ => ⟨S16384x64, .f32⟩
  | .hbm, ⟨105, _⟩ => ⟨S1x64, .f32⟩
  | .hbm, ⟨106, _⟩ => ⟨S16384x64, .f32⟩
  | .hbm, ⟨107, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v2 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v3 : Ref sig .tc := ⟨.hbm, 101, rfl⟩
abbrev main_v4 : Ref sig .tc := ⟨.hbm, 102, rfl⟩
abbrev main_v5 : Ref sig .tc := ⟨.hbm, 103, rfl⟩
abbrev main_v6 : Ref sig .tc := ⟨.hbm, 104, rfl⟩
abbrev main_v7 : Ref sig .tc := ⟨.hbm, 105, rfl⟩
abbrev main_v8 : Ref sig .tc := ⟨.hbm, 106, rfl⟩
abbrev main_v9 : Ref sig .tc := ⟨.hbm, 107, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  concatenates_S16384x32_S16384x32_S16384x32_S16384x32_S16384x128_d1 : Shape.Concatenates [S16384x32, S16384x32, S16384x32, S16384x32] S16384x128 1
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  gather_S1000000x32_S16384x1_S16384x32_1_0_n_n_0_1_132_wf : GatherDims.WF S1000000x32 S16384x1 S16384x32 [1] [0] [] [0] [] 1 ![1, 32]
  gather_S100000x32_S16384x1_S16384x32_1_0_n_n_0_1_132_wf : GatherDims.WF S100000x32 S16384x1 S16384x32 [1] [0] [] [0] [] 1 ![1, 32]
  gather_S1000x32_S16384x1_S16384x32_1_0_n_n_0_1_132_wf : GatherDims.WF S1000x32 S16384x1 S16384x32 [1] [0] [] [0] [] 1 ![1, 32]
  dot_S16384x128_S128x64_S16384x64_1_0_0_1_n_n_wf : DotDims.WF S16384x128 S128x64 S16384x64 [1] [0] [0] [1] [] []

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def gather_S100000x32_S16384x1_S16384x32_1_0_n_n_0_1_132 : GatherDims S100000x32 S16384x1 S16384x32 where
  offsetDims := [1]
  collapsedSliceDims := [0]
  operandBatchingDims := []
  startIndicesBatchingDims := []
  startIndexMap := [0]
  indexVectorDim := 1
  sliceSizes := ![1, 32]
  wf := gather_S100000x32_S16384x1_S16384x32_1_0_n_n_0_1_132_wf
def gather_S1000x32_S16384x1_S16384x32_1_0_n_n_0_1_132 : GatherDims S1000x32 S16384x1 S16384x32 where
  offsetDims := [1]
  collapsedSliceDims := [0]
  operandBatchingDims := []
  startIndicesBatchingDims := []
  startIndexMap := [0]
  indexVectorDim := 1
  sliceSizes := ![1, 32]
  wf := gather_S1000x32_S16384x1_S16384x32_1_0_n_n_0_1_132_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.CommonI.lean ====
/-
  The launch set-up shared by every module of this proof: the program as the launch theorem reads it (its SparseCore
  configuration, its body table, the variants), the launch theorem's side facts about the four handshake semaphores,
  and the ghost state — the handshakes' rounds, the rounds of the TensorCore pipeline's staging cells, and a copy of the
  exclusive counters, which is all that transfers a thread issues and waits for on semaphores of its own need.
-/
import proofs.«204991_g57140244906297_cont_9to1_m_249_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204991_g57140244906297_cont_9to1_m_249_19_alg».proof.Proof.Gen.KernelIdeal

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × (UR sig nD τ × Counters)

/-- The handshakes' rounds, the left factor; the TensorCore pipeline's staging cells, the middle one; the transfers'
    counters are found by instance in the right. -/
abbrev EH : Emb UH (MT nD τ sig (HIx 4) (Elt F) ℕ UU ℕ) := embL
abbrev EP : Emb (UR sig nD τ) (MT nD τ sig (HIx 4) (Elt F) ℕ UU ℕ) :=
  (Emb.inl : Emb (UR sig nD τ) (UR sig nD τ × Counters)).trans embR
instance EP_landsIn : (EP (F := F)).LandsIn (upEmb : UEmb _ (MT nD τ sig (HIx 4) (Elt F) ℕ UU ℕ)) := by unfold EP; infer_instance

theorem nSub_eq (q : Fin 4) : (K (F := F)).nSub q = 16 := by fin_cases q <;> rfl
theorem nCore_eq (q : Fin 4) : (K (F := F)).nCore q = 2 := by fin_cases q <;> rfl

end Cert.Proof.KernelIdealC

end
-- ==== Proof.LibRowOps.lean ====
/-
  Rows gathered and rows accumulated, read at an index.

  A table `x : [N, C]` (or `[N, A, B]`) gathered at a column of start indices `idx : [E, 1]` — what `x[idx]` of a table of rows
  lowers to — has at `(e, j)` the entry `x (row e, j)`, where `row e` is the start index read signed and clamped into
  `[0, N − 1]`.  Dually, accumulating updates `u : [E, C]` into a table at a column of scatter indices gives at `(n, j)` the
  table's entry plus the sum of `u (e, j)` over the edges `e` whose index, read signed, is exactly `n` (an index outside
  `[0, N)` names no row and its update is dropped).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-- The row a start-index word names: read signed, clamped into `[0, N − 1]`. -/
def rowOf {w : Nat} (N : Nat) (hN : 0 < N) (v : BitVec w) : Fin N := ⟨min v.toInt.toNat (N - 1), by omega⟩

section Gather2
variable {α : Type}

/-- The dimension numbers of a row gather from `[N, C]` at `[E, 1]` start indices. -/
abbrev rowDims2 (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gathered table at `(e, j)` is the table at `(row e, j)`. -/
theorem gather_row2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims2 N C E wf) x idx (ix2 e j) = x (ix2 (rowOf N hN (idx (ix2 e 0))) j) := by
  unfold Host.gather
  congr 1
  funext a
  refine Fin.ext ?_
  show (rowDims2 N C E wf).start (ix2 e j) idx a + (rowDims2 N C E wf).batchCoord (ix2 e j) a
    + (rowDims2 N C E wf).offCoord (ix2 e j) a = _
  rw [GatherDims.batchCoord_eq_zero _ _ _ List.not_mem_nil]
  have ha : a = 0 ∨ a = 1 := by
    rcases a with ⟨v, hv⟩
    have hv2 : v < 2 := hv
    interval_cases v
    · exact Or.inl rfl
    · exact Or.inr rfl
  rcases ha with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 N C E wf).startIndexMap from List.mem_singleton.mpr rfl)]
    have hsi : (rowDims2 N C E wf).siIdx (ix2 e j) ⟨List.idxOf (0 : Fin 2) (rowDims2 N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ (rowDims2 N C E wf).startIndexMap from
      fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

end Gather2

section Gather3
variable {α : Type}

/-- The dimension numbers of a row gather from `[N, A, B]` at `[E, 1]` start indices. -/
abbrev rowDims3 (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The gathered table at `(e, a, b)` is the table at `(row e, a, b)`. -/
theorem gather_row3_apply {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (rowDims3 N A B E wf) x idx (ix3 e a b) = x (ix3 (rowOf N hN (idx (ix2 e 0))) a b) := by
  unfold Host.gather
  congr 1
  funext k
  refine Fin.ext ?_
  show (rowDims3 N A B E wf).start (ix3 e a b) idx k + (rowDims3 N A B E wf).batchCoord (ix3 e a b) k
    + (rowDims3 N A B E wf).offCoord (ix3 e a b) k = _
  rw [GatherDims.batchCoord_eq_zero _ _ _ List.not_mem_nil]
  have hk : k = 0 ∨ k = 1 ∨ k = 2 := by
    rcases k with ⟨v, hv⟩
    have hv3 : v < 3 := hv
    interval_cases v
    · exact Or.inl rfl
    · exact Or.inr (Or.inl rfl)
    · exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowDims3 N A B E wf).startIndexMap from List.mem_singleton.mpr rfl)]
    have hsi : (rowDims3 N A B E wf).siIdx (ix3 e a b) ⟨List.idxOf (0 : Fin 3) (rowDims3 N A B E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  · unfold GatherDims.start
    rw [dif_neg (show (1 : Fin 3) ∉ (rowDims3 N A B E wf).startIndexMap from
      fun h => absurd (congrArg Fin.val (List.mem_singleton.mp h)) Nat.one_ne_zero)]
    simp only [Nat.zero_add]
    unfold GatherDims.offCoord
    rw [dif_pos ((GatherDims.mem_sKept _ _).mpr
      ⟨fun h => absurd (congrArg Fin.val (List.mem_singleton.mp h)) Nat.one_ne_zero, List.not_mem_nil⟩)]
    rfl
  · unfold GatherDims.start
    rw [dif_neg (show (2 : Fin 3) ∉ (rowDims3 N A B E wf).startIndexMap from
      fun h => absurd (congrArg Fin.val (List.mem_singleton.mp h)) (Nat.succ_ne_zero 1))]
    simp only [Nat.zero_add]
    unfold GatherDims.offCoord
    rw [dif_pos ((GatherDims.mem_sKept _ _).mpr
      ⟨fun h => absurd (congrArg Fin.val (List.mem_singleton.mp h)) (Nat.succ_ne_zero 1), List.not_mem_nil⟩)]
    rfl

end Gather3

section Scatter2

/-- The dimension numbers of a row accumulation into `[N, C]` at `[E, 1]` scatter indices. -/
abbrev rowScat2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)
  (idx : IVec ⟨2, ![E, 1]⟩ w)

theorem scat2_start0 (e : Fin E) (j : Fin C) :
    (rowScat2 N C E wf).start (ix2 e j) idx 0 = (idx (ix2 e 0)).toInt := by
  unfold ScatterDims.start
  rw [dif_pos (show (0 : Fin 2) ∈ (rowScat2 N C E wf).scatterDimsToOperandDims from List.mem_singleton.mpr rfl)]
  have hsi : (rowScat2 N C E wf).siIdx (ix2 e j) ⟨List.idxOf (0 : Fin 2) (rowScat2 N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scat2_start1 (e : Fin E) (j : Fin C) : (rowScat2 N C E wf).start (ix2 e j) idx 1 = 0 := by
  unfold ScatterDims.start
  rw [dif_neg (show (1 : Fin 2) ∉ (rowScat2 N C E wf).scatterDimsToOperandDims from
    fun h => absurd (congrArg Fin.val (List.mem_singleton.mp h)) Nat.one_ne_zero)]

theorem scat2_window0 (e : Fin E) (j : Fin C) : (rowScat2 N C E wf).window (ix2 e j) 0 = 0 := by
  unfold ScatterDims.window
  rw [dif_neg (show (0 : Fin 2) ∉ (rowScat2 N C E wf).sKept from by simp [ScatterDims.sKept, Shape.kept])]

theorem scat2_window1 (e : Fin E) (j : Fin C) : (rowScat2 N C E wf).window (ix2 e j) 1 = j.val := by
  unfold ScatterDims.window
  rw [dif_pos (show (1 : Fin 2) ∈ (rowScat2 N C E wf).sKept from by simp [ScatterDims.sKept, Shape.kept])]
  rfl

/-- Update `(e, j)` lands on table entry `(n, j')` exactly when edge `e`'s index, read signed, is `n` and `j = j'`. -/
theorem scat2_hit (e : Fin E) (j : Fin C) (n : Fin N) (j' : Fin C) :
    (rowScat2 N C E wf).resultIdx? (ix2 e j) idx = some (ix2 n j') ↔ (idx (ix2 e 0)).toInt = (n.val : ℤ) ∧ j = j' := by
  have hn : n.val < N := n.isLt
  have hj : j.val < C := j.isLt
  have hall_iff : ∀ a, (rowScat2 N C E wf).start (ix2 e j) idx a + ((rowScat2 N C E wf).window (ix2 e j) a : ℤ)
      = if a = 0 then (idx (ix2 e 0)).toInt else (j.val : ℤ) := by
    intro a
    have ha : a = 0 ∨ a = 1 := by
      rcases a with ⟨v, hv⟩
      have hv2 : v < 2 := hv
      interval_cases v
      · exact Or.inl rfl
      · exact Or.inr rfl
    rcases ha with rfl | rfl
    · rw [scat2_start0, scat2_window0, if_pos rfl]; simp
    · rw [scat2_start1, scat2_window1, if_neg (fun h => absurd (congrArg Fin.val h) Nat.one_ne_zero)]; simp
  unfold ScatterDims.resultIdx?
  constructor
  · intro h
    split at h
    · have hEq := Option.some.inj h
      have h0 := congrArg (fun f => (f 0).val) hEq
      have h1 := congrArg (fun f => (f 1).val) hEq
      rename_i hall
      have hb := (hall 0).1
      rw [hall_iff 0, if_pos rfl] at hb
      simp only [hall_iff, if_pos, if_neg (fun h : (1 : Fin 2) = 0 => absurd (congrArg Fin.val h) Nat.one_ne_zero)] at h0 h1
      have h0' : (idx (ix2 e 0)).toInt.toNat = n.val := h0
      have h1' : ((j.val : ℤ)).toNat = j'.val := h1
      refine ⟨by omega, Fin.ext (by omega)⟩
    · exact absurd h (by simp)
  · rintro ⟨hv, rfl⟩
    have hall : ∀ a, 0 ≤ (rowScat2 N C E wf).start (ix2 e j) idx a + ((rowScat2 N C E wf).window (ix2 e j) a : ℤ) ∧
        (rowScat2 N C E wf).start (ix2 e j) idx a + ((rowScat2 N C E wf).window (ix2 e j) a : ℤ)
          < ((⟨2, ![N, C]⟩ : Shape).size a : ℤ) := by
      intro a
      rw [hall_iff a]
      have ha : a = 0 ∨ a = 1 := by
        rcases a with ⟨v, hv⟩
        have hv2 : v < 2 := hv
        interval_cases v
        · exact Or.inl rfl
        · exact Or.inr rfl
      rcases ha with rfl | rfl
      · rw [if_pos rfl, hv]
        refine ⟨by omega, ?_⟩
        show (n.val : ℤ) < (N : ℤ)
        omega
      · rw [if_neg (fun h => absurd (congrArg Fin.val h) Nat.one_ne_zero)]
        refine ⟨by omega, ?_⟩
        show (j.val : ℤ) < (C : ℤ)
        omega
    rw [dif_pos hall]
    congr 1
    funext a
    refine Fin.ext ?_
    show ((rowScat2 N C E wf).start (ix2 e j) idx a + ((rowScat2 N C E wf).window (ix2 e j) a : ℤ)).toNat = _
    rw [hall_iff a]
    have ha : a = 0 ∨ a = 1 := by
      rcases a with ⟨v, hv⟩
      have hv2 : v < 2 := hv
      interval_cases v
      · exact Or.inl rfl
      · exact Or.inr rfl
    rcases ha with rfl | rfl
    · rw [if_pos rfl, hv]
      show ((n.val : ℤ)).toNat = n.val
      omega
    · rw [if_neg (fun h => absurd (congrArg Fin.val h) Nat.one_ne_zero)]
      show ((j.val : ℤ)).toNat = j.val
      omega

/-- The accumulated table at `(n, j)`: its entry plus the updates of the edges whose index is `n`. -/
theorem scatterAdd_row2_apply (x : FVec Ideal ⟨2, ![N, C]⟩ .f32) (upd : FVec Ideal ⟨2, ![E, C]⟩ .f32) (n : Fin N) (j : Fin C) :
    Host.scatterAdd (F := Ideal) (rowScat2 N C E wf) x idx upd (ix2 n j)
      = x (ix2 n j) + ∑ e : Fin E, if (idx (ix2 e 0)).toInt = (n.val : ℤ) then upd (ix2 e j) else 0 := by
  show x (ix2 n j) + ∑ u ∈ Finset.univ.filter (fun u => (rowScat2 N C E wf).resultIdx? u idx = some (ix2 n j)), upd u = _
  congr 1
  rw [Finset.sum_filter, sum_idx2]
  refine Finset.sum_congr rfl fun e _ => ?_
  by_cases he : (idx (ix2 e 0)).toInt = (n.val : ℤ)
  · rw [if_pos he]
    rw [Finset.sum_eq_single j]
    · rw [if_pos ((scat2_hit wf idx e j n j).mpr ⟨he, rfl⟩)]
    · intro j' _ hne
      rw [if_neg (fun h => hne ((scat2_hit wf idx e j' n j).mp h).2)]
    · intro h; exact absurd (Finset.mem_univ j) h
  · rw [if_neg he]
    refine Finset.sum_eq_zero fun j' _ => ?_
    rw [if_neg (fun h => he ((scat2_hit wf idx e j' n j).mp h).1)]

end Scatter2

section Scatter3

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of a row accumulation into `[N, A, B]` at `[E, 1]` scatter indices. -/
abbrev rowScat3 (N A B E : Nat) (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N A B E w : Nat} (wf : ScatterDims.WF ⟨3, ![N, A, B]⟩ ⟨2, ![E, 1]⟩ ⟨3, ![E, A, B]⟩ [1, 2] [0] [0] 1)
  (idx : IVec ⟨2, ![E, 1]⟩ w)

theorem axis3_cases (k : Fin (⟨3, ![N, A, B]⟩ : Shape).rank) : k = 0 ∨ k = 1 ∨ k = 2 := by
  rcases k with ⟨v, hv⟩
  have hv3 : v < 3 := hv
  interval_cases v
  · exact Or.inl rfl
  · exact Or.inr (Or.inl rfl)
  · exact Or.inr (Or.inr rfl)

theorem scat3_sum (e : Fin E) (a : Fin A) (b : Fin B) (k : Fin (⟨3, ![N, A, B]⟩ : Shape).rank) :
    (rowScat3 N A B E wf).start (ix3 e a b) idx k + ((rowScat3 N A B E wf).window (ix3 e a b) k : ℤ)
      = if k = 0 then (idx (ix2 e 0)).toInt else if k = 1 then (a.val : ℤ) else (b.val : ℤ) := by
  rcases axis3_cases k with rfl | rfl | rfl
  · rw [if_pos rfl]
    unfold ScatterDims.start ScatterDims.window
    rw [dif_pos (show (0 : Fin 3) ∈ (rowScat3 N A B E wf).scatterDimsToOperandDims from List.mem_singleton.mpr rfl),
      dif_neg (show (0 : Fin 3) ∉ (rowScat3 N A B E wf).sKept from by simp [ScatterDims.sKept, Shape.kept])]
    have hsi : (rowScat3 N A B E wf).siIdx (ix3 e a b) ⟨List.idxOf (0 : Fin 3) (rowScat3 N A B E wf).scatterDimsToOperandDims,
        List.idxOf_lt_length_iff.2 (List.mem_singleton.mpr rfl)⟩ = ix2 e 0 := by
      funext c; refine Fin.ext ?_
      match c with
      | ⟨0, _⟩ => rfl
      | ⟨1, _⟩ => rfl
    rw [hsi]; simp
  · rw [if_neg (fun h => absurd (congrArg Fin.val h) Nat.one_ne_zero), if_pos rfl]
    unfold ScatterDims.start ScatterDims.window
    rw [dif_neg (show (1 : Fin 3) ∉ (rowScat3 N A B E wf).scatterDimsToOperandDims from
        fun h => absurd (congrArg Fin.val (List.mem_singleton.mp h)) Nat.one_ne_zero),
      dif_pos (show (1 : Fin 3) ∈ (rowScat3 N A B E wf).sKept from by simp [ScatterDims.sKept, Shape.kept])]
    simp only [Int.zero_add]
    rfl
  · rw [if_neg (fun h => absurd (congrArg Fin.val h) (Nat.succ_ne_zero 1)),
      if_neg (fun h => absurd (congrArg Fin.val h) (by decide : (2 : ℕ) ≠ 1))]
    unfold ScatterDims.start ScatterDims.window
    rw [dif_neg (show (2 : Fin 3) ∉ (rowScat3 N A B E wf).scatterDimsToOperandDims from
        fun h => absurd (congrArg Fin.val (List.mem_singleton.mp h)) (Nat.succ_ne_zero 1)),
      dif_pos (show (2 : Fin 3) ∈ (rowScat3 N A B E wf).sKept from by simp [ScatterDims.sKept, Shape.kept])]
    simp only [Int.zero_add]
    rfl

/-- Update `(e, a, b)` lands on table entry `(n, a', b')` exactly when edge `e`'s index, read signed, is `n`, `a = a'`, `b = b'`. -/
theorem scat3_hit (e : Fin E) (a : Fin A) (b : Fin B) (n : Fin N) (a' : Fin A) (b' : Fin B) :
    (rowScat3 N A B E wf).resultIdx? (ix3 e a b) idx = some (ix3 n a' b')
      ↔ (idx (ix2 e 0)).toInt = (n.val : ℤ) ∧ a = a' ∧ b = b' := by
  have hn : n.val < N := n.isLt
  have ha : a.val < A := a.isLt
  have hb : b.val < B := b.isLt
  have h10 : ¬ ((1 : Fin (⟨3, ![N, A, B]⟩ : Shape).rank) = 0) := fun h => absurd (congrArg Fin.val h) Nat.one_ne_zero
  have h20 : ¬ ((2 : Fin (⟨3, ![N, A, B]⟩ : Shape).rank) = 0) := fun h => absurd (congrArg Fin.val h) (Nat.succ_ne_zero 1)
  have h21 : ¬ ((2 : Fin (⟨3, ![N, A, B]⟩ : Shape).rank) = 1) := fun h => absurd (congrArg Fin.val h) (by decide : (2 : ℕ) ≠ 1)
  unfold ScatterDims.resultIdx?
  constructor
  · intro h
    split at h
    · rename_i hall
      have hEq := Option.some.inj h
      have h0 : ((rowScat3 N A B E wf).start (ix3 e a b) idx 0 + ((rowScat3 N A B E wf).window (ix3 e a b) 0 : ℤ)).toNat = n.val :=
        congrArg (fun f => (f 0).val) hEq
      have h1 : ((rowScat3 N A B E wf).start (ix3 e a b) idx 1 + ((rowScat3 N A B E wf).window (ix3 e a b) 1 : ℤ)).toNat = a'.val :=
        congrArg (fun f => (f 1).val) hEq
      have h2 : ((rowScat3 N A B E wf).start (ix3 e a b) idx 2 + ((rowScat3 N A B E wf).window (ix3 e a b) 2 : ℤ)).toNat = b'.val :=
        congrArg (fun f => (f 2).val) hEq
      have hb0 := (hall 0).1
      rw [scat3_sum, if_pos rfl] at hb0 h0
      rw [scat3_sum, if_neg h10, if_pos rfl] at h1
      rw [scat3_sum, if_neg h20, if_neg h21] at h2
      refine ⟨by omega, Fin.ext (by omega), Fin.ext (by omega)⟩
    · exact absurd h (by simp)
  · rintro ⟨hv, rfl, rfl⟩
    have hall : ∀ k, 0 ≤ (rowScat3 N A B E wf).start (ix3 e a b) idx k + ((rowScat3 N A B E wf).window (ix3 e a b) k : ℤ) ∧
        (rowScat3 N A B E wf).start (ix3 e a b) idx k + ((rowScat3 N A B E wf).window (ix3 e a b) k : ℤ)
          < ((⟨3, ![N, A, B]⟩ : Shape).size k : ℤ) := by
      intro k
      rw [scat3_sum]
      rcases axis3_cases k with rfl | rfl | rfl
      · rw [if_pos rfl, hv]
        refine ⟨by omega, ?_⟩
        show (n.val : ℤ) < (N : ℤ)
        omega
      · rw [if_neg h10, if_pos rfl]
        refine ⟨by omega, ?_⟩
        show (a.val : ℤ) < (A : ℤ)
        omega
      · rw [if_neg h20, if_neg h21]
        refine ⟨by omega, ?_⟩
        show (b.val : ℤ) < (B : ℤ)
        omega
    rw [dif_pos hall]
    congr 1
    funext k
    refine Fin.ext ?_
    show ((rowScat3 N A B E wf).start (ix3 e a b) idx k + ((rowScat3 N A B E wf).window (ix3 e a b) k : ℤ)).toNat = _
    rw [scat3_sum]
    rcases axis3_cases k with rfl | rfl | rfl
    · rw [if_pos rfl, hv]
      show ((n.val : ℤ)).toNat = n.val
      omega
    · rw [if_neg h10, if_pos rfl]
      show ((a.val : ℤ)).toNat = a.val
      omega
    · rw [if_neg h20, if_neg h21]
      show ((b.val : ℤ)).toNat = b.val
      omega

/-- The accumulated table at `(n, a, b)`: its entry plus the updates of the edges whose index is `n`. -/
theorem scatterAdd_row3_apply (x : FVec Ideal ⟨3, ![N, A, B]⟩ .f32) (upd : FVec Ideal ⟨3, ![E, A, B]⟩ .f32)
    (n : Fin N) (a : Fin A) (b : Fin B) :
    Host.scatterAdd (F := Ideal) (rowScat3 N A B E wf) x idx upd (ix3 n a b)
      = x (ix3 n a b) + ∑ e : Fin E, if (idx (ix2 e 0)).toInt = (n.val : ℤ) then upd (ix3 e a b) else 0 := by
  show x (ix3 n a b) + ∑ u ∈ Finset.univ.filter (fun u => (rowScat3 N A B E wf).resultIdx? u idx = some (ix3 n a b)), upd u = _
  congr 1
  rw [Finset.sum_filter, sum_idx3]
  refine Finset.sum_congr rfl fun e _ => ?_
  by_cases he : (idx (ix2 e 0)).toInt = (n.val : ℤ)
  · rw [if_pos he]
    rw [Finset.sum_eq_single a]
    · rw [Finset.sum_eq_single b]
      · rw [if_pos ((scat3_hit wf idx e a b n a b).mpr ⟨he, rfl, rfl⟩)]
      · intro b' _ hne
        rw [if_neg (fun h => hne ((scat3_hit wf idx e a b' n a b).mp h).2.2)]
      · intro h; exact absurd (Finset.mem_univ b) h
    · intro a' _ hne
      refine Finset.sum_eq_zero fun b' _ => ?_
      rw [if_neg (fun h => hne ((scat3_hit wf idx e a' b' n a b).mp h).2.1)]
    · intro h; exact absurd (Finset.mem_univ a) h
  · rw [if_neg he]
    refine Finset.sum_eq_zero fun a' _ => Finset.sum_eq_zero fun b' _ => ?_
    rw [if_neg (fun h => he ((scat3_hit wf idx e a' b' n a b).mp h).1)]

end Scatter3

end Idealize.ShloMosaic.RowOps

end
-- ==== Proof.Spec.lean ====
/-
  The function both programs compute, no program in sight.

  Four embedding tables, with 1000000, 100000, 1000 and 1000000 rows of 32 columns, are each read at 16384 row indices;
  the row an index word names is the word read as a signed number and clamped into the table. The kernel keeps each
  lookup TRANSPOSED: entry (c, n) of a lookup is column c of the row the n-th index names. The output row n is the bias
  plus, table by table, the product of that table's looked-up row with its 32-column band of the weight matrix:
  out (n, o) = (((b o + Σ_c e0 (c, n) · W (o, c)) + Σ_c e1 (c, n) · W (o, 32 + c)) + Σ_c e2 (c, n) · W (o, 64 + c))
               + Σ_c e3 (c, n) · W (o, 96 + c).
-/
import Idealize.ShloMosaic.PureOps.Ideal
import Idealize.ShloMosaic.Lib.ValueIdx
import proofs.«204991_g57140244906297_cont_9to1_m_249_19_alg».proof.Proof.LibRowOps

open scoped BigOperators

noncomputable section

namespace Cert.Spec

open Idealize.ShloMosaic Idealize.ShloMosaic.ValueIdx Idealize.ShloMosaic.RowOps

/-- A table of `V` rows and 32 columns read, transposed, at 16384 row indices: entry `(c, n)` is column `c` of the row
    that index `n` names. -/
def lookT {α : Type} (V : ℕ) (hV : 0 < V) (T : (⟨2, ![V, 32]⟩ : Shape).Idx → α) (ids : (⟨1, ![16384]⟩ : Shape).Idx → BitVec 32) :
    (⟨2, ![32, 16384]⟩ : Shape).Idx → α :=
  fun j => T (ix2 (rowOf V hV (ids (ix1 (j 1)))) (j 0))

theorem lookT_apply {α : Type} (V : ℕ) (hV : 0 < V) (T : (⟨2, ![V, 32]⟩ : Shape).Idx → α) (ids : (⟨1, ![16384]⟩ : Shape).Idx → BitVec 32)
    (c : Fin 32) (n : Fin 16384) : lookT V hV T ids (ix2 c n) = T (ix2 (rowOf V hV (ids (ix1 n))) c) := rfl

/-- One table's share of output entry `(n, o)`: its looked-up row against band `f` of the weights. -/
def band (e : (⟨2, ![32, 16384]⟩ : Shape).Idx → EReal) (W : (⟨2, ![64, 128]⟩ : Shape).Idx → EReal) (f : Fin 4) (n : Fin 16384) (o : Fin 64) : EReal :=
  ∑ c : Fin 32, e (ix2 c n) * W (ix2 o ⟨32 * f.val + c.val, by omega⟩)

/-- The projection of the four transposed lookups: bias first, then the four bands in order. -/
def proj (e0 e1 e2 e3 : (⟨2, ![32, 16384]⟩ : Shape).Idx → EReal) (W : (⟨2, ![64, 128]⟩ : Shape).Idx → EReal)
    (b : (⟨1, ![64]⟩ : Shape).Idx → EReal) : (⟨2, ![16384, 64]⟩ : Shape).Idx → EReal :=
  fun j => (((b (ix1 (j 1)) + band e0 W 0 (j 0) (j 1)) + band e1 W 1 (j 0) (j 1)) + band e2 W 2 (j 0) (j 1)) + band e3 W 3 (j 0) (j 1)

theorem proj_apply (e0 e1 e2 e3 : (⟨2, ![32, 16384]⟩ : Shape).Idx → EReal) (W : (⟨2, ![64, 128]⟩ : Shape).Idx → EReal)
    (b : (⟨1, ![64]⟩ : Shape).Idx → EReal) (n : Fin 16384) (o : Fin 64) :
    proj e0 e1 e2 e3 W b (ix2 n o) = (((b (ix1 o) + band e0 W 0 n o) + band e1 W 1 n o) + band e2 W 2 n o) + band e3 W 3 n o := rfl

/-- The whole function: the four lookups, projected. -/
def out (ids0 ids1 ids2 ids3 : (⟨1, ![16384]⟩ : Shape).Idx → BitVec 32)
    (T0 : (⟨2, ![1000000, 32]⟩ : Shape).Idx → EReal) (T1 : (⟨2, ![100000, 32]⟩ : Shape).Idx → EReal)
    (T2 : (⟨2, ![1000, 32]⟩ : Shape).Idx → EReal) (T3 : (⟨2, ![1000000, 32]⟩ : Shape).Idx → EReal)
    (W : (⟨2, ![64, 128]⟩ : Shape).Idx → EReal) (b : (⟨1, ![64]⟩ : Shape).Idx → EReal) : (⟨2, ![16384, 64]⟩ : Shape).Idx → EReal :=
  proj (lookT 1000000 (by omega) T0 ids0) (lookT 100000 (by omega) T1 ids1) (lookT 1000 (by omega) T2 ids2)
    (lookT 1000000 (by omega) T3 ids3) W b

end Cert.Spec

end
-- ==== Proof.LibDeal.lean ====
/-
  Dealing arrays out to workers and gathering them back, no program in sight.

  * A set of whole arrays held at the full share is the same set held at what remains after `n` read tokens, beside
    `n` copies of the set held at one read token each: every array splits into its remainder and its tokens, and the
    tokens regroup by worker instead of by array.
  * Thirty-two workers numbered `2·s + c` for `c < 2`, `s < 16` are the pairs `(c, s)`: a separating product over
    the numbers is the iterated product over the pairs.
-/
import Idealize.ShloMosaic.Lib.StableHlo.Run
import Idealize.ShloMosaic.Lib.Transfers

noncomputable section

namespace Cert.LibDeal

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (held heldAt)
open Idealize.ShloMosaic.Transfers (shareTok shareDrop pointsTo_toks_split pointsTo_toks_join)

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- A product over a finite set of products over `Fin n` is the product over `Fin n` of the products over the set. -/
theorem bigSep_swap {M : Type} [URA M] {α : Type} [DecidableEq α] (S : Finset α) (n : ℕ) (Φ : α → Fin n → sProp M) :
    (bigSep S fun b => bigSep Finset.univ fun i : Fin n => Φ b i) = bigSep Finset.univ fun i : Fin n => bigSep S fun b => Φ b i := by
  induction S using Finset.induction_on with
  | empty =>
    simp only [bigSep_empty]
    rw [BI.bigSep_emp_const]
  | insert b S hb ih =>
    rw [bigSep_insert hb, ih, ← BI.bigSep_sep]
    exact bigSep_congr fun i _ => by rw [bigSep_insert hb]

/-- A held set splits into the set at the remainder share and one copy of the set per read token. -/
theorem held_toks_split (c : Thread nD τ) (S : Finset (DevRef τ sig)) (V : Valuation τ sig Val) (n : ℕ) :
    (held c S V : sProp 𝕄) ⊢ iprop(heldAt c S (fun _ => shareDrop fullShare n) V
      ∗ bigSep Finset.univ fun i : Fin n => heldAt c S (fun _ => shareTok fullShare n i) V) := by
  unfold held heldAt
  have h1 : (bigSep S fun b => ((c.1, b) ↦{fullShare} V b : sProp 𝕄))
      ⊢ bigSep S fun b => iprop(((c.1, b) ↦{shareDrop fullShare n} V b) ∗ bigSep Finset.univ fun i : Fin n => (c.1, b) ↦{shareTok fullShare n i} V b) :=
    bigSep_mono fun b _ => pointsTo_toks_split fullShare n
  rw [bigSep_sep', bigSep_swap] at h1
  exact h1

/-- The tokens and the remainder join back into the set at the full share. -/
theorem held_toks_join (c : Thread nD τ) (S : Finset (DevRef τ sig)) (V : Valuation τ sig Val) (n : ℕ) :
    iprop(heldAt c S (fun _ => shareDrop fullShare n) V
      ∗ bigSep Finset.univ fun i : Fin n => heldAt c S (fun _ => shareTok fullShare n i) V) ⊢ (held c S V : sProp 𝕄) := by
  unfold held heldAt
  have h1 : (bigSep S fun b => iprop(((c.1, b) ↦{shareDrop fullShare n} V b) ∗ bigSep Finset.univ fun i : Fin n => (c.1, b) ↦{shareTok fullShare n i} V b))
      ⊢ bigSep S fun b => ((c.1, b) ↦{fullShare} V b : sProp 𝕄) :=
    bigSep_mono fun b _ => pointsTo_toks_join fullShare n
  rw [bigSep_sep', bigSep_swap] at h1
  exact h1

/-- Worker `(c, s)`'s number. -/
def wid (c : Fin 2) (s : Fin 16) : Fin 32 := ⟨2 * s.val + c.val, by omega⟩

/-- The pairs `(c, s)` are the thirty-two numbers. -/
def widEquiv : Fin 2 × Fin 16 ≃ Fin 32 where
  toFun p := wid p.1 p.2
  invFun w := (⟨w.val % 2, Nat.mod_lt _ (by omega)⟩, ⟨w.val / 2, by omega⟩)
  left_inv p := by
    obtain ⟨⟨c, hc⟩, ⟨s, hs⟩⟩ := p
    simp only [wid, Prod.mk.injEq, Fin.mk.injEq]
    omega
  right_inv w := by
    obtain ⟨w, hw⟩ := w
    simp only [wid, Fin.mk.injEq]
    omega

/-- A product over the thirty-two numbers, pair by pair. -/
theorem bigSep_wid {M : Type} [URA M] (Φ : Fin 32 → sProp M) :
    bigSep Finset.univ Φ = bigSep Finset.univ fun c : Fin 2 => bigSep Finset.univ fun s : Fin 16 => Φ (wid c s) := by
  rw [← BI.bigSep_univ_prod (fun p : Fin 2 × Fin 16 => Φ (wid p.1 p.2)), BI.bigSep_univ_equiv widEquiv Φ]
  rfl

end Cert.LibDeal

end
-- ==== Proof.LaunchDefsI.lean ====
/-
  What the four SparseCore calls take and give back.

  @main's host operations prepare each call's operands (a table transposed, its last 64 rows cut off and flattened, a
  table viewed four rows to a row); between the operations and the calls the TensorCore's arrays are described by a
  chain of valuations, each a closed term of the launch memory: `VA q` just before call `q`, `VB q` just after it —
  `VA q` with call `q`'s result array at the transposed lookup of its table.

  Call `q` hands the tile of coordinates `(c, s)`, whose number is `w = 2·s + c`, a read share (the `w`-th of 32
  tokens of the full share) of each array the call only reads, and the whole of columns `[512·w, 512·w + 512)` of its
  result array; the tile gives the same back with those columns at the lookup. A SparseCore's operands are its sixteen
  tiles' side by side, so that dealing them out is the identity.
-/
import proofs.«204991_g57140244906297_cont_9to1_m_249_19_alg».proof.Proof.CommonI
import proofs.«204991_g57140244906297_cont_9to1_m_249_19_alg».proof.Proof.Spec
import proofs.«204991_g57140244906297_cont_9to1_m_249_19_alg».proof.Proof.LibDeal

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)

variable {F : FTy → Type}

local notation "𝕄" => MT nD τ sig (HIx 4) (Elt F) ℕ UU ℕ

/-! ## The TensorCore's arrays as device references -/

abbrev r_ids (f : Fin 4) : DevRef τ sig :=
  match f with
  | 0 => Proc.devRef .tc (main_arg0 : Ref sig .tc) | 1 => Proc.devRef .tc (main_arg1 : Ref sig .tc)
  | 2 => Proc.devRef .tc (main_arg2 : Ref sig .tc) | 3 => Proc.devRef .tc (main_arg3 : Ref sig .tc)
abbrev r_out (f : Fin 4) : DevRef τ sig :=
  match f with
  | 0 => Proc.devRef .tc (main_v3 : Ref sig .tc) | 1 => Proc.devRef .tc (main_v5 : Ref sig .tc)
  | 2 => Proc.devRef .tc (main_v7 : Ref sig .tc) | 3 => Proc.devRef .tc (main_v11 : Ref sig .tc)
/-- The arrays call `f` only reads: its indices, its table as the kernel is handed it, and for the two large tables
    the flattened last rows. -/
abbrev RO (f : Fin 4) : Finset (DevRef τ sig) :=
  match f with
  | 0 => {Proc.devRef .tc (main_arg0 : Ref sig .tc), Proc.devRef .tc (main_v0 : Ref sig .tc), Proc.devRef .tc (main_v2 : Ref sig .tc)}
  | 1 => {Proc.devRef .tc (main_arg1 : Ref sig .tc), Proc.devRef .tc (main_v4 : Ref sig .tc)}
  | 2 => {Proc.devRef .tc (main_arg2 : Ref sig .tc), Proc.devRef .tc (main_v6 : Ref sig .tc)}
  | 3 => {Proc.devRef .tc (main_arg3 : Ref sig .tc), Proc.devRef .tc (main_v8 : Ref sig .tc), Proc.devRef .tc (main_v10 : Ref sig .tc)}

variable [FloatOps F]

/-! ## @main's host operations, in order -/

abbrev op1 : HloOp τ sig (Elt F) := StableHlo.unary main_arg4 main_v0 ((transpose S32x1000000 [1, 0] · transposes_S1000000x32_S32x1000000_1_0) : (⟨S1000000x32, .f32⟩ : BufTy).Contents (Elt F) → (⟨S32x1000000, .f32⟩ : BufTy).Contents (Elt F))
abbrev op2 : HloOp τ sig (Elt F) := StableHlo.unary main_arg4 main_v1 ((extractStridedSlice S64x32 ![999936, 0] · slices_S1000000x32_S64x32_999936_0) : (⟨S1000000x32, .f32⟩ : BufTy).Contents (Elt F) → (⟨S64x32, .f32⟩ : BufTy).Contents (Elt F))
abbrev op3 : HloOp τ sig (Elt F) := StableHlo.reshape main_v1 main_v2 rfl shapeCasts_S64x32_S2048
abbrev op4 : HloOp τ sig (Elt F) := StableHlo.reshape main_arg5 main_v4 rfl shapeCasts_S100000x32_S25000x128
abbrev op5 : HloOp τ sig (Elt F) := StableHlo.reshape main_arg6 main_v6 rfl shapeCasts_S1000x32_S250x128
abbrev op6 : HloOp τ sig (Elt F) := StableHlo.unary main_arg7 main_v8 ((transpose S32x1000000 [1, 0] · transposes_S1000000x32_S32x1000000_1_0) : (⟨S1000000x32, .f32⟩ : BufTy).Contents (Elt F) → (⟨S32x1000000, .f32⟩ : BufTy).Contents (Elt F))
abbrev op7 : HloOp τ sig (Elt F) := StableHlo.unary main_arg7 main_v9 ((extractStridedSlice S64x32 ![999936, 0] · slices_S1000000x32_S64x32_999936_0) : (⟨S1000000x32, .f32⟩ : BufTy).Contents (Elt F) → (⟨S64x32, .f32⟩ : BufTy).Contents (Elt F))
abbrev op8 : HloOp τ sig (Elt F) := StableHlo.reshape main_v9 main_v10 rfl shapeCasts_S64x32_S2048
abbrev op9 : HloOp τ sig (Elt F) := StableHlo.reshape main_arg9 main_v12 rfl shapeCasts_S64_S1x64

variable (m : (ℓ : Loc nD τ sig) → Buf (Elt F) ℓ) (ρ : Dev nD → PrngReg)

/-! ## The lookups, and the valuations between the calls -/

/-- Call `f`'s result: its table's transposed lookup at its indices, of the launch memory. -/
def E (d : Dev nD) (f : Fin 4) : (⟨2, ![32, 16384]⟩ : Shape).Idx → Elt F .f32 :=
  match f with
  | 0 => Cert.Spec.lookT 1000000 (by omega) (m ((SparseCore.T d).loc main_arg4)) (m ((SparseCore.T d).loc main_arg0))
  | 1 => Cert.Spec.lookT 100000 (by omega) (m ((SparseCore.T d).loc main_arg5)) (m ((SparseCore.T d).loc main_arg1))
  | 2 => Cert.Spec.lookT 1000 (by omega) (m ((SparseCore.T d).loc main_arg6)) (m ((SparseCore.T d).loc main_arg2))
  | 3 => Cert.Spec.lookT 1000000 (by omega) (m ((SparseCore.T d).loc main_arg7)) (m ((SparseCore.T d).loc main_arg3))

def V0 (d : Dev nD) : Valuation τ sig (Elt F) := fun b => m (d, b)
def VA0 (d : Dev nD) : Valuation τ sig (Elt F) := (op3 (F := F)).result ((op2 (F := F)).result ((op1 (F := F)).result (V0 m d)))
def VB0 (d : Dev nD) : Valuation τ sig (Elt F) := Function.update (VA0 m d) (r_out 0) (E m d 0)
def VA1 (d : Dev nD) : Valuation τ sig (Elt F) := (op4 (F := F)).result (VB0 m d)
def VB1 (d : Dev nD) : Valuation τ sig (Elt F) := Function.update (VA1 m d) (r_out 1) (E m d 1)
def VA2 (d : Dev nD) : Valuation τ sig (Elt F) := (op5 (F := F)).result (VB1 m d)
def VB2 (d : Dev nD) : Valuation τ sig (Elt F) := Function.update (VA2 m d) (r_out 2) (E m d 2)
def VA3 (d : Dev nD) : Valuation τ sig (Elt F) := (op8 (F := F)).result ((op7 (F := F)).result ((op6 (F := F)).result (VB2 m d)))
def VB3 (d : Dev nD) : Valuation τ sig (Elt F) := Function.update (VA3 m d) (r_out 3) (E m d 3)
def VA4 (d : Dev nD) : Valuation τ sig (Elt F) := (op9 (F := F)).result (VB3 m d)

def VA (d : Dev nD) (f : Fin 4) : Valuation τ sig (Elt F) := match f with | 0 => VA0 m d | 1 => VA1 m d | 2 => VA2 m d | 3 => VA3 m d
def VB (d : Dev nD) (f : Fin 4) : Valuation τ sig (Elt F) := match f with | 0 => VB0 m d | 1 => VB1 m d | 2 => VB2 m d | 3 => VB3 m d

/-! ## The tiles' numbers and column blocks -/

open Cert.LibDeal (wid)

theorem hdiv32 : 32 ∣ (⟨2, ![32, 16384]⟩ : Shape).size 1 := ⟨512, rfl⟩
/-- Columns `[512·w, 512·w + 512)` of a `[32, 16384]` array. -/
abbrev colBlk (w : Fin 32) : Rect (⟨2, ![32, 16384]⟩ : Shape) := Rect.part (s := (⟨2, ![32, 16384]⟩ : Shape)) (a₀ := 1) hdiv32 w

/-- Tile number `w`'s share of call `f`: a read token of what the call reads, and its own columns of the result array
    at the contents the valuation `W` gives that array. -/
def tileGoW (d : Dev nD) (f : Fin 4) (w : Fin 32) (W : Valuation τ sig (Elt F)) : sProp 𝕄 :=
  match f with
  | 0 => iprop(heldAt (SparseCore.T d) (RO 0) (fun _ => shareTok fullShare 32 w) (VA0 m d)
      ∗ ((d, r_out 0) ↦[(colBlk w).set]{fullShare} W (r_out 0)))
  | 1 => iprop(heldAt (SparseCore.T d) (RO 1) (fun _ => shareTok fullShare 32 w) (VA1 m d)
      ∗ ((d, r_out 1) ↦[(colBlk w).set]{fullShare} W (r_out 1)))
  | 2 => iprop(heldAt (SparseCore.T d) (RO 2) (fun _ => shareTok fullShare 32 w) (VA2 m d)
      ∗ ((d, r_out 2) ↦[(colBlk w).set]{fullShare} W (r_out 2)))
  | 3 => iprop(heldAt (SparseCore.T d) (RO 3) (fun _ => shareTok fullShare 32 w) (VA3 m d)
      ∗ ((d, r_out 3) ↦[(colBlk w).set]{fullShare} W (r_out 3)))

/-- The share of the tile of coordinates `(c, s)`. -/
def tileGo (d : Dev nD) (f : Fin 4) (c : Fin 2) (s : Fin 16) (W : Valuation τ sig (Elt F)) : sProp 𝕄 :=
  tileGoW m d f (wid c s) W

instance tileGo_storable (d : Dev nD) (f : Fin 4) (c : Fin 2) (s : Fin 16) (W : Valuation τ sig (Elt F)) :
    BI.Storable (upEmb : UEmb _ 𝕄) (tileGo m d f c s W) := by
  unfold tileGo tileGoW heldAt; fin_cases f <;> dsimp only <;> infer_instance

/-- The four calls' payloads: a SparseCore's operands are its tiles' side by side; no kernel consumes anything of the
    launch's. -/
def P : (K (F := F)).Pay (nD := nD) (Val := Elt F) (Name := ℕ) (U := UU) where
  st := fun q d c => bigSep Finset.univ fun i : Fin ((K (F := F)).nSub q) =>
    tileGo m d q (Fin.cast (nCore_eq q) c) (Fin.cast (nSub_eq q) i) (VA m d q)
  dn := fun q d c => bigSep Finset.univ fun i : Fin ((K (F := F)).nSub q) =>
    tileGo m d q (Fin.cast (nCore_eq q) c) (Fin.cast (nSub_eq q) i) (VB m d q)
  go := fun q d c i => tileGo m d q (Fin.cast (nCore_eq q) c) (Fin.cast (nSub_eq q) i) (VA m d q)
  td := fun q d c i => tileGo m d q (Fin.cast (nCore_eq q) c) (Fin.cast (nSub_eq q) i) (VB m d q)
  x := fun _ _ => iprop(emp)

instance P_storable : (P (F := F) m).IsStorable where
  st q d c := by unfold P; infer_instance
  dn q d c := by unfold P; infer_instance
  go q d c i := by unfold P; infer_instance
  td q d c i := by unfold P; infer_instance

/-- Dealing a SparseCore's operands to its tiles and gathering their results is the identity. -/
theorem vecSplit (q : Fin 4) : (K (F := F)).VecSplit' (P m) q := by
  intro d c
  show (bigSep Finset.univ fun i : Fin ((K (F := F)).nSub q) => tileGo m d q (Fin.cast (nCore_eq q) c) (Fin.cast (nSub_eq q) i) (VA m d q))
    ⊢ |={Set.univ}=> iprop((bigSep Finset.univ fun i : Fin ((K (F := F)).nSub q) => tileGo m d q (Fin.cast (nCore_eq q) c) (Fin.cast (nSub_eq q) i) (VA m d q))
      ∗ ((bigSep Finset.univ fun i : Fin ((K (F := F)).nSub q) => tileGo m d q (Fin.cast (nCore_eq q) c) (Fin.cast (nSub_eq q) i) (VB m d q))
        -∗ bigSep Finset.univ fun i : Fin ((K (F := F)).nSub q) => tileGo m d q (Fin.cast (nCore_eq q) c) (Fin.cast (nSub_eq q) i) (VB m d q)))
  iintro H; imodintro
  isplitl [H]; · iexact H
  iintro H; iexact H

end Cert.Proof.KernelIdealC

end
-- ==== Proof.DealI.lean ====
/-
  Dealing the TensorCore's arrays to the thirty-two tiles of a call and gathering them back.

  Before a call the TensorCore holds all of its arrays whole. The arrays the call reads split into thirty-two read tokens,
  one per tile, and a remainder kept aside; the result array splits into its thirty-two blocks of 512 columns, which are
  pairwise disjoint and cover it. After the call the tokens rejoin and the blocks — every one at the same whole-array
  function, the lookup — join into the array at the lookup; nothing else has changed.
-/
import proofs.«204991_g57140244906297_cont_9to1_m_249_19_alg».proof.Proof.LaunchDefsI
import Idealize.ShloMosaic.Lib.Pipeline.Frame

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt held_sub_split held_congr)
open Idealize.ShloMosaic.Transfers (shareTok shareDrop)
open Cert.LibDeal (wid bigSep_wid held_toks_split held_toks_join)

variable {F : FTy → Type}

local notation "𝕄" => MT nD τ sig (HIx 4) (Elt F) ℕ UU ℕ

/-- The TensorCore's unscoped arrays: the ten arguments and @main's values. -/
abbrev UC : Finset (DevRef τ sig) := Pipeline.ucRefs τ sig

/-- A whole array is its pieces along a family of pairwise disjoint index sets that cover it. -/
theorem pts_blocks {ℓ : Loc nD τ sig} (Kf : Fin 32 → Finset (Idx ℓ)) (hd : ∀ i j, i ≠ j → Disjoint (Kf i) (Kf j))
    (hc : (Finset.univ : Finset (Fin 32)).biUnion Kf = Finset.univ) (f : Buf (Elt F) ℓ) (q : PosShare TreeShare) :
    (ℓ ↦{q} f : sProp 𝕄) = bigSep Finset.univ fun w : Fin 32 => ℓ ↦[Kf w]{q} f := by
  rw [← pointsTo_biUnion Finset.univ (ℓ := ℓ) Kf (fun i _ j _ h => hd i j h), hc]; try rfl

theorem blk_disjoint : ∀ i j : Fin 32, i ≠ j → Disjoint (colBlk i).set (colBlk j).set := fun _ _ h => Rect.part_disjoint hdiv32 h
theorem blk_cover : (Finset.univ : Finset (Fin 32)).biUnion (fun w => (colBlk w).set) = Finset.univ := Rect.biUnion_part hdiv32

variable [FloatOps F]
variable (m : (ℓ : Loc nD τ sig) → Buf (Elt F) ℓ)

theorem out_notin0 : r_out 0 ∉ RO 0 := by decide
theorem sub_uc0 : insert (r_out 0) (RO 0) ⊆ UC := by decide

omit [FloatOps F] in
theorem held_ins0 (d : Dev nD) (W : Valuation τ sig (Elt F)) :
    (held (SparseCore.T d) (insert (r_out 0) (RO 0)) W : sProp 𝕄)
      = iprop(((d, r_out 0) ↦{fullShare} W (r_out 0)) ∗ held (SparseCore.T d) (RO 0) W) := by
  unfold held; rw [bigSep_insert out_notin0]; rfl

/-- The tiles' shares of call 0, side by side: the thirty-two read tokens of what the call reads, and the thirty-two
    column blocks of the result array. -/
theorem go_eq0 (d : Dev nD) (W : Valuation τ sig (Elt F)) :
    (bigSep Finset.univ fun c : Fin 2 => bigSep Finset.univ fun s : Fin 16 => tileGo m d 0 c s W)
      = iprop((bigSep Finset.univ fun w : Fin 32 => heldAt (SparseCore.T d) (RO 0) (fun _ => shareTok fullShare 32 w) (VA0 m d))
        ∗ bigSep Finset.univ fun w : Fin 32 => ((d, r_out 0) ↦[(colBlk w).set]{fullShare} W (r_out 0))) := by
  unfold tileGo
  rw [← bigSep_wid (fun w => tileGoW m d 0 w W), ← bigSep_sep']
  rfl

/-- Before call 0: the TensorCore's arrays, dealt — each tile its read tokens and its columns of the result array; kept
    aside, what remains of the read arrays' shares and the arrays the call does not touch. -/
theorem deal_out0 (d : Dev nD) :
    (held (SparseCore.T d) UC (VA0 m d) : sProp 𝕄)
      ⊢ iprop((bigSep Finset.univ fun c : Fin 2 => bigSep Finset.univ fun s : Fin 16 => tileGo m d 0 c s (VA0 m d))
          ∗ heldAt (SparseCore.T d) (RO 0) (fun _ => shareDrop fullShare 32) (VA0 m d)
          ∗ held (SparseCore.T d) (UC \ insert (r_out 0) (RO 0)) (VA0 m d)) := by
  rw [held_sub_split (SparseCore.T d) sub_uc0 (VA0 m d), held_ins0,
    pts_blocks (ℓ := (d, r_out 0)) (fun w => (colBlk w).set) blk_disjoint blk_cover, go_eq0]
  iintro ⟨⟨Ho, Hro⟩, Hrest⟩
  ihave H := (held_toks_split (SparseCore.T d) (RO 0) (VA0 m d) 32) $$ Hro
  icases H with ⟨Hdrop, Htoks⟩
  isplitl [Ho Htoks]
  · isplitl [Htoks]; · iexact Htoks
    iexact Ho
  isplitl [Hdrop]; · iexact Hdrop
  iexact Hrest

/-- After call 0: the tiles' shares gathered, the result array whole at the lookup. -/
theorem deal_in0 (d : Dev nD) :
    iprop((bigSep Finset.univ fun c : Fin 2 => bigSep Finset.univ fun s : Fin 16 => tileGo m d 0 c s (VB0 m d))
          ∗ heldAt (SparseCore.T d) (RO 0) (fun _ => shareDrop fullShare 32) (VA0 m d)
          ∗ held (SparseCore.T d) (UC \ insert (r_out 0) (RO 0)) (VA0 m d))
      ⊢ (held (SparseCore.T d) UC (VB0 m d) : sProp 𝕄) := by
  have hro : ∀ b ∈ RO 0, VB0 m d b = VA0 m d b := fun b hb =>
    show Function.update (VA0 m d) (r_out 0) (E m d 0) b = VA0 m d b from
      Function.update_of_ne (show b ≠ r_out 0 from fun e => out_notin0 (by rw [← e]; exact hb)) _ _
  have hrest : ∀ b ∈ UC \ insert (r_out 0) (RO 0), VB0 m d b = VA0 m d b := fun b hb =>
    show Function.update (VA0 m d) (r_out 0) (E m d 0) b = VA0 m d b from
      Function.update_of_ne (show b ≠ r_out 0 from fun e => (Finset.mem_sdiff.mp hb).2 (by rw [e]; exact Finset.mem_insert_self _ _)) _ _
  rw [held_sub_split (SparseCore.T d) sub_uc0 (VB0 m d), held_ins0, held_congr (SparseCore.T d) hro, held_congr (SparseCore.T d) hrest,
    pts_blocks (ℓ := (d, r_out 0)) (fun w => (colBlk w).set) blk_disjoint blk_cover, go_eq0]
  iintro ⟨⟨Htoks, Ho⟩, Hdrop, Hrest⟩
  isplitl [Ho Htoks Hdrop]
  · isplitl [Ho]; · iexact Ho
    iapply (held_toks_join (SparseCore.T d) (RO 0) (VA0 m d) 32)
    isplitl [Hdrop]; · iexact Hdrop
    iexact Htoks
  iexact Hrest

theorem out_notin1 : r_out 1 ∉ RO 1 := by decide
theorem sub_uc1 : insert (r_out 1) (RO 1) ⊆ UC := by decide

omit [FloatOps F] in
theorem held_ins1 (d : Dev nD) (W : Valuation τ sig (Elt F)) :
    (held (SparseCore.T d) (insert (r_out 1) (RO 1)) W : sProp 𝕄)
      = iprop(((d, r_out 1) ↦{fullShare} W (r_out 1)) ∗ held (SparseCore.T d) (RO 1) W) := by
  unfold held; rw [bigSep_insert out_notin1]; rfl

/-- The tiles' shares of call 1, side by side: the thirty-two read tokens of what the call reads, and the thirty-two
    column blocks of the result array. -/
theorem go_eq1 (d : Dev nD) (W : Valuation τ sig (Elt F)) :
    (bigSep Finset.univ fun c : Fin 2 => bigSep Finset.univ fun s : Fin 16 => tileGo m d 1 c s W)
      = iprop((bigSep Finset.univ fun w : Fin 32 => heldAt (SparseCore.T d) (RO 1) (fun _ => shareTok fullShare 32 w) (VA1 m d))
        ∗ bigSep Finset.univ fun w : Fin 32 => ((d, r_out 1) ↦[(colBlk w).set]{fullShare} W (r_out 1))) := by
  unfold tileGo
  rw [← bigSep_wid (fun w => tileGoW m d 1 w W), ← bigSep_sep']
  rfl

/-- Before call 1: the TensorCore's arrays, dealt — each tile its read tokens and its columns of the result array; kept
    aside, what remains of the read arrays' shares and the arrays the call does not touch. -/
theorem deal_out1 (d : Dev nD) :
    (held (SparseCore.T d) UC (VA1 m d) : sProp 𝕄)
      ⊢ iprop((bigSep Finset.univ fun c : Fin 2 => bigSep Finset.univ fun s : Fin 16 => tileGo m d 1 c s (VA1 m d))
          ∗ heldAt (SparseCore.T d) (RO 1) (fun _ => shareDrop fullShare 32) (VA1 m d)
          ∗ held (SparseCore.T d) (UC \ insert (r_out 1) (RO 1)) (VA1 m d)) := by
  rw [held_sub_split (SparseCore.T d) sub_uc1 (VA1 m d), held_ins1,
    pts_blocks (ℓ := (d, r_out 1)) (fun w => (colBlk w).set) blk_disjoint blk_cover, go_eq1]
  iintro ⟨⟨Ho, Hro⟩, Hrest⟩
  ihave H := (held_toks_split (SparseCore.T d) (RO 1) (VA1 m d) 32) $$ Hro
  icases H with ⟨Hdrop, Htoks⟩
  isplitl [Ho Htoks]
  · isplitl [Htoks]; · iexact Htoks
    iexact Ho
  isplitl [Hdrop]; · iexact Hdrop
  iexact Hrest

/-- After call 1: the tiles' shares gathered, the result array whole at the lookup. -/
theorem deal_in1 (d : Dev nD) :
    iprop((bigSep Finset.univ fun c : Fin 2 => bigSep Finset.univ fun s : Fin 16 => tileGo m d 1 c s (VB1 m d))
          ∗ heldAt (SparseCore.T d) (RO 1) (fun _ => shareDrop fullShare 32) (VA1 m d)
          ∗ held (SparseCore.T d) (UC \ insert (r_out 1) (RO 1)) (VA1 m d))
      ⊢ (held (SparseCore.T d) UC (VB1 m d) : sProp 𝕄) := by
  have hro : ∀ b ∈ RO 1, VB1 m d b = VA1 m d b := fun b hb =>
    show Function.update (VA1 m d) (r_out 1) (E m d 1) b = VA1 m d b from
      Function.update_of_ne (show b ≠ r_out 1 from fun e => out_notin1 (by rw [← e]; exact hb)) _ _
  have hrest : ∀ b ∈ UC \ insert (r_out 1) (RO 1), VB1 m d b = VA1 m d b := fun b hb =>
    show Function.update (VA1 m d) (r_out 1) (E m d 1) b = VA1 m d b from
      Function.update_of_ne (show b ≠ r_out 1 from fun e => (Finset.mem_sdiff.mp hb).2 (by rw [e]; exact Finset.mem_insert_self _ _)) _ _
  rw [held_sub_split (SparseCore.T d) sub_uc1 (VB1 m d), held_ins1, held_congr (SparseCore.T d) hro, held_congr (SparseCore.T d) hrest,
    pts_blocks (ℓ := (d, r_out 1)) (fun w => (colBlk w).set) blk_disjoint blk_cover, go_eq1]
  iintro ⟨⟨Htoks, Ho⟩, Hdrop, Hrest⟩
  isplitl [Ho Htoks Hdrop]
  · isplitl [Ho]; · iexact Ho
    iapply (held_toks_join (SparseCore.T d) (RO 1) (VA1 m d) 32)
    isplitl [Hdrop]; · iexact Hdrop
    iexact Htoks
  iexact Hrest

theorem out_notin2 : r_out 2 ∉ RO 2 := by decide
theorem sub_uc2 : insert (r_out 2) (RO 2) ⊆ UC := by decide

omit [FloatOps F] in
theorem held_ins2 (d : Dev nD) (W : Valuation τ sig (Elt F)) :
    (held (SparseCore.T d) (insert (r_out 2) (RO 2)) W : sProp 𝕄)
      = iprop(((d, r_out 2) ↦{fullShare} W (r_out 2)) ∗ held (SparseCore.T d) (RO 2) W) := by
  unfold held; rw [bigSep_insert out_notin2]; rfl

/-- The tiles' shares of call 2, side by side: the thirty-two read tokens of what the call reads, and the thirty-two
    column blocks of the result array. -/
theorem go_eq2 (d : Dev nD) (W : Valuation τ sig (Elt F)) :
    (bigSep Finset.univ fun c : Fin 2 => bigSep Finset.univ fun s : Fin 16 => tileGo m d 2 c s W)
      = iprop((bigSep Finset.univ fun w : Fin 32 => heldAt (SparseCore.T d) (RO 2) (fun _ => shareTok fullShare 32 w) (VA2 m d))
        ∗ bigSep Finset.univ fun w : Fin 32 => ((d, r_out 2) ↦[(colBlk w).set]{fullShare} W (r_out 2))) := by
  unfold tileGo
  rw [← bigSep_wid (fun w => tileGoW m d 2 w W), ← bigSep_sep']
  rfl

/-- Before call 2: the TensorCore's arrays, dealt — each tile its read tokens and its columns of the result array; kept
    aside, what remains of the read arrays' shares and the arrays the call does not touch. -/
theorem deal_out2 (d : Dev nD) :
    (held (SparseCore.T d) UC (VA2 m d) : sProp 𝕄)
      ⊢ iprop((bigSep Finset.univ fun c : Fin 2 => bigSep Finset.univ fun s : Fin 16 => tileGo m d 2 c s (VA2 m d))
          ∗ heldAt (SparseCore.T d) (RO 2) (fun _ => shareDrop fullShare 32) (VA2 m d)
          ∗ held (SparseCore.T d) (UC \ insert (r_out 2) (RO 2)) (VA2 m d)) := by
  rw [held_sub_split (SparseCore.T d) sub_uc2 (VA2 m d), held_ins2,
    pts_blocks (ℓ := (d, r_out 2)) (fun w => (colBlk w).set) blk_disjoint blk_cover, go_eq2]
  iintro ⟨⟨Ho, Hro⟩, Hrest⟩
  ihave H := (held_toks_split (SparseCore.T d) (RO 2) (VA2 m d) 32) $$ Hro
  icases H with ⟨Hdrop, Htoks⟩
  isplitl [Ho Htoks]
  · isplitl [Htoks]; · iexact Htoks
    iexact Ho
  isplitl [Hdrop]; · iexact Hdrop
  iexact Hrest

/-- After call 2: the tiles' shares gathered, the result array whole at the lookup. -/
theorem deal_in2 (d : Dev nD) :
    iprop((bigSep Finset.univ fun c : Fin 2 => bigSep Finset.univ fun s : Fin 16 => tileGo m d 2 c s (VB2 m d))
          ∗ heldAt (SparseCore.T d) (RO 2) (fun _ => shareDrop fullShare 32) (VA2 m d)
          ∗ held (SparseCore.T d) (UC \ insert (r_out 2) (RO 2)) (VA2 m d))
      ⊢ (held (SparseCore.T d) UC (VB2 m d) : sProp 𝕄) := by
  have hro : ∀ b ∈ RO 2, VB2 m d b = VA2 m d b := fun b hb =>
    show Function.update (VA2 m d) (r_out 2) (E m d 2) b = VA2 m d b from
      Function.update_of_ne (show b ≠ r_out 2 from fun e => out_notin2 (by rw [← e]; exact hb)) _ _
  have hrest : ∀ b ∈ UC \ insert (r_out 2) (RO 2), VB2 m d b = VA2 m d b := fun b hb =>
    show Function.update (VA2 m d) (r_out 2) (E m d 2) b = VA2 m d b from
      Function.update_of_ne (show b ≠ r_out 2 from fun e => (Finset.mem_sdiff.mp hb).2 (by rw [e]; exact Finset.mem_insert_self _ _)) _ _
  rw [held_sub_split (SparseCore.T d) sub_uc2 (VB2 m d), held_ins2, held_congr (SparseCore.T d) hro, held_congr (SparseCore.T d) hrest,
    pts_blocks (ℓ := (d, r_out 2)) (fun w => (colBlk w).set) blk_disjoint blk_cover, go_eq2]
  iintro ⟨⟨Htoks, Ho⟩, Hdrop, Hrest⟩
  isplitl [Ho Htoks Hdrop]
  · isplitl [Ho]; · iexact Ho
    iapply (held_toks_join (SparseCore.T d) (RO 2) (VA2 m d) 32)
    isplitl [Hdrop]; · iexact Hdrop
    iexact Htoks
  iexact Hrest

theorem out_notin3 : r_out 3 ∉ RO 3 := by decide
theorem sub_uc3 : insert (r_out 3) (RO 3) ⊆ UC := by decide

omit [FloatOps F] in
theorem held_ins3 (d : Dev nD) (W : Valuation τ sig (Elt F)) :
    (held (SparseCore.T d) (insert (r_out 3) (RO 3)) W : sProp 𝕄)
      = iprop(((d, r_out 3) ↦{fullShare} W (r_out 3)) ∗ held (SparseCore.T d) (RO 3) W) := by
  unfold held; rw [bigSep_insert out_notin3]; rfl

/-- The tiles' shares of call 3, side by side: the thirty-two read tokens of what the call reads, and the thirty-two
    column blocks of the result array. -/
theorem go_eq3 (d : Dev nD) (W : Valuation τ sig (Elt F)) :
    (bigSep Finset.univ fun c : Fin 2 => bigSep Finset.univ fun s : Fin 16 => tileGo m d 3 c s W)
      = iprop((bigSep Finset.univ fun w : Fin 32 => heldAt (SparseCore.T d) (RO 3) (fun _ => shareTok fullShare 32 w) (VA3 m d))
        ∗ bigSep Finset.univ fun w : Fin 32 => ((d, r_out 3) ↦[(colBlk w).set]{fullShare} W (r_out 3))) := by
  unfold tileGo
  rw [← bigSep_wid (fun w => tileGoW m d 3 w W), ← bigSep_sep']
  rfl

/-- Before call 3: the TensorCore's arrays, dealt — each tile its read tokens and its columns of the result array; kept
    aside, what remains of the read arrays' shares and the arrays the call does not touch. -/
theorem deal_out3 (d : Dev nD) :
    (held (SparseCore.T d) UC (VA3 m d) : sProp 𝕄)
      ⊢ iprop((bigSep Finset.univ fun c : Fin 2 => bigSep Finset.univ fun s : Fin 16 => tileGo m d 3 c s (VA3 m d))
          ∗ heldAt (SparseCore.T d) (RO 3) (fun _ => shareDrop fullShare 32) (VA3 m d)
          ∗ held (SparseCore.T d) (UC \ insert (r_out 3) (RO 3)) (VA3 m d)) := by
  rw [held_sub_split (SparseCore.T d) sub_uc3 (VA3 m d), held_ins3,
    pts_blocks (ℓ := (d, r_out 3)) (fun w => (colBlk w).set) blk_disjoint blk_cover, go_eq3]
  iintro ⟨⟨Ho, Hro⟩, Hrest⟩
  ihave H := (held_toks_split (SparseCore.T d) (RO 3) (VA3 m d) 32) $$ Hro
  icases H with ⟨Hdrop, Htoks⟩
  isplitl [Ho Htoks]
  · isplitl [Htoks]; · iexact Htoks
    iexact Ho
  isplitl [Hdrop]; · iexact Hdrop
  iexact Hrest

/-- After call 3: the tiles' shares gathered, the result array whole at the lookup. -/
theorem deal_in3 (d : Dev nD) :
    iprop((bigSep Finset.univ fun c : Fin 2 => bigSep Finset.univ fun s : Fin 16 => tileGo m d 3 c s (VB3 m d))
          ∗ heldAt (SparseCore.T d) (RO 3) (fun _ => shareDrop fullShare 32) (VA3 m d)
          ∗ held (SparseCore.T d) (UC \ insert (r_out 3) (RO 3)) (VA3 m d))
      ⊢ (held (SparseCore.T d) UC (VB3 m d) : sProp 𝕄) := by
  have hro : ∀ b ∈ RO 3, VB3 m d b = VA3 m d b := fun b hb =>
    show Function.update (VA3 m d) (r_out 3) (E m d 3) b = VA3 m d b from
      Function.update_of_ne (show b ≠ r_out 3 from fun e => out_notin3 (by rw [← e]; exact hb)) _ _
  have hrest : ∀ b ∈ UC \ insert (r_out 3) (RO 3), VB3 m d b = VA3 m d b := fun b hb =>
    show Function.update (VA3 m d) (r_out 3) (E m d 3) b = VA3 m d b from
      Function.update_of_ne (show b ≠ r_out 3 from fun e => (Finset.mem_sdiff.mp hb).2 (by rw [e]; exact Finset.mem_insert_self _ _)) _ _
  rw [held_sub_split (SparseCore.T d) sub_uc3 (VB3 m d), held_ins3, held_congr (SparseCore.T d) hro, held_congr (SparseCore.T d) hrest,
    pts_blocks (ℓ := (d, r_out 3)) (fun w => (colBlk w).set) blk_disjoint blk_cover, go_eq3]
  iintro ⟨⟨Htoks, Ho⟩, Hdrop, Hrest⟩
  isplitl [Ho Htoks Hdrop]
  · isplitl [Ho]; · iexact Ho
    iapply (held_toks_join (SparseCore.T d) (RO 3) (VA3 m d) 32)
    isplitl [Hdrop]; · iexact Hdrop
    iexact Htoks
  iexact Hrest

end Cert.Proof.KernelIdealC

end
-- ==== Proof.MainI.lean ====
/-
  The launch element and @main on the TensorCore.

  The ghost state's launch element is the handshakes' rounds beside the rounds of the projection pipeline's staging
  cells; the first goes to the launch theorem, the second funds those cells' ghost state, which @main's proof keeps
  until the projection's region. No kernel consumes anything of the launch's.
-/
import proofs.«204991_g57140244906297_cont_9to1_m_249_19_alg».proof.Proof.DealI
import proofs.«204991_g57140244906297_cont_9to1_m_249_19_alg».proof.Proof.LibDeal
import proofs.«204991_g57140244906297_cont_9to1_m_249_19_alg».proof.Proof.Gen.KernelIdeal.Launch
import Idealize.ShloMosaic.Lib.Pipeline.Sound

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt held_split held_sdiff_result wp_hlo_within held_sub_split held_congr)
open Idealize.ShloMosaic.Transfers (shareTok shareDrop)
open Idealize.ShloMosaic.Tactic
open Cert.LibDeal (wid)

variable {F : FTy → Type}

local notation "𝕄" => MT nD τ sig (HIx 4) (Elt F) ℕ UU ℕ

variable [FloatOps F]
variable (m : (ℓ : Loc nD τ sig) → Buf (Elt F) ℓ) (ρ : Dev nD → PrngReg)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside what the launch deals the TensorCore: the ghost state of the projection
    pipeline's staging cells and their duty tokens. -/
abbrev G (d : Dev nD) : sProp 𝕄 :=
  iprop(Pipeline.cellsGhost cfgs (EP (F := F)) (0 : Fin 1) d ∗ Pipeline.toksInit cfgs (EP (F := F)) (0 : Fin 1) d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (cfgs := cfgs) (ER := EP (F := F)) cellOf_inj) $$ HP with ⟨Hg, Ht⟩
  imodintro
  isplitl [HH]; · iexact HH
  isplitl [Hg Ht]
  · unfold G
    rw [bigSep_sep']
    rw [bigSep_congr (fun (c : Dev nD) _ => bigSep_univ_of_subsingleton (Φ := fun p : Fin 1 => Pipeline.cellsGhost cfgs (EP (F := F)) p c) (0 : Fin 1)),
      bigSep_congr (fun (c : Dev nD) _ => bigSep_univ_of_subsingleton (Φ := fun p : Fin 1 => Pipeline.toksInit cfgs (EP (F := F)) p c) (0 : Fin 1))]
    first
      | exact BI.Entails.refl _
      | (isplitl [Hg]; · iexact Hg
         iexact Ht)
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-! ## The calls on the TensorCore -/

theorem st_eq0 (d : Dev nD) : (bigSep Finset.univ fun c : Fin ((K (F := F)).nCore 0) => (P m).st 0 d c)
    = bigSep Finset.univ fun c : Fin 2 => bigSep Finset.univ fun s : Fin 16 => tileGo m d 0 c s (VA0 m d) := rfl
theorem dn_eq0 (d : Dev nD) : (bigSep Finset.univ fun c : Fin ((K (F := F)).nCore 0) => (P m).dn 0 d c)
    = bigSep Finset.univ fun c : Fin 2 => bigSep Finset.univ fun s : Fin 16 => tileGo m d 0 c s (VB0 m d) := rfl

/-- Call 0 on the TensorCore: the arrays dealt to the tiles, the call, the arrays gathered with the result array at the
    lookup. -/
theorem call_step0 (κ : GSem nD τ sig → ℕ) (d : Dev nD) {Φ : PUnit → sProp 𝕄} :
    iprop((K (F := F)).ctx EH (P m) κ ∗ (K (F := F)).tcSt EH d 0 ∗ held (SparseCore.T d) UC (VA0 m d)
        ∗ (((K (F := F)).tcSt EH d 1 ∗ held (SparseCore.T d) UC (VB0 m d)) -∗ Φ ⟨⟩))
      ⊢ wp frame (wpE ((K (F := F)).defs (D (F := F))) 𝒱 (SparseCore.T d) none) Set.univ ((K (F := F)).run d 0) Φ := by
  iintro ⟨#Hctx, Hst, Hheld, Hk⟩
  ihave H := (deal_out0 m d) $$ Hheld
  icases H with ⟨Hgo, Hdrop, Hrest⟩
  iapply ((K (F := F)).wp_run (D (F := F)) 𝒱 (EH := EH) (P := P m) κ d 0) $$ [Hst Hgo Hdrop Hrest Hk]
  isplitr; · iexact Hctx
  isplitl [Hst]; · iexact Hst
  isplitl [Hgo]
  · iapply (Entails.of_eq (st_eq0 m d).symm); iexact Hgo
  iintro ⟨Hst, Hdn⟩
  ihave Hdn' := (Entails.of_eq (dn_eq0 m d)) $$ Hdn
  iapply Hk
  isplitl [Hst]; · iexact Hst
  iapply (deal_in0 m d)
  isplitl [Hdn']; · iexact Hdn'
  isplitl [Hdrop]; · iexact Hdrop
  iexact Hrest

theorem st_eq1 (d : Dev nD) : (bigSep Finset.univ fun c : Fin ((K (F := F)).nCore 1) => (P m).st 1 d c)
    = bigSep Finset.univ fun c : Fin 2 => bigSep Finset.univ fun s : Fin 16 => tileGo m d 1 c s (VA1 m d) := rfl
theorem dn_eq1 (d : Dev nD) : (bigSep Finset.univ fun c : Fin ((K (F := F)).nCore 1) => (P m).dn 1 d c)
    = bigSep Finset.univ fun c : Fin 2 => bigSep Finset.univ fun s : Fin 16 => tileGo m d 1 c s (VB1 m d) := rfl

/-- Call 1 on the TensorCore: the arrays dealt to the tiles, the call, the arrays gathered with the result array at the
    lookup. -/
theorem call_step1 (κ : GSem nD τ sig → ℕ) (d : Dev nD) {Φ : PUnit → sProp 𝕄} :
    iprop((K (F := F)).ctx EH (P m) κ ∗ (K (F := F)).tcSt EH d 1 ∗ held (SparseCore.T d) UC (VA1 m d)
        ∗ (((K (F := F)).tcSt EH d 2 ∗ held (SparseCore.T d) UC (VB1 m d)) -∗ Φ ⟨⟩))
      ⊢ wp frame (wpE ((K (F := F)).defs (D (F := F))) 𝒱 (SparseCore.T d) none) Set.univ ((K (F := F)).run d 1) Φ := by
  iintro ⟨#Hctx, Hst, Hheld, Hk⟩
  ihave H := (deal_out1 m d) $$ Hheld
  icases H with ⟨Hgo, Hdrop, Hrest⟩
  iapply ((K (F := F)).wp_run (D (F := F)) 𝒱 (EH := EH) (P := P m) κ d 1) $$ [Hst Hgo Hdrop Hrest Hk]
  isplitr; · iexact Hctx
  isplitl [Hst]; · iexact Hst
  isplitl [Hgo]
  · iapply (Entails.of_eq (st_eq1 m d).symm); iexact Hgo
  iintro ⟨Hst, Hdn⟩
  ihave Hdn' := (Entails.of_eq (dn_eq1 m d)) $$ Hdn
  iapply Hk
  isplitl [Hst]; · iexact Hst
  iapply (deal_in1 m d)
  isplitl [Hdn']; · iexact Hdn'
  isplitl [Hdrop]; · iexact Hdrop
  iexact Hrest

theorem st_eq2 (d : Dev nD) : (bigSep Finset.univ fun c : Fin ((K (F := F)).nCore 2) => (P m).st 2 d c)
    = bigSep Finset.univ fun c : Fin 2 => bigSep Finset.univ fun s : Fin 16 => tileGo m d 2 c s (VA2 m d) := rfl
theorem dn_eq2 (d : Dev nD) : (bigSep Finset.univ fun c : Fin ((K (F := F)).nCore 2) => (P m).dn 2 d c)
    = bigSep Finset.univ fun c : Fin 2 => bigSep Finset.univ fun s : Fin 16 => tileGo m d 2 c s (VB2 m d) := rfl

/-- Call 2 on the TensorCore: the arrays dealt to the tiles, the call, the arrays gathered with the result array at the
    lookup. -/
theorem call_step2 (κ : GSem nD τ sig → ℕ) (d : Dev nD) {Φ : PUnit → sProp 𝕄} :
    iprop((K (F := F)).ctx EH (P m) κ ∗ (K (F := F)).tcSt EH d 2 ∗ held (SparseCore.T d) UC (VA2 m d)
        ∗ (((K (F := F)).tcSt EH d 3 ∗ held (SparseCore.T d) UC (VB2 m d)) -∗ Φ ⟨⟩))
      ⊢ wp frame (wpE ((K (F := F)).defs (D (F := F))) 𝒱 (SparseCore.T d) none) Set.univ ((K (F := F)).run d 2) Φ := by
  iintro ⟨#Hctx, Hst, Hheld, Hk⟩
  ihave H := (deal_out2 m d) $$ Hheld
  icases H with ⟨Hgo, Hdrop, Hrest⟩
  iapply ((K (F := F)).wp_run (D (F := F)) 𝒱 (EH := EH) (P := P m) κ d 2) $$ [Hst Hgo Hdrop Hrest Hk]
  isplitr; · iexact Hctx
  isplitl [Hst]; · iexact Hst
  isplitl [Hgo]
  · iapply (Entails.of_eq (st_eq2 m d).symm); iexact Hgo
  iintro ⟨Hst, Hdn⟩
  ihave Hdn' := (Entails.of_eq (dn_eq2 m d)) $$ Hdn
  iapply Hk
  isplitl [Hst]; · iexact Hst
  iapply (deal_in2 m d)
  isplitl [Hdn']; · iexact Hdn'
  isplitl [Hdrop]; · iexact Hdrop
  iexact Hrest

theorem st_eq3 (d : Dev nD) : (bigSep Finset.univ fun c : Fin ((K (F := F)).nCore 3) => (P m).st 3 d c)
    = bigSep Finset.univ fun c : Fin 2 => bigSep Finset.univ fun s : Fin 16 => tileGo m d 3 c s (VA3 m d) := rfl
theorem dn_eq3 (d : Dev nD) : (bigSep Finset.univ fun c : Fin ((K (F := F)).nCore 3) => (P m).dn 3 d c)
    = bigSep Finset.univ fun c : Fin 2 => bigSep Finset.univ fun s : Fin 16 => tileGo m d 3 c s (VB3 m d) := rfl

/-- Call 3 on the TensorCore: the arrays dealt to the tiles, the call, the arrays gathered with the result array at the
    lookup. -/
theorem call_step3 (κ : GSem nD τ sig → ℕ) (d : Dev nD) {Φ : PUnit → sProp 𝕄} :
    iprop((K (F := F)).ctx EH (P m) κ ∗ (K (F := F)).tcSt EH d 3 ∗ held (SparseCore.T d) UC (VA3 m d)
        ∗ (((K (F := F)).tcSt EH d 4 ∗ held (SparseCore.T d) UC (VB3 m d)) -∗ Φ ⟨⟩))
      ⊢ wp frame (wpE ((K (F := F)).defs (D (F := F))) 𝒱 (SparseCore.T d) none) Set.univ ((K (F := F)).run d 3) Φ := by
  iintro ⟨#Hctx, Hst, Hheld, Hk⟩
  ihave H := (deal_out3 m d) $$ Hheld
  icases H with ⟨Hgo, Hdrop, Hrest⟩
  iapply ((K (F := F)).wp_run (D (F := F)) 𝒱 (EH := EH) (P := P m) κ d 3) $$ [Hst Hgo Hdrop Hrest Hk]
  isplitr; · iexact Hctx
  isplitl [Hst]; · iexact Hst
  isplitl [Hgo]
  · iapply (Entails.of_eq (st_eq3 m d).symm); iexact Hgo
  iintro ⟨Hst, Hdn⟩
  ihave Hdn' := (Entails.of_eq (dn_eq3 m d)) $$ Hdn
  iapply Hk
  isplitl [Hst]; · iexact Hst
  iapply (deal_in3 m d)
  isplitl [Hdn']; · iexact Hdn'
  isplitl [Hdrop]; · iexact Hdrop
  iexact Hrest

/-! ## @main -/

theorem hop1 : (op1 (F := F)).bufs ⊆ UC :=
  show ({Proc.devRef .tc (main_arg4 : Ref sig .tc), Proc.devRef .tc (main_v0 : Ref sig .tc)} : Finset (DevRef τ sig)) ⊆ UC by decide
theorem hop2 : (op2 (F := F)).bufs ⊆ UC :=
  show ({Proc.devRef .tc (main_arg4 : Ref sig .tc), Proc.devRef .tc (main_v1 : Ref sig .tc)} : Finset (DevRef τ sig)) ⊆ UC by decide
theorem hop3 : (op3 (F := F)).bufs ⊆ UC :=
  show ({Proc.devRef .tc (main_v1 : Ref sig .tc), Proc.devRef .tc (main_v2 : Ref sig .tc)} : Finset (DevRef τ sig)) ⊆ UC by decide
theorem hop4 : (op4 (F := F)).bufs ⊆ UC :=
  show ({Proc.devRef .tc (main_arg5 : Ref sig .tc), Proc.devRef .tc (main_v4 : Ref sig .tc)} : Finset (DevRef τ sig)) ⊆ UC by decide
theorem hop5 : (op5 (F := F)).bufs ⊆ UC :=
  show ({Proc.devRef .tc (main_arg6 : Ref sig .tc), Proc.devRef .tc (main_v6 : Ref sig .tc)} : Finset (DevRef τ sig)) ⊆ UC by decide
theorem hop6 : (op6 (F := F)).bufs ⊆ UC :=
  show ({Proc.devRef .tc (main_arg7 : Ref sig .tc), Proc.devRef .tc (main_v8 : Ref sig .tc)} : Finset (DevRef τ sig)) ⊆ UC by decide
theorem hop7 : (op7 (F := F)).bufs ⊆ UC :=
  show ({Proc.devRef .tc (main_arg7 : Ref sig .tc), Proc.devRef .tc (main_v9 : Ref sig .tc)} : Finset (DevRef τ sig)) ⊆ UC by decide
theorem hop8 : (op8 (F := F)).bufs ⊆ UC :=
  show ({Proc.devRef .tc (main_v9 : Ref sig .tc), Proc.devRef .tc (main_v10 : Ref sig .tc)} : Finset (DevRef τ sig)) ⊆ UC by decide
theorem hop9 : (op9 (F := F)).bufs ⊆ UC :=
  show ({Proc.devRef .tc (main_arg9 : Ref sig .tc), Proc.devRef .tc (main_v12 : Ref sig .tc)} : Finset (DevRef τ sig)) ⊆ UC by decide

section Main

-- the projection's result, as a function of the launch memory: supplied with the region's proof
variable (PV : (d : Dev nD) → (⟨2, ![16384, 64]⟩ : Shape).Idx → Elt F .f32)

abbrev r_res : DevRef τ sig := Proc.devRef .tc (main_v13 : Ref sig .tc)

/-- The TensorCore's arrays when @main ends: the result array at the projection, the rest as before the region. -/
def VFin (d : Dev nD) : Valuation τ sig (Elt F) := Function.update (VA4 m d) r_res (PV d)

abbrev FIN (d : Dev nD) : sProp 𝕄 := held (SparseCore.T d) UC (VFin m PV d)

/-- The projection's region, from all of the TensorCore's arrays to all of them with the result array at the
    projection: the region's own proof, stated over the arrays it uses, fits this by framing the others. -/
def RegionOK : Prop := ∀ (d : Dev nD),
    iprop(levAts (K (F := F)).L (K (F := F)).lev ∗ (∃ W, ⌜(K (F := F)).WBelow (SparseCore.T d) W (8 * 4)⌝ ∗ owes (SparseCore.T d) 0 W)
        ∗ boundary (SparseCore.T d) ∗ G (F := F) d ∗ held (SparseCore.T d) UC (VA4 m d))
      ⊢ wp frame (wpE ((K (F := F)).defs (D (F := F))) 𝒱 (SparseCore.T d) none) Set.univ
          (Prog.lift (.customCall (SparseCore.inner (Pipeline.entry 0)) ()) :
            Prog (TpuEff nD τ sig (Elt F) (SparseCore.Sig (Pipeline.Sig Λ₀ (Fin 1) fun p => (pcfgs (F := F) p).Adm) 4) .tc) PUnit)
          fun _ => iprop((∃ W, ⌜(K (F := F)).WBelow (SparseCore.T d) W (8 * 4)⌝ ∗ owes (SparseCore.T d) 0 W)
            ∗ boundary (SparseCore.T d) ∗ held (SparseCore.T d) UC (VFin m PV d))

/-- @main on device `d`'s TensorCore: the host operations over all of its arrays held whole, each call through its
    step, the projection's region last. -/
theorem hmain (hregion : RegionOK m PV) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m PV d) := by
  unfold SparseCore.Cfg.tcRes
  rw [show (unscopedBufs d (fun b => m ((SparseCore.T d).loc b)) : sProp 𝕄) = held (SparseCore.T d) UC (V0 m d) from
    Pipeline.unscopedBufs_held d (V0 m d)]
  simp only [main, wp_bind, wp_pure]
  iintro ⟨#Hctx, Hst, ⟨Hb, Hheld, -, -⟩, HG⟩
  iapply (wp_hlo_within 𝒱 (SparseCore.T d) none Set.univ (op := op1 (F := F)) (S := UC) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := UC) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := UC) hop3 (V := (op2 (F := F)).result ((op1 (F := F)).result (V0 m d)))) $$ [Hb Hheld]
  · isplitl [Hb]; · iexact Hb
    iexact Hheld
  iintro ⟨Hb, Hheld⟩
  rw [wp_ret]; imodintro
  iapply (call_step0 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op4 (F := F)) (S := UC) hop4 (V := VB0 m d)) $$ [Hb Hheld]
  · isplitl [Hb]; · iexact Hb
    iexact Hheld
  iintro ⟨Hb, Hheld⟩
  rw [wp_ret]; imodintro
  iapply (call_step1 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op5 (F := F)) (S := UC) hop5 (V := VB1 m d)) $$ [Hb Hheld]
  · isplitl [Hb]; · iexact Hb
    iexact Hheld
  iintro ⟨Hb, Hheld⟩
  rw [wp_ret]; imodintro
  iapply (call_step2 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op6 (F := F)) (S := UC) hop6 (V := VB2 m d)) $$ [Hb Hheld]
  · isplitl [Hb]; · iexact Hb
    iexact Hheld
  iintro ⟨Hb, Hheld⟩
  rw [wp_ret]; imodintro
  iapply (wp_hlo_within 𝒱 (SparseCore.T d) none Set.univ (op := op7 (F := F)) (S := UC) hop7 (V := (op6 (F := F)).result (VB2 m d))) $$ [Hb Hheld]
  · isplitl [Hb]; · iexact Hb
    iexact Hheld
  iintro ⟨Hb, Hheld⟩
  rw [wp_ret]; imodintro
  iapply (wp_hlo_within 𝒱 (SparseCore.T d) none Set.univ (op := op8 (F := F)) (S := UC) hop8 (V := (op7 (F := F)).result ((op6 (F := F)).result (VB2 m d)))) $$ [Hb Hheld]
  · isplitl [Hb]; · iexact Hb
    iexact Hheld
  iintro ⟨Hb, Hheld⟩
  rw [wp_ret]; imodintro
  iapply (call_step3 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op9 (F := F)) (S := UC) hop9 (V := VB3 m d)) $$ [Hb Hheld]
  · isplitl [Hb]; · iexact Hb
    iexact Hheld
  iintro ⟨Hb, Hheld⟩
  rw [wp_ret]; imodintro
  -- the projection's region: the TensorCore owes nothing any more
  unfold SparseCore.Cfg.tcSt
  rw [(K (F := F)).Otc_end d le_rfl]
  icases Hst with ⟨HO, Hrest⟩
  ihave Hlev := ((K (F := F)).ctx_levAts κ) $$ Hctx
  iapply (wp_wand_r frame _ Set.univ)
  isplitl [Hlev HO Hb HG Hheld]
  · iapply (hregion d)
    isplitl [Hlev]; · iexact Hlev
    isplitl [HO]; · iexact HO
    isplitl [Hb]; · iexact Hb
    isplitl [HG]; · iexact HG
    iexact Hheld
  iintro %_ ⟨HO, -, Hheld⟩
  imodintro
  isplitl [HO Hrest]
  · isplitl [HO]; · iexact HO
    iexact Hrest
  iexact Hheld

end Main

end Cert.Proof.KernelIdealC

end
-- ==== Proof.ValsI.lean ====
/-
  The valuations between the calls, read at the arrays that matter: a call's index array is the launch memory's; the
  table it is handed is the host operation's function of the launch memory's table (the transpose; the last 64 rows,
  flattened; the table four rows to a row); before the projection the four result arrays are the four lookups, the
  weights the launch memory's, the bias row the launch memory's bias as one row.
-/
import proofs.«204991_g57140244906297_cont_9to1_m_249_19_alg».proof.Proof.LaunchDefsI

noncomputable section

namespace Cert.Proof.KernelIdealC

open Cert.KernelIdeal Cert.KernelIdeal.Gen
open Idealize.ShloMosaic

/-- Reads a chain of host operations' results and updates at one array: at the array an operation writes, its
    function of its operand; at any other, the valuation before it. -/
macro "read_vals" : tactic =>
  `(tactic| repeat (first
      | rw [StableHlo.reshape_result] | rw [StableHlo.unary_result]
      | (rw [StableHlo.unary_result_ne]; rotate_left; decide)
      | (rw [StableHlo.reshape_result_ne]; rotate_left; decide)
      | rw [Function.update_self]
      | (rw [Function.update_of_ne]; rotate_left; decide)))

variable {F : FTy → Type} [FloatOps F]
variable (m : (ℓ : Loc nD τ sig) → Buf (Elt F) ℓ) (d : Dev nD)

abbrev a_T0 : DevRef τ sig := Proc.devRef .tc (main_arg4 : Ref sig .tc)
abbrev a_T1 : DevRef τ sig := Proc.devRef .tc (main_arg5 : Ref sig .tc)
abbrev a_T2 : DevRef τ sig := Proc.devRef .tc (main_arg6 : Ref sig .tc)
abbrev a_T3 : DevRef τ sig := Proc.devRef .tc (main_arg7 : Ref sig .tc)
abbrev a_W : DevRef τ sig := Proc.devRef .tc (main_arg8 : Ref sig .tc)
abbrev a_b : DevRef τ sig := Proc.devRef .tc (main_arg9 : Ref sig .tc)
abbrev r_tt0 : DevRef τ sig := Proc.devRef .tc (main_v0 : Ref sig .tc)
abbrev r_tl0 : DevRef τ sig := Proc.devRef .tc (main_v2 : Ref sig .tc)
abbrev r_tq1 : DevRef τ sig := Proc.devRef .tc (main_v4 : Ref sig .tc)
abbrev r_tq2 : DevRef τ sig := Proc.devRef .tc (main_v6 : Ref sig .tc)
abbrev r_tt3 : DevRef τ sig := Proc.devRef .tc (main_v8 : Ref sig .tc)
abbrev r_tl3 : DevRef τ sig := Proc.devRef .tc (main_v10 : Ref sig .tc)
abbrev r_b2 : DevRef τ sig := Proc.devRef .tc (main_v12 : Ref sig .tc)

theorem VA0_ids : VA0 m d (r_ids 0) = m (d, r_ids 0) := by
  unfold VA0 V0; read_vals
theorem VA0_tt : VA0 m d r_tt0 = transpose S32x1000000 [1, 0] (m (d, a_T0)) transposes_S1000000x32_S32x1000000_1_0 := by
  unfold VA0 V0; read_vals
theorem VA0_tl : VA0 m d r_tl0
    = shapeCast S2048 (extractStridedSlice S64x32 ![999936, 0] (m (d, a_T0)) slices_S1000000x32_S64x32_999936_0) shapeCasts_S64x32_S2048 := by
  unfold VA0 V0; read_vals; rfl
theorem VA1_ids : VA1 m d (r_ids 1) = m (d, r_ids 1) := by
  unfold VA1 VB0 VA0 V0; read_vals
theorem VA1_tq : VA1 m d r_tq1 = shapeCast S25000x128 (m (d, a_T1)) shapeCasts_S100000x32_S25000x128 := by
  unfold VA1 VB0 VA0 V0; read_vals; rfl
theorem VA2_ids : VA2 m d (r_ids 2) = m (d, r_ids 2) := by
  unfold VA2 VB1 VA1 VB0 VA0 V0; read_vals
theorem VA2_tq : VA2 m d r_tq2 = shapeCast S250x128 (m (d, a_T2)) shapeCasts_S1000x32_S250x128 := by
  unfold VA2 VB1 VA1 VB0 VA0 V0; read_vals; rfl
theorem VA3_ids : VA3 m d (r_ids 3) = m (d, r_ids 3) := by
  unfold VA3 VB2 VA2 VB1 VA1 VB0 VA0 V0; read_vals
theorem VA3_tt : VA3 m d r_tt3 = transpose S32x1000000 [1, 0] (m (d, a_T3)) transposes_S1000000x32_S32x1000000_1_0 := by
  unfold VA3 VB2 VA2 VB1 VA1 VB0 VA0 V0; read_vals
theorem VA3_tl : VA3 m d r_tl3
    = shapeCast S2048 (extractStridedSlice S64x32 ![999936, 0] (m (d, a_T3)) slices_S1000000x32_S64x32_999936_0) shapeCasts_S64x32_S2048 := by
  unfold VA3 VB2 VA2 VB1 VA1 VB0 VA0 V0; read_vals; rfl
theorem VA4_e0 : VA4 m d (r_out 0) = E m d 0 := by
  unfold VA4 VB3 VA3 VB2 VA2 VB1 VA1 VB0; read_vals
theorem VA4_e1 : VA4 m d (r_out 1) = E m d 1 := by
  unfold VA4 VB3 VA3 VB2 VA2 VB1; read_vals
theorem VA4_e2 : VA4 m d (r_out 2) = E m d 2 := by
  unfold VA4 VB3 VA3 VB2; read_vals
theorem VA4_e3 : VA4 m d (r_out 3) = E m d 3 := by
  unfold VA4 VB3; read_vals
theorem VA4_w : VA4 m d a_W = m (d, a_W) := by
  unfold VA4 VB3 VA3 VB2 VA2 VB1 VA1 VB0 VA0 V0; read_vals
theorem VA4_b2 : VA4 m d r_b2 = shapeCast S1x64 (m (d, a_b)) shapeCasts_S64_S1x64 := by
  unfold VA4 VB3 VA3 VB2 VA2 VB1 VA1 VB0 VA0 V0; read_vals; rfl

end Cert.Proof.KernelIdealC

end
-- ==== Proof.LibAgree.lean ====
/-
  A set of whole arrays held at the full share pins the final memory, no program in sight: under the state
  interpretation every held array's physical contents are the valuation's.
-/
import Idealize.ShloMosaic.Lib.StableHlo.Run

noncomputable section

namespace Cert.LibAgree

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- Every array of a held set reads, in the physical state, as the valuation says. -/
theorem held_agree (c : Thread nD τ) (S : Finset (DevRef τ sig)) (V : Valuation τ sig Val) (st : Phys nD τ sig Val) :
    iprop((held c S V : sProp 𝕄) ∗ SI st) ⊢ (⌜∀ b ∈ S, st.mem.mem (c.1, b) = V b⌝ : sProp 𝕄) := by
  unfold held
  induction S using Finset.induction_on with
  | empty =>
    iintro -
    ipureintro
    intro b hb
    exact absurd hb (Finset.notMem_empty _)
  | insert b S hb ih =>
    rw [show (bigSep (insert b S) fun b => ((c.1, b) ↦{fullShare} V b : sProp 𝕄))
      = iprop(((c.1, b) ↦{fullShare} V b) ∗ bigSep S fun b => ((c.1, b) ↦{fullShare} V b)) from bigSep_insert hb]
    iintro ⟨⟨Hb, HS⟩, HSI⟩
    ihave H := (persistent_entails_right (SI_pointsTo_agree (st := st) (ℓ := (c.1, b)) (I := Finset.univ) (q := fullShare) (f := V b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

end Cert.LibAgree

end
-- ==== Proof.RunI.lean ====
/-
  The program's run: the launch theorem applied. From the four tiles' task obligations and the projection region's
  proof, every weakly fair execution of the device's threads terminates, nothing faulting, and every array of the
  TensorCore ends at the final valuation: the arguments as launched, the result at the projection of the four lookups.
-/
import proofs.«204991_g57140244906297_cont_9to1_m_249_19_alg».proof.Proof.MainI
import proofs.«204991_g57140244906297_cont_9to1_m_249_19_alg».proof.Proof.ValsI
import proofs.«204991_g57140244906297_cont_9to1_m_249_19_alg».proof.Proof.LibAgree

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable [FloatOps F]
variable (m : (ℓ : Loc nD τ sig) → Buf (Elt F) ℓ) (ρ : Dev nD → PrngReg)
variable (PV : (d : Dev nD) → (⟨2, ![16384, 64]⟩ : Shape).Idx → Elt F .f32)

/-- What the final memory is read for: every array of the TensorCore at the final valuation. -/
def fq (d : Dev nD) (s' : Phys nD τ sig (Elt F)) : Prop := ∀ b ∈ UC, s'.mem.mem (d, b) = VFin m PV d b

theorem hfin (d : Dev nD) (s' : Phys nD τ sig (Elt F)) : iprop(FIN m PV d ∗ SI s') ⊢ (⌜fq m PV d s'⌝ : sProp 𝕄) :=
  Cert.LibAgree.held_agree (SparseCore.T d) UC (VFin m PV d) s'

def QC : PUnit × MemSt nD τ sig (Elt F) → Prop := fun r => ∀ d : Dev nD, ∀ b ∈ UC, r.2.mem (d, b) = VFin m PV d b

theorem run_main [∀ e, Nonempty (Elt F e)] (hregion : RegionOK m PV)
    (htile : ∀ q, (K (F := F)).kind q = .scVector → (K (F := F)).TileObl (D (F := F)) 𝒱 (P m) v₀ q) :
    θ_run (Cert.KernelIdeal.defs (F := F)) (Cert.KernelIdeal.threads (F := F)) ⟨m, fun _ => 0, ρ⟩ (QC m PV) :=
  SparseCore.Cfg.θ_run_sc (K := K (F := F)) (D := D (F := F)) (𝒱 := 𝒱) (EH := EH) (P := P m) facts v₀
    (fun q hq => by fin_cases q <;> cases hq)
    htile
    (fun q _ => SparseCore.Cfg.VecSplit.of_plain (vecSplit m q))
    m ρ main (G (F := F)) (FIN m PV) (u₀ (F := F)) (sep_elim_left.trans (hu₀ m)) (hmain m ρ PV hregion) (fq m PV) (hfin m PV) (QC m PV) (fun _ h => h)

/-! ## The final valuation at the arrays the claims speak of -/

theorem VFin_res (d : Dev nD) : VFin m PV d r_res = PV d := by unfold VFin; rw [Function.update_self]
theorem VFin_arg0 (d : Dev nD) : VFin m PV d (r_ids 0) = m (d, r_ids 0) := by
  unfold VFin VA4 VB3 VA3 VB2 VA2 VB1 VA1 VB0 VA0 V0; read_vals
theorem VFin_arg1 (d : Dev nD) : VFin m PV d (r_ids 1) = m (d, r_ids 1) := by
  unfold VFin VA4 VB3 VA3 VB2 VA2 VB1 VA1 VB0 VA0 V0; read_vals
theorem VFin_arg2 (d : Dev nD) : VFin m PV d (r_ids 2) = m (d, r_ids 2) := by
  unfold VFin VA4 VB3 VA3 VB2 VA2 VB1 VA1 VB0 VA0 V0; read_vals
theorem VFin_arg3 (d : Dev nD) : VFin m PV d (r_ids 3) = m (d, r_ids 3) := by
  unfold VFin VA4 VB3 VA3 VB2 VA2 VB1 VA1 VB0 VA0 V0; read_vals
theorem VFin_arg4 (d : Dev nD) : VFin m PV d a_T0 = m (d, a_T0) := by
  unfold VFin VA4 VB3 VA3 VB2 VA2 VB1 VA1 VB0 VA0 V0; read_vals
theorem VFin_arg5 (d : Dev nD) : VFin m PV d a_T1 = m (d, a_T1) := by
  unfold VFin VA4 VB3 VA3 VB2 VA2 VB1 VA1 VB0 VA0 V0; read_vals
theorem VFin_arg6 (d : Dev nD) : VFin m PV d a_T2 = m (d, a_T2) := by
  unfold VFin VA4 VB3 VA3 VB2 VA2 VB1 VA1 VB0 VA0 V0; read_vals
theorem VFin_arg7 (d : Dev nD) : VFin m PV d a_T3 = m (d, a_T3) := by
  unfold VFin VA4 VB3 VA3 VB2 VA2 VB1 VA1 VB0 VA0 V0; read_vals
theorem VFin_arg8 (d : Dev nD) : VFin m PV d a_W = m (d, a_W) := by
  unfold VFin VA4 VB3 VA3 VB2 VA2 VB1 VA1 VB0 VA0 V0; read_vals
theorem VFin_arg9 (d : Dev nD) : VFin m PV d a_b = m (d, a_b) := by
  unfold VFin VA4 VB3 VA3 VB2 VA2 VB1 VA1 VB0 VA0 V0; read_vals

theorem mem_uc : r_res ∈ UC ∧ r_ids 0 ∈ UC ∧ r_ids 1 ∈ UC ∧ r_ids 2 ∈ UC ∧ r_ids 3 ∈ UC ∧ a_T0 ∈ UC ∧ a_T1 ∈ UC ∧ a_T2 ∈ UC
    ∧ a_T3 ∈ UC ∧ a_W ∈ UC ∧ a_b ∈ UC := by decide

end Cert.Proof.KernelIdealC

end
-- ==== Proof.ProjBody.lean ====
/-
  The projection's body at one grid point, and the proof data of its pipeline.

  The body loads the bias row, the four blocks of the transposed lookups and the four 32-column bands of the weight
  matrix whole, and stores one block of the output: the bias broadcast plus, lookup by lookup, the product of the block
  (contracted along its axis 0) with its band (contracted along its axis 1). What it leaves in the output's staging
  buffer is therefore one closed function of what the seven buffers held; the inputs' buffers are left as found.
-/
import proofs.«204991_g57140244906297_cont_9to1_m_249_19_alg».proof.Proof.Gen.KernelIdeal.Launch
import proofs.«204991_g57140244906297_cont_9to1_m_249_19_alg».proof.Proof.Gen.KernelIdeal.Points
import proofs.«204991_g57140244906297_cont_9to1_m_249_19_alg».proof.Proof.Gen.KernelIdeal.Skeleton
import Idealize.ShloMosaic.Lib.Pipeline.FrameBody
import Idealize.ShloMosaic.Lib.Tactic

set_option maxRecDepth 16384

noncomputable section

namespace Cert.Proof.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev rB : Rect S1x64 := Rect.unit (s := S1x64) ![0, 0] S1x64.size inb_S1x64_S1x64_0_0
abbrev rX : Rect S32x2048 := Rect.unit (s := S32x2048) ![0, 0] S32x2048.size inb_S32x2048_S32x2048_0_0
abbrev rW0 : Rect S64x128 := Rect.unit (s := S64x128) ![0, 0] S64x32.size inb_S64x128_S64x32_0_0
abbrev rW1 : Rect S64x128 := Rect.unit (s := S64x128) ![0, 32] S64x32.size inb_S64x128_S64x32_0_32
abbrev rW2 : Rect S64x128 := Rect.unit (s := S64x128) ![0, 64] S64x32.size inb_S64x128_S64x32_0_64
abbrev rW3 : Rect S64x128 := Rect.unit (s := S64x128) ![0, 96] S64x32.size inb_S64x128_S64x32_0_96
abbrev rO : Rect S2048x64 := Rect.unit (s := S2048x64) ![0, 0] S2048x64.size inb_S2048x64_S2048x64_0_0

/-! ## What the body leaves in the output's buffer -/

/-- The output block from the bias row, the four lookup blocks and the weights: the one store's payload over the loads. -/
def outBlk (b : Vec F S1x64 .f32) (x0 x1 x2 x3 : Vec F S32x2048 .f32) (w : Vec F S64x128 .f32) : Vec F S2048x64 .f32 :=
  View.canon [⟨rO, k4_pay1 (View.ld b rB) (View.ld x0 rX) (View.ld w rW0) (View.ld x1 rX) (View.ld w rW1) (View.ld x2 rX) (View.ld w rW2) (View.ld x3 rX) (View.ld w rW3)⟩]

/-- The one store covers the buffer. -/
theorem coverO (p0 : Vec F S2048x64 .f32) (y : S2048x64.Idx) :
    ∃ pc ∈ ([⟨rO, p0⟩] : List (View.Piece (Elt F) S2048x64 .f32)), y ∈ pc.1.set :=
  View.cover_of_tiled [⟨rO, p0⟩] S2048x64.size (by rfl) y

/-! ## The body's triple -/

set_option maxHeartbeats 1000000 in
/-- The body on whole staging memrefs, the six inputs' at read contents and the output's at anything, runs to the
    continuation holding the inputs' as they were and the output's at outBlk of them. -/
theorem sound_kernel (c : Dev nD) (E : Set Name) (i : grid4.Coords)
    (arg1 : Memref sig .tc .vmem S32x2048 .f32) (harg1 : arg1.IsWhole) (arg2 : Memref sig .tc .vmem S32x2048 .f32) (harg2 : arg2.IsWhole)
    (arg3 : Memref sig .tc .vmem S32x2048 .f32) (harg3 : arg3.IsWhole) (arg4 : Memref sig .tc .vmem S32x2048 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S2048x64 .f32) (harg7 : arg7.IsWhole)
    (x0 x1 x2 x3 : Vec F S32x2048 .f32) (w : Vec F S64x128 .f32) (b : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ owns (c : Thread nD τ) arg6 fullShare b
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w ∗ owns (c : Thread nD τ) arg6 fullShare b
            ∗ owns (c : Thread nD τ) arg7 fullShare (outBlk b x0 x1 x2 x3 w)) -∗ K ⟨⟩))
      ⊢ wp frame (wpE (defs₀ (F := F)) Variants.none c none) E (cc4__proj_body i arg1 harg1 arg2 harg2 arg3 harg3 arg4 harg4 arg5 harg5 arg6 harg6 arg7 harg7) K := by
  simp only [cc4__proj_body_eq_skeleton]; unfold cc4__proj_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _)

/-! ## The pipeline's proof data -/

/-- The seven arrays the pipeline's windows range over, on one core: the four transposed lookups, the weights, the
    bias row, and the output (at what it held before). -/
structure Arrs (F : FTy → Type) (c : Dev nD) where
  e0 : Buf (Elt F) ((c : Thread nD τ).loc main_v3)
  e1 : Buf (Elt F) ((c : Thread nD τ).loc main_v5)
  e2 : Buf (Elt F) ((c : Thread nD τ).loc main_v7)
  e3 : Buf (Elt F) ((c : Thread nD τ).loc main_v11)
  w : Buf (Elt F) ((c : Thread nD τ).loc main_arg8)
  b : Buf (Elt F) ((c : Thread nD τ).loc main_v12)
  o : Buf (Elt F) ((c : Thread nD τ).loc main_v13)

variable {c : Dev nD} (a : Arrs F c)

/-- The arrays, window by window. -/
def arrs : (wi : Fin cfg4.W) → Buf (Elt F) ((cfg4.win wi).arr.view.loc (c : Thread nD τ))
  | ⟨0, _⟩ => a.e0
  | ⟨1, _⟩ => a.e1
  | ⟨2, _⟩ => a.e2
  | ⟨3, _⟩ => a.e3
  | ⟨4, _⟩ => a.w
  | ⟨5, _⟩ => a.b
  | ⟨6, _⟩ => a.o

/-- Window wi's block at point t, read off its array. -/
def iblk (wi : Fin cfg4.W) (t : Fin cfg4.N) : ((cfg4.win wi).xblock (cfg4.grid.coords t)).Idx → Elt F (cfg4.win wi).elt :=
  ((cfg4.win wi).blk t).view.read (Elt F) (arrs a wi)

/-- The proof data: after the body at point t each input's buffer holds its block and the output's holds outBlk of
    the input blocks; the body keeps no invariant of its own, owes nothing, and records no wait. -/
def dat (B : Set (SemLoc sig × Ix)) : Dat τ (Elt F) Ix Name U Lvl cfg4 c where
  A := arrs a
  after wi t := match wi with
    | ⟨0, _⟩ => iblk a 0 t
    | ⟨1, _⟩ => iblk a 1 t
    | ⟨2, _⟩ => iblk a 2 t
    | ⟨3, _⟩ => iblk a 3 t
    | ⟨4, _⟩ => iblk a 4 t
    | ⟨5, _⟩ => iblk a 5 t
    | ⟨6, _⟩ => outBlk (iblk a 5 t) (iblk a 0 t) (iblk a 1 t) (iblk a 2 t) (iblk a 3 t) (iblk a 4 t)
  Φ _ := BI.emp
  q _ := fullShare
  owed _ := 0
  recorded _ := B

variable (B : Set (SemLoc sig × Ix))

local notation "𝔡" => dat (Ix := Ix) (Name := Name) (U := U) (Lvl := Lvl) a B

theorem A_eq (wi : Fin cfg4.W) : (𝔡).A wi = arrs a wi := by dsimp only [dat]

theorem after_0 (t : Fin cfg4.N) : (𝔡).after 0 t = iblk a 0 t := by dsimp only [dat]
theorem after_1 (t : Fin cfg4.N) : (𝔡).after 1 t = iblk a 1 t := by dsimp only [dat]
theorem after_2 (t : Fin cfg4.N) : (𝔡).after 2 t = iblk a 2 t := by dsimp only [dat]
theorem after_3 (t : Fin cfg4.N) : (𝔡).after 3 t = iblk a 3 t := by dsimp only [dat]
theorem after_4 (t : Fin cfg4.N) : (𝔡).after 4 t = iblk a 4 t := by dsimp only [dat]
theorem after_5 (t : Fin cfg4.N) : (𝔡).after 5 t = iblk a 5 t := by dsimp only [dat]
theorem after_6 (t : Fin cfg4.N) :
    (𝔡).after 6 t = outBlk (iblk a 5 t) (iblk a 0 t) (iblk a 1 t) (iblk a 2 t) (iblk a 3 t) (iblk a 4 t) := by dsimp only [dat]

/-- Each input's current staging buffer holds its block at every point, fetched there or not. -/
theorem before_0 (t : Fin cfg4.N) (d) : (𝔡).before 0 t d = iblk a 0 t :=
  ((𝔡).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg4.N) (d) : (𝔡).before 1 t d = iblk a 1 t :=
  ((𝔡).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg4.N) (d) : (𝔡).before 2 t d = iblk a 2 t :=
  ((𝔡).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg4.N) (d) : (𝔡).before 3 t d = iblk a 3 t :=
  ((𝔡).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg4.N) (d) : (𝔡).before 4 t d = iblk a 4 t :=
  ((𝔡).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg4.N) (d) : (𝔡).before 5 t d = iblk a 5 t :=
  ((𝔡).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body obligation, at a generic point -/

variable (ι : Ix)

/-- What the body is called with at point t, the windows one by one, -/
def bodyPre (t : Fin cfg4.N) : sProp 𝕄 :=
  iprop((𝔡).Φ t.castSucc ∗ (𝔡).owesAt ι t.castSucc
    ∗ (∃ d, owns (c : Thread nD τ) (st4_0 t) fullShare ((𝔡).before 0 t d))
    ∗ (∃ d, owns (c : Thread nD τ) (st4_1 t) fullShare ((𝔡).before 1 t d))
    ∗ (∃ d, owns (c : Thread nD τ) (st4_2 t) fullShare ((𝔡).before 2 t d))
    ∗ (∃ d, owns (c : Thread nD τ) (st4_3 t) fullShare ((𝔡).before 3 t d))
    ∗ (∃ d, owns (c : Thread nD τ) (st4_4 t) fullShare ((𝔡).before 4 t d))
    ∗ (∃ d, owns (c : Thread nD τ) (st4_5 t) fullShare ((𝔡).before 5 t d))
    ∗ (∃ d, owns (c : Thread nD τ) (st4_6 t) fullShare ((𝔡).before 6 t d)))

/-- and what it returns. -/
def bodyPost (t : Fin cfg4.N) : sProp 𝕄 :=
  iprop((𝔡).Φ t.succ ∗ (𝔡).owesAt ι t.succ
    ∗ owns (c : Thread nD τ) (st4_0 t) fullShare ((𝔡).after 0 t)
    ∗ owns (c : Thread nD τ) (st4_1 t) fullShare ((𝔡).after 1 t)
    ∗ owns (c : Thread nD τ) (st4_2 t) fullShare ((𝔡).after 2 t)
    ∗ owns (c : Thread nD τ) (st4_3 t) fullShare ((𝔡).after 3 t)
    ∗ owns (c : Thread nD τ) (st4_4 t) fullShare ((𝔡).after 4 t)
    ∗ owns (c : Thread nD τ) (st4_5 t) fullShare ((𝔡).after 5 t)
    ∗ owns (c : Thread nD τ) (st4_6 t) fullShare ((𝔡).after 6 t))

/-- The body at any point: the inputs' memrefs hold their blocks, so the body's triple applies; the invariant and the
    core's owes pass through unread. -/
theorem sound_body (t : Fin cfg4.N) :
    bodyPre (Name := Name) (U := U) (Lvl := Lvl) a B ι t ⊢ wp frame (wpE (defs₀ (F := F)) Variants.none c none) Set.univ (bodyAt4 t) (fun _ => bodyPost (Name := Name) (U := U) (Lvl := Lvl) a B ι t) := by
  unfold bodyPre bodyPost bodyAt4
  simp only [before_0, before_1, before_2, before_3, before_4, before_5]
  rw [show (𝔡).Φ t.succ = (𝔡).Φ t.castSucc from rfl,
    show (𝔡).owesAt ι t.succ = (𝔡).owesAt ι t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid4.coords t) _ _ _ _ _ _ _ _ _ _ _ _ _ _ (iblk a 0 t) (iblk a 1 t) (iblk a 2 t) (iblk a 3 t) (iblk a 4 t) (iblk a 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation : BodyObligation (𝔡) (defs₀ (F := F)) Variants.none ι Set.univ := fun t => by
  rw [bigSep_W4, bigSep_W4]
  exact sound_body (Name := Name) (U := U) (Lvl := Lvl) a B ι t

end Cert.Proof.Proj

end
-- ==== Proof.ProjFinal.lean ====
/-
  The output array after the pipeline, as one function of the six input arrays.

  The output's blocks tile its 16384 rows by 2048: row n is written at grid point n / 2048, at row n % 2048 of the
  block, from that point's column blocks of the four lookups, the whole weights and the whole bias row. So the array
  after the last write-back is, at every index, the body's output block of those input blocks read at the index's
  place in its block.
-/
import proofs.«204991_g57140244906297_cont_9to1_m_249_19_alg».proof.Proof.ProjBody
import Idealize.ShloMosaic.Lib.Pipeline.Value
import Idealize.ShloMosaic.Lib.ValueIdx

set_option maxRecDepth 16384

noncomputable section

namespace Cert.Proof.Proj

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI Idealize.SL.Sem
open Idealize.ShloMosaic.Pipeline (Dat Cfg Window)

variable {F : FTy → Type} [FloatOps F]
variable {Ix : Type} [DecidableEq Ix] {Name : Type} [DecidableEq Name] {U : Type} [URA U] {Lvl : Type} [Preorder Lvl]

/-! ## The function -/

/-- The grid point whose output block holds row n. -/
def ptOf (n : Nat) (hn : n < 16384) : Fin cfg4.N := ⟨n / 2048, by rw [show cfg4.N = 8 from N_4]; omega⟩

/-- A window's block at a point, read off an array. -/
def rdBlk {c : Dev nD} (wi : Fin cfg4.W) (t : Fin cfg4.N) (x : Buf (Elt F) ((cfg4.win wi).arr.view.loc (c : Thread nD τ))) :
    ((cfg4.win wi).xblock (cfg4.grid.coords t)).Idx → Elt F (cfg4.win wi).elt :=
  ((cfg4.win wi).blk t).view.read (Elt F) x

section Fn

variable {c : Dev nD}
  (e0 : Buf (Elt F) ((c : Thread nD τ).loc main_v3)) (e1 : Buf (Elt F) ((c : Thread nD τ).loc main_v5))
  (e2 : Buf (Elt F) ((c : Thread nD τ).loc main_v7)) (e3 : Buf (Elt F) ((c : Thread nD τ).loc main_v11))
  (w : Buf (Elt F) ((c : Thread nD τ).loc main_arg8)) (b2 : Buf (Elt F) ((c : Thread nD τ).loc main_v12))

/-- The output block the body computes at point t from that point's blocks of the six arrays. -/
def blkOut (t : Fin cfg4.N) : Vec F S2048x64 .f32 :=
  outBlk (rdBlk (c := c) 5 t b2) (rdBlk (c := c) 0 t e0) (rdBlk (c := c) 1 t e1) (rdBlk (c := c) 2 t e2) (rdBlk (c := c) 3 t e3) (rdBlk (c := c) 4 t w)

/-- THE PROJECTION, one whole-array function of the six arrays: at row n and column o, the output block of point
    n / 2048 read at row n % 2048 and column o. -/
def ProjF : Buf (Elt F) ((c : Thread nD τ).loc main_v13) :=
  fun (i : S16384x64.Idx) => blkOut e0 e1 e2 e3 w b2 (ptOf (i 0).val (i 0).isLt) (ix2 (⟨(i 0).val % 2048, Nat.mod_lt _ (by decide)⟩ : Fin 2048) (i 1))

/-- It reads, at an index that sits at place y of point t's block, that block at y. -/
theorem ProjF_at (i : S16384x64.Idx) (t : Fin cfg4.N) (y : S2048x64.Idx) (h0 : (i 0).val = t.val * 2048 + (y 0).val) (h1 : (i 1).val = (y 1).val) :
    ProjF e0 e1 e2 e3 w b2 i = blkOut e0 e1 e2 e3 w b2 t y := by
  have hy0 : (y 0).val < 2048 := (y 0).isLt
  have ht : ptOf (i 0).val (i 0).isLt = t := Fin.ext (by show (i 0).val / 2048 = t.val; omega)
  have hy : ix2 (⟨(i 0).val % 2048, Nat.mod_lt _ (by decide)⟩ : Fin 2048) (i 1) = y := by
    funext a
    match a with
    | ⟨0, _⟩ => exact Fin.ext (by show (i 0).val % 2048 = (y 0).val; omega)
    | ⟨1, _⟩ => exact Fin.ext h1
  show blkOut e0 e1 e2 e3 w b2 (ptOf (i 0).val (i 0).isLt) (ix2 (⟨(i 0).val % 2048, Nat.mod_lt _ (by decide)⟩ : Fin 2048) (i 1)) = _
  rw [ht]
  exact congrArg (blkOut e0 e1 e2 e3 w b2 t) hy

end Fn

/-! ## The output's blocks -/

/-- The output's index map, decided over the grid: point t writes block row t, block column 0. -/
theorem idx_out : ∀ t : Fin cfg4.N, win4_6.index t (0 : Fin 2) = t.val ∧ win4_6.index t (1 : Fin 2) = 0 :=
  (by decide +kernel : ∀ t : Fin grid4.N, win4_6.index t (0 : Fin 2) = t.val ∧ win4_6.index t (1 : Fin 2) = 0)

/-- An index of the output is in point t's block iff each coordinate is in the block's range on its axis. -/
theorem mem_blk_out (t : Fin cfg4.N) (i : S16384x64.Idx) :
    i ∈ ((cfg4.win 6).blk t).view.set ↔ ∀ a : Fin 2, win4_6.index t a * S2048x64.size a ≤ (i a).val ∧ (i a).val < win4_6.index t a * S2048x64.size a + S2048x64.size a := by
  show i ∈ ((View.whole main_v13).slice (win4_6.rect t)).set ↔ _
  rw [View.set_slice_whole, Rect.mem_set_unit]
  exact Iff.rfl

/-- Every index of the output is in the block of the point its row names. -/
theorem cover_out (i : S16384x64.Idx) : ∃ t : Fin cfg4.N, (cfg4.win 6).flush t = true ∧ i ∈ ((cfg4.win 6).blk t).view.set := by
  have hi0 : (i 0).val < 16384 := (i 0).isLt
  have hi1 : (i 1).val < 64 := (i 1).isLt
  refine ⟨ptOf (i 0).val hi0, flush4_6 _, ?_⟩
  rw [mem_blk_out]
  obtain ⟨e0, e1⟩ := idx_out (ptOf (i 0).val hi0)
  have ev : (ptOf (i 0).val hi0).val = (i 0).val / 2048 := rfl
  intro a
  match a with
  | ⟨0, _⟩ => show win4_6.index (ptOf (i 0).val hi0) (0 : Fin 2) * 2048 ≤ (i 0).val ∧ (i 0).val < win4_6.index (ptOf (i 0).val hi0) (0 : Fin 2) * 2048 + 2048; omega
  | ⟨1, _⟩ => show win4_6.index (ptOf (i 0).val hi0) (1 : Fin 2) * 64 ≤ (i 1).val ∧ (i 1).val < win4_6.index (ptOf (i 0).val hi0) (1 : Fin 2) * 64 + 64; omega

/-! ## The array after the run -/

variable {c : Dev nD} (a : Arrs F c) (B : Set (SemLoc sig × Ix))

local notation "𝔡" => dat (Ix := Ix) (Name := Name) (U := U) (Lvl := Lvl) a B

/-- What the body leaves in the output's buffer at point t is the output block of that point's input blocks. -/
theorem after6_blk (t : Fin cfg4.N) : (𝔡).after 6 t = blkOut a.e0 a.e1 a.e2 a.e3 a.w a.b t := by
  rw [after_6]; rfl

/-- Place y of point t's output block sits in the array at row 2048 t + y 0, -/
theorem emb_out0 (t : Fin cfg4.N) (y : S2048x64.Idx) :
    (((cfg4.win 6).blk t).view.emb y (0 : Fin 2)).val = t.val * 2048 + (y 0).val := by
  show win4_6.index t (0 : Fin 2) * 2048 + 1 * (y 0).val = _
  rw [(idx_out t).1]; omega

/-- and at column y 1. -/
theorem emb_out1 (t : Fin cfg4.N) (y : S2048x64.Idx) :
    (((cfg4.win 6).blk t).view.emb y (1 : Fin 2)).val = (y 1).val := by
  show win4_6.index t (1 : Fin 2) * 64 + 1 * (y 1).val = _
  rw [(idx_out t).2]; omega

/-- A block function read through point t's output block: if an array function agrees with it wherever an index sits
    at a place of the block, the block (its moved part: all of it) is the array function read through the block. -/
theorem cut_eq_read (Bk : Vec F S2048x64 .f32) (G : S16384x64.Idx → Elt F .f32) (t : Fin cfg4.N)
    (hG : ∀ (y : S2048x64.Idx) (i : S16384x64.Idx), (i 0).val = t.val * 2048 + (y 0).val → (i 1).val = (y 1).val → G i = Bk y) :
    (cfg4.win 6).cut (grid4.coords t) Bk = ((cfg4.win 6).blk t).view.read (Elt F) G := by
  funext y
  rw [View.read_apply, hG y (((cfg4.win 6).blk t).view.emb y) (emb_out0 t y) (emb_out1 t y)]
  rfl

/-- What point t writes back is block t of the projection. -/
theorem flushed_out (t : Fin cfg4.N) :
    (𝔡).flushed 6 t = ((cfg4.win 6).blk t).view.read (Elt F) (ProjF a.e0 a.e1 a.e2 a.e3 a.w a.b) := by
  show (cfg4.win 6).cut (grid4.coords t) ((𝔡).after 6 t) = _
  rw [after6_blk]
  exact cut_eq_read (blkOut a.e0 a.e1 a.e2 a.e3 a.w a.b t) (ProjF a.e0 a.e1 a.e2 a.e3 a.w a.b) t
    (fun y i h0 h1 => ProjF_at a.e0 a.e1 a.e2 a.e3 a.w a.b i t y h0 h1)

/-- THE OUTPUT ARRAY after the last write-back is the projection of the six input arrays. -/
theorem arrAt_out : (𝔡).arrAt 6 cfg4.N = ProjF a.e0 a.e1 a.e2 a.e3 a.w a.b :=
  (𝔡).arrAt_eq_of_cover 6 (ProjF a.e0 a.e1 a.e2 a.e3 a.w a.b) (fun t _ => flushed_out a B t) cover_out

/-- The input arrays are never written back. -/
theorem arrAt_in0 (n : Nat) : (𝔡).arrAt 0 n = a.e0 := ((𝔡).arrAt_in 0 rfl n).trans (A_eq a B 0)
theorem arrAt_in1 (n : Nat) : (𝔡).arrAt 1 n = a.e1 := ((𝔡).arrAt_in 1 rfl n).trans (A_eq a B 1)
theorem arrAt_in2 (n : Nat) : (𝔡).arrAt 2 n = a.e2 := ((𝔡).arrAt_in 2 rfl n).trans (A_eq a B 2)
theorem arrAt_in3 (n : Nat) : (𝔡).arrAt 3 n = a.e3 := ((𝔡).arrAt_in 3 rfl n).trans (A_eq a B 3)
theorem arrAt_in4 (n : Nat) : (𝔡).arrAt 4 n = a.w := ((𝔡).arrAt_in 4 rfl n).trans (A_eq a B 4)
theorem arrAt_in5 (n : Nat) : (𝔡).arrAt 5 n = a.b := ((𝔡).arrAt_in 5 rfl n).trans (A_eq a B 5)

end Cert.Proof.Proj

end
-- ==== Proof.ProjRegion.lean ====
/-
  The projection's region on the TensorCore, inside the SparseCore program.

  After the four lookups the TensorCore owes nothing more; it enters the region holding its region-boundary storage,
  the staging cells' launch ghost state and duty tokens, the six input arrays whole and the output array at anything.
  The pipeline stages the blocks, runs the body at the eight grid points and writes the output's blocks back; the
  region ends with the boundary storage handed back, the inputs unchanged and the output array at the projection of
  the six inputs. The staging cells' waits sit at the kernels' own index, level 0, so the recorded pairs stay at or
  below the level bound the handshake state keeps.
-/
import proofs.«204991_g57140244906297_cont_9to1_m_249_19_alg».proof.Proof.CommonI
import proofs.«204991_g57140244906297_cont_9to1_m_249_19_alg».proof.Proof.ProjFinal
import Idealize.ShloMosaic.Lib.Pipeline.Regions

set_option maxRecDepth 16384

noncomputable section

namespace Cert.Proof.Proj

open Cert.KernelIdeal Cert.KernelIdeal.Gen Cert.Proof.KernelIdealC
open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat owesWithin)

variable {F : FTy → Type} [FloatOps F]

local notation "𝕄" => MT nD τ sig (HIx 4) (Elt F) ℕ UU ℕ

/-! ## The pipeline's proof data on every core -/

/-- The (own cell, index) pairs at or below the level the handshake state bounds the TensorCore's recorded pairs by
    after the fourth call. -/
def Bd (F : FTy → Type) [FloatOps F] (c : Dev nD) : Set (SemLoc sig × HIx 4) := {p | (K (F := F)).lev ((c : Thread nD τ), p.1) p.2 ≤ 32}

/-- The one device's arrays, named at any device (there is one). -/
def spread {d : Dev nD} (a : Arrs F d) (c : Dev nD) : Arrs F c := (Subsingleton.elim d c) ▸ a

theorem spread_self {d : Dev nD} (a : Arrs F d) : spread a d = a := rfl

/-- No pipeline prefetches a table. -/
abbrev adm : (p : Fin 1) → (pcfgs (F := F) p).Adm := fun q => (cfgs q).toPCfg_adm

/-- The proof data of the one pipeline, per core. -/
abbrev pdats {d : Dev nD} (a : Arrs F d) : (p : Fin 1) → (c : Dev nD) → Dat τ (Elt F) (HIx 4) ℕ UU ℕ (cfgs p) c :=
  fun _ c => dat (spread a c) (Bd F c)

/-! ## The thread states around the region -/

/-- What the region is entered from: the core owing nothing, its recorded pairs bounded; the seven arrays whole. -/
def inS {d : Dev nD} (a : Arrs F d) (c : Dev nD) : sProp 𝕄 :=
  iprop(owesWithin c 0 (Bd F c)
    ∗ ((((c : Thread nD τ).loc main_v3) ↦{fullShare} (spread a c).e0)) ∗ ((((c : Thread nD τ).loc main_v5) ↦{fullShare} (spread a c).e1))
    ∗ ((((c : Thread nD τ).loc main_v7) ↦{fullShare} (spread a c).e2)) ∗ ((((c : Thread nD τ).loc main_v11) ↦{fullShare} (spread a c).e3))
    ∗ ((((c : Thread nD τ).loc main_arg8) ↦{fullShare} (spread a c).w)) ∗ ((((c : Thread nD τ).loc main_v12) ↦{fullShare} (spread a c).b))
    ∗ ((((c : Thread nD τ).loc main_v13) ↦{fullShare} (spread a c).o)))

/-- What it leaves: the same, the staging cells' pairs recorded too, the output at the projection. -/
def outS {d : Dev nD} (a : Arrs F d) (c : Dev nD) : sProp 𝕄 :=
  iprop(owesWithin c 0 (Bd F c ∪ cfg4.waitPairs none)
    ∗ ((((c : Thread nD τ).loc main_v3) ↦{fullShare} (spread a c).e0)) ∗ ((((c : Thread nD τ).loc main_v5) ↦{fullShare} (spread a c).e1))
    ∗ ((((c : Thread nD τ).loc main_v7) ↦{fullShare} (spread a c).e2)) ∗ ((((c : Thread nD τ).loc main_v11) ↦{fullShare} (spread a c).e3))
    ∗ ((((c : Thread nD τ).loc main_arg8) ↦{fullShare} (spread a c).w)) ∗ ((((c : Thread nD τ).loc main_v12) ↦{fullShare} (spread a c).b))
    ∗ ((((c : Thread nD τ).loc main_v13) ↦{fullShare} ProjF (spread a c).e0 (spread a c).e1 (spread a c).e2 (spread a c).e3 (spread a c).w (spread a c).b)))

theorem share_full {d : Dev nD} (a : Arrs F d) (c : Dev nD) (wi : Fin cfg4.W) : (pdats a 0 c).share wi = fullShare :=
  (pdats a 0 c).share_full (fun _ => rfl) wi

/-- Nothing is prefetched. -/
theorem prefHeld_intro (c : Dev nD) :
    (emp : sProp 𝕄) ⊢ Pipeline.prefHeld (pcfgs (F := F) 0).pre c (fun _ => fullShare) (adm (F := F) 0).1 := by
  unfold Pipeline.prefHeld
  exact BI.bigSep_intro_persistent fun k _ => k.elim0

/-- The kernel names no semaphore of its own. -/
theorem ownSems0_intro (c : Dev nD) :
    (emp : sProp 𝕄) ⊢ Pipeline.ownSems0 (fun k : PEmpty => (k.elim : SemLoc sig)) c := by
  unfold Pipeline.ownSems0
  exact BI.bigSep_intro_persistent fun k _ => k.elim

/-! ## The region's record -/

variable (lv : GSem nD τ sig → HIx 4 → ℕ)

/-- The region: the decided layout, no semaphore of the kernel's own, the body obligation, no wait evidence needed
    (nothing is owed), and the thread states above. -/
def seg {d : Dev nD} (a : Arrs F d) :
    Pipeline.RegionSeg (pcfgs (F := F)) adm (pdats a) none (defs₀ (F := F)) 𝒱₀ (K (F := F)).L lv (0 : Fin 1) where
  win := winFacts4.to₀
  block_pos := block_pos4
  stage_whole := stage_whole4
  K := PEmpty
  osem := fun k => k.elim
  ho := Pipeline.OwnSemFacts.none _
  hbody := fun c => (body_obligation (spread a c) (Bd F c) none).loose
  hwaits := fun c => Pipeline.hwaits_of_owed_zero (pcfgs (F := F)) adm (pdats a) none (K (F := F)).L lv 0 (fun _ _ => rfl) c
  pre := inS a
  post := outS a
  X := fun _ => iprop(emp)
  Y := fun _ => iprop(emp)
  Z := fun _ => iprop(emp)
  hentry := fun c => by
    rw [Pipeline.arrays_eq cfgs (pdats a) 0 c arr_whole4 (share_full a c), bigSep_W4]
    unfold inS
    iintro ⟨⟨Ho, H0, H1, H2, H3, H4, H5, H6⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · iapply (prefHeld_intro c); iempintro
    isplitl [Ho]; · iapply (Pipeline.owesWithin_mono c 0 (Set.subset_union_left)); iexact Ho
    isplitr <;> iempintro
  hin := fun c => by iintro -; iempintro
  hout := fun c => by
    rw [scopedRest4_eq]
    iintro -
    isplitr; · iempintro
    isplitr; · iapply (ownSems0_intro c); iempintro
    iempintro
  hexit := fun c => by
    rw [Pipeline.arrays_eq cfgs (pdats a) 0 c arr_whole4 (share_full a c), bigSep_W4,
      arrAt_in0, arrAt_in1, arrAt_in2, arrAt_in3, arrAt_in4, arrAt_in5, arrAt_out]
    unfold outS
    iintro ⟨⟨H0, H1, H2, H3, H4, H5, H6⟩, Ho, -, -⟩
    imodintro
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-! ## The region -/

theorem seg_pre {d : Dev nD} (a : Arrs F d) : (seg lv a).pre = inS a := rfl
theorem seg_post {d : Dev nD} (a : Arrs F d) : (seg lv a).post = outS a := rfl

/-- The region's one line of the TensorCore's program is the pipeline's entry call, lifted to the extended table. -/
theorem prog_eq :
    (Prog.lift (.customCall (SparseCore.inner (Pipeline.entry 0)) ()) :
        Prog (TpuEff nD τ sig (Elt F) (SparseCore.Sig (ΛP (F := F)) 4) .tc) PUnit)
      = SparseCore.liftProg (.op (.customCall (Pipeline.entry 0) ()) Prog.ret) := rfl

set_option maxHeartbeats 1000000 in
/-- The region from its thread state: the boundary storage and the state before come back as the boundary storage
    and the state after. -/
theorem region_aux (d : Dev nD) (a : Arrs F d) :
    iprop((levAts (K (F := F)).L lv : sProp 𝕄) ∗ boundary (T d : Thread nD τ)
        ∗ Pipeline.cellsGhost cfgs (EP (F := F)) 0 d ∗ Pipeline.toksInit cfgs (EP (F := F)) 0 d ∗ inS a d)
      ⊢ wp frame (wpE ((K (F := F)).defs (D (F := F))) 𝒱 (T d) none) Set.univ
          (Prog.lift (.customCall (SparseCore.inner (Pipeline.entry 0)) ())) fun _ =>
          iprop(boundary (T d : Thread nD τ) ∗ outS a d) := by
  rw [prog_eq]
  refine BIBase.Entails.trans ?_ ((K (F := F)).wp_liftProg (D (F := F)) 𝒱 (T d) Set.univ none (.op (.customCall (Pipeline.entry 0) ()) Prog.ret) _)
  refine BIBase.Entails.trans ?_ (Pipeline.RegionSeg.wp (pcfgs (F := F)) adm (pdats a) none cellOf_inj (EP (F := F)) (defs₀ (F := F)) 𝒱₀
    (K (F := F)).L lv (seg lv a) d none (fun u hu => nomatch hu) Prog.ret _)
  rw [seg_pre, seg_post]
  iintro ⟨#Hlev, Hbd, Hg, Ht, Hin⟩
  isplitr
  · iintro H
    rw [wp_ret]
    imodintro
    iexact H
  isplitl [Hbd]; · iexact Hbd
  isplitl [Hin]; · iexact Hin
  isplitr; · iexact Hlev
  isplitl [Hg]; · iexact Hg
  iexact Ht

/-- THE REGION on device d's TensorCore, from the level facts, the core owing nothing with its recorded pairs at or
    below level 32, the region-boundary storage, the staging cells' launch ghost state and duty tokens, the six input
    arrays whole and the output array at anything: it ends with the same owing and storage, the inputs unchanged, and
    the output array at the projection of the inputs. -/
theorem region (d : Dev nD)
    (e0 : Buf (Elt F) ((T d : Thread nD τ).loc main_v3)) (e1 : Buf (Elt F) ((T d : Thread nD τ).loc main_v5))
    (e2 : Buf (Elt F) ((T d : Thread nD τ).loc main_v7)) (e3 : Buf (Elt F) ((T d : Thread nD τ).loc main_v11))
    (w : Buf (Elt F) ((T d : Thread nD τ).loc main_arg8)) (b2 : Buf (Elt F) ((T d : Thread nD τ).loc main_v12)) :
    iprop((levAts (K (F := F)).L lv : sProp 𝕄)
        ∗ (∃ W, ⌜(K (F := F)).WBelow (T d) W 32⌝ ∗ owes (T d) 0 W)
        ∗ boundary (T d : Thread nD τ)
        ∗ Pipeline.cellsGhost cfgs (EP (F := F)) 0 d ∗ Pipeline.toksInit cfgs (EP (F := F)) 0 d
        ∗ (((T d : Thread nD τ).loc main_v3) ↦{fullShare} e0) ∗ (((T d : Thread nD τ).loc main_v5) ↦{fullShare} e1)
        ∗ (((T d : Thread nD τ).loc main_v7) ↦{fullShare} e2) ∗ (((T d : Thread nD τ).loc main_v11) ↦{fullShare} e3)
        ∗ (((T d : Thread nD τ).loc main_arg8) ↦{fullShare} w) ∗ (((T d : Thread nD τ).loc main_v12) ↦{fullShare} b2)
        ∗ (∃ f, (((T d : Thread nD τ).loc main_v13) ↦{fullShare} f)))
      ⊢ wp frame (wpE ((K (F := F)).defs (D (F := F))) 𝒱 (T d) none) Set.univ
          (Prog.lift (.customCall (SparseCore.inner (Pipeline.entry 0)) ())) fun _ =>
          iprop((∃ W, ⌜(K (F := F)).WBelow (T d) W 32⌝ ∗ owes (T d) 0 W)
            ∗ boundary (T d : Thread nD τ)
            ∗ (((T d : Thread nD τ).loc main_v3) ↦{fullShare} e0) ∗ (((T d : Thread nD τ).loc main_v5) ↦{fullShare} e1)
            ∗ (((T d : Thread nD τ).loc main_v7) ↦{fullShare} e2) ∗ (((T d : Thread nD τ).loc main_v11) ↦{fullShare} e3)
            ∗ (((T d : Thread nD τ).loc main_arg8) ↦{fullShare} w) ∗ (((T d : Thread nD τ).loc main_v12) ↦{fullShare} b2)
            ∗ (((T d : Thread nD τ).loc main_v13) ↦{fullShare} ProjF (c := d) e0 e1 e2 e3 w b2)) := by
  iintro ⟨#Hlev, ⟨%W, %hW, Ho⟩, Hbd, Hg, Ht, H0, H1, H2, H3, H4, H5, ⟨%f, H6⟩⟩
  iapply (wp_wand_r frame _ Set.univ)
  isplitl [Ho Hbd Hg Ht H0 H1 H2 H3 H4 H5 H6]
  · iapply (region_aux lv d (⟨e0, e1, e2, e3, w, b2, f⟩ : Arrs F d))
    isplitr; · iexact Hlev
    isplitl [Hbd]; · iexact Hbd
    isplitl [Hg]; · iexact Hg
    isplitl [Ht]; · iexact Ht
    unfold inS
    isplitl [Ho]
    · iexists W
      isplitr
      · ipureintro
        exact fun p hp => hW p (Finset.mem_coe.mp hp)
      · iexact Ho
    isplitl [H0]; · iexact H0
    isplitl [H1]; · iexact H1
    isplitl [H2]; · iexact H2
    isplitl [H3]; · iexact H3
    isplitl [H4]; · iexact H4
    isplitl [H5]; · iexact H5
    iexact H6
  iintro %_ ⟨Hbd, Hpost⟩
  unfold outS
  icases Hpost with ⟨⟨%W', %hW', Ho⟩, H0, H1, H2, H3, H4, H5, H6⟩
  isplitl [Ho]
  · iexists W'
    isplitr
    · ipureintro
      intro p hp
      rcases hW' (Finset.mem_coe.mpr hp) with h | ⟨wi, s, e⟩
      · exact h
      · rw [e]; exact Nat.zero_le _
    · iexact Ho
  isplitl [Hbd]; · iexact Hbd
  isplitl [H0]; · iexact H0
  isplitl [H1]; · iexact H1
  isplitl [H2]; · iexact H2
  isplitl [H3]; · iexact H3
  isplitl [H4]; · iexact H4
  isplitl [H5]; · iexact H5
  iexact H6

end Cert.Proof.Proj

end
-- ==== Proof.RegionI.lean ====
/-
  The projection's region over all of the TensorCore's arrays.

  The region's own proof speaks of the seven arrays it uses: the four lookups, the weights, the bias row and the
  result. Held among all of the TensorCore's arrays, those seven are split off, read at the valuation before the
  region (the four result arrays of the calls are the four lookups; the weights are the launch memory's; the bias row
  is the launch memory's bias as one row), the region runs, and the arrays are put back with the result array at the
  projection.
-/
import proofs.«204991_g57140244906297_cont_9to1_m_249_19_alg».proof.Proof.MainI
import proofs.«204991_g57140244906297_cont_9to1_m_249_19_alg».proof.Proof.ValsI
import proofs.«204991_g57140244906297_cont_9to1_m_249_19_alg».proof.Proof.ProjRegion

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 4) (Elt F) ℕ UU ℕ

variable [FloatOps F]
variable (m : (ℓ : Loc nD τ sig) → Buf (Elt F) ℓ)

/-- The seven arrays of the projection. -/
abbrev S7 : Finset (DevRef τ sig) := {r_out 0, r_out 1, r_out 2, r_out 3, a_W, r_b2, r_res}

theorem S7_sub : S7 ⊆ UC := by decide

omit [FloatOps F] in
theorem held_S7 (d : Dev nD) (Wv : Valuation τ sig (Elt F)) :
    (held (SparseCore.T d) S7 Wv : sProp 𝕄)
      = iprop(((d, r_out 0) ↦{fullShare} Wv (r_out 0)) ∗ ((d, r_out 1) ↦{fullShare} Wv (r_out 1)) ∗ ((d, r_out 2) ↦{fullShare} Wv (r_out 2))
        ∗ ((d, r_out 3) ↦{fullShare} Wv (r_out 3)) ∗ ((d, a_W) ↦{fullShare} Wv a_W) ∗ ((d, r_b2) ↦{fullShare} Wv r_b2)
        ∗ ((d, r_res) ↦{fullShare} Wv r_res)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The projection of the four lookups, the launch memory's weights and its bias as one row: the result array's final
    contents. -/
def PVal (d : Dev nD) : (⟨2, ![16384, 64]⟩ : Shape).Idx → Elt F .f32 :=
  Proj.ProjF (F := F) (c := d) (E m d 0) (E m d 1) (E m d 2) (E m d 3) (m (d, a_W)) (shapeCast S1x64 (m (d, a_b)) shapeCasts_S64_S1x64)

theorem regionOK : RegionOK m (PVal m) := by
  intro d
  have hrest : ∀ b ∈ UC \ S7, VFin m (PVal m) d b = VA4 m d b := fun b hb =>
    show Function.update (VA4 m d) r_res (PVal m d) b = VA4 m d b from
      Function.update_of_ne (show b ≠ r_res from fun e => (Finset.mem_sdiff.mp hb).2 (by rw [e]; decide)) _ _
  rw [held_sub_split (SparseCore.T d) S7_sub (VA4 m d), held_sub_split (SparseCore.T d) S7_sub (VFin m (PVal m) d),
    held_congr (SparseCore.T d) hrest, held_S7, held_S7, VA4_e0, VA4_e1, VA4_e2, VA4_e3, VA4_w, VA4_b2]
  have hf : ∀ b, b ≠ r_res → VFin m (PVal m) d b = VA4 m d b := fun b hb =>
    show Function.update (VA4 m d) r_res (PVal m d) b = VA4 m d b from Function.update_of_ne hb _ _
  rw [hf (r_out 0) (by decide), hf (r_out 1) (by decide), hf (r_out 2) (by decide), hf (r_out 3) (by decide), hf a_W (by decide), hf r_b2 (by decide),
    show VFin m (PVal m) d r_res = PVal m d from Function.update_self _ _ _,
    VA4_e0, VA4_e1, VA4_e2, VA4_e3, VA4_w, VA4_b2]
  have hreg := Proj.region (F := F) (K (F := F)).lev d (E m d 0) (E m d 1) (E m d 2) (E m d 3) (m (d, a_W)) (shapeCast S1x64 (m (d, a_b)) shapeCasts_S64_S1x64)
  iintro ⟨Hl, HO, Hb, ⟨Hcg, Htk⟩, ⟨H0, H1, H2, H3, Hw, Hb2, Hres⟩, Hrest⟩
  iapply (wp_wand_r frame _ Set.univ)
  isplitl [Hl HO Hb Hcg Htk H0 H1 H2 H3 Hw Hb2 Hres]
  · iapply hreg
    isplitl [Hl]; · iexact Hl
    isplitl [HO]; · iexact HO
    isplitl [Hb]; · iexact Hb
    isplitl [Hcg]; · iexact Hcg
    isplitl [Htk]; · iexact Htk
    isplitl [H0]; · iexact H0
    isplitl [H1]; · iexact H1
    isplitl [H2]; · iexact H2
    isplitl [H3]; · iexact H3
    isplitl [Hw]; · iexact Hw
    isplitl [Hb2]; · iexact Hb2
    iexists _; iexact Hres
  iintro %_ ⟨HO, Hb, H0, H1, H2, H3, Hw, Hb2, Hres⟩
  isplitl [HO]; · iexact HO
  isplitl [Hb]; · iexact Hb
  isplitl [H0 H1 H2 H3 Hw Hb2 Hres]
  · isplitl [H0]; · iexact H0
    isplitl [H1]; · iexact H1
    isplitl [H2]; · iexact H2
    isplitl [H3]; · iexact H3
    isplitl [Hw]; · iexact Hw
    isplitl [Hb2]; · iexact Hb2
    iexact Hres
  iexact Hrest

end Cert.Proof.KernelIdealC

end
-- ==== Proof.BlockDefs.lean ====
/-
  The block-gather kernel's task on one vector subcore: the arrays it is handed, the block of the output it writes,
  and the function it leaves there.

  The task of tile (c, s) looks up 512 index words. For a word w it fetches the 128-column block of the transposed
  table that holds column w — block min (w / 128) 7811, columns 128 · min (w / 128) 7811 … + 127 — and reads column
  w mod 128 of it; a word at or past 999936 = 7812 · 128 is read instead from the flattened last 64 rows, entry
  32 · min (w − 999936) 63 + r. Below 999936 the block number is w / 128 itself, so the column read is w.
-/
import proofs.«204991_g57140244906297_cont_9to1_m_249_19_alg».proof.Proof.CommonI
import Idealize.ShloMosaic.Lib.ValueIdx

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 4) (Elt F) ℕ UU ℕ

/-! ## The tile and the arrays -/

abbrev cV (L : grid0.Coords) : Fin τ.nSC := (L 0).castLE hcore0
abbrev jV (L : grid0.Coords) : Fin τ.nSub := (L 1).castLE hsub0
/-- The vector subcore that runs the task of grid point `L`. -/
abbrev thr (d : Dev nD) (L : grid0.Coords) : Thread nD τ := V d (cV L) (jV L)

abbrev idsLoc (d : Dev nD) : Loc nD τ sig := (SparseCore.T d).loc main_arg0
abbrev ttLoc (d : Dev nD) : Loc nD τ sig := (SparseCore.T d).loc main_v0
abbrev tailLoc (d : Dev nD) : Loc nD τ sig := (SparseCore.T d).loc main_v2
abbrev outLoc (d : Dev nD) : Loc nD τ sig := (SparseCore.T d).loc main_v3

abbrev idsV : Memref sig .scVector .hbm S16384 .i32 := Memref.whole main_arg0_scv
abbrev ttV : Memref sig .scVector .hbm S32x1000000 .f32 := Memref.whole main_v0_scv
abbrev tailV : Memref sig .scVector .hbm S2048 .f32 := Memref.whole main_v2_scv
abbrev outV : Memref sig .scVector .hbm S32x16384 .f32 := Memref.whole main_v3_scv

/-- The task's block of the output as the program slices it: all 32 rows, the task's 512 columns. -/
abbrev outBlk (L : grid0.Coords) : Memref sig .scVector .hbm S32x512 .f32 :=
  (outV).slice (Rect.unit (s := S32x16384) (k0_off27 L) S32x512.size (k0_off27_inb L)) (fun _ => rfl)
/-- The elements of the output that the task of `L` writes. -/
abbrev outSet (L : grid0.Coords) : Finset S32x16384.Idx := (outBlk L).view.set

/-! ## The function the kernel leaves in the output -/

/-- The column of the transposed table read for word `w`: block `min (w / 128) 7811`, lane `w mod 128`. -/
def colAt (w : BitVec 32) : ℕ := 128 * min (w.toNat / 128) 7811 + w.toNat % 128

theorem colAt_lt (w : BitVec 32) : colAt w < 1000000 := by
  unfold colAt
  have h1 : min (w.toNat / 128) 7811 ≤ 7811 := Nat.min_le_right _ _
  have h2 : w.toNat % 128 < 128 := Nat.mod_lt _ (by decide)
  omega

/-- Below 999936 the column read is the word itself. -/
theorem colAt_eq (w : BitVec 32) (h : w.toNat < 999936) : colAt w = w.toNat := by
  unfold colAt
  have h1 : w.toNat / 128 ≤ 7811 := by omega
  rw [Nat.min_eq_left h1]
  omega

/-- The entry of the flattened last 64 rows read for word `w` (at or past 999936) and column `r`. -/
def tailAt (w : BitVec 32) (r : Fin 32) : ℕ := 32 * min (w.toNat - 999936) 63 + r.val

theorem tailAt_lt (w : BitVec 32) (r : Fin 32) : tailAt w r < 2048 := by
  unfold tailAt
  have h1 : min (w.toNat - 999936) 63 ≤ 63 := Nat.min_le_right _ _
  have h2 := r.isLt
  omega

/-- Entry `(r, n)` of the lookup as the kernel computes it from the index words, the transposed table and the
    flattened tail: the tail's entry when word `n`, read as a signed number, is at least 999936, else the table's. -/
def E (ids : S16384.Idx → BitVec 32) (tt : S32x1000000.Idx → Elt F .f32) (tail : S2048.Idx → Elt F .f32) :
    S32x16384.Idx → Elt F .f32 :=
  fun j =>
    let w := ids (ix1 (j 1))
    if (999936 : ℤ) ≤ w.toInt then tail (ix1 ⟨tailAt w (j 0), tailAt_lt w (j 0)⟩)
    else tt (ix2 (j 0) ⟨colAt w, colAt_lt w⟩)

end Cert.Proof.Block

end
-- ==== Proof.TileObl0I.lean ====
/-
  The block-gather task as the launch theorem's obligation (call 0).

  The launch hands the tile of coordinates (c, s), number w = 2·s + c, a read token of the index array, the transposed
  table and the flattened tail, and columns [512·w, 512·w + 512) of the result array; the task's body, proved over
  exactly those resources at any share and any contents, is run at the valuation before the call, whose table is the
  transpose and whose tail the flattened last rows of the launch memory's table; what it leaves in its columns is the
  lookup, because on in-range indices the kernel's column-and-tail reading is the row lookup.
-/
import proofs.«204991_g57140244906297_cont_9to1_m_249_19_alg».proof.Proof.LaunchDefsI
import proofs.«204991_g57140244906297_cont_9to1_m_249_19_alg».proof.Proof.ValsI
import proofs.«204991_g57140244906297_cont_9to1_m_249_19_alg».proof.Proof.BlockDefs
import proofs.«204991_g57140244906297_cont_9to1_m_249_19_alg».proof.Proof.Gen.KernelIdeal.Skeleton

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)`. -/
def coordsV (c : Fin 2) (s : Fin 16) : grid0.Coords :=
  fun | 0 => c | 1 => s | ⟨_ + 2, h⟩ => absurd h (Nat.not_lt.2 (Nat.le_add_left _ _))

/-- The rectangle the block-gather task slices out of its result array is the tile's column block. -/
theorem rect0_eq (c : Fin 2) (s : Fin 16) :
    Rect.unit (s := S32x16384) (k0_off27 (coordsV c s)) S32x512.size (k0_off27_inb (coordsV c s)) = colBlk (wid c s) := by
  unfold colBlk Rect.part Rect.block
  congr 1 <;> funext a
  · rw [k0_off27_eq]
    match a with
    | 0 => simp [Shape.partIx, Shape.partSize, coordsV, wid]
    | 1 => simp [Shape.partIx, Shape.partSize, coordsV, wid]; omega
  · match a with
    | 0 => simp [Shape.partSize]
    | 1 => simp [Shape.partSize]

theorem outSet0_eq (c : Fin 2) (s : Fin 16) : Block.outSet (coordsV c s) = (colBlk (wid c s)).set := by
  show ((View.whole (main_v3_scv : Ref sig .scVector)).slice (Rect.unit (s := S32x16384) (k0_off27 (coordsV c s)) S32x512.size (k0_off27_inb (coordsV c s)))).set = _
  rw [View.set_slice, rect0_eq]; exact Finset.map_refl

variable [FloatOps F]

/-- The block-gather task's body over explicit resources, at any memory, tile, share and starting contents of its
    columns: what the body's own module proves. -/
def Body0 : Prop := ∀ (m' : (ℓ : Loc nD τ sig) → Buf (Elt F) ℓ) (d : Dev nD) (L : grid0.Coords)
    (O : CellTallies nD τ sig (HIx 4)) (W : Waits sig (HIx 4)) (_ : ∀ g, O g none = 0)
    (f0 : Buf (Elt F) (Block.outLoc d)) (q : PosShare TreeShare),
    iprop(levAts (K (F := F)).L (K (F := F)).lev
        ∗ ((Block.idsLoc d ↦{q} m' (Block.idsLoc d)) ∗ (Block.ttLoc d ↦{q} m' (Block.ttLoc d)) ∗ (Block.tailLoc d ↦{q} m' (Block.tailLoc d)))
        ∗ (Block.outLoc d ↦[Block.outSet L]{fullShare} f0)
        ∗ scopedBufs (Block.thr d L) ∗ scopedSems0 (Block.thr d L) ∗ owes (Block.thr d L) O W)
      ⊢ (wp frame (wpE (defs₀ (F := F)) 𝒱₀ (Block.thr d L) none) Set.univ
          (cc0_block_gather L Block.idsV (Memref.isWhole_whole _) Block.ttV (Memref.isWhole_whole _) Block.tailV (Memref.isWhole_whole _)
            Block.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(((Block.idsLoc d ↦{q} m' (Block.idsLoc d)) ∗ (Block.ttLoc d ↦{q} m' (Block.ttLoc d)) ∗ (Block.tailLoc d ↦{q} m' (Block.tailLoc d)))
            ∗ (Block.outLoc d ↦[Block.outSet L]{fullShare} Block.E (m' (Block.idsLoc d)) (m' (Block.ttLoc d)) (m' (Block.tailLoc d)))
            ∗ scopedBufs (Block.thr d L) ∗ scopedSems0 (Block.thr d L)
            ∗ ∃ W', ⌜∀ p ∈ W', p ∈ W ∨ p.2 = none⌝ ∗ owes (Block.thr d L) O W') : sProp 𝕄)

variable (m : (ℓ : Loc nD τ sig) → Buf (Elt F) ℓ)

/-- The tile's share of call 0, spelt array by array. -/
theorem tileGo0_eq (d : Dev nD) (c : Fin 2) (s : Fin 16) (Wv : Valuation τ sig (Elt F)) :
    tileGo m d 0 c s Wv
      = iprop(((Block.idsLoc d ↦{shareTok fullShare 32 (wid c s)} VA0 m d (r_ids 0))
          ∗ (Block.ttLoc d ↦{shareTok fullShare 32 (wid c s)} VA0 m d r_tt0)
          ∗ (Block.tailLoc d ↦{shareTok fullShare 32 (wid c s)} VA0 m d r_tl0))
        ∗ (Block.outLoc d ↦[Block.outSet (coordsV c s)]{fullShare} Wv (r_out 0))) := by
  rw [outSet0_eq]
  show iprop(heldAt (SparseCore.T d) (RO 0) (fun _ => shareTok fullShare 32 (wid c s)) (VA0 m d)
      ∗ ((d, r_out 0) ↦[(colBlk (wid c s)).set]{fullShare} Wv (r_out 0))) = _
  unfold heldAt
  rw [show (RO 0 : Finset (DevRef τ sig)) = insert (r_ids 0) (insert r_tt0 {r_tl0}) from rfl,
    SparseCore.bigSep_insert' (by decide), SparseCore.bigSep_insert' (by decide), bigSep_singleton]

/-- The block-gather task from the launch's share to the launch's share: the body at the valuation before the call,
    its result read as the lookup. -/
theorem tile0 (hbody : Body0 (F := F))
    (hbr : ∀ d : Dev nD, Block.E (F := F) (m (d, r_ids 0)) (transpose S32x1000000 [1, 0] (m (d, a_T0)) transposes_S1000000x32_S32x1000000_1_0)
        (shapeCast S2048 (extractStridedSlice S64x32 ![999936, 0] (m (d, a_T0)) slices_S1000000x32_S64x32_999936_0) shapeCasts_S64x32_S2048) = E m d 0)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 0 c s (VA0 m d)
        ∗ scopedBufs (Block.thr d (coordsV c s)) ∗ scopedSems0 (Block.thr d (coordsV c s)) ∗ owes (Block.thr d (coordsV c s)) O W)
      ⊢ (wp frame (wpE (defs₀ (F := F)) 𝒱₀ (Block.thr d (coordsV c s)) none) Set.univ
          (cc0_block_gather (coordsV c s) Block.idsV (Memref.isWhole_whole _) Block.ttV (Memref.isWhole_whole _) Block.tailV (Memref.isWhole_whole _)
            Block.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(tileGo m d 0 c s (VB0 m d) ∗ scopedBufs (Block.thr d (coordsV c s)) ∗ scopedSems0 (Block.thr d (coordsV c s))
            ∗ ∃ W', ⌜∀ p ∈ W', p ∈ W ∨ p.2 = none⌝ ∗ owes (Block.thr d (coordsV c s)) O W') : sProp 𝕄) := by
  have hv : Block.E (F := F) (VA0 m d (r_ids 0)) (VA0 m d r_tt0) (VA0 m d r_tl0) = VB0 m d (r_out 0) := by
    rw [VA0_ids, VA0_tt, VA0_tl, hbr d]; unfold VB0; rw [Function.update_self]
  rw [tileGo0_eq, tileGo0_eq, ← hv]
  have hb : iprop(levAts (K (F := F)).L (K (F := F)).lev
        ∗ ((Block.idsLoc d ↦{shareTok fullShare 32 (wid c s)} VA0 m d (r_ids 0)) ∗ (Block.ttLoc d ↦{shareTok fullShare 32 (wid c s)} VA0 m d r_tt0) ∗ (Block.tailLoc d ↦{shareTok fullShare 32 (wid c s)} VA0 m d r_tl0))
        ∗ (Block.outLoc d ↦[Block.outSet (coordsV c s)]{fullShare} VA0 m d (r_out 0))
        ∗ scopedBufs (Block.thr d (coordsV c s)) ∗ scopedSems0 (Block.thr d (coordsV c s)) ∗ owes (Block.thr d (coordsV c s)) O W)
      ⊢ (wp frame (wpE (defs₀ (F := F)) 𝒱₀ (Block.thr d (coordsV c s)) none) Set.univ
          (cc0_block_gather (coordsV c s) Block.idsV (Memref.isWhole_whole _) Block.ttV (Memref.isWhole_whole _) Block.tailV (Memref.isWhole_whole _)
            Block.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(((Block.idsLoc d ↦{shareTok fullShare 32 (wid c s)} VA0 m d (r_ids 0)) ∗ (Block.ttLoc d ↦{shareTok fullShare 32 (wid c s)} VA0 m d r_tt0) ∗ (Block.tailLoc d ↦{shareTok fullShare 32 (wid c s)} VA0 m d r_tl0))
            ∗ (Block.outLoc d ↦[Block.outSet (coordsV c s)]{fullShare} Block.E (VA0 m d (r_ids 0)) (VA0 m d r_tt0) (VA0 m d r_tl0))
            ∗ scopedBufs (Block.thr d (coordsV c s)) ∗ scopedSems0 (Block.thr d (coordsV c s))
            ∗ ∃ W', ⌜∀ p ∈ W', p ∈ W ∨ p.2 = none⌝ ∗ owes (Block.thr d (coordsV c s)) O W') : sProp 𝕄) :=
    hbody (fun ℓ => VA0 m d ℓ.2) d (coordsV c s) O W hO (VA0 m d (r_out 0)) (shareTok fullShare 32 (wid c s))
  iintro ⟨Hl, -, ⟨H3, Ho⟩, Hsb, Hss, HO⟩
  iapply (wp_wand_r frame _ Set.univ)
  isplitl [Hl H3 Ho Hsb Hss HO]
  · iapply hb
    isplitl [Hl]; · iexact Hl
    isplitl [H3]; · iexact H3
    isplitl [Ho]; · iexact Ho
    isplitl [Hsb]; · iexact Hsb
    isplitl [Hss]; · iexact Hss
    iexact HO
  iintro %_ ⟨H3, Ho, Hsb, Hss, HW⟩
  isplitl [H3 Ho]
  · isplitl [H3]; · iexact H3
    iexact Ho
  isplitl [Hsb]; · iexact Hsb
  isplitl [Hss]; · iexact Hss
  iexact HW

/-! ## The launch theorem's obligation -/

theorem defs₀_vector0 (c : Fin τ.nSC) (s : Fin τ.nSub) :
    defs₀ (F := F) (.scVector c s) 0 ()
      = SparseCore.onTile hcore0 hsub0 (fun c s => (cc0_block_gather (coordsV c s) Block.idsV (Memref.isWhole_whole _) Block.ttV (Memref.isWhole_whole _) Block.tailV (Memref.isWhole_whole _)
            Block.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)) ⟨⟩ c s := rfl

omit [FloatOps F] in
theorem obl_post0 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hbody : Body0 (F := F))
    (hbr : ∀ d : Dev nD, Block.E (F := F) (m (d, r_ids 0)) (transpose S32x1000000 [1, 0] (m (d, a_T0)) transposes_S1000000x32_S32x1000000_1_0)
        (shapeCast S2048 (extractStridedSlice S64x32 ![999936, 0] (m (d, a_T0)) slices_S1000000x32_S64x32_999936_0) shapeCasts_S64x32_S2048) = E m d 0) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile0 m hbody hbr d ⟨_, hc.1⟩ ⟨_, hc.2⟩ O W hO).trans (wp_mono frame _ _ fun _ => obl_post0)

end Cert.Proof.KernelIdealC

end
-- ==== Proof.PackedDefs.lean ====
/-
  The names the packed gather's task (SparseCore calls 1 and 2) is stated over: the tile a grid point names, the operand
  arrays as the body table passes them, the column block a task writes, and the value — entry (c, n) of a lookup is lane
  ((idx n &&& 3) <<< 5) + c of row idx n >>> 2 of the table read four rows to a row of 128.
-/
import proofs.«204991_g57140244906297_cont_9to1_m_249_19_alg».proof.Proof.CommonI
import Idealize.ShloMosaic.Lib.ValueIdx

noncomputable section

namespace Cert.Proof.Packed

open Cert.KernelIdeal Cert.KernelIdeal.Gen
open Cert.Proof.KernelIdealC

open Idealize.ShloMosaic
open Idealize.ShloMosaic.SparseCore (S V T)
open Idealize.ShloMosaic.ValueIdx (ix1 ix2)

variable {F : FTy → Type}

/-- The tile a grid point of call 1 names. -/
abbrev thr (d : Dev nD) (L : grid1.Coords) : Thread nD τ := V d ((L 0).castLE hcore1) ((L 1).castLE hsub1)

/-- The operands as the body table passes them. -/
abbrev idsW : Memref sig .scVector .hbm S16384 .i32 := Memref.whole main_arg1_scv
abbrev tqW : Memref sig .scVector .hbm S25000x128 .f32 := Memref.whole main_v4_scv
abbrev outW : Memref sig .scVector .hbm S32x16384 .f32 := Memref.whole main_v5_scv

/-- The 32 × 512 column block of the output a task writes, as the program slices it. -/
abbrev outBlk (L : grid1.Coords) : Memref sig .scVector .hbm S32x512 .f32 :=
  (outW).slice (Rect.unit (s := S32x16384) (k1_off35 L) S32x512.size (k1_off35_inb L)) (fun _ => rfl)

/-- The arrays, as the TensorCore's thread names them. -/
abbrev idsLoc (d : Dev nD) : Loc nD τ sig := (SparseCore.T d).loc main_arg1
abbrev tqLoc (d : Dev nD) : Loc nD τ sig := (SparseCore.T d).loc main_v4
abbrev outLoc (d : Dev nD) : Loc nD τ sig := (SparseCore.T d).loc main_v5

/-- The value: entry (c, n) is lane ((idx n &&& 3) <<< 5) + c of row idx n >>> 2 of the table read as 25000 × 128. -/
def packedE (ids : S16384.Idx → BitVec 32) (tq : S25000x128.Idx → Elt F .f32) : S32x16384.Idx → Elt F .f32 :=
  fun j => tq (ix2 ⟨((ids (ix1 (j 1))) >>> 2).toNat % 25000, Nat.mod_lt _ (by decide)⟩
    ⟨((((ids (ix1 (j 1))) &&& 3#32) <<< 5) + BitVec.ofNat 32 (j 0).val).toNat % 128, Nat.mod_lt _ (by decide)⟩)

/-! ### The same for call 2, over the table of 250 rows -/

/-- The tile a grid point of call 2 names. -/
abbrev thr2 (d : Dev nD) (L : grid2.Coords) : Thread nD τ := V d ((L 0).castLE hcore2) ((L 1).castLE hsub2)

abbrev idsW2 : Memref sig .scVector .hbm S16384 .i32 := Memref.whole main_arg2_scv
abbrev tqW2 : Memref sig .scVector .hbm S250x128 .f32 := Memref.whole main_v6_scv
abbrev outW2 : Memref sig .scVector .hbm S32x16384 .f32 := Memref.whole main_v7_scv

abbrev outBlk2 (L : grid2.Coords) : Memref sig .scVector .hbm S32x512 .f32 :=
  (outW2).slice (Rect.unit (s := S32x16384) (k2_off35 L) S32x512.size (k2_off35_inb L)) (fun _ => rfl)

abbrev idsLoc2 (d : Dev nD) : Loc nD τ sig := (SparseCore.T d).loc main_arg2
abbrev tqLoc2 (d : Dev nD) : Loc nD τ sig := (SparseCore.T d).loc main_v6
abbrev outLoc2 (d : Dev nD) : Loc nD τ sig := (SparseCore.T d).loc main_v7

def packedE2 (ids : S16384.Idx → BitVec 32) (tq : S250x128.Idx → Elt F .f32) : S32x16384.Idx → Elt F .f32 :=
  fun j => tq (ix2 ⟨((ids (ix1 (j 1))) >>> 2).toNat % 250, Nat.mod_lt _ (by decide)⟩
    ⟨((((ids (ix1 (j 1))) &&& 3#32) <<< 5) + BitVec.ofNat 32 (j 0).val).toNat % 128, Nat.mod_lt _ (by decide)⟩)

end Cert.Proof.Packed

end
-- ==== Proof.TileObl1I.lean ====
/-
  The packed-gather task as the launch theorem's obligation (call 1).

  The launch hands the tile of coordinates (c, s), number w = 2·s + c, a read token of the index array and of the table
  viewed four rows to a row, and columns [512·w, 512·w + 512) of the result array; the task's body, proved over exactly
  those resources at any shares and any contents, is run at the valuation before the call; what it leaves in its
  columns is the lookup, because on in-range indices row idx >> 2, lane ((idx & 3) << 5) + c of the four-to-a-row view
  is row idx, column c of the table.
-/
import proofs.«204991_g57140244906297_cont_9to1_m_249_19_alg».proof.Proof.LaunchDefsI
import proofs.«204991_g57140244906297_cont_9to1_m_249_19_alg».proof.Proof.ValsI
import proofs.«204991_g57140244906297_cont_9to1_m_249_19_alg».proof.Proof.PackedDefs
import proofs.«204991_g57140244906297_cont_9to1_m_249_19_alg».proof.Proof.Gen.KernelIdeal.Skeleton

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)` in call 1's grid. -/
def coordsV1 (c : Fin 2) (s : Fin 16) : grid1.Coords :=
  fun | 0 => c | 1 => s | ⟨_ + 2, h⟩ => absurd h (Nat.not_lt.2 (Nat.le_add_left _ _))

/-- The rectangle the packed-gather task slices out of its result array is the tile's column block. -/
theorem rect1_eq (c : Fin 2) (s : Fin 16) :
    Rect.unit (s := S32x16384) (k1_off35 (coordsV1 c s)) S32x512.size (k1_off35_inb (coordsV1 c s)) = colBlk (wid c s) := by
  unfold colBlk Rect.part Rect.block
  congr 1 <;> funext a
  · rw [k1_off35_eq]
    match a with
    | 0 => simp [Shape.partIx, Shape.partSize, coordsV1, wid]
    | 1 => simp [Shape.partIx, Shape.partSize, coordsV1, wid]; omega
  · match a with
    | 0 => simp [Shape.partSize]
    | 1 => simp [Shape.partSize]

theorem outSet1_eq (c : Fin 2) (s : Fin 16) : (Packed.outBlk (coordsV1 c s)).view.set = (colBlk (wid c s)).set := by
  show ((View.whole (main_v5_scv : Ref sig .scVector)).slice (Rect.unit (s := S32x16384) (k1_off35 (coordsV1 c s)) S32x512.size (k1_off35_inb (coordsV1 c s)))).set = _
  rw [View.set_slice, rect1_eq]; exact Finset.map_refl

variable [FloatOps F]

/-- The packed-gather task's body over explicit resources, at any memory whose index words are in range, any tile, any
    shares and any starting contents of its columns: what the body's own module proves. -/
def Body1 : Prop := ∀ (m' : (ℓ : Loc nD τ sig) → Buf (Elt F) ℓ) (d : Dev nD) (L : grid1.Coords)
    (O : CellTallies nD τ sig (HIx 4)) (W : Waits sig (HIx 4)) (_ : ∀ g, O g none = 0)
    (_ : ∀ j : S16384.Idx, ((m' (Packed.idsLoc d) : S16384.Idx → BitVec 32) j).toNat < 100000)
    (f0 : Buf (Elt F) (Packed.outLoc d)) (q1 q4 : PosShare TreeShare),
    (iprop(levAts (K (F := F)).L (K (F := F)).lev
        ∗ ((Packed.idsW).view.loc (Packed.thr d L) ↦{q1} m' (Packed.idsLoc d))
        ∗ ((Packed.tqW).view.loc (Packed.thr d L) ↦{q4} m' (Packed.tqLoc d))
        ∗ ((Packed.outBlk L).view.loc (Packed.thr d L) ↦[(Packed.outBlk L).view.set]{fullShare} f0)
        ∗ scopedBufs (Packed.thr d L) ∗ scopedSems0 (Packed.thr d L) ∗ owes (Packed.thr d L) O W) : sProp 𝕄)
      ⊢ wp frame (wpE (defs₀ (F := F)) 𝒱₀ (Packed.thr d L) none) Set.univ
          (cc1_packed_gather L Packed.idsW (Memref.isWhole_whole _) Packed.tqW (Memref.isWhole_whole _) Packed.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(((Packed.idsW).view.loc (Packed.thr d L) ↦{q1} m' (Packed.idsLoc d))
            ∗ ((Packed.tqW).view.loc (Packed.thr d L) ↦{q4} m' (Packed.tqLoc d))
            ∗ ((Packed.outBlk L).view.loc (Packed.thr d L) ↦[(Packed.outBlk L).view.set]{fullShare}
                (Packed.packedE (F := F) (m' (Packed.idsLoc d)) (m' (Packed.tqLoc d)) : Buf (Elt F) (Packed.outLoc d)))
            ∗ scopedBufs (Packed.thr d L) ∗ scopedSems0 (Packed.thr d L) ∗ ∃ W', ⌜∀ p ∈ W', p ∈ W ∨ p.2 = none⌝ ∗ owes (Packed.thr d L) O W')

variable (m : (ℓ : Loc nD τ sig) → Buf (Elt F) ℓ)

omit [FloatOps F] in
theorem pts_ids1 (d : Dev nD) (c : Fin 2) (s : Fin 16) (q : PosShare TreeShare) (f : Buf (Elt F) (Packed.idsLoc d)) :
    (((Packed.idsW).view.loc (Packed.thr d (coordsV1 c s)) ↦{q} f : sProp 𝕄)) = ((d, r_ids 1) ↦{q} f) := by
  simp only [Memref.view_whole, View.set_whole]
omit [FloatOps F] in
theorem pts_tq1 (d : Dev nD) (c : Fin 2) (s : Fin 16) (q : PosShare TreeShare) (f : Buf (Elt F) (Packed.tqLoc d)) :
    (((Packed.tqW).view.loc (Packed.thr d (coordsV1 c s)) ↦{q} f : sProp 𝕄)) = ((d, r_tq1) ↦{q} f) := by
  simp only [Memref.view_whole, View.set_whole]

/-- The tile's share of call 1, spelt array by array as the body holds them. -/
theorem tileGo1_eq (d : Dev nD) (c : Fin 2) (s : Fin 16) (Wv : Valuation τ sig (Elt F)) :
    tileGo m d 1 c s Wv
      = iprop((((Packed.idsW).view.loc (Packed.thr d (coordsV1 c s)) ↦{shareTok fullShare 32 (wid c s)} VA1 m d (r_ids 1)) ∗ ((Packed.tqW).view.loc (Packed.thr d (coordsV1 c s)) ↦{shareTok fullShare 32 (wid c s)} VA1 m d r_tq1))
        ∗ (((Packed.outBlk (coordsV1 c s)).view.loc (Packed.thr d (coordsV1 c s)) ↦[(Packed.outBlk (coordsV1 c s)).view.set]{fullShare} Wv (r_out 1)))) := by
  rw [outSet1_eq, pts_ids1, pts_tq1]
  show iprop(heldAt (SparseCore.T d) (RO 1) (fun _ => shareTok fullShare 32 (wid c s)) (VA1 m d)
      ∗ ((d, r_out 1) ↦[(colBlk (wid c s)).set]{fullShare} Wv (r_out 1))) = _
  unfold heldAt
  rw [show (RO 1 : Finset (DevRef τ sig)) = insert (r_ids 1) {r_tq1} from rfl,
    SparseCore.bigSep_insert' (by decide), bigSep_singleton]

/-- The packed-gather task from the launch's share to the launch's share. -/
theorem tile1 (hbody : Body1 (F := F))
    (hin : ∀ (d : Dev nD) (j : S16384.Idx), ((m (d, r_ids 1) : S16384.Idx → BitVec 32) j).toNat < 100000)
    (hbr : ∀ d : Dev nD, Packed.packedE (F := F) (m (d, r_ids 1)) (shapeCast S25000x128 (m (d, a_T1)) shapeCasts_S100000x32_S25000x128) = E m d 1)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 1 c s (VA1 m d)
        ∗ scopedBufs (Packed.thr d (coordsV1 c s)) ∗ scopedSems0 (Packed.thr d (coordsV1 c s)) ∗ owes (Packed.thr d (coordsV1 c s)) O W)
      ⊢ (wp frame (wpE (defs₀ (F := F)) 𝒱₀ (Packed.thr d (coordsV1 c s)) none) Set.univ
          (cc1_packed_gather (coordsV1 c s) Packed.idsW (Memref.isWhole_whole _) Packed.tqW (Memref.isWhole_whole _) Packed.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(tileGo m d 1 c s (VB1 m d) ∗ scopedBufs (Packed.thr d (coordsV1 c s)) ∗ scopedSems0 (Packed.thr d (coordsV1 c s))
            ∗ ∃ W', ⌜∀ p ∈ W', p ∈ W ∨ p.2 = none⌝ ∗ owes (Packed.thr d (coordsV1 c s)) O W') : sProp 𝕄) := by
  have hv : Packed.packedE (F := F) (VA1 m d (r_ids 1)) (VA1 m d r_tq1) = VB1 m d (r_out 1) := by
    rw [VA1_ids, VA1_tq, hbr d]; unfold VB1; rw [Function.update_self]
  rw [tileGo1_eq, tileGo1_eq, ← hv]
  have hb : (iprop(levAts (K (F := F)).L (K (F := F)).lev
        ∗ ((Packed.idsW).view.loc (Packed.thr d (coordsV1 c s)) ↦{shareTok fullShare 32 (wid c s)} VA1 m d (r_ids 1))
        ∗ ((Packed.tqW).view.loc (Packed.thr d (coordsV1 c s)) ↦{shareTok fullShare 32 (wid c s)} VA1 m d r_tq1)
        ∗ (((Packed.outBlk (coordsV1 c s)).view.loc (Packed.thr d (coordsV1 c s)) ↦[(Packed.outBlk (coordsV1 c s)).view.set]{fullShare} VA1 m d (r_out 1)))
        ∗ scopedBufs (Packed.thr d (coordsV1 c s)) ∗ scopedSems0 (Packed.thr d (coordsV1 c s)) ∗ owes (Packed.thr d (coordsV1 c s)) O W) : sProp 𝕄)
      ⊢ wp frame (wpE (defs₀ (F := F)) 𝒱₀ (Packed.thr d (coordsV1 c s)) none) Set.univ
          (cc1_packed_gather (coordsV1 c s) Packed.idsW (Memref.isWhole_whole _) Packed.tqW (Memref.isWhole_whole _) Packed.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(((Packed.idsW).view.loc (Packed.thr d (coordsV1 c s)) ↦{shareTok fullShare 32 (wid c s)} VA1 m d (r_ids 1))
            ∗ ((Packed.tqW).view.loc (Packed.thr d (coordsV1 c s)) ↦{shareTok fullShare 32 (wid c s)} VA1 m d r_tq1)
            ∗ (((Packed.outBlk (coordsV1 c s)).view.loc (Packed.thr d (coordsV1 c s)) ↦[(Packed.outBlk (coordsV1 c s)).view.set]{fullShare} Packed.packedE (F := F) (VA1 m d (r_ids 1)) (VA1 m d r_tq1)))
            ∗ scopedBufs (Packed.thr d (coordsV1 c s)) ∗ scopedSems0 (Packed.thr d (coordsV1 c s)) ∗ ∃ W', ⌜∀ p ∈ W', p ∈ W ∨ p.2 = none⌝ ∗ owes (Packed.thr d (coordsV1 c s)) O W') :=
    hbody (fun ℓ => VA1 m d ℓ.2) d (coordsV1 c s) O W hO (fun j => by
      show ((VA1 m d (r_ids 1) : S16384.Idx → BitVec 32) j).toNat < 100000
      rw [VA1_ids]; exact hin d j) (VA1 m d (r_out 1)) (shareTok fullShare 32 (wid c s)) (shareTok fullShare 32 (wid c s))
  iintro ⟨Hl, -, ⟨⟨Hi, Ht⟩, Ho⟩, Hsb, Hss, HO⟩
  iapply (wp_wand_r frame _ Set.univ)
  isplitl [Hl Hi Ht Ho Hsb Hss HO]
  · iapply hb
    isplitl [Hl]; · iexact Hl
    isplitl [Hi]; · iexact Hi
    isplitl [Ht]; · iexact Ht
    isplitl [Ho]; · iexact Ho
    isplitl [Hsb]; · iexact Hsb
    isplitl [Hss]; · iexact Hss
    iexact HO
  iintro %_ ⟨Hi, Ht, Ho, Hsb, Hss, HW⟩
  isplitl [Hi Ht Ho]
  · isplitl [Hi Ht]
    · isplitl [Hi]; · iexact Hi
      iexact Ht
    iexact Ho
  isplitl [Hsb]; · iexact Hsb
  isplitl [Hss]; · iexact Hss
  iexact HW

/-! ## The launch theorem's obligation -/

theorem defs₀_vector1 (c : Fin τ.nSC) (s : Fin τ.nSub) :
    defs₀ (F := F) (.scVector c s) 1 ()
      = SparseCore.onTile hcore1 hsub1 (fun c s => (cc1_packed_gather (coordsV1 c s) Packed.idsW (Memref.isWhole_whole _) Packed.tqW (Memref.isWhole_whole _) Packed.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)) ⟨⟩ c s := rfl

omit [FloatOps F] in
theorem obl_post1 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (hbody : Body1 (F := F))
    (hin : ∀ (d : Dev nD) (j : S16384.Idx), ((m (d, r_ids 1) : S16384.Idx → BitVec 32) j).toNat < 100000)
    (hbr : ∀ d : Dev nD, Packed.packedE (F := F) (m (d, r_ids 1)) (shapeCast S25000x128 (m (d, a_T1)) shapeCasts_S100000x32_S25000x128) = E m d 1) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile1 m hbody hin hbr d ⟨_, hc.1⟩ ⟨_, hc.2⟩ O W hO).trans (wp_mono frame _ _ fun _ => obl_post1)

end Cert.Proof.KernelIdealC

end
-- ==== Proof.TileObl2I.lean ====
/-
  The packed-gather task as the launch theorem's obligation (call 2).

  The launch hands the tile of coordinates (c, s), number w = 2·s + c, a read token of the index array and of the table
  viewed four rows to a row, and columns [512·w, 512·w + 512) of the result array; the task's body, proved over exactly
  those resources at any shares and any contents, is run at the valuation before the call; what it leaves in its
  columns is the lookup, because on in-range indices row idx >> 2, lane ((idx & 3) << 5) + c of the four-to-a-row view
  is row idx, column c of the table.
-/
import proofs.«204991_g57140244906297_cont_9to1_m_249_19_alg».proof.Proof.LaunchDefsI
import proofs.«204991_g57140244906297_cont_9to1_m_249_19_alg».proof.Proof.ValsI
import proofs.«204991_g57140244906297_cont_9to1_m_249_19_alg».proof.Proof.PackedDefs
import proofs.«204991_g57140244906297_cont_9to1_m_249_19_alg».proof.Proof.Gen.KernelIdeal.Skeleton

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)` in call 2's grid. -/
def coordsV2 (c : Fin 2) (s : Fin 16) : grid2.Coords :=
  fun | 0 => c | 1 => s | ⟨_ + 2, h⟩ => absurd h (Nat.not_lt.2 (Nat.le_add_left _ _))

/-- The rectangle the packed-gather task slices out of its result array is the tile's column block. -/
theorem rect2_eq (c : Fin 2) (s : Fin 16) :
    Rect.unit (s := S32x16384) (k2_off35 (coordsV2 c s)) S32x512.size (k2_off35_inb (coordsV2 c s)) = colBlk (wid c s) := by
  unfold colBlk Rect.part Rect.block
  congr 1 <;> funext a
  · rw [k2_off35_eq]
    match a with
    | 0 => simp [Shape.partIx, Shape.partSize, coordsV2, wid]
    | 1 => simp [Shape.partIx, Shape.partSize, coordsV2, wid]; omega
  · match a with
    | 0 => simp [Shape.partSize]
    | 1 => simp [Shape.partSize]

theorem outSet2_eq (c : Fin 2) (s : Fin 16) : (Packed.outBlk2 (coordsV2 c s)).view.set = (colBlk (wid c s)).set := by
  show ((View.whole (main_v7_scv : Ref sig .scVector)).slice (Rect.unit (s := S32x16384) (k2_off35 (coordsV2 c s)) S32x512.size (k2_off35_inb (coordsV2 c s)))).set = _
  rw [View.set_slice, rect2_eq]; exact Finset.map_refl

variable [FloatOps F]

/-- The packed-gather task's body over explicit resources, at any memory whose index words are in range, any tile, any
    shares and any starting contents of its columns: what the body's own module proves. -/
def Body2 : Prop := ∀ (m' : (ℓ : Loc nD τ sig) → Buf (Elt F) ℓ) (d : Dev nD) (L : grid2.Coords)
    (O : CellTallies nD τ sig (HIx 4)) (W : Waits sig (HIx 4)) (_ : ∀ g, O g none = 0)
    (_ : ∀ j : S16384.Idx, ((m' (Packed.idsLoc2 d) : S16384.Idx → BitVec 32) j).toNat < 1000)
    (f0 : Buf (Elt F) (Packed.outLoc2 d)) (q1 q4 : PosShare TreeShare),
    (iprop(levAts (K (F := F)).L (K (F := F)).lev
        ∗ ((Packed.idsW2).view.loc (Packed.thr2 d L) ↦{q1} m' (Packed.idsLoc2 d))
        ∗ ((Packed.tqW2).view.loc (Packed.thr2 d L) ↦{q4} m' (Packed.tqLoc2 d))
        ∗ ((Packed.outBlk2 L).view.loc (Packed.thr2 d L) ↦[(Packed.outBlk2 L).view.set]{fullShare} f0)
        ∗ scopedBufs (Packed.thr2 d L) ∗ scopedSems0 (Packed.thr2 d L) ∗ owes (Packed.thr2 d L) O W) : sProp 𝕄)
      ⊢ wp frame (wpE (defs₀ (F := F)) 𝒱₀ (Packed.thr2 d L) none) Set.univ
          (cc2_packed_gather L Packed.idsW2 (Memref.isWhole_whole _) Packed.tqW2 (Memref.isWhole_whole _) Packed.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(((Packed.idsW2).view.loc (Packed.thr2 d L) ↦{q1} m' (Packed.idsLoc2 d))
            ∗ ((Packed.tqW2).view.loc (Packed.thr2 d L) ↦{q4} m' (Packed.tqLoc2 d))
            ∗ ((Packed.outBlk2 L).view.loc (Packed.thr2 d L) ↦[(Packed.outBlk2 L).view.set]{fullShare}
                (Packed.packedE2 (F := F) (m' (Packed.idsLoc2 d)) (m' (Packed.tqLoc2 d)) : Buf (Elt F) (Packed.outLoc2 d)))
            ∗ scopedBufs (Packed.thr2 d L) ∗ scopedSems0 (Packed.thr2 d L) ∗ ∃ W', ⌜∀ p ∈ W', p ∈ W ∨ p.2 = none⌝ ∗ owes (Packed.thr2 d L) O W')

variable (m : (ℓ : Loc nD τ sig) → Buf (Elt F) ℓ)

omit [FloatOps F] in
theorem pts_ids2 (d : Dev nD) (c : Fin 2) (s : Fin 16) (q : PosShare TreeShare) (f : Buf (Elt F) (Packed.idsLoc2 d)) :
    (((Packed.idsW2).view.loc (Packed.thr2 d (coordsV2 c s)) ↦{q} f : sProp 𝕄)) = ((d, r_ids 2) ↦{q} f) := by
  simp only [Memref.view_whole, View.set_whole]
omit [FloatOps F] in
theorem pts_tq2 (d : Dev nD) (c : Fin 2) (s : Fin 16) (q : PosShare TreeShare) (f : Buf (Elt F) (Packed.tqLoc2 d)) :
    (((Packed.tqW2).view.loc (Packed.thr2 d (coordsV2 c s)) ↦{q} f : sProp 𝕄)) = ((d, r_tq2) ↦{q} f) := by
  simp only [Memref.view_whole, View.set_whole]

/-- The tile's share of call 2, spelt array by array as the body holds them. -/
theorem tileGo2_eq (d : Dev nD) (c : Fin 2) (s : Fin 16) (Wv : Valuation τ sig (Elt F)) :
    tileGo m d 2 c s Wv
      = iprop((((Packed.idsW2).view.loc (Packed.thr2 d (coordsV2 c s)) ↦{shareTok fullShare 32 (wid c s)} VA2 m d (r_ids 2)) ∗ ((Packed.tqW2).view.loc (Packed.thr2 d (coordsV2 c s)) ↦{shareTok fullShare 32 (wid c s)} VA2 m d r_tq2))
        ∗ (((Packed.outBlk2 (coordsV2 c s)).view.loc (Packed.thr2 d (coordsV2 c s)) ↦[(Packed.outBlk2 (coordsV2 c s)).view.set]{fullShare} Wv (r_out 2)))) := by
  rw [outSet2_eq, pts_ids2, pts_tq2]
  show iprop(heldAt (SparseCore.T d) (RO 2) (fun _ => shareTok fullShare 32 (wid c s)) (VA2 m d)
      ∗ ((d, r_out 2) ↦[(colBlk (wid c s)).set]{fullShare} Wv (r_out 2))) = _
  unfold heldAt
  rw [show (RO 2 : Finset (DevRef τ sig)) = insert (r_ids 2) {r_tq2} from rfl,
    SparseCore.bigSep_insert' (by decide), bigSep_singleton]

/-- The packed-gather task from the launch's share to the launch's share. -/
theorem tile2 (hbody : Body2 (F := F))
    (hin : ∀ (d : Dev nD) (j : S16384.Idx), ((m (d, r_ids 2) : S16384.Idx → BitVec 32) j).toNat < 1000)
    (hbr : ∀ d : Dev nD, Packed.packedE2 (F := F) (m (d, r_ids 2)) (shapeCast S250x128 (m (d, a_T2)) shapeCasts_S1000x32_S250x128) = E m d 2)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 2 c s (VA2 m d)
        ∗ scopedBufs (Packed.thr2 d (coordsV2 c s)) ∗ scopedSems0 (Packed.thr2 d (coordsV2 c s)) ∗ owes (Packed.thr2 d (coordsV2 c s)) O W)
      ⊢ (wp frame (wpE (defs₀ (F := F)) 𝒱₀ (Packed.thr2 d (coordsV2 c s)) none) Set.univ
          (cc2_packed_gather (coordsV2 c s) Packed.idsW2 (Memref.isWhole_whole _) Packed.tqW2 (Memref.isWhole_whole _) Packed.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(tileGo m d 2 c s (VB2 m d) ∗ scopedBufs (Packed.thr2 d (coordsV2 c s)) ∗ scopedSems0 (Packed.thr2 d (coordsV2 c s))
            ∗ ∃ W', ⌜∀ p ∈ W', p ∈ W ∨ p.2 = none⌝ ∗ owes (Packed.thr2 d (coordsV2 c s)) O W') : sProp 𝕄) := by
  have hv : Packed.packedE2 (F := F) (VA2 m d (r_ids 2)) (VA2 m d r_tq2) = VB2 m d (r_out 2) := by
    rw [VA2_ids, VA2_tq, hbr d]; unfold VB2; rw [Function.update_self]
  rw [tileGo2_eq, tileGo2_eq, ← hv]
  have hb : (iprop(levAts (K (F := F)).L (K (F := F)).lev
        ∗ ((Packed.idsW2).view.loc (Packed.thr2 d (coordsV2 c s)) ↦{shareTok fullShare 32 (wid c s)} VA2 m d (r_ids 2))
        ∗ ((Packed.tqW2).view.loc (Packed.thr2 d (coordsV2 c s)) ↦{shareTok fullShare 32 (wid c s)} VA2 m d r_tq2)
        ∗ (((Packed.outBlk2 (coordsV2 c s)).view.loc (Packed.thr2 d (coordsV2 c s)) ↦[(Packed.outBlk2 (coordsV2 c s)).view.set]{fullShare} VA2 m d (r_out 2)))
        ∗ scopedBufs (Packed.thr2 d (coordsV2 c s)) ∗ scopedSems0 (Packed.thr2 d (coordsV2 c s)) ∗ owes (Packed.thr2 d (coordsV2 c s)) O W) : sProp 𝕄)
      ⊢ wp frame (wpE (defs₀ (F := F)) 𝒱₀ (Packed.thr2 d (coordsV2 c s)) none) Set.univ
          (cc2_packed_gather (coordsV2 c s) Packed.idsW2 (Memref.isWhole_whole _) Packed.tqW2 (Memref.isWhole_whole _) Packed.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(((Packed.idsW2).view.loc (Packed.thr2 d (coordsV2 c s)) ↦{shareTok fullShare 32 (wid c s)} VA2 m d (r_ids 2))
            ∗ ((Packed.tqW2).view.loc (Packed.thr2 d (coordsV2 c s)) ↦{shareTok fullShare 32 (wid c s)} VA2 m d r_tq2)
            ∗ (((Packed.outBlk2 (coordsV2 c s)).view.loc (Packed.thr2 d (coordsV2 c s)) ↦[(Packed.outBlk2 (coordsV2 c s)).view.set]{fullShare} Packed.packedE2 (F := F) (VA2 m d (r_ids 2)) (VA2 m d r_tq2)))
            ∗ scopedBufs (Packed.thr2 d (coordsV2 c s)) ∗ scopedSems0 (Packed.thr2 d (coordsV2 c s)) ∗ ∃ W', ⌜∀ p ∈ W', p ∈ W ∨ p.2 = none⌝ ∗ owes (Packed.thr2 d (coordsV2 c s)) O W') :=
    hbody (fun ℓ => VA2 m d ℓ.2) d (coordsV2 c s) O W hO (fun j => by
      show ((VA2 m d (r_ids 2) : S16384.Idx → BitVec 32) j).toNat < 1000
      rw [VA2_ids]; exact hin d j) (VA2 m d (r_out 2)) (shareTok fullShare 32 (wid c s)) (shareTok fullShare 32 (wid c s))
  iintro ⟨Hl, -, ⟨⟨Hi, Ht⟩, Ho⟩, Hsb, Hss, HO⟩
  iapply (wp_wand_r frame _ Set.univ)
  isplitl [Hl Hi Ht Ho Hsb Hss HO]
  · iapply hb
    isplitl [Hl]; · iexact Hl
    isplitl [Hi]; · iexact Hi
    isplitl [Ht]; · iexact Ht
    isplitl [Ho]; · iexact Ho
    isplitl [Hsb]; · iexact Hsb
    isplitl [Hss]; · iexact Hss
    iexact HO
  iintro %_ ⟨Hi, Ht, Ho, Hsb, Hss, HW⟩
  isplitl [Hi Ht Ho]
  · isplitl [Hi Ht]
    · isplitl [Hi]; · iexact Hi
      iexact Ht
    iexact Ho
  isplitl [Hsb]; · iexact Hsb
  isplitl [Hss]; · iexact Hss
  iexact HW

/-! ## The launch theorem's obligation -/

theorem defs₀_vector2 (c : Fin τ.nSC) (s : Fin τ.nSub) :
    defs₀ (F := F) (.scVector c s) 2 ()
      = SparseCore.onTile hcore2 hsub2 (fun c s => (cc2_packed_gather (coordsV2 c s) Packed.idsW2 (Memref.isWhole_whole _) Packed.tqW2 (Memref.isWhole_whole _) Packed.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)) ⟨⟩ c s := rfl

omit [FloatOps F] in
theorem obl_post2 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl2 (hbody : Body2 (F := F))
    (hin : ∀ (d : Dev nD) (j : S16384.Idx), ((m (d, r_ids 2) : S16384.Idx → BitVec 32) j).toNat < 1000)
    (hbr : ∀ d : Dev nD, Packed.packedE2 (F := F) (m (d, r_ids 2)) (shapeCast S250x128 (m (d, a_T2)) shapeCasts_S1000x32_S250x128) = E m d 2) :
    (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (tile2 m hbody hin hbr d ⟨_, hc.1⟩ ⟨_, hc.2⟩ O W hO).trans (wp_mono frame _ _ fun _ => obl_post2)

end Cert.Proof.KernelIdealC

end
-- ==== Proof.BlockDefs3.lean ====
/-
  The block-gather kernel's second use (SparseCore call 3, over the fourth table): the tile a grid point names, the
  arrays the task is handed and the block of the result array it writes. The function it leaves there is call 0's,
  of its own index words, transposed table and flattened tail.
-/
import proofs.«204991_g57140244906297_cont_9to1_m_249_19_alg».proof.Proof.BlockDefs
import proofs.«204991_g57140244906297_cont_9to1_m_249_19_alg».proof.Proof.CommonI
import Idealize.ShloMosaic.Lib.ValueIdx

noncomputable section

namespace Cert.Proof.Block3

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 4) (Elt F) ℕ UU ℕ

/-! ## The tile and the arrays -/

abbrev cV (L : grid3.Coords) : Fin τ.nSC := (L 0).castLE hcore3
abbrev jV (L : grid3.Coords) : Fin τ.nSub := (L 1).castLE hsub3
/-- The vector subcore that runs the task of grid point `L`. -/
abbrev thr (d : Dev nD) (L : grid3.Coords) : Thread nD τ := V d (cV L) (jV L)

abbrev idsLoc (d : Dev nD) : Loc nD τ sig := (SparseCore.T d).loc main_arg3
abbrev ttLoc (d : Dev nD) : Loc nD τ sig := (SparseCore.T d).loc main_v8
abbrev tailLoc (d : Dev nD) : Loc nD τ sig := (SparseCore.T d).loc main_v10
abbrev outLoc (d : Dev nD) : Loc nD τ sig := (SparseCore.T d).loc main_v11

abbrev idsV : Memref sig .scVector .hbm S16384 .i32 := Memref.whole main_arg3_scv
abbrev ttV : Memref sig .scVector .hbm S32x1000000 .f32 := Memref.whole main_v8_scv
abbrev tailV : Memref sig .scVector .hbm S2048 .f32 := Memref.whole main_v10_scv
abbrev outV : Memref sig .scVector .hbm S32x16384 .f32 := Memref.whole main_v11_scv

/-- The task's block of the output as the program slices it: all 32 rows, the task's 512 columns. -/
abbrev outBlk (L : grid3.Coords) : Memref sig .scVector .hbm S32x512 .f32 :=
  (outV).slice (Rect.unit (s := S32x16384) (k3_off27 L) S32x512.size (k3_off27_inb L)) (fun _ => rfl)
/-- The elements of the output that the task of `L` writes. -/
abbrev outSet (L : grid3.Coords) : Finset S32x16384.Idx := (outBlk L).view.set

end Cert.Proof.Block3

end
-- ==== Proof.TileObl3I.lean ====
/-
  The block-gather task as the launch theorem's obligation (call 3).

  The launch hands the tile of coordinates (c, s), number w = 2·s + c, a read token of the index array, the transposed
  table and the flattened tail, and columns [512·w, 512·w + 512) of the result array; the task's body, proved over
  exactly those resources at any share and any contents, is run at the valuation before the call, whose table is the
  transpose and whose tail the flattened last rows of the launch memory's table; what it leaves in its columns is the
  lookup, because on in-range indices the kernel's column-and-tail reading is the row lookup.
-/
import proofs.«204991_g57140244906297_cont_9to1_m_249_19_alg».proof.Proof.LaunchDefsI
import proofs.«204991_g57140244906297_cont_9to1_m_249_19_alg».proof.Proof.ValsI
import proofs.«204991_g57140244906297_cont_9to1_m_249_19_alg».proof.Proof.BlockDefs3
import proofs.«204991_g57140244906297_cont_9to1_m_249_19_alg».proof.Proof.Gen.KernelIdeal.Skeleton

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)`. -/
def coordsV3 (c : Fin 2) (s : Fin 16) : grid3.Coords :=
  fun | 0 => c | 1 => s | ⟨_ + 2, h⟩ => absurd h (Nat.not_lt.2 (Nat.le_add_left _ _))

/-- The rectangle the block-gather task slices out of its result array is the tile's column block. -/
theorem rect3_eq (c : Fin 2) (s : Fin 16) :
    Rect.unit (s := S32x16384) (k3_off27 (coordsV3 c s)) S32x512.size (k3_off27_inb (coordsV3 c s)) = colBlk (wid c s) := by
  unfold colBlk Rect.part Rect.block
  congr 1 <;> funext a
  · rw [k3_off27_eq]
    match a with
    | 0 => simp [Shape.partIx, Shape.partSize, coordsV3, wid]
    | 1 => simp [Shape.partIx, Shape.partSize, coordsV3, wid]; omega
  · match a with
    | 0 => simp [Shape.partSize]
    | 1 => simp [Shape.partSize]

theorem outSet3_eq (c : Fin 2) (s : Fin 16) : Block3.outSet (coordsV3 c s) = (colBlk (wid c s)).set := by
  show ((View.whole (main_v11_scv : Ref sig .scVector)).slice (Rect.unit (s := S32x16384) (k3_off27 (coordsV3 c s)) S32x512.size (k3_off27_inb (coordsV3 c s)))).set = _
  rw [View.set_slice, rect3_eq]; exact Finset.map_refl

variable [FloatOps F]

/-- The block-gather task's body over explicit resources, at any memory, tile, share and starting contents of its
    columns: what the body's own module proves. -/
def Body3 : Prop := ∀ (m' : (ℓ : Loc nD τ sig) → Buf (Elt F) ℓ) (d : Dev nD) (L : grid3.Coords)
    (O : CellTallies nD τ sig (HIx 4)) (W : Waits sig (HIx 4)) (_ : ∀ g, O g none = 0)
    (f0 : Buf (Elt F) (Block3.outLoc d)) (q : PosShare TreeShare),
    iprop(levAts (K (F := F)).L (K (F := F)).lev
        ∗ ((Block3.idsLoc d ↦{q} m' (Block3.idsLoc d)) ∗ (Block3.ttLoc d ↦{q} m' (Block3.ttLoc d)) ∗ (Block3.tailLoc d ↦{q} m' (Block3.tailLoc d)))
        ∗ (Block3.outLoc d ↦[Block3.outSet L]{fullShare} f0)
        ∗ scopedBufs (Block3.thr d L) ∗ scopedSems0 (Block3.thr d L) ∗ owes (Block3.thr d L) O W)
      ⊢ (wp frame (wpE (defs₀ (F := F)) 𝒱₀ (Block3.thr d L) none) Set.univ
          (cc3_block_gather L Block3.idsV (Memref.isWhole_whole _) Block3.ttV (Memref.isWhole_whole _) Block3.tailV (Memref.isWhole_whole _)
            Block3.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(((Block3.idsLoc d ↦{q} m' (Block3.idsLoc d)) ∗ (Block3.ttLoc d ↦{q} m' (Block3.ttLoc d)) ∗ (Block3.tailLoc d ↦{q} m' (Block3.tailLoc d)))
            ∗ (Block3.outLoc d ↦[Block3.outSet L]{fullShare} Block.E (m' (Block3.idsLoc d)) (m' (Block3.ttLoc d)) (m' (Block3.tailLoc d)))
            ∗ scopedBufs (Block3.thr d L) ∗ scopedSems0 (Block3.thr d L)
            ∗ ∃ W', ⌜∀ p ∈ W', p ∈ W ∨ p.2 = none⌝ ∗ owes (Block3.thr d L) O W') : sProp 𝕄)

variable (m : (ℓ : Loc nD τ sig) → Buf (Elt F) ℓ)

/-- The tile's share of call 3, spelt array by array. -/
theorem tileGo3_eq (d : Dev nD) (c : Fin 2) (s : Fin 16) (Wv : Valuation τ sig (Elt F)) :
    tileGo m d 3 c s Wv
      = iprop(((Block3.idsLoc d ↦{shareTok fullShare 32 (wid c s)} VA3 m d (r_ids 3))
          ∗ (Block3.ttLoc d ↦{shareTok fullShare 32 (wid c s)} VA3 m d r_tt3)
          ∗ (Block3.tailLoc d ↦{shareTok fullShare 32 (wid c s)} VA3 m d r_tl3))
        ∗ (Block3.outLoc d ↦[Block3.outSet (coordsV3 c s)]{fullShare} Wv (r_out 3))) := by
  rw [outSet3_eq]
  show iprop(heldAt (SparseCore.T d) (RO 3) (fun _ => shareTok fullShare 32 (wid c s)) (VA3 m d)
      ∗ ((d, r_out 3) ↦[(colBlk (wid c s)).set]{fullShare} Wv (r_out 3))) = _
  unfold heldAt
  rw [show (RO 3 : Finset (DevRef τ sig)) = insert (r_ids 3) (insert r_tt3 {r_tl3}) from rfl,
    SparseCore.bigSep_insert' (by decide), SparseCore.bigSep_insert' (by decide), bigSep_singleton]

/-- The block-gather task from the launch's share to the launch's share: the body at the valuation before the call,
    its result read as the lookup. -/
theorem tile3 (hbody : Body3 (F := F))
    (hbr : ∀ d : Dev nD, Block.E (F := F) (m (d, r_ids 3)) (transpose S32x1000000 [1, 0] (m (d, a_T3)) transposes_S1000000x32_S32x1000000_1_0)
        (shapeCast S2048 (extractStridedSlice S64x32 ![999936, 0] (m (d, a_T3)) slices_S1000000x32_S64x32_999936_0) shapeCasts_S64x32_S2048) = E m d 3)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 3 c s (VA3 m d)
        ∗ scopedBufs (Block3.thr d (coordsV3 c s)) ∗ scopedSems0 (Block3.thr d (coordsV3 c s)) ∗ owes (Block3.thr d (coordsV3 c s)) O W)
      ⊢ (wp frame (wpE (defs₀ (F := F)) 𝒱₀ (Block3.thr d (coordsV3 c s)) none) Set.univ
          (cc3_block_gather (coordsV3 c s) Block3.idsV (Memref.isWhole_whole _) Block3.ttV (Memref.isWhole_whole _) Block3.tailV (Memref.isWhole_whole _)
            Block3.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(tileGo m d 3 c s (VB3 m d) ∗ scopedBufs (Block3.thr d (coordsV3 c s)) ∗ scopedSems0 (Block3.thr d (coordsV3 c s))
            ∗ ∃ W', ⌜∀ p ∈ W', p ∈ W ∨ p.2 = none⌝ ∗ owes (Block3.thr d (coordsV3 c s)) O W') : sProp 𝕄) := by
  have hv : Block.E (F := F) (VA3 m d (r_ids 3)) (VA3 m d r_tt3) (VA3 m d r_tl3) = VB3 m d (r_out 3) := by
    rw [VA3_ids, VA3_tt, VA3_tl, hbr d]; unfold VB3; rw [Function.update_self]
  rw [tileGo3_eq, tileGo3_eq, ← hv]
  have hb : iprop(levAts (K (F := F)).L (K (F := F)).lev
        ∗ ((Block3.idsLoc d ↦{shareTok fullShare 32 (wid c s)} VA3 m d (r_ids 3)) ∗ (Block3.ttLoc d ↦{shareTok fullShare 32 (wid c s)} VA3 m d r_tt3) ∗ (Block3.tailLoc d ↦{shareTok fullShare 32 (wid c s)} VA3 m d r_tl3))
        ∗ (Block3.outLoc d ↦[Block3.outSet (coordsV3 c s)]{fullShare} VA3 m d (r_out 3))
        ∗ scopedBufs (Block3.thr d (coordsV3 c s)) ∗ scopedSems0 (Block3.thr d (coordsV3 c s)) ∗ owes (Block3.thr d (coordsV3 c s)) O W)
      ⊢ (wp frame (wpE (defs₀ (F := F)) 𝒱₀ (Block3.thr d (coordsV3 c s)) none) Set.univ
          (cc3_block_gather (coordsV3 c s) Block3.idsV (Memref.isWhole_whole _) Block3.ttV (Memref.isWhole_whole _) Block3.tailV (Memref.isWhole_whole _)
            Block3.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(((Block3.idsLoc d ↦{shareTok fullShare 32 (wid c s)} VA3 m d (r_ids 3)) ∗ (Block3.ttLoc d ↦{shareTok fullShare 32 (wid c s)} VA3 m d r_tt3) ∗ (Block3.tailLoc d ↦{shareTok fullShare 32 (wid c s)} VA3 m d r_tl3))
            ∗ (Block3.outLoc d ↦[Block3.outSet (coordsV3 c s)]{fullShare} Block.E (VA3 m d (r_ids 3)) (VA3 m d r_tt3) (VA3 m d r_tl3))
            ∗ scopedBufs (Block3.thr d (coordsV3 c s)) ∗ scopedSems0 (Block3.thr d (coordsV3 c s))
            ∗ ∃ W', ⌜∀ p ∈ W', p ∈ W ∨ p.2 = none⌝ ∗ owes (Block3.thr d (coordsV3 c s)) O W') : sProp 𝕄) :=
    hbody (fun ℓ => VA3 m d ℓ.2) d (coordsV3 c s) O W hO (VA3 m d (r_out 3)) (shareTok fullShare 32 (wid c s))
  iintro ⟨Hl, -, ⟨H3, Ho⟩, Hsb, Hss, HO⟩
  iapply (wp_wand_r frame _ Set.univ)
  isplitl [Hl H3 Ho Hsb Hss HO]
  · iapply hb
    isplitl [Hl]; · iexact Hl
    isplitl [H3]; · iexact H3
    isplitl [Ho]; · iexact Ho
    isplitl [Hsb]; · iexact Hsb
    isplitl [Hss]; · iexact Hss
    iexact HO
  iintro %_ ⟨H3, Ho, Hsb, Hss, HW⟩
  isplitl [H3 Ho]
  · isplitl [H3]; · iexact H3
    iexact Ho
  isplitl [Hsb]; · iexact Hsb
  isplitl [Hss]; · iexact Hss
  iexact HW

/-! ## The launch theorem's obligation -/

theorem defs₀_vector3 (c : Fin τ.nSC) (s : Fin τ.nSub) :
    defs₀ (F := F) (.scVector c s) 3 ()
      = SparseCore.onTile hcore3 hsub3 (fun c s => (cc3_block_gather (coordsV3 c s) Block3.idsV (Memref.isWhole_whole _) Block3.ttV (Memref.isWhole_whole _) Block3.tailV (Memref.isWhole_whole _)
            Block3.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)) ⟨⟩ c s := rfl

omit [FloatOps F] in
theorem obl_post3 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl3 (hbody : Body3 (F := F))
    (hbr : ∀ d : Dev nD, Block.E (F := F) (m (d, r_ids 3)) (transpose S32x1000000 [1, 0] (m (d, a_T3)) transposes_S1000000x32_S32x1000000_1_0)
        (shapeCast S2048 (extractStridedSlice S64x32 ![999936, 0] (m (d, a_T3)) slices_S1000000x32_S64x32_999936_0) shapeCasts_S64x32_S2048) = E m d 3) :
    (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (tile3 m hbody hbr d ⟨_, hc.1⟩ ⟨_, hc.2⟩ O W hO).trans (wp_mono frame _ _ fun _ => obl_post3)

end Cert.Proof.KernelIdealC

end
-- ==== Proof.BridgeBlock.lean ====
/-
  The block-gather kernel's function of the index words, the transposed table and the flattened tail is the plain lookup.

  A word `w` with `0 ≤ w ≤ 999999` (read signed) names row `w` of the table. Below 999936 the kernel reads column
  `128 · (w / 128) + w mod 128 = w` of the transposed table at row `r`, which is entry `(w, r)` of the table. From
  999936 on it reads entry `32 · (w − 999936) + r` of the last 64 rows flattened row-major, which is entry
  `(w − 999936, r)` of those rows, which is entry `(w, r)` of the table.
-/
import proofs.«204991_g57140244906297_cont_9to1_m_249_19_alg».proof.Proof.BlockDefs
import proofs.«204991_g57140244906297_cont_9to1_m_249_19_alg».proof.Proof.Spec
import Idealize.ShloMosaic.Lib.Pipeline.Value
import Idealize.ShloMosaic.Lib.ValueIdx

noncomputable section

namespace Cert.Proof.Block

open Cert.KernelIdeal Cert.KernelIdeal.Gen
open Idealize.ShloMosaic Idealize.ShloMosaic.ValueIdx Idealize.ShloMosaic.RowOps

variable {F : FTy → Type} [FloatOps F]

/-- A word whose signed reading is not negative reads the same unsigned. -/
theorem toNat_eq_toInt (w : BitVec 32) (h0 : 0 ≤ w.toInt) : (w.toNat : ℤ) = w.toInt := by
  have h := BitVec.toInt_eq_toNat_cond w
  have hlt := w.isLt
  split at h <;> omega

/-- The kernel's function at `(r, n)`: the tail's entry when word `n` is at least 999936, else the transposed table's. -/
theorem E_apply (ids : S16384.Idx → BitVec 32) (tt : S32x1000000.Idx → Elt F .f32) (tail : S2048.Idx → Elt F .f32)
    (r : Fin 32) (n : Fin 16384) :
    E (F := F) ids tt tail (ix2 r n)
      = if (999936 : ℤ) ≤ (ids (ix1 n)).toInt then tail (ix1 ⟨tailAt (ids (ix1 n)) r, tailAt_lt _ _⟩)
        else tt (ix2 r ⟨colAt (ids (ix1 n)), colAt_lt _⟩) := rfl

/-- The transposed table at `(r, c)` is the table at `(c, r)`. -/
theorem tt_apply {α : Type} (T : S1000000x32.Idx → α) (r : Fin 32) (c : Fin 1000000) :
    transpose S32x1000000 [1, 0] T transposes_S1000000x32_S32x1000000_1_0 (ix2 r c) = T (ix2 c r) :=
  transpose_apply [1, 0] T transposes_S1000000x32_S32x1000000_1_0 (ix2 r c) (ix2 c r)
    (fun b => by match b with | ⟨0, _⟩ => rfl | ⟨1, _⟩ => rfl)

/-- The flattened last 64 rows at entry `32 · q + r` are the table at `(999936 + q, r)`. -/
theorem tail_apply {α : Type} (T : S1000000x32.Idx → α) (q : Fin 64) (r : Fin 32) (p : Fin 2048) (hp : p.val = 32 * q.val + r.val)
    (row : Fin 1000000) (hrow : row.val = 999936 + q.val) :
    shapeCast S2048 (extractStridedSlice S64x32 ![999936, 0] T slices_S1000000x32_S64x32_999936_0) shapeCasts_S64x32_S2048 (ix1 p)
      = T (ix2 row r) := by
  refine (shapeCast_apply _ shapeCasts_S64x32_S2048 (ix1 p) (ix2 q r) ?_).trans ?_
  · rw [Shape.rowMajor_val_two, Shape.rowMajor_val_one]
    show q.val * 32 + r.val = p.val
    omega
  · exact extractStridedSlice_apply ![999936, 0] T slices_S1000000x32_S64x32_999936_0 (ix2 q r) (ix2 row r)
      (fun a => by
        match a with
        | ⟨0, _⟩ => exact hrow
        | ⟨1, _⟩ => exact (Nat.zero_add _).symm)

/-- With every word in `[0, 999999]`, the kernel's function of the words, the transposed table and the flattened last
    64 rows is the plain transposed lookup. -/
theorem E_eq_lookT (ids : S16384.Idx → BitVec 32) (T : S1000000x32.Idx → Elt F .f32)
    (hr : ∀ j, 0 ≤ (ids j).toInt ∧ (ids j).toInt ≤ 999999) :
    E (F := F) ids (transpose S32x1000000 [1, 0] T transposes_S1000000x32_S32x1000000_1_0)
        (shapeCast S2048 (extractStridedSlice S64x32 ![999936, 0] T slices_S1000000x32_S64x32_999936_0) shapeCasts_S64x32_S2048)
      = Cert.Spec.lookT 1000000 (by omega) T ids := by
  funext j
  obtain ⟨r, n, rfl⟩ : ∃ (r : Fin 32) (n : Fin 16384), j = ix2 r n := ⟨j 0, j 1, eq_ix2 j⟩
  obtain ⟨h0, h1⟩ := hr (ix1 n)
  have hnat := toNat_eq_toInt (ids (ix1 n)) h0
  have hrow : (rowOf 1000000 (by omega) (ids (ix1 n))).val = (ids (ix1 n)).toNat := by
    show min (ids (ix1 n)).toInt.toNat (1000000 - 1) = _
    omega
  rw [E_apply, Cert.Spec.lookT_apply]
  by_cases hge : (999936 : ℤ) ≤ (ids (ix1 n)).toInt
  · rw [if_pos hge]
    have hq : (ids (ix1 n)).toNat - 999936 < 64 := by omega
    refine tail_apply T ⟨(ids (ix1 n)).toNat - 999936, hq⟩ r _ ?_ _ ?_
    · show tailAt (ids (ix1 n)) r = 32 * ((ids (ix1 n)).toNat - 999936) + r.val
      unfold tailAt
      rw [Nat.min_eq_left (by omega)]
    · show (rowOf 1000000 _ (ids (ix1 n))).val = 999936 + ((ids (ix1 n)).toNat - 999936)
      omega
  · rw [if_neg hge]
    refine (tt_apply T r _).trans (congrArg T ?_)
    refine congrArg (fun c => ix2 c r) (Fin.ext ?_)
    show colAt (ids (ix1 n)) = (rowOf 1000000 _ (ids (ix1 n))).val
    rw [hrow, colAt_eq _ (by omega)]

end Cert.Proof.Block

end
-- ==== Proof.BridgePacked.lean ====
/-
  The packed kernel's function of the index words and the table viewed four rows to a line is the plain lookup.

  A table of `V = 4 R` rows of 32 columns, flattened row-major and viewed as `R` lines of 128 lanes, holds entry
  `(w, c)` of the table — flat position `32 w + c` — at line `w / 4`, lane `32 · (w mod 4) + c`, since
  `128 · (w / 4) + 32 · (w mod 4) + c = 32 w + c`. The kernel computes the line as the word shifted right by two and the
  lane as the word's low two bits shifted left by five, plus the column; for a word in `[0, V − 1]` those are `w / 4` and
  `32 · (w mod 4) + c`, both already in range, so the reductions modulo `R` and modulo 128 change nothing.
-/
import proofs.«204991_g57140244906297_cont_9to1_m_249_19_alg».proof.Proof.PackedDefs
import proofs.«204991_g57140244906297_cont_9to1_m_249_19_alg».proof.Proof.Spec
import Idealize.ShloMosaic.Lib.Pipeline.Value
import Idealize.ShloMosaic.Lib.ValueIdx

noncomputable section

namespace Cert.Proof.Packed

open Cert.KernelIdeal Cert.KernelIdeal.Gen
open Idealize.ShloMosaic Idealize.ShloMosaic.ValueIdx Idealize.ShloMosaic.RowOps

/-- Entry `(c, n)` of the lookup as the packed kernel computes it from the index words and the `R`-line view: line
    `w >>> 2`, lane `((w &&& 3) <<< 5) + c`, `w` word `n` (each reduced into range). -/
def packedG {α : Type} (R : ℕ) (hR : 0 < R) (ids : S16384.Idx → BitVec 32) (tq : (⟨2, ![R, 128]⟩ : Shape).Idx → α) :
    S32x16384.Idx → α :=
  fun j => tq (ix2 ⟨((ids (ix1 (j 1))) >>> 2).toNat % R, Nat.mod_lt _ hR⟩
    ⟨((((ids (ix1 (j 1))) &&& 3#32) <<< 5) + BitVec.ofNat 32 (j 0).val).toNat % 128, Nat.mod_lt _ (by decide)⟩)

/-- A word whose signed reading is not negative reads the same unsigned. -/
theorem toNat_eq_toInt (w : BitVec 32) (h0 : 0 ≤ w.toInt) : (w.toNat : ℤ) = w.toInt := by
  have h := BitVec.toInt_eq_toNat_cond w
  have hlt := w.isLt
  split at h <;> omega

/-- The lane the kernel computes for word `w` and column `c`: 32 times the word's residue modulo 4, plus the column. -/
theorem lane_eq (w : BitVec 32) (c : ℕ) (hc : c < 32) :
    (((w &&& 3#32) <<< 5) + BitVec.ofNat 32 c).toNat = 32 * (w.toNat % 4) + c := by
  rw [BitVec.toNat_add, BitVec.toNat_shiftLeft, BitVec.toNat_and, BitVec.toNat_ofNat, BitVec.toNat_ofNat, Nat.shiftLeft_eq]
  have h3 : (3 % 2 ^ 32 : ℕ) = 3 := rfl
  have hand : w.toNat &&& 3 = w.toNat % 4 := Nat.and_two_pow_sub_one_eq_mod w.toNat 2
  rw [h3, hand]
  omega

/-- The line the kernel computes for word `w`: the word divided by 4. -/
theorem line_eq (w : BitVec 32) : (w >>> 2).toNat = w.toNat / 4 := by
  rw [BitVec.toNat_ushiftRight, Nat.shiftRight_eq_div_pow]

/-- With every word in `[0, V − 1]`, `V = 4 R`, the packed kernel's function of the words and the `R`-line view of the
    table is the plain transposed lookup. -/
theorem packedG_eq_lookT {α : Type} (V R : ℕ) (hV : 0 < V) (hR : 0 < R) (hVR : V = 4 * R)
    (hcast : (⟨2, ![V, 32]⟩ : Shape).ShapeCasts ⟨2, ![R, 128]⟩) (ids : S16384.Idx → BitVec 32)
    (T : (⟨2, ![V, 32]⟩ : Shape).Idx → α) (hr : ∀ j, 0 ≤ (ids j).toInt ∧ (ids j).toInt ≤ (V : ℤ) - 1) :
    packedG R hR ids (shapeCast ⟨2, ![R, 128]⟩ T hcast) = Cert.Spec.lookT V hV T ids := by
  funext j
  obtain ⟨c, n, rfl⟩ : ∃ (c : Fin 32) (n : Fin 16384), j = ix2 c n := ⟨j 0, j 1, eq_ix2 j⟩
  obtain ⟨h0, h1⟩ := hr (ix1 n)
  have hnat := toNat_eq_toInt (ids (ix1 n)) h0
  have hrow : (rowOf V hV (ids (ix1 n))).val = (ids (ix1 n)).toNat := by
    show min (ids (ix1 n)).toInt.toNat (V - 1) = _
    omega
  have hline : (ids (ix1 n)).toNat / 4 < R := by omega
  have hc := c.isLt
  rw [Cert.Spec.lookT_apply]
  show shapeCast ⟨2, ![R, 128]⟩ T hcast (ix2 ⟨((ids (ix1 n)) >>> 2).toNat % R, Nat.mod_lt _ hR⟩
      ⟨((((ids (ix1 n)) &&& 3#32) <<< 5) + BitVec.ofNat 32 c.val).toNat % 128, Nat.mod_lt _ (by decide)⟩)
    = T (ix2 (rowOf V hV (ids (ix1 n))) c)
  refine shapeCast_apply T hcast _ (ix2 (rowOf V hV (ids (ix1 n))) c) ?_
  rw [Shape.rowMajor_val_two, Shape.rowMajor_val_two]
  show (rowOf V hV (ids (ix1 n))).val * 32 + c.val
    = (((ids (ix1 n)) >>> 2).toNat % R) * 128 + (((((ids (ix1 n)) &&& 3#32) <<< 5) + BitVec.ofNat 32 c.val).toNat % 128)
  rw [hrow, lane_eq _ _ hc, line_eq, Nat.mod_eq_of_lt hline]
  omega

/-- The 100000-row table at its 25000-line view. -/
theorem packedE_eq_lookT {F : FTy → Type} [FloatOps F] (ids : S16384.Idx → BitVec 32) (T : S100000x32.Idx → Elt F .f32)
    (hr : ∀ j, 0 ≤ (ids j).toInt ∧ (ids j).toInt ≤ 99999) :
    packedE (F := F) ids (shapeCast S25000x128 T shapeCasts_S100000x32_S25000x128) = Cert.Spec.lookT 100000 (by omega) T ids :=
  packedG_eq_lookT 100000 25000 (by omega) (by decide) rfl shapeCasts_S100000x32_S25000x128 ids T
    (fun j => ⟨(hr j).1, by have := (hr j).2; omega⟩)

/-- The 1000-row table at its 250-line view. -/
theorem packedE2_eq_lookT {F : FTy → Type} [FloatOps F] (ids : S16384.Idx → BitVec 32) (T : S1000x32.Idx → Elt F .f32)
    (hr : ∀ j, 0 ≤ (ids j).toInt ∧ (ids j).toInt ≤ 999) :
    packedE2 (F := F) ids (shapeCast S250x128 T shapeCasts_S1000x32_S250x128) = Cert.Spec.lookT 1000 (by omega) T ids :=
  packedG_eq_lookT 1000 250 (by omega) (by decide) rfl shapeCasts_S1000x32_S250x128 ids T
    (fun j => ⟨(hr j).1, by have := (hr j).2; omega⟩)

end Cert.Proof.Packed

end
-- ==== Proof.PreRanges.lean ====
/-
  The index ranges the precondition states, read back.

  The precondition is a conjunction, by `and` of one-bit words, of one test per input: for a float input "every entry is
  finite", for an index array "every entry lies in `[0, V − 1]`", `V` the number of rows of the table it indexes. Each
  test reduces an array of one-bit words by `and` from the word one, so the result is one exactly when every entry is;
  and an entry of a range test is the conjunction of two signed comparisons against splats of the bounds. So, whatever
  the float inputs are, the four index arrays have every entry, read signed, within its table.
-/
import proofs.«204991_g57140244906297_cont_9to1_m_249_19_alg».proof.Pre_input_domain
import proofs.«204991_g57140244906297_cont_9to1_m_249_19_alg».proof.Proof.Gen.Pre_input_domain
import Idealize.ShloMosaic.Lib.ReduceAll
import Idealize.ShloMosaic.Lib.ValueIdx
import Idealize.ShloMosaic.Lib.IdealHost

namespace Cert.PreRanges

open Idealize.ShloMosaic Idealize.ShloMosaic.ValueIdx Cert.Pre_input_domain Cert.Pre_input_domain.Facts

/-- The shape of a single word has one index. -/
instance subsingleton_scalar_idx : Subsingleton S_.Idx := ⟨fun a b => funext fun d => d.elim0⟩

variable [Cert.Pre_input_domain.Facts]

/-- One range test: if the `and` over all entries of "`lo ≤ ids` and `ids ≤ hi`" (signed, against splats of `lo` and
    `hi`) is one, then every entry lies between the bounds. -/
theorem range_of_all (ids : IVec S16384 32) (lo hi : BitVec 32) (init : IVec S_ 1)
    (h : Host.reduce IntOp.andi
          (andi (cmpi .sge ids (broadcastInDim S16384 ![] bcast_S_S16384 (constantI S_ 32 lo)))
            (cmpi .sle ids (broadcastInDim S16384 ![] bcast_S_S16384 (constantI S_ 32 hi))))
          init reducesTo_S16384_S_d0 h_S_ ix0 = 1#1) (j : S16384.Idx) :
    lo.toInt ≤ (ids j).toInt ∧ (ids j).toInt ≤ hi.toInt := by
  have hj := Host.reduce_andi_all _ _ _ _ _ h j
  have hj' : IntOp.andi (IntOp.cmpi .sge (ids j) (broadcastInDim S16384 ![] bcast_S_S16384 (constantI S_ 32 lo) j))
      (IntOp.cmpi .sle (ids j) (broadcastInDim S16384 ![] bcast_S_S16384 (constantI S_ 32 hi) j)) = 1#1 := hj
  rw [broadcastInDim_scalar_apply, broadcastInDim_scalar_apply] at hj'
  obtain ⟨h1, h2⟩ := IntOp.andi_eq_one.1 hj'
  exact ⟨IntOp.cmpi_sge.1 h1, IntOp.cmpi_sle.1 h2⟩

/-- Under the precondition every entry of each index array, read signed, lies within its table. -/
theorem ranges {F : FTy → Type} [FloatOps F] (ids0 ids1 ids2 ids3 : IVec S16384 32)
    (T0 : FVec F S1000000x32 .f32) (T1 : FVec F S100000x32 .f32) (T2 : FVec F S1000x32 .f32) (T3 : FVec F S1000000x32 .f32)
    (W : FVec F S64x128 .f32) (b : FVec F S64 .f32)
    (h : Cert.Pre_input_domain.fn (F := F) ids0 ids1 ids2 ids3 T0 T1 T2 T3 W b = fun _ => 1#1) :
    (∀ j, 0 ≤ (ids0 j).toInt ∧ (ids0 j).toInt ≤ 999999) ∧ (∀ j, 0 ≤ (ids1 j).toInt ∧ (ids1 j).toInt ≤ 99999)
      ∧ (∀ j, 0 ≤ (ids2 j).toInt ∧ (ids2 j).toInt ≤ 999) ∧ (∀ j, 0 ≤ (ids3 j).toInt ∧ (ids3 j).toInt ≤ 999999) := by
  have h0 := congrFun h ix0
  dsimp only [Cert.Pre_input_domain.fn, Cert.Pre_input_domain.fn_part1, Cert.Pre_input_domain.fn_part2,
    Cert.Pre_input_domain.fn_part3] at h0
  obtain ⟨h49, h55⟩ := IntOp.andi_eq_one.1 h0
  obtain ⟨h42, h48⟩ := IntOp.andi_eq_one.1 h49
  obtain ⟨h35, h41⟩ := IntOp.andi_eq_one.1 h42
  obtain ⟨-, h34⟩ := IntOp.andi_eq_one.1 h35
  exact ⟨fun j => range_of_all ids0 0#32 999999#32 _ h34 j, fun j => range_of_all ids1 0#32 99999#32 _ h41 j,
    fun j => range_of_all ids2 0#32 999#32 _ h48 j, fun j => range_of_all ids3 0#32 999999#32 _ h55 j⟩

end Cert.PreRanges
-- ==== Proof.FinalI.lean ====
/-
  The idealized kernel's run, assembled: under the index ranges, from the four tasks' bodies, every weakly fair execution
  of the device's threads terminates, nothing faulting; the arguments end as launched and the result array ends at the
  projection of the four lookups. At the ideal instance that projection is the specification's output.
-/
import proofs.«204991_g57140244906297_cont_9to1_m_249_19_alg».proof.Proof.RunI
import proofs.«204991_g57140244906297_cont_9to1_m_249_19_alg».proof.Proof.RegionI
import proofs.«204991_g57140244906297_cont_9to1_m_249_19_alg».proof.Proof.TileObl0I
import proofs.«204991_g57140244906297_cont_9to1_m_249_19_alg».proof.Proof.TileObl1I
import proofs.«204991_g57140244906297_cont_9to1_m_249_19_alg».proof.Proof.TileObl2I
import proofs.«204991_g57140244906297_cont_9to1_m_249_19_alg».proof.Proof.TileObl3I
import proofs.«204991_g57140244906297_cont_9to1_m_249_19_alg».proof.Proof.BridgeBlock
import proofs.«204991_g57140244906297_cont_9to1_m_249_19_alg».proof.Proof.BridgePacked
import proofs.«204991_g57140244906297_cont_9to1_m_249_19_alg».proof.Proof.PreRanges

noncomputable section

namespace Cert.Proof.KernelIdealC

open Cert.KernelIdeal Cert.KernelIdeal.Gen

open Idealize.ShloMosaic
open Idealize.ShloMosaic.SparseCore (S V T)
open Idealize.ShloMosaic.SparseCore.Cfg (HIx Pay)
open Idealize.SL Idealize.SL.Sem

variable {F : FTy → Type} [FloatOps F]
variable (m : (ℓ : Loc nD τ sig) → Buf (Elt F) ℓ) (ρ : Dev nD → PrngReg)

/-- The four index arrays name rows of their tables, on every device. -/
def Ranges : Prop := ∀ d : Dev nD,
  (∀ j, 0 ≤ ((m (d, r_ids 0) : S16384.Idx → BitVec 32) j).toInt ∧ ((m (d, r_ids 0) : S16384.Idx → BitVec 32) j).toInt ≤ 999999)
  ∧ (∀ j, 0 ≤ ((m (d, r_ids 1) : S16384.Idx → BitVec 32) j).toInt ∧ ((m (d, r_ids 1) : S16384.Idx → BitVec 32) j).toInt ≤ 99999)
  ∧ (∀ j, 0 ≤ ((m (d, r_ids 2) : S16384.Idx → BitVec 32) j).toInt ∧ ((m (d, r_ids 2) : S16384.Idx → BitVec 32) j).toInt ≤ 999)
  ∧ (∀ j, 0 ≤ ((m (d, r_ids 3) : S16384.Idx → BitVec 32) j).toInt ∧ ((m (d, r_ids 3) : S16384.Idx → BitVec 32) j).toInt ≤ 999999)

/-- A word that reads, signed, between 0 and `B` is at most `B` unsigned. -/
theorem toNat_le_of_range (w : BitVec 32) (B : ℕ) (hB : B < 2 ^ 31) (h : 0 ≤ w.toInt ∧ w.toInt ≤ (B : ℤ)) : w.toNat ≤ B := by
  obtain ⟨h0, h1⟩ := h
  rw [BitVec.toInt_eq_toNat_cond] at h0 h1
  have := w.isLt
  by_cases hc : 2 * w.toNat < 2 ^ 32
  · simp only [hc, if_true] at h0 h1; omega
  · simp only [hc, if_false] at h0 h1; omega

theorem run_all [∀ e, Nonempty (Elt F e)] (hr : Ranges m) (h0 : Body0 (F := F)) (h1 : Body1 (F := F)) (h2 : Body2 (F := F)) (h3 : Body3 (F := F)) :
    θ_run (Cert.KernelIdeal.defs (F := F)) (Cert.KernelIdeal.threads (F := F)) ⟨m, fun _ => 0, ρ⟩ (QC m (PVal m)) :=
  run_main m ρ (PVal m) (regionOK m) (fun q _ => match q with
    | 0 => tileObl0 m h0 (fun d => Block.E_eq_lookT (m (d, r_ids 0)) (m (d, a_T0)) (hr d).1)
    | 1 => tileObl1 m h1 (fun d j => Nat.lt_of_le_of_lt (toNat_le_of_range _ 99999 (by norm_num) ((hr d).2.1 j)) (by norm_num))
        (fun d => Packed.packedE_eq_lookT (m (d, r_ids 1)) (m (d, a_T1)) (hr d).2.1)
    | 2 => tileObl2 m h2 (fun d j => Nat.lt_of_le_of_lt (toNat_le_of_range _ 999 (by norm_num) ((hr d).2.2.1 j)) (by norm_num))
        (fun d => Packed.packedE2_eq_lookT (m (d, r_ids 2)) (m (d, a_T2)) (hr d).2.2.1)
    | 3 => tileObl3 m h3 (fun d => Block.E_eq_lookT (m (d, r_ids 3)) (m (d, a_T3)) (hr d).2.2.2))

/-- The arguments end as launched; the result array at `PVal`. -/
theorem run_post [∀ e, Nonempty (Elt F e)] (hr : Ranges m) (h0 : Body0 (F := F)) (h1 : Body1 (F := F)) (h2 : Body2 (F := F)) (h3 : Body3 (F := F)) :
    θ_run (Cert.KernelIdeal.defs (F := F)) (Cert.KernelIdeal.threads (F := F)) ⟨m, fun _ => 0, ρ⟩ (fun r => ∀ c : Dev nD,
      r.2.mem (c, r_res) = PVal m c
      ∧ r.2.mem (c, r_ids 0) = m (c, r_ids 0) ∧ r.2.mem (c, r_ids 1) = m (c, r_ids 1) ∧ r.2.mem (c, r_ids 2) = m (c, r_ids 2)
      ∧ r.2.mem (c, r_ids 3) = m (c, r_ids 3) ∧ r.2.mem (c, a_T0) = m (c, a_T0) ∧ r.2.mem (c, a_T1) = m (c, a_T1)
      ∧ r.2.mem (c, a_T2) = m (c, a_T2) ∧ r.2.mem (c, a_T3) = m (c, a_T3) ∧ r.2.mem (c, a_W) = m (c, a_W) ∧ r.2.mem (c, a_b) = m (c, a_b)) :=
  (θ_run Cert.KernelIdeal.defs _ _).mono (fun r h c =>
    ⟨(h c _ mem_uc.1).trans (VFin_res m (PVal m) c),
     (h c _ mem_uc.2.1).trans (VFin_arg0 m (PVal m) c), (h c _ mem_uc.2.2.1).trans (VFin_arg1 m (PVal m) c),
     (h c _ mem_uc.2.2.2.1).trans (VFin_arg2 m (PVal m) c), (h c _ mem_uc.2.2.2.2.1).trans (VFin_arg3 m (PVal m) c),
     (h c _ mem_uc.2.2.2.2.2.1).trans (VFin_arg4 m (PVal m) c), (h c _ mem_uc.2.2.2.2.2.2.1).trans (VFin_arg5 m (PVal m) c),
     (h c _ mem_uc.2.2.2.2.2.2.2.1).trans (VFin_arg6 m (PVal m) c), (h c _ mem_uc.2.2.2.2.2.2.2.2.1).trans (VFin_arg7 m (PVal m) c),
     (h c _ mem_uc.2.2.2.2.2.2.2.2.2.1).trans (VFin_arg8 m (PVal m) c), (h c _ mem_uc.2.2.2.2.2.2.2.2.2.2).trans (VFin_arg9 m (PVal m) c)⟩)
    (run_all m ρ hr h0 h1 h2 h3)

end Cert.Proof.KernelIdealC

end
-- ==== Proof.CommonB.lean ====
/-
  The launch set-up shared by every module of this proof: the program as the launch theorem reads it (its SparseCore
  configuration, its body table, the variants), the launch theorem's side facts about the four handshake semaphores,
  and the ghost state — the handshakes' rounds, the rounds of the TensorCore pipeline's staging cells, and a copy of the
  exclusive counters, which is all that transfers a thread issues and waits for on semaphores of its own need.
-/
import proofs.«204991_g57140244906297_cont_9to1_m_249_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204991_g57140244906297_cont_9to1_m_249_19_alg».proof.Proof.Gen.Kernel

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × (UR sig nD τ × Counters)

/-- The handshakes' rounds, the left factor; the TensorCore pipeline's staging cells, the middle one; the transfers'
    counters are found by instance in the right. -/
abbrev EH : Emb UH (MT nD τ sig (HIx 4) (Elt F) ℕ UU ℕ) := embL
abbrev EP : Emb (UR sig nD τ) (MT nD τ sig (HIx 4) (Elt F) ℕ UU ℕ) :=
  (Emb.inl : Emb (UR sig nD τ) (UR sig nD τ × Counters)).trans embR
instance EP_landsIn : (EP (F := F)).LandsIn (upEmb : UEmb _ (MT nD τ sig (HIx 4) (Elt F) ℕ UU ℕ)) := by unfold EP; infer_instance

theorem nSub_eq (q : Fin 4) : (K (F := F)).nSub q = 16 := by fin_cases q <;> rfl
theorem nCore_eq (q : Fin 4) : (K (F := F)).nCore q = 2 := by fin_cases q <;> rfl

end Cert.Proof.KernelC

end
-- ==== Proof.LaunchDefsB.lean ====
/-
  What the four SparseCore calls take and give back.

  @main's host operations prepare each call's operands (a table transposed, its last 64 rows cut off and flattened, a
  table viewed four rows to a row); between the operations and the calls the TensorCore's arrays are described by a
  chain of valuations, each a closed term of the launch memory: `VA q` just before call `q`, `VB q` just after it —
  `VA q` with call `q`'s result array at the transposed lookup of its table.

  Call `q` hands the tile of coordinates `(c, s)`, whose number is `w = 2·s + c`, a read share (the `w`-th of 32
  tokens of the full share) of each array the call only reads, and the whole of columns `[512·w, 512·w + 512)` of its
  result array; the tile gives the same back with those columns at the lookup. A SparseCore's operands are its sixteen
  tiles' side by side, so that dealing them out is the identity.
-/
import proofs.«204991_g57140244906297_cont_9to1_m_249_19_alg».proof.Proof.CommonB
import proofs.«204991_g57140244906297_cont_9to1_m_249_19_alg».proof.Proof.Spec
import proofs.«204991_g57140244906297_cont_9to1_m_249_19_alg».proof.Proof.LibDeal

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)

variable {F : FTy → Type}

local notation "𝕄" => MT nD τ sig (HIx 4) (Elt F) ℕ UU ℕ

/-! ## The TensorCore's arrays as device references -/

abbrev r_ids (f : Fin 4) : DevRef τ sig :=
  match f with
  | 0 => Proc.devRef .tc (main_arg0 : Ref sig .tc) | 1 => Proc.devRef .tc (main_arg1 : Ref sig .tc)
  | 2 => Proc.devRef .tc (main_arg2 : Ref sig .tc) | 3 => Proc.devRef .tc (main_arg3 : Ref sig .tc)
abbrev r_out (f : Fin 4) : DevRef τ sig :=
  match f with
  | 0 => Proc.devRef .tc (main_v3 : Ref sig .tc) | 1 => Proc.devRef .tc (main_v5 : Ref sig .tc)
  | 2 => Proc.devRef .tc (main_v7 : Ref sig .tc) | 3 => Proc.devRef .tc (main_v11 : Ref sig .tc)
/-- The arrays call `f` only reads: its indices, its table as the kernel is handed it, and for the two large tables
    the flattened last rows. -/
abbrev RO (f : Fin 4) : Finset (DevRef τ sig) :=
  match f with
  | 0 => {Proc.devRef .tc (main_arg0 : Ref sig .tc), Proc.devRef .tc (main_v0 : Ref sig .tc), Proc.devRef .tc (main_v2 : Ref sig .tc)}
  | 1 => {Proc.devRef .tc (main_arg1 : Ref sig .tc), Proc.devRef .tc (main_v4 : Ref sig .tc)}
  | 2 => {Proc.devRef .tc (main_arg2 : Ref sig .tc), Proc.devRef .tc (main_v6 : Ref sig .tc)}
  | 3 => {Proc.devRef .tc (main_arg3 : Ref sig .tc), Proc.devRef .tc (main_v8 : Ref sig .tc), Proc.devRef .tc (main_v10 : Ref sig .tc)}

variable [FloatOps F]

/-! ## @main's host operations, in order -/

abbrev op1 : HloOp τ sig (Elt F) := StableHlo.unary main_arg4 main_v0 ((transpose S32x1000000 [1, 0] · transposes_S1000000x32_S32x1000000_1_0) : (⟨S1000000x32, .f32⟩ : BufTy).Contents (Elt F) → (⟨S32x1000000, .f32⟩ : BufTy).Contents (Elt F))
abbrev op2 : HloOp τ sig (Elt F) := StableHlo.unary main_arg4 main_v1 ((extractStridedSlice S64x32 ![999936, 0] · slices_S1000000x32_S64x32_999936_0) : (⟨S1000000x32, .f32⟩ : BufTy).Contents (Elt F) → (⟨S64x32, .f32⟩ : BufTy).Contents (Elt F))
abbrev op3 : HloOp τ sig (Elt F) := StableHlo.reshape main_v1 main_v2 rfl shapeCasts_S64x32_S2048
abbrev op4 : HloOp τ sig (Elt F) := StableHlo.reshape main_arg5 main_v4 rfl shapeCasts_S100000x32_S25000x128
abbrev op5 : HloOp τ sig (Elt F) := StableHlo.reshape main_arg6 main_v6 rfl shapeCasts_S1000x32_S250x128
abbrev op6 : HloOp τ sig (Elt F) := StableHlo.unary main_arg7 main_v8 ((transpose S32x1000000 [1, 0] · transposes_S1000000x32_S32x1000000_1_0) : (⟨S1000000x32, .f32⟩ : BufTy).Contents (Elt F) → (⟨S32x1000000, .f32⟩ : BufTy).Contents (Elt F))
abbrev op7 : HloOp τ sig (Elt F) := StableHlo.unary main_arg7 main_v9 ((extractStridedSlice S64x32 ![999936, 0] · slices_S1000000x32_S64x32_999936_0) : (⟨S1000000x32, .f32⟩ : BufTy).Contents (Elt F) → (⟨S64x32, .f32⟩ : BufTy).Contents (Elt F))
abbrev op8 : HloOp τ sig (Elt F) := StableHlo.reshape main_v9 main_v10 rfl shapeCasts_S64x32_S2048
abbrev op9 : HloOp τ sig (Elt F) := StableHlo.reshape main_arg9 main_v12 rfl shapeCasts_S64_S1x64

variable (m : (ℓ : Loc nD τ sig) → Buf (Elt F) ℓ) (ρ : Dev nD → PrngReg)

/-! ## The lookups, and the valuations between the calls -/

/-- Call `f`'s result: its table's transposed lookup at its indices, of the launch memory. -/
def E (d : Dev nD) (f : Fin 4) : (⟨2, ![32, 16384]⟩ : Shape).Idx → Elt F .f32 :=
  match f with
  | 0 => Cert.Spec.lookT 1000000 (by omega) (m ((SparseCore.T d).loc main_arg4)) (m ((SparseCore.T d).loc main_arg0))
  | 1 => Cert.Spec.lookT 100000 (by omega) (m ((SparseCore.T d).loc main_arg5)) (m ((SparseCore.T d).loc main_arg1))
  | 2 => Cert.Spec.lookT 1000 (by omega) (m ((SparseCore.T d).loc main_arg6)) (m ((SparseCore.T d).loc main_arg2))
  | 3 => Cert.Spec.lookT 1000000 (by omega) (m ((SparseCore.T d).loc main_arg7)) (m ((SparseCore.T d).loc main_arg3))

def V0 (d : Dev nD) : Valuation τ sig (Elt F) := fun b => m (d, b)
def VA0 (d : Dev nD) : Valuation τ sig (Elt F) := (op3 (F := F)).result ((op2 (F := F)).result ((op1 (F := F)).result (V0 m d)))
def VB0 (d : Dev nD) : Valuation τ sig (Elt F) := Function.update (VA0 m d) (r_out 0) (E m d 0)
def VA1 (d : Dev nD) : Valuation τ sig (Elt F) := (op4 (F := F)).result (VB0 m d)
def VB1 (d : Dev nD) : Valuation τ sig (Elt F) := Function.update (VA1 m d) (r_out 1) (E m d 1)
def VA2 (d : Dev nD) : Valuation τ sig (Elt F) := (op5 (F := F)).result (VB1 m d)
def VB2 (d : Dev nD) : Valuation τ sig (Elt F) := Function.update (VA2 m d) (r_out 2) (E m d 2)
def VA3 (d : Dev nD) : Valuation τ sig (Elt F) := (op8 (F := F)).result ((op7 (F := F)).result ((op6 (F := F)).result (VB2 m d)))
def VB3 (d : Dev nD) : Valuation τ sig (Elt F) := Function.update (VA3 m d) (r_out 3) (E m d 3)
def VA4 (d : Dev nD) : Valuation τ sig (Elt F) := (op9 (F := F)).result (VB3 m d)

def VA (d : Dev nD) (f : Fin 4) : Valuation τ sig (Elt F) := match f with | 0 => VA0 m d | 1 => VA1 m d | 2 => VA2 m d | 3 => VA3 m d
def VB (d : Dev nD) (f : Fin 4) : Valuation τ sig (Elt F) := match f with | 0 => VB0 m d | 1 => VB1 m d | 2 => VB2 m d | 3 => VB3 m d

/-! ## The tiles' numbers and column blocks -/

open Cert.LibDeal (wid)

theorem hdiv32 : 32 ∣ (⟨2, ![32, 16384]⟩ : Shape).size 1 := ⟨512, rfl⟩
/-- Columns `[512·w, 512·w + 512)` of a `[32, 16384]` array. -/
abbrev colBlk (w : Fin 32) : Rect (⟨2, ![32, 16384]⟩ : Shape) := Rect.part (s := (⟨2, ![32, 16384]⟩ : Shape)) (a₀ := 1) hdiv32 w

/-- Tile number `w`'s share of call `f`: a read token of what the call reads, and its own columns of the result array
    at the contents the valuation `W` gives that array. -/
def tileGoW (d : Dev nD) (f : Fin 4) (w : Fin 32) (W : Valuation τ sig (Elt F)) : sProp 𝕄 :=
  match f with
  | 0 => iprop(heldAt (SparseCore.T d) (RO 0) (fun _ => shareTok fullShare 32 w) (VA0 m d)
      ∗ ((d, r_out 0) ↦[(colBlk w).set]{fullShare} W (r_out 0)))
  | 1 => iprop(heldAt (SparseCore.T d) (RO 1) (fun _ => shareTok fullShare 32 w) (VA1 m d)
      ∗ ((d, r_out 1) ↦[(colBlk w).set]{fullShare} W (r_out 1)))
  | 2 => iprop(heldAt (SparseCore.T d) (RO 2) (fun _ => shareTok fullShare 32 w) (VA2 m d)
      ∗ ((d, r_out 2) ↦[(colBlk w).set]{fullShare} W (r_out 2)))
  | 3 => iprop(heldAt (SparseCore.T d) (RO 3) (fun _ => shareTok fullShare 32 w) (VA3 m d)
      ∗ ((d, r_out 3) ↦[(colBlk w).set]{fullShare} W (r_out 3)))

/-- The share of the tile of coordinates `(c, s)`. -/
def tileGo (d : Dev nD) (f : Fin 4) (c : Fin 2) (s : Fin 16) (W : Valuation τ sig (Elt F)) : sProp 𝕄 :=
  tileGoW m d f (wid c s) W

instance tileGo_storable (d : Dev nD) (f : Fin 4) (c : Fin 2) (s : Fin 16) (W : Valuation τ sig (Elt F)) :
    BI.Storable (upEmb : UEmb _ 𝕄) (tileGo m d f c s W) := by
  unfold tileGo tileGoW heldAt; fin_cases f <;> dsimp only <;> infer_instance

/-- The four calls' payloads: a SparseCore's operands are its tiles' side by side; no kernel consumes anything of the
    launch's. -/
def P : (K (F := F)).Pay (nD := nD) (Val := Elt F) (Name := ℕ) (U := UU) where
  st := fun q d c => bigSep Finset.univ fun i : Fin ((K (F := F)).nSub q) =>
    tileGo m d q (Fin.cast (nCore_eq q) c) (Fin.cast (nSub_eq q) i) (VA m d q)
  dn := fun q d c => bigSep Finset.univ fun i : Fin ((K (F := F)).nSub q) =>
    tileGo m d q (Fin.cast (nCore_eq q) c) (Fin.cast (nSub_eq q) i) (VB m d q)
  go := fun q d c i => tileGo m d q (Fin.cast (nCore_eq q) c) (Fin.cast (nSub_eq q) i) (VA m d q)
  td := fun q d c i => tileGo m d q (Fin.cast (nCore_eq q) c) (Fin.cast (nSub_eq q) i) (VB m d q)
  x := fun _ _ => iprop(emp)

instance P_storable : (P (F := F) m).IsStorable where
  st q d c := by unfold P; infer_instance
  dn q d c := by unfold P; infer_instance
  go q d c i := by unfold P; infer_instance
  td q d c i := by unfold P; infer_instance

/-- Dealing a SparseCore's operands to its tiles and gathering their results is the identity. -/
theorem vecSplit (q : Fin 4) : (K (F := F)).VecSplit' (P m) q := by
  intro d c
  show (bigSep Finset.univ fun i : Fin ((K (F := F)).nSub q) => tileGo m d q (Fin.cast (nCore_eq q) c) (Fin.cast (nSub_eq q) i) (VA m d q))
    ⊢ |={Set.univ}=> iprop((bigSep Finset.univ fun i : Fin ((K (F := F)).nSub q) => tileGo m d q (Fin.cast (nCore_eq q) c) (Fin.cast (nSub_eq q) i) (VA m d q))
      ∗ ((bigSep Finset.univ fun i : Fin ((K (F := F)).nSub q) => tileGo m d q (Fin.cast (nCore_eq q) c) (Fin.cast (nSub_eq q) i) (VB m d q))
        -∗ bigSep Finset.univ fun i : Fin ((K (F := F)).nSub q) => tileGo m d q (Fin.cast (nCore_eq q) c) (Fin.cast (nSub_eq q) i) (VB m d q)))
  iintro H; imodintro
  isplitl [H]; · iexact H
  iintro H; iexact H

end Cert.Proof.KernelC

end
-- ==== Proof.DealB.lean ====
/-
  Dealing the TensorCore's arrays to the thirty-two tiles of a call and gathering them back.

  Before a call the TensorCore holds all of its arrays whole. The arrays the call reads split into thirty-two read tokens,
  one per tile, and a remainder kept aside; the result array splits into its thirty-two blocks of 512 columns, which are
  pairwise disjoint and cover it. After the call the tokens rejoin and the blocks — every one at the same whole-array
  function, the lookup — join into the array at the lookup; nothing else has changed.
-/
import proofs.«204991_g57140244906297_cont_9to1_m_249_19_alg».proof.Proof.LaunchDefsB
import Idealize.ShloMosaic.Lib.Pipeline.Frame

noncomputable section

namespace Cert.Proof.KernelC

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt held_sub_split held_congr)
open Idealize.ShloMosaic.Transfers (shareTok shareDrop)
open Cert.LibDeal (wid bigSep_wid held_toks_split held_toks_join)

variable {F : FTy → Type}

local notation "𝕄" => MT nD τ sig (HIx 4) (Elt F) ℕ UU ℕ

/-- The TensorCore's unscoped arrays: the ten arguments and @main's values. -/
abbrev UC : Finset (DevRef τ sig) := Pipeline.ucRefs τ sig

/-- A whole array is its pieces along a family of pairwise disjoint index sets that cover it. -/
theorem pts_blocks {ℓ : Loc nD τ sig} (Kf : Fin 32 → Finset (Idx ℓ)) (hd : ∀ i j, i ≠ j → Disjoint (Kf i) (Kf j))
    (hc : (Finset.univ : Finset (Fin 32)).biUnion Kf = Finset.univ) (f : Buf (Elt F) ℓ) (q : PosShare TreeShare) :
    (ℓ ↦{q} f : sProp 𝕄) = bigSep Finset.univ fun w : Fin 32 => ℓ ↦[Kf w]{q} f := by
  rw [← pointsTo_biUnion Finset.univ (ℓ := ℓ) Kf (fun i _ j _ h => hd i j h), hc]; try rfl

theorem blk_disjoint : ∀ i j : Fin 32, i ≠ j → Disjoint (colBlk i).set (colBlk j).set := fun _ _ h => Rect.part_disjoint hdiv32 h
theorem blk_cover : (Finset.univ : Finset (Fin 32)).biUnion (fun w => (colBlk w).set) = Finset.univ := Rect.biUnion_part hdiv32

variable [FloatOps F]
variable (m : (ℓ : Loc nD τ sig) → Buf (Elt F) ℓ)

theorem out_notin0 : r_out 0 ∉ RO 0 := by decide
theorem sub_uc0 : insert (r_out 0) (RO 0) ⊆ UC := by decide

omit [FloatOps F] in
theorem held_ins0 (d : Dev nD) (W : Valuation τ sig (Elt F)) :
    (held (SparseCore.T d) (insert (r_out 0) (RO 0)) W : sProp 𝕄)
      = iprop(((d, r_out 0) ↦{fullShare} W (r_out 0)) ∗ held (SparseCore.T d) (RO 0) W) := by
  unfold held; rw [bigSep_insert out_notin0]; rfl

/-- The tiles' shares of call 0, side by side: the thirty-two read tokens of what the call reads, and the thirty-two
    column blocks of the result array. -/
theorem go_eq0 (d : Dev nD) (W : Valuation τ sig (Elt F)) :
    (bigSep Finset.univ fun c : Fin 2 => bigSep Finset.univ fun s : Fin 16 => tileGo m d 0 c s W)
      = iprop((bigSep Finset.univ fun w : Fin 32 => heldAt (SparseCore.T d) (RO 0) (fun _ => shareTok fullShare 32 w) (VA0 m d))
        ∗ bigSep Finset.univ fun w : Fin 32 => ((d, r_out 0) ↦[(colBlk w).set]{fullShare} W (r_out 0))) := by
  unfold tileGo
  rw [← bigSep_wid (fun w => tileGoW m d 0 w W), ← bigSep_sep']
  rfl

/-- Before call 0: the TensorCore's arrays, dealt — each tile its read tokens and its columns of the result array; kept
    aside, what remains of the read arrays' shares and the arrays the call does not touch. -/
theorem deal_out0 (d : Dev nD) :
    (held (SparseCore.T d) UC (VA0 m d) : sProp 𝕄)
      ⊢ iprop((bigSep Finset.univ fun c : Fin 2 => bigSep Finset.univ fun s : Fin 16 => tileGo m d 0 c s (VA0 m d))
          ∗ heldAt (SparseCore.T d) (RO 0) (fun _ => shareDrop fullShare 32) (VA0 m d)
          ∗ held (SparseCore.T d) (UC \ insert (r_out 0) (RO 0)) (VA0 m d)) := by
  rw [held_sub_split (SparseCore.T d) sub_uc0 (VA0 m d), held_ins0,
    pts_blocks (ℓ := (d, r_out 0)) (fun w => (colBlk w).set) blk_disjoint blk_cover, go_eq0]
  iintro ⟨⟨Ho, Hro⟩, Hrest⟩
  ihave H := (held_toks_split (SparseCore.T d) (RO 0) (VA0 m d) 32) $$ Hro
  icases H with ⟨Hdrop, Htoks⟩
  isplitl [Ho Htoks]
  · isplitl [Htoks]; · iexact Htoks
    iexact Ho
  isplitl [Hdrop]; · iexact Hdrop
  iexact Hrest

/-- After call 0: the tiles' shares gathered, the result array whole at the lookup. -/
theorem deal_in0 (d : Dev nD) :
    iprop((bigSep Finset.univ fun c : Fin 2 => bigSep Finset.univ fun s : Fin 16 => tileGo m d 0 c s (VB0 m d))
          ∗ heldAt (SparseCore.T d) (RO 0) (fun _ => shareDrop fullShare 32) (VA0 m d)
          ∗ held (SparseCore.T d) (UC \ insert (r_out 0) (RO 0)) (VA0 m d))
      ⊢ (held (SparseCore.T d) UC (VB0 m d) : sProp 𝕄) := by
  have hro : ∀ b ∈ RO 0, VB0 m d b = VA0 m d b := fun b hb =>
    show Function.update (VA0 m d) (r_out 0) (E m d 0) b = VA0 m d b from
      Function.update_of_ne (show b ≠ r_out 0 from fun e => out_notin0 (by rw [← e]; exact hb)) _ _
  have hrest : ∀ b ∈ UC \ insert (r_out 0) (RO 0), VB0 m d b = VA0 m d b := fun b hb =>
    show Function.update (VA0 m d) (r_out 0) (E m d 0) b = VA0 m d b from
      Function.update_of_ne (show b ≠ r_out 0 from fun e => (Finset.mem_sdiff.mp hb).2 (by rw [e]; exact Finset.mem_insert_self _ _)) _ _
  rw [held_sub_split (SparseCore.T d) sub_uc0 (VB0 m d), held_ins0, held_congr (SparseCore.T d) hro, held_congr (SparseCore.T d) hrest,
    pts_blocks (ℓ := (d, r_out 0)) (fun w => (colBlk w).set) blk_disjoint blk_cover, go_eq0]
  iintro ⟨⟨Htoks, Ho⟩, Hdrop, Hrest⟩
  isplitl [Ho Htoks Hdrop]
  · isplitl [Ho]; · iexact Ho
    iapply (held_toks_join (SparseCore.T d) (RO 0) (VA0 m d) 32)
    isplitl [Hdrop]; · iexact Hdrop
    iexact Htoks
  iexact Hrest

theorem out_notin1 : r_out 1 ∉ RO 1 := by decide
theorem sub_uc1 : insert (r_out 1) (RO 1) ⊆ UC := by decide

omit [FloatOps F] in
theorem held_ins1 (d : Dev nD) (W : Valuation τ sig (Elt F)) :
    (held (SparseCore.T d) (insert (r_out 1) (RO 1)) W : sProp 𝕄)
      = iprop(((d, r_out 1) ↦{fullShare} W (r_out 1)) ∗ held (SparseCore.T d) (RO 1) W) := by
  unfold held; rw [bigSep_insert out_notin1]; rfl

/-- The tiles' shares of call 1, side by side: the thirty-two read tokens of what the call reads, and the thirty-two
    column blocks of the result array. -/
theorem go_eq1 (d : Dev nD) (W : Valuation τ sig (Elt F)) :
    (bigSep Finset.univ fun c : Fin 2 => bigSep Finset.univ fun s : Fin 16 => tileGo m d 1 c s W)
      = iprop((bigSep Finset.univ fun w : Fin 32 => heldAt (SparseCore.T d) (RO 1) (fun _ => shareTok fullShare 32 w) (VA1 m d))
        ∗ bigSep Finset.univ fun w : Fin 32 => ((d, r_out 1) ↦[(colBlk w).set]{fullShare} W (r_out 1))) := by
  unfold tileGo
  rw [← bigSep_wid (fun w => tileGoW m d 1 w W), ← bigSep_sep']
  rfl

/-- Before call 1: the TensorCore's arrays, dealt — each tile its read tokens and its columns of the result array; kept
    aside, what remains of the read arrays' shares and the arrays the call does not touch. -/
theorem deal_out1 (d : Dev nD) :
    (held (SparseCore.T d) UC (VA1 m d) : sProp 𝕄)
      ⊢ iprop((bigSep Finset.univ fun c : Fin 2 => bigSep Finset.univ fun s : Fin 16 => tileGo m d 1 c s (VA1 m d))
          ∗ heldAt (SparseCore.T d) (RO 1) (fun _ => shareDrop fullShare 32) (VA1 m d)
          ∗ held (SparseCore.T d) (UC \ insert (r_out 1) (RO 1)) (VA1 m d)) := by
  rw [held_sub_split (SparseCore.T d) sub_uc1 (VA1 m d), held_ins1,
    pts_blocks (ℓ := (d, r_out 1)) (fun w => (colBlk w).set) blk_disjoint blk_cover, go_eq1]
  iintro ⟨⟨Ho, Hro⟩, Hrest⟩
  ihave H := (held_toks_split (SparseCore.T d) (RO 1) (VA1 m d) 32) $$ Hro
  icases H with ⟨Hdrop, Htoks⟩
  isplitl [Ho Htoks]
  · isplitl [Htoks]; · iexact Htoks
    iexact Ho
  isplitl [Hdrop]; · iexact Hdrop
  iexact Hrest

/-- After call 1: the tiles' shares gathered, the result array whole at the lookup. -/
theorem deal_in1 (d : Dev nD) :
    iprop((bigSep Finset.univ fun c : Fin 2 => bigSep Finset.univ fun s : Fin 16 => tileGo m d 1 c s (VB1 m d))
          ∗ heldAt (SparseCore.T d) (RO 1) (fun _ => shareDrop fullShare 32) (VA1 m d)
          ∗ held (SparseCore.T d) (UC \ insert (r_out 1) (RO 1)) (VA1 m d))
      ⊢ (held (SparseCore.T d) UC (VB1 m d) : sProp 𝕄) := by
  have hro : ∀ b ∈ RO 1, VB1 m d b = VA1 m d b := fun b hb =>
    show Function.update (VA1 m d) (r_out 1) (E m d 1) b = VA1 m d b from
      Function.update_of_ne (show b ≠ r_out 1 from fun e => out_notin1 (by rw [← e]; exact hb)) _ _
  have hrest : ∀ b ∈ UC \ insert (r_out 1) (RO 1), VB1 m d b = VA1 m d b := fun b hb =>
    show Function.update (VA1 m d) (r_out 1) (E m d 1) b = VA1 m d b from
      Function.update_of_ne (show b ≠ r_out 1 from fun e => (Finset.mem_sdiff.mp hb).2 (by rw [e]; exact Finset.mem_insert_self _ _)) _ _
  rw [held_sub_split (SparseCore.T d) sub_uc1 (VB1 m d), held_ins1, held_congr (SparseCore.T d) hro, held_congr (SparseCore.T d) hrest,
    pts_blocks (ℓ := (d, r_out 1)) (fun w => (colBlk w).set) blk_disjoint blk_cover, go_eq1]
  iintro ⟨⟨Htoks, Ho⟩, Hdrop, Hrest⟩
  isplitl [Ho Htoks Hdrop]
  · isplitl [Ho]; · iexact Ho
    iapply (held_toks_join (SparseCore.T d) (RO 1) (VA1 m d) 32)
    isplitl [Hdrop]; · iexact Hdrop
    iexact Htoks
  iexact Hrest

theorem out_notin2 : r_out 2 ∉ RO 2 := by decide
theorem sub_uc2 : insert (r_out 2) (RO 2) ⊆ UC := by decide

omit [FloatOps F] in
theorem held_ins2 (d : Dev nD) (W : Valuation τ sig (Elt F)) :
    (held (SparseCore.T d) (insert (r_out 2) (RO 2)) W : sProp 𝕄)
      = iprop(((d, r_out 2) ↦{fullShare} W (r_out 2)) ∗ held (SparseCore.T d) (RO 2) W) := by
  unfold held; rw [bigSep_insert out_notin2]; rfl

/-- The tiles' shares of call 2, side by side: the thirty-two read tokens of what the call reads, and the thirty-two
    column blocks of the result array. -/
theorem go_eq2 (d : Dev nD) (W : Valuation τ sig (Elt F)) :
    (bigSep Finset.univ fun c : Fin 2 => bigSep Finset.univ fun s : Fin 16 => tileGo m d 2 c s W)
      = iprop((bigSep Finset.univ fun w : Fin 32 => heldAt (SparseCore.T d) (RO 2) (fun _ => shareTok fullShare 32 w) (VA2 m d))
        ∗ bigSep Finset.univ fun w : Fin 32 => ((d, r_out 2) ↦[(colBlk w).set]{fullShare} W (r_out 2))) := by
  unfold tileGo
  rw [← bigSep_wid (fun w => tileGoW m d 2 w W), ← bigSep_sep']
  rfl

/-- Before call 2: the TensorCore's arrays, dealt — each tile its read tokens and its columns of the result array; kept
    aside, what remains of the read arrays' shares and the arrays the call does not touch. -/
theorem deal_out2 (d : Dev nD) :
    (held (SparseCore.T d) UC (VA2 m d) : sProp 𝕄)
      ⊢ iprop((bigSep Finset.univ fun c : Fin 2 => bigSep Finset.univ fun s : Fin 16 => tileGo m d 2 c s (VA2 m d))
          ∗ heldAt (SparseCore.T d) (RO 2) (fun _ => shareDrop fullShare 32) (VA2 m d)
          ∗ held (SparseCore.T d) (UC \ insert (r_out 2) (RO 2)) (VA2 m d)) := by
  rw [held_sub_split (SparseCore.T d) sub_uc2 (VA2 m d), held_ins2,
    pts_blocks (ℓ := (d, r_out 2)) (fun w => (colBlk w).set) blk_disjoint blk_cover, go_eq2]
  iintro ⟨⟨Ho, Hro⟩, Hrest⟩
  ihave H := (held_toks_split (SparseCore.T d) (RO 2) (VA2 m d) 32) $$ Hro
  icases H with ⟨Hdrop, Htoks⟩
  isplitl [Ho Htoks]
  · isplitl [Htoks]; · iexact Htoks
    iexact Ho
  isplitl [Hdrop]; · iexact Hdrop
  iexact Hrest

/-- After call 2: the tiles' shares gathered, the result array whole at the lookup. -/
theorem deal_in2 (d : Dev nD) :
    iprop((bigSep Finset.univ fun c : Fin 2 => bigSep Finset.univ fun s : Fin 16 => tileGo m d 2 c s (VB2 m d))
          ∗ heldAt (SparseCore.T d) (RO 2) (fun _ => shareDrop fullShare 32) (VA2 m d)
          ∗ held (SparseCore.T d) (UC \ insert (r_out 2) (RO 2)) (VA2 m d))
      ⊢ (held (SparseCore.T d) UC (VB2 m d) : sProp 𝕄) := by
  have hro : ∀ b ∈ RO 2, VB2 m d b = VA2 m d b := fun b hb =>
    show Function.update (VA2 m d) (r_out 2) (E m d 2) b = VA2 m d b from
      Function.update_of_ne (show b ≠ r_out 2 from fun e => out_notin2 (by rw [← e]; exact hb)) _ _
  have hrest : ∀ b ∈ UC \ insert (r_out 2) (RO 2), VB2 m d b = VA2 m d b := fun b hb =>
    show Function.update (VA2 m d) (r_out 2) (E m d 2) b = VA2 m d b from
      Function.update_of_ne (show b ≠ r_out 2 from fun e => (Finset.mem_sdiff.mp hb).2 (by rw [e]; exact Finset.mem_insert_self _ _)) _ _
  rw [held_sub_split (SparseCore.T d) sub_uc2 (VB2 m d), held_ins2, held_congr (SparseCore.T d) hro, held_congr (SparseCore.T d) hrest,
    pts_blocks (ℓ := (d, r_out 2)) (fun w => (colBlk w).set) blk_disjoint blk_cover, go_eq2]
  iintro ⟨⟨Htoks, Ho⟩, Hdrop, Hrest⟩
  isplitl [Ho Htoks Hdrop]
  · isplitl [Ho]; · iexact Ho
    iapply (held_toks_join (SparseCore.T d) (RO 2) (VA2 m d) 32)
    isplitl [Hdrop]; · iexact Hdrop
    iexact Htoks
  iexact Hrest

theorem out_notin3 : r_out 3 ∉ RO 3 := by decide
theorem sub_uc3 : insert (r_out 3) (RO 3) ⊆ UC := by decide

omit [FloatOps F] in
theorem held_ins3 (d : Dev nD) (W : Valuation τ sig (Elt F)) :
    (held (SparseCore.T d) (insert (r_out 3) (RO 3)) W : sProp 𝕄)
      = iprop(((d, r_out 3) ↦{fullShare} W (r_out 3)) ∗ held (SparseCore.T d) (RO 3) W) := by
  unfold held; rw [bigSep_insert out_notin3]; rfl

/-- The tiles' shares of call 3, side by side: the thirty-two read tokens of what the call reads, and the thirty-two
    column blocks of the result array. -/
theorem go_eq3 (d : Dev nD) (W : Valuation τ sig (Elt F)) :
    (bigSep Finset.univ fun c : Fin 2 => bigSep Finset.univ fun s : Fin 16 => tileGo m d 3 c s W)
      = iprop((bigSep Finset.univ fun w : Fin 32 => heldAt (SparseCore.T d) (RO 3) (fun _ => shareTok fullShare 32 w) (VA3 m d))
        ∗ bigSep Finset.univ fun w : Fin 32 => ((d, r_out 3) ↦[(colBlk w).set]{fullShare} W (r_out 3))) := by
  unfold tileGo
  rw [← bigSep_wid (fun w => tileGoW m d 3 w W), ← bigSep_sep']
  rfl

/-- Before call 3: the TensorCore's arrays, dealt — each tile its read tokens and its columns of the result array; kept
    aside, what remains of the read arrays' shares and the arrays the call does not touch. -/
theorem deal_out3 (d : Dev nD) :
    (held (SparseCore.T d) UC (VA3 m d) : sProp 𝕄)
      ⊢ iprop((bigSep Finset.univ fun c : Fin 2 => bigSep Finset.univ fun s : Fin 16 => tileGo m d 3 c s (VA3 m d))
          ∗ heldAt (SparseCore.T d) (RO 3) (fun _ => shareDrop fullShare 32) (VA3 m d)
          ∗ held (SparseCore.T d) (UC \ insert (r_out 3) (RO 3)) (VA3 m d)) := by
  rw [held_sub_split (SparseCore.T d) sub_uc3 (VA3 m d), held_ins3,
    pts_blocks (ℓ := (d, r_out 3)) (fun w => (colBlk w).set) blk_disjoint blk_cover, go_eq3]
  iintro ⟨⟨Ho, Hro⟩, Hrest⟩
  ihave H := (held_toks_split (SparseCore.T d) (RO 3) (VA3 m d) 32) $$ Hro
  icases H with ⟨Hdrop, Htoks⟩
  isplitl [Ho Htoks]
  · isplitl [Htoks]; · iexact Htoks
    iexact Ho
  isplitl [Hdrop]; · iexact Hdrop
  iexact Hrest

/-- After call 3: the tiles' shares gathered, the result array whole at the lookup. -/
theorem deal_in3 (d : Dev nD) :
    iprop((bigSep Finset.univ fun c : Fin 2 => bigSep Finset.univ fun s : Fin 16 => tileGo m d 3 c s (VB3 m d))
          ∗ heldAt (SparseCore.T d) (RO 3) (fun _ => shareDrop fullShare 32) (VA3 m d)
          ∗ held (SparseCore.T d) (UC \ insert (r_out 3) (RO 3)) (VA3 m d))
      ⊢ (held (SparseCore.T d) UC (VB3 m d) : sProp 𝕄) := by
  have hro : ∀ b ∈ RO 3, VB3 m d b = VA3 m d b := fun b hb =>
    show Function.update (VA3 m d) (r_out 3) (E m d 3) b = VA3 m d b from
      Function.update_of_ne (show b ≠ r_out 3 from fun e => out_notin3 (by rw [← e]; exact hb)) _ _
  have hrest : ∀ b ∈ UC \ insert (r_out 3) (RO 3), VB3 m d b = VA3 m d b := fun b hb =>
    show Function.update (VA3 m d) (r_out 3) (E m d 3) b = VA3 m d b from
      Function.update_of_ne (show b ≠ r_out 3 from fun e => (Finset.mem_sdiff.mp hb).2 (by rw [e]; exact Finset.mem_insert_self _ _)) _ _
  rw [held_sub_split (SparseCore.T d) sub_uc3 (VB3 m d), held_ins3, held_congr (SparseCore.T d) hro, held_congr (SparseCore.T d) hrest,
    pts_blocks (ℓ := (d, r_out 3)) (fun w => (colBlk w).set) blk_disjoint blk_cover, go_eq3]
  iintro ⟨⟨Htoks, Ho⟩, Hdrop, Hrest⟩
  isplitl [Ho Htoks Hdrop]
  · isplitl [Ho]; · iexact Ho
    iapply (held_toks_join (SparseCore.T d) (RO 3) (VA3 m d) 32)
    isplitl [Hdrop]; · iexact Hdrop
    iexact Htoks
  iexact Hrest

end Cert.Proof.KernelC

end
-- ==== Proof.MainB.lean ====
/-
  The launch element and @main on the TensorCore.

  The ghost state's launch element is the handshakes' rounds beside the rounds of the projection pipeline's staging
  cells; the first goes to the launch theorem, the second funds those cells' ghost state, which @main's proof keeps
  until the projection's region. No kernel consumes anything of the launch's.
-/
import proofs.«204991_g57140244906297_cont_9to1_m_249_19_alg».proof.Proof.DealB
import proofs.«204991_g57140244906297_cont_9to1_m_249_19_alg».proof.Proof.LibDeal
import proofs.«204991_g57140244906297_cont_9to1_m_249_19_alg».proof.Proof.Gen.Kernel.Launch
import Idealize.ShloMosaic.Lib.Pipeline.Sound

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt held_split held_sdiff_result wp_hlo_within held_sub_split held_congr)
open Idealize.ShloMosaic.Transfers (shareTok shareDrop)
open Idealize.ShloMosaic.Tactic
open Cert.LibDeal (wid)

variable {F : FTy → Type}

local notation "𝕄" => MT nD τ sig (HIx 4) (Elt F) ℕ UU ℕ

variable [FloatOps F]
variable (m : (ℓ : Loc nD τ sig) → Buf (Elt F) ℓ) (ρ : Dev nD → PrngReg)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside what the launch deals the TensorCore: the ghost state of the projection
    pipeline's staging cells and their duty tokens. -/
abbrev G (d : Dev nD) : sProp 𝕄 :=
  iprop(Pipeline.cellsGhost cfgs (EP (F := F)) (0 : Fin 1) d ∗ Pipeline.toksInit cfgs (EP (F := F)) (0 : Fin 1) d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (cfgs := cfgs) (ER := EP (F := F)) cellOf_inj) $$ HP with ⟨Hg, Ht⟩
  imodintro
  isplitl [HH]; · iexact HH
  isplitl [Hg Ht]
  · unfold G
    rw [bigSep_sep']
    rw [bigSep_congr (fun (c : Dev nD) _ => bigSep_univ_of_subsingleton (Φ := fun p : Fin 1 => Pipeline.cellsGhost cfgs (EP (F := F)) p c) (0 : Fin 1)),
      bigSep_congr (fun (c : Dev nD) _ => bigSep_univ_of_subsingleton (Φ := fun p : Fin 1 => Pipeline.toksInit cfgs (EP (F := F)) p c) (0 : Fin 1))]
    first
      | exact BI.Entails.refl _
      | (isplitl [Hg]; · iexact Hg
         iexact Ht)
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-! ## The calls on the TensorCore -/

theorem st_eq0 (d : Dev nD) : (bigSep Finset.univ fun c : Fin ((K (F := F)).nCore 0) => (P m).st 0 d c)
    = bigSep Finset.univ fun c : Fin 2 => bigSep Finset.univ fun s : Fin 16 => tileGo m d 0 c s (VA0 m d) := rfl
theorem dn_eq0 (d : Dev nD) : (bigSep Finset.univ fun c : Fin ((K (F := F)).nCore 0) => (P m).dn 0 d c)
    = bigSep Finset.univ fun c : Fin 2 => bigSep Finset.univ fun s : Fin 16 => tileGo m d 0 c s (VB0 m d) := rfl

/-- Call 0 on the TensorCore: the arrays dealt to the tiles, the call, the arrays gathered with the result array at the
    lookup. -/
theorem call_step0 (κ : GSem nD τ sig → ℕ) (d : Dev nD) {Φ : PUnit → sProp 𝕄} :
    iprop((K (F := F)).ctx EH (P m) κ ∗ (K (F := F)).tcSt EH d 0 ∗ held (SparseCore.T d) UC (VA0 m d)
        ∗ (((K (F := F)).tcSt EH d 1 ∗ held (SparseCore.T d) UC (VB0 m d)) -∗ Φ ⟨⟩))
      ⊢ wp frame (wpE ((K (F := F)).defs (D (F := F))) 𝒱 (SparseCore.T d) none) Set.univ ((K (F := F)).run d 0) Φ := by
  iintro ⟨#Hctx, Hst, Hheld, Hk⟩
  ihave H := (deal_out0 m d) $$ Hheld
  icases H with ⟨Hgo, Hdrop, Hrest⟩
  iapply ((K (F := F)).wp_run (D (F := F)) 𝒱 (EH := EH) (P := P m) κ d 0) $$ [Hst Hgo Hdrop Hrest Hk]
  isplitr; · iexact Hctx
  isplitl [Hst]; · iexact Hst
  isplitl [Hgo]
  · iapply (Entails.of_eq (st_eq0 m d).symm); iexact Hgo
  iintro ⟨Hst, Hdn⟩
  ihave Hdn' := (Entails.of_eq (dn_eq0 m d)) $$ Hdn
  iapply Hk
  isplitl [Hst]; · iexact Hst
  iapply (deal_in0 m d)
  isplitl [Hdn']; · iexact Hdn'
  isplitl [Hdrop]; · iexact Hdrop
  iexact Hrest

theorem st_eq1 (d : Dev nD) : (bigSep Finset.univ fun c : Fin ((K (F := F)).nCore 1) => (P m).st 1 d c)
    = bigSep Finset.univ fun c : Fin 2 => bigSep Finset.univ fun s : Fin 16 => tileGo m d 1 c s (VA1 m d) := rfl
theorem dn_eq1 (d : Dev nD) : (bigSep Finset.univ fun c : Fin ((K (F := F)).nCore 1) => (P m).dn 1 d c)
    = bigSep Finset.univ fun c : Fin 2 => bigSep Finset.univ fun s : Fin 16 => tileGo m d 1 c s (VB1 m d) := rfl

/-- Call 1 on the TensorCore: the arrays dealt to the tiles, the call, the arrays gathered with the result array at the
    lookup. -/
theorem call_step1 (κ : GSem nD τ sig → ℕ) (d : Dev nD) {Φ : PUnit → sProp 𝕄} :
    iprop((K (F := F)).ctx EH (P m) κ ∗ (K (F := F)).tcSt EH d 1 ∗ held (SparseCore.T d) UC (VA1 m d)
        ∗ (((K (F := F)).tcSt EH d 2 ∗ held (SparseCore.T d) UC (VB1 m d)) -∗ Φ ⟨⟩))
      ⊢ wp frame (wpE ((K (F := F)).defs (D (F := F))) 𝒱 (SparseCore.T d) none) Set.univ ((K (F := F)).run d 1) Φ := by
  iintro ⟨#Hctx, Hst, Hheld, Hk⟩
  ihave H := (deal_out1 m d) $$ Hheld
  icases H with ⟨Hgo, Hdrop, Hrest⟩
  iapply ((K (F := F)).wp_run (D (F := F)) 𝒱 (EH := EH) (P := P m) κ d 1) $$ [Hst Hgo Hdrop Hrest Hk]
  isplitr; · iexact Hctx
  isplitl [Hst]; · iexact Hst
  isplitl [Hgo]
  · iapply (Entails.of_eq (st_eq1 m d).symm); iexact Hgo
  iintro ⟨Hst, Hdn⟩
  ihave Hdn' := (Entails.of_eq (dn_eq1 m d)) $$ Hdn
  iapply Hk
  isplitl [Hst]; · iexact Hst
  iapply (deal_in1 m d)
  isplitl [Hdn']; · iexact Hdn'
  isplitl [Hdrop]; · iexact Hdrop
  iexact Hrest

theorem st_eq2 (d : Dev nD) : (bigSep Finset.univ fun c : Fin ((K (F := F)).nCore 2) => (P m).st 2 d c)
    = bigSep Finset.univ fun c : Fin 2 => bigSep Finset.univ fun s : Fin 16 => tileGo m d 2 c s (VA2 m d) := rfl
theorem dn_eq2 (d : Dev nD) : (bigSep Finset.univ fun c : Fin ((K (F := F)).nCore 2) => (P m).dn 2 d c)
    = bigSep Finset.univ fun c : Fin 2 => bigSep Finset.univ fun s : Fin 16 => tileGo m d 2 c s (VB2 m d) := rfl

/-- Call 2 on the TensorCore: the arrays dealt to the tiles, the call, the arrays gathered with the result array at the
    lookup. -/
theorem call_step2 (κ : GSem nD τ sig → ℕ) (d : Dev nD) {Φ : PUnit → sProp 𝕄} :
    iprop((K (F := F)).ctx EH (P m) κ ∗ (K (F := F)).tcSt EH d 2 ∗ held (SparseCore.T d) UC (VA2 m d)
        ∗ (((K (F := F)).tcSt EH d 3 ∗ held (SparseCore.T d) UC (VB2 m d)) -∗ Φ ⟨⟩))
      ⊢ wp frame (wpE ((K (F := F)).defs (D (F := F))) 𝒱 (SparseCore.T d) none) Set.univ ((K (F := F)).run d 2) Φ := by
  iintro ⟨#Hctx, Hst, Hheld, Hk⟩
  ihave H := (deal_out2 m d) $$ Hheld
  icases H with ⟨Hgo, Hdrop, Hrest⟩
  iapply ((K (F := F)).wp_run (D (F := F)) 𝒱 (EH := EH) (P := P m) κ d 2) $$ [Hst Hgo Hdrop Hrest Hk]
  isplitr; · iexact Hctx
  isplitl [Hst]; · iexact Hst
  isplitl [Hgo]
  · iapply (Entails.of_eq (st_eq2 m d).symm); iexact Hgo
  iintro ⟨Hst, Hdn⟩
  ihave Hdn' := (Entails.of_eq (dn_eq2 m d)) $$ Hdn
  iapply Hk
  isplitl [Hst]; · iexact Hst
  iapply (deal_in2 m d)
  isplitl [Hdn']; · iexact Hdn'
  isplitl [Hdrop]; · iexact Hdrop
  iexact Hrest

theorem st_eq3 (d : Dev nD) : (bigSep Finset.univ fun c : Fin ((K (F := F)).nCore 3) => (P m).st 3 d c)
    = bigSep Finset.univ fun c : Fin 2 => bigSep Finset.univ fun s : Fin 16 => tileGo m d 3 c s (VA3 m d) := rfl
theorem dn_eq3 (d : Dev nD) : (bigSep Finset.univ fun c : Fin ((K (F := F)).nCore 3) => (P m).dn 3 d c)
    = bigSep Finset.univ fun c : Fin 2 => bigSep Finset.univ fun s : Fin 16 => tileGo m d 3 c s (VB3 m d) := rfl

/-- Call 3 on the TensorCore: the arrays dealt to the tiles, the call, the arrays gathered with the result array at the
    lookup. -/
theorem call_step3 (κ : GSem nD τ sig → ℕ) (d : Dev nD) {Φ : PUnit → sProp 𝕄} :
    iprop((K (F := F)).ctx EH (P m) κ ∗ (K (F := F)).tcSt EH d 3 ∗ held (SparseCore.T d) UC (VA3 m d)
        ∗ (((K (F := F)).tcSt EH d 4 ∗ held (SparseCore.T d) UC (VB3 m d)) -∗ Φ ⟨⟩))
      ⊢ wp frame (wpE ((K (F := F)).defs (D (F := F))) 𝒱 (SparseCore.T d) none) Set.univ ((K (F := F)).run d 3) Φ := by
  iintro ⟨#Hctx, Hst, Hheld, Hk⟩
  ihave H := (deal_out3 m d) $$ Hheld
  icases H with ⟨Hgo, Hdrop, Hrest⟩
  iapply ((K (F := F)).wp_run (D (F := F)) 𝒱 (EH := EH) (P := P m) κ d 3) $$ [Hst Hgo Hdrop Hrest Hk]
  isplitr; · iexact Hctx
  isplitl [Hst]; · iexact Hst
  isplitl [Hgo]
  · iapply (Entails.of_eq (st_eq3 m d).symm); iexact Hgo
  iintro ⟨Hst, Hdn⟩
  ihave Hdn' := (Entails.of_eq (dn_eq3 m d)) $$ Hdn
  iapply Hk
  isplitl [Hst]; · iexact Hst
  iapply (deal_in3 m d)
  isplitl [Hdn']; · iexact Hdn'
  isplitl [Hdrop]; · iexact Hdrop
  iexact Hrest

/-! ## @main -/

theorem hop1 : (op1 (F := F)).bufs ⊆ UC :=
  show ({Proc.devRef .tc (main_arg4 : Ref sig .tc), Proc.devRef .tc (main_v0 : Ref sig .tc)} : Finset (DevRef τ sig)) ⊆ UC by decide
theorem hop2 : (op2 (F := F)).bufs ⊆ UC :=
  show ({Proc.devRef .tc (main_arg4 : Ref sig .tc), Proc.devRef .tc (main_v1 : Ref sig .tc)} : Finset (DevRef τ sig)) ⊆ UC by decide
theorem hop3 : (op3 (F := F)).bufs ⊆ UC :=
  show ({Proc.devRef .tc (main_v1 : Ref sig .tc), Proc.devRef .tc (main_v2 : Ref sig .tc)} : Finset (DevRef τ sig)) ⊆ UC by decide
theorem hop4 : (op4 (F := F)).bufs ⊆ UC :=
  show ({Proc.devRef .tc (main_arg5 : Ref sig .tc), Proc.devRef .tc (main_v4 : Ref sig .tc)} : Finset (DevRef τ sig)) ⊆ UC by decide
theorem hop5 : (op5 (F := F)).bufs ⊆ UC :=
  show ({Proc.devRef .tc (main_arg6 : Ref sig .tc), Proc.devRef .tc (main_v6 : Ref sig .tc)} : Finset (DevRef τ sig)) ⊆ UC by decide
theorem hop6 : (op6 (F := F)).bufs ⊆ UC :=
  show ({Proc.devRef .tc (main_arg7 : Ref sig .tc), Proc.devRef .tc (main_v8 : Ref sig .tc)} : Finset (DevRef τ sig)) ⊆ UC by decide
theorem hop7 : (op7 (F := F)).bufs ⊆ UC :=
  show ({Proc.devRef .tc (main_arg7 : Ref sig .tc), Proc.devRef .tc (main_v9 : Ref sig .tc)} : Finset (DevRef τ sig)) ⊆ UC by decide
theorem hop8 : (op8 (F := F)).bufs ⊆ UC :=
  show ({Proc.devRef .tc (main_v9 : Ref sig .tc), Proc.devRef .tc (main_v10 : Ref sig .tc)} : Finset (DevRef τ sig)) ⊆ UC by decide
theorem hop9 : (op9 (F := F)).bufs ⊆ UC :=
  show ({Proc.devRef .tc (main_arg9 : Ref sig .tc), Proc.devRef .tc (main_v12 : Ref sig .tc)} : Finset (DevRef τ sig)) ⊆ UC by decide

section Main

-- the projection's result, as a function of the launch memory: supplied with the region's proof
variable (PV : (d : Dev nD) → (⟨2, ![16384, 64]⟩ : Shape).Idx → Elt F .f32)

abbrev r_res : DevRef τ sig := Proc.devRef .tc (main_v13 : Ref sig .tc)

/-- The TensorCore's arrays when @main ends: the result array at the projection, the rest as before the region. -/
def VFin (d : Dev nD) : Valuation τ sig (Elt F) := Function.update (VA4 m d) r_res (PV d)

abbrev FIN (d : Dev nD) : sProp 𝕄 := held (SparseCore.T d) UC (VFin m PV d)

/-- The projection's region, from all of the TensorCore's arrays to all of them with the result array at the
    projection: the region's own proof, stated over the arrays it uses, fits this by framing the others. -/
def RegionOK : Prop := ∀ (d : Dev nD),
    iprop(levAts (K (F := F)).L (K (F := F)).lev ∗ (∃ W, ⌜(K (F := F)).WBelow (SparseCore.T d) W (8 * 4)⌝ ∗ owes (SparseCore.T d) 0 W)
        ∗ boundary (SparseCore.T d) ∗ G (F := F) d ∗ held (SparseCore.T d) UC (VA4 m d))
      ⊢ wp frame (wpE ((K (F := F)).defs (D (F := F))) 𝒱 (SparseCore.T d) none) Set.univ
          (Prog.lift (.customCall (SparseCore.inner (Pipeline.entry 0)) ()) :
            Prog (TpuEff nD τ sig (Elt F) (SparseCore.Sig (Pipeline.Sig Λ₀ (Fin 1) fun p => (pcfgs (F := F) p).Adm) 4) .tc) PUnit)
          fun _ => iprop((∃ W, ⌜(K (F := F)).WBelow (SparseCore.T d) W (8 * 4)⌝ ∗ owes (SparseCore.T d) 0 W)
            ∗ boundary (SparseCore.T d) ∗ held (SparseCore.T d) UC (VFin m PV d))

/-- @main on device `d`'s TensorCore: the host operations over all of its arrays held whole, each call through its
    step, the projection's region last. -/
theorem hmain (hregion : RegionOK m PV) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m PV d) := by
  unfold SparseCore.Cfg.tcRes
  rw [show (unscopedBufs d (fun b => m ((SparseCore.T d).loc b)) : sProp 𝕄) = held (SparseCore.T d) UC (V0 m d) from
    Pipeline.unscopedBufs_held d (V0 m d)]
  simp only [main, wp_bind, wp_pure]
  iintro ⟨#Hctx, Hst, ⟨Hb, Hheld, -, -⟩, HG⟩
  iapply (wp_hlo_within 𝒱 (SparseCore.T d) none Set.univ (op := op1 (F := F)) (S := UC) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := UC) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := UC) hop3 (V := (op2 (F := F)).result ((op1 (F := F)).result (V0 m d)))) $$ [Hb Hheld]
  · isplitl [Hb]; · iexact Hb
    iexact Hheld
  iintro ⟨Hb, Hheld⟩
  rw [wp_ret]; imodintro
  iapply (call_step0 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op4 (F := F)) (S := UC) hop4 (V := VB0 m d)) $$ [Hb Hheld]
  · isplitl [Hb]; · iexact Hb
    iexact Hheld
  iintro ⟨Hb, Hheld⟩
  rw [wp_ret]; imodintro
  iapply (call_step1 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op5 (F := F)) (S := UC) hop5 (V := VB1 m d)) $$ [Hb Hheld]
  · isplitl [Hb]; · iexact Hb
    iexact Hheld
  iintro ⟨Hb, Hheld⟩
  rw [wp_ret]; imodintro
  iapply (call_step2 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op6 (F := F)) (S := UC) hop6 (V := VB2 m d)) $$ [Hb Hheld]
  · isplitl [Hb]; · iexact Hb
    iexact Hheld
  iintro ⟨Hb, Hheld⟩
  rw [wp_ret]; imodintro
  iapply (wp_hlo_within 𝒱 (SparseCore.T d) none Set.univ (op := op7 (F := F)) (S := UC) hop7 (V := (op6 (F := F)).result (VB2 m d))) $$ [Hb Hheld]
  · isplitl [Hb]; · iexact Hb
    iexact Hheld
  iintro ⟨Hb, Hheld⟩
  rw [wp_ret]; imodintro
  iapply (wp_hlo_within 𝒱 (SparseCore.T d) none Set.univ (op := op8 (F := F)) (S := UC) hop8 (V := (op7 (F := F)).result ((op6 (F := F)).result (VB2 m d)))) $$ [Hb Hheld]
  · isplitl [Hb]; · iexact Hb
    iexact Hheld
  iintro ⟨Hb, Hheld⟩
  rw [wp_ret]; imodintro
  iapply (call_step3 m κ d) $$ [Hst Hheld Hb HG]
  isplitr; · iexact Hctx
  isplitl [Hst]; · iexact Hst
  isplitl [Hheld]; · iexact Hheld
  iintro ⟨Hst, Hheld⟩
  iapply (wp_hlo_within 𝒱 (SparseCore.T d) none Set.univ (op := op9 (F := F)) (S := UC) hop9 (V := VB3 m d)) $$ [Hb Hheld]
  · isplitl [Hb]; · iexact Hb
    iexact Hheld
  iintro ⟨Hb, Hheld⟩
  rw [wp_ret]; imodintro
  -- the projection's region: the TensorCore owes nothing any more
  unfold SparseCore.Cfg.tcSt
  rw [(K (F := F)).Otc_end d le_rfl]
  icases Hst with ⟨HO, Hrest⟩
  ihave Hlev := ((K (F := F)).ctx_levAts κ) $$ Hctx
  iapply (wp_wand_r frame _ Set.univ)
  isplitl [Hlev HO Hb HG Hheld]
  · iapply (hregion d)
    isplitl [Hlev]; · iexact Hlev
    isplitl [HO]; · iexact HO
    isplitl [Hb]; · iexact Hb
    isplitl [HG]; · iexact HG
    iexact Hheld
  iintro %_ ⟨HO, -, Hheld⟩
  imodintro
  isplitl [HO Hrest]
  · isplitl [HO]; · iexact HO
    iexact Hrest
  iexact Hheld

end Main

end Cert.Proof.KernelC

end
-- ==== Proof.ValsB.lean ====
/-
  The valuations between the calls, read at the arrays that matter: a call's index array is the launch memory's; the
  table it is handed is the host operation's function of the launch memory's table (the transpose; the last 64 rows,
  flattened; the table four rows to a row); before the projection the four result arrays are the four lookups, the
  weights the launch memory's, the bias row the launch memory's bias as one row.
-/
import proofs.«204991_g57140244906297_cont_9to1_m_249_19_alg».proof.Proof.LaunchDefsB

noncomputable section

namespace Cert.Proof.KernelC

open Cert.Kernel Cert.Kernel.Gen
open Idealize.ShloMosaic

/-- Reads a chain of host operations' results and updates at one array: at the array an operation writes, its
    function of its operand; at any other, the valuation before it. -/
macro "read_vals" : tactic =>
  `(tactic| repeat (first
      | rw [StableHlo.reshape_result] | rw [StableHlo.unary_result]
      | (rw [StableHlo.unary_result_ne]; rotate_left; decide)
      | (rw [StableHlo.reshape_result_ne]; rotate_left; decide)
      | rw [Function.update_self]
      | (rw [Function.update_of_ne]; rotate_left; decide)))

variable {F : FTy → Type} [FloatOps F]
variable (m : (ℓ : Loc nD τ sig) → Buf (Elt F) ℓ) (d : Dev nD)

abbrev a_T0 : DevRef τ sig := Proc.devRef .tc (main_arg4 : Ref sig .tc)
abbrev a_T1 : DevRef τ sig := Proc.devRef .tc (main_arg5 : Ref sig .tc)
abbrev a_T2 : DevRef τ sig := Proc.devRef .tc (main_arg6 : Ref sig .tc)
abbrev a_T3 : DevRef τ sig := Proc.devRef .tc (main_arg7 : Ref sig .tc)
abbrev a_W : DevRef τ sig := Proc.devRef .tc (main_arg8 : Ref sig .tc)
abbrev a_b : DevRef τ sig := Proc.devRef .tc (main_arg9 : Ref sig .tc)
abbrev r_tt0 : DevRef τ sig := Proc.devRef .tc (main_v0 : Ref sig .tc)
abbrev r_tl0 : DevRef τ sig := Proc.devRef .tc (main_v2 : Ref sig .tc)
abbrev r_tq1 : DevRef τ sig := Proc.devRef .tc (main_v4 : Ref sig .tc)
abbrev r_tq2 : DevRef τ sig := Proc.devRef .tc (main_v6 : Ref sig .tc)
abbrev r_tt3 : DevRef τ sig := Proc.devRef .tc (main_v8 : Ref sig .tc)
abbrev r_tl3 : DevRef τ sig := Proc.devRef .tc (main_v10 : Ref sig .tc)
abbrev r_b2 : DevRef τ sig := Proc.devRef .tc (main_v12 : Ref sig .tc)

theorem VA0_ids : VA0 m d (r_ids 0) = m (d, r_ids 0) := by
  unfold VA0 V0; read_vals
theorem VA0_tt : VA0 m d r_tt0 = transpose S32x1000000 [1, 0] (m (d, a_T0)) transposes_S1000000x32_S32x1000000_1_0 := by
  unfold VA0 V0; read_vals
theorem VA0_tl : VA0 m d r_tl0
    = shapeCast S2048 (extractStridedSlice S64x32 ![999936, 0] (m (d, a_T0)) slices_S1000000x32_S64x32_999936_0) shapeCasts_S64x32_S2048 := by
  unfold VA0 V0; read_vals; rfl
theorem VA1_ids : VA1 m d (r_ids 1) = m (d, r_ids 1) := by
  unfold VA1 VB0 VA0 V0; read_vals
theorem VA1_tq : VA1 m d r_tq1 = shapeCast S25000x128 (m (d, a_T1)) shapeCasts_S100000x32_S25000x128 := by
  unfold VA1 VB0 VA0 V0; read_vals; rfl
theorem VA2_ids : VA2 m d (r_ids 2) = m (d, r_ids 2) := by
  unfold VA2 VB1 VA1 VB0 VA0 V0; read_vals
theorem VA2_tq : VA2 m d r_tq2 = shapeCast S250x128 (m (d, a_T2)) shapeCasts_S1000x32_S250x128 := by
  unfold VA2 VB1 VA1 VB0 VA0 V0; read_vals; rfl
theorem VA3_ids : VA3 m d (r_ids 3) = m (d, r_ids 3) := by
  unfold VA3 VB2 VA2 VB1 VA1 VB0 VA0 V0; read_vals
theorem VA3_tt : VA3 m d r_tt3 = transpose S32x1000000 [1, 0] (m (d, a_T3)) transposes_S1000000x32_S32x1000000_1_0 := by
  unfold VA3 VB2 VA2 VB1 VA1 VB0 VA0 V0; read_vals
theorem VA3_tl : VA3 m d r_tl3
    = shapeCast S2048 (extractStridedSlice S64x32 ![999936, 0] (m (d, a_T3)) slices_S1000000x32_S64x32_999936_0) shapeCasts_S64x32_S2048 := by
  unfold VA3 VB2 VA2 VB1 VA1 VB0 VA0 V0; read_vals; rfl
theorem VA4_e0 : VA4 m d (r_out 0) = E m d 0 := by
  unfold VA4 VB3 VA3 VB2 VA2 VB1 VA1 VB0; read_vals
theorem VA4_e1 : VA4 m d (r_out 1) = E m d 1 := by
  unfold VA4 VB3 VA3 VB2 VA2 VB1; read_vals
theorem VA4_e2 : VA4 m d (r_out 2) = E m d 2 := by
  unfold VA4 VB3 VA3 VB2; read_vals
theorem VA4_e3 : VA4 m d (r_out 3) = E m d 3 := by
  unfold VA4 VB3; read_vals
theorem VA4_w : VA4 m d a_W = m (d, a_W) := by
  unfold VA4 VB3 VA3 VB2 VA2 VB1 VA1 VB0 VA0 V0; read_vals
theorem VA4_b2 : VA4 m d r_b2 = shapeCast S1x64 (m (d, a_b)) shapeCasts_S64_S1x64 := by
  unfold VA4 VB3 VA3 VB2 VA2 VB1 VA1 VB0 VA0 V0; read_vals; rfl

end Cert.Proof.KernelC

end
-- ==== Proof.RunB.lean ====
/-
  The program's run: the launch theorem applied. From the four tiles' task obligations and the projection region's
  proof, every weakly fair execution of the device's threads terminates, nothing faulting, and every array of the
  TensorCore ends at the final valuation: the arguments as launched, the result at the projection of the four lookups.
-/
import proofs.«204991_g57140244906297_cont_9to1_m_249_19_alg».proof.Proof.MainB
import proofs.«204991_g57140244906297_cont_9to1_m_249_19_alg».proof.Proof.ValsB
import proofs.«204991_g57140244906297_cont_9to1_m_249_19_alg».proof.Proof.LibAgree

noncomputable section

namespace Cert.Proof.KernelC

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable [FloatOps F]
variable (m : (ℓ : Loc nD τ sig) → Buf (Elt F) ℓ) (ρ : Dev nD → PrngReg)
variable (PV : (d : Dev nD) → (⟨2, ![16384, 64]⟩ : Shape).Idx → Elt F .f32)

/-- What the final memory is read for: every array of the TensorCore at the final valuation. -/
def fq (d : Dev nD) (s' : Phys nD τ sig (Elt F)) : Prop := ∀ b ∈ UC, s'.mem.mem (d, b) = VFin m PV d b

theorem hfin (d : Dev nD) (s' : Phys nD τ sig (Elt F)) : iprop(FIN m PV d ∗ SI s') ⊢ (⌜fq m PV d s'⌝ : sProp 𝕄) :=
  Cert.LibAgree.held_agree (SparseCore.T d) UC (VFin m PV d) s'

def QC : PUnit × MemSt nD τ sig (Elt F) → Prop := fun r => ∀ d : Dev nD, ∀ b ∈ UC, r.2.mem (d, b) = VFin m PV d b

theorem run_main [∀ e, Nonempty (Elt F e)] (hregion : RegionOK m PV)
    (htile : ∀ q, (K (F := F)).kind q = .scVector → (K (F := F)).TileObl (D (F := F)) 𝒱 (P m) v₀ q) :
    θ_run (Cert.Kernel.defs (F := F)) (Cert.Kernel.threads (F := F)) ⟨m, fun _ => 0, ρ⟩ (QC m PV) :=
  SparseCore.Cfg.θ_run_sc (K := K (F := F)) (D := D (F := F)) (𝒱 := 𝒱) (EH := EH) (P := P m) facts v₀
    (fun q hq => by fin_cases q <;> cases hq)
    htile
    (fun q _ => SparseCore.Cfg.VecSplit.of_plain (vecSplit m q))
    m ρ main (G (F := F)) (FIN m PV) (u₀ (F := F)) (sep_elim_left.trans (hu₀ m)) (hmain m ρ PV hregion) (fq m PV) (hfin m PV) (QC m PV) (fun _ h => h)

/-! ## The final valuation at the arrays the claims speak of -/

theorem VFin_res (d : Dev nD) : VFin m PV d r_res = PV d := by unfold VFin; rw [Function.update_self]
theorem VFin_arg0 (d : Dev nD) : VFin m PV d (r_ids 0) = m (d, r_ids 0) := by
  unfold VFin VA4 VB3 VA3 VB2 VA2 VB1 VA1 VB0 VA0 V0; read_vals
theorem VFin_arg1 (d : Dev nD) : VFin m PV d (r_ids 1) = m (d, r_ids 1) := by
  unfold VFin VA4 VB3 VA3 VB2 VA2 VB1 VA1 VB0 VA0 V0; read_vals
theorem VFin_arg2 (d : Dev nD) : VFin m PV d (r_ids 2) = m (d, r_ids 2) := by
  unfold VFin VA4 VB3 VA3 VB2 VA2 VB1 VA1 VB0 VA0 V0; read_vals
theorem VFin_arg3 (d : Dev nD) : VFin m PV d (r_ids 3) = m (d, r_ids 3) := by
  unfold VFin VA4 VB3 VA3 VB2 VA2 VB1 VA1 VB0 VA0 V0; read_vals
theorem VFin_arg4 (d : Dev nD) : VFin m PV d a_T0 = m (d, a_T0) := by
  unfold VFin VA4 VB3 VA3 VB2 VA2 VB1 VA1 VB0 VA0 V0; read_vals
theorem VFin_arg5 (d : Dev nD) : VFin m PV d a_T1 = m (d, a_T1) := by
  unfold VFin VA4 VB3 VA3 VB2 VA2 VB1 VA1 VB0 VA0 V0; read_vals
theorem VFin_arg6 (d : Dev nD) : VFin m PV d a_T2 = m (d, a_T2) := by
  unfold VFin VA4 VB3 VA3 VB2 VA2 VB1 VA1 VB0 VA0 V0; read_vals
theorem VFin_arg7 (d : Dev nD) : VFin m PV d a_T3 = m (d, a_T3) := by
  unfold VFin VA4 VB3 VA3 VB2 VA2 VB1 VA1 VB0 VA0 V0; read_vals
theorem VFin_arg8 (d : Dev nD) : VFin m PV d a_W = m (d, a_W) := by
  unfold VFin VA4 VB3 VA3 VB2 VA2 VB1 VA1 VB0 VA0 V0; read_vals
theorem VFin_arg9 (d : Dev nD) : VFin m PV d a_b = m (d, a_b) := by
  unfold VFin VA4 VB3 VA3 VB2 VA2 VB1 VA1 VB0 VA0 V0; read_vals

theorem mem_uc : r_res ∈ UC ∧ r_ids 0 ∈ UC ∧ r_ids 1 ∈ UC ∧ r_ids 2 ∈ UC ∧ r_ids 3 ∈ UC ∧ a_T0 ∈ UC ∧ a_T1 ∈ UC ∧ a_T2 ∈ UC
    ∧ a_T3 ∈ UC ∧ a_W ∈ UC ∧ a_b ∈ UC := by decide

end Cert.Proof.KernelC

end
-- ==== Proof.ProjBodyB.lean ====
/-
  The projection's body at one grid point, and the proof data of its pipeline.

  The body loads the bias row, the four blocks of the transposed lookups and the four 32-column bands of the weight
  matrix whole, and stores one block of the output: the bias broadcast plus, lookup by lookup, the product of the block
  (contracted along its axis 0) with its band (contracted along its axis 1). What it leaves in the output's staging
  buffer is therefore one closed function of what the seven buffers held; the inputs' buffers are left as found.
-/
import proofs.«204991_g57140244906297_cont_9to1_m_249_19_alg».proof.Proof.Gen.Kernel.Launch
import proofs.«204991_g57140244906297_cont_9to1_m_249_19_alg».proof.Proof.Gen.Kernel.Points
import proofs.«204991_g57140244906297_cont_9to1_m_249_19_alg».proof.Proof.Gen.Kernel.Skeleton
import Idealize.ShloMosaic.Lib.Pipeline.FrameBody
import Idealize.ShloMosaic.Lib.Tactic

set_option maxRecDepth 16384

noncomputable section

namespace Cert.Proof.ProjB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's accesses -/

abbrev rB : Rect S1x64 := Rect.unit (s := S1x64) ![0, 0] S1x64.size inb_S1x64_S1x64_0_0
abbrev rX : Rect S32x2048 := Rect.unit (s := S32x2048) ![0, 0] S32x2048.size inb_S32x2048_S32x2048_0_0
abbrev rW0 : Rect S64x128 := Rect.unit (s := S64x128) ![0, 0] S64x32.size inb_S64x128_S64x32_0_0
abbrev rW1 : Rect S64x128 := Rect.unit (s := S64x128) ![0, 32] S64x32.size inb_S64x128_S64x32_0_32
abbrev rW2 : Rect S64x128 := Rect.unit (s := S64x128) ![0, 64] S64x32.size inb_S64x128_S64x32_0_64
abbrev rW3 : Rect S64x128 := Rect.unit (s := S64x128) ![0, 96] S64x32.size inb_S64x128_S64x32_0_96
abbrev rO : Rect S2048x64 := Rect.unit (s := S2048x64) ![0, 0] S2048x64.size inb_S2048x64_S2048x64_0_0

/-! ## What the body leaves in the output's buffer -/

/-- The output block from the bias row, the four lookup blocks and the weights: the one store's payload over the loads. -/
def outBlk (b : Vec F S1x64 .f32) (x0 x1 x2 x3 : Vec F S32x2048 .f32) (w : Vec F S64x128 .f32) : Vec F S2048x64 .f32 :=
  View.canon [⟨rO, k4_pay1 (View.ld b rB) (View.ld x0 rX) (View.ld w rW0) (View.ld x1 rX) (View.ld w rW1) (View.ld x2 rX) (View.ld w rW2) (View.ld x3 rX) (View.ld w rW3)⟩]

/-- The one store covers the buffer. -/
theorem coverO (p0 : Vec F S2048x64 .f32) (y : S2048x64.Idx) :
    ∃ pc ∈ ([⟨rO, p0⟩] : List (View.Piece (Elt F) S2048x64 .f32)), y ∈ pc.1.set :=
  View.cover_of_tiled [⟨rO, p0⟩] S2048x64.size (by rfl) y

/-! ## The body's triple -/

set_option maxHeartbeats 1000000 in
/-- The body on whole staging memrefs, the six inputs' at read contents and the output's at anything, runs to the
    continuation holding the inputs' as they were and the output's at outBlk of them. -/
theorem sound_kernel (c : Dev nD) (E : Set Name) (i : grid4.Coords)
    (arg1 : Memref sig .tc .vmem S32x2048 .f32) (harg1 : arg1.IsWhole) (arg2 : Memref sig .tc .vmem S32x2048 .f32) (harg2 : arg2.IsWhole)
    (arg3 : Memref sig .tc .vmem S32x2048 .f32) (harg3 : arg3.IsWhole) (arg4 : Memref sig .tc .vmem S32x2048 .f32) (harg4 : arg4.IsWhole)
    (arg5 : Memref sig .tc .vmem S64x128 .f32) (harg5 : arg5.IsWhole) (arg6 : Memref sig .tc .vmem S1x64 .f32) (harg6 : arg6.IsWhole)
    (arg7 : Memref sig .tc .vmem S2048x64 .f32) (harg7 : arg7.IsWhole)
    (x0 x1 x2 x3 : Vec F S32x2048 .f32) (w : Vec F S64x128 .f32) (b : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w ∗ owns (c : Thread nD τ) arg6 fullShare b
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w ∗ owns (c : Thread nD τ) arg6 fullShare b
            ∗ owns (c : Thread nD τ) arg7 fullShare (outBlk b x0 x1 x2 x3 w)) -∗ K ⟨⟩))
      ⊢ wp frame (wpE (defs₀ (F := F)) Variants.none c none) E (cc4__proj_body i arg1 harg1 arg2 harg2 arg3 harg3 arg4 harg4 arg5 harg5 arg6 harg6 arg7 harg7) K := by
  simp only [cc4__proj_body_eq_skeleton]; unfold cc4__proj_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverO _)

/-! ## The pipeline's proof data -/

/-- The seven arrays the pipeline's windows range over, on one core: the four transposed lookups, the weights, the
    bias row, and the output (at what it held before). -/
structure Arrs (F : FTy → Type) (c : Dev nD) where
  e0 : Buf (Elt F) ((c : Thread nD τ).loc main_v3)
  e1 : Buf (Elt F) ((c : Thread nD τ).loc main_v5)
  e2 : Buf (Elt F) ((c : Thread nD τ).loc main_v7)
  e3 : Buf (Elt F) ((c : Thread nD τ).loc main_v11)
  w : Buf (Elt F) ((c : Thread nD τ).loc main_arg8)
  b : Buf (Elt F) ((c : Thread nD τ).loc main_v12)
  o : Buf (Elt F) ((c : Thread nD τ).loc main_v13)

variable {c : Dev nD} (a : Arrs F c)

/-- The arrays, window by window. -/
def arrs : (wi : Fin cfg4.W) → Buf (Elt F) ((cfg4.win wi).arr.view.loc (c : Thread nD τ))
  | ⟨0, _⟩ => a.e0
  | ⟨1, _⟩ => a.e1
  | ⟨2, _⟩ => a.e2
  | ⟨3, _⟩ => a.e3
  | ⟨4, _⟩ => a.w
  | ⟨5, _⟩ => a.b
  | ⟨6, _⟩ => a.o

/-- Window wi's block at point t, read off its array. -/
def iblk (wi : Fin cfg4.W) (t : Fin cfg4.N) : ((cfg4.win wi).xblock (cfg4.grid.coords t)).Idx → Elt F (cfg4.win wi).elt :=
  ((cfg4.win wi).blk t).view.read (Elt F) (arrs a wi)

/-- The proof data: after the body at point t each input's buffer holds its block and the output's holds outBlk of
    the input blocks; the body keeps no invariant of its own, owes nothing, and records no wait. -/
def dat (B : Set (SemLoc sig × Ix)) : Dat τ (Elt F) Ix Name U Lvl cfg4 c where
  A := arrs a
  after wi t := match wi with
    | ⟨0, _⟩ => iblk a 0 t
    | ⟨1, _⟩ => iblk a 1 t
    | ⟨2, _⟩ => iblk a 2 t
    | ⟨3, _⟩ => iblk a 3 t
    | ⟨4, _⟩ => iblk a 4 t
    | ⟨5, _⟩ => iblk a 5 t
    | ⟨6, _⟩ => outBlk (iblk a 5 t) (iblk a 0 t) (iblk a 1 t) (iblk a 2 t) (iblk a 3 t) (iblk a 4 t)
  Φ _ := BI.emp
  q _ := fullShare
  owed _ := 0
  recorded _ := B

variable (B : Set (SemLoc sig × Ix))

local notation "𝔡" => dat (Ix := Ix) (Name := Name) (U := U) (Lvl := Lvl) a B

theorem A_eq (wi : Fin cfg4.W) : (𝔡).A wi = arrs a wi := by dsimp only [dat]

theorem after_0 (t : Fin cfg4.N) : (𝔡).after 0 t = iblk a 0 t := by dsimp only [dat]
theorem after_1 (t : Fin cfg4.N) : (𝔡).after 1 t = iblk a 1 t := by dsimp only [dat]
theorem after_2 (t : Fin cfg4.N) : (𝔡).after 2 t = iblk a 2 t := by dsimp only [dat]
theorem after_3 (t : Fin cfg4.N) : (𝔡).after 3 t = iblk a 3 t := by dsimp only [dat]
theorem after_4 (t : Fin cfg4.N) : (𝔡).after 4 t = iblk a 4 t := by dsimp only [dat]
theorem after_5 (t : Fin cfg4.N) : (𝔡).after 5 t = iblk a 5 t := by dsimp only [dat]
theorem after_6 (t : Fin cfg4.N) :
    (𝔡).after 6 t = outBlk (iblk a 5 t) (iblk a 0 t) (iblk a 1 t) (iblk a 2 t) (iblk a 3 t) (iblk a 4 t) := by dsimp only [dat]

/-- Each input's current staging buffer holds its block at every point, fetched there or not. -/
theorem before_0 (t : Fin cfg4.N) (d) : (𝔡).before 0 t d = iblk a 0 t :=
  ((𝔡).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (t : Fin cfg4.N) (d) : (𝔡).before 1 t d = iblk a 1 t :=
  ((𝔡).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (t : Fin cfg4.N) (d) : (𝔡).before 2 t d = iblk a 2 t :=
  ((𝔡).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (t : Fin cfg4.N) (d) : (𝔡).before 3 t d = iblk a 3 t :=
  ((𝔡).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (t : Fin cfg4.N) (d) : (𝔡).before 4 t d = iblk a 4 t :=
  ((𝔡).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (t : Fin cfg4.N) (d) : (𝔡).before 5 t d = iblk a 5 t :=
  ((𝔡).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body obligation, at a generic point -/

variable (ι : Ix)

/-- What the body is called with at point t, the windows one by one, -/
def bodyPre (t : Fin cfg4.N) : sProp 𝕄 :=
  iprop((𝔡).Φ t.castSucc ∗ (𝔡).owesAt ι t.castSucc
    ∗ (∃ d, owns (c : Thread nD τ) (st4_0 t) fullShare ((𝔡).before 0 t d))
    ∗ (∃ d, owns (c : Thread nD τ) (st4_1 t) fullShare ((𝔡).before 1 t d))
    ∗ (∃ d, owns (c : Thread nD τ) (st4_2 t) fullShare ((𝔡).before 2 t d))
    ∗ (∃ d, owns (c : Thread nD τ) (st4_3 t) fullShare ((𝔡).before 3 t d))
    ∗ (∃ d, owns (c : Thread nD τ) (st4_4 t) fullShare ((𝔡).before 4 t d))
    ∗ (∃ d, owns (c : Thread nD τ) (st4_5 t) fullShare ((𝔡).before 5 t d))
    ∗ (∃ d, owns (c : Thread nD τ) (st4_6 t) fullShare ((𝔡).before 6 t d)))

/-- and what it returns. -/
def bodyPost (t : Fin cfg4.N) : sProp 𝕄 :=
  iprop((𝔡).Φ t.succ ∗ (𝔡).owesAt ι t.succ
    ∗ owns (c : Thread nD τ) (st4_0 t) fullShare ((𝔡).after 0 t)
    ∗ owns (c : Thread nD τ) (st4_1 t) fullShare ((𝔡).after 1 t)
    ∗ owns (c : Thread nD τ) (st4_2 t) fullShare ((𝔡).after 2 t)
    ∗ owns (c : Thread nD τ) (st4_3 t) fullShare ((𝔡).after 3 t)
    ∗ owns (c : Thread nD τ) (st4_4 t) fullShare ((𝔡).after 4 t)
    ∗ owns (c : Thread nD τ) (st4_5 t) fullShare ((𝔡).after 5 t)
    ∗ owns (c : Thread nD τ) (st4_6 t) fullShare ((𝔡).after 6 t))

/-- The body at any point: the inputs' memrefs hold their blocks, so the body's triple applies; the invariant and the
    core's owes pass through unread. -/
theorem sound_body (t : Fin cfg4.N) :
    bodyPre (Name := Name) (U := U) (Lvl := Lvl) a B ι t ⊢ wp frame (wpE (defs₀ (F := F)) Variants.none c none) Set.univ (bodyAt4 t) (fun _ => bodyPost (Name := Name) (U := U) (Lvl := Lvl) a B ι t) := by
  unfold bodyPre bodyPost bodyAt4
  simp only [before_0, before_1, before_2, before_3, before_4, before_5]
  rw [show (𝔡).Φ t.succ = (𝔡).Φ t.castSucc from rfl,
    show (𝔡).owesAt ι t.succ = (𝔡).owesAt ι t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid4.coords t) _ _ _ _ _ _ _ _ _ _ _ _ _ _ (iblk a 0 t) (iblk a 1 t) (iblk a 2 t) (iblk a 3 t) (iblk a 4 t) (iblk a 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation : BodyObligation (𝔡) (defs₀ (F := F)) Variants.none ι Set.univ := fun t => by
  rw [bigSep_W4, bigSep_W4]
  exact sound_body (Name := Name) (U := U) (Lvl := Lvl) a B ι t

end Cert.Proof.ProjB

end
-- ==== Proof.ProjFinalB.lean ====
/-
  The output array after the pipeline, as one function of the six input arrays.

  The output's blocks tile its 16384 rows by 2048: row n is written at grid point n / 2048, at row n % 2048 of the
  block, from that point's column blocks of the four lookups, the whole weights and the whole bias row. So the array
  after the last write-back is, at every index, the body's output block of those input blocks read at the index's
  place in its block.
-/
import proofs.«204991_g57140244906297_cont_9to1_m_249_19_alg».proof.Proof.ProjBodyB
import Idealize.ShloMosaic.Lib.Pipeline.Value
import Idealize.ShloMosaic.Lib.ValueIdx

set_option maxRecDepth 16384

noncomputable section

namespace Cert.Proof.ProjB

open Cert.Kernel Cert.Kernel.Gen
open Idealize.ShloMosaic Idealize.ShloMosaic.TcCoe Idealize.ShloMosaic.Tactic Idealize.ShloMosaic.ValueIdx
open Idealize.SL Idealize.SL.RA Idealize.SL.BI Idealize.SL.Sem
open Idealize.ShloMosaic.Pipeline (Dat Cfg Window)

variable {F : FTy → Type} [FloatOps F]
variable {Ix : Type} [DecidableEq Ix] {Name : Type} [DecidableEq Name] {U : Type} [URA U] {Lvl : Type} [Preorder Lvl]

/-! ## The function -/

/-- The grid point whose output block holds row n. -/
def ptOf (n : Nat) (hn : n < 16384) : Fin cfg4.N := ⟨n / 2048, by rw [show cfg4.N = 8 from N_4]; omega⟩

/-- A window's block at a point, read off an array. -/
def rdBlk {c : Dev nD} (wi : Fin cfg4.W) (t : Fin cfg4.N) (x : Buf (Elt F) ((cfg4.win wi).arr.view.loc (c : Thread nD τ))) :
    ((cfg4.win wi).xblock (cfg4.grid.coords t)).Idx → Elt F (cfg4.win wi).elt :=
  ((cfg4.win wi).blk t).view.read (Elt F) x

section Fn

variable {c : Dev nD}
  (e0 : Buf (Elt F) ((c : Thread nD τ).loc main_v3)) (e1 : Buf (Elt F) ((c : Thread nD τ).loc main_v5))
  (e2 : Buf (Elt F) ((c : Thread nD τ).loc main_v7)) (e3 : Buf (Elt F) ((c : Thread nD τ).loc main_v11))
  (w : Buf (Elt F) ((c : Thread nD τ).loc main_arg8)) (b2 : Buf (Elt F) ((c : Thread nD τ).loc main_v12))

/-- The output block the body computes at point t from that point's blocks of the six arrays. -/
def blkOut (t : Fin cfg4.N) : Vec F S2048x64 .f32 :=
  outBlk (rdBlk (c := c) 5 t b2) (rdBlk (c := c) 0 t e0) (rdBlk (c := c) 1 t e1) (rdBlk (c := c) 2 t e2) (rdBlk (c := c) 3 t e3) (rdBlk (c := c) 4 t w)

/-- THE PROJECTION, one whole-array function of the six arrays: at row n and column o, the output block of point
    n / 2048 read at row n % 2048 and column o. -/
def ProjF : Buf (Elt F) ((c : Thread nD τ).loc main_v13) :=
  fun (i : S16384x64.Idx) => blkOut e0 e1 e2 e3 w b2 (ptOf (i 0).val (i 0).isLt) (ix2 (⟨(i 0).val % 2048, Nat.mod_lt _ (by decide)⟩ : Fin 2048) (i 1))

/-- It reads, at an index that sits at place y of point t's block, that block at y. -/
theorem ProjF_at (i : S16384x64.Idx) (t : Fin cfg4.N) (y : S2048x64.Idx) (h0 : (i 0).val = t.val * 2048 + (y 0).val) (h1 : (i 1).val = (y 1).val) :
    ProjF e0 e1 e2 e3 w b2 i = blkOut e0 e1 e2 e3 w b2 t y := by
  have hy0 : (y 0).val < 2048 := (y 0).isLt
  have ht : ptOf (i 0).val (i 0).isLt = t := Fin.ext (by show (i 0).val / 2048 = t.val; omega)
  have hy : ix2 (⟨(i 0).val % 2048, Nat.mod_lt _ (by decide)⟩ : Fin 2048) (i 1) = y := by
    funext a
    match a with
    | ⟨0, _⟩ => exact Fin.ext (by show (i 0).val % 2048 = (y 0).val; omega)
    | ⟨1, _⟩ => exact Fin.ext h1
  show blkOut e0 e1 e2 e3 w b2 (ptOf (i 0).val (i 0).isLt) (ix2 (⟨(i 0).val % 2048, Nat.mod_lt _ (by decide)⟩ : Fin 2048) (i 1)) = _
  rw [ht]
  exact congrArg (blkOut e0 e1 e2 e3 w b2 t) hy

end Fn

/-! ## The output's blocks -/

/-- The output's index map, decided over the grid: point t writes block row t, block column 0. -/
theorem idx_out : ∀ t : Fin cfg4.N, win4_6.index t (0 : Fin 2) = t.val ∧ win4_6.index t (1 : Fin 2) = 0 :=
  (by decide +kernel : ∀ t : Fin grid4.N, win4_6.index t (0 : Fin 2) = t.val ∧ win4_6.index t (1 : Fin 2) = 0)

/-- An index of the output is in point t's block iff each coordinate is in the block's range on its axis. -/
theorem mem_blk_out (t : Fin cfg4.N) (i : S16384x64.Idx) :
    i ∈ ((cfg4.win 6).blk t).view.set ↔ ∀ a : Fin 2, win4_6.index t a * S2048x64.size a ≤ (i a).val ∧ (i a).val < win4_6.index t a * S2048x64.size a + S2048x64.size a := by
  show i ∈ ((View.whole main_v13).slice (win4_6.rect t)).set ↔ _
  rw [View.set_slice_whole, Rect.mem_set_unit]
  exact Iff.rfl

/-- Every index of the output is in the block of the point its row names. -/
theorem cover_out (i : S16384x64.Idx) : ∃ t : Fin cfg4.N, (cfg4.win 6).flush t = true ∧ i ∈ ((cfg4.win 6).blk t).view.set := by
  have hi0 : (i 0).val < 16384 := (i 0).isLt
  have hi1 : (i 1).val < 64 := (i 1).isLt
  refine ⟨ptOf (i 0).val hi0, flush4_6 _, ?_⟩
  rw [mem_blk_out]
  obtain ⟨e0, e1⟩ := idx_out (ptOf (i 0).val hi0)
  have ev : (ptOf (i 0).val hi0).val = (i 0).val / 2048 := rfl
  intro a
  match a with
  | ⟨0, _⟩ => show win4_6.index (ptOf (i 0).val hi0) (0 : Fin 2) * 2048 ≤ (i 0).val ∧ (i 0).val < win4_6.index (ptOf (i 0).val hi0) (0 : Fin 2) * 2048 + 2048; omega
  | ⟨1, _⟩ => show win4_6.index (ptOf (i 0).val hi0) (1 : Fin 2) * 64 ≤ (i 1).val ∧ (i 1).val < win4_6.index (ptOf (i 0).val hi0) (1 : Fin 2) * 64 + 64; omega

/-! ## The array after the run -/

variable {c : Dev nD} (a : Arrs F c) (B : Set (SemLoc sig × Ix))

local notation "𝔡" => dat (Ix := Ix) (Name := Name) (U := U) (Lvl := Lvl) a B

/-- What the body leaves in the output's buffer at point t is the output block of that point's input blocks. -/
theorem after6_blk (t : Fin cfg4.N) : (𝔡).after 6 t = blkOut a.e0 a.e1 a.e2 a.e3 a.w a.b t := by
  rw [after_6]; rfl

/-- Place y of point t's output block sits in the array at row 2048 t + y 0, -/
theorem emb_out0 (t : Fin cfg4.N) (y : S2048x64.Idx) :
    (((cfg4.win 6).blk t).view.emb y (0 : Fin 2)).val = t.val * 2048 + (y 0).val := by
  show win4_6.index t (0 : Fin 2) * 2048 + 1 * (y 0).val = _
  rw [(idx_out t).1]; omega

/-- and at column y 1. -/
theorem emb_out1 (t : Fin cfg4.N) (y : S2048x64.Idx) :
    (((cfg4.win 6).blk t).view.emb y (1 : Fin 2)).val = (y 1).val := by
  show win4_6.index t (1 : Fin 2) * 64 + 1 * (y 1).val = _
  rw [(idx_out t).2]; omega

/-- A block function read through point t's output block: if an array function agrees with it wherever an index sits
    at a place of the block, the block (its moved part: all of it) is the array function read through the block. -/
theorem cut_eq_read (Bk : Vec F S2048x64 .f32) (G : S16384x64.Idx → Elt F .f32) (t : Fin cfg4.N)
    (hG : ∀ (y : S2048x64.Idx) (i : S16384x64.Idx), (i 0).val = t.val * 2048 + (y 0).val → (i 1).val = (y 1).val → G i = Bk y) :
    (cfg4.win 6).cut (grid4.coords t) Bk = ((cfg4.win 6).blk t).view.read (Elt F) G := by
  funext y
  rw [View.read_apply, hG y (((cfg4.win 6).blk t).view.emb y) (emb_out0 t y) (emb_out1 t y)]
  rfl

/-- What point t writes back is block t of the projection. -/
theorem flushed_out (t : Fin cfg4.N) :
    (𝔡).flushed 6 t = ((cfg4.win 6).blk t).view.read (Elt F) (ProjF a.e0 a.e1 a.e2 a.e3 a.w a.b) := by
  show (cfg4.win 6).cut (grid4.coords t) ((𝔡).after 6 t) = _
  rw [after6_blk]
  exact cut_eq_read (blkOut a.e0 a.e1 a.e2 a.e3 a.w a.b t) (ProjF a.e0 a.e1 a.e2 a.e3 a.w a.b) t
    (fun y i h0 h1 => ProjF_at a.e0 a.e1 a.e2 a.e3 a.w a.b i t y h0 h1)

/-- THE OUTPUT ARRAY after the last write-back is the projection of the six input arrays. -/
theorem arrAt_out : (𝔡).arrAt 6 cfg4.N = ProjF a.e0 a.e1 a.e2 a.e3 a.w a.b :=
  (𝔡).arrAt_eq_of_cover 6 (ProjF a.e0 a.e1 a.e2 a.e3 a.w a.b) (fun t _ => flushed_out a B t) cover_out

/-- The input arrays are never written back. -/
theorem arrAt_in0 (n : Nat) : (𝔡).arrAt 0 n = a.e0 := ((𝔡).arrAt_in 0 rfl n).trans (A_eq a B 0)
theorem arrAt_in1 (n : Nat) : (𝔡).arrAt 1 n = a.e1 := ((𝔡).arrAt_in 1 rfl n).trans (A_eq a B 1)
theorem arrAt_in2 (n : Nat) : (𝔡).arrAt 2 n = a.e2 := ((𝔡).arrAt_in 2 rfl n).trans (A_eq a B 2)
theorem arrAt_in3 (n : Nat) : (𝔡).arrAt 3 n = a.e3 := ((𝔡).arrAt_in 3 rfl n).trans (A_eq a B 3)
theorem arrAt_in4 (n : Nat) : (𝔡).arrAt 4 n = a.w := ((𝔡).arrAt_in 4 rfl n).trans (A_eq a B 4)
theorem arrAt_in5 (n : Nat) : (𝔡).arrAt 5 n = a.b := ((𝔡).arrAt_in 5 rfl n).trans (A_eq a B 5)

end Cert.Proof.ProjB

end
-- ==== Proof.ProjRegionB.lean ====
/-
  The projection's region on the TensorCore, inside the SparseCore program.

  After the four lookups the TensorCore owes nothing more; it enters the region holding its region-boundary storage,
  the staging cells' launch ghost state and duty tokens, the six input arrays whole and the output array at anything.
  The pipeline stages the blocks, runs the body at the eight grid points and writes the output's blocks back; the
  region ends with the boundary storage handed back, the inputs unchanged and the output array at the projection of
  the six inputs. The staging cells' waits sit at the kernels' own index, level 0, so the recorded pairs stay at or
  below the level bound the handshake state keeps.
-/
import proofs.«204991_g57140244906297_cont_9to1_m_249_19_alg».proof.Proof.CommonB
import proofs.«204991_g57140244906297_cont_9to1_m_249_19_alg».proof.Proof.ProjFinalB
import Idealize.ShloMosaic.Lib.Pipeline.Regions

set_option maxRecDepth 16384

noncomputable section

namespace Cert.Proof.ProjB

open Cert.Kernel Cert.Kernel.Gen Cert.Proof.KernelC
open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat owesWithin)

variable {F : FTy → Type} [FloatOps F]

local notation "𝕄" => MT nD τ sig (HIx 4) (Elt F) ℕ UU ℕ

/-! ## The pipeline's proof data on every core -/

/-- The (own cell, index) pairs at or below the level the handshake state bounds the TensorCore's recorded pairs by
    after the fourth call. -/
def Bd (F : FTy → Type) [FloatOps F] (c : Dev nD) : Set (SemLoc sig × HIx 4) := {p | (K (F := F)).lev ((c : Thread nD τ), p.1) p.2 ≤ 32}

/-- The one device's arrays, named at any device (there is one). -/
def spread {d : Dev nD} (a : Arrs F d) (c : Dev nD) : Arrs F c := (Subsingleton.elim d c) ▸ a

theorem spread_self {d : Dev nD} (a : Arrs F d) : spread a d = a := rfl

/-- No pipeline prefetches a table. -/
abbrev adm : (p : Fin 1) → (pcfgs (F := F) p).Adm := fun q => (cfgs q).toPCfg_adm

/-- The proof data of the one pipeline, per core. -/
abbrev pdats {d : Dev nD} (a : Arrs F d) : (p : Fin 1) → (c : Dev nD) → Dat τ (Elt F) (HIx 4) ℕ UU ℕ (cfgs p) c :=
  fun _ c => dat (spread a c) (Bd F c)

/-! ## The thread states around the region -/

/-- What the region is entered from: the core owing nothing, its recorded pairs bounded; the seven arrays whole. -/
def inS {d : Dev nD} (a : Arrs F d) (c : Dev nD) : sProp 𝕄 :=
  iprop(owesWithin c 0 (Bd F c)
    ∗ ((((c : Thread nD τ).loc main_v3) ↦{fullShare} (spread a c).e0)) ∗ ((((c : Thread nD τ).loc main_v5) ↦{fullShare} (spread a c).e1))
    ∗ ((((c : Thread nD τ).loc main_v7) ↦{fullShare} (spread a c).e2)) ∗ ((((c : Thread nD τ).loc main_v11) ↦{fullShare} (spread a c).e3))
    ∗ ((((c : Thread nD τ).loc main_arg8) ↦{fullShare} (spread a c).w)) ∗ ((((c : Thread nD τ).loc main_v12) ↦{fullShare} (spread a c).b))
    ∗ ((((c : Thread nD τ).loc main_v13) ↦{fullShare} (spread a c).o)))

/-- What it leaves: the same, the staging cells' pairs recorded too, the output at the projection. -/
def outS {d : Dev nD} (a : Arrs F d) (c : Dev nD) : sProp 𝕄 :=
  iprop(owesWithin c 0 (Bd F c ∪ cfg4.waitPairs none)
    ∗ ((((c : Thread nD τ).loc main_v3) ↦{fullShare} (spread a c).e0)) ∗ ((((c : Thread nD τ).loc main_v5) ↦{fullShare} (spread a c).e1))
    ∗ ((((c : Thread nD τ).loc main_v7) ↦{fullShare} (spread a c).e2)) ∗ ((((c : Thread nD τ).loc main_v11) ↦{fullShare} (spread a c).e3))
    ∗ ((((c : Thread nD τ).loc main_arg8) ↦{fullShare} (spread a c).w)) ∗ ((((c : Thread nD τ).loc main_v12) ↦{fullShare} (spread a c).b))
    ∗ ((((c : Thread nD τ).loc main_v13) ↦{fullShare} ProjF (spread a c).e0 (spread a c).e1 (spread a c).e2 (spread a c).e3 (spread a c).w (spread a c).b)))

theorem share_full {d : Dev nD} (a : Arrs F d) (c : Dev nD) (wi : Fin cfg4.W) : (pdats a 0 c).share wi = fullShare :=
  (pdats a 0 c).share_full (fun _ => rfl) wi

/-- Nothing is prefetched. -/
theorem prefHeld_intro (c : Dev nD) :
    (emp : sProp 𝕄) ⊢ Pipeline.prefHeld (pcfgs (F := F) 0).pre c (fun _ => fullShare) (adm (F := F) 0).1 := by
  unfold Pipeline.prefHeld
  exact BI.bigSep_intro_persistent fun k _ => k.elim0

/-- The kernel names no semaphore of its own. -/
theorem ownSems0_intro (c : Dev nD) :
    (emp : sProp 𝕄) ⊢ Pipeline.ownSems0 (fun k : PEmpty => (k.elim : SemLoc sig)) c := by
  unfold Pipeline.ownSems0
  exact BI.bigSep_intro_persistent fun k _ => k.elim

/-! ## The region's record -/

variable (lv : GSem nD τ sig → HIx 4 → ℕ)

/-- The region: the decided layout, no semaphore of the kernel's own, the body obligation, no wait evidence needed
    (nothing is owed), and the thread states above. -/
def seg {d : Dev nD} (a : Arrs F d) :
    Pipeline.RegionSeg (pcfgs (F := F)) adm (pdats a) none (defs₀ (F := F)) 𝒱₀ (K (F := F)).L lv (0 : Fin 1) where
  win := winFacts4.to₀
  block_pos := block_pos4
  stage_whole := stage_whole4
  K := PEmpty
  osem := fun k => k.elim
  ho := Pipeline.OwnSemFacts.none _
  hbody := fun c => (body_obligation (spread a c) (Bd F c) none).loose
  hwaits := fun c => Pipeline.hwaits_of_owed_zero (pcfgs (F := F)) adm (pdats a) none (K (F := F)).L lv 0 (fun _ _ => rfl) c
  pre := inS a
  post := outS a
  X := fun _ => iprop(emp)
  Y := fun _ => iprop(emp)
  Z := fun _ => iprop(emp)
  hentry := fun c => by
    rw [Pipeline.arrays_eq cfgs (pdats a) 0 c arr_whole4 (share_full a c), bigSep_W4]
    unfold inS
    iintro ⟨⟨Ho, H0, H1, H2, H3, H4, H5, H6⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · iapply (prefHeld_intro c); iempintro
    isplitl [Ho]; · iapply (Pipeline.owesWithin_mono c 0 (Set.subset_union_left)); iexact Ho
    isplitr <;> iempintro
  hin := fun c => by iintro -; iempintro
  hout := fun c => by
    rw [scopedRest4_eq]
    iintro -
    isplitr; · iempintro
    isplitr; · iapply (ownSems0_intro c); iempintro
    iempintro
  hexit := fun c => by
    rw [Pipeline.arrays_eq cfgs (pdats a) 0 c arr_whole4 (share_full a c), bigSep_W4,
      arrAt_in0, arrAt_in1, arrAt_in2, arrAt_in3, arrAt_in4, arrAt_in5, arrAt_out]
    unfold outS
    iintro ⟨⟨H0, H1, H2, H3, H4, H5, H6⟩, Ho, -, -⟩
    imodintro
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-! ## The region -/

theorem seg_pre {d : Dev nD} (a : Arrs F d) : (seg lv a).pre = inS a := rfl
theorem seg_post {d : Dev nD} (a : Arrs F d) : (seg lv a).post = outS a := rfl

/-- The region's one line of the TensorCore's program is the pipeline's entry call, lifted to the extended table. -/
theorem prog_eq :
    (Prog.lift (.customCall (SparseCore.inner (Pipeline.entry 0)) ()) :
        Prog (TpuEff nD τ sig (Elt F) (SparseCore.Sig (ΛP (F := F)) 4) .tc) PUnit)
      = SparseCore.liftProg (.op (.customCall (Pipeline.entry 0) ()) Prog.ret) := rfl

set_option maxHeartbeats 1000000 in
/-- The region from its thread state: the boundary storage and the state before come back as the boundary storage
    and the state after. -/
theorem region_aux (d : Dev nD) (a : Arrs F d) :
    iprop((levAts (K (F := F)).L lv : sProp 𝕄) ∗ boundary (T d : Thread nD τ)
        ∗ Pipeline.cellsGhost cfgs (EP (F := F)) 0 d ∗ Pipeline.toksInit cfgs (EP (F := F)) 0 d ∗ inS a d)
      ⊢ wp frame (wpE ((K (F := F)).defs (D (F := F))) 𝒱 (T d) none) Set.univ
          (Prog.lift (.customCall (SparseCore.inner (Pipeline.entry 0)) ())) fun _ =>
          iprop(boundary (T d : Thread nD τ) ∗ outS a d) := by
  rw [prog_eq]
  refine BIBase.Entails.trans ?_ ((K (F := F)).wp_liftProg (D (F := F)) 𝒱 (T d) Set.univ none (.op (.customCall (Pipeline.entry 0) ()) Prog.ret) _)
  refine BIBase.Entails.trans ?_ (Pipeline.RegionSeg.wp (pcfgs (F := F)) adm (pdats a) none cellOf_inj (EP (F := F)) (defs₀ (F := F)) 𝒱₀
    (K (F := F)).L lv (seg lv a) d none (fun u hu => nomatch hu) Prog.ret _)
  rw [seg_pre, seg_post]
  iintro ⟨#Hlev, Hbd, Hg, Ht, Hin⟩
  isplitr
  · iintro H
    rw [wp_ret]
    imodintro
    iexact H
  isplitl [Hbd]; · iexact Hbd
  isplitl [Hin]; · iexact Hin
  isplitr; · iexact Hlev
  isplitl [Hg]; · iexact Hg
  iexact Ht

/-- THE REGION on device d's TensorCore, from the level facts, the core owing nothing with its recorded pairs at or
    below level 32, the region-boundary storage, the staging cells' launch ghost state and duty tokens, the six input
    arrays whole and the output array at anything: it ends with the same owing and storage, the inputs unchanged, and
    the output array at the projection of the inputs. -/
theorem region (d : Dev nD)
    (e0 : Buf (Elt F) ((T d : Thread nD τ).loc main_v3)) (e1 : Buf (Elt F) ((T d : Thread nD τ).loc main_v5))
    (e2 : Buf (Elt F) ((T d : Thread nD τ).loc main_v7)) (e3 : Buf (Elt F) ((T d : Thread nD τ).loc main_v11))
    (w : Buf (Elt F) ((T d : Thread nD τ).loc main_arg8)) (b2 : Buf (Elt F) ((T d : Thread nD τ).loc main_v12)) :
    iprop((levAts (K (F := F)).L lv : sProp 𝕄)
        ∗ (∃ W, ⌜(K (F := F)).WBelow (T d) W 32⌝ ∗ owes (T d) 0 W)
        ∗ boundary (T d : Thread nD τ)
        ∗ Pipeline.cellsGhost cfgs (EP (F := F)) 0 d ∗ Pipeline.toksInit cfgs (EP (F := F)) 0 d
        ∗ (((T d : Thread nD τ).loc main_v3) ↦{fullShare} e0) ∗ (((T d : Thread nD τ).loc main_v5) ↦{fullShare} e1)
        ∗ (((T d : Thread nD τ).loc main_v7) ↦{fullShare} e2) ∗ (((T d : Thread nD τ).loc main_v11) ↦{fullShare} e3)
        ∗ (((T d : Thread nD τ).loc main_arg8) ↦{fullShare} w) ∗ (((T d : Thread nD τ).loc main_v12) ↦{fullShare} b2)
        ∗ (∃ f, (((T d : Thread nD τ).loc main_v13) ↦{fullShare} f)))
      ⊢ wp frame (wpE ((K (F := F)).defs (D (F := F))) 𝒱 (T d) none) Set.univ
          (Prog.lift (.customCall (SparseCore.inner (Pipeline.entry 0)) ())) fun _ =>
          iprop((∃ W, ⌜(K (F := F)).WBelow (T d) W 32⌝ ∗ owes (T d) 0 W)
            ∗ boundary (T d : Thread nD τ)
            ∗ (((T d : Thread nD τ).loc main_v3) ↦{fullShare} e0) ∗ (((T d : Thread nD τ).loc main_v5) ↦{fullShare} e1)
            ∗ (((T d : Thread nD τ).loc main_v7) ↦{fullShare} e2) ∗ (((T d : Thread nD τ).loc main_v11) ↦{fullShare} e3)
            ∗ (((T d : Thread nD τ).loc main_arg8) ↦{fullShare} w) ∗ (((T d : Thread nD τ).loc main_v12) ↦{fullShare} b2)
            ∗ (((T d : Thread nD τ).loc main_v13) ↦{fullShare} ProjF (c := d) e0 e1 e2 e3 w b2)) := by
  iintro ⟨#Hlev, ⟨%W, %hW, Ho⟩, Hbd, Hg, Ht, H0, H1, H2, H3, H4, H5, ⟨%f, H6⟩⟩
  iapply (wp_wand_r frame _ Set.univ)
  isplitl [Ho Hbd Hg Ht H0 H1 H2 H3 H4 H5 H6]
  · iapply (region_aux lv d (⟨e0, e1, e2, e3, w, b2, f⟩ : Arrs F d))
    isplitr; · iexact Hlev
    isplitl [Hbd]; · iexact Hbd
    isplitl [Hg]; · iexact Hg
    isplitl [Ht]; · iexact Ht
    unfold inS
    isplitl [Ho]
    · iexists W
      isplitr
      · ipureintro
        exact fun p hp => hW p (Finset.mem_coe.mp hp)
      · iexact Ho
    isplitl [H0]; · iexact H0
    isplitl [H1]; · iexact H1
    isplitl [H2]; · iexact H2
    isplitl [H3]; · iexact H3
    isplitl [H4]; · iexact H4
    isplitl [H5]; · iexact H5
    iexact H6
  iintro %_ ⟨Hbd, Hpost⟩
  unfold outS
  icases Hpost with ⟨⟨%W', %hW', Ho⟩, H0, H1, H2, H3, H4, H5, H6⟩
  isplitl [Ho]
  · iexists W'
    isplitr
    · ipureintro
      intro p hp
      rcases hW' (Finset.mem_coe.mpr hp) with h | ⟨wi, s, e⟩
      · exact h
      · rw [e]; exact Nat.zero_le _
    · iexact Ho
  isplitl [Hbd]; · iexact Hbd
  isplitl [H0]; · iexact H0
  isplitl [H1]; · iexact H1
  isplitl [H2]; · iexact H2
  isplitl [H3]; · iexact H3
  isplitl [H4]; · iexact H4
  isplitl [H5]; · iexact H5
  iexact H6

end Cert.Proof.ProjB

end
-- ==== Proof.RegionB.lean ====
/-
  The projection's region over all of the TensorCore's arrays.

  The region's own proof speaks of the seven arrays it uses: the four lookups, the weights, the bias row and the
  result. Held among all of the TensorCore's arrays, those seven are split off, read at the valuation before the
  region (the four result arrays of the calls are the four lookups; the weights are the launch memory's; the bias row
  is the launch memory's bias as one row), the region runs, and the arrays are put back with the result array at the
  projection.
-/
import proofs.«204991_g57140244906297_cont_9to1_m_249_19_alg».proof.Proof.MainB
import proofs.«204991_g57140244906297_cont_9to1_m_249_19_alg».proof.Proof.ValsB
import proofs.«204991_g57140244906297_cont_9to1_m_249_19_alg».proof.Proof.ProjRegionB

noncomputable section

namespace Cert.Proof.KernelC

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 4) (Elt F) ℕ UU ℕ

variable [FloatOps F]
variable (m : (ℓ : Loc nD τ sig) → Buf (Elt F) ℓ)

/-- The seven arrays of the projection. -/
abbrev S7 : Finset (DevRef τ sig) := {r_out 0, r_out 1, r_out 2, r_out 3, a_W, r_b2, r_res}

theorem S7_sub : S7 ⊆ UC := by decide

omit [FloatOps F] in
theorem held_S7 (d : Dev nD) (Wv : Valuation τ sig (Elt F)) :
    (held (SparseCore.T d) S7 Wv : sProp 𝕄)
      = iprop(((d, r_out 0) ↦{fullShare} Wv (r_out 0)) ∗ ((d, r_out 1) ↦{fullShare} Wv (r_out 1)) ∗ ((d, r_out 2) ↦{fullShare} Wv (r_out 2))
        ∗ ((d, r_out 3) ↦{fullShare} Wv (r_out 3)) ∗ ((d, a_W) ↦{fullShare} Wv a_W) ∗ ((d, r_b2) ↦{fullShare} Wv r_b2)
        ∗ ((d, r_res) ↦{fullShare} Wv r_res)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The projection of the four lookups, the launch memory's weights and its bias as one row: the result array's final
    contents. -/
def PVal (d : Dev nD) : (⟨2, ![16384, 64]⟩ : Shape).Idx → Elt F .f32 :=
  ProjB.ProjF (F := F) (c := d) (E m d 0) (E m d 1) (E m d 2) (E m d 3) (m (d, a_W)) (shapeCast S1x64 (m (d, a_b)) shapeCasts_S64_S1x64)

theorem regionOK : RegionOK m (PVal m) := by
  intro d
  have hrest : ∀ b ∈ UC \ S7, VFin m (PVal m) d b = VA4 m d b := fun b hb =>
    show Function.update (VA4 m d) r_res (PVal m d) b = VA4 m d b from
      Function.update_of_ne (show b ≠ r_res from fun e => (Finset.mem_sdiff.mp hb).2 (by rw [e]; decide)) _ _
  rw [held_sub_split (SparseCore.T d) S7_sub (VA4 m d), held_sub_split (SparseCore.T d) S7_sub (VFin m (PVal m) d),
    held_congr (SparseCore.T d) hrest, held_S7, held_S7, VA4_e0, VA4_e1, VA4_e2, VA4_e3, VA4_w, VA4_b2]
  have hf : ∀ b, b ≠ r_res → VFin m (PVal m) d b = VA4 m d b := fun b hb =>
    show Function.update (VA4 m d) r_res (PVal m d) b = VA4 m d b from Function.update_of_ne hb _ _
  rw [hf (r_out 0) (by decide), hf (r_out 1) (by decide), hf (r_out 2) (by decide), hf (r_out 3) (by decide), hf a_W (by decide), hf r_b2 (by decide),
    show VFin m (PVal m) d r_res = PVal m d from Function.update_self _ _ _,
    VA4_e0, VA4_e1, VA4_e2, VA4_e3, VA4_w, VA4_b2]
  have hreg := ProjB.region (F := F) (K (F := F)).lev d (E m d 0) (E m d 1) (E m d 2) (E m d 3) (m (d, a_W)) (shapeCast S1x64 (m (d, a_b)) shapeCasts_S64_S1x64)
  iintro ⟨Hl, HO, Hb, ⟨Hcg, Htk⟩, ⟨H0, H1, H2, H3, Hw, Hb2, Hres⟩, Hrest⟩
  iapply (wp_wand_r frame _ Set.univ)
  isplitl [Hl HO Hb Hcg Htk H0 H1 H2 H3 Hw Hb2 Hres]
  · iapply hreg
    isplitl [Hl]; · iexact Hl
    isplitl [HO]; · iexact HO
    isplitl [Hb]; · iexact Hb
    isplitl [Hcg]; · iexact Hcg
    isplitl [Htk]; · iexact Htk
    isplitl [H0]; · iexact H0
    isplitl [H1]; · iexact H1
    isplitl [H2]; · iexact H2
    isplitl [H3]; · iexact H3
    isplitl [Hw]; · iexact Hw
    isplitl [Hb2]; · iexact Hb2
    iexists _; iexact Hres
  iintro %_ ⟨HO, Hb, H0, H1, H2, H3, Hw, Hb2, Hres⟩
  isplitl [HO]; · iexact HO
  isplitl [Hb]; · iexact Hb
  isplitl [H0 H1 H2 H3 Hw Hb2 Hres]
  · isplitl [H0]; · iexact H0
    isplitl [H1]; · iexact H1
    isplitl [H2]; · iexact H2
    isplitl [H3]; · iexact H3
    isplitl [Hw]; · iexact Hw
    isplitl [Hb2]; · iexact Hb2
    iexact Hres
  iexact Hrest

end Cert.Proof.KernelC

end
-- ==== Proof.BlockDefsB.lean ====
/-
  The block-gather kernel's task on one vector subcore: the arrays it is handed, the block of the output it writes,
  and the function it leaves there.

  The task of tile (c, s) looks up 512 index words. For a word w it fetches the 128-column block of the transposed
  table that holds column w — block min (w / 128) 7811, columns 128 · min (w / 128) 7811 … + 127 — and reads column
  w mod 128 of it; a word at or past 999936 = 7812 · 128 is read instead from the flattened last 64 rows, entry
  32 · min (w − 999936) 63 + r. Below 999936 the block number is w / 128 itself, so the column read is w.
-/
import proofs.«204991_g57140244906297_cont_9to1_m_249_19_alg».proof.Proof.CommonB
import Idealize.ShloMosaic.Lib.ValueIdx

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 4) (Elt F) ℕ UU ℕ

/-! ## The tile and the arrays -/

abbrev cV (L : grid0.Coords) : Fin τ.nSC := (L 0).castLE hcore0
abbrev jV (L : grid0.Coords) : Fin τ.nSub := (L 1).castLE hsub0
/-- The vector subcore that runs the task of grid point `L`. -/
abbrev thr (d : Dev nD) (L : grid0.Coords) : Thread nD τ := V d (cV L) (jV L)

abbrev idsLoc (d : Dev nD) : Loc nD τ sig := (SparseCore.T d).loc main_arg0
abbrev ttLoc (d : Dev nD) : Loc nD τ sig := (SparseCore.T d).loc main_v0
abbrev tailLoc (d : Dev nD) : Loc nD τ sig := (SparseCore.T d).loc main_v2
abbrev outLoc (d : Dev nD) : Loc nD τ sig := (SparseCore.T d).loc main_v3

abbrev idsV : Memref sig .scVector .hbm S16384 .i32 := Memref.whole main_arg0_scv
abbrev ttV : Memref sig .scVector .hbm S32x1000000 .f32 := Memref.whole main_v0_scv
abbrev tailV : Memref sig .scVector .hbm S2048 .f32 := Memref.whole main_v2_scv
abbrev outV : Memref sig .scVector .hbm S32x16384 .f32 := Memref.whole main_v3_scv

/-- The task's block of the output as the program slices it: all 32 rows, the task's 512 columns. -/
abbrev outBlk (L : grid0.Coords) : Memref sig .scVector .hbm S32x512 .f32 :=
  (outV).slice (Rect.unit (s := S32x16384) (k0_off27 L) S32x512.size (k0_off27_inb L)) (fun _ => rfl)
/-- The elements of the output that the task of `L` writes. -/
abbrev outSet (L : grid0.Coords) : Finset S32x16384.Idx := (outBlk L).view.set

/-! ## The function the kernel leaves in the output -/

/-- The column of the transposed table read for word `w`: block `min (w / 128) 7811`, lane `w mod 128`. -/
def colAt (w : BitVec 32) : ℕ := 128 * min (w.toNat / 128) 7811 + w.toNat % 128

theorem colAt_lt (w : BitVec 32) : colAt w < 1000000 := by
  unfold colAt
  have h1 : min (w.toNat / 128) 7811 ≤ 7811 := Nat.min_le_right _ _
  have h2 : w.toNat % 128 < 128 := Nat.mod_lt _ (by decide)
  omega

/-- Below 999936 the column read is the word itself. -/
theorem colAt_eq (w : BitVec 32) (h : w.toNat < 999936) : colAt w = w.toNat := by
  unfold colAt
  have h1 : w.toNat / 128 ≤ 7811 := by omega
  rw [Nat.min_eq_left h1]
  omega

/-- The entry of the flattened last 64 rows read for word `w` (at or past 999936) and column `r`. -/
def tailAt (w : BitVec 32) (r : Fin 32) : ℕ := 32 * min (w.toNat - 999936) 63 + r.val

theorem tailAt_lt (w : BitVec 32) (r : Fin 32) : tailAt w r < 2048 := by
  unfold tailAt
  have h1 : min (w.toNat - 999936) 63 ≤ 63 := Nat.min_le_right _ _
  have h2 := r.isLt
  omega

/-- Entry `(r, n)` of the lookup as the kernel computes it from the index words, the transposed table and the
    flattened tail: the tail's entry when word `n`, read as a signed number, is at least 999936, else the table's. -/
def E (ids : S16384.Idx → BitVec 32) (tt : S32x1000000.Idx → Elt F .f32) (tail : S2048.Idx → Elt F .f32) :
    S32x16384.Idx → Elt F .f32 :=
  fun j =>
    let w := ids (ix1 (j 1))
    if (999936 : ℤ) ≤ w.toInt then tail (ix1 ⟨tailAt w (j 0), tailAt_lt w (j 0)⟩)
    else tt (ix2 (j 0) ⟨colAt w, colAt_lt w⟩)

end Cert.Proof.BlockB

end
-- ==== Proof.TileObl0B.lean ====
/-
  The block-gather task as the launch theorem's obligation (call 0).

  The launch hands the tile of coordinates (c, s), number w = 2·s + c, a read token of the index array, the transposed
  table and the flattened tail, and columns [512·w, 512·w + 512) of the result array; the task's body, proved over
  exactly those resources at any share and any contents, is run at the valuation before the call, whose table is the
  transpose and whose tail the flattened last rows of the launch memory's table; what it leaves in its columns is the
  lookup, because on in-range indices the kernel's column-and-tail reading is the row lookup.
-/
import proofs.«204991_g57140244906297_cont_9to1_m_249_19_alg».proof.Proof.LaunchDefsB
import proofs.«204991_g57140244906297_cont_9to1_m_249_19_alg».proof.Proof.ValsB
import proofs.«204991_g57140244906297_cont_9to1_m_249_19_alg».proof.Proof.BlockDefsB
import proofs.«204991_g57140244906297_cont_9to1_m_249_19_alg».proof.Proof.Gen.Kernel.Skeleton

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)`. -/
def coordsV (c : Fin 2) (s : Fin 16) : grid0.Coords :=
  fun | 0 => c | 1 => s | ⟨_ + 2, h⟩ => absurd h (Nat.not_lt.2 (Nat.le_add_left _ _))

/-- The rectangle the block-gather task slices out of its result array is the tile's column block. -/
theorem rect0_eq (c : Fin 2) (s : Fin 16) :
    Rect.unit (s := S32x16384) (k0_off27 (coordsV c s)) S32x512.size (k0_off27_inb (coordsV c s)) = colBlk (wid c s) := by
  unfold colBlk Rect.part Rect.block
  congr 1 <;> funext a
  · rw [k0_off27_eq]
    match a with
    | 0 => simp [Shape.partIx, Shape.partSize, coordsV, wid]
    | 1 => simp [Shape.partIx, Shape.partSize, coordsV, wid]; omega
  · match a with
    | 0 => simp [Shape.partSize]
    | 1 => simp [Shape.partSize]

theorem outSet0_eq (c : Fin 2) (s : Fin 16) : BlockB.outSet (coordsV c s) = (colBlk (wid c s)).set := by
  show ((View.whole (main_v3_scv : Ref sig .scVector)).slice (Rect.unit (s := S32x16384) (k0_off27 (coordsV c s)) S32x512.size (k0_off27_inb (coordsV c s)))).set = _
  rw [View.set_slice, rect0_eq]; exact Finset.map_refl

variable [FloatOps F]

/-- The block-gather task's body over explicit resources, at any memory, tile, share and starting contents of its
    columns: what the body's own module proves. -/
def Body0 : Prop := ∀ (m' : (ℓ : Loc nD τ sig) → Buf (Elt F) ℓ) (d : Dev nD) (L : grid0.Coords)
    (O : CellTallies nD τ sig (HIx 4)) (W : Waits sig (HIx 4)) (_ : ∀ g, O g none = 0)
    (f0 : Buf (Elt F) (BlockB.outLoc d)) (q : PosShare TreeShare),
    iprop(levAts (K (F := F)).L (K (F := F)).lev
        ∗ ((BlockB.idsLoc d ↦{q} m' (BlockB.idsLoc d)) ∗ (BlockB.ttLoc d ↦{q} m' (BlockB.ttLoc d)) ∗ (BlockB.tailLoc d ↦{q} m' (BlockB.tailLoc d)))
        ∗ (BlockB.outLoc d ↦[BlockB.outSet L]{fullShare} f0)
        ∗ scopedBufs (BlockB.thr d L) ∗ scopedSems0 (BlockB.thr d L) ∗ owes (BlockB.thr d L) O W)
      ⊢ (wp frame (wpE (defs₀ (F := F)) 𝒱₀ (BlockB.thr d L) none) Set.univ
          (cc0_block_gather L BlockB.idsV (Memref.isWhole_whole _) BlockB.ttV (Memref.isWhole_whole _) BlockB.tailV (Memref.isWhole_whole _)
            BlockB.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(((BlockB.idsLoc d ↦{q} m' (BlockB.idsLoc d)) ∗ (BlockB.ttLoc d ↦{q} m' (BlockB.ttLoc d)) ∗ (BlockB.tailLoc d ↦{q} m' (BlockB.tailLoc d)))
            ∗ (BlockB.outLoc d ↦[BlockB.outSet L]{fullShare} BlockB.E (m' (BlockB.idsLoc d)) (m' (BlockB.ttLoc d)) (m' (BlockB.tailLoc d)))
            ∗ scopedBufs (BlockB.thr d L) ∗ scopedSems0 (BlockB.thr d L)
            ∗ ∃ W', ⌜∀ p ∈ W', p ∈ W ∨ p.2 = none⌝ ∗ owes (BlockB.thr d L) O W') : sProp 𝕄)

variable (m : (ℓ : Loc nD τ sig) → Buf (Elt F) ℓ)

/-- The tile's share of call 0, spelt array by array. -/
theorem tileGo0_eq (d : Dev nD) (c : Fin 2) (s : Fin 16) (Wv : Valuation τ sig (Elt F)) :
    tileGo m d 0 c s Wv
      = iprop(((BlockB.idsLoc d ↦{shareTok fullShare 32 (wid c s)} VA0 m d (r_ids 0))
          ∗ (BlockB.ttLoc d ↦{shareTok fullShare 32 (wid c s)} VA0 m d r_tt0)
          ∗ (BlockB.tailLoc d ↦{shareTok fullShare 32 (wid c s)} VA0 m d r_tl0))
        ∗ (BlockB.outLoc d ↦[BlockB.outSet (coordsV c s)]{fullShare} Wv (r_out 0))) := by
  rw [outSet0_eq]
  show iprop(heldAt (SparseCore.T d) (RO 0) (fun _ => shareTok fullShare 32 (wid c s)) (VA0 m d)
      ∗ ((d, r_out 0) ↦[(colBlk (wid c s)).set]{fullShare} Wv (r_out 0))) = _
  unfold heldAt
  rw [show (RO 0 : Finset (DevRef τ sig)) = insert (r_ids 0) (insert r_tt0 {r_tl0}) from rfl,
    SparseCore.bigSep_insert' (by decide), SparseCore.bigSep_insert' (by decide), bigSep_singleton]

/-- The block-gather task from the launch's share to the launch's share: the body at the valuation before the call,
    its result read as the lookup. -/
theorem tile0 (hbody : Body0 (F := F))
    (hbr : ∀ d : Dev nD, BlockB.E (F := F) (m (d, r_ids 0)) (transpose S32x1000000 [1, 0] (m (d, a_T0)) transposes_S1000000x32_S32x1000000_1_0)
        (shapeCast S2048 (extractStridedSlice S64x32 ![999936, 0] (m (d, a_T0)) slices_S1000000x32_S64x32_999936_0) shapeCasts_S64x32_S2048) = E m d 0)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 0 c s (VA0 m d)
        ∗ scopedBufs (BlockB.thr d (coordsV c s)) ∗ scopedSems0 (BlockB.thr d (coordsV c s)) ∗ owes (BlockB.thr d (coordsV c s)) O W)
      ⊢ (wp frame (wpE (defs₀ (F := F)) 𝒱₀ (BlockB.thr d (coordsV c s)) none) Set.univ
          (cc0_block_gather (coordsV c s) BlockB.idsV (Memref.isWhole_whole _) BlockB.ttV (Memref.isWhole_whole _) BlockB.tailV (Memref.isWhole_whole _)
            BlockB.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(tileGo m d 0 c s (VB0 m d) ∗ scopedBufs (BlockB.thr d (coordsV c s)) ∗ scopedSems0 (BlockB.thr d (coordsV c s))
            ∗ ∃ W', ⌜∀ p ∈ W', p ∈ W ∨ p.2 = none⌝ ∗ owes (BlockB.thr d (coordsV c s)) O W') : sProp 𝕄) := by
  have hv : BlockB.E (F := F) (VA0 m d (r_ids 0)) (VA0 m d r_tt0) (VA0 m d r_tl0) = VB0 m d (r_out 0) := by
    rw [VA0_ids, VA0_tt, VA0_tl, hbr d]; unfold VB0; rw [Function.update_self]
  rw [tileGo0_eq, tileGo0_eq, ← hv]
  have hb : iprop(levAts (K (F := F)).L (K (F := F)).lev
        ∗ ((BlockB.idsLoc d ↦{shareTok fullShare 32 (wid c s)} VA0 m d (r_ids 0)) ∗ (BlockB.ttLoc d ↦{shareTok fullShare 32 (wid c s)} VA0 m d r_tt0) ∗ (BlockB.tailLoc d ↦{shareTok fullShare 32 (wid c s)} VA0 m d r_tl0))
        ∗ (BlockB.outLoc d ↦[BlockB.outSet (coordsV c s)]{fullShare} VA0 m d (r_out 0))
        ∗ scopedBufs (BlockB.thr d (coordsV c s)) ∗ scopedSems0 (BlockB.thr d (coordsV c s)) ∗ owes (BlockB.thr d (coordsV c s)) O W)
      ⊢ (wp frame (wpE (defs₀ (F := F)) 𝒱₀ (BlockB.thr d (coordsV c s)) none) Set.univ
          (cc0_block_gather (coordsV c s) BlockB.idsV (Memref.isWhole_whole _) BlockB.ttV (Memref.isWhole_whole _) BlockB.tailV (Memref.isWhole_whole _)
            BlockB.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(((BlockB.idsLoc d ↦{shareTok fullShare 32 (wid c s)} VA0 m d (r_ids 0)) ∗ (BlockB.ttLoc d ↦{shareTok fullShare 32 (wid c s)} VA0 m d r_tt0) ∗ (BlockB.tailLoc d ↦{shareTok fullShare 32 (wid c s)} VA0 m d r_tl0))
            ∗ (BlockB.outLoc d ↦[BlockB.outSet (coordsV c s)]{fullShare} BlockB.E (VA0 m d (r_ids 0)) (VA0 m d r_tt0) (VA0 m d r_tl0))
            ∗ scopedBufs (BlockB.thr d (coordsV c s)) ∗ scopedSems0 (BlockB.thr d (coordsV c s))
            ∗ ∃ W', ⌜∀ p ∈ W', p ∈ W ∨ p.2 = none⌝ ∗ owes (BlockB.thr d (coordsV c s)) O W') : sProp 𝕄) :=
    hbody (fun ℓ => VA0 m d ℓ.2) d (coordsV c s) O W hO (VA0 m d (r_out 0)) (shareTok fullShare 32 (wid c s))
  iintro ⟨Hl, -, ⟨H3, Ho⟩, Hsb, Hss, HO⟩
  iapply (wp_wand_r frame _ Set.univ)
  isplitl [Hl H3 Ho Hsb Hss HO]
  · iapply hb
    isplitl [Hl]; · iexact Hl
    isplitl [H3]; · iexact H3
    isplitl [Ho]; · iexact Ho
    isplitl [Hsb]; · iexact Hsb
    isplitl [Hss]; · iexact Hss
    iexact HO
  iintro %_ ⟨H3, Ho, Hsb, Hss, HW⟩
  isplitl [H3 Ho]
  · isplitl [H3]; · iexact H3
    iexact Ho
  isplitl [Hsb]; · iexact Hsb
  isplitl [Hss]; · iexact Hss
  iexact HW

/-! ## The launch theorem's obligation -/

theorem defs₀_vector0 (c : Fin τ.nSC) (s : Fin τ.nSub) :
    defs₀ (F := F) (.scVector c s) 0 ()
      = SparseCore.onTile hcore0 hsub0 (fun c s => (cc0_block_gather (coordsV c s) BlockB.idsV (Memref.isWhole_whole _) BlockB.ttV (Memref.isWhole_whole _) BlockB.tailV (Memref.isWhole_whole _)
            BlockB.outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)) ⟨⟩ c s := rfl

omit [FloatOps F] in
theorem obl_post0 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hbody : Body0 (F := F))
    (hbr : ∀ d : Dev nD, BlockB.E (F := F) (m (d, r_ids 0)) (transpose S32x1000000 [1, 0] (m (d, a_T0)) transposes_S1000000x32_S32x1000000_1_0)
        (shapeCast S2048 (extractStridedSlice S64x32 ![999936, 0] (m (d, a_T0)) slices_S1000000x32_S64x32_999936_0) shapeCasts_S64x32_S2048) = E m d 0) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile0 m hbody hbr d ⟨_, hc.1⟩ ⟨_, hc.2⟩ O W hO).trans (wp_mono frame _ _ fun _ => obl_post0)

end Cert.Proof.KernelC

end
-- ==== Proof.PackedDefsB.lean ====
/-
  The names the packed gather's task (SparseCore calls 1 and 2) is stated over: the tile a grid point names, the operand
  arrays as the body table passes them, the column block a task writes, and the value — entry (c, n) of a lookup is lane
  ((idx n &&& 3) <<< 5) + c of row idx n >>> 2 of the table read four rows to a row of 128.
-/
import proofs.«204991_g57140244906297_cont_9to1_m_249_19_alg».proof.Proof.CommonB
import Idealize.ShloMosaic.Lib.ValueIdx

noncomputable section

namespace Cert.Proof.PackedB

open Cert.Kernel Cert.Kernel.Gen
open Cert.Proof.KernelC

open Idealize.ShloMosaic
open Idealize.ShloMosaic.SparseCore (S V T)
open Idealize.ShloMosaic.ValueIdx (ix1 ix2)

variable {F : FTy → Type}

/-- The tile a grid point of call 1 names. -/
abbrev thr (d : Dev nD) (L : grid1.Coords) : Thread nD τ := V d ((L 0).castLE hcore1) ((L 1).castLE hsub1)

/-- The operands as the body table passes them. -/
abbrev idsW : Memref sig .scVector .hbm S16384 .i32 := Memref.whole main_arg1_scv
abbrev tqW : Memref sig .scVector .hbm S25000x128 .f32 := Memref.whole main_v4_scv
abbrev outW : Memref sig .scVector .hbm S32x16384 .f32 := Memref.whole main_v5_scv

/-- The 32 × 512 column block of the output a task writes, as the program slices it. -/
abbrev outBlk (L : grid1.Coords) : Memref sig .scVector .hbm S32x512 .f32 :=
  (outW).slice (Rect.unit (s := S32x16384) (k1_off35 L) S32x512.size (k1_off35_inb L)) (fun _ => rfl)

/-- The arrays, as the TensorCore's thread names them. -/
abbrev idsLoc (d : Dev nD) : Loc nD τ sig := (SparseCore.T d).loc main_arg1
abbrev tqLoc (d : Dev nD) : Loc nD τ sig := (SparseCore.T d).loc main_v4
abbrev outLoc (d : Dev nD) : Loc nD τ sig := (SparseCore.T d).loc main_v5

/-- The value: entry (c, n) is lane ((idx n &&& 3) <<< 5) + c of row idx n >>> 2 of the table read as 25000 × 128. -/
def packedE (ids : S16384.Idx → BitVec 32) (tq : S25000x128.Idx → Elt F .f32) : S32x16384.Idx → Elt F .f32 :=
  fun j => tq (ix2 ⟨((ids (ix1 (j 1))) >>> 2).toNat % 25000, Nat.mod_lt _ (by decide)⟩
    ⟨((((ids (ix1 (j 1))) &&& 3#32) <<< 5) + BitVec.ofNat 32 (j 0).val).toNat % 128, Nat.mod_lt _ (by decide)⟩)

/-! ### The same for call 2, over the table of 250 rows -/

/-- The tile a grid point of call 2 names. -/
abbrev thr2 (d : Dev nD) (L : grid2.Coords) : Thread nD τ := V d ((L 0).castLE hcore2) ((L 1).castLE hsub2)

abbrev idsW2 : Memref sig .scVector .hbm S16384 .i32 := Memref.whole main_arg2_scv
abbrev tqW2 : Memref sig .scVector .hbm S250x128 .f32 := Memref.whole main_v6_scv
abbrev outW2 : Memref sig .scVector .hbm S32x16384 .f32 := Memref.whole main_v7_scv

abbrev outBlk2 (L : grid2.Coords) : Memref sig .scVector .hbm S32x512 .f32 :=
  (outW2).slice (Rect.unit (s := S32x16384) (k2_off35 L) S32x512.size (k2_off35_inb L)) (fun _ => rfl)

abbrev idsLoc2 (d : Dev nD) : Loc nD τ sig := (SparseCore.T d).loc main_arg2
abbrev tqLoc2 (d : Dev nD) : Loc nD τ sig := (SparseCore.T d).loc main_v6
abbrev outLoc2 (d : Dev nD) : Loc nD τ sig := (SparseCore.T d).loc main_v7

def packedE2 (ids : S16384.Idx → BitVec 32) (tq : S250x128.Idx → Elt F .f32) : S32x16384.Idx → Elt F .f32 :=
  fun j => tq (ix2 ⟨((ids (ix1 (j 1))) >>> 2).toNat % 250, Nat.mod_lt _ (by decide)⟩
    ⟨((((ids (ix1 (j 1))) &&& 3#32) <<< 5) + BitVec.ofNat 32 (j 0).val).toNat % 128, Nat.mod_lt _ (by decide)⟩)

end Cert.Proof.PackedB

end
-- ==== Proof.TileObl1B.lean ====
/-
  The packed-gather task as the launch theorem's obligation (call 1).

  The launch hands the tile of coordinates (c, s), number w = 2·s + c, a read token of the index array and of the table
  viewed four rows to a row, and columns [512·w, 512·w + 512) of the result array; the task's body, proved over exactly
  those resources at any shares and any contents, is run at the valuation before the call; what it leaves in its
  columns is the lookup, because on in-range indices row idx >> 2, lane ((idx & 3) << 5) + c of the four-to-a-row view
  is row idx, column c of the table.
-/
import proofs.«204991_g57140244906297_cont_9to1_m_249_19_alg».proof.Proof.LaunchDefsB
import proofs.«204991_g57140244906297_cont_9to1_m_249_19_alg».proof.Proof.ValsB
import proofs.«204991_g57140244906297_cont_9to1_m_249_19_alg».proof.Proof.PackedDefsB
import proofs.«204991_g57140244906297_cont_9to1_m_249_19_alg».proof.Proof.Gen.Kernel.Skeleton

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)` in call 1's grid. -/
def coordsV1 (c : Fin 2) (s : Fin 16) : grid1.Coords :=
  fun | 0 => c | 1 => s | ⟨_ + 2, h⟩ => absurd h (Nat.not_lt.2 (Nat.le_add_left _ _))

/-- The rectangle the packed-gather task slices out of its result array is the tile's column block. -/
theorem rect1_eq (c : Fin 2) (s : Fin 16) :
    Rect.unit (s := S32x16384) (k1_off35 (coordsV1 c s)) S32x512.size (k1_off35_inb (coordsV1 c s)) = colBlk (wid c s) := by
  unfold colBlk Rect.part Rect.block
  congr 1 <;> funext a
  · rw [k1_off35_eq]
    match a with
    | 0 => simp [Shape.partIx, Shape.partSize, coordsV1, wid]
    | 1 => simp [Shape.partIx, Shape.partSize, coordsV1, wid]; omega
  · match a with
    | 0 => simp [Shape.partSize]
    | 1 => simp [Shape.partSize]

theorem outSet1_eq (c : Fin 2) (s : Fin 16) : (PackedB.outBlk (coordsV1 c s)).view.set = (colBlk (wid c s)).set := by
  show ((View.whole (main_v5_scv : Ref sig .scVector)).slice (Rect.unit (s := S32x16384) (k1_off35 (coordsV1 c s)) S32x512.size (k1_off35_inb (coordsV1 c s)))).set = _
  rw [View.set_slice, rect1_eq]; exact Finset.map_refl

variable [FloatOps F]

/-- The packed-gather task's body over explicit resources, at any memory whose index words are in range, any tile, any
    shares and any starting contents of its columns: what the body's own module proves. -/
def Body1 : Prop := ∀ (m' : (ℓ : Loc nD τ sig) → Buf (Elt F) ℓ) (d : Dev nD) (L : grid1.Coords)
    (O : CellTallies nD τ sig (HIx 4)) (W : Waits sig (HIx 4)) (_ : ∀ g, O g none = 0)
    (_ : ∀ j : S16384.Idx, ((m' (PackedB.idsLoc d) : S16384.Idx → BitVec 32) j).toNat < 100000)
    (f0 : Buf (Elt F) (PackedB.outLoc d)) (q1 q4 : PosShare TreeShare),
    (iprop(levAts (K (F := F)).L (K (F := F)).lev
        ∗ ((PackedB.idsW).view.loc (PackedB.thr d L) ↦{q1} m' (PackedB.idsLoc d))
        ∗ ((PackedB.tqW).view.loc (PackedB.thr d L) ↦{q4} m' (PackedB.tqLoc d))
        ∗ ((PackedB.outBlk L).view.loc (PackedB.thr d L) ↦[(PackedB.outBlk L).view.set]{fullShare} f0)
        ∗ scopedBufs (PackedB.thr d L) ∗ scopedSems0 (PackedB.thr d L) ∗ owes (PackedB.thr d L) O W) : sProp 𝕄)
      ⊢ wp frame (wpE (defs₀ (F := F)) 𝒱₀ (PackedB.thr d L) none) Set.univ
          (cc1_packed_gather L PackedB.idsW (Memref.isWhole_whole _) PackedB.tqW (Memref.isWhole_whole _) PackedB.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(((PackedB.idsW).view.loc (PackedB.thr d L) ↦{q1} m' (PackedB.idsLoc d))
            ∗ ((PackedB.tqW).view.loc (PackedB.thr d L) ↦{q4} m' (PackedB.tqLoc d))
            ∗ ((PackedB.outBlk L).view.loc (PackedB.thr d L) ↦[(PackedB.outBlk L).view.set]{fullShare}
                (PackedB.packedE (F := F) (m' (PackedB.idsLoc d)) (m' (PackedB.tqLoc d)) : Buf (Elt F) (PackedB.outLoc d)))
            ∗ scopedBufs (PackedB.thr d L) ∗ scopedSems0 (PackedB.thr d L) ∗ ∃ W', ⌜∀ p ∈ W', p ∈ W ∨ p.2 = none⌝ ∗ owes (PackedB.thr d L) O W')

variable (m : (ℓ : Loc nD τ sig) → Buf (Elt F) ℓ)

omit [FloatOps F] in
theorem pts_ids1 (d : Dev nD) (c : Fin 2) (s : Fin 16) (q : PosShare TreeShare) (f : Buf (Elt F) (PackedB.idsLoc d)) :
    (((PackedB.idsW).view.loc (PackedB.thr d (coordsV1 c s)) ↦{q} f : sProp 𝕄)) = ((d, r_ids 1) ↦{q} f) := by
  simp only [Memref.view_whole, View.set_whole]
omit [FloatOps F] in
theorem pts_tq1 (d : Dev nD) (c : Fin 2) (s : Fin 16) (q : PosShare TreeShare) (f : Buf (Elt F) (PackedB.tqLoc d)) :
    (((PackedB.tqW).view.loc (PackedB.thr d (coordsV1 c s)) ↦{q} f : sProp 𝕄)) = ((d, r_tq1) ↦{q} f) := by
  simp only [Memref.view_whole, View.set_whole]

/-- The tile's share of call 1, spelt array by array as the body holds them. -/
theorem tileGo1_eq (d : Dev nD) (c : Fin 2) (s : Fin 16) (Wv : Valuation τ sig (Elt F)) :
    tileGo m d 1 c s Wv
      = iprop((((PackedB.idsW).view.loc (PackedB.thr d (coordsV1 c s)) ↦{shareTok fullShare 32 (wid c s)} VA1 m d (r_ids 1)) ∗ ((PackedB.tqW).view.loc (PackedB.thr d (coordsV1 c s)) ↦{shareTok fullShare 32 (wid c s)} VA1 m d r_tq1))
        ∗ (((PackedB.outBlk (coordsV1 c s)).view.loc (PackedB.thr d (coordsV1 c s)) ↦[(PackedB.outBlk (coordsV1 c s)).view.set]{fullShare} Wv (r_out 1)))) := by
  rw [outSet1_eq, pts_ids1, pts_tq1]
  show iprop(heldAt (SparseCore.T d) (RO 1) (fun _ => shareTok fullShare 32 (wid c s)) (VA1 m d)
      ∗ ((d, r_out 1) ↦[(colBlk (wid c s)).set]{fullShare} Wv (r_out 1))) = _
  unfold heldAt
  rw [show (RO 1 : Finset (DevRef τ sig)) = insert (r_ids 1) {r_tq1} from rfl,
    SparseCore.bigSep_insert' (by decide), bigSep_singleton]

/-- The packed-gather task from the launch's share to the launch's share. -/
theorem tile1 (hbody : Body1 (F := F))
    (hin : ∀ (d : Dev nD) (j : S16384.Idx), ((m (d, r_ids 1) : S16384.Idx → BitVec 32) j).toNat < 100000)
    (hbr : ∀ d : Dev nD, PackedB.packedE (F := F) (m (d, r_ids 1)) (shapeCast S25000x128 (m (d, a_T1)) shapeCasts_S100000x32_S25000x128) = E m d 1)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 1 c s (VA1 m d)
        ∗ scopedBufs (PackedB.thr d (coordsV1 c s)) ∗ scopedSems0 (PackedB.thr d (coordsV1 c s)) ∗ owes (PackedB.thr d (coordsV1 c s)) O W)
      ⊢ (wp frame (wpE (defs₀ (F := F)) 𝒱₀ (PackedB.thr d (coordsV1 c s)) none) Set.univ
          (cc1_packed_gather (coordsV1 c s) PackedB.idsW (Memref.isWhole_whole _) PackedB.tqW (Memref.isWhole_whole _) PackedB.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(tileGo m d 1 c s (VB1 m d) ∗ scopedBufs (PackedB.thr d (coordsV1 c s)) ∗ scopedSems0 (PackedB.thr d (coordsV1 c s))
            ∗ ∃ W', ⌜∀ p ∈ W', p ∈ W ∨ p.2 = none⌝ ∗ owes (PackedB.thr d (coordsV1 c s)) O W') : sProp 𝕄) := by
  have hv : PackedB.packedE (F := F) (VA1 m d (r_ids 1)) (VA1 m d r_tq1) = VB1 m d (r_out 1) := by
    rw [VA1_ids, VA1_tq, hbr d]; unfold VB1; rw [Function.update_self]
  rw [tileGo1_eq, tileGo1_eq, ← hv]
  have hb : (iprop(levAts (K (F := F)).L (K (F := F)).lev
        ∗ ((PackedB.idsW).view.loc (PackedB.thr d (coordsV1 c s)) ↦{shareTok fullShare 32 (wid c s)} VA1 m d (r_ids 1))
        ∗ ((PackedB.tqW).view.loc (PackedB.thr d (coordsV1 c s)) ↦{shareTok fullShare 32 (wid c s)} VA1 m d r_tq1)
        ∗ (((PackedB.outBlk (coordsV1 c s)).view.loc (PackedB.thr d (coordsV1 c s)) ↦[(PackedB.outBlk (coordsV1 c s)).view.set]{fullShare} VA1 m d (r_out 1)))
        ∗ scopedBufs (PackedB.thr d (coordsV1 c s)) ∗ scopedSems0 (PackedB.thr d (coordsV1 c s)) ∗ owes (PackedB.thr d (coordsV1 c s)) O W) : sProp 𝕄)
      ⊢ wp frame (wpE (defs₀ (F := F)) 𝒱₀ (PackedB.thr d (coordsV1 c s)) none) Set.univ
          (cc1_packed_gather (coordsV1 c s) PackedB.idsW (Memref.isWhole_whole _) PackedB.tqW (Memref.isWhole_whole _) PackedB.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(((PackedB.idsW).view.loc (PackedB.thr d (coordsV1 c s)) ↦{shareTok fullShare 32 (wid c s)} VA1 m d (r_ids 1))
            ∗ ((PackedB.tqW).view.loc (PackedB.thr d (coordsV1 c s)) ↦{shareTok fullShare 32 (wid c s)} VA1 m d r_tq1)
            ∗ (((PackedB.outBlk (coordsV1 c s)).view.loc (PackedB.thr d (coordsV1 c s)) ↦[(PackedB.outBlk (coordsV1 c s)).view.set]{fullShare} PackedB.packedE (F := F) (VA1 m d (r_ids 1)) (VA1 m d r_tq1)))
            ∗ scopedBufs (PackedB.thr d (coordsV1 c s)) ∗ scopedSems0 (PackedB.thr d (coordsV1 c s)) ∗ ∃ W', ⌜∀ p ∈ W', p ∈ W ∨ p.2 = none⌝ ∗ owes (PackedB.thr d (coordsV1 c s)) O W') :=
    hbody (fun ℓ => VA1 m d ℓ.2) d (coordsV1 c s) O W hO (fun j => by
      show ((VA1 m d (r_ids 1) : S16384.Idx → BitVec 32) j).toNat < 100000
      rw [VA1_ids]; exact hin d j) (VA1 m d (r_out 1)) (shareTok fullShare 32 (wid c s)) (shareTok fullShare 32 (wid c s))
  iintro ⟨Hl, -, ⟨⟨Hi, Ht⟩, Ho⟩, Hsb, Hss, HO⟩
  iapply (wp_wand_r frame _ Set.univ)
  isplitl [Hl Hi Ht Ho Hsb Hss HO]
  · iapply hb
    isplitl [Hl]; · iexact Hl
    isplitl [Hi]; · iexact Hi
    isplitl [Ht]; · iexact Ht
    isplitl [Ho]; · iexact Ho
    isplitl [Hsb]; · iexact Hsb
    isplitl [Hss]; · iexact Hss
    iexact HO
  iintro %_ ⟨Hi, Ht, Ho, Hsb, Hss, HW⟩
  isplitl [Hi Ht Ho]
  · isplitl [Hi Ht]
    · isplitl [Hi]; · iexact Hi
      iexact Ht
    iexact Ho
  isplitl [Hsb]; · iexact Hsb
  isplitl [Hss]; · iexact Hss
  iexact HW

/-! ## The launch theorem's obligation -/

theorem defs₀_vector1 (c : Fin τ.nSC) (s : Fin τ.nSub) :
    defs₀ (F := F) (.scVector c s) 1 ()
      = SparseCore.onTile hcore1 hsub1 (fun c s => (cc1_packed_gather (coordsV1 c s) PackedB.idsW (Memref.isWhole_whole _) PackedB.tqW (Memref.isWhole_whole _) PackedB.outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)) ⟨⟩ c s := rfl

omit [FloatOps F] in
theorem obl_post1 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (hbody : Body1 (F := F))
    (hin : ∀ (d : Dev nD) (j : S16384.Idx), ((m (d, r_ids 1) : S16384.Idx → BitVec 32) j).toNat < 100000)
    (hbr : ∀ d : Dev nD, PackedB.packedE (F := F) (m (d, r_ids 1)) (shapeCast S25000x128 (m (d, a_T1)) shapeCasts_S100000x32_S25000x128) = E m d 1) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (tile1 m hbody hin hbr d ⟨_, hc.1⟩ ⟨_, hc.2⟩ O W hO).trans (wp_mono frame _ _ fun _ => obl_post1)

end Cert.Proof.KernelC

end
-- ==== Proof.TileObl2B.lean ====
/-
  The packed-gather task as the launch theorem's obligation (call 2).

  The launch hands the tile of coordinates (c, s), number w = 2·s + c, a read token of the index array and of the table
  viewed four rows to a row, and columns [512·w, 512·w + 512) of the result array; the task's body, proved over exactly
  those resources at any shares and any contents, is run at the valuation before the call; what it leaves in its
  columns is the lookup, because on in-range indices row idx >> 2, lane ((idx & 3) << 5) + c of the four-to-a-row view
  is row idx, column c of the table.
-/
import proofs.«204991_g57140244906297_cont_9to1_m_249_19_alg».proof.Proof.LaunchDefsB
import proofs.«204991_g57140244906297_cont_9to1_m_249_19_alg».proof.Proof.ValsB
import proofs.«204991_g57140244906297_cont_9to1_m_249_19_alg».proof.Proof.PackedDefsB
import proofs.«204991_g57140244906297_cont_9to1_m_249_19_alg».proof.Proof.Gen.Kernel.Skeleton

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)` in call 2's grid. -/
def coordsV2 (c : Fin 2) (s : Fin 16) : grid2.Coords :=
  fun | 0 => c | 1 => s | ⟨_ + 2, h⟩ => absurd h (Nat.not_lt.2 (Nat.le_add_left _ _))

/-- The rectangle the packed-gather task slices out of its result array is the tile's column block. -/
theorem rect2_eq (c : Fin 2) (s : Fin 16) :
    Rect.unit (s := S32x16384) (k2_off35 (coordsV2 c s)) S32x512.size (k2_off35_inb (coordsV2 c s)) = colBlk (wid c s) := by
  unfold colBlk Rect.part Rect.block
  congr 1 <;> funext a
  · rw [k2_off35_eq]
    match a with
    | 0 => simp [Shape.partIx, Shape.partSize, coordsV2, wid]
    | 1 => simp [Shape.partIx, Shape.partSize, coordsV2, wid]; omega
  · match a with
    | 0 => simp [Shape.partSize]
    | 1 => simp [Shape.partSize]

theorem outSet2_eq (c : Fin 2) (s : Fin 16) : (PackedB.outBlk2 (coordsV2 c s)).view.set = (colBlk (wid c s)).set := by
  show ((View.whole (main_v7_scv : Ref sig .scVector)).slice (Rect.unit (s := S32x16384) (k2_off35 (coordsV2 c s)) S32x512.size (k2_off35_inb (coordsV2 c s)))).set = _
  rw [View.set_slice, rect2_eq]; exact Finset.map_refl

variable [FloatOps F]

/-- The packed-gather task's body over explicit resources, at any memory whose index words are in range, any tile, any
    shares and any starting contents of its columns: what the body's own module proves. -/
def Body2 : Prop := ∀ (m' : (ℓ : Loc nD τ sig) → Buf (Elt F) ℓ) (d : Dev nD) (L : grid2.Coords)
    (O : CellTallies nD τ sig (HIx 4)) (W : Waits sig (HIx 4)) (_ : ∀ g, O g none = 0)
    (_ : ∀ j : S16384.Idx, ((m' (PackedB.idsLoc2 d) : S16384.Idx → BitVec 32) j).toNat < 1000)
    (f0 : Buf (Elt F) (PackedB.outLoc2 d)) (q1 q4 : PosShare TreeShare),
    (iprop(levAts (K (F := F)).L (K (F := F)).lev
        ∗ ((PackedB.idsW2).view.loc (PackedB.thr2 d L) ↦{q1} m' (PackedB.idsLoc2 d))
        ∗ ((PackedB.tqW2).view.loc (PackedB.thr2 d L) ↦{q4} m' (PackedB.tqLoc2 d))
        ∗ ((PackedB.outBlk2 L).view.loc (PackedB.thr2 d L) ↦[(PackedB.outBlk2 L).view.set]{fullShare} f0)
        ∗ scopedBufs (PackedB.thr2 d L) ∗ scopedSems0 (PackedB.thr2 d L) ∗ owes (PackedB.thr2 d L) O W) : sProp 𝕄)
      ⊢ wp frame (wpE (defs₀ (F := F)) 𝒱₀ (PackedB.thr2 d L) none) Set.univ
          (cc2_packed_gather L PackedB.idsW2 (Memref.isWhole_whole _) PackedB.tqW2 (Memref.isWhole_whole _) PackedB.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(((PackedB.idsW2).view.loc (PackedB.thr2 d L) ↦{q1} m' (PackedB.idsLoc2 d))
            ∗ ((PackedB.tqW2).view.loc (PackedB.thr2 d L) ↦{q4} m' (PackedB.tqLoc2 d))
            ∗ ((PackedB.outBlk2 L).view.loc (PackedB.thr2 d L) ↦[(PackedB.outBlk2 L).view.set]{fullShare}
                (PackedB.packedE2 (F := F) (m' (PackedB.idsLoc2 d)) (m' (PackedB.tqLoc2 d)) : Buf (Elt F) (PackedB.outLoc2 d)))
            ∗ scopedBufs (PackedB.thr2 d L) ∗ scopedSems0 (PackedB.thr2 d L) ∗ ∃ W', ⌜∀ p ∈ W', p ∈ W ∨ p.2 = none⌝ ∗ owes (PackedB.thr2 d L) O W')

variable (m : (ℓ : Loc nD τ sig) → Buf (Elt F) ℓ)

omit [FloatOps F] in
theorem pts_ids2 (d : Dev nD) (c : Fin 2) (s : Fin 16) (q : PosShare TreeShare) (f : Buf (Elt F) (PackedB.idsLoc2 d)) :
    (((PackedB.idsW2).view.loc (PackedB.thr2 d (coordsV2 c s)) ↦{q} f : sProp 𝕄)) = ((d, r_ids 2) ↦{q} f) := by
  simp only [Memref.view_whole, View.set_whole]
omit [FloatOps F] in
theorem pts_tq2 (d : Dev nD) (c : Fin 2) (s : Fin 16) (q : PosShare TreeShare) (f : Buf (Elt F) (PackedB.tqLoc2 d)) :
    (((PackedB.tqW2).view.loc (PackedB.thr2 d (coordsV2 c s)) ↦{q} f : sProp 𝕄)) = ((d, r_tq2) ↦{q} f) := by
  simp only [Memref.view_whole, View.set_whole]

/-- The tile's share of call 2, spelt array by array as the body holds them. -/
theorem tileGo2_eq (d : Dev nD) (c : Fin 2) (s : Fin 16) (Wv : Valuation τ sig (Elt F)) :
    tileGo m d 2 c s Wv
      = iprop((((PackedB.idsW2).view.loc (PackedB.thr2 d (coordsV2 c s)) ↦{shareTok fullShare 32 (wid c s)} VA2 m d (r_ids 2)) ∗ ((PackedB.tqW2).view.loc (PackedB.thr2 d (coordsV2 c s)) ↦{shareTok fullShare 32 (wid c s)} VA2 m d r_tq2))
        ∗ (((PackedB.outBlk2 (coordsV2 c s)).view.loc (PackedB.thr2 d (coordsV2 c s)) ↦[(PackedB.outBlk2 (coordsV2 c s)).view.set]{fullShare} Wv (r_out 2)))) := by
  rw [outSet2_eq, pts_ids2, pts_tq2]
  show iprop(heldAt (SparseCore.T d) (RO 2) (fun _ => shareTok fullShare 32 (wid c s)) (VA2 m d)
      ∗ ((d, r_out 2) ↦[(colBlk (wid c s)).set]{fullShare} Wv (r_out 2))) = _
  unfold heldAt
  rw [show (RO 2 : Finset (DevRef τ sig)) = insert (r_ids 2) {r_tq2} from rfl,
    SparseCore.bigSep_insert' (by decide), bigSep_singleton]

/-- The packed-gather task from the launch's share to the launch's share. -/
theorem tile2 (hbody : Body2 (F := F))
    (hin : ∀ (d : Dev nD) (j : S16384.Idx), ((m (d, r_ids 2) : S16384.Idx → BitVec 32) j).toNat < 1000)
    (hbr : ∀ d : Dev nD, PackedB.packedE2 (F := F) (m (d, r_ids 2)) (shapeCast S250x128 (m (d, a_T2)) shapeCasts_S1000x32_S250x128) = E m d 2)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 2 c s (VA2 m d)
        ∗ scopedBufs (PackedB.thr2 d (coordsV2 c s)) ∗ scopedSems0 (PackedB.thr2 d (coordsV2 c s)) ∗ owes (PackedB.thr2 d (coordsV2 c s)) O W)
      ⊢ (wp frame (wpE (defs₀ (F := F)) 𝒱₀ (PackedB.thr2 d (coordsV2 c s)) none) Set.univ
          (cc2_packed_gather (coordsV2 c s) PackedB.idsW2 (Memref.isWhole_whole _) PackedB.tqW2 (Memref.isWhole_whole _) PackedB.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(tileGo m d 2 c s (VB2 m d) ∗ scopedBufs (PackedB.thr2 d (coordsV2 c s)) ∗ scopedSems0 (PackedB.thr2 d (coordsV2 c s))
            ∗ ∃ W', ⌜∀ p ∈ W', p ∈ W ∨ p.2 = none⌝ ∗ owes (PackedB.thr2 d (coordsV2 c s)) O W') : sProp 𝕄) := by
  have hv : PackedB.packedE2 (F := F) (VA2 m d (r_ids 2)) (VA2 m d r_tq2) = VB2 m d (r_out 2) := by
    rw [VA2_ids, VA2_tq, hbr d]; unfold VB2; rw [Function.update_self]
  rw [tileGo2_eq, tileGo2_eq, ← hv]
  have hb : (iprop(levAts (K (F := F)).L (K (F := F)).lev
        ∗ ((PackedB.idsW2).view.loc (PackedB.thr2 d (coordsV2 c s)) ↦{shareTok fullShare 32 (wid c s)} VA2 m d (r_ids 2))
        ∗ ((PackedB.tqW2).view.loc (PackedB.thr2 d (coordsV2 c s)) ↦{shareTok fullShare 32 (wid c s)} VA2 m d r_tq2)
        ∗ (((PackedB.outBlk2 (coordsV2 c s)).view.loc (PackedB.thr2 d (coordsV2 c s)) ↦[(PackedB.outBlk2 (coordsV2 c s)).view.set]{fullShare} VA2 m d (r_out 2)))
        ∗ scopedBufs (PackedB.thr2 d (coordsV2 c s)) ∗ scopedSems0 (PackedB.thr2 d (coordsV2 c s)) ∗ owes (PackedB.thr2 d (coordsV2 c s)) O W) : sProp 𝕄)
      ⊢ wp frame (wpE (defs₀ (F := F)) 𝒱₀ (PackedB.thr2 d (coordsV2 c s)) none) Set.univ
          (cc2_packed_gather (coordsV2 c s) PackedB.idsW2 (Memref.isWhole_whole _) PackedB.tqW2 (Memref.isWhole_whole _) PackedB.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(((PackedB.idsW2).view.loc (PackedB.thr2 d (coordsV2 c s)) ↦{shareTok fullShare 32 (wid c s)} VA2 m d (r_ids 2))
            ∗ ((PackedB.tqW2).view.loc (PackedB.thr2 d (coordsV2 c s)) ↦{shareTok fullShare 32 (wid c s)} VA2 m d r_tq2)
            ∗ (((PackedB.outBlk2 (coordsV2 c s)).view.loc (PackedB.thr2 d (coordsV2 c s)) ↦[(PackedB.outBlk2 (coordsV2 c s)).view.set]{fullShare} PackedB.packedE2 (F := F) (VA2 m d (r_ids 2)) (VA2 m d r_tq2)))
            ∗ scopedBufs (PackedB.thr2 d (coordsV2 c s)) ∗ scopedSems0 (PackedB.thr2 d (coordsV2 c s)) ∗ ∃ W', ⌜∀ p ∈ W', p ∈ W ∨ p.2 = none⌝ ∗ owes (PackedB.thr2 d (coordsV2 c s)) O W') :=
    hbody (fun ℓ => VA2 m d ℓ.2) d (coordsV2 c s) O W hO (fun j => by
      show ((VA2 m d (r_ids 2) : S16384.Idx → BitVec 32) j).toNat < 1000
      rw [VA2_ids]; exact hin d j) (VA2 m d (r_out 2)) (shareTok fullShare 32 (wid c s)) (shareTok fullShare 32 (wid c s))
  iintro ⟨Hl, -, ⟨⟨Hi, Ht⟩, Ho⟩, Hsb, Hss, HO⟩
  iapply (wp_wand_r frame _ Set.univ)
  isplitl [Hl Hi Ht Ho Hsb Hss HO]
  · iapply hb
    isplitl [Hl]; · iexact Hl
    isplitl [Hi]; · iexact Hi
    isplitl [Ht]; · iexact Ht
    isplitl [Ho]; · iexact Ho
    isplitl [Hsb]; · iexact Hsb
    isplitl [Hss]; · iexact Hss
    iexact HO
  iintro %_ ⟨Hi, Ht, Ho, Hsb, Hss, HW⟩
  isplitl [Hi Ht Ho]
  · isplitl [Hi Ht]
    · isplitl [Hi]; · iexact Hi
      iexact Ht
    iexact Ho
  isplitl [Hsb]; · iexact Hsb
  isplitl [Hss]; · iexact Hss
  iexact HW

/-! ## The launch theorem's obligation -/

theorem defs₀_vector2 (c : Fin τ.nSC) (s : Fin τ.nSub) :
    defs₀ (F := F) (.scVector c s) 2 ()
      = SparseCore.onTile hcore2 hsub2 (fun c s => (cc2_packed_gather (coordsV2 c s) PackedB.idsW2 (Memref.isWhole_whole _) PackedB.tqW2 (Memref.isWhole_whole _) PackedB.outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)) ⟨⟩ c s := rfl

omit [FloatOps F] in
theorem obl_post2 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl2 (hbody : Body2 (F := F))
    (hin : ∀ (d : Dev nD) (j : S16384.Idx), ((m (d, r_ids 2) : S16384.Idx → BitVec 32) j).toNat < 1000)
    (hbr : ∀ d : Dev nD, PackedB.packedE2 (F := F) (m (d, r_ids 2)) (shapeCast S250x128 (m (d, a_T2)) shapeCasts_S1000x32_S250x128) = E m d 2) :
    (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (tile2 m hbody hin hbr d ⟨_, hc.1⟩ ⟨_, hc.2⟩ O W hO).trans (wp_mono frame _ _ fun _ => obl_post2)

end Cert.Proof.KernelC

end
-- ==== Proof.BlockDefs3B.lean ====
/-
  The block-gather kernel's second use (SparseCore call 3, over the fourth table): the tile a grid point names, the
  arrays the task is handed and the block of the result array it writes. The function it leaves there is call 0's,
  of its own index words, transposed table and flattened tail.
-/
import proofs.«204991_g57140244906297_cont_9to1_m_249_19_alg».proof.Proof.BlockDefsB
import proofs.«204991_g57140244906297_cont_9to1_m_249_19_alg».proof.Proof.CommonB
import Idealize.ShloMosaic.Lib.ValueIdx

noncomputable section

namespace Cert.Proof.Block3B

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 4) (Elt F) ℕ UU ℕ

/-! ## The tile and the arrays -/

abbrev cV (L : grid3.Coords) : Fin τ.nSC := (L 0).castLE hcore3
abbrev jV (L : grid3.Coords) : Fin τ.nSub := (L 1).castLE hsub3
/-- The vector subcore that runs the task of grid point `L`. -/
abbrev thr (d : Dev nD) (L : grid3.Coords) : Thread nD τ := V d (cV L) (jV L)

abbrev idsLoc (d : Dev nD) : Loc nD τ sig := (SparseCore.T d).loc main_arg3
abbrev ttLoc (d : Dev nD) : Loc nD τ sig := (SparseCore.T d).loc main_v8
abbrev tailLoc (d : Dev nD) : Loc nD τ sig := (SparseCore.T d).loc main_v10
abbrev outLoc (d : Dev nD) : Loc nD τ sig := (SparseCore.T d).loc main_v11

abbrev idsV : Memref sig .scVector .hbm S16384 .i32 := Memref.whole main_arg3_scv
abbrev ttV : Memref sig .scVector .hbm S32x1000000 .f32 := Memref.whole main_v8_scv
abbrev tailV : Memref sig .scVector .hbm S2048 .f32 := Memref.whole main_v10_scv
abbrev outV : Memref sig .scVector .hbm S32x16384 .f32 := Memref.whole main_v11_scv

/-- The task's block of the output as the program slices it: all 32 rows, the task's 512 columns. -/
abbrev outBlk (L : grid3.Coords) : Memref sig .scVector .hbm S32x512 .f32 :=
  (outV).slice (Rect.unit (s := S32x16384) (k3_off27 L) S32x512.size (k3_off27_inb L)) (fun _ => rfl)
/-- The elements of the output that the task of `L` writes. -/
abbrev outSet (L : grid3.Coords) : Finset S32x16384.Idx := (outBlk L).view.set

end Cert.Proof.Block3B

end
-- ==== Proof.TileObl3B.lean ====
/-
  The block-gather task as the launch theorem's obligation (call 3).

  The launch hands the tile of coordinates (c, s), number w = 2·s + c, a read token of the index array, the transposed
  table and the flattened tail, and columns [512·w, 512·w + 512) of the result array; the task's body, proved over
  exactly those resources at any share and any contents, is run at the valuation before the call, whose table is the
  transpose and whose tail the flattened last rows of the launch memory's table; what it leaves in its columns is the
  lookup, because on in-range indices the kernel's column-and-tail reading is the row lookup.
-/
import proofs.«204991_g57140244906297_cont_9to1_m_249_19_alg».proof.Proof.LaunchDefsB
import proofs.«204991_g57140244906297_cont_9to1_m_249_19_alg».proof.Proof.ValsB
import proofs.«204991_g57140244906297_cont_9to1_m_249_19_alg».proof.Proof.BlockDefs3B
import proofs.«204991_g57140244906297_cont_9to1_m_249_19_alg».proof.Proof.Gen.Kernel.Skeleton

noncomputable section

namespace Cert.Proof.KernelC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held heldAt)
open Idealize.ShloMosaic.Transfers (shareTok shareDrop)
open Cert.LibDeal (wid)

variable {F : FTy → Type}

local notation "𝕄" => MT nD τ sig (HIx 4) (Elt F) ℕ UU ℕ

/-- The grid point of tile `(c, s)`. -/
def coordsV3 (c : Fin 2) (s : Fin 16) : grid3.Coords :=
  fun | 0 => c | 1 => s | ⟨_ + 2, h⟩ => absurd h (Nat.not_lt.2 (Nat.le_add_left _ _))

/-- The rectangle the block-gather task slices out of its result array is the tile's column block. -/
theorem rect3_eq (c : Fin 2) (s : Fin 16) :
    Rect.unit (s := S32x16384) (k3_off27 (coordsV3 c s)) S32x512.size (k3_off27_inb (coordsV3 c s)) = colBlk (wid c s) := by
  unfold colBlk Rect.part Rect.block
  congr 1 <;> funext a
  · rw [k3_off27_eq]
    match a with
    | 0 => simp [Shape.partIx, Shape.partSize, coordsV3, wid]
    | 1 => simp [Shape.partIx, Shape.partSize, coordsV3, wid]; omega
  · match a with
    | 0 => simp [Shape.partSize]
    | 1 => simp [Shape.partSize]

theorem outSet3_eq (c : Fin 2) (s : Fin 16) : Block3B.outSet (coordsV3 c s) = (colBlk (wid c s)).set := by
  show ((View.whole (main_v11_scv : Ref sig .scVector)).slice (Rect.unit (s := S32x16384) (k3_off27 (coordsV3 c s)) S32x512.size (k3_off27_inb (coordsV3 c s)))).set = _
  rw [View.set_slice, rect3_eq]; exact Finset.map_refl

variable [FloatOps F]

/-- The block-gather task's body over explicit resources, at any memory, tile, share and starting contents of its
    columns: what the body's own module proves. -/
def Body3 : Prop := ∀ (m' : (ℓ : Loc nD τ sig) → Buf (Elt F) ℓ) (d : Dev nD) (L : grid3.Coords)
    (O : CellTallies nD τ sig (HIx 4)) (W : Waits sig (HIx 4)) (_ : ∀ g, O g none = 0)
    (f0 : Buf (Elt F) (Block3B.outLoc d)) (q : PosShare TreeShare),
    iprop(levAts (K (F := F)).L (K (F := F)).lev
        ∗ ((Block3B.idsLoc d ↦{q} m' (Block3B.idsLoc d)) ∗ (Block3B.ttLoc d ↦{q} m' (Block3B.ttLoc d)) ∗ (Block3B.tailLoc d ↦{q} m' (Block3B.tailLoc d)))
        ∗ (Block3B.outLoc d ↦[Block3B.outSet L]{fullShare} f0)
        ∗ scopedBufs (Block3B.thr d L) ∗ scopedSems0 (Block3B.thr d L) ∗ owes (Block3B.thr d L) O W)
      ⊢ (wp frame (wpE (defs₀ (F := F)) 𝒱₀ (Block3B.thr d L) none) Set.univ
          (cc3_block_gather L Block3B.idsV (Memref.isWhole_whole _) Block3B.ttV (Memref.isWhole_whole _) Block3B.tailV (Memref.isWhole_whole _)
            Block3B.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(((Block3B.idsLoc d ↦{q} m' (Block3B.idsLoc d)) ∗ (Block3B.ttLoc d ↦{q} m' (Block3B.ttLoc d)) ∗ (Block3B.tailLoc d ↦{q} m' (Block3B.tailLoc d)))
            ∗ (Block3B.outLoc d ↦[Block3B.outSet L]{fullShare} BlockB.E (m' (Block3B.idsLoc d)) (m' (Block3B.ttLoc d)) (m' (Block3B.tailLoc d)))
            ∗ scopedBufs (Block3B.thr d L) ∗ scopedSems0 (Block3B.thr d L)
            ∗ ∃ W', ⌜∀ p ∈ W', p ∈ W ∨ p.2 = none⌝ ∗ owes (Block3B.thr d L) O W') : sProp 𝕄)

variable (m : (ℓ : Loc nD τ sig) → Buf (Elt F) ℓ)

/-- The tile's share of call 3, spelt array by array. -/
theorem tileGo3_eq (d : Dev nD) (c : Fin 2) (s : Fin 16) (Wv : Valuation τ sig (Elt F)) :
    tileGo m d 3 c s Wv
      = iprop(((Block3B.idsLoc d ↦{shareTok fullShare 32 (wid c s)} VA3 m d (r_ids 3))
          ∗ (Block3B.ttLoc d ↦{shareTok fullShare 32 (wid c s)} VA3 m d r_tt3)
          ∗ (Block3B.tailLoc d ↦{shareTok fullShare 32 (wid c s)} VA3 m d r_tl3))
        ∗ (Block3B.outLoc d ↦[Block3B.outSet (coordsV3 c s)]{fullShare} Wv (r_out 3))) := by
  rw [outSet3_eq]
  show iprop(heldAt (SparseCore.T d) (RO 3) (fun _ => shareTok fullShare 32 (wid c s)) (VA3 m d)
      ∗ ((d, r_out 3) ↦[(colBlk (wid c s)).set]{fullShare} Wv (r_out 3))) = _
  unfold heldAt
  rw [show (RO 3 : Finset (DevRef τ sig)) = insert (r_ids 3) (insert r_tt3 {r_tl3}) from rfl,
    SparseCore.bigSep_insert' (by decide), SparseCore.bigSep_insert' (by decide), bigSep_singleton]

/-- The block-gather task from the launch's share to the launch's share: the body at the valuation before the call,
    its result read as the lookup. -/
theorem tile3 (hbody : Body3 (F := F))
    (hbr : ∀ d : Dev nD, BlockB.E (F := F) (m (d, r_ids 3)) (transpose S32x1000000 [1, 0] (m (d, a_T3)) transposes_S1000000x32_S32x1000000_1_0)
        (shapeCast S2048 (extractStridedSlice S64x32 ![999936, 0] (m (d, a_T3)) slices_S1000000x32_S64x32_999936_0) shapeCasts_S64x32_S2048) = E m d 3)
    (d : Dev nD) (c : Fin 2) (s : Fin 16) (O : CellTallies nD τ sig (HIx 4)) (W : Waits sig (HIx 4)) (hO : ∀ g, O g none = 0) :
    iprop(levAts (K (F := F)).L (K (F := F)).lev ∗ emp ∗ tileGo m d 3 c s (VA3 m d)
        ∗ scopedBufs (Block3B.thr d (coordsV3 c s)) ∗ scopedSems0 (Block3B.thr d (coordsV3 c s)) ∗ owes (Block3B.thr d (coordsV3 c s)) O W)
      ⊢ (wp frame (wpE (defs₀ (F := F)) 𝒱₀ (Block3B.thr d (coordsV3 c s)) none) Set.univ
          (cc3_block_gather (coordsV3 c s) Block3B.idsV (Memref.isWhole_whole _) Block3B.ttV (Memref.isWhole_whole _) Block3B.tailV (Memref.isWhole_whole _)
            Block3B.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(tileGo m d 3 c s (VB3 m d) ∗ scopedBufs (Block3B.thr d (coordsV3 c s)) ∗ scopedSems0 (Block3B.thr d (coordsV3 c s))
            ∗ ∃ W', ⌜∀ p ∈ W', p ∈ W ∨ p.2 = none⌝ ∗ owes (Block3B.thr d (coordsV3 c s)) O W') : sProp 𝕄) := by
  have hv : BlockB.E (F := F) (VA3 m d (r_ids 3)) (VA3 m d r_tt3) (VA3 m d r_tl3) = VB3 m d (r_out 3) := by
    rw [VA3_ids, VA3_tt, VA3_tl, hbr d]; unfold VB3; rw [Function.update_self]
  rw [tileGo3_eq, tileGo3_eq, ← hv]
  have hb : iprop(levAts (K (F := F)).L (K (F := F)).lev
        ∗ ((Block3B.idsLoc d ↦{shareTok fullShare 32 (wid c s)} VA3 m d (r_ids 3)) ∗ (Block3B.ttLoc d ↦{shareTok fullShare 32 (wid c s)} VA3 m d r_tt3) ∗ (Block3B.tailLoc d ↦{shareTok fullShare 32 (wid c s)} VA3 m d r_tl3))
        ∗ (Block3B.outLoc d ↦[Block3B.outSet (coordsV3 c s)]{fullShare} VA3 m d (r_out 3))
        ∗ scopedBufs (Block3B.thr d (coordsV3 c s)) ∗ scopedSems0 (Block3B.thr d (coordsV3 c s)) ∗ owes (Block3B.thr d (coordsV3 c s)) O W)
      ⊢ (wp frame (wpE (defs₀ (F := F)) 𝒱₀ (Block3B.thr d (coordsV3 c s)) none) Set.univ
          (cc3_block_gather (coordsV3 c s) Block3B.idsV (Memref.isWhole_whole _) Block3B.ttV (Memref.isWhole_whole _) Block3B.tailV (Memref.isWhole_whole _)
            Block3B.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(((Block3B.idsLoc d ↦{shareTok fullShare 32 (wid c s)} VA3 m d (r_ids 3)) ∗ (Block3B.ttLoc d ↦{shareTok fullShare 32 (wid c s)} VA3 m d r_tt3) ∗ (Block3B.tailLoc d ↦{shareTok fullShare 32 (wid c s)} VA3 m d r_tl3))
            ∗ (Block3B.outLoc d ↦[Block3B.outSet (coordsV3 c s)]{fullShare} BlockB.E (VA3 m d (r_ids 3)) (VA3 m d r_tt3) (VA3 m d r_tl3))
            ∗ scopedBufs (Block3B.thr d (coordsV3 c s)) ∗ scopedSems0 (Block3B.thr d (coordsV3 c s))
            ∗ ∃ W', ⌜∀ p ∈ W', p ∈ W ∨ p.2 = none⌝ ∗ owes (Block3B.thr d (coordsV3 c s)) O W') : sProp 𝕄) :=
    hbody (fun ℓ => VA3 m d ℓ.2) d (coordsV3 c s) O W hO (VA3 m d (r_out 3)) (shareTok fullShare 32 (wid c s))
  iintro ⟨Hl, -, ⟨H3, Ho⟩, Hsb, Hss, HO⟩
  iapply (wp_wand_r frame _ Set.univ)
  isplitl [Hl H3 Ho Hsb Hss HO]
  · iapply hb
    isplitl [Hl]; · iexact Hl
    isplitl [H3]; · iexact H3
    isplitl [Ho]; · iexact Ho
    isplitl [Hsb]; · iexact Hsb
    isplitl [Hss]; · iexact Hss
    iexact HO
  iintro %_ ⟨H3, Ho, Hsb, Hss, HW⟩
  isplitl [H3 Ho]
  · isplitl [H3]; · iexact H3
    iexact Ho
  isplitl [Hsb]; · iexact Hsb
  isplitl [Hss]; · iexact Hss
  iexact HW

/-! ## The launch theorem's obligation -/

theorem defs₀_vector3 (c : Fin τ.nSC) (s : Fin τ.nSub) :
    defs₀ (F := F) (.scVector c s) 3 ()
      = SparseCore.onTile hcore3 hsub3 (fun c s => (cc3_block_gather (coordsV3 c s) Block3B.idsV (Memref.isWhole_whole _) Block3B.ttV (Memref.isWhole_whole _) Block3B.tailV (Memref.isWhole_whole _)
            Block3B.outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)) ⟨⟩ c s := rfl

omit [FloatOps F] in
theorem obl_post3 {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl3 (hbody : Body3 (F := F))
    (hbr : ∀ d : Dev nD, BlockB.E (F := F) (m (d, r_ids 3)) (transpose S32x1000000 [1, 0] (m (d, a_T3)) transposes_S1000000x32_S32x1000000_1_0)
        (shapeCast S2048 (extractStridedSlice S64x32 ![999936, 0] (m (d, a_T3)) slices_S1000000x32_S64x32_999936_0) shapeCasts_S64x32_S2048) = E m d 3) :
    (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (tile3 m hbody hbr d ⟨_, hc.1⟩ ⟨_, hc.2⟩ O W hO).trans (wp_mono frame _ _ fun _ => obl_post3)

end Cert.Proof.KernelC

end
-- ==== Proof.BridgeBlockB.lean ====
/-
  The block-gather kernel's function of the index words, the transposed table and the flattened tail is the plain lookup.

  A word `w` with `0 ≤ w ≤ 999999` (read signed) names row `w` of the table. Below 999936 the kernel reads column
  `128 · (w / 128) + w mod 128 = w` of the transposed table at row `r`, which is entry `(w, r)` of the table. From
  999936 on it reads entry `32 · (w − 999936) + r` of the last 64 rows flattened row-major, which is entry
  `(w − 999936, r)` of those rows, which is entry `(w, r)` of the table.
-/
import proofs.«204991_g57140244906297_cont_9to1_m_249_19_alg».proof.Proof.BlockDefsB
import proofs.«204991_g57140244906297_cont_9to1_m_249_19_alg».proof.Proof.Spec
import Idealize.ShloMosaic.Lib.Pipeline.Value
import Idealize.ShloMosaic.Lib.ValueIdx

noncomputable section

namespace Cert.Proof.BlockB

open Cert.Kernel Cert.Kernel.Gen
open Idealize.ShloMosaic Idealize.ShloMosaic.ValueIdx Idealize.ShloMosaic.RowOps

variable {F : FTy → Type} [FloatOps F]

/-- A word whose signed reading is not negative reads the same unsigned. -/
theorem toNat_eq_toInt (w : BitVec 32) (h0 : 0 ≤ w.toInt) : (w.toNat : ℤ) = w.toInt := by
  have h := BitVec.toInt_eq_toNat_cond w
  have hlt := w.isLt
  split at h <;> omega

/-- The kernel's function at `(r, n)`: the tail's entry when word `n` is at least 999936, else the transposed table's. -/
theorem E_apply (ids : S16384.Idx → BitVec 32) (tt : S32x1000000.Idx → Elt F .f32) (tail : S2048.Idx → Elt F .f32)
    (r : Fin 32) (n : Fin 16384) :
    E (F := F) ids tt tail (ix2 r n)
      = if (999936 : ℤ) ≤ (ids (ix1 n)).toInt then tail (ix1 ⟨tailAt (ids (ix1 n)) r, tailAt_lt _ _⟩)
        else tt (ix2 r ⟨colAt (ids (ix1 n)), colAt_lt _⟩) := rfl

/-- The transposed table at `(r, c)` is the table at `(c, r)`. -/
theorem tt_apply {α : Type} (T : S1000000x32.Idx → α) (r : Fin 32) (c : Fin 1000000) :
    transpose S32x1000000 [1, 0] T transposes_S1000000x32_S32x1000000_1_0 (ix2 r c) = T (ix2 c r) :=
  transpose_apply [1, 0] T transposes_S1000000x32_S32x1000000_1_0 (ix2 r c) (ix2 c r)
    (fun b => by match b with | ⟨0, _⟩ => rfl | ⟨1, _⟩ => rfl)

/-- The flattened last 64 rows at entry `32 · q + r` are the table at `(999936 + q, r)`. -/
theorem tail_apply {α : Type} (T : S1000000x32.Idx → α) (q : Fin 64) (r : Fin 32) (p : Fin 2048) (hp : p.val = 32 * q.val + r.val)
    (row : Fin 1000000) (hrow : row.val = 999936 + q.val) :
    shapeCast S2048 (extractStridedSlice S64x32 ![999936, 0] T slices_S1000000x32_S64x32_999936_0) shapeCasts_S64x32_S2048 (ix1 p)
      = T (ix2 row r) := by
  refine (shapeCast_apply _ shapeCasts_S64x32_S2048 (ix1 p) (ix2 q r) ?_).trans ?_
  · rw [Shape.rowMajor_val_two, Shape.rowMajor_val_one]
    show q.val * 32 + r.val = p.val
    omega
  · exact extractStridedSlice_apply ![999936, 0] T slices_S1000000x32_S64x32_999936_0 (ix2 q r) (ix2 row r)
      (fun a => by
        match a with
        | ⟨0, _⟩ => exact hrow
        | ⟨1, _⟩ => exact (Nat.zero_add _).symm)

/-- With every word in `[0, 999999]`, the kernel's function of the words, the transposed table and the flattened last
    64 rows is the plain transposed lookup. -/
theorem E_eq_lookT (ids : S16384.Idx → BitVec 32) (T : S1000000x32.Idx → Elt F .f32)
    (hr : ∀ j, 0 ≤ (ids j).toInt ∧ (ids j).toInt ≤ 999999) :
    E (F := F) ids (transpose S32x1000000 [1, 0] T transposes_S1000000x32_S32x1000000_1_0)
        (shapeCast S2048 (extractStridedSlice S64x32 ![999936, 0] T slices_S1000000x32_S64x32_999936_0) shapeCasts_S64x32_S2048)
      = Cert.Spec.lookT 1000000 (by omega) T ids := by
  funext j
  obtain ⟨r, n, rfl⟩ : ∃ (r : Fin 32) (n : Fin 16384), j = ix2 r n := ⟨j 0, j 1, eq_ix2 j⟩
  obtain ⟨h0, h1⟩ := hr (ix1 n)
  have hnat := toNat_eq_toInt (ids (ix1 n)) h0
  have hrow : (rowOf 1000000 (by omega) (ids (ix1 n))).val = (ids (ix1 n)).toNat := by
    show min (ids (ix1 n)).toInt.toNat (1000000 - 1) = _
    omega
  rw [E_apply, Cert.Spec.lookT_apply]
  by_cases hge : (999936 : ℤ) ≤ (ids (ix1 n)).toInt
  · rw [if_pos hge]
    have hq : (ids (ix1 n)).toNat - 999936 < 64 := by omega
    refine tail_apply T ⟨(ids (ix1 n)).toNat - 999936, hq⟩ r _ ?_ _ ?_
    · show tailAt (ids (ix1 n)) r = 32 * ((ids (ix1 n)).toNat - 999936) + r.val
      unfold tailAt
      rw [Nat.min_eq_left (by omega)]
    · show (rowOf 1000000 _ (ids (ix1 n))).val = 999936 + ((ids (ix1 n)).toNat - 999936)
      omega
  · rw [if_neg hge]
    refine (tt_apply T r _).trans (congrArg T ?_)
    refine congrArg (fun c => ix2 c r) (Fin.ext ?_)
    show colAt (ids (ix1 n)) = (rowOf 1000000 _ (ids (ix1 n))).val
    rw [hrow, colAt_eq _ (by omega)]

end Cert.Proof.BlockB

end
-- ==== Proof.BridgePackedB.lean ====
/-
  The packed kernel's function of the index words and the table viewed four rows to a line is the plain lookup.

  A table of `V = 4 R` rows of 32 columns, flattened row-major and viewed as `R` lines of 128 lanes, holds entry
  `(w, c)` of the table — flat position `32 w + c` — at line `w / 4`, lane `32 · (w mod 4) + c`, since
  `128 · (w / 4) + 32 · (w mod 4) + c = 32 w + c`. The kernel computes the line as the word shifted right by two and the
  lane as the word's low two bits shifted left by five, plus the column; for a word in `[0, V − 1]` those are `w / 4` and
  `32 · (w mod 4) + c`, both already in range, so the reductions modulo `R` and modulo 128 change nothing.
-/
import proofs.«204991_g57140244906297_cont_9to1_m_249_19_alg».proof.Proof.PackedDefsB
import proofs.«204991_g57140244906297_cont_9to1_m_249_19_alg».proof.Proof.Spec
import Idealize.ShloMosaic.Lib.Pipeline.Value
import Idealize.ShloMosaic.Lib.ValueIdx

noncomputable section

namespace Cert.Proof.PackedB

open Cert.Kernel Cert.Kernel.Gen
open Idealize.ShloMosaic Idealize.ShloMosaic.ValueIdx Idealize.ShloMosaic.RowOps

/-- Entry `(c, n)` of the lookup as the packed kernel computes it from the index words and the `R`-line view: line
    `w >>> 2`, lane `((w &&& 3) <<< 5) + c`, `w` word `n` (each reduced into range). -/
def packedG {α : Type} (R : ℕ) (hR : 0 < R) (ids : S16384.Idx → BitVec 32) (tq : (⟨2, ![R, 128]⟩ : Shape).Idx → α) :
    S32x16384.Idx → α :=
  fun j => tq (ix2 ⟨((ids (ix1 (j 1))) >>> 2).toNat % R, Nat.mod_lt _ hR⟩
    ⟨((((ids (ix1 (j 1))) &&& 3#32) <<< 5) + BitVec.ofNat 32 (j 0).val).toNat % 128, Nat.mod_lt _ (by decide)⟩)

/-- A word whose signed reading is not negative reads the same unsigned. -/
theorem toNat_eq_toInt (w : BitVec 32) (h0 : 0 ≤ w.toInt) : (w.toNat : ℤ) = w.toInt := by
  have h := BitVec.toInt_eq_toNat_cond w
  have hlt := w.isLt
  split at h <;> omega

/-- The lane the kernel computes for word `w` and column `c`: 32 times the word's residue modulo 4, plus the column. -/
theorem lane_eq (w : BitVec 32) (c : ℕ) (hc : c < 32) :
    (((w &&& 3#32) <<< 5) + BitVec.ofNat 32 c).toNat = 32 * (w.toNat % 4) + c := by
  rw [BitVec.toNat_add, BitVec.toNat_shiftLeft, BitVec.toNat_and, BitVec.toNat_ofNat, BitVec.toNat_ofNat, Nat.shiftLeft_eq]
  have h3 : (3 % 2 ^ 32 : ℕ) = 3 := rfl
  have hand : w.toNat &&& 3 = w.toNat % 4 := Nat.and_two_pow_sub_one_eq_mod w.toNat 2
  rw [h3, hand]
  omega

/-- The line the kernel computes for word `w`: the word divided by 4. -/
theorem line_eq (w : BitVec 32) : (w >>> 2).toNat = w.toNat / 4 := by
  rw [BitVec.toNat_ushiftRight, Nat.shiftRight_eq_div_pow]

/-- With every word in `[0, V − 1]`, `V = 4 R`, the packed kernel's function of the words and the `R`-line view of the
    table is the plain transposed lookup. -/
theorem packedG_eq_lookT {α : Type} (V R : ℕ) (hV : 0 < V) (hR : 0 < R) (hVR : V = 4 * R)
    (hcast : (⟨2, ![V, 32]⟩ : Shape).ShapeCasts ⟨2, ![R, 128]⟩) (ids : S16384.Idx → BitVec 32)
    (T : (⟨2, ![V, 32]⟩ : Shape).Idx → α) (hr : ∀ j, 0 ≤ (ids j).toInt ∧ (ids j).toInt ≤ (V : ℤ) - 1) :
    packedG R hR ids (shapeCast ⟨2, ![R, 128]⟩ T hcast) = Cert.Spec.lookT V hV T ids := by
  funext j
  obtain ⟨c, n, rfl⟩ : ∃ (c : Fin 32) (n : Fin 16384), j = ix2 c n := ⟨j 0, j 1, eq_ix2 j⟩
  obtain ⟨h0, h1⟩ := hr (ix1 n)
  have hnat := toNat_eq_toInt (ids (ix1 n)) h0
  have hrow : (rowOf V hV (ids (ix1 n))).val = (ids (ix1 n)).toNat := by
    show min (ids (ix1 n)).toInt.toNat (V - 1) = _
    omega
  have hline : (ids (ix1 n)).toNat / 4 < R := by omega
  have hc := c.isLt
  rw [Cert.Spec.lookT_apply]
  show shapeCast ⟨2, ![R, 128]⟩ T hcast (ix2 ⟨((ids (ix1 n)) >>> 2).toNat % R, Nat.mod_lt _ hR⟩
      ⟨((((ids (ix1 n)) &&& 3#32) <<< 5) + BitVec.ofNat 32 c.val).toNat % 128, Nat.mod_lt _ (by decide)⟩)
    = T (ix2 (rowOf V hV (ids (ix1 n))) c)
  refine shapeCast_apply T hcast _ (ix2 (rowOf V hV (ids (ix1 n))) c) ?_
  rw [Shape.rowMajor_val_two, Shape.rowMajor_val_two]
  show (rowOf V hV (ids (ix1 n))).val * 32 + c.val
    = (((ids (ix1 n)) >>> 2).toNat % R) * 128 + (((((ids (ix1 n)) &&& 3#32) <<< 5) + BitVec.ofNat 32 c.val).toNat % 128)
  rw [hrow, lane_eq _ _ hc, line_eq, Nat.mod_eq_of_lt hline]
  omega

/-- The 100000-row table at its 25000-line view. -/
theorem packedE_eq_lookT {F : FTy → Type} [FloatOps F] (ids : S16384.Idx → BitVec 32) (T : S100000x32.Idx → Elt F .f32)
    (hr : ∀ j, 0 ≤ (ids j).toInt ∧ (ids j).toInt ≤ 99999) :
    packedE (F := F) ids (shapeCast S25000x128 T shapeCasts_S100000x32_S25000x128) = Cert.Spec.lookT 100000 (by omega) T ids :=
  packedG_eq_lookT 100000 25000 (by omega) (by decide) rfl shapeCasts_S100000x32_S25000x128 ids T
    (fun j => ⟨(hr j).1, by have := (hr j).2; omega⟩)

/-- The 1000-row table at its 250-line view. -/
theorem packedE2_eq_lookT {F : FTy → Type} [FloatOps F] (ids : S16384.Idx → BitVec 32) (T : S1000x32.Idx → Elt F .f32)
    (hr : ∀ j, 0 ≤ (ids j).toInt ∧ (ids j).toInt ≤ 999) :
    packedE2 (F := F) ids (shapeCast S250x128 T shapeCasts_S1000x32_S250x128) = Cert.Spec.lookT 1000 (by omega) T ids :=
  packedG_eq_lookT 1000 250 (by omega) (by decide) rfl shapeCasts_S1000x32_S250x128 ids T
    (fun j => ⟨(hr j).1, by have := (hr j).2; omega⟩)

end Cert.Proof.PackedB

end
-- ==== Proof.FinalB.lean ====
/-
  The idealized kernel's run, assembled: under the index ranges, from the four tasks' bodies, every weakly fair execution
  of the device's threads terminates, nothing faulting; the arguments end as launched and the result array ends at the
  projection of the four lookups. At the ideal instance that projection is the specification's output.
-/
import proofs.«204991_g57140244906297_cont_9to1_m_249_19_alg».proof.Proof.RunB
import proofs.«204991_g57140244906297_cont_9to1_m_249_19_alg».proof.Proof.RegionB
import proofs.«204991_g57140244906297_cont_9to1_m_249_19_alg».proof.Proof.TileObl0B
import proofs.«204991_g57140244906297_cont_9to1_m_249_19_alg».proof.Proof.TileObl1B
import proofs.«204991_g57140244906297_cont_9to1_m_249_19_alg».proof.Proof.TileObl2B
import proofs.«204991_g57140244906297_cont_9to1_m_249_19_alg».proof.Proof.TileObl3B
import proofs.«204991_g57140244906297_cont_9to1_m_249_19_alg».proof.Proof.BridgeBlockB
import proofs.«204991_g57140244906297_cont_9to1_m_249_19_alg».proof.Proof.BridgePackedB
import proofs.«204991_g57140244906297_cont_9to1_m_249_19_alg».proof.Proof.PreRanges

noncomputable section

namespace Cert.Proof.KernelC

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type} [FloatOps F]
variable (m : (ℓ : Loc nD τ sig) → Buf (Elt F) ℓ) (ρ : Dev nD → PrngReg)

/-- The four index arrays name rows of their tables, on every device. -/
def Ranges : Prop := ∀ d : Dev nD,
  (∀ j, 0 ≤ ((m (d, r_ids 0) : S16384.Idx → BitVec 32) j).toInt ∧ ((m (d, r_ids 0) : S16384.Idx → BitVec 32) j).toInt ≤ 999999)
  ∧ (∀ j, 0 ≤ ((m (d, r_ids 1) : S16384.Idx → BitVec 32) j).toInt ∧ ((m (d, r_ids 1) : S16384.Idx → BitVec 32) j).toInt ≤ 99999)
  ∧ (∀ j, 0 ≤ ((m (d, r_ids 2) : S16384.Idx → BitVec 32) j).toInt ∧ ((m (d, r_ids 2) : S16384.Idx → BitVec 32) j).toInt ≤ 999)
  ∧ (∀ j, 0 ≤ ((m (d, r_ids 3) : S16384.Idx → BitVec 32) j).toInt ∧ ((m (d, r_ids 3) : S16384.Idx → BitVec 32) j).toInt ≤ 999999)

/-- A word that reads, signed, between 0 and `B` is at most `B` unsigned. -/
theorem toNat_le_of_range (w : BitVec 32) (B : ℕ) (hB : B < 2 ^ 31) (h : 0 ≤ w.toInt ∧ w.toInt ≤ (B : ℤ)) : w.toNat ≤ B := by
  obtain ⟨h0, h1⟩ := h
  rw [BitVec.toInt_eq_toNat_cond] at h0 h1
  have := w.isLt
  by_cases hc : 2 * w.toNat < 2 ^ 32
  · simp only [hc, if_true] at h0 h1; omega
  · simp only [hc, if_false] at h0 h1; omega

theorem run_all [∀ e, Nonempty (Elt F e)] (hr : Ranges m) (h0 : Body0 (F := F)) (h1 : Body1 (F := F)) (h2 : Body2 (F := F)) (h3 : Body3 (F := F)) :
    θ_run (Cert.Kernel.defs (F := F)) (Cert.Kernel.threads (F := F)) ⟨m, fun _ => 0, ρ⟩ (QC m (PVal m)) :=
  run_main m ρ (PVal m) (regionOK m) (fun q _ => match q with
    | 0 => tileObl0 m h0 (fun d => BlockB.E_eq_lookT (m (d, r_ids 0)) (m (d, a_T0)) (hr d).1)
    | 1 => tileObl1 m h1 (fun d j => Nat.lt_of_le_of_lt (toNat_le_of_range _ 99999 (by norm_num) ((hr d).2.1 j)) (by norm_num))
        (fun d => PackedB.packedE_eq_lookT (m (d, r_ids 1)) (m (d, a_T1)) (hr d).2.1)
    | 2 => tileObl2 m h2 (fun d j => Nat.lt_of_le_of_lt (toNat_le_of_range _ 999 (by norm_num) ((hr d).2.2.1 j)) (by norm_num))
        (fun d => PackedB.packedE2_eq_lookT (m (d, r_ids 2)) (m (d, a_T2)) (hr d).2.2.1)
    | 3 => tileObl3 m h3 (fun d => BlockB.E_eq_lookT (m (d, r_ids 3)) (m (d, a_T3)) (hr d).2.2.2))

/-- The arguments end as launched; the result array at `PVal`. -/
theorem run_post [∀ e, Nonempty (Elt F e)] (hr : Ranges m) (h0 : Body0 (F := F)) (h1 : Body1 (F := F)) (h2 : Body2 (F := F)) (h3 : Body3 (F := F)) :
    θ_run (Cert.Kernel.defs (F := F)) (Cert.Kernel.threads (F := F)) ⟨m, fun _ => 0, ρ⟩ (fun r => ∀ c : Dev nD,
      r.2.mem (c, r_res) = PVal m c
      ∧ r.2.mem (c, r_ids 0) = m (c, r_ids 0) ∧ r.2.mem (c, r_ids 1) = m (c, r_ids 1) ∧ r.2.mem (c, r_ids 2) = m (c, r_ids 2)
      ∧ r.2.mem (c, r_ids 3) = m (c, r_ids 3) ∧ r.2.mem (c, a_T0) = m (c, a_T0) ∧ r.2.mem (c, a_T1) = m (c, a_T1)
      ∧ r.2.mem (c, a_T2) = m (c, a_T2) ∧ r.2.mem (c, a_T3) = m (c, a_T3) ∧ r.2.mem (c, a_W) = m (c, a_W) ∧ r.2.mem (c, a_b) = m (c, a_b)) :=
  (θ_run Cert.Kernel.defs _ _).mono (fun r h c =>
    ⟨(h c _ mem_uc.1).trans (VFin_res m (PVal m) c),
     (h c _ mem_uc.2.1).trans (VFin_arg0 m (PVal m) c), (h c _ mem_uc.2.2.1).trans (VFin_arg1 m (PVal m) c),
     (h c _ mem_uc.2.2.2.1).trans (VFin_arg2 m (PVal m) c), (h c _ mem_uc.2.2.2.2.1).trans (VFin_arg3 m (PVal m) c),
     (h c _ mem_uc.2.2.2.2.2.1).trans (VFin_arg4 m (PVal m) c), (h c _ mem_uc.2.2.2.2.2.2.1).trans (VFin_arg5 m (PVal m) c),
     (h c _ mem_uc.2.2.2.2.2.2.2.1).trans (VFin_arg6 m (PVal m) c), (h c _ mem_uc.2.2.2.2.2.2.2.2.1).trans (VFin_arg7 m (PVal m) c),
     (h c _ mem_uc.2.2.2.2.2.2.2.2.2.1).trans (VFin_arg8 m (PVal m) c), (h c _ mem_uc.2.2.2.2.2.2.2.2.2.2).trans (VFin_arg9 m (PVal m) c)⟩)
    (run_all m ρ hr h0 h1 h2 h3)

end Cert.Proof.KernelC

end
-- ==== Proof.PackedValue.lean ====
/-
  The pure side of the packed gather's task: words (shifts, masks, the lane word below 128), the contents the three loops
  leave in the scratch buffers as functions of the trip count, and the store lemmas — one store of 16 shifted words, and
  sixteen stores of 16 lanes along a row of the 32 × 512 block, each lane of a gathered row picked by its index word.
-/
import Idealize.ShloMosaic.Lib.Writes
import Idealize.ShloMosaic.Lib.ValueIdx
import Idealize.ShloMosaic.Lib.Scf
import Idealize.ShloMosaic.Lib.SparseCore.Stream
import proofs.«204991_g57140244906297_cont_9to1_m_249_19_alg».proof.Proof.PackedDefs

noncomputable section

namespace Cert.Proof.Packed

open Idealize.ShloMosaic Cert.KernelIdeal Cert.KernelIdeal.Gen
open Idealize.ShloMosaic.ValueIdx (ix1 ix2)

/-! ## Words -/

theorem shli5 (x : BitVec 32) : IntOp.shli .vector x 5#32 = x <<< 5 := by
  simp [IntOp.shli]
theorem shrui2 (x : BitVec 32) : IntOp.shrui .vector x 2#32 = x >>> 2 := by
  simp [IntOp.shrui]
theorem andi3 (x : BitVec 32) : IntOp.andi x 3#32 = x &&& 3#32 := rfl
theorem addi' (x y : BitVec 32) : IntOp.addi x y = x + y := rfl

theorem shr2_toNat (x : BitVec 32) : (x >>> 2).toNat = x.toNat / 4 := by
  rw [BitVec.toNat_ushiftRight, Nat.shiftRight_eq_div_pow]

theorem and3_toNat (x : BitVec 32) : (x &&& 3#32).toNat = x.toNat % 4 := by
  rw [BitVec.toNat_and]
  exact Nat.and_two_pow_sub_one_eq_mod x.toNat 2

theorem lane_toNat (x c : BitVec 32) (hc : c.toNat < 32) : (((x &&& 3#32) <<< 5) + c).toNat = 32 * (x.toNat % 4) + c.toNat := by
  rw [BitVec.toNat_add, BitVec.toNat_shiftLeft, and3_toNat, Nat.shiftLeft_eq]
  have : x.toNat % 4 < 4 := Nat.mod_lt _ (by decide)
  omega

theorem lane_lt (x c : BitVec 32) (hc : c.toNat < 32) : (((x &&& 3#32) <<< 5) + c).toNat < 128 := by
  rw [lane_toNat x c hc]
  have : x.toNat % 4 < 4 := Nat.mod_lt _ (by decide)
  omega

theorem shr2_lt (x : BitVec 32) {V : Nat} (h : x.toNat < 4 * V) : (x >>> 2).toNat < V := by
  rw [shr2_toNat]; omega

/-- The column word of trip `k` of a counted loop from 0 by 1. -/
abbrev cK (k : ℕ) : BitVec 32 := Scalar.addi 0#32 (Scalar.muli (Scf.iv 0#32 1#32 k) 1#32)

theorem cK_toNat (k : ℕ) (hk : k < 32) : (cK k).toNat = k := by
  simp [cK, Scalar.addi, Scalar.muli, IntOp.addi, IntOp.muli, Scf.iv]
  omega

theorem iota_apply (h : S16.Iotas .scVector 32 [0]) (x : S16.Idx) : iota .scVector S16 32 [0] h x = BitVec.ofNat 32 (x 0).val := by
  simp [iota]

/-- Every lane a column trip reads of a gathered block is in the block: row 16·g + lane, lane word below 128. -/
theorem chk_ok (h : S16.Iotas .scVector 32 [0]) (r0 : BitVec 32) (hr : r0.toNat + 16 ≤ 256) (idv : IVec S16 32) (c : BitVec 32) (hc : c.toNat < 32) :
    ∀ (a : Fin 2) (x : S16.Idx),
      ((![addi (iota .scVector S16 32 [0] h) (broadcast S16 r0),
          addi (shli (andi idv (broadcast S16 3#32)) (broadcast S16 5#32)) (broadcast S16 c)] : Fin 2 → IVec S16 32) a x).toNat < S256x128.size a := by
  intro a x
  fin_cases a
  · show (IntOp.addi (iota .scVector S16 32 [0] h x) r0).toNat < 256
    rw [iota_apply, addi', BitVec.toNat_add, BitVec.toNat_ofNat]
    have := (x 0).isLt
    have : (x 0).val < 16 := this
    omega
  · show (IntOp.addi (IntOp.shli .vector (IntOp.andi (idv x) 3#32) 5#32) c).toNat < 128
    rw [shli5, andi3, addi']; exact lane_lt _ _ hc

/-! ## The contents the loops leave -/

/-- The shifted words after `k` trips of the first loop: lanes below 16·k hold the index word shifted right by two. -/
def q1F (F5 f6 : S512.Idx → BitVec 32) (k : ℕ) : S512.Idx → BitVec 32 :=
  fun j => if (j 0).val < 16 * k then F5 j >>> 2 else f6 j

/-- Every lane after the first loop: the index word shifted right by two. -/
def qFull (F5 : S512.Idx → BitVec 32) : S512.Idx → BitVec 32 := fun j => F5 j >>> 2

theorem q1F_zero (F5 f6 : S512.Idx → BitVec 32) : f6 = q1F F5 f6 0 := by
  funext j; simp [q1F]

theorem q1F_32 (F5 f6 : S512.Idx → BitVec 32) : q1F F5 f6 32 = qFull F5 := by
  funext j
  have : (j 0).val < 512 := (j 0).isLt
  simp only [q1F, qFull]
  rw [if_pos (by omega)]

/-- The column of an index of the 32 × 512 block, as a position of the task's 512. -/
def colOf (y : S32x512.Idx) : S512.Idx := ix1 ⟨(y 1).val, (y 1).isLt⟩

/-- The block after `k` column trips over the half starting at column `b0`: rows below `k` of that half hold, at
    column n, lane ((idx n &&& 3) <<< 5) + row of gathered row n - b0. -/
def cHalf {α : Type} (R : S256x128.Idx → α) (F5 : S512.Idx → BitVec 32) (b0 : ℕ) (Cf : S32x512.Idx → α) (k : ℕ) : S32x512.Idx → α :=
  fun y => if (y 0).val < k ∧ b0 ≤ (y 1).val ∧ (y 1).val < b0 + 256 then
      R (ix2 ⟨((y 1).val - b0) % 256, Nat.mod_lt _ (by decide)⟩
        ⟨(((F5 (colOf y) &&& 3#32) <<< 5) + BitVec.ofNat 32 (y 0).val).toNat % 128, Nat.mod_lt _ (by decide)⟩)
    else Cf y

theorem cHalf_zero {α : Type} (R : S256x128.Idx → α) (F5 : S512.Idx → BitVec 32) (b0 : ℕ) (Cf : S32x512.Idx → α) : Cf = cHalf R F5 b0 Cf 0 := by
  funext y; simp [cHalf]

/-! ## Sixteen stores along a row -/

theorem mem_unit_row (off : Fin 2 → ℕ) (k c0 : ℕ) (hoff : off = ![k, c0]) (inb : ∀ a, off a + S1x16.size a ≤ S32x512.size a) (y : S32x512.Idx) :
    y ∈ (Rect.unit (s := S32x512) off S1x16.size inb).set ↔ ((y 0).val = k ∧ c0 ≤ (y 1).val ∧ (y 1).val < c0 + 16) := by
  subst hoff
  rw [Rect.mem_set_unit, Fin.forall_fin_two]
  show (k ≤ (y 0).val ∧ (y 0).val < k + 1) ∧ (c0 ≤ (y 1).val ∧ (y 1).val < c0 + 16) ↔ _
  omega

/-- Sixteen stores of 16 lanes each along row `k` of the half starting at column `b0`, each piece a block of the contents
    after `k + 1` trips: the contents after `k` trips become those after `k + 1`. -/
theorem cols16 {F : FTy → Type} (R : S256x128.Idx → Elt F .f32) (F5 : S512.Idx → BitVec 32) (b0 k : ℕ) (Cf : S32x512.Idx → Elt F .f32)
    (r0 : Rect S32x512) (w0 : r0.shape.Idx → Elt F .f32)
    (r1 : Rect S32x512) (w1 : r1.shape.Idx → Elt F .f32)
    (r2 : Rect S32x512) (w2 : r2.shape.Idx → Elt F .f32)
    (r3 : Rect S32x512) (w3 : r3.shape.Idx → Elt F .f32)
    (r4 : Rect S32x512) (w4 : r4.shape.Idx → Elt F .f32)
    (r5 : Rect S32x512) (w5 : r5.shape.Idx → Elt F .f32)
    (r6 : Rect S32x512) (w6 : r6.shape.Idx → Elt F .f32)
    (r7 : Rect S32x512) (w7 : r7.shape.Idx → Elt F .f32)
    (r8 : Rect S32x512) (w8 : r8.shape.Idx → Elt F .f32)
    (r9 : Rect S32x512) (w9 : r9.shape.Idx → Elt F .f32)
    (r10 : Rect S32x512) (w10 : r10.shape.Idx → Elt F .f32)
    (r11 : Rect S32x512) (w11 : r11.shape.Idx → Elt F .f32)
    (r12 : Rect S32x512) (w12 : r12.shape.Idx → Elt F .f32)
    (r13 : Rect S32x512) (w13 : r13.shape.Idx → Elt F .f32)
    (r14 : Rect S32x512) (w14 : r14.shape.Idx → Elt F .f32)
    (r15 : Rect S32x512) (w15 : r15.shape.Idx → Elt F .f32)
    (hm0 : ∀ y : S32x512.Idx, y ∈ r0.set ↔ ((y 0).val = k ∧ b0 + 0 ≤ (y 1).val ∧ (y 1).val < b0 + 0 + 16))
    (hm1 : ∀ y : S32x512.Idx, y ∈ r1.set ↔ ((y 0).val = k ∧ b0 + 16 ≤ (y 1).val ∧ (y 1).val < b0 + 16 + 16))
    (hm2 : ∀ y : S32x512.Idx, y ∈ r2.set ↔ ((y 0).val = k ∧ b0 + 32 ≤ (y 1).val ∧ (y 1).val < b0 + 32 + 16))
    (hm3 : ∀ y : S32x512.Idx, y ∈ r3.set ↔ ((y 0).val = k ∧ b0 + 48 ≤ (y 1).val ∧ (y 1).val < b0 + 48 + 16))
    (hm4 : ∀ y : S32x512.Idx, y ∈ r4.set ↔ ((y 0).val = k ∧ b0 + 64 ≤ (y 1).val ∧ (y 1).val < b0 + 64 + 16))
    (hm5 : ∀ y : S32x512.Idx, y ∈ r5.set ↔ ((y 0).val = k ∧ b0 + 80 ≤ (y 1).val ∧ (y 1).val < b0 + 80 + 16))
    (hm6 : ∀ y : S32x512.Idx, y ∈ r6.set ↔ ((y 0).val = k ∧ b0 + 96 ≤ (y 1).val ∧ (y 1).val < b0 + 96 + 16))
    (hm7 : ∀ y : S32x512.Idx, y ∈ r7.set ↔ ((y 0).val = k ∧ b0 + 112 ≤ (y 1).val ∧ (y 1).val < b0 + 112 + 16))
    (hm8 : ∀ y : S32x512.Idx, y ∈ r8.set ↔ ((y 0).val = k ∧ b0 + 128 ≤ (y 1).val ∧ (y 1).val < b0 + 128 + 16))
    (hm9 : ∀ y : S32x512.Idx, y ∈ r9.set ↔ ((y 0).val = k ∧ b0 + 144 ≤ (y 1).val ∧ (y 1).val < b0 + 144 + 16))
    (hm10 : ∀ y : S32x512.Idx, y ∈ r10.set ↔ ((y 0).val = k ∧ b0 + 160 ≤ (y 1).val ∧ (y 1).val < b0 + 160 + 16))
    (hm11 : ∀ y : S32x512.Idx, y ∈ r11.set ↔ ((y 0).val = k ∧ b0 + 176 ≤ (y 1).val ∧ (y 1).val < b0 + 176 + 16))
    (hm12 : ∀ y : S32x512.Idx, y ∈ r12.set ↔ ((y 0).val = k ∧ b0 + 192 ≤ (y 1).val ∧ (y 1).val < b0 + 192 + 16))
    (hm13 : ∀ y : S32x512.Idx, y ∈ r13.set ↔ ((y 0).val = k ∧ b0 + 208 ≤ (y 1).val ∧ (y 1).val < b0 + 208 + 16))
    (hm14 : ∀ y : S32x512.Idx, y ∈ r14.set ↔ ((y 0).val = k ∧ b0 + 224 ≤ (y 1).val ∧ (y 1).val < b0 + 224 + 16))
    (hm15 : ∀ y : S32x512.Idx, y ∈ r15.set ↔ ((y 0).val = k ∧ b0 + 240 ≤ (y 1).val ∧ (y 1).val < b0 + 240 + 16))
    (hv0 : ∀ x, w0 x = cHalf R F5 b0 Cf (k + 1) (r0.emb x))
    (hv1 : ∀ x, w1 x = cHalf R F5 b0 Cf (k + 1) (r1.emb x))
    (hv2 : ∀ x, w2 x = cHalf R F5 b0 Cf (k + 1) (r2.emb x))
    (hv3 : ∀ x, w3 x = cHalf R F5 b0 Cf (k + 1) (r3.emb x))
    (hv4 : ∀ x, w4 x = cHalf R F5 b0 Cf (k + 1) (r4.emb x))
    (hv5 : ∀ x, w5 x = cHalf R F5 b0 Cf (k + 1) (r5.emb x))
    (hv6 : ∀ x, w6 x = cHalf R F5 b0 Cf (k + 1) (r6.emb x))
    (hv7 : ∀ x, w7 x = cHalf R F5 b0 Cf (k + 1) (r7.emb x))
    (hv8 : ∀ x, w8 x = cHalf R F5 b0 Cf (k + 1) (r8.emb x))
    (hv9 : ∀ x, w9 x = cHalf R F5 b0 Cf (k + 1) (r9.emb x))
    (hv10 : ∀ x, w10 x = cHalf R F5 b0 Cf (k + 1) (r10.emb x))
    (hv11 : ∀ x, w11 x = cHalf R F5 b0 Cf (k + 1) (r11.emb x))
    (hv12 : ∀ x, w12 x = cHalf R F5 b0 Cf (k + 1) (r12.emb x))
    (hv13 : ∀ x, w13 x = cHalf R F5 b0 Cf (k + 1) (r13.emb x))
    (hv14 : ∀ x, w14 x = cHalf R F5 b0 Cf (k + 1) (r14.emb x))
    (hv15 : ∀ x, w15 x = cHalf R F5 b0 Cf (k + 1) (r15.emb x)) :
    (Memref.whole cc1_scratch4).view.writes (Elt F) (cHalf R F5 b0 Cf k)
        [⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩]
      = cHalf R F5 b0 Cf (k + 1) := by
  funext y
  by_cases h : (y 0).val = k ∧ b0 ≤ (y 1).val ∧ (y 1).val < b0 + 256
  · have hy : ∃ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∈ p.1.set := by
      simp only [List.mem_cons, List.not_mem_nil, or_false, exists_eq_or_imp, exists_eq_left,
        hm0, hm1, hm2, hm3, hm4, hm5, hm6, hm7, hm8, hm9, hm10, hm11, hm12, hm13, hm14, hm15]
      omega
    exact View.read_writes_apply_of_pieces (Memref.whole cc1_scratch4).view _ (cHalf R F5 b0 Cf (k + 1)) _ (by
      intro p hp
      simp only [List.mem_cons, List.not_mem_nil, or_false] at hp
      rcases hp with rfl | rfl | rfl | rfl | rfl | rfl | rfl | rfl | rfl | rfl | rfl | rfl | rfl | rfl | rfl | rfl <;> assumption) y hy
  · have hn : ∀ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∉ p.1.set := by
      intro p hp
      simp only [List.mem_cons, List.not_mem_nil, or_false] at hp
      rcases hp with rfl | rfl | rfl | rfl | rfl | rfl | rfl | rfl | rfl | rfl | rfl | rfl | rfl | rfl | rfl | rfl
      · rw [hm15]; omega
      · rw [hm14]; omega
      · rw [hm13]; omega
      · rw [hm12]; omega
      · rw [hm11]; omega
      · rw [hm10]; omega
      · rw [hm9]; omega
      · rw [hm8]; omega
      · rw [hm7]; omega
      · rw [hm6]; omega
      · rw [hm5]; omega
      · rw [hm4]; omega
      · rw [hm3]; omega
      · rw [hm2]; omega
      · rw [hm1]; omega
      · rw [hm0]; omega
    refine (View.read_writes_apply_of_forall_not_mem (Memref.whole cc1_scratch4).view _ y _ hn).trans ?_
    show cHalf R F5 b0 Cf k y = cHalf R F5 b0 Cf (k + 1) y
    simp only [cHalf]
    by_cases h1 : (y 0).val < k ∧ b0 ≤ (y 1).val ∧ (y 1).val < b0 + 256
    · rw [if_pos h1, if_pos ⟨by omega, h1.2⟩]
    · rw [if_neg h1, if_neg (by intro h2; apply h1; refine ⟨?_, h2.2⟩; by_contra h3; exact h ⟨by omega, h2.2⟩)]

/-! ## One store's payload -/

theorem piece_ok {F : FTy → Type} (R R' : S256x128.Idx → Elt F .f32) (hR : R' = R) (F5 : S512.Idx → BitVec 32) (Cf : S32x512.Idx → Elt F .f32)
    (b0 g k : ℕ) (hb : b0 = 0 ∨ b0 = 256) (hg : g < 16) (hk : k < 32)
    (hio : S16.Iotas .scVector 32 [0]) (idv : IVec S16 32) (inb5 : ∀ a, (![b0 + 16 * g] : Fin 1 → ℕ) a + S16.size a ≤ S512.size a)
    (hidv : ∀ x, idv x = F5 ((Rect.unit (s := S512) ![b0 + 16 * g] S16.size inb5).emb x))
    (off : Fin 2 → ℕ) (hoff : off = ![k, b0 + 16 * g]) (inb9 : ∀ a, off a + S1x16.size a ≤ S32x512.size a)
    (hh : ∀ a x, ((![addi (iota .scVector S16 32 [0] hio) (broadcast S16 (BitVec.ofNat 32 (16 * g))),
        addi (shli (andi idv (broadcast S16 3#32)) (broadcast S16 5#32)) (broadcast S16 (cK k))] : Fin 2 → IVec S16 32) a x).toNat < S256x128.size a)
    (hsc : S16.ShapeCasts S1x16) (x : S1x16.Idx) :
    shapeCast S1x16 (loadIdx R' ![addi (iota .scVector S16 32 [0] hio) (broadcast S16 (BitVec.ofNat 32 (16 * g))),
        addi (shli (andi idv (broadcast S16 3#32)) (broadcast S16 5#32)) (broadcast S16 (cK k))] hh) hsc x
      = cHalf R F5 b0 Cf (k + 1) ((Rect.unit (s := S32x512) off S1x16.size inb9).emb x) := by
  subst hR hoff
  have hx0 : (x 0).val = 0 := by
    have h : (x 0).val < 1 := (x 0).isLt
    omega
  have hx1 : (x 1).val < 16 := (x 1).isLt
  obtain ⟨y, hy⟩ : ∃ y, y = (Rect.unit (s := S32x512) ![k, b0 + 16 * g] S1x16.size inb9).emb x := ⟨_, rfl⟩
  rw [← hy]
  have hy0 : (y 0).val = k := by
    rw [hy, Rect.emb_apply]; show k + 1 * (x 0).val = k; omega
  have hy1 : (y 1).val = b0 + 16 * g + (x 1).val := by
    rw [hy, Rect.emb_apply]; show b0 + 16 * g + 1 * (x 1).val = _; omega
  have hre : Shape.reshapeEquiv hsc x = ix1 ⟨(x 1).val, hx1⟩ :=
    Shape.reshapeEquiv_eq_of_rowMajor hsc (by
      rw [Shape.rowMajor_val_one, Shape.rowMajor_val_two]
      show (x 1).val = (x 0).val * 16 + (x 1).val
      omega)
  have hcond : (y 0).val < k + 1 ∧ b0 ≤ (y 1).val ∧ (y 1).val < b0 + 256 := ⟨by omega, by omega, by omega⟩
  simp only [cHalf]
  rw [if_pos hcond]
  show R' (idxAt _ hh (Shape.reshapeEquiv hsc x)) = _
  rw [hre]
  congr 1
  funext a
  apply Fin.ext
  fin_cases a
  · show (IntOp.addi (iota .scVector S16 32 [0] hio (ix1 ⟨(x 1).val, hx1⟩)) (BitVec.ofNat 32 (16 * g))).toNat = ((y 1).val - b0) % 256
    rw [hy1, iota_apply, addi', BitVec.toNat_add, BitVec.toNat_ofNat, BitVec.toNat_ofNat]
    show ((x 1).val % 2 ^ 32 + 16 * g % 2 ^ 32) % 2 ^ 32 = _
    omega
  · show (IntOp.addi (IntOp.shli .vector (IntOp.andi (idv (ix1 ⟨(x 1).val, hx1⟩)) 3#32) 5#32) (cK k)).toNat
        = (((F5 (colOf y) &&& 3#32) <<< 5) + BitVec.ofNat 32 (y 0).val).toNat % 128
    rw [shli5, andi3, addi', hidv]
    have hcol : (Rect.unit (s := S512) ![b0 + 16 * g] S16.size inb5).emb (ix1 ⟨(x 1).val, hx1⟩) = colOf y := by
      funext a
      apply Fin.ext
      fin_cases a
      show b0 + 16 * g + 1 * (x 1).val = (y 1).val
      omega
    have hck : cK k = BitVec.ofNat 32 k := by
      apply BitVec.eq_of_toNat_eq
      rw [cK_toNat k hk, BitVec.toNat_ofNat]; omega
    rw [hcol, hy0, hck]
    have hl := lane_lt (F5 (colOf y)) (BitVec.ofNat 32 k) (by rw [BitVec.toNat_ofNat]; omega)
    rw [Nat.mod_eq_of_lt hl]

/-! ## The first loop's store -/

theorem q1_step {F : FTy → Type} (F5 f6 : S512.Idx → BitVec 32) (k : ℕ) (off : Fin 1 → ℕ) (hoff : off = ![16 * k]) (inb : ∀ a, off a + S16.size a ≤ S512.size a)
    (w : S16.Idx → BitVec 32) (hw : ∀ x, w x = F5 ((Rect.unit (s := S512) off S16.size inb).emb x) >>> 2) :
    (Memref.whole cc1_scratch1).view.writes (Elt F) (q1F F5 f6 k) [⟨Rect.unit (s := S512) off S16.size inb, w⟩] = q1F F5 f6 (k + 1) := by
  subst hoff
  funext j
  by_cases hj : j ∈ (Rect.unit (s := S512) ![16 * k] S16.size inb).set
  · obtain ⟨x, hx⟩ : ∃ x, (Rect.unit (s := S512) ![16 * k] S16.size inb).emb x = j := (Rect.unit (s := S512) ![16 * k] S16.size inb).exists_idx_of_mem hj
    have key := View.read_writes_cons_emb (Val := Elt F) (Memref.whole cc1_scratch1).view (q1F F5 f6 k) _ w [] x
    rw [hx] at key
    refine key.trans ?_
    rw [hw, hx]
    have h0 : (j 0).val = 16 * k + (x 0).val := by
      rw [← hx, Rect.emb_apply]; show 16 * k + 1 * (x 0).val = _; omega
    have hx16 : (x 0).val < 16 := (x 0).isLt
    have hc : (j 0).val < 16 * (k + 1) := by omega
    simp only [q1F]
    rw [if_pos hc]
  · have hn : ∀ p ∈ ([⟨Rect.unit (s := S512) ![16 * k] S16.size inb, w⟩] : List (View.Piece (Elt F) S512 .i32)), j ∉ p.1.set := by
      intro p hp
      simp only [List.mem_cons, List.not_mem_nil, or_false] at hp
      subst hp; exact hj
    refine (View.read_writes_apply_of_forall_not_mem (Val := Elt F) (Memref.whole cc1_scratch1).view _ j _ hn).trans ?_
    show q1F F5 f6 k j = q1F F5 f6 (k + 1) j
    rw [Rect.mem_set_unit, Fin.forall_fin_one] at hj
    have hj' : ¬ (16 * k ≤ (j 0).val ∧ (j 0).val < 16 * k + 16) := hj
    simp only [q1F]
    by_cases h1 : (j 0).val < 16 * k
    · rw [if_pos h1, if_pos (by omega)]
    · rw [if_neg h1, if_neg (by omega)]

end Cert.Proof.Packed

end
-- ==== Proof.PackedFinal.lean ====
/-
  The packed gather's result, read at an index.

  A task gathers, for each of its 512 index words, the line of the table's 128-lane view that the word shifted right by
  two names — 256 lines at a time — and stores, row c of its 32 × 512 block at column n, lane ((word n &&& 3) <<< 5) + c of
  gathered line n. After both halves the block holds, at (c, n), exactly the packed lookup's entry (c, base + n), the
  task's words being the index array's from base on: the line and lane reductions are the same words' on both sides.
-/
import proofs.«204991_g57140244906297_cont_9to1_m_249_19_alg».proof.Proof.PackedValue

noncomputable section

namespace Cert.Proof.Packed

open Idealize.ShloMosaic Cert.KernelIdeal Cert.KernelIdeal.Gen
open Idealize.ShloMosaic.ValueIdx (ix1 ix2)

/-- A gathered line's entry is the packed lookup's: position m of the task's 512 and column c name, in the table's
    25000-line view, the line of the index word shifted right by two and the lane of its low two bits shifted left by
    five plus c — the task's words being the array's from base on. -/
theorem packed_pt {F : FTy → Type} (IDS : S16384.Idx → BitVec 32) (TQ : S25000x128.Idx → Elt F .f32)
    (F5 : S512.Idx → BitVec 32) (base : ℕ) (hbase : base + 512 ≤ 16384)
    (hF5 : ∀ n : Fin 512, F5 (ix1 n) = IDS (ix1 ⟨base + n.val, by omega⟩))
    (m : ℕ) (hm : m < 512) (c : ℕ) (hc : c < 32) (a : Fin 25000) (b : Fin 128)
    (ha : a.val = (F5 (ix1 ⟨m, hm⟩) >>> 2).toNat % 25000)
    (hb : b.val = (((F5 (ix1 ⟨m, hm⟩) &&& 3#32) <<< 5) + BitVec.ofNat 32 c).toNat % 128) :
    TQ (ix2 a b) = packedE (F := F) IDS TQ (ix2 ⟨c, hc⟩ ⟨base + m, by omega⟩) := by
  have e : F5 (ix1 ⟨m, hm⟩) = IDS (ix1 ⟨base + m, by omega⟩) := hF5 ⟨m, hm⟩
  unfold packedE
  show TQ (ix2 a b) = TQ (ix2 ⟨(IDS (ix1 ⟨base + m, by omega⟩) >>> 2).toNat % 25000, Nat.mod_lt _ (by decide)⟩
    ⟨(((IDS (ix1 ⟨base + m, by omega⟩) &&& 3#32) <<< 5) + BitVec.ofNat 32 c).toNat % 128, Nat.mod_lt _ (by decide)⟩)
  rw [← e]
  refine congrArg TQ (funext fun x => ?_)
  match x with
  | ⟨0, _⟩ => exact Fin.ext ha
  | ⟨1, _⟩ => exact Fin.ext hb

/-- THE BLOCK after both halves' 32 column trips is the packed lookup's column block from base on. -/
theorem out_value {F : FTy → Type} (IDS : S16384.Idx → BitVec 32) (TQ : S25000x128.Idx → Elt F .f32)
    (F5 : S512.Idx → BitVec 32) (base : ℕ) (hbase : base + 512 ≤ 16384)
    (hF5 : ∀ n : Fin 512, F5 (ix1 n) = IDS (ix1 ⟨base + n.val, by omega⟩))
    (R0 R1 : S256x128.Idx → Elt F .f32)
    (hR0 : ∀ (r : Fin 256) (c : Fin 128), R0 (ix2 r c) = TQ (ix2 ⟨(F5 (ix1 ⟨r.val, by omega⟩) >>> 2).toNat % 25000, Nat.mod_lt _ (by decide)⟩ c))
    (hR1 : ∀ (r : Fin 256) (c : Fin 128), R1 (ix2 r c) = TQ (ix2 ⟨(F5 (ix1 ⟨256 + r.val, by omega⟩) >>> 2).toNat % 25000, Nat.mod_lt _ (by decide)⟩ c))
    (f9 : S32x512.Idx → Elt F .f32) (y : S32x512.Idx) :
    cHalf R1 F5 256 (cHalf R0 F5 0 f9 32) 32 y
      = packedE (F := F) IDS TQ (ix2 ⟨(y 0).val, ValueIdx.idx2_lt0 y⟩ ⟨base + (y 1).val, by have := ValueIdx.idx2_lt1 y; omega⟩) := by
  have hy0 : (y 0).val < 32 := ValueIdx.idx2_lt0 y
  have hy1 : (y 1).val < 512 := ValueIdx.idx2_lt1 y
  unfold cHalf
  split_ifs with h1 h2
  · rw [hR1]
    refine packed_pt IDS TQ F5 base hbase hF5 (y 1).val hy1 (y 0).val hy0 _ _ ?_ rfl
    show (F5 (ix1 ⟨256 + ((y 1).val - 256) % 256, by omega⟩) >>> 2).toNat % 25000 = _
    rw [show (⟨256 + ((y 1).val - 256) % 256, by omega⟩ : Fin 512) = ⟨(y 1).val, hy1⟩ from Fin.ext (by show 256 + ((y 1).val - 256) % 256 = (y 1).val; omega)]
  · rw [hR0]
    refine packed_pt IDS TQ F5 base hbase hF5 (y 1).val hy1 (y 0).val hy0 _ _ ?_ rfl
    show (F5 (ix1 ⟨((y 1).val - 0) % 256, by omega⟩) >>> 2).toNat % 25000 = _
    rw [show (⟨((y 1).val - 0) % 256, by omega⟩ : Fin 512) = ⟨(y 1).val, hy1⟩ from Fin.ext (by show ((y 1).val - 0) % 256 = (y 1).val; omega)]
  · exfalso; omega

/-! ## The same over the table of 250 lines -/

/-- A gathered line's entry is the packed lookup's: position m of the task's 512 and column c name, in the table's
    250-line view, the line of the index word shifted right by two and the lane of its low two bits shifted left by
    five plus c — the task's words being the array's from base on. -/
theorem packed_pt2 {F : FTy → Type} (IDS : S16384.Idx → BitVec 32) (TQ : S250x128.Idx → Elt F .f32)
    (F5 : S512.Idx → BitVec 32) (base : ℕ) (hbase : base + 512 ≤ 16384)
    (hF5 : ∀ n : Fin 512, F5 (ix1 n) = IDS (ix1 ⟨base + n.val, by omega⟩))
    (m : ℕ) (hm : m < 512) (c : ℕ) (hc : c < 32) (a : Fin 250) (b : Fin 128)
    (ha : a.val = (F5 (ix1 ⟨m, hm⟩) >>> 2).toNat % 250)
    (hb : b.val = (((F5 (ix1 ⟨m, hm⟩) &&& 3#32) <<< 5) + BitVec.ofNat 32 c).toNat % 128) :
    TQ (ix2 a b) = packedE2 (F := F) IDS TQ (ix2 ⟨c, hc⟩ ⟨base + m, by omega⟩) := by
  have e : F5 (ix1 ⟨m, hm⟩) = IDS (ix1 ⟨base + m, by omega⟩) := hF5 ⟨m, hm⟩
  unfold packedE2
  show TQ (ix2 a b) = TQ (ix2 ⟨(IDS (ix1 ⟨base + m, by omega⟩) >>> 2).toNat % 250, Nat.mod_lt _ (by decide)⟩
    ⟨(((IDS (ix1 ⟨base + m, by omega⟩) &&& 3#32) <<< 5) + BitVec.ofNat 32 c).toNat % 128, Nat.mod_lt _ (by decide)⟩)
  rw [← e]
  refine congrArg TQ (funext fun x => ?_)
  match x with
  | ⟨0, _⟩ => exact Fin.ext ha
  | ⟨1, _⟩ => exact Fin.ext hb

/-- THE BLOCK after both halves' 32 column trips is the packed lookup's column block from base on. -/
theorem out_value2 {F : FTy → Type} (IDS : S16384.Idx → BitVec 32) (TQ : S250x128.Idx → Elt F .f32)
    (F5 : S512.Idx → BitVec 32) (base : ℕ) (hbase : base + 512 ≤ 16384)
    (hF5 : ∀ n : Fin 512, F5 (ix1 n) = IDS (ix1 ⟨base + n.val, by omega⟩))
    (R0 R1 : S256x128.Idx → Elt F .f32)
    (hR0 : ∀ (r : Fin 256) (c : Fin 128), R0 (ix2 r c) = TQ (ix2 ⟨(F5 (ix1 ⟨r.val, by omega⟩) >>> 2).toNat % 250, Nat.mod_lt _ (by decide)⟩ c))
    (hR1 : ∀ (r : Fin 256) (c : Fin 128), R1 (ix2 r c) = TQ (ix2 ⟨(F5 (ix1 ⟨256 + r.val, by omega⟩) >>> 2).toNat % 250, Nat.mod_lt _ (by decide)⟩ c))
    (f9 : S32x512.Idx → Elt F .f32) (y : S32x512.Idx) :
    cHalf R1 F5 256 (cHalf R0 F5 0 f9 32) 32 y
      = packedE2 (F := F) IDS TQ (ix2 ⟨(y 0).val, ValueIdx.idx2_lt0 y⟩ ⟨base + (y 1).val, by have := ValueIdx.idx2_lt1 y; omega⟩) := by
  have hy0 : (y 0).val < 32 := ValueIdx.idx2_lt0 y
  have hy1 : (y 1).val < 512 := ValueIdx.idx2_lt1 y
  unfold cHalf
  split_ifs with h1 h2
  · rw [hR1]
    refine packed_pt2 IDS TQ F5 base hbase hF5 (y 1).val hy1 (y 0).val hy0 _ _ ?_ rfl
    show (F5 (ix1 ⟨256 + ((y 1).val - 256) % 256, by omega⟩) >>> 2).toNat % 250 = _
    rw [show (⟨256 + ((y 1).val - 256) % 256, by omega⟩ : Fin 512) = ⟨(y 1).val, hy1⟩ from Fin.ext (by show 256 + ((y 1).val - 256) % 256 = (y 1).val; omega)]
  · rw [hR0]
    refine packed_pt2 IDS TQ F5 base hbase hF5 (y 1).val hy1 (y 0).val hy0 _ _ ?_ rfl
    show (F5 (ix1 ⟨((y 1).val - 0) % 256, by omega⟩) >>> 2).toNat % 250 = _
    rw [show (⟨((y 1).val - 0) % 256, by omega⟩ : Fin 512) = ⟨(y 1).val, hy1⟩ from Fin.ext (by show ((y 1).val - 0) % 256 = (y 1).val; omega)]
  · exfalso; omega

/-! ## An indirect gather's payload at an index -/

/-- The row an offset list names for line k: the word at position o + k of the task's 512. -/
theorem rows_val {F : FTy → Type} (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (n' z : ℕ) (hn : S256.numel = n')
    (hin : ∀ x, (View.read (Elt F) ((Memref.whole cc1_scratch1).slice (Rect.unit (s := S512) ![o] S256.size inbo) hst).view Q x).toNat < z)
    (k : Fin n') (hk : k.val < 256) :
    (SparseCore.rows (F := F) (View.read (Elt F) ((Memref.whole cc1_scratch1).slice (Rect.unit (s := S512) ![o] S256.size inbo) hst).view Q) hn hin k).val
      = (Q (ix1 ⟨o + k.val, by omega⟩)).toNat := by
  have hy : ((S256.rowMajor.symm (k.cast hn.symm)) 0).val = k.val := by
    rw [← Shape.rowMajor_val_one, Equiv.apply_symm_apply]; rfl
  show (View.read (Elt F) ((Memref.whole cc1_scratch1).slice (Rect.unit (s := S512) ![o] S256.size inbo) hst).view Q
    (S256.rowMajor.symm (k.cast hn.symm))).toNat = _
  rw [View.read_apply]
  show (Q (((Memref.whole cc1_scratch1).slice (Rect.unit (s := S512) ![o] S256.size inbo) hst).view.emb (S256.rowMajor.symm (k.cast hn.symm)))).toNat = _
  refine congrArg (fun j => (Q j).toNat) (funext fun a => Fin.ext ?_)
  match a with
  | ⟨0, _⟩ =>
    show o + 1 * ((S256.rowMajor.symm (k.cast hn.symm)) 0).val = o + k.val
    omega

/-- THE GATHER'S PAYLOAD at (r, c): the table's line that word o + r of the task's 512 names, at lane c. -/
theorem gather_payload_at {F : FTy → Type} (TQ : S25000x128.Idx → Elt F .f32) (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (inbt : ∀ a, (![0, 0] : Fin 2 → ℕ) a + S25000x128.size a ≤ S25000x128.size a)
    (hst' : ∀ a, (Rect.unit (s := S25000x128) ![0, 0] S25000x128.size inbt).stride a = 1)
    (hg : S25000x128.Gathers 0 S256x128) (hn : S256.numel = S256x128.size hg.axis')
    (hin : ∀ x, (View.read (Elt F) ((Memref.whole cc1_scratch1).slice (Rect.unit (s := S512) ![o] S256.size inbo) hst).view Q x).toNat < S25000x128.size hg.axis)
    (r : Fin 256) (c : Fin 128) :
    SparseCore.gatherPayload hg (View.read (Elt F) (tqW.slice (Rect.unit (s := S25000x128) ![0, 0] S25000x128.size inbt) hst').view TQ)
        (SparseCore.rows (F := F) (View.read (Elt F) ((Memref.whole cc1_scratch1).slice (Rect.unit (s := S512) ![o] S256.size inbo) hst).view Q) hn hin) (ix2 r c)
      = TQ (ix2 ⟨(Q (ix1 ⟨o + r.val, by omega⟩)).toNat % 25000, Nat.mod_lt _ (by decide)⟩ c) := by
  have hrow : (SparseCore.rows (F := F) (View.read (Elt F) ((Memref.whole cc1_scratch1).slice (Rect.unit (s := S512) ![o] S256.size inbo) hst).view Q) hn hin
      ((ix2 r c : S256x128.Idx) hg.axis')).val = (Q (ix1 ⟨o + r.val, by omega⟩)).toNat :=
    rows_val (F := F) Q o ho inbo hst _ _ hn hin ((ix2 r c : S256x128.Idx) hg.axis') r.isLt
  have hlt : (Q (ix1 ⟨o + r.val, by omega⟩)).toNat < 25000 := by
    have h := (SparseCore.rows (F := F) (View.read (Elt F) ((Memref.whole cc1_scratch1).slice (Rect.unit (s := S512) ![o] S256.size inbo) hst).view Q) hn hin
      ((ix2 r c : S256x128.Idx) hg.axis')).isLt
    rw [hrow] at h
    exact h
  have hax := hg.idx_axis (SparseCore.rows (F := F) (View.read (Elt F) ((Memref.whole cc1_scratch1).slice (Rect.unit (s := S512) ![o] S256.size inbo) hst).view Q) hn hin) (ix2 r c)
  have hne := hg.idx_of_ne (SparseCore.rows (F := F) (View.read (Elt F) ((Memref.whole cc1_scratch1).slice (Rect.unit (s := S512) ![o] S256.size inbo) hst).view Q) hn hin) (ix2 r c)
    (1 : Fin 2) (by decide)
  unfold SparseCore.gatherPayload
  rw [View.read_apply]
  show TQ ((tqW.slice (Rect.unit (s := S25000x128) ![0, 0] S25000x128.size inbt) hst').view.emb
    (hg.idx (SparseCore.rows (F := F) (View.read (Elt F) ((Memref.whole cc1_scratch1).slice (Rect.unit (s := S512) ![o] S256.size inbo) hst).view Q) hn hin) (ix2 r c))) = _
  refine congrArg TQ (funext fun a => Fin.ext ?_)
  match a with
  | ⟨0, _⟩ =>
    show 0 + 1 * (hg.idx (SparseCore.rows (F := F) (View.read (Elt F) ((Memref.whole cc1_scratch1).slice (Rect.unit (s := S512) ![o] S256.size inbo) hst).view Q) hn hin) (ix2 r c) hg.axis).val
      = (Q (ix1 ⟨o + r.val, by omega⟩)).toNat % 25000
    rw [hax, hrow, Nat.mod_eq_of_lt hlt]
    omega
  | ⟨1, _⟩ =>
    show 0 + 1 * (hg.idx (SparseCore.rows (F := F) (View.read (Elt F) ((Memref.whole cc1_scratch1).slice (Rect.unit (s := S512) ![o] S256.size inbo) hst).view Q) hn hin) (ix2 r c) (1 : Fin 2)).val
      = c.val
    rw [hne]
    show 0 + 1 * c.val = c.val
    omega

/-! ## The same for the table of 250 lines -/

/-- The row an offset list names for line k: the word at position o + k of the task's 512. -/
theorem rows_val2 {F : FTy → Type} (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (n' z : ℕ) (hn : S256.numel = n')
    (hin : ∀ x, (View.read (Elt F) ((Memref.whole cc2_scratch1).slice (Rect.unit (s := S512) ![o] S256.size inbo) hst).view Q x).toNat < z)
    (k : Fin n') (hk : k.val < 256) :
    (SparseCore.rows (F := F) (View.read (Elt F) ((Memref.whole cc2_scratch1).slice (Rect.unit (s := S512) ![o] S256.size inbo) hst).view Q) hn hin k).val
      = (Q (ix1 ⟨o + k.val, by omega⟩)).toNat := by
  have hy : ((S256.rowMajor.symm (k.cast hn.symm)) 0).val = k.val := by
    rw [← Shape.rowMajor_val_one, Equiv.apply_symm_apply]; rfl
  show (View.read (Elt F) ((Memref.whole cc2_scratch1).slice (Rect.unit (s := S512) ![o] S256.size inbo) hst).view Q
    (S256.rowMajor.symm (k.cast hn.symm))).toNat = _
  rw [View.read_apply]
  show (Q (((Memref.whole cc2_scratch1).slice (Rect.unit (s := S512) ![o] S256.size inbo) hst).view.emb (S256.rowMajor.symm (k.cast hn.symm)))).toNat = _
  refine congrArg (fun j => (Q j).toNat) (funext fun a => Fin.ext ?_)
  match a with
  | ⟨0, _⟩ =>
    show o + 1 * ((S256.rowMajor.symm (k.cast hn.symm)) 0).val = o + k.val
    omega

/-- THE GATHER'S PAYLOAD at (r, c): the table's line that word o + r of the task's 512 names, at lane c. -/
theorem gather_payload_at2 {F : FTy → Type} (TQ : S250x128.Idx → Elt F .f32) (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (inbt : ∀ a, (![0, 0] : Fin 2 → ℕ) a + S250x128.size a ≤ S250x128.size a)
    (hst' : ∀ a, (Rect.unit (s := S250x128) ![0, 0] S250x128.size inbt).stride a = 1)
    (hg : S250x128.Gathers 0 S256x128) (hn : S256.numel = S256x128.size hg.axis')
    (hin : ∀ x, (View.read (Elt F) ((Memref.whole cc2_scratch1).slice (Rect.unit (s := S512) ![o] S256.size inbo) hst).view Q x).toNat < S250x128.size hg.axis)
    (r : Fin 256) (c : Fin 128) :
    SparseCore.gatherPayload hg (View.read (Elt F) (tqW2.slice (Rect.unit (s := S250x128) ![0, 0] S250x128.size inbt) hst').view TQ)
        (SparseCore.rows (F := F) (View.read (Elt F) ((Memref.whole cc2_scratch1).slice (Rect.unit (s := S512) ![o] S256.size inbo) hst).view Q) hn hin) (ix2 r c)
      = TQ (ix2 ⟨(Q (ix1 ⟨o + r.val, by omega⟩)).toNat % 250, Nat.mod_lt _ (by decide)⟩ c) := by
  have hrow : (SparseCore.rows (F := F) (View.read (Elt F) ((Memref.whole cc2_scratch1).slice (Rect.unit (s := S512) ![o] S256.size inbo) hst).view Q) hn hin
      ((ix2 r c : S256x128.Idx) hg.axis')).val = (Q (ix1 ⟨o + r.val, by omega⟩)).toNat :=
    rows_val2 (F := F) Q o ho inbo hst _ _ hn hin ((ix2 r c : S256x128.Idx) hg.axis') r.isLt
  have hlt : (Q (ix1 ⟨o + r.val, by omega⟩)).toNat < 250 := by
    have h := (SparseCore.rows (F := F) (View.read (Elt F) ((Memref.whole cc2_scratch1).slice (Rect.unit (s := S512) ![o] S256.size inbo) hst).view Q) hn hin
      ((ix2 r c : S256x128.Idx) hg.axis')).isLt
    rw [hrow] at h
    exact h
  have hax := hg.idx_axis (SparseCore.rows (F := F) (View.read (Elt F) ((Memref.whole cc2_scratch1).slice (Rect.unit (s := S512) ![o] S256.size inbo) hst).view Q) hn hin) (ix2 r c)
  have hne := hg.idx_of_ne (SparseCore.rows (F := F) (View.read (Elt F) ((Memref.whole cc2_scratch1).slice (Rect.unit (s := S512) ![o] S256.size inbo) hst).view Q) hn hin) (ix2 r c)
    (1 : Fin 2) (by decide)
  unfold SparseCore.gatherPayload
  rw [View.read_apply]
  show TQ ((tqW2.slice (Rect.unit (s := S250x128) ![0, 0] S250x128.size inbt) hst').view.emb
    (hg.idx (SparseCore.rows (F := F) (View.read (Elt F) ((Memref.whole cc2_scratch1).slice (Rect.unit (s := S512) ![o] S256.size inbo) hst).view Q) hn hin) (ix2 r c))) = _
  refine congrArg TQ (funext fun a => Fin.ext ?_)
  match a with
  | ⟨0, _⟩ =>
    show 0 + 1 * (hg.idx (SparseCore.rows (F := F) (View.read (Elt F) ((Memref.whole cc2_scratch1).slice (Rect.unit (s := S512) ![o] S256.size inbo) hst).view Q) hn hin) (ix2 r c) hg.axis).val
      = (Q (ix1 ⟨o + r.val, by omega⟩)).toNat % 250
    rw [hax, hrow, Nat.mod_eq_of_lt hlt]
    omega
  | ⟨1, _⟩ =>
    show 0 + 1 * (hg.idx (SparseCore.rows (F := F) (View.read (Elt F) ((Memref.whole cc2_scratch1).slice (Rect.unit (s := S512) ![o] S256.size inbo) hst).view Q) hn hin) (ix2 r c) (1 : Fin 2)).val
      = c.val
    rw [hne]
    show 0 + 1 * c.val = c.val
    omega

end Cert.Proof.Packed

end
-- ==== Proof.PackedBlock.lean ====
/-
  The block a task copies out, read at an element of its slice of the output: from what the index copy, the two row
  gathers and the two column loops left in the scratch buffers, every element of the slice holds the lookup's value.
-/
import proofs.«204991_g57140244906297_cont_9to1_m_249_19_alg».proof.Proof.PackedFinal

noncomputable section

namespace Cert.Proof.Packed

open Idealize.ShloMosaic Cert.KernelIdeal Cert.KernelIdeal.Gen
open Idealize.ShloMosaic.ValueIdx (ix1 ix2)

theorem whole_piece2 {F : FTy → Type} (j G : S256x128.Idx → Elt F .f32) (x : S256x128.Idx) :
    (Memref.whole cc1_scratch2).view.writes (Elt F) j [⟨Rect.whole S256x128, G⟩] x = G x := by
  have key := View.read_writes_cons_emb (Val := Elt F) (Memref.whole cc1_scratch2).view j (Rect.whole S256x128) G [] x
  have e : (Rect.whole S256x128).emb x = x := by
    funext a; apply Fin.ext; show 0 + 1 * (x a).val = (x a).val; omega
  rw [e] at key
  exact key

theorem whole_piece3 {F : FTy → Type} (j G : S256x128.Idx → Elt F .f32) (x : S256x128.Idx) :
    (Memref.whole cc1_scratch3).view.writes (Elt F) j [⟨Rect.whole S256x128, G⟩] x = G x := by
  have key := View.read_writes_cons_emb (Val := Elt F) (Memref.whole cc1_scratch3).view j (Rect.whole S256x128) G [] x
  have e : (Rect.whole S256x128).emb x = x := by
    funext a; apply Fin.ext; show 0 + 1 * (x a).val = (x a).val; omega
  rw [e] at key
  exact key

set_option maxHeartbeats 4000000 in
theorem block_value {F : FTy → Type} (L : grid1.Coords) (IDS : S16384.Idx → BitVec 32) (TQ : S25000x128.Idx → Elt F .f32)
    (F5 : S512.Idx → BitVec 32)
    (hF5v : ∀ y, F5 y = View.read (Elt F) (idsW.slice (Rect.unit (s := S16384) (k1_off1 L) S512.size (k1_off1_inb L)) (fun _ => rfl)).view IDS y)
    (hg : S25000x128.Gathers 0 S256x128) (hn : S256.numel = S256x128.size hg.axis')
    (inbt : ∀ a, (![0, 0] : Fin 2 → ℕ) a + S25000x128.size a ≤ S25000x128.size a)
    (hinA : ∀ x, (View.read (Elt F) ((Memref.whole cc1_scratch1).slice (Rect.unit (s := S512) ![0] S256.size inb_S512_S256_0) (fun _ => rfl)).view (qFull F5) x).toNat < S25000x128.size hg.axis)
    (hinB : ∀ x, (View.read (Elt F) ((Memref.whole cc1_scratch1).slice (Rect.unit (s := S512) ![256] S256.size inb_S512_S256_256) (fun _ => rfl)).view (qFull F5) x).toNat < S25000x128.size hg.axis)
    (j7 j8 : S256x128.Idx → Elt F .f32) (R0 R1 : S256x128.Idx → Elt F .f32)
    (hR0 : R0 = (Memref.whole cc1_scratch2).view.writes (Elt F) j7 [⟨Rect.whole S256x128,
      SparseCore.gatherPayload hg (View.read (Elt F) (tqW.slice (Rect.unit (s := S25000x128) ![0, 0] S25000x128.size inbt) (fun _ => rfl)).view TQ)
        (SparseCore.rows (F := F) (View.read (Elt F) ((Memref.whole cc1_scratch1).slice (Rect.unit (s := S512) ![0] S256.size inb_S512_S256_0) (fun _ => rfl)).view (qFull F5)) hn hinA)⟩])
    (hR1 : R1 = (Memref.whole cc1_scratch3).view.writes (Elt F) j8 [⟨Rect.whole S256x128,
      SparseCore.gatherPayload hg (View.read (Elt F) (tqW.slice (Rect.unit (s := S25000x128) ![0, 0] S25000x128.size inbt) (fun _ => rfl)).view TQ)
        (SparseCore.rows (F := F) (View.read (Elt F) ((Memref.whole cc1_scratch1).slice (Rect.unit (s := S512) ![256] S256.size inb_S512_S256_256) (fun _ => rfl)).view (qFull F5)) hn hinB)⟩])
    (f0 : S32x16384.Idx → Elt F .f32) (f9 : S32x512.Idx → Elt F .f32) :
    ∀ i ∈ (outBlk L).view.set,
      ((outBlk L).view.writes (Elt F) f0 [⟨Rect.whole S32x512, ReadAs.same.apply (View.read (Elt F) (Memref.whole cc1_scratch4).view
          (cHalf R1 F5 256 (cHalf R0 F5 0 f9 32) 32))⟩]) i = packedE (F := F) IDS TQ i := by
  have hL0 : (L 0).val < 2 := (L 0).isLt
  have hL1 : (L 1).val < 16 := (L 1).isLt
  have hF5n : ∀ n : Fin 512, F5 (ix1 n) = IDS (ix1 ⟨(1024 * (L 1).val + 512 * (L 0).val) + n.val, by omega⟩) := by
    intro n
    rw [hF5v]
    show IDS ((idsW.slice (Rect.unit (s := S16384) (k1_off1 L) S512.size (k1_off1_inb L)) (fun _ => rfl)).view.emb (ix1 n)) = _
    congr 1
    funext a
    apply Fin.ext
    fin_cases a
    have e : (k1_off1 L) 0 = 1024 * (L 1).val + 512 * (L 0).val := congrFun (k1_off1_eq L) 0
    show (k1_off1 L) 0 + 1 * n.val = (1024 * (L 1).val + 512 * (L 0).val) + n.val
    omega
  have hR0' : ∀ (r : Fin 256) (c : Fin 128), R0 (ix2 r c)
      = TQ (ix2 ⟨(F5 (ix1 ⟨r.val, by omega⟩) >>> 2).toNat % 25000, Nat.mod_lt _ (by decide)⟩ c) := by
    intro r c
    rw [hR0, whole_piece2]
    have h := gather_payload_at (F := F) TQ (qFull F5) 0 (by omega) inb_S512_S256_0 (fun _ => rfl) inbt (fun _ => rfl) hg hn hinA r c
    simp only [Nat.zero_add] at h
    exact h
  have hR1' : ∀ (r : Fin 256) (c : Fin 128), R1 (ix2 r c)
      = TQ (ix2 ⟨(F5 (ix1 ⟨256 + r.val, by omega⟩) >>> 2).toNat % 25000, Nat.mod_lt _ (by decide)⟩ c) := by
    intro r c
    rw [hR1, whole_piece3]
    exact gather_payload_at (F := F) TQ (qFull F5) 256 (by omega) inb_S512_S256_256 (fun _ => rfl) inbt (fun _ => rfl) hg hn hinB r c
  intro i hi
  obtain ⟨y, -, rfl⟩ := Finset.mem_map.mp hi
  have key := View.read_writes_cons_emb (Val := Elt F) (outBlk L).view f0 (Rect.whole S32x512) (ReadAs.same.apply (View.read (Elt F) (Memref.whole cc1_scratch4).view
          (cHalf R1 F5 256 (cHalf R0 F5 0 f9 32) 32))) [] y
  have e : (Rect.whole S32x512).emb y = y := by
    funext a; apply Fin.ext; show 0 + 1 * (y a).val = (y a).val; omega
  rw [e] at key
  refine (show _ = _ from key).trans ?_
  show cHalf R1 F5 256 (cHalf R0 F5 0 f9 32) 32 y = _
  rw [out_value (F := F) IDS TQ F5 (1024 * (L 1).val + 512 * (L 0).val) (by omega) hF5n R0 R1 hR0' hR1' f9 y]
  congr 1
  funext a
  apply Fin.ext
  fin_cases a
  · have e : (k1_off35 L) 0 = 0 := congrFun (k1_off35_eq L) 0
    show (y 0).val = (k1_off35 L) 0 + 1 * (y 0).val
    omega
  · have e : (k1_off35 L) 1 = 1024 * (L 1).val + 512 * (L 0).val := congrFun (k1_off35_eq L) 1
    show (1024 * (L 1).val + 512 * (L 0).val) + (y 1).val = (k1_off35 L) 1 + 1 * (y 1).val
    omega

end Cert.Proof.Packed

end
-- ==== Proof.PackedBody.lean ====
/-
  The task of one vector subcore in the packed gather of the second table (SparseCore call 1): the tile copies its 512
  index words into a scratch, writes each word shifted right by two into a second scratch, gathers the 256 + 256 rows
  those name out of the table read as 25000 rows of 128, picks lane ((idx &&& 3) <<< 5) + c of row n for every column
  c < 32 and position n < 512, and copies the 32 × 512 block so built to its columns of the output.
-/
import proofs.«204991_g57140244906297_cont_9to1_m_249_19_alg».proof.Proof.CommonI
import proofs.«204991_g57140244906297_cont_9to1_m_249_19_alg».proof.Proof.PackedDefs
import proofs.«204991_g57140244906297_cont_9to1_m_249_19_alg».proof.Proof.PackedValue
import proofs.«204991_g57140244906297_cont_9to1_m_249_19_alg».proof.Proof.PackedBlock
import proofs.«204991_g57140244906297_cont_9to1_m_249_19_alg».proof.Proof.Gen.KernelIdeal.Skeleton
import Idealize.ShloMosaic.Lib.SparseCore.Stream
import Idealize.ShloMosaic.Lib.Transfers
import Idealize.ShloMosaic.Lib.Writes
import Idealize.ShloMosaic.Lib.ValueIdx

noncomputable section

namespace Cert.Proof.Packed

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 4) (Elt F) ℕ UU ℕ

/-! ## The tile's own semaphores and scratch buffers -/

abbrev g0 (d : Dev nD) (L : grid1.Coords) : GSem nD τ sig := (thr d L, .dma cc1_scoped0.sem)
abbrev g1 (d : Dev nD) (L : grid1.Coords) : GSem nD τ sig := (thr d L, .dma cc1_scoped1.sem)
abbrev gA (d : Dev nD) (L : grid1.Coords) : GSem nD τ sig := (thr d L, .dma cc1_scratch5.sem)
abbrev gB (d : Dev nD) (L : grid1.Coords) : GSem nD τ sig := (thr d L, .dma cc1_scratch6.sem)

/-- The four DMA semaphores the task uses. -/
def cells4 (d : Dev nD) (L : grid1.Coords) : Finset (GSem nD τ sig) := {g0 d L, g1 d L, gA d L, gB d L}

abbrev pV (L : grid1.Coords) : Proc τ := Proc.scVector ((L 0).castLE hcore1) ((L 1).castLE hsub1)
abbrev r0 (L : grid1.Coords) : DevRef τ sig := (pV L).devRef cc1_scratch0
abbrev r1 (L : grid1.Coords) : DevRef τ sig := (pV L).devRef cc1_scratch1
abbrev r2 (L : grid1.Coords) : DevRef τ sig := (pV L).devRef cc1_scratch2
abbrev r3 (L : grid1.Coords) : DevRef τ sig := (pV L).devRef cc1_scratch3
abbrev r4 (L : grid1.Coords) : DevRef τ sig := (pV L).devRef cc1_scratch4

/-- The five scratch buffers the task uses. -/
def refs5 (L : grid1.Coords) : Finset (DevRef τ sig) := {r0 L, r1 L, r2 L, r3 L, r4 L}

abbrev sIdx : Memref sig .scVector .vmem S512 .i32 := Memref.whole cc1_scratch0
abbrev sQ : Memref sig .scVector .vmem S512 .i32 := Memref.whole cc1_scratch1
abbrev sR0 : Memref sig .scVector .vmem S256x128 .f32 := Memref.whole cc1_scratch2
abbrev sR1 : Memref sig .scVector .vmem S256x128 .f32 := Memref.whole cc1_scratch3
abbrev sC : Memref sig .scVector .vmem S32x512 .f32 := Memref.whole cc1_scratch4

omit [FloatOps F] in
theorem sems_eq (d : Dev nD) (L : grid1.Coords) :
    (scopedSems0 (thr d L) : sProp 𝕄)
      = iprop((semVal (g0 d L) 0 ∗ semVal (g1 d L) 0 ∗ semVal (gA d L) 0 ∗ semVal (gB d L) 0)
          ∗ bigSep (ownCells (thr d L) \ cells4 d L) fun g => semVal g 0) := by
  have hsub : cells4 d L ⊆ ownCells (thr d L) := by
    intro g hg
    simp only [cells4, Finset.mem_insert, Finset.mem_singleton] at hg
    rcases hg with rfl | rfl | rfl | rfl
    · exact mem_ownCells.mpr ⟨rfl, by show (SemLoc.dma cc1_scoped0.sem : SemLoc sig).isScoped .scVector = true; decide⟩
    · exact mem_ownCells.mpr ⟨rfl, by show (SemLoc.dma cc1_scoped1.sem : SemLoc sig).isScoped .scVector = true; decide⟩
    · exact mem_ownCells.mpr ⟨rfl, by show (SemLoc.dma cc1_scratch5.sem : SemLoc sig).isScoped .scVector = true; decide⟩
    · exact mem_ownCells.mpr ⟨rfl, by show (SemLoc.dma cc1_scratch6.sem : SemLoc sig).isScoped .scVector = true; decide⟩
  rw [SparseCore.Cfg.scopedSems0_V (Val := Elt F) d _ _]
  unfold SparseCore.Cfg.ownSems0
  rw [SparseCore.bigSep_sdiff_split' hsub]
  unfold cells4
  rw [SparseCore.bigSep_insert' (by simp [Prod.ext_iff]; decide), SparseCore.bigSep_insert' (by simp [Prod.ext_iff]; decide),
    SparseCore.bigSep_insert' (by simp [Prod.ext_iff]; decide), bigSep_singleton]

theorem bufs_eq (d : Dev nD) (L : grid1.Coords) :
    (scopedBufs (thr d L) : sProp 𝕄)
      = iprop(((∃ f, (sIdx).view.loc (thr d L) ↦{fullShare} f) ∗ (∃ f, (sQ).view.loc (thr d L) ↦{fullShare} f)
          ∗ (∃ f, (sR0).view.loc (thr d L) ↦{fullShare} f) ∗ (∃ f, (sR1).view.loc (thr d L) ↦{fullShare} f)
          ∗ (∃ f, (sC).view.loc (thr d L) ↦{fullShare} f))
          ∗ bigSep (ownRefs (τ := τ) (pV L) \ refs5 L) fun b => iprop(∃ f, ((d, b) : Loc nD τ sig) ↦{fullShare} f)) := by
  have hsub : refs5 L ⊆ ownRefs (τ := τ) (pV L) := by
    intro b hb
    simp only [refs5, Finset.mem_insert, Finset.mem_singleton] at hb
    rcases hb with rfl | rfl | rfl | rfl | rfl <;> exact SparseCore.Cfg.mem_ownRefs_of_owner (p := pV L) rfl
  have hne : ∀ {a b : Ref sig .scVector}, a ≠ b → (pV L).devRef a ≠ (pV L).devRef b := fun h e => h (Proc.devRef_injective _ e)
  rw [(K (F := F)).scopedBufs_V facts d _ _]
  unfold SparseCore.Cfg.ownBufs
  rw [show ((thr d L : Thread nD τ).2) = pV L from rfl, SparseCore.bigSep_sdiff_split' hsub]
  unfold refs5
  rw [SparseCore.bigSep_insert' (by simp only [Finset.mem_insert, Finset.mem_singleton, not_or]; exact ⟨hne (by decide), hne (by decide), hne (by decide), hne (by decide)⟩),
    SparseCore.bigSep_insert' (by simp only [Finset.mem_insert, Finset.mem_singleton, not_or]; exact ⟨hne (by decide), hne (by decide), hne (by decide)⟩),
    SparseCore.bigSep_insert' (by simp only [Finset.mem_insert, Finset.mem_singleton, not_or]; exact ⟨hne (by decide), hne (by decide)⟩),
    SparseCore.bigSep_insert' (by simp only [Finset.mem_singleton]; exact hne (by decide)), bigSep_singleton]

omit [FloatOps F] in
theorem pts_ids (d : Dev nD) (L : grid1.Coords) (q : PosShare TreeShare) (f : Buf (Elt F) (idsLoc d)) :
    (View.loc (thr d L) (View.whole main_arg1_scv) ↦{q} f : sProp 𝕄) = ((idsW).view.loc (thr d L) ↦{q} f) := rfl
omit [FloatOps F] in
theorem pts_tq (d : Dev nD) (L : grid1.Coords) (q : PosShare TreeShare) (f : Buf (Elt F) (tqLoc d)) :
    (View.loc (thr d L) (View.whole main_v4_scv) ↦{q} f : sProp 𝕄) = ((tqW).view.loc (thr d L) ↦{q} f) := rfl
omit [FloatOps F] in
theorem pts_out (d : Dev nD) (L : grid1.Coords) (f : Buf (Elt F) (outLoc d)) :
    (View.loc (thr d L) ((View.whole main_v5_scv).slice (Rect.unit (s := S32x16384) (k1_off35 L) S32x512.size (k1_off35_inb L)))
        ↦[((View.whole main_v5_scv).slice (Rect.unit (s := S32x16384) (k1_off35 L) S32x512.size (k1_off35_inb L))).set]{fullShare} f : sProp 𝕄)
      = ((outBlk L).view.loc (thr d L) ↦[(outBlk L).view.set]{fullShare} f) := rfl

/-! ## The loops' invariants -/

omit [FloatOps F] in
def inv1 (d : Dev nD) (L : grid1.Coords) (F5 : Buf (Elt F) ((sIdx).view.loc (thr d L))) (f6 : Buf (Elt F) ((sQ).view.loc (thr d L)))
    (k : ℕ) (_ : PUnit) : sProp 𝕄 :=
  iprop(((sIdx).view.loc (thr d L) ↦{fullShare} F5) ∗ ∃ f, ((sQ).view.loc (thr d L) ↦{fullShare} f) ∗ ⌜f = q1F F5 f6 k⌝)

theorem trips1 : Scf.trips k1_t1_loop.lb k1_t1_loop.ub k1_t1_loop.st = 32 := by decide
theorem trips2 : Scf.trips k1_t2_loop.lb k1_t2_loop.ub k1_t2_loop.st = 32 := by decide
theorem trips3 : Scf.trips k1_t3_loop.lb k1_t3_loop.ub k1_t3_loop.st = 32 := by decide

theorem q1F_full (F5 f6 : S512.Idx → BitVec 32) : q1F F5 f6 (Scf.trips k1_t1_loop.lb k1_t1_loop.ub k1_t1_loop.st) = qFull F5 := by
  rw [trips1]; exact q1F_32 F5 f6

omit [FloatOps F] in
def inv2 (d : Dev nD) (L : grid1.Coords) (F5 : Buf (Elt F) ((sIdx).view.loc (thr d L))) (R0 : Buf (Elt F) ((sR0).view.loc (thr d L)))
    (C0 : Buf (Elt F) ((sC).view.loc (thr d L))) (k : ℕ) (_ : PUnit) : sProp 𝕄 :=
  iprop(((sIdx).view.loc (thr d L) ↦{fullShare} F5) ∗ ((sR0).view.loc (thr d L) ↦{fullShare} R0)
    ∗ ∃ f, ((sC).view.loc (thr d L) ↦{fullShare} f) ∗ ⌜f = cHalf R0 F5 0 C0 k⌝)

omit [FloatOps F] in
theorem pts_acc7 (d : Dev nD) (L : grid1.Coords) (f : Buf (Elt F) ((sR0).view.loc (thr d L))) :
    ((sR0).view.loc (thr d L) ↦{fullShare} f : sProp 𝕄) = (((sR0).access (.whole S256x128)).loc (thr d L) ↦{fullShare} f) := rfl

set_option hygiene false in
/-- One lane group of a column trip: the run up to the indexed load, then the indexed load by its rule. -/
macro "vli_step" : tactic => `(tactic| (
  sl_exec (disch := (refine chk_ok _ _ ?_ _ _ hck; decide))
  ihave H7 := (Entails.of_eq (pts_acc7 (F := F) d L _)) $$ H7
  iapply (SparseCore.wp_vectorLoadIdx (defs := defs₀ (F := F)) 𝒱₀ (thr d L) none Set.univ (Finset.subset_univ _)) $$ H7
  iintro H7
  ihave H7 := (Entails.of_eq (pts_acc7 (F := F) d L _).symm) $$ H7))

omit [FloatOps F] in
def inv3 (d : Dev nD) (L : grid1.Coords) (F5 : Buf (Elt F) ((sIdx).view.loc (thr d L))) (R1 : Buf (Elt F) ((sR1).view.loc (thr d L)))
    (C0 : Buf (Elt F) ((sC).view.loc (thr d L))) (k : ℕ) (_ : PUnit) : sProp 𝕄 :=
  iprop(((sIdx).view.loc (thr d L) ↦{fullShare} F5) ∗ ((sR1).view.loc (thr d L) ↦{fullShare} R1)
    ∗ ∃ f, ((sC).view.loc (thr d L) ↦{fullShare} f) ∗ ⌜f = cHalf R1 F5 256 C0 k⌝)

omit [FloatOps F] in
theorem pts_acc8 (d : Dev nD) (L : grid1.Coords) (f : Buf (Elt F) ((sR1).view.loc (thr d L))) :
    ((sR1).view.loc (thr d L) ↦{fullShare} f : sProp 𝕄) = (((sR1).access (.whole S256x128)).loc (thr d L) ↦{fullShare} f) := rfl

set_option hygiene false in
/-- The same over the second gathered block. -/
macro "vli_step8" : tactic => `(tactic| (
  sl_exec (disch := (refine chk_ok _ _ ?_ _ _ hck; decide))
  ihave H8 := (Entails.of_eq (pts_acc8 (F := F) d L _)) $$ H8
  iapply (SparseCore.wp_vectorLoadIdx (defs := defs₀ (F := F)) 𝒱₀ (thr d L) none Set.univ (Finset.subset_univ _)) $$ H8
  iintro H8
  ihave H8 := (Entails.of_eq (pts_acc8 (F := F) d L _).symm) $$ H8))

set_option maxHeartbeats 16000000 in
set_option maxRecDepth 65536 in
theorem body (m : (ℓ : Loc nD τ sig) → Buf (Elt F) ℓ) (d : Dev nD) (L : grid1.Coords) (O : CellTallies nD τ sig (HIx 4)) (W : Waits sig (HIx 4))
    (hO : ∀ g, O g none = 0)
    (hin : ∀ j : S16384.Idx, ((m (idsLoc d) : S16384.Idx → BitVec 32) j).toNat < 100000)
    (f0 : Buf (Elt F) (outLoc d)) (q1 q4 : PosShare TreeShare) :
    (iprop(levAts (K (F := F)).L (K (F := F)).lev
        ∗ ((idsW).view.loc (thr d L) ↦{q1} m (idsLoc d))
        ∗ ((tqW).view.loc (thr d L) ↦{q4} m (tqLoc d))
        ∗ ((outBlk L).view.loc (thr d L) ↦[(outBlk L).view.set]{fullShare} f0)
        ∗ scopedBufs (thr d L) ∗ scopedSems0 (thr d L) ∗ owes (thr d L) O W) : sProp 𝕄)
      ⊢ wp frame (wpE (defs₀ (F := F)) 𝒱₀ (thr d L) none) Set.univ
          (cc1_packed_gather L idsW (Memref.isWhole_whole _) tqW (Memref.isWhole_whole _) outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(((idsW).view.loc (thr d L) ↦{q1} m (idsLoc d))
            ∗ ((tqW).view.loc (thr d L) ↦{q4} m (tqLoc d))
            ∗ ((outBlk L).view.loc (thr d L) ↦[(outBlk L).view.set]{fullShare}
                (packedE (F := F) (m (idsLoc d)) (m (tqLoc d)) : Buf (Elt F) (outLoc d)))
            ∗ scopedBufs (thr d L) ∗ scopedSems0 (thr d L) ∗ ∃ W', ⌜∀ p ∈ W', p ∈ W ∨ p.2 = none⌝ ∗ owes (thr d L) O W') := by
  simp only [cc1_packed_gather_eq_skeleton]; unfold cc1_packed_gather_skel
  rw [sems_eq, bufs_eq]
  iintro ⟨#Hlv, Hi, Ht, Ho, Hb, Hs, HO⟩
  icases Hb with ⟨Hb5, Hbufs⟩
  icases Hb5 with ⟨⟨%f5, H5⟩, ⟨%f6, H6⟩, ⟨%f7, H7⟩, ⟨%f8, H8⟩, ⟨%f9, H9⟩⟩
  icases Hs with ⟨⟨Hs0, Hs1, HsA, HsB⟩, Hsems⟩
  ihave Hmw := ((K (F := F)).mayWaits_none (thr := thr d L) hO) $$ Hlv
  ihave Hi := (Entails.of_eq (pts_ids (F := F) d L q1 _)) $$ Hi
  ihave Ht := (Entails.of_eq (pts_tq (F := F) d L q4 _)) $$ Ht
  ihave Ho := (Entails.of_eq (pts_out (F := F) d L _)) $$ Ho
  sl_exec
  obtain ⟨F5, hF5⟩ : ∃ F5 : Buf (Elt F) ((sIdx).view.loc (thr d L)),
      F5 = View.write (Elt F) (Memref.whole cc1_scratch0).view f5 (body.sl.dma0 m d L) Finset.univ := ⟨_, rfl⟩
  rw [← hF5]
  have hF5v : ∀ y, F5 y = View.read (Elt F) (idsW.slice (Rect.unit (s := S16384) (k1_off1 L) S512.size (k1_off1_inb L)) (fun _ => rfl)).view (m (idsLoc d)) y := by
    intro y; rw [hF5]; unfold body.sl.dma0; rw [View.write_whole_univ]
  have hF5lt : ∀ y, (F5 y : BitVec 32).toNat < 100000 := by
    intro y; rw [hF5v]; exact hin _
  sl_for (inv1 (F := F) d L F5 f6) $$ [H5 H6]
  case region =>
    intro k _
    unfold inv1
    iintro ⟨H5, %f, H6, %hf⟩
    subst hf
    sl_exec
    sl_step
    isplitl [H5]; · iexact H5
    iexists _; isplitl [H6]; · iexact H6
    ipureintro
    exact q1_step (F := F) F5 f6 k.val _ (k1_off2_eq k) _ _ (fun x => shrui2 _)
  · unfold inv1
    isplitl [H5]; · iexact H5
    iexists _; isplitl [H6]; · iexact H6
    ipureintro
    exact q1F_zero _ _
  iintro %_ HI
  unfold inv1
  icases HI with ⟨H5, %f, H6, %hf⟩
  have hf' := hf.trans (q1F_full _ f6)
  subst hf'
  have hinA : ∀ x : (Rect.unit (s := S512) ![0] S256.size inb_S512_S256_0).shape.Idx,
      BitVec.toNat (View.read (Elt F) ((Memref.whole cc1_scratch1).slice (Rect.unit (s := S512) ![0] S256.size inb_S512_S256_0) (fun _ => rfl)).view
        (qFull F5) x) < 25000 :=
    fun x => shr2_lt _ (hF5lt _)
  have hinB : ∀ x : (Rect.unit (s := S512) ![256] S256.size inb_S512_S256_256).shape.Idx,
      BitVec.toNat (View.read (Elt F) ((Memref.whole cc1_scratch1).slice (Rect.unit (s := S512) ![256] S256.size inb_S512_S256_256) (fun _ => rfl)).view
        (qFull F5) x) < 25000 :=
    fun x => shr2_lt _ (hF5lt _)
  ihave Ht2 := (Transfers.pointsTo_toks_range q4 1).1 $$ Ht
  rw [Finset.range_one, bigSep_singleton]
  icases Ht2 with ⟨HtA, HtB⟩
  sl_exec
  obtain ⟨R0, hR0⟩ : ∃ R0 : Buf (Elt F) ((sR0).view.loc (thr d L)),
      R0 = sR0.view.writes (Elt F) sR0.view.junk [⟨Rect.whole S256x128, body.sl.gather0 m d L F5 hinA⟩] := ⟨_, rfl⟩
  rw [← hR0]
  sl_for (inv2 (F := F) d L F5 R0 f9) $$ [H5 H7 H9]
  case region =>
    intro k _
    have hk : k.val < 32 := lt_of_lt_of_eq k.isLt trips2
    have hck : (cK k.val).toNat < 32 := by rw [cK_toNat _ hk]; exact hk
    unfold inv2
    iintro ⟨H5, H7, %f, H9, %hf⟩
    subst hf
    vli_step
    vli_step
    vli_step
    vli_step
    vli_step
    vli_step
    vli_step
    vli_step
    vli_step
    vli_step
    vli_step
    vli_step
    vli_step
    vli_step
    vli_step
    vli_step
    sl_exec
    sl_step
    isplitl [H5]; · iexact H5
    isplitl [H7]; · iexact H7
    iexists _; isplitl [H9]; · iexact H9
    ipureintro
    exact cols16 (F := F) R0 F5 0 k.val f9 _ _ _ _ _ _ _ _ _ _ _ _ _ _ _ _ _ _ _ _ _ _ _ _ _ _ _ _ _ _ _ _
      (mem_unit_row _ k.val (0 + 0) (k1_off3_eq k) _)
      (mem_unit_row _ k.val (0 + 16) (k1_off4_eq k) _)
      (mem_unit_row _ k.val (0 + 32) (k1_off5_eq k) _)
      (mem_unit_row _ k.val (0 + 48) (k1_off6_eq k) _)
      (mem_unit_row _ k.val (0 + 64) (k1_off7_eq k) _)
      (mem_unit_row _ k.val (0 + 80) (k1_off8_eq k) _)
      (mem_unit_row _ k.val (0 + 96) (k1_off9_eq k) _)
      (mem_unit_row _ k.val (0 + 112) (k1_off10_eq k) _)
      (mem_unit_row _ k.val (0 + 128) (k1_off11_eq k) _)
      (mem_unit_row _ k.val (0 + 144) (k1_off12_eq k) _)
      (mem_unit_row _ k.val (0 + 160) (k1_off13_eq k) _)
      (mem_unit_row _ k.val (0 + 176) (k1_off14_eq k) _)
      (mem_unit_row _ k.val (0 + 192) (k1_off15_eq k) _)
      (mem_unit_row _ k.val (0 + 208) (k1_off16_eq k) _)
      (mem_unit_row _ k.val (0 + 224) (k1_off17_eq k) _)
      (mem_unit_row _ k.val (0 + 240) (k1_off18_eq k) _)
      (fun x => piece_ok R0 _ (Memref.read_access_whole (Elt F) cc1_scratch2 R0) F5 f9 0 0 k.val (by decide) (by decide) hk _ _ _ (fun _ => rfl) _ (k1_off3_eq k) _ _ _ x)
      (fun x => piece_ok R0 _ (Memref.read_access_whole (Elt F) cc1_scratch2 R0) F5 f9 0 1 k.val (by decide) (by decide) hk _ _ _ (fun _ => rfl) _ (k1_off4_eq k) _ _ _ x)
      (fun x => piece_ok R0 _ (Memref.read_access_whole (Elt F) cc1_scratch2 R0) F5 f9 0 2 k.val (by decide) (by decide) hk _ _ _ (fun _ => rfl) _ (k1_off5_eq k) _ _ _ x)
      (fun x => piece_ok R0 _ (Memref.read_access_whole (Elt F) cc1_scratch2 R0) F5 f9 0 3 k.val (by decide) (by decide) hk _ _ _ (fun _ => rfl) _ (k1_off6_eq k) _ _ _ x)
      (fun x => piece_ok R0 _ (Memref.read_access_whole (Elt F) cc1_scratch2 R0) F5 f9 0 4 k.val (by decide) (by decide) hk _ _ _ (fun _ => rfl) _ (k1_off7_eq k) _ _ _ x)
      (fun x => piece_ok R0 _ (Memref.read_access_whole (Elt F) cc1_scratch2 R0) F5 f9 0 5 k.val (by decide) (by decide) hk _ _ _ (fun _ => rfl) _ (k1_off8_eq k) _ _ _ x)
      (fun x => piece_ok R0 _ (Memref.read_access_whole (Elt F) cc1_scratch2 R0) F5 f9 0 6 k.val (by decide) (by decide) hk _ _ _ (fun _ => rfl) _ (k1_off9_eq k) _ _ _ x)
      (fun x => piece_ok R0 _ (Memref.read_access_whole (Elt F) cc1_scratch2 R0) F5 f9 0 7 k.val (by decide) (by decide) hk _ _ _ (fun _ => rfl) _ (k1_off10_eq k) _ _ _ x)
      (fun x => piece_ok R0 _ (Memref.read_access_whole (Elt F) cc1_scratch2 R0) F5 f9 0 8 k.val (by decide) (by decide) hk _ _ _ (fun _ => rfl) _ (k1_off11_eq k) _ _ _ x)
      (fun x => piece_ok R0 _ (Memref.read_access_whole (Elt F) cc1_scratch2 R0) F5 f9 0 9 k.val (by decide) (by decide) hk _ _ _ (fun _ => rfl) _ (k1_off12_eq k) _ _ _ x)
      (fun x => piece_ok R0 _ (Memref.read_access_whole (Elt F) cc1_scratch2 R0) F5 f9 0 10 k.val (by decide) (by decide) hk _ _ _ (fun _ => rfl) _ (k1_off13_eq k) _ _ _ x)
      (fun x => piece_ok R0 _ (Memref.read_access_whole (Elt F) cc1_scratch2 R0) F5 f9 0 11 k.val (by decide) (by decide) hk _ _ _ (fun _ => rfl) _ (k1_off14_eq k) _ _ _ x)
      (fun x => piece_ok R0 _ (Memref.read_access_whole (Elt F) cc1_scratch2 R0) F5 f9 0 12 k.val (by decide) (by decide) hk _ _ _ (fun _ => rfl) _ (k1_off15_eq k) _ _ _ x)
      (fun x => piece_ok R0 _ (Memref.read_access_whole (Elt F) cc1_scratch2 R0) F5 f9 0 13 k.val (by decide) (by decide) hk _ _ _ (fun _ => rfl) _ (k1_off16_eq k) _ _ _ x)
      (fun x => piece_ok R0 _ (Memref.read_access_whole (Elt F) cc1_scratch2 R0) F5 f9 0 14 k.val (by decide) (by decide) hk _ _ _ (fun _ => rfl) _ (k1_off17_eq k) _ _ _ x)
      (fun x => piece_ok R0 _ (Memref.read_access_whole (Elt F) cc1_scratch2 R0) F5 f9 0 15 k.val (by decide) (by decide) hk _ _ _ (fun _ => rfl) _ (k1_off18_eq k) _ _ _ x)
  · unfold inv2
    isplitl [H5]; · iexact H5
    isplitl [H7]; · iexact H7
    iexists _; isplitl [H9]; · iexact H9
    ipureintro
    exact cHalf_zero _ _ _ _
  iintro %_ HI
  unfold inv2
  icases HI with ⟨H5, H7, %f, H9, %hf⟩
  subst hf
  sl_exec
  obtain ⟨R1, hR1⟩ : ∃ R1 : Buf (Elt F) ((sR1).view.loc (thr d L)),
      R1 = sR1.view.writes (Elt F) sR1.view.junk [⟨Rect.whole S256x128, body.sl.gather1 m d L F5 hinB⟩] := ⟨_, rfl⟩
  rw [← hR1]
  sl_for (inv3 (F := F) d L F5 R1 (cHalf R0 F5 0 f9 (Scf.trips k1_t2_loop.lb k1_t2_loop.ub k1_t2_loop.st))) $$ [H5 H8 H9]
  case region =>
    intro k _
    have hk : k.val < 32 := lt_of_lt_of_eq k.isLt trips3
    have hck : (cK k.val).toNat < 32 := by rw [cK_toNat _ hk]; exact hk
    unfold inv3
    iintro ⟨H5, H8, %f, H9, %hf⟩
    subst hf
    vli_step8
    vli_step8
    vli_step8
    vli_step8
    vli_step8
    vli_step8
    vli_step8
    vli_step8
    vli_step8
    vli_step8
    vli_step8
    vli_step8
    vli_step8
    vli_step8
    vli_step8
    vli_step8
    sl_exec
    sl_step
    isplitl [H5]; · iexact H5
    isplitl [H8]; · iexact H8
    iexists _; isplitl [H9]; · iexact H9
    ipureintro
    exact cols16 (F := F) R1 F5 256 k.val (cHalf R0 F5 0 f9 (Scf.trips k1_t2_loop.lb k1_t2_loop.ub k1_t2_loop.st)) _ _ _ _ _ _ _ _ _ _ _ _ _ _ _ _ _ _ _ _ _ _ _ _ _ _ _ _ _ _ _ _
      (mem_unit_row _ k.val (256 + 0) (k1_off19_eq k) _)
      (mem_unit_row _ k.val (256 + 16) (k1_off20_eq k) _)
      (mem_unit_row _ k.val (256 + 32) (k1_off21_eq k) _)
      (mem_unit_row _ k.val (256 + 48) (k1_off22_eq k) _)
      (mem_unit_row _ k.val (256 + 64) (k1_off23_eq k) _)
      (mem_unit_row _ k.val (256 + 80) (k1_off24_eq k) _)
      (mem_unit_row _ k.val (256 + 96) (k1_off25_eq k) _)
      (mem_unit_row _ k.val (256 + 112) (k1_off26_eq k) _)
      (mem_unit_row _ k.val (256 + 128) (k1_off27_eq k) _)
      (mem_unit_row _ k.val (256 + 144) (k1_off28_eq k) _)
      (mem_unit_row _ k.val (256 + 160) (k1_off29_eq k) _)
      (mem_unit_row _ k.val (256 + 176) (k1_off30_eq k) _)
      (mem_unit_row _ k.val (256 + 192) (k1_off31_eq k) _)
      (mem_unit_row _ k.val (256 + 208) (k1_off32_eq k) _)
      (mem_unit_row _ k.val (256 + 224) (k1_off33_eq k) _)
      (mem_unit_row _ k.val (256 + 240) (k1_off34_eq k) _)
      (fun x => piece_ok R1 _ (Memref.read_access_whole (Elt F) cc1_scratch3 R1) F5 (cHalf R0 F5 0 f9 (Scf.trips k1_t2_loop.lb k1_t2_loop.ub k1_t2_loop.st)) 256 0 k.val (by decide) (by decide) hk _ _ _ (fun _ => rfl) _ (k1_off19_eq k) _ _ _ x)
      (fun x => piece_ok R1 _ (Memref.read_access_whole (Elt F) cc1_scratch3 R1) F5 (cHalf R0 F5 0 f9 (Scf.trips k1_t2_loop.lb k1_t2_loop.ub k1_t2_loop.st)) 256 1 k.val (by decide) (by decide) hk _ _ _ (fun _ => rfl) _ (k1_off20_eq k) _ _ _ x)
      (fun x => piece_ok R1 _ (Memref.read_access_whole (Elt F) cc1_scratch3 R1) F5 (cHalf R0 F5 0 f9 (Scf.trips k1_t2_loop.lb k1_t2_loop.ub k1_t2_loop.st)) 256 2 k.val (by decide) (by decide) hk _ _ _ (fun _ => rfl) _ (k1_off21_eq k) _ _ _ x)
      (fun x => piece_ok R1 _ (Memref.read_access_whole (Elt F) cc1_scratch3 R1) F5 (cHalf R0 F5 0 f9 (Scf.trips k1_t2_loop.lb k1_t2_loop.ub k1_t2_loop.st)) 256 3 k.val (by decide) (by decide) hk _ _ _ (fun _ => rfl) _ (k1_off22_eq k) _ _ _ x)
      (fun x => piece_ok R1 _ (Memref.read_access_whole (Elt F) cc1_scratch3 R1) F5 (cHalf R0 F5 0 f9 (Scf.trips k1_t2_loop.lb k1_t2_loop.ub k1_t2_loop.st)) 256 4 k.val (by decide) (by decide) hk _ _ _ (fun _ => rfl) _ (k1_off23_eq k) _ _ _ x)
      (fun x => piece_ok R1 _ (Memref.read_access_whole (Elt F) cc1_scratch3 R1) F5 (cHalf R0 F5 0 f9 (Scf.trips k1_t2_loop.lb k1_t2_loop.ub k1_t2_loop.st)) 256 5 k.val (by decide) (by decide) hk _ _ _ (fun _ => rfl) _ (k1_off24_eq k) _ _ _ x)
      (fun x => piece_ok R1 _ (Memref.read_access_whole (Elt F) cc1_scratch3 R1) F5 (cHalf R0 F5 0 f9 (Scf.trips k1_t2_loop.lb k1_t2_loop.ub k1_t2_loop.st)) 256 6 k.val (by decide) (by decide) hk _ _ _ (fun _ => rfl) _ (k1_off25_eq k) _ _ _ x)
      (fun x => piece_ok R1 _ (Memref.read_access_whole (Elt F) cc1_scratch3 R1) F5 (cHalf R0 F5 0 f9 (Scf.trips k1_t2_loop.lb k1_t2_loop.ub k1_t2_loop.st)) 256 7 k.val (by decide) (by decide) hk _ _ _ (fun _ => rfl) _ (k1_off26_eq k) _ _ _ x)
      (fun x => piece_ok R1 _ (Memref.read_access_whole (Elt F) cc1_scratch3 R1) F5 (cHalf R0 F5 0 f9 (Scf.trips k1_t2_loop.lb k1_t2_loop.ub k1_t2_loop.st)) 256 8 k.val (by decide) (by decide) hk _ _ _ (fun _ => rfl) _ (k1_off27_eq k) _ _ _ x)
      (fun x => piece_ok R1 _ (Memref.read_access_whole (Elt F) cc1_scratch3 R1) F5 (cHalf R0 F5 0 f9 (Scf.trips k1_t2_loop.lb k1_t2_loop.ub k1_t2_loop.st)) 256 9 k.val (by decide) (by decide) hk _ _ _ (fun _ => rfl) _ (k1_off28_eq k) _ _ _ x)
      (fun x => piece_ok R1 _ (Memref.read_access_whole (Elt F) cc1_scratch3 R1) F5 (cHalf R0 F5 0 f9 (Scf.trips k1_t2_loop.lb k1_t2_loop.ub k1_t2_loop.st)) 256 10 k.val (by decide) (by decide) hk _ _ _ (fun _ => rfl) _ (k1_off29_eq k) _ _ _ x)
      (fun x => piece_ok R1 _ (Memref.read_access_whole (Elt F) cc1_scratch3 R1) F5 (cHalf R0 F5 0 f9 (Scf.trips k1_t2_loop.lb k1_t2_loop.ub k1_t2_loop.st)) 256 11 k.val (by decide) (by decide) hk _ _ _ (fun _ => rfl) _ (k1_off30_eq k) _ _ _ x)
      (fun x => piece_ok R1 _ (Memref.read_access_whole (Elt F) cc1_scratch3 R1) F5 (cHalf R0 F5 0 f9 (Scf.trips k1_t2_loop.lb k1_t2_loop.ub k1_t2_loop.st)) 256 12 k.val (by decide) (by decide) hk _ _ _ (fun _ => rfl) _ (k1_off31_eq k) _ _ _ x)
      (fun x => piece_ok R1 _ (Memref.read_access_whole (Elt F) cc1_scratch3 R1) F5 (cHalf R0 F5 0 f9 (Scf.trips k1_t2_loop.lb k1_t2_loop.ub k1_t2_loop.st)) 256 13 k.val (by decide) (by decide) hk _ _ _ (fun _ => rfl) _ (k1_off32_eq k) _ _ _ x)
      (fun x => piece_ok R1 _ (Memref.read_access_whole (Elt F) cc1_scratch3 R1) F5 (cHalf R0 F5 0 f9 (Scf.trips k1_t2_loop.lb k1_t2_loop.ub k1_t2_loop.st)) 256 14 k.val (by decide) (by decide) hk _ _ _ (fun _ => rfl) _ (k1_off33_eq k) _ _ _ x)
      (fun x => piece_ok R1 _ (Memref.read_access_whole (Elt F) cc1_scratch3 R1) F5 (cHalf R0 F5 0 f9 (Scf.trips k1_t2_loop.lb k1_t2_loop.ub k1_t2_loop.st)) 256 15 k.val (by decide) (by decide) hk _ _ _ (fun _ => rfl) _ (k1_off34_eq k) _ _ _ x)
  · unfold inv3
    isplitl [H5]; · iexact H5
    isplitl [H8]; · iexact H8
    iexists _; isplitl [H9]; · iexact H9
    ipureintro
    exact cHalf_zero _ _ _ _
  iintro %_ HI
  unfold inv3
  icases HI with ⟨H5, H8, %f, H9, %hf⟩
  subst hf
  sl_exec
  have hval : ∀ i ∈ (outBlk L).view.set,
      ((outBlk L).view.writes (Elt F) f0 [⟨Rect.whole S32x512, body.sl.dma0_1 d L f9 F5 R0 R1⟩]) i
        = (packedE (F := F) (m (idsLoc d)) (m (tqLoc d)) : Buf (Elt F) (outLoc d)) i := by
    unfold body.sl.dma0_1
    unfold body.sl.gather0 at hR0
    unfold body.sl.gather1 at hR1
    rw [trips2]
    exact block_value (F := F) L (m (idsLoc d)) (m (tqLoc d)) F5 hF5v gathers_S25000x128_S256x128 _ _ hinA hinB _ _ R0 R1 hR0 hR1 f0 f9
  sl_step
  isplitl [Hi]
  · iapply (Entails.of_eq (pts_ids (F := F) d L q1 _).symm); iexact Hi
  isplitl [HtA HtB]
  · iapply (Entails.of_eq (pts_tq (F := F) d L q4 _).symm)
    iapply (Transfers.pointsTo_toks_range q4 1).2
    rw [Finset.range_one, bigSep_singleton]
    isplitl [HtA]; · iexact HtA
    iexact HtB
  isplitl [Ho]
  · iapply (Entails.of_eq (pts_out (F := F) d L _).symm)
    iapply (Entails.of_eq (pointsTo_congr (q := fullShare) hval))
    iexact Ho
  isplitl [H5 H6 H7 H8 H9 Hbufs]
  · isplitr [Hbufs]
    · isplitl [H5]; · iexists _; iexact H5
      isplitl [H6]; · iexists _; iexact H6
      isplitl [H7]; · iexists _; iexact H7
      isplitl [H8]; · iexists _; iexact H8
      iexists _; iexact H9
    · iexact Hbufs
  isplitl [Hs0 Hs1 HsA HsB Hsems]
  · isplitr [Hsems]
    · isplitl [Hs0]; · iexact Hs0
      isplitl [Hs1]; · iexact Hs1
      isplitl [HsA]; · iexact HsA
      iexact HsB
    · iexact Hsems
  iexists _; isplitr
  rotate_left
  · iexact HO
  · ipureintro
    intro p hp
    simp only [Finset.mem_insert] at hp
    rcases hp with rfl | rfl | rfl | rfl | hp
    · exact .inr rfl
    · exact .inr rfl
    · exact .inr rfl
    · exact .inr rfl
    · exact .inl hp

end Cert.Proof.Packed

end
-- ==== Proof.BlockOpen.lean ====
/-
  The subcore's own scratch buffers and semaphores, taken out of the bundles the launch hands a tile: the eleven
  scratch buffers the kernel names and the eleven DMA semaphores, each beside the rest of its bundle.
-/
import proofs.«204991_g57140244906297_cont_9to1_m_249_19_alg».proof.Proof.BlockDefs

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- A separating conjunction over a finite set with a list of its distinct members taken out in order. -/
theorem bigSep_take {I : Type} [DecidableEq I] {M : Type} [URA M] (Φ : I → sProp M) :
    ∀ (l : List I) (s : Finset I), l.Nodup → (∀ i ∈ l, i ∈ s) →
      bigSep s Φ = l.foldr (fun i R => iprop(Φ i ∗ R)) (bigSep (s \ l.toFinset) Φ)
  | [], s, _, _ => by simp
  | i :: l, s, hnd, hs => by
    have hi : i ∈ s := hs i (List.mem_cons_self)
    have hnd' := (List.nodup_cons.mp hnd)
    have hset : s.erase i \ l.toFinset = s \ (i :: l).toFinset := by
      ext x; simp only [Finset.mem_sdiff, Finset.mem_erase, List.toFinset_cons, Finset.mem_insert, List.mem_toFinset]; tauto
    rw [List.foldr_cons, SparseCore.bigSep_erase' hi, bigSep_take Φ l (s.erase i) hnd'.2 (fun j hj =>
      Finset.mem_erase.mpr ⟨fun e => hnd'.1 (e ▸ hj), hs j (List.mem_cons_of_mem _ hj)⟩), hset]

section Tile

variable (d : Dev nD) (L : grid0.Coords)

/-- The cell of DMA semaphore `k` of the tile. -/
abbrev cell (k : DmaSem sig) : GSem nD τ sig := (thr d L, .dma k)

/-- The eleven DMA semaphores of the kernel: the ring's eight, the tail's, the two scoped ones. -/
def semList : List (DmaSem sig) :=
  [cc0_scratch11.sem, cc0_scratch12.sem, cc0_scratch13.sem, cc0_scratch14.sem, cc0_scratch15.sem, cc0_scratch16.sem,
    cc0_scratch17.sem, cc0_scratch18.sem, cc0_scratch19.sem, cc0_scoped0.sem, cc0_scoped1.sem]

theorem semList_nodup : semList.Nodup := by decide

theorem semList_scoped : ∀ k ∈ semList, (SemLoc.dma k : SemLoc sig).isScoped .scVector = true := by decide

/-- The rest of the tile's scoped cells. -/
def semRest : Finset (GSem nD τ sig) := ownCells (thr d L) \ (semList.map (cell d L)).toFinset

theorem ownSems0_open :
    (ownSems0 (thr d L) : sProp 𝕄)
      = (semList.map (cell d L)).foldr (fun g R => iprop(semVal g 0 ∗ R)) (bigSep (semRest d L) fun g => semVal g 0) := by
  unfold SparseCore.Cfg.ownSems0 semRest
  refine bigSep_take (fun g => (semVal g 0 : sProp 𝕄)) _ _ ?_ ?_
  · refine List.Nodup.map ?_ semList_nodup
    intro a b h; simpa [cell] using h
  · intro g hg
    obtain ⟨k, hk, rfl⟩ := List.mem_map.mp hg
    exact mem_ownCells.mpr ⟨rfl, semList_scoped k hk⟩

/-- The eleven scratch buffers of the kernel: the index scratch, the ring's eight slots, the tail, the columns. -/
def bufList : List (Ref sig .scVector) :=
  [cc0_scratch0, cc0_scratch1, cc0_scratch2, cc0_scratch3, cc0_scratch4, cc0_scratch5, cc0_scratch6, cc0_scratch7,
    cc0_scratch8, cc0_scratch9, cc0_scratch10]

theorem bufList_nodup : bufList.Nodup := by decide

abbrev bref (b : Ref sig .scVector) : DevRef τ sig := (Proc.scVector (cV L) (jV L)).devRef b

def bufRest : Finset (DevRef τ sig) := ownRefs (τ := τ) (.scVector (cV L) (jV L)) \ (bufList.map (bref L)).toFinset

theorem ownBufs_open :
    (ownBufs (thr d L) : sProp 𝕄)
      = (bufList.map (bref L)).foldr (fun b R => iprop((∃ f, ((d, b) : Loc nD τ sig) ↦{fullShare} f) ∗ R))
          (bigSep (bufRest L) fun b => iprop(∃ f, ((d, b) : Loc nD τ sig) ↦{fullShare} f)) := by
  unfold SparseCore.Cfg.ownBufs bufRest
  refine bigSep_take (fun b => (iprop(∃ f, ((d, b) : Loc nD τ sig) ↦{fullShare} f) : sProp 𝕄)) _ _ ?_ ?_
  · exact List.Nodup.map (fun a b h => Proc.devRef_injective (Proc.scVector (cV L) (jV L)) h) bufList_nodup
  · intro b hb
    obtain ⟨r, hr, rfl⟩ := List.mem_map.mp hb
    unfold bufList at hr
    fin_cases hr <;> exact SparseCore.Cfg.mem_ownRefs_of_owner rfl

end Tile

end Cert.Proof.Block

end
-- ==== Proof.BlockArith.lean ====
/-
  The kernel's word arithmetic, once for every 32-bit word: the offset of the 128-column block a word selects
  (its quotient by 128 clamped to 7811, times 128), its lane in the block (the word mod 128), the offset into the
  flattened tail (the word less 999936 clamped to [0, 63], times 32), and the signed comparison that chooses
  between the two.
-/
import Idealize.ShloMosaic.PureOps.Float
import Idealize.ShloMosaic.PureOps.Vector

namespace Cert.Proof.Block
open Idealize.ShloMosaic

/-- The block number of word `w`: `w / 128` clamped to 7811, as the kernel computes it. -/
def blkOff (w : BitVec 32) : BitVec 32 := Scalar.muli (Scalar.minsi (Scalar.shrui w 7#32) 7811#32) 128#32

theorem blkOff_toNat (w : BitVec 32) : (blkOff w).toNat = 128 * min (w.toNat / 128) 7811 := by
  unfold blkOff Scalar.muli Scalar.minsi Scalar.shrui IntOp.muli IntOp.minsi IntOp.shrui
  have h7 : (7#32 : BitVec 32).toNat < 32 := by decide
  rw [if_pos h7]
  have hs : (w >>> (7#32 : BitVec 32)).toNat = w.toNat / 128 := by
    rw [BitVec.ushiftRight_eq', BitVec.toNat_ushiftRight]; simp [Nat.shiftRight_eq_div_pow]
  have hlt : w.toNat / 128 < 2 ^ 25 := by have := w.isLt; omega
  by_cases hc : (w >>> (7#32 : BitVec 32)).slt 7811#32
  · rw [if_pos hc]
    have : w.toNat / 128 < 7811 := by
      rw [BitVec.slt_eq_decide, decide_eq_true_eq] at hc
      have h1 : (w >>> (7#32 : BitVec 32)).toInt = (w.toNat / 128 : ℕ) := by
        rw [BitVec.toInt_eq_toNat_of_lt (by rw [hs]; omega), hs]
      rw [h1] at hc
      have h2 : (7811#32 : BitVec 32).toInt = 7811 := by decide
      rw [h2] at hc; omega
    rw [BitVec.toNat_mul, hs]
    have : (128#32 : BitVec 32).toNat = 128 := by decide
    rw [this, Nat.min_eq_left (by omega)]
    omega
  · rw [if_neg hc]
    have : 7811 ≤ w.toNat / 128 := by
      rw [BitVec.slt_eq_decide, decide_eq_true_eq] at hc
      have h1 : (w >>> (7#32 : BitVec 32)).toInt = (w.toNat / 128 : ℕ) := by
        rw [BitVec.toInt_eq_toNat_of_lt (by rw [hs]; omega), hs]
      rw [h1] at hc
      have h2 : (7811#32 : BitVec 32).toInt = 7811 := by decide
      rw [h2] at hc; omega
    rw [Nat.min_eq_right this]
    decide

theorem toInt_cases (x : BitVec 32) :
    (x.toNat < 2147483648 ∧ x.toInt = (x.toNat : ℤ)) ∨ (2147483648 ≤ x.toNat ∧ x.toInt = (x.toNat : ℤ) - 4294967296) := by
  rw [BitVec.toInt_eq_toNat_cond]
  by_cases h : 2 * x.toNat < 2 ^ 32
  · left; rw [if_pos h]; exact ⟨by omega, rfl⟩
  · right; rw [if_neg h]; refine ⟨by omega, ?_⟩; omega

/-- The lane of word `w` in its block. -/
theorem lane_toNat (w : BitVec 32) : (Scalar.andi w 127#32).toNat = w.toNat % 128 := by
  unfold Scalar.andi IntOp.andi
  rw [BitVec.toNat_and]
  have : (127#32 : BitVec 32).toNat = 2 ^ 7 - 1 := by decide
  rw [this, Nat.and_two_pow_sub_one_eq_mod]

/-- The offset into the flattened tail for word `w`: `w − 999936` clamped to `[0, 63]`, times 32. -/
def tailOff (w : BitVec 32) : BitVec 32 :=
  Scalar.muli (Scalar.minsi 63#32 (Scalar.maxsi 0#32 (Scalar.subi w 999936#32))) 32#32

theorem tailOff_spec (w : BitVec 32) :
    (tailOff w).toNat ≤ 2016 ∧ ((999936 : ℤ) ≤ w.toInt → (tailOff w).toNat = 32 * min (w.toNat - 999936) 63) := by
  unfold tailOff Scalar.muli Scalar.minsi Scalar.maxsi Scalar.subi IntOp.muli IntOp.minsi IntOp.maxsi IntOp.subi
  generalize ht : w - 999936#32 = t
  have htn : t.toNat = (4294967296 - 999936 + w.toNat) % 4294967296 := by
    rw [← ht, BitVec.toNat_sub]; rfl
  have h0 : (0#32 : BitVec 32).toInt = 0 := by decide
  have h63 : (63#32 : BitVec 32).toInt = 63 := by decide
  have h32n : (32#32 : BitVec 32).toNat = 32 := by decide
  have hw := w.isLt
  by_cases h1 : t.slt 0#32 = true
  · rw [if_pos h1]
    have h2 : ¬ ((63#32 : BitVec 32).slt 0#32 = true) := by decide
    rw [if_neg h2]
    refine ⟨by decide, fun hge => ?_⟩
    rw [BitVec.slt_eq_decide, decide_eq_true_eq, h0] at h1
    rcases toInt_cases t with ⟨htl, hti⟩ | ⟨htl, hti⟩ <;> rcases toInt_cases w with ⟨hwl, hwi⟩ | ⟨hwl, hwi⟩ <;> omega
  · rw [if_neg h1]
    rw [BitVec.slt_eq_decide, decide_eq_true_eq, h0] at h1
    by_cases h2 : (63#32 : BitVec 32).slt t = true
    · rw [if_pos h2]
      rw [BitVec.slt_eq_decide, decide_eq_true_eq, h63] at h2
      have h2016 : (63#32 * 32#32 : BitVec 32).toNat = 2016 := by decide
      rw [h2016]
      refine ⟨le_refl _, fun hge => ?_⟩
      rcases toInt_cases t with ⟨htl, hti⟩ | ⟨htl, hti⟩ <;> rcases toInt_cases w with ⟨hwl, hwi⟩ | ⟨hwl, hwi⟩ <;> omega
    · rw [if_neg h2]
      rw [BitVec.slt_eq_decide, decide_eq_true_eq, h63] at h2
      rw [BitVec.toNat_mul, h32n]
      rcases toInt_cases t with ⟨htl, hti⟩ | ⟨htl, hti⟩ <;> rcases toInt_cases w with ⟨hwl, hwi⟩ | ⟨hwl, hwi⟩ <;>
        (refine ⟨by omega, fun hge => ?_⟩; omega)

/-- The tail is chosen exactly when the word, read signed, is at least 999936. -/
theorem sge_iff (w : BitVec 32) : Scalar.cmpi .sge w 999936#32 = 1#1 ↔ (999936 : ℤ) ≤ w.toInt := by
  unfold Scalar.cmpi IntOp.cmpi
  simp only [BitVec.sle_eq_decide]
  have h : (999936#32 : BitVec 32).toInt = 999936 := by decide
  rw [h]
  by_cases hc : (999936 : ℤ) ≤ w.toInt <;> simp [hc]

end Cert.Proof.Block
-- ==== Proof.BlockInv.lean ====
/-
  The block-gather task's loop: the side conditions the printed body assumes (each holds of every word), the trip's
  sixteen conditions decided from the trip's number, the ring's slots — a slot in flight holds the flight of its block
  copy beside the rest of its read token, an idle slot its buffer, its semaphore at zero and its token whole — and the
  loop's invariant: the index scratch and the tail as loaded, the columns below the trip done, the eight slots each
  serving its next index.
-/
import proofs.«204991_g57140244906297_cont_9to1_m_249_19_alg».proof.Proof.BlockDefs
import proofs.«204991_g57140244906297_cont_9to1_m_249_19_alg».proof.Proof.BlockOpen
import proofs.«204991_g57140244906297_cont_9to1_m_249_19_alg».proof.Proof.BlockArith
import proofs.«204991_g57140244906297_cont_9to1_m_249_19_alg».proof.Proof.Gen.KernelIdeal

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Lean Elab Tactic Meta in
/-- Unfold, in the goal, every constant one of whose name components is `sl`: the names a symbolic run gives the values
    it computes. -/
elab "unfold_sl" : tactic => do
  let g ← getMainGoal
  let t ← instantiateMVars (← g.getType)
  let t' ← Meta.transform t (pre := fun e => do
    if let .const n _ := e.getAppFn then
      if n.components.contains `sl then
        if let some e' ← Meta.delta? e then
          return .visit e'.headBeta
    return .continue)
  replaceMainGoal [← g.replaceTargetDefEq t']

variable {F : FTy → Type} [FloatOps F]

local notation "𝕄" => MT nD τ sig (HIx 4) (Elt F) ℕ UU ℕ

/-- Every word's block is 128-aligned and inside the table. -/
theorem blk_ok (w : BitVec 32) :
    (128 ∣ (blkOff w).toNat) ∧ (∀ a : Fin 2, (![0, (blkOff w).toNat] : Fin 2 → ℕ) a + S32x128.size a ≤ S32x1000000.size a) := by
  rw [blkOff_toNat]
  refine ⟨Dvd.intro _ rfl, fun a => ?_⟩
  have h : min (w.toNat / 128) 7811 ≤ 7811 := Nat.min_le_right _ _
  fin_cases a
  · show 0 + 32 ≤ 32
    omega
  · show 128 * min (w.toNat / 128) 7811 + 128 ≤ 1000000
    omega

/-- A separating conjunction over the first eight numbers, written out. -/
theorem bigSep_range8 {M : Type} [URA M] (Φ : ℕ → sProp M) :
    bigSep (Finset.range 8) Φ = iprop(Φ 0 ∗ Φ 1 ∗ Φ 2 ∗ Φ 3 ∗ Φ 4 ∗ Φ 5 ∗ Φ 6 ∗ Φ 7 ∗ emp) := by
  rw [bigSep_take Φ [0, 1, 2, 3, 4, 5, 6, 7] (Finset.range 8) (by decide) (by decide)]
  have h : Finset.range 8 \ [0, 1, 2, 3, 4, 5, 6, 7].toFinset = ∅ := by decide
  rw [h, BI.bigSep_empty]
  rfl

/-- The sixteen conditions of a trip, decided from the trip's number: which slot it serves (its residue mod 8) and
    whether eight trips later is still inside the loop. -/
theorem conds (k : Fin k0_t1_loop.trips) :
    ((k0_cond1 k = 1#1 ↔ k.val % 8 = 0) ∧ (k0_cond3 k = 1#1 ↔ k.val % 8 = 1) ∧ (k0_cond5 k = 1#1 ↔ k.val % 8 = 2)
      ∧ (k0_cond7 k = 1#1 ↔ k.val % 8 = 3) ∧ (k0_cond9 k = 1#1 ↔ k.val % 8 = 4) ∧ (k0_cond11 k = 1#1 ↔ k.val % 8 = 5)
      ∧ (k0_cond13 k = 1#1 ↔ k.val % 8 = 6) ∧ (k0_cond15 k = 1#1 ↔ k.val % 8 = 7))
    ∧ ((k0_cond2 k = 1#1 ↔ k.val + 8 < 512) ∧ (k0_cond4 k = 1#1 ↔ k.val + 8 < 512) ∧ (k0_cond6 k = 1#1 ↔ k.val + 8 < 512)
      ∧ (k0_cond8 k = 1#1 ↔ k.val + 8 < 512) ∧ (k0_cond10 k = 1#1 ↔ k.val + 8 < 512) ∧ (k0_cond12 k = 1#1 ↔ k.val + 8 < 512)
      ∧ (k0_cond14 k = 1#1 ↔ k.val + 8 < 512) ∧ (k0_cond16 k = 1#1 ↔ k.val + 8 < 512)) := by
  revert k
  decide +kernel

theorem trips_eq : k0_t1_loop.trips = 512 := by decide

/-- The trip's number as the kernel's word for it. -/
theorem v77_toNat (k : Fin k0_t1_loop.trips) : (Scalar.addi 0#32 (Scalar.muli (Scf.iv 0#32 1#32 k) 1#32)).toNat = k.val := by
  revert k
  decide +kernel

/-! ## The ring's slots and the loop's invariant -/

section Ring

variable (m : (ℓ : Loc nD τ sig) → Buf (Elt F) ℓ) (d : Dev nD) (L : grid0.Coords) (q : PosShare TreeShare)

/-- The 128-column block of the transposed table that word `w` selects. -/
abbrev blkMem (w : BitVec 32) : Memref sig .scVector .hbm S32x128 .f32 :=
  ttV.slice (Rect.unit (s := S32x1000000) ![0, (blkOff w).toNat] S32x128.size (blk_ok w).2) (fun _ => rfl)

/-- What a copy of that block carries. -/
abbrev blkPay (w : BitVec 32) : S32x128.Idx → Elt F .f32 :=
  (ReadAs.same : ReadAs (Elt F) S32x128 .f32 S32x128 .f32).apply ((blkMem w).view.read (Elt F) (m (ttLoc d)))

/-- Lane 0 of the 16-lane load of the index scratch at offsets `off`. -/
def wAtOff (fs : S528.Idx → Elt F .i32) (off : Fin 1 → ℕ) (h : ∀ a, off a + S16.size a ≤ S528.size a) : BitVec 32 :=
  let v : Vec F S16 .i32 := (Memref.whole cc0_scratch0 : Memref sig .scVector .vmem S528 .i32).view.readAt (Elt F)
    (Rect.unit (s := S528) off S16.size h).toLoadRect fs
  extractAt ![0] (extractStridedSlice S1 ![0] v slices_S16_o0_S1) inpos_S1_p0

theorem off_inb (n : ℕ) (h : n < 512) : ∀ a, (![n] : Fin 1 → ℕ) a + S16.size a ≤ S528.size a := by
  intro a; fin_cases a; show n + 16 ≤ 528; omega

/-- Word `n` of the index scratch, as the kernel reads it: lane 0 of the 16-lane load at `n`. -/
def wAt (fs : S528.Idx → Elt F .i32) (n : ℕ) : BitVec 32 :=
  if h : n < 512 then wAtOff fs ![n] (off_inb n h) else 0#32

omit [FloatOps F] in
theorem wAtOff_congr (fs : S528.Idx → Elt F .i32) {off off' : Fin 1 → ℕ} (e : off = off') (h : ∀ a, off a + S16.size a ≤ S528.size a)
    (h' : ∀ a, off' a + S16.size a ≤ S528.size a) : wAtOff fs off h = wAtOff fs off' h' := by subst e; rfl

omit [FloatOps F] in
/-- The word at `n`, read at offsets the kernel computes for `n`. -/
theorem wAt_off (fs : S528.Idx → Elt F .i32) (n : ℕ) (hn : n < 512) (off : Fin 1 → ℕ) (h : ∀ a, off a + S16.size a ≤ S528.size a)
    (e : off = ![n]) : wAt fs n = wAtOff fs off h := by
  unfold wAt; rw [dif_pos hn]; exact wAtOff_congr fs e.symm _ _

/-- A slot whose copy for word `w` is in flight on the slot's own semaphore: the flight — to deliver the slot rewritten
    with the block and the lent elements of the slot's read token — beside the rest of the token. -/
def slot (R : Memref sig .scVector .vmem S32x128 .f32) (sem : DmaSem sig) (s : ℕ) (w : BitVec 32) : sProp 𝕄 :=
  iprop((∃ g : Buf (Elt F) (R.view.loc (thr d L)),
      Transfers.Flight (countersEmb (U := UU) : UEmb Counters 𝕄) (thr d L) (SemLoc.dma sem) (default : HIx 4) 131072
        iprop((R.view.loc (thr d L) ↦{fullShare} View.write (Elt F) R.view g (blkPay m d w) Finset.univ)
          ∗ (ttV.view.loc (thr d L) ↦[(blkMem w).view.set]{Transfers.shareTokN q s} m (ttLoc d))))
    ∗ (ttV.view.loc (thr d L) ↦[Finset.univ \ (blkMem w).view.set]{Transfers.shareTokN q s} m (ttLoc d)))

/-- A slot with no copy outstanding: its buffer, its semaphore at zero, its read token whole. -/
def slotIdle (R : Memref sig .scVector .vmem S32x128 .f32) (sem : DmaSem sig) (s : ℕ) : sProp 𝕄 :=
  iprop((∃ g : Buf (Elt F) (R.view.loc (thr d L)), R.view.loc (thr d L) ↦{fullShare} g)
    ∗ semVal (thr d L, SemLoc.dma sem) 0
    ∗ (ttV.view.loc (thr d L) ↦{Transfers.shareTokN q s} m (ttLoc d)))

/-- The first index at or after `k` that slot `s` serves. -/
def nxt (s k : ℕ) : ℕ := k + (s + 8 - k % 8) % 8

/-- Slot `s` before trip `k`: in flight for its next index while that index is below 512, idle after. -/
def slotAt (fs : S528.Idx → Elt F .i32) (R : Memref sig .scVector .vmem S32x128 .f32) (sem : DmaSem sig) (s k : ℕ) : sProp 𝕄 :=
  if nxt s k < 512 then slot m d L q R sem s (wAt fs (nxt s k)) else slotIdle m d L q R sem s

/-- The loop's invariant before trip `k`: the index scratch and the tail as loaded, the columns with a record of what
    they hold, the eight slots, and the tile's debts with the waits so far recorded. -/
def inv (O : CellTallies nD τ sig (HIx 4)) (W : Waits sig (HIx 4)) (fs : S528.Idx → Elt F .i32) (ft : S2048.Idx → Elt F .f32)
    (CD : ℕ → (S32x512.Idx → Elt F .f32) → Prop) (k : ℕ) (_ : PUnit) : sProp 𝕄 :=
  iprop(Transfers.MayWaits (thr d L) (none : HIx 4) O
    ∗ ((Memref.whole cc0_scratch0 : Memref sig .scVector .vmem S528 .i32).view.loc (thr d L) ↦{fullShare} fs)
    ∗ ((Memref.whole cc0_scratch9 : Memref sig .scVector .vmem S2048 .f32).view.loc (thr d L) ↦{fullShare} ft)
    ∗ (∃ fc : S32x512.Idx → Elt F .f32,
        ((Memref.whole cc0_scratch10 : Memref sig .scVector .vmem S32x512 .f32).view.loc (thr d L) ↦{fullShare} fc) ∗ ⌜CD k fc⌝)
    ∗ slotAt m d L q fs (Memref.whole cc0_scratch1) cc0_scratch11.sem 0 k
    ∗ slotAt m d L q fs (Memref.whole cc0_scratch2) cc0_scratch12.sem 1 k
    ∗ slotAt m d L q fs (Memref.whole cc0_scratch3) cc0_scratch13.sem 2 k
    ∗ slotAt m d L q fs (Memref.whole cc0_scratch4) cc0_scratch14.sem 3 k
    ∗ slotAt m d L q fs (Memref.whole cc0_scratch5) cc0_scratch15.sem 4 k
    ∗ slotAt m d L q fs (Memref.whole cc0_scratch6) cc0_scratch16.sem 5 k
    ∗ slotAt m d L q fs (Memref.whole cc0_scratch7) cc0_scratch17.sem 6 k
    ∗ slotAt m d L q fs (Memref.whole cc0_scratch8) cc0_scratch18.sem 7 k
    ∗ ∃ W', ⌜∀ p ∈ W', p ∈ W ∨ p.2 = none⌝ ∗ owes (thr d L) O W')

theorem nxt_zero (s : ℕ) (hs : s < 8) : nxt s 0 = s := by unfold nxt; omega
theorem nxt_self (s k : ℕ) (h : k % 8 = s) : nxt s k = k := by unfold nxt; omega
theorem nxt_succ_self (s k : ℕ) (h : k % 8 = s) : nxt s (k + 1) = k + 8 := by unfold nxt; omega
theorem nxt_succ_other (s k : ℕ) (hs : s < 8) (h : k % 8 ≠ s) : nxt s (k + 1) = nxt s k := by unfold nxt; omega
theorem nxt_ge (s k : ℕ) : k ≤ nxt s k := by unfold nxt; omega

omit [FloatOps F] in
theorem slotAt_zero (fs : S528.Idx → Elt F .i32) (R : Memref sig .scVector .vmem S32x128 .f32) (sem : DmaSem sig) (s : ℕ) (hs : s < 8) :
    slotAt m d L q fs R sem s 0 = slot m d L q R sem s (wAt fs s) := by
  unfold slotAt; rw [nxt_zero s hs, if_pos (by omega)]

omit [FloatOps F] in
theorem slotAt_end (fs : S528.Idx → Elt F .i32) (R : Memref sig .scVector .vmem S32x128 .f32) (sem : DmaSem sig) (s : ℕ) :
    slotAt m d L q fs R sem s 512 = slotIdle m d L q R sem s := by
  unfold slotAt; rw [if_neg]; have := nxt_ge s 512; omega

/-- The value the kernel stores for row `r` of column `n` of the task. -/
def colVal (fs : S528.Idx → Elt F .i32) (ft : S2048.Idx → Elt F .f32) (r : Fin 32) (n : ℕ) : Elt F .f32 :=
  if (999936 : ℤ) ≤ (wAt fs n).toInt then ft (ix1 ⟨tailAt (wAt fs n) r, tailAt_lt _ r⟩)
  else m (ttLoc d) (ix2 r ⟨colAt (wAt fs n), colAt_lt _⟩)

/-- The columns below `k` hold their values. -/
def colsDone (fs : S528.Idx → Elt F .i32) (ft : S2048.Idx → Elt F .f32) (k : ℕ) (fc : S32x512.Idx → Elt F .f32) : Prop :=
  ∀ (r : Fin 32) (n : Fin 512), n.val < k → fc (ix2 r n) = colVal m d fs ft r n.val

omit [FloatOps F] in
theorem slotAt_self (fs : S528.Idx → Elt F .i32) (R : Memref sig .scVector .vmem S32x128 .f32) (sem : DmaSem sig) (s k : ℕ)
    (h : k % 8 = s) (hk : k < 512) : slotAt m d L q fs R sem s k = slot m d L q R sem s (wAt fs k) := by
  unfold slotAt; rw [nxt_self s k h, if_pos hk]

omit [FloatOps F] in
theorem slotAt_succ_self (fs : S528.Idx → Elt F .i32) (R : Memref sig .scVector .vmem S32x128 .f32) (sem : DmaSem sig) (s k : ℕ)
    (h : k % 8 = s) :
    slotAt m d L q fs R sem s (k + 1) = if k + 8 < 512 then slot m d L q R sem s (wAt fs (k + 8)) else slotIdle m d L q R sem s := by
  unfold slotAt; rw [nxt_succ_self s k h]

omit [FloatOps F] in
theorem slotAt_succ_other (fs : S528.Idx → Elt F .i32) (R : Memref sig .scVector .vmem S32x128 .f32) (sem : DmaSem sig) (s k : ℕ)
    (hs : s < 8) (h : k % 8 ≠ s) : slotAt m d L q fs R sem s (k + 1) = slotAt m d L q fs R sem s k := by
  unfold slotAt; rw [nxt_succ_other s k hs h]

omit [FloatOps F] in
/-- After the last trip every slot is idle. -/
theorem inv_end (O : CellTallies nD τ sig (HIx 4)) (W : Waits sig (HIx 4)) (fs : S528.Idx → Elt F .i32) (ft : S2048.Idx → Elt F .f32)
    (CD : ℕ → (S32x512.Idx → Elt F .f32) → Prop) (u : PUnit) :
    inv m d L q O W fs ft CD 512 u
      = iprop(Transfers.MayWaits (thr d L) (none : HIx 4) O
        ∗ ((Memref.whole cc0_scratch0 : Memref sig .scVector .vmem S528 .i32).view.loc (thr d L) ↦{fullShare} fs)
        ∗ ((Memref.whole cc0_scratch9 : Memref sig .scVector .vmem S2048 .f32).view.loc (thr d L) ↦{fullShare} ft)
        ∗ (∃ fc : S32x512.Idx → Elt F .f32,
            ((Memref.whole cc0_scratch10 : Memref sig .scVector .vmem S32x512 .f32).view.loc (thr d L) ↦{fullShare} fc) ∗ ⌜CD 512 fc⌝)
        ∗ slotIdle m d L q (Memref.whole cc0_scratch1) cc0_scratch11.sem 0
        ∗ slotIdle m d L q (Memref.whole cc0_scratch2) cc0_scratch12.sem 1
        ∗ slotIdle m d L q (Memref.whole cc0_scratch3) cc0_scratch13.sem 2
        ∗ slotIdle m d L q (Memref.whole cc0_scratch4) cc0_scratch14.sem 3
        ∗ slotIdle m d L q (Memref.whole cc0_scratch5) cc0_scratch15.sem 4
        ∗ slotIdle m d L q (Memref.whole cc0_scratch6) cc0_scratch16.sem 5
        ∗ slotIdle m d L q (Memref.whole cc0_scratch7) cc0_scratch17.sem 6
        ∗ slotIdle m d L q (Memref.whole cc0_scratch8) cc0_scratch18.sem 7
        ∗ ∃ W', ⌜∀ p ∈ W', p ∈ W ∨ p.2 = none⌝ ∗ owes (thr d L) O W') := by
  unfold inv
  simp only [slotAt_end]

end Ring

section Step
variable (m : (ℓ : Loc nD τ sig) → Buf (Elt F) ℓ) (d : Dev nD)
omit [FloatOps F] in
/-- One more column done: the new contents hold the trip's value in column `k` and the old contents elsewhere. -/
theorem colsDone_step (fs : S528.Idx → Elt F .i32) (ft : S2048.Idx → Elt F .f32) (k : ℕ) (fc fc' : S32x512.Idx → Elt F .f32)
    (h : colsDone m d fs ft k fc)
    (hstep : ∀ (r : Fin 32) (n : Fin 512), fc' (ix2 r n) = if n.val = k then colVal m d fs ft r k else fc (ix2 r n)) :
    colsDone m d fs ft (k + 1) fc' := by
  intro r n hn
  rw [hstep r n]
  by_cases e : n.val = k
  · rw [if_pos e, e]
  · rw [if_neg e]; exact h r n (by omega)
end Step

section Respell
variable (d : Dev nD) (L : grid0.Coords)
omit [FloatOps F] in
/-- A scratch buffer of the tile, as its whole memref addresses it. -/
theorem pts_scr (b : Ref sig .scVector) (g : Buf (Elt F) (d, bref L b)) :
    (((d, bref L b) : Loc nD τ sig) ↦{fullShare} g : sProp 𝕄) = ((Memref.whole b).view.loc (thr d L) ↦{fullShare} g) := rfl
omit [FloatOps F] in
theorem pts_ids (q : PosShare TreeShare) (f : Buf (Elt F) (idsLoc d)) :
    ((idsLoc d ↦{q} f) : sProp 𝕄) = (idsV.view.loc (thr d L) ↦{q} f) := rfl
omit [FloatOps F] in
theorem pts_tt (q : PosShare TreeShare) (f : Buf (Elt F) (ttLoc d)) :
    ((ttLoc d ↦{q} f) : sProp 𝕄) = (ttV.view.loc (thr d L) ↦{q} f) := rfl
omit [FloatOps F] in
theorem pts_tail (q : PosShare TreeShare) (f : Buf (Elt F) (tailLoc d)) :
    ((tailLoc d ↦{q} f) : sProp 𝕄) = (tailV.view.loc (thr d L) ↦{q} f) := rfl
omit [FloatOps F] in
theorem pts_out (f : Buf (Elt F) (outLoc d)) :
    ((outLoc d ↦[outSet L]{fullShare} f) : sProp 𝕄) = ((outBlk L).view.loc (thr d L) ↦[(outBlk L).view.set]{fullShare} f) := rfl
end Respell

end Cert.Proof.Block

end
-- ==== Proof.BlockStoreIdx.lean ====
/-
  An indexed store of a 16-lane vector, unmasked and overwriting, whose lanes name distinct elements: each lane's
  value is found at the element the lane names, and every other element is unchanged.
-/
import Idealize.ShloMosaic.PureOps.ShapeOps

namespace Cert.Proof.Block
open Idealize.ShloMosaic

variable {F : FTy → Type} [FloatOps F] {s : Shape} {e : EltTy} {d : Fin 1 → Nat}

/-- One lane of an unmasked, overwriting indexed store. -/
def laneStep (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (laneStep idxs v h) f := by
  unfold storeIdx laneStep
  simp

theorem foldl_laneStep_other (idxs : Fin s.rank → IVec ⟨1, d⟩ 32) (v : Vec F ⟨1, d⟩ e) (h : ∀ a x, (idxs a x).toNat < s.size a)
    (j : s.Idx) : ∀ (l : List (Fin (d 0))) (g : Vec F s e), (∀ k ∈ l, idxAt idxs h (Shape.ofLane k) ≠ j) →
      l.foldl (laneStep idxs v h) g j = g j
  | [], _, _ => rfl
  | k :: l, g, hne => by
    rw [List.foldl_cons, foldl_laneStep_other idxs v h j l _ (fun k' hk' => hne k' (List.mem_cons_of_mem _ hk'))]
    unfold laneStep
    rw [if_neg]
    intro hall
    exact hne k List.mem_cons_self (funext fun a => (Fin.ext (hall a)).symm)

theorem foldl_laneStep_hit (idxs : Fin s.rank → IVec ⟨1, d⟩ 32) (v : Vec F ⟨1, d⟩ e) (h : ∀ a x, (idxs a x).toNat < s.size a)
    (hinj : ∀ k k' : Fin (d 0), idxAt idxs h (Shape.ofLane k) = idxAt idxs h (Shape.ofLane k') → k = k') (k₀ : Fin (d 0)) :
    ∀ (l : List (Fin (d 0))) (g : Vec F s e), l.Nodup → k₀ ∈ l →
      l.foldl (laneStep idxs v h) g (idxAt idxs h (Shape.ofLane k₀)) = v (Shape.ofLane k₀)
  | [], _, _, hm => absurd hm List.not_mem_nil
  | k :: l, g, hnd, hm => by
    rw [List.foldl_cons]
    have hnd' := List.nodup_cons.mp hnd
    rcases List.mem_cons.mp hm with hk | hm'
    · subst hk
      rw [foldl_laneStep_other idxs v h _ l _ (fun k' hk' e => hnd'.1 (by have := hinj k' k₀ e; subst this; exact hk'))]
      unfold laneStep
      rw [if_pos (fun _ => rfl)]
    · exact foldl_laneStep_hit idxs v h hinj k₀ l _ hnd'.2 hm'

/-- An unmasked, overwriting indexed store whose lanes name distinct elements leaves lane `k`'s value at the element
    lane `k` names -/
theorem storeIdx_hit (f : Vec F s e) (idxs : Fin s.rank → IVec ⟨1, d⟩ 32) (v : Vec F ⟨1, d⟩ e)
    (h : ∀ a x, (idxs a x).toNat < s.size a)
    (hinj : ∀ k k' : Fin (d 0), idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_foldl]
  exact foldl_laneStep_hit idxs v h hinj k _ f (List.nodup_finRange _) (List.mem_finRange k)

/-- and every element no lane names as it was. -/
theorem storeIdx_other (f : Vec F s e) (idxs : Fin s.rank → IVec ⟨1, d⟩ 32) (v : Vec F ⟨1, d⟩ e)
    (h : ∀ a x, (idxs a x).toNat < s.size a) (j : s.Idx) (hj : ∀ k : Fin (d 0), idxAt idxs h (Shape.ofLane k) ≠ j) :
    storeIdx f idxs v (fun _ => 1#1) false h j = f j := by
  rw [storeIdx_eq_foldl]
  exact foldl_laneStep_other idxs v h j _ f (fun k _ => hj k)

end Cert.Proof.Block
-- ==== Proof.BlockTrip.lean ====
/-
  One trip of the block-gather loop, as pure facts about the vectors it computes.

  A trip handles one index word `w` and one output column `k`. It reads 16 lanes twice — rows `0 … 15` and rows
  `16 … 31` — from the fetched 128-column block at lane `w mod 128`, and from the flattened tail at entry
  `(row) + 32 · min (w − 999936) 63` (clamped, so always in range), keeps the tail's value when `w`, read signed, is at
  least 999936 and the block's otherwise, and stores the 16 values at rows `0 … 15`, then `16 … 31`, of column `k`.
  So the row vectors are `lane` and `lane + 16`, the column vectors are splats, every index is in range, the two stores
  name distinct elements, and after them column `k` holds the looked-up value at every row and the other columns are
  unchanged.
-/
import proofs.«204991_g57140244906297_cont_9to1_m_249_19_alg».proof.Proof.BlockDefs
import proofs.«204991_g57140244906297_cont_9to1_m_249_19_alg».proof.Proof.BlockArith
import proofs.«204991_g57140244906297_cont_9to1_m_249_19_alg».proof.Proof.BlockStoreIdx
import proofs.«204991_g57140244906297_cont_9to1_m_249_19_alg».proof.Proof.Gen.KernelIdeal.Skeleton

noncomputable section

namespace Cert.Proof.Block

open Cert.KernelIdeal Cert.KernelIdeal.Gen
open Idealize.ShloMosaic Idealize.ShloMosaic.ValueIdx

variable {F : FTy → Type} [FloatOps F]

/-! ## The index vectors at a lane -/

/-- A lane's coordinate is below 16. -/
theorem lane_lt (x : S16.Idx) : (x 0).val < 16 := (x 0).isLt

/-- The first row vector at a lane is the lane's number. -/
theorem pay4_toNat (x : S16.Idx) : (k0_pay4 x).toNat = (x 0).val := by
  show (BitVec.ofNat 32 (0 * 16 + (x 0).val) + 0#32).toNat = (x 0).val
  have h := lane_lt x
  rw [BitVec.toNat_add, BitVec.toNat_ofNat]
  have h0 : (0#32 : BitVec 32).toNat = 0 := rfl
  rw [h0]
  omega

/-- The second row vector at a lane is the lane's number plus 16. -/
theorem pay9_toNat (x : S16.Idx) : (k0_pay9 x).toNat = (x 0).val + 16 := by
  show (BitVec.ofNat 32 (0 * 16 + (x 0).val) + 16#32).toNat = (x 0).val + 16
  have h := lane_lt x
  rw [BitVec.toNat_add, BitVec.toNat_ofNat]
  have h0 : (16#32 : BitVec 32).toNat = 16 := rfl
  rw [h0]
  omega

/-- The column vectors are splats of their word. -/
theorem pay5_apply (v : BitVec 32) (x : S16.Idx) : k0_pay5 v x = v := by
  show (0#32 : BitVec 32) + v = v
  exact BitVec.zero_add v
theorem pay10_apply (v : BitVec 32) (x : S16.Idx) : k0_pay10 v x = v := by
  show (0#32 : BitVec 32) + v = v
  exact BitVec.zero_add v
theorem pay8_apply (v : BitVec 32) (x : S16.Idx) : k0_pay8 v x = v := by
  show (0#32 : BitVec 32) + v = v
  exact BitVec.zero_add v
theorem pay13_apply (v : BitVec 32) (x : S16.Idx) : k0_pay13 v x = v := by
  show (0#32 : BitVec 32) + v = v
  exact BitVec.zero_add v

/-- The tail index vectors at a lane: the row plus the tail offset of the word. -/
theorem pay6_toNat (w : BitVec 32) (x : S16.Idx) : (k0_pay6 w k0_pay4 x).toNat = (x 0).val + (tailOff w).toNat := by
  show (k0_pay4 x + tailOff w).toNat = _
  have h := lane_lt x
  have ht := (tailOff_spec w).1
  rw [BitVec.toNat_add, pay4_toNat]
  omega
theorem pay11_toNat (w : BitVec 32) (x : S16.Idx) : (k0_pay11 w k0_pay9 x).toNat = (x 0).val + 16 + (tailOff w).toNat := by
  show (k0_pay9 x + tailOff w).toNat = _
  have h := lane_lt x
  have ht := (tailOff_spec w).1
  rw [BitVec.toNat_add, pay9_toNat]
  omega

/-! ## Every index is in range -/

theorem ring_ok0 (w : BitVec 32) :
    ∀ a x, ((![k0_pay4, k0_pay5 (Scalar.andi w 127#32)] : Fin 2 → IVec S16 32) a x).toNat < S32x128.size a := by
  intro a x
  match a with
  | ⟨0, _⟩ =>
    show (k0_pay4 x).toNat < 32
    rw [pay4_toNat]; have := lane_lt x; omega
  | ⟨1, _⟩ =>
    show (k0_pay5 (Scalar.andi w 127#32) x).toNat < 128
    rw [pay5_apply, lane_toNat]; exact Nat.mod_lt _ (by decide)

theorem ring_ok1 (w : BitVec 32) :
    ∀ a x, ((![k0_pay9, k0_pay10 (Scalar.andi w 127#32)] : Fin 2 → IVec S16 32) a x).toNat < S32x128.size a := by
  intro a x
  match a with
  | ⟨0, _⟩ =>
    show (k0_pay9 x).toNat < 32
    rw [pay9_toNat]; have := lane_lt x; omega
  | ⟨1, _⟩ =>
    show (k0_pay10 (Scalar.andi w 127#32) x).toNat < 128
    rw [pay10_apply, lane_toNat]; exact Nat.mod_lt _ (by decide)

theorem tail_ok0 (w : BitVec 32) :
    ∀ a x, ((![k0_pay6 w k0_pay4] : Fin 1 → IVec S16 32) a x).toNat < S2048.size a := by
  intro a x
  match a with
  | ⟨0, _⟩ =>
    show (k0_pay6 w k0_pay4 x).toNat < 2048
    rw [pay6_toNat]; have := lane_lt x; have := (tailOff_spec w).1; omega

theorem tail_ok1 (w : BitVec 32) :
    ∀ a x, ((![k0_pay11 w k0_pay9] : Fin 1 → IVec S16 32) a x).toNat < S2048.size a := by
  intro a x
  match a with
  | ⟨0, _⟩ =>
    show (k0_pay11 w k0_pay9 x).toNat < 2048
    rw [pay11_toNat]; have := lane_lt x; have := (tailOff_spec w).1; omega

theorem cols_ok0 (v77 : BitVec 32) (hv : v77.toNat < 512) :
    ∀ a x, ((![k0_pay4, k0_pay8 v77] : Fin 2 → IVec S16 32) a x).toNat < S32x512.size a := by
  intro a x
  match a with
  | ⟨0, _⟩ =>
    show (k0_pay4 x).toNat < 32
    rw [pay4_toNat]; have := lane_lt x; omega
  | ⟨1, _⟩ =>
    show (k0_pay8 v77 x).toNat < 512
    rw [pay8_apply]; exact hv

theorem cols_ok1 (v77 : BitVec 32) (hv : v77.toNat < 512) :
    ∀ a x, ((![k0_pay9, k0_pay13 v77] : Fin 2 → IVec S16 32) a x).toNat < S32x512.size a := by
  intro a x
  match a with
  | ⟨0, _⟩ =>
    show (k0_pay9 x).toNat < 32
    rw [pay9_toNat]; have := lane_lt x; omega
  | ⟨1, _⟩ =>
    show (k0_pay13 v77 x).toNat < 512
    rw [pay13_apply]; exact hv

end Cert.Proof.Block

end
-- ==== Proof.BlockTripValue.lean ====
/-
  One trip of the block-gather loop: what its two indexed stores leave in the staging block.

  An unmasked indexed store of 16 lanes whose row vector is `lane + off` and whose column vector is the splat of `k`
  names the 16 distinct elements `(off + lane, k)`: afterwards element `(r, n)` holds lane `r − off` of the stored
  vector when `n = k` and `off ≤ r < off + 16`, and what it held before otherwise. The stored vectors are, lane by lane,
  the tail's entry when the word, read signed, is at least 999936, and the fetched block's entry at the word's lane
  otherwise — the block holding columns `128 · min (w / 128) 7811 …` of the transposed table. Two such stores, rows
  `0 … 15` then `16 … 31`, leave column `k` at the looked-up value at every row and every other column unchanged.
-/
import proofs.«204991_g57140244906297_cont_9to1_m_249_19_alg».proof.Proof.BlockTrip

noncomputable section

namespace Cert.Proof.Block

open Cert.KernelIdeal Cert.KernelIdeal.Gen
open Idealize.ShloMosaic Idealize.ShloMosaic.ValueIdx

variable {F : FTy → Type} [FloatOps F]

/-- The column read for word `w` at lane `l` of its block lies inside the table. -/
theorem blkCol_lt (w : BitVec 32) (l : Fin 128) : (blkOff w).toNat + l.val < 1000000 := by
  rw [blkOff_toNat]
  have h1 := Nat.min_le_right (w.toNat / 128) 7811
  have h2 := l.isLt
  omega

/-- The selected vector at a lane: the tail's when the word, read signed, is at least 999936, else the block's. -/
theorem pay7_apply (w : BitVec 32) (a b : Vec F S16 .f32) (x : S16.Idx) :
    k0_pay7 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

theorem pay12_apply (w : BitVec 32) (a b : Vec F S16 .f32) (x : S16.Idx) :
    k0_pay12 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

/-- A load from the fetched block at row vector `P` and the word's lane reads, at a lane whose row is `ρ`, the
    transposed table at `(ρ, colAt w)`. -/
theorem load_ring (tt : S32x1000000.Idx → Elt F .f32) (R : S32x128.Idx → Elt F .f32) (w : BitVec 32)
    (hR : ∀ (r : Fin 32) (l : Fin 128), R (ix2 r l) = tt (ix2 r ⟨(blkOff w).toNat + l.val, blkCol_lt w l⟩))
    (P Q : IVec S16 32) (h : ∀ a x, ((![P, Q] : Fin 2 → IVec S16 32) a x).toNat < S32x128.size a) (x : S16.Idx)
    (ρ : Fin 32) (hP : (P x).toNat = ρ.val) (hQ : Q x = Scalar.andi w 127#32) :
    loadIdx (F := F) R (![P, Q] : Fin 2 → IVec S16 32) h x = tt (ix2 ρ ⟨colAt w, colAt_lt w⟩) := by
  have hi : idxAt (![P, Q] : Fin 2 → IVec S16 32) h x = ix2 ρ ⟨w.toNat % 128, Nat.mod_lt _ (by decide)⟩ := by
    funext a
    match a with
    | ⟨0, _⟩ => exact Fin.ext hP
    | ⟨1, _⟩ =>
      refine Fin.ext ?_
      show (Q x).toNat = w.toNat % 128
      rw [hQ, lane_toNat]
  show R (idxAt (![P, Q] : Fin 2 → IVec S16 32) h x) = _
  rw [hi, hR]
  refine congrArg tt (congrArg (ix2 ρ) (Fin.ext ?_))
  show (blkOff w).toNat + w.toNat % 128 = colAt w
  rw [blkOff_toNat]
  rfl

/-- A load from the flattened tail at index vector `P` reads, at a lane whose entry is `ρ` plus the word's tail offset,
    entry `tailAt w ρ` — for a word that, read signed, is at least 999936. -/
theorem load_tail (ft : S2048.Idx → Elt F .f32) (w : BitVec 32) (P : IVec S16 32)
    (h : ∀ a x, ((![P] : Fin 1 → IVec S16 32) a x).toNat < S2048.size a) (x : S16.Idx) (ρ : Fin 32)
    (hP : (P x).toNat = ρ.val + (tailOff w).toNat) (hge : (999936 : ℤ) ≤ w.toInt) :
    loadIdx (F := F) ft (![P] : Fin 1 → IVec S16 32) h x = ft (ix1 ⟨tailAt w ρ, tailAt_lt w ρ⟩) := by
  show ft (idxAt (![P] : Fin 1 → IVec S16 32) h x) = _
  refine congrArg ft (funext fun a => ?_)
  match a with
  | ⟨0, _⟩ =>
    refine Fin.ext ?_
    show (P x).toNat = tailAt w ρ
    rw [hP, (tailOff_spec w).2 hge]
    unfold tailAt
    omega

/-- An unmasked overwriting store of 16 lanes at rows `lane + off` of column `k`: element `(r, n)` afterwards. -/
theorem colStore (fc : Vec F S32x512 .f32) (P Q : IVec S16 32) (val : Vec F S16 .f32)
    (h : ∀ a x, ((![P, Q] : Fin 2 → IVec S16 32) a x).toNat < S32x512.size a) (off k : ℕ)
    (hP : ∀ x, (P x).toNat = (x 0).val + off) (hQ : ∀ x, (Q x).toNat = k) (r : Fin 32) (n : Fin 512) :
    storeIdx fc (![P, Q] : Fin 2 → IVec S16 32) val (fun _ => 1#1) false h (ix2 r n)
      = if hc : n.val = k ∧ off ≤ r.val ∧ r.val < off + 16 then val (ix1 ⟨r.val - off, by omega⟩) else fc (ix2 r n) := by
  by_cases hc : n.val = k ∧ off ≤ r.val ∧ r.val < off + 16
  · rw [dif_pos hc]
    obtain ⟨hn, hlo, hhi⟩ := hc
    have hl : r.val - off < 16 := by omega
    have hlane : (Shape.ofLane (d := ![16]) ⟨r.val - off, hl⟩ : S16.Idx) = ix1 ⟨r.val - off, hl⟩ := by
      funext a
      match a with
      | ⟨0, _⟩ => rfl
    have hidx : idxAt (![P, Q] : Fin 2 → IVec S16 32) h (Shape.ofLane (d := ![16]) ⟨r.val - off, hl⟩) = ix2 r n := by
      funext a
      match a with
      | ⟨0, _⟩ =>
        refine Fin.ext ?_
        show (P (Shape.ofLane (d := ![16]) ⟨r.val - off, hl⟩)).toNat = r.val
        rw [hP, hlane]
        show (r.val - off) + off = r.val
        omega
      | ⟨1, _⟩ =>
        refine Fin.ext ?_
        show (Q (Shape.ofLane (d := ![16]) ⟨r.val - off, hl⟩)).toNat = n.val
        rw [hQ, hn]
    have hinj : ∀ k₁ k₂ : Fin ((![16] : Fin 1 → ℕ) 0),
        idxAt (s := S32x512) (![P, Q] : Fin 2 → IVec S16 32) h (Shape.ofLane k₁)
          = idxAt (s := S32x512) (![P, Q] : Fin 2 → IVec S16 32) h (Shape.ofLane k₂) → k₁ = k₂ := by
      intro k₁ k₂ e
      have e0 : (P (Shape.ofLane k₁)).toNat = (P (Shape.ofLane k₂)).toNat := congrArg (fun i => (i 0).val) e
      rw [hP, hP] at e0
      have h1 : ((Shape.ofLane k₁ : S16.Idx) 0).val = k₁.val := rfl
      have h2 : ((Shape.ofLane k₂ : S16.Idx) 0).val = k₂.val := rfl
      exact Fin.ext (by omega)
    rw [← hidx, storeIdx_hit fc _ val h hinj ⟨r.val - off, hl⟩, hlane]
  · rw [dif_neg hc]
    refine storeIdx_other fc _ val h (ix2 r n) (fun k' e => hc ?_)
    have e0 : (P (Shape.ofLane k')).toNat = r.val := congrArg (fun i => (i 0).val) e
    have e1 : (Q (Shape.ofLane k')).toNat = n.val := congrArg (fun i => (i 1).val) e
    rw [hP] at e0
    rw [hQ] at e1
    have h1 : ((Shape.ofLane k' : S16.Idx) 0).val = k'.val := rfl
    have h2 : k'.val < 16 := k'.isLt
    exact ⟨e1.symm, by omega, by omega⟩

/-- After the trip's two stores: column `k` holds the looked-up value at every row, the other columns are unchanged. -/
theorem trip_value (tt : S32x1000000.Idx → Elt F .f32) (ft : S2048.Idx → Elt F .f32) (fc : S32x512.Idx → Elt F .f32)
    (R : S32x128.Idx → Elt F .f32) (w v77 : BitVec 32) (k : ℕ) (hk : k < 512) (hv : v77.toNat = k)
    (hR : ∀ (r : Fin 32) (l : Fin 128), R (ix2 r l) = tt (ix2 r ⟨(blkOff w).toNat + l.val, blkCol_lt w l⟩))
    (h1 : ∀ a x, ((![k0_pay4, k0_pay5 (Scalar.andi w 127#32)] : Fin 2 → IVec S16 32) a x).toNat < S32x128.size a)
    (h2 : ∀ a x, ((![k0_pay6 w k0_pay4] : Fin 1 → IVec S16 32) a x).toNat < S2048.size a)
    (h3 : ∀ a x, ((![k0_pay4, k0_pay8 v77] : Fin 2 → IVec S16 32) a x).toNat < S32x512.size a)
    (h4 : ∀ a x, ((![k0_pay9, k0_pay10 (Scalar.andi w 127#32)] : Fin 2 → IVec S16 32) a x).toNat < S32x128.size a)
    (h5 : ∀ a x, ((![k0_pay11 w k0_pay9] : Fin 1 → IVec S16 32) a x).toNat < S2048.size a)
    (h6 : ∀ a x, ((![k0_pay9, k0_pay13 v77] : Fin 2 → IVec S16 32) a x).toNat < S32x512.size a) :
    ∀ (r : Fin 32) (n : Fin 512),
      storeIdx (storeIdx fc (![k0_pay4, k0_pay8 v77] : Fin 2 → IVec S16 32)
          (k0_pay7 (F := F) w (loadIdx (F := F) R (![k0_pay4, k0_pay5 (Scalar.andi w 127#32)] : Fin 2 → IVec S16 32) h1) (loadIdx (F := F) ft (![k0_pay6 w k0_pay4] : Fin 1 → IVec S16 32) h2)) (fun _ => 1#1) false h3)
        (![k0_pay9, k0_pay13 v77] : Fin 2 → IVec S16 32)
        (k0_pay12 (F := F) w (loadIdx (F := F) R (![k0_pay9, k0_pay10 (Scalar.andi w 127#32)] : Fin 2 → IVec S16 32) h4) (loadIdx (F := F) ft (![k0_pay11 w k0_pay9] : Fin 1 → IVec S16 32) h5)) (fun _ => 1#1) false h6 (ix2 r n)
      = if n.val = k then (if (999936 : ℤ) ≤ w.toInt then ft (ix1 ⟨tailAt w r, tailAt_lt w r⟩) else tt (ix2 r ⟨colAt w, colAt_lt w⟩))
        else fc (ix2 r n) := by
  intro r n
  have hq0 : ∀ x, (k0_pay8 v77 x).toNat = k := fun x => by rw [pay8_apply, hv]
  have hq1 : ∀ x, (k0_pay13 v77 x).toNat = k := fun x => by rw [pay13_apply, hv]
  have hp0 : ∀ x : S16.Idx, (k0_pay4 x).toNat = (x 0).val + 0 := fun x => (pay4_toNat x).trans (Nat.add_zero _).symm
  rw [colStore _ k0_pay9 (k0_pay13 v77) _ h6 16 k pay9_toNat hq1 r n,
    colStore fc k0_pay4 (k0_pay8 v77) _ h3 0 k hp0 hq0 r n]
  by_cases hn : n.val = k
  · rw [if_pos hn]
    by_cases hr : r.val < 16
    · rw [dif_neg (fun hc => by omega), dif_pos ⟨hn, Nat.zero_le _, by omega⟩, pay7_apply]
      by_cases hge : (999936 : ℤ) ≤ w.toInt
      · rw [if_pos hge, if_pos hge]
        exact load_tail ft w (k0_pay6 w k0_pay4) h2 _ r (by rw [pay6_toNat]; rfl) hge
      · rw [if_neg hge, if_neg hge]
        exact load_ring tt R w hR k0_pay4 (k0_pay5 (Scalar.andi w 127#32)) h1 _ r (by rw [pay4_toNat]; rfl) (pay5_apply _ _)
    · rw [dif_pos ⟨hn, by omega, by have := r.isLt; omega⟩, pay12_apply]
      by_cases hge : (999936 : ℤ) ≤ w.toInt
      · rw [if_pos hge, if_pos hge]
        exact load_tail ft w (k0_pay11 w k0_pay9) h5 _ r
          (by rw [pay11_toNat]; show (r.val - 16) + 16 + _ = r.val + _; omega) hge
      · rw [if_neg hge, if_neg hge]
        exact load_ring tt R w hR k0_pay9 (k0_pay10 (Scalar.andi w 127#32)) h4 _ r
          (by rw [pay9_toNat]; show (r.val - 16) + 16 = r.val; omega) (pay10_apply _ _)
  · rw [if_neg hn, dif_neg (fun hc => hn hc.1), dif_neg (fun hc => hn hc.1)]

end Cert.Proof.Block

end
-- ==== Proof.BlockEnds2.lean ====
/-
  What the block-gather task's two table copies carry.

  The copy of one 128-column block of the transposed table, all 32 rows from column `blkOff w`, carries at `(r, l)` the
  table's entry `(r, blkOff w + l)`. The copy of the whole flattened tail over the whole tail scratch leaves the tail
  there, whatever the scratch held.
-/
import proofs.«204991_g57140244906297_cont_9to1_m_249_19_alg».proof.Proof.BlockTripValue
import Idealize.ShloMosaic.Lib.Writes

noncomputable section

namespace Cert.Proof.Block

open Cert.KernelIdeal Cert.KernelIdeal.Gen
open Idealize.ShloMosaic Idealize.ShloMosaic.ValueIdx

variable {F : FTy → Type} [FloatOps F]

/-- What the copied block holds at `(r, l)`: the transposed table at `(r, blkOff w + l)`. -/
theorem blkPay_apply (tt : S32x1000000.Idx → Elt F .f32) (w : BitVec 32)
    (h : ∀ a, (![0, (blkOff w).toNat] : Fin 2 → ℕ) a + S32x128.size a ≤ S32x1000000.size a) (r : Fin 32) (l : Fin 128) :
    (ReadAs.same : ReadAs (Elt F) S32x128 .f32 S32x128 .f32).apply
        ((ttV.slice (Rect.unit (s := S32x1000000) ![0, (blkOff w).toNat] S32x128.size h) (fun _ => rfl)).view.read (Elt F) tt) (ix2 r l)
      = tt (ix2 r ⟨(blkOff w).toNat + l.val, blkCol_lt w l⟩) := by
  show View.read (Elt F) (ttV.slice (Rect.unit (s := S32x1000000) ![0, (blkOff w).toNat] S32x128.size h) (fun _ => rfl)).view tt (ix2 r l) = _
  rw [View.read_apply]
  refine (eq_of_heq (cast_heq _ _)).trans (congrArg tt (funext fun a => ?_))
  match a with
  | ⟨0, _⟩ =>
    refine Fin.ext ?_
    show 0 + 1 * r.val = r.val
    omega
  | ⟨1, _⟩ =>
    refine Fin.ext ?_
    show (blkOff w).toNat + 1 * l.val = (blkOff w).toNat + l.val
    omega

/-- The whole tail copied over the whole tail scratch leaves the tail there. -/
theorem tail_copy (g9 tail : S2048.Idx → Elt F .f32) :
    View.write (Elt F) (Memref.whole cc0_scratch9 : Memref sig .scVector .vmem S2048 .f32).view g9
        ((ReadAs.same : ReadAs (Elt F) S2048 .f32 S2048 .f32).apply (tailV.view.read (Elt F) tail)) Finset.univ = tail :=
  (View.write_whole_univ cc0_scratch9 g9 _).trans (View.read_whole main_v2_scv tail)

end Cert.Proof.Block

end
-- ==== Proof.BlockTrip0.lean ====
/-
  One trip of the block-gather loop whose number is 0 mod 8: it serves slot 0. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq0 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip0 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 0) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c1 : k0_cond1 k = 1#1 := o0.mpr hres
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 0 k.val hres hk, slotAt_succ_self m d L q fs _ _ 0 k.val hres,
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c2 : k0_cond2 k = 1#1 := e0.mpr hlast
    rw [if_pos hlast, wAt_off fs (k.val + 8) hlast (k0_off11 k) (k0_off11_inb k c1 c2) (k0_off11_eq k)]
    unfold slot
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch1) (LoadRect.whole S32x128) f = f :=
        fun f => Memref.readAt_whole (Elt F) cc0_scratch1 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch1) g P Finset.univ = P :=
        fun g P => View.write_whole_univ cc0_scratch1 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HF Hrest]
    · isplitl [HF]; · iexists _; iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c2 : ¬ k0_cond2 k = 1#1 := fun h => hlast (e0.mp h)
    rw [if_neg hlast]; unfold slot slotIdle
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch1) (LoadRect.whole S32x128) f = f :=
        fun f => Memref.readAt_whole (Elt F) cc0_scratch1 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch1) g P Finset.univ = P :=
        fun g P => View.write_whole_univ cc0_scratch1 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HF_dst HF Hrest]
    · isplitl [HF_dst]; · iexists _; iexact HF_dst
      isplitl [HF]; · iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block

end
-- ==== Proof.BlockTrip1.lean ====
/-
  One trip of the block-gather loop whose number is 1 mod 8: it serves slot 1. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq1 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip1 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 1) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c3 : k0_cond3 k = 1#1 := o1.mpr hres
  have c1 : ¬ k0_cond1 k = 1#1 := fun h => by have := o0.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 1 k.val hres hk, slotAt_succ_self m d L q fs _ _ 1 k.val hres,
    slotAt_succ_other m d L q fs _ _ 0 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c4 : k0_cond4 k = 1#1 := e1.mpr hlast
    rw [if_pos hlast, wAt_off fs (k.val + 8) hlast (k0_off13 k) (k0_off13_inb k c3 c4) (k0_off13_eq k)]
    unfold slot
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch2) (LoadRect.whole S32x128) f = f :=
        fun f => Memref.readAt_whole (Elt F) cc0_scratch2 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch2) g P Finset.univ = P :=
        fun g P => View.write_whole_univ cc0_scratch2 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HF Hrest]
    · isplitl [HF]; · iexists _; iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c4 : ¬ k0_cond4 k = 1#1 := fun h => hlast (e1.mp h)
    rw [if_neg hlast]; unfold slot slotIdle
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch2) (LoadRect.whole S32x128) f = f :=
        fun f => Memref.readAt_whole (Elt F) cc0_scratch2 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch2) g P Finset.univ = P :=
        fun g P => View.write_whole_univ cc0_scratch2 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HF_dst HF Hrest]
    · isplitl [HF_dst]; · iexists _; iexact HF_dst
      isplitl [HF]; · iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block

end
-- ==== Proof.BlockTrip2.lean ====
/-
  One trip of the block-gather loop whose number is 2 mod 8: it serves slot 2. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq2 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip2 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 2) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c5 : k0_cond5 k = 1#1 := o2.mpr hres
  have c1 : ¬ k0_cond1 k = 1#1 := fun h => by have := o0.mp h; omega
  have c3 : ¬ k0_cond3 k = 1#1 := fun h => by have := o1.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 2 k.val hres hk, slotAt_succ_self m d L q fs _ _ 2 k.val hres,
    slotAt_succ_other m d L q fs _ _ 0 k.val (by omega) (by omega),
    slotAt_succ_other m d L q fs _ _ 1 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c6 : k0_cond6 k = 1#1 := e2.mpr hlast
    rw [if_pos hlast, wAt_off fs (k.val + 8) hlast (k0_off15 k) (k0_off15_inb k c5 c6) (k0_off15_eq k)]
    unfold slot
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch3) (LoadRect.whole S32x128) f = f :=
        fun f => Memref.readAt_whole (Elt F) cc0_scratch3 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch3) g P Finset.univ = P :=
        fun g P => View.write_whole_univ cc0_scratch3 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HF Hrest]
    · isplitl [HF]; · iexists _; iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c6 : ¬ k0_cond6 k = 1#1 := fun h => hlast (e2.mp h)
    rw [if_neg hlast]; unfold slot slotIdle
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch3) (LoadRect.whole S32x128) f = f :=
        fun f => Memref.readAt_whole (Elt F) cc0_scratch3 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch3) g P Finset.univ = P :=
        fun g P => View.write_whole_univ cc0_scratch3 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HF_dst HF Hrest]
    · isplitl [HF_dst]; · iexists _; iexact HF_dst
      isplitl [HF]; · iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block

end
-- ==== Proof.BlockTrip3.lean ====
/-
  One trip of the block-gather loop whose number is 3 mod 8: it serves slot 3. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq3 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip3 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 3) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c7 : k0_cond7 k = 1#1 := o3.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 3 k.val hres hk, slotAt_succ_self m d L q fs _ _ 3 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c8 : k0_cond8 k = 1#1 := e3.mpr hlast
    rw [if_pos hlast, wAt_off fs (k.val + 8) hlast (k0_off17 k) (k0_off17_inb k c7 c8) (k0_off17_eq k)]
    unfold slot
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch4) (LoadRect.whole S32x128) f = f :=
        fun f => Memref.readAt_whole (Elt F) cc0_scratch4 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch4) g P Finset.univ = P :=
        fun g P => View.write_whole_univ cc0_scratch4 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HF Hrest]
    · isplitl [HF]; · iexists _; iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c8 : ¬ k0_cond8 k = 1#1 := fun h => hlast (e3.mp h)
    rw [if_neg hlast]; unfold slot slotIdle
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch4) (LoadRect.whole S32x128) f = f :=
        fun f => Memref.readAt_whole (Elt F) cc0_scratch4 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch4) g P Finset.univ = P :=
        fun g P => View.write_whole_univ cc0_scratch4 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HF_dst HF Hrest]
    · isplitl [HF_dst]; · iexists _; iexact HF_dst
      isplitl [HF]; · iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block

end
-- ==== Proof.BlockTrip4.lean ====
/-
  One trip of the block-gather loop whose number is 4 mod 8: it serves slot 4. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq4 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip4 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 4) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c9 : k0_cond9 k = 1#1 := o4.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 4 k.val hres hk, slotAt_succ_self m d L q fs _ _ 4 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c10 : k0_cond10 k = 1#1 := e4.mpr hlast
    rw [if_pos hlast, wAt_off fs (k.val + 8) hlast (k0_off19 k) (k0_off19_inb k c9 c10) (k0_off19_eq k)]
    unfold slot
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch5) (LoadRect.whole S32x128) f = f :=
        fun f => Memref.readAt_whole (Elt F) cc0_scratch5 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch5) g P Finset.univ = P :=
        fun g P => View.write_whole_univ cc0_scratch5 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF Hrest]
    · isplitl [HF]; · iexists _; iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c10 : ¬ k0_cond10 k = 1#1 := fun h => hlast (e4.mp h)
    rw [if_neg hlast]; unfold slot slotIdle
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch5) (LoadRect.whole S32x128) f = f :=
        fun f => Memref.readAt_whole (Elt F) cc0_scratch5 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch5) g P Finset.univ = P :=
        fun g P => View.write_whole_univ cc0_scratch5 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF_dst HF Hrest]
    · isplitl [HF_dst]; · iexists _; iexact HF_dst
      isplitl [HF]; · iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block

end
-- ==== Proof.BlockTrip5.lean ====
/-
  One trip of the block-gather loop whose number is 5 mod 8: it serves slot 5. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq5 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip5 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 5) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c11 : k0_cond11 k = 1#1 := o5.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c13 : ¬ k0_cond13 k = 1#1 := fun h => by have := o6.mp h; omega
  have c15 : ¬ k0_cond15 k = 1#1 := fun h => by have := o7.mp h; omega
  unfold inv
  rw [slotAt_self m d L q fs _ _ 5 k.val hres hk, slotAt_succ_self m d L q fs _ _ 5 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 6 k.val (by omega) (by omega),
    slotAt_succ_other m d L q fs _ _ 7 k.val (by omega) (by omega)]
  by_cases hlast : k.val + 8 < 512
  · have c12 : k0_cond12 k = 1#1 := e5.mpr hlast
    rw [if_pos hlast, wAt_off fs (k.val + 8) hlast (k0_off21 k) (k0_off21_inb k c11 c12) (k0_off21_eq k)]
    unfold slot
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch6) (LoadRect.whole S32x128) f = f :=
        fun f => Memref.readAt_whole (Elt F) cc0_scratch6 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch6) g P Finset.univ = P :=
        fun g P => View.write_whole_univ cc0_scratch6 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF Hrest]
    · isplitl [HF]; · iexists _; iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c12 : ¬ k0_cond12 k = 1#1 := fun h => hlast (e5.mp h)
    rw [if_neg hlast]; unfold slot slotIdle
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch6) (LoadRect.whole S32x128) f = f :=
        fun f => Memref.readAt_whole (Elt F) cc0_scratch6 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch6) g P Finset.univ = P :=
        fun g P => View.write_whole_univ cc0_scratch6 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF_dst HF Hrest]
    · isplitl [HF_dst]; · iexists _; iexact HF_dst
      isplitl [HF]; · iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block

end
-- ==== Proof.BlockTrip6.lean ====
/-
  One trip of the block-gather loop whose number is 6 mod 8: it serves slot 6. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq6 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip6 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 6) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c13 : k0_cond13 k = 1#1 := o6.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c15 : ¬ k0_cond15 k = 1#1 := fun h => by have := o7.mp h; omega
  unfold inv
  rw [slotAt_self m d L q fs _ _ 6 k.val hres hk, slotAt_succ_self m d L q fs _ _ 6 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 7 k.val (by omega) (by omega)]
  by_cases hlast : k.val + 8 < 512
  · have c14 : k0_cond14 k = 1#1 := e6.mpr hlast
    rw [if_pos hlast, wAt_off fs (k.val + 8) hlast (k0_off23 k) (k0_off23_inb k c13 c14) (k0_off23_eq k)]
    unfold slot
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch7) (LoadRect.whole S32x128) f = f :=
        fun f => Memref.readAt_whole (Elt F) cc0_scratch7 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch7) g P Finset.univ = P :=
        fun g P => View.write_whole_univ cc0_scratch7 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF Hrest]
    · isplitl [HF]; · iexists _; iexact HF
      iexact Hrest
    isplitl [HS7]; · iexact HS7
    iexists _; isplitr
    swap
    · iexact HO
    · ipureintro; intro p hp
      rcases Finset.mem_insert.mp hp with hp | hp
      · right; rw [hp]; rfl
      · exact hW' p hp
  · have c14 : ¬ k0_cond14 k = 1#1 := fun h => hlast (e6.mp h)
    rw [if_neg hlast]; unfold slot slotIdle
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch7) (LoadRect.whole S32x128) f = f :=
        fun f => Memref.readAt_whole (Elt F) cc0_scratch7 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch7) g P Finset.univ = P :=
        fun g P => View.write_whole_univ cc0_scratch7 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF_dst HF Hrest]
    · isplitl [HF_dst]; · iexists _; iexact HF_dst
      isplitl [HF]; · iexact HF
      iexact Hrest
    isplitl [HS7]; · iexact HS7
    iexists _; isplitr
    swap
    · iexact HO
    · ipureintro; intro p hp
      rcases Finset.mem_insert.mp hp with hp | hp
      · right; rw [hp]; rfl
      · exact hW' p hp

end Cert.Proof.Block

end
-- ==== Proof.BlockTrip7.lean ====
/-
  One trip of the block-gather loop whose number is 7 mod 8: it serves slot 7. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInv
import proofs.«204991_g57140244906297_cont_9to1_m_249_19_alg».proof.Proof.BlockTripValue
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq7 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip7 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 7) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c15 : k0_cond15 k = 1#1 := o7.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  unfold inv
  rw [slotAt_self m d L q fs _ _ 7 k.val hres hk, slotAt_succ_self m d L q fs _ _ 7 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega)]
  by_cases hlast : k.val + 8 < 512
  · have c16 : k0_cond16 k = 1#1 := e7.mpr hlast
    rw [if_pos hlast, wAt_off fs (k.val + 8) hlast (k0_off25 k) (k0_off25_inb k c15 c16) (k0_off25_eq k)]
    unfold slot
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch8) (LoadRect.whole S32x128) f = f :=
        fun f => Memref.readAt_whole (Elt F) cc0_scratch8 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch8) g P Finset.univ = P :=
        fun g P => View.write_whole_univ cc0_scratch8 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF Hrest]
    · isplitl [HF]; · iexists _; iexact HF
      iexact Hrest
    iexists _; isplitr
    swap
    · iexact HO
    · ipureintro; intro p hp
      rcases Finset.mem_insert.mp hp with hp | hp
      · right; rw [hp]; rfl
      · exact hW' p hp
  · have c16 : ¬ k0_cond16 k = 1#1 := fun h => hlast (e7.mp h)
    rw [if_neg hlast]; unfold slot slotIdle
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch8) (LoadRect.whole S32x128) f = f :=
        fun f => Memref.readAt_whole (Elt F) cc0_scratch8 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch8) g P Finset.univ = P :=
        fun g P => View.write_whole_univ cc0_scratch8 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF_dst HF Hrest]
    · isplitl [HF_dst]; · iexists _; iexact HF_dst
      isplitl [HF]; · iexact HF
      iexact Hrest
    iexists _; isplitr
    swap
    · iexact HO
    · ipureintro; intro p hp
      rcases Finset.mem_insert.mp hp with hp | hp
      · right; rw [hp]; rfl
      · exact hW' p hp

end Cert.Proof.Block

end
-- ==== Proof.BlockEnds.lean ====
/-
  The two ends of the block-gather task, as facts about contents.

  The index scratch after the first copy holds, in its first 512 words, the task's 512 index words; a 16-lane load at
  offset `j < 512` therefore has word `j` of the task, which is word `k0_off1 L + j` of the index array, in lane 0.
  The write-out copies the whole staging block over the task's block of the output, columns
  `k0_off27 L … + 511` of all 32 rows: if the staging block holds `g` at those columns, the output holds `g` on the
  task's block afterwards. The index slice and the output block start at the same column, `1024 · (L 1) + 512 · (L 0)`.
-/
import proofs.«204991_g57140244906297_cont_9to1_m_249_19_alg».proof.Proof.BlockDefs
import Idealize.ShloMosaic.Lib.Writes

noncomputable section

namespace Cert.Proof.Block

open Cert.KernelIdeal Cert.KernelIdeal.Gen
open Idealize.ShloMosaic Idealize.ShloMosaic.ValueIdx

variable {F : FTy → Type} [FloatOps F]

/-- The index slice and the output block of a task start at the same column. -/
theorem off1_eq_off27 (L : grid0.Coords) : (k0_off1 L) 0 = (k0_off27 L) 1 := by
  rw [k0_off1_eq, k0_off27_eq]
  rfl

/-- The output block of a task starts at row 0. -/
theorem off27_row (L : grid0.Coords) : (k0_off27 L) 0 = 0 := by
  rw [k0_off27_eq]
  rfl

/-- Column `n` of a task's output block lies inside the output. -/
theorem off27_lt (L : grid0.Coords) (n : Fin 512) : (k0_off27 L) 1 + n.val < 16384 := by
  have h : (k0_off27 L) 1 + 512 ≤ 16384 := k0_off27_inb L 1
  have := n.isLt
  omega

/-- After the staging block is written whole over the task's block of the output, that block holds `g` if the staging
    block held `g` at the task's columns. -/
theorem out_value (f0 : S32x16384.Idx → Elt F .f32) (fc : S32x512.Idx → Elt F .f32) (g : S32x16384.Idx → Elt F .f32)
    (L : grid0.Coords)
    (hfc : ∀ (r : Fin 32) (n : Fin 512), fc (ix2 r n) = g (ix2 r ⟨(k0_off27 L) 1 + n.val, off27_lt L n⟩)) :
    ∀ i ∈ (outBlk L).view.set, (outBlk L).view.writes (Elt F) f0 [⟨Rect.whole S32x512, fc⟩] i = g i := by
  intro i hi
  obtain ⟨y, -, rfl⟩ := Finset.mem_map.mp hi
  have h1 := View.read_writes_cons_emb (outBlk L).view f0 (Rect.whole S32x512) fc [] y
  rw [Rect.emb_whole_apply, View.read_apply] at h1
  refine ((eq_of_heq (cast_heq _ _)).symm.trans h1).trans ?_
  obtain ⟨r, n, rfl⟩ : ∃ (r : Fin 32) (n : Fin 512), y = ix2 r n := ⟨y 0, y 1, eq_ix2 y⟩
  rw [hfc]
  refine congrArg g (funext fun a => ?_)
  match a with
  | ⟨0, _⟩ =>
    refine Fin.ext ?_
    show r.val = (k0_off27 L) 0 + 1 * r.val
    rw [off27_row]
    omega
  | ⟨1, _⟩ =>
    refine Fin.ext ?_
    show (k0_off27 L) 1 + n.val = (k0_off27 L) 1 + 1 * n.val
    omega

/-- Word `j` of a task's index slice lies inside the index array. -/
theorem off1_lt (L : grid0.Coords) (j : ℕ) (hj : j < 512) : (k0_off1 L) 0 + j < 16384 := by
  have h : (k0_off1 L) 0 + 512 ≤ 16384 := k0_off1_inb L 0
  omega

/-- The word a kernel extracts from a 16-lane vector: its lane 0. -/
theorem lane0_eq {α : Type} (X : S16.Idx → α) :
    extractAt ![0] (extractStridedSlice (s := S16) S1 ![0] X slices_S16_o0_S1) inpos_S1_p0 = X (ix1 (0 : Fin 16)) := by
  show X _ = X _
  refine congrArg X (funext fun a => ?_)
  match a with
  | ⟨0, _⟩ => exact Fin.ext rfl

/-- After the first copy has put the task's 512 index words at the head of the index scratch, lane 0 of a 16-lane
    load of the scratch at offset `j < 512` is word `k0_off1 L + j` of the index array. -/
theorem sidx_word (g0 : S528.Idx → Elt F .i32) (ids : S16384.Idx → Elt F .i32) (L : grid0.Coords) (j : ℕ) (hj : j < 512)
    (off : Fin 1 → ℕ) (h : ∀ a, off a + S16.size a ≤ S528.size a) (e : off = ![j]) :
    extractAt ![0] (extractStridedSlice (s := S16) S1 ![0]
      (((Memref.whole cc0_scratch0 : Memref sig .scVector .vmem S528 .i32).view.readAt (Elt F)
          (Rect.unit (s := S528) off S16.size h).toLoadRect
          ((Memref.whole cc0_scratch0 : Memref sig .scVector .vmem S528 .i32).view.writes (Elt F) g0
            [⟨Rect.unit (s := S528) ![0] S512.size inb_S528_S512_0,
              (ReadAs.same : ReadAs (Elt F) S512 .i32 S512 .i32).apply
                ((idsV.slice (Rect.unit (s := S16384) (k0_off1 L) S512.size (k0_off1_inb L)) (fun _ => rfl)).view.read (Elt F) ids)⟩]) :
        Vec F S16 .i32))
      slices_S16_o0_S1) inpos_S1_p0
    = ids (ix1 ⟨(k0_off1 L) 0 + j, off1_lt L j hj⟩) := by
  subst e
  refine (lane0_eq _).trans ?_
  have hidx : (Rect.unit (s := S528) ![j] S16.size h).toLoadRect.idx (ix1 (0 : Fin 16))
      = (Rect.unit (s := S528) ![0] S512.size inb_S528_S512_0).emb (ix1 (⟨j, hj⟩ : Fin 512)) := by
    funext a
    match a with
    | ⟨0, _⟩ =>
      refine Fin.ext ?_
      show j + 1 * 0 = 0 + 1 * j
      omega
  show View.read (Elt F) _ _ ((Rect.unit (s := S528) ![j] S16.size h).toLoadRect.idx (ix1 (0 : Fin 16))) = _
  rw [hidx, View.read_writes_cons_emb]
  show View.read (Elt F) (idsV.slice (Rect.unit (s := S16384) (k0_off1 L) S512.size (k0_off1_inb L)) (fun _ => rfl)).view ids
    (ix1 (⟨j, hj⟩ : Fin 512)) = _
  rw [View.read_apply]
  refine (eq_of_heq (cast_heq _ _)).trans (congrArg ids (funext fun a => ?_))
  match a with
  | ⟨0, _⟩ =>
    refine Fin.ext ?_
    show (k0_off1 L) 0 + 1 * j = (k0_off1 L) 0 + j
    omega

end Cert.Proof.Block

end
-- ==== Proof.BlockBody.lean ====
/-
  The task of one vector subcore in the block-gather kernel, as a weakest-precondition entailment over explicit
  resources: the three operand arrays at a read share, the task's block of the output, the subcore's scratch and
  semaphores. The task copies its 512 index words and the tail, starts the ring's eight copies from eight read tokens
  of the table, runs the 512 trips by the loop's invariant, and writes the columns out; it ends holding what it was
  handed, its block of the output rewritten to `E` of the operands.
-/
import proofs.«204991_g57140244906297_cont_9to1_m_249_19_alg».proof.Proof.BlockInv
import proofs.«204991_g57140244906297_cont_9to1_m_249_19_alg».proof.Proof.BlockTrip0
import proofs.«204991_g57140244906297_cont_9to1_m_249_19_alg».proof.Proof.BlockTrip1
import proofs.«204991_g57140244906297_cont_9to1_m_249_19_alg».proof.Proof.BlockTrip2
import proofs.«204991_g57140244906297_cont_9to1_m_249_19_alg».proof.Proof.BlockTrip3
import proofs.«204991_g57140244906297_cont_9to1_m_249_19_alg».proof.Proof.BlockTrip4
import proofs.«204991_g57140244906297_cont_9to1_m_249_19_alg».proof.Proof.BlockTrip5
import proofs.«204991_g57140244906297_cont_9to1_m_249_19_alg».proof.Proof.BlockTrip6
import proofs.«204991_g57140244906297_cont_9to1_m_249_19_alg».proof.Proof.BlockTrip7
import proofs.«204991_g57140244906297_cont_9to1_m_249_19_alg».proof.Proof.BlockEnds
import proofs.«204991_g57140244906297_cont_9to1_m_249_19_alg».proof.Proof.BlockEnds2
import proofs.«204991_g57140244906297_cont_9to1_m_249_19_alg».proof.Proof.Gen.KernelIdeal.Skeleton

noncomputable section

namespace Cert.Proof.Block

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

set_option maxHeartbeats 16000000 in
theorem body (m : (ℓ : Loc nD τ sig) → Buf (Elt F) ℓ) (d : Dev nD) (L : grid0.Coords)
    (O : CellTallies nD τ sig (HIx 4)) (W : Waits sig (HIx 4)) (hO : ∀ g, O g none = 0)
    (f0 : Buf (Elt F) (outLoc d)) (q : PosShare TreeShare) :
    iprop(levAts (K (F := F)).L (K (F := F)).lev
        ∗ ((idsLoc d ↦{q} m (idsLoc d)) ∗ (ttLoc d ↦{q} m (ttLoc d)) ∗ (tailLoc d ↦{q} m (tailLoc d)))
        ∗ (outLoc d ↦[outSet L]{fullShare} f0)
        ∗ scopedBufs (thr d L) ∗ scopedSems0 (thr d L) ∗ owes (thr d L) O W)
      ⊢ (wp frame (wpE (defs₀ (F := F)) 𝒱₀ (thr d L) none) Set.univ
          (cc0_block_gather L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(((idsLoc d ↦{q} m (idsLoc d)) ∗ (ttLoc d ↦{q} m (ttLoc d)) ∗ (tailLoc d ↦{q} m (tailLoc d)))
            ∗ (outLoc d ↦[outSet L]{fullShare} E (m (idsLoc d)) (m (ttLoc d)) (m (tailLoc d)))
            ∗ scopedBufs (thr d L) ∗ scopedSems0 (thr d L)
            ∗ ∃ W', ⌜∀ p ∈ W', p ∈ W ∨ p.2 = none⌝ ∗ owes (thr d L) O W') : sProp 𝕄) := by
  simp only [cc0_block_gather_eq_skeleton]; unfold cc0_block_gather_skel
  rw [(K (F := F)).scopedBufs_V facts d (cV L) (jV L), SparseCore.Cfg.scopedSems0_V (Val := Elt F) d (cV L) (jV L),
    ownSems0_open, ownBufs_open]
  simp only [semList, bufList, List.map, List.foldr]
  iintro ⟨#Hlv, ⟨Hids, Htt, Htail⟩, Hout, ⟨⟨%g0, Hb0⟩, ⟨%g1, Hb1⟩, ⟨%g2, Hb2⟩, ⟨%g3, Hb3⟩, ⟨%g4, Hb4⟩, ⟨%g5, Hb5⟩, ⟨%g6, Hb6⟩,
    ⟨%g7, Hb7⟩, ⟨%g8, Hb8⟩, ⟨%g9, Hb9⟩, ⟨%g10, Hb10⟩, Hbrest⟩,
    ⟨Hs11, Hs12, Hs13, Hs14, Hs15, Hs16, Hs17, Hs18, Hs19, Hsc0, Hsc1, Hsrest⟩, HO⟩
  ihave Hmw := ((K (F := F)).mayWaits_none (thr := thr d L) hO) $$ Hlv
  ihave Hids := (Entails.of_eq (pts_ids (F := F) d L q _)) $$ Hids
  ihave Htt := (Entails.of_eq (pts_tt (F := F) d L q _)) $$ Htt
  ihave Htail := (Entails.of_eq (pts_tail (F := F) d L q _)) $$ Htail
  ihave Hout := (Entails.of_eq (pts_out (F := F) d L _)) $$ Hout
  ihave Hb0 := (Entails.of_eq (pts_scr (F := F) d L cc0_scratch0 _)) $$ Hb0
  ihave Hb1 := (Entails.of_eq (pts_scr (F := F) d L cc0_scratch1 _)) $$ Hb1
  ihave Hb2 := (Entails.of_eq (pts_scr (F := F) d L cc0_scratch2 _)) $$ Hb2
  ihave Hb3 := (Entails.of_eq (pts_scr (F := F) d L cc0_scratch3 _)) $$ Hb3
  ihave Hb4 := (Entails.of_eq (pts_scr (F := F) d L cc0_scratch4 _)) $$ Hb4
  ihave Hb5 := (Entails.of_eq (pts_scr (F := F) d L cc0_scratch5 _)) $$ Hb5
  ihave Hb6 := (Entails.of_eq (pts_scr (F := F) d L cc0_scratch6 _)) $$ Hb6
  ihave Hb7 := (Entails.of_eq (pts_scr (F := F) d L cc0_scratch7 _)) $$ Hb7
  ihave Hb8 := (Entails.of_eq (pts_scr (F := F) d L cc0_scratch8 _)) $$ Hb8
  ihave Hb9 := (Entails.of_eq (pts_scr (F := F) d L cc0_scratch9 _)) $$ Hb9
  ihave Hb10 := (Entails.of_eq (pts_scr (F := F) d L cc0_scratch10 _)) $$ Hb10
  ihave Htt := (Transfers.pointsTo_toks_range (S := Finset.univ) q 8).1 $$ Htt
  icases Htt with ⟨Httd, Htoks⟩
  ihave Htoks := (Entails.of_eq (bigSep_range8 _)) $$ Htoks
  icases Htoks with ⟨Hk0, Hk1, Hk2, Hk3, Hk4, Hk5, Hk6, Hk7, -⟩
  (set_option sl_exec.maxSteps 4 in sl_exec)
  -- the index scratch and the tail as loaded, named
  generalize hfs : ((Memref.whole cc0_scratch0 : Memref sig .scVector .vmem S528 .i32).view.writes (Elt F) g0 _) = fs
  generalize hft : (View.write (Elt F) (Memref.whole cc0_scratch9 : Memref sig .scVector .vmem S2048 .f32).view g9 _ Finset.univ) = ft
  sl_exec (disch := exact blk_ok _)
  sl_for (inv m d L q O W fs ft (colsDone m d fs ft)) $$ [Hmw Hb0 Hb9 Hb10 Hs11 Hk0 Hs12 Hk1 Hs13 Hk2 Hs14 Hk3 Hs15 Hk4 Hs16 Hk5 Hs17 Hk6 Hs18 Hk7 HO]
  case region =>
    intro k u
    rcases (show k.val % 8 = 0 ∨ k.val % 8 = 1 ∨ k.val % 8 = 2 ∨ k.val % 8 = 3 ∨ k.val % 8 = 4 ∨ k.val % 8 = 5 ∨ k.val % 8 = 6 ∨ k.val % 8 = 7 by omega)
      with hres | hres | hres | hres | hres | hres | hres | hres
    · exact trip0 m d L q O W fs ft k u hres
    · exact trip1 m d L q O W fs ft k u hres
    · exact trip2 m d L q O W fs ft k u hres
    · exact trip3 m d L q O W fs ft k u hres
    · exact trip4 m d L q O W fs ft k u hres
    · exact trip5 m d L q O W fs ft k u hres
    · exact trip6 m d L q O W fs ft k u hres
    · exact trip7 m d L q O W fs ft k u hres

  · unfold inv
    isplitr; · iexact Hmw
    isplitl [Hb0]; · iexact Hb0
    isplitl [Hb9]; · iexact Hb9
    isplitl [Hb10]
    · iexists g10; isplitl [Hb10]; · iexact Hb10
      ipureintro; intro r n hn; omega
    isplitl [Hs11 Hk0]
    · iapply (Entails.of_eq (slotAt_zero m d L q fs _ _ 0 (by omega)).symm)
      unfold slot
      isplitl [Hs11]; · iexists g1; iexact Hs11
      iexact Hk0
    isplitl [Hs12 Hk1]
    · iapply (Entails.of_eq (slotAt_zero m d L q fs _ _ 1 (by omega)).symm)
      unfold slot
      isplitl [Hs12]; · iexists g2; iexact Hs12
      iexact Hk1
    isplitl [Hs13 Hk2]
    · iapply (Entails.of_eq (slotAt_zero m d L q fs _ _ 2 (by omega)).symm)
      unfold slot
      isplitl [Hs13]; · iexists g3; iexact Hs13
      iexact Hk2
    isplitl [Hs14 Hk3]
    · iapply (Entails.of_eq (slotAt_zero m d L q fs _ _ 3 (by omega)).symm)
      unfold slot
      isplitl [Hs14]; · iexists g4; iexact Hs14
      iexact Hk3
    isplitl [Hs15 Hk4]
    · iapply (Entails.of_eq (slotAt_zero m d L q fs _ _ 4 (by omega)).symm)
      unfold slot
      isplitl [Hs15]; · iexists g5; iexact Hs15
      iexact Hk4
    isplitl [Hs16 Hk5]
    · iapply (Entails.of_eq (slotAt_zero m d L q fs _ _ 5 (by omega)).symm)
      unfold slot
      isplitl [Hs16]; · iexists g6; iexact Hs16
      iexact Hk5
    isplitl [Hs17 Hk6]
    · iapply (Entails.of_eq (slotAt_zero m d L q fs _ _ 6 (by omega)).symm)
      unfold slot
      isplitl [Hs17]; · iexists g7; iexact Hs17
      iexact Hk6
    isplitl [Hs18 Hk7]
    · iapply (Entails.of_eq (slotAt_zero m d L q fs _ _ 7 (by omega)).symm)
      unfold slot
      isplitl [Hs18]; · iexists g8; iexact Hs18
      iexact Hk7
    iexists _; isplitr
    swap
    · iexact HO
    · ipureintro; intro p hp
      rcases Finset.mem_insert.mp hp with hp | hp
      · right; rw [hp]; rfl
      rcases Finset.mem_insert.mp hp with hp | hp
      · right; rw [hp]; rfl
      · exact .inl hp
  iintro %u HI
  have htrips : Scf.trips k0_t1_loop.lb k0_t1_loop.ub k0_t1_loop.st = 512 := by decide
  ihave HI := (Entails.of_eq ((congrArg (fun n => inv m d L q O W fs ft (colsDone m d fs ft) n u) htrips).trans (inv_end m d L q O W fs ft _ u))) $$ HI
  unfold slotIdle
  icases HI with ⟨-, Hb0, Hb9, ⟨%fc, Hb10, %hfc⟩, ⟨⟨%r1, Hb1⟩, Hs11, Hk0⟩, ⟨⟨%r2, Hb2⟩, Hs12, Hk1⟩, ⟨⟨%r3, Hb3⟩, Hs13, Hk2⟩,
    ⟨⟨%r4, Hb4⟩, Hs14, Hk3⟩, ⟨⟨%r5, Hb5⟩, Hs15, Hk4⟩, ⟨⟨%r6, Hb6⟩, Hs16, Hk5⟩, ⟨⟨%r7, Hb7⟩, Hs17, Hk6⟩, ⟨⟨%r8, Hb8⟩, Hs18, Hk7⟩,
    ⟨%W', %hW', HO⟩⟩
  sl_exec
  sl_step
  isplitl [Hids Httd Hk0 Hk1 Hk2 Hk3 Hk4 Hk5 Hk6 Hk7 Htail]
  · isplitl [Hids]; · iexact Hids
    isplitr [Htail]
    · iapply (Transfers.pointsTo_toks_range (S := Finset.univ) q 8).2
      isplitl [Httd]; · iexact Httd
      iapply (Entails.of_eq (bigSep_range8 _).symm)
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      iempintro
    · iexact Htail
  isplitl [Hout]
  · have hfsI : ∀ (j : ℕ) (hj : j < 512), wAt fs j = m (idsLoc d) (ix1 ⟨(k0_off1 L) 0 + j, off1_lt L j hj⟩) := by
      intro j hj
      rw [← hfs]
      unfold wAt
      rw [dif_pos hj]
      exact sidx_word g0 (m (idsLoc d)) L j hj ![j] (off_inb j hj) rfl
    have hftI : ft = m (tailLoc d) := by
      rw [← hft]
      exact tail_copy g9 (m (tailLoc d))
    have hout : ∀ i ∈ (outBlk L).view.set, (outBlk L).view.writes (Elt F) f0 [⟨Rect.whole S32x512, body.sl.dma0_2 fc⟩] i
        = E (m (idsLoc d)) (m (ttLoc d)) (m (tailLoc d)) i := by
      refine out_value f0 fc _ L (fun r n => ?_)
      have hw : wAt fs n.val = m (idsLoc d) (ix1 ⟨(k0_off27 L) 1 + n.val, off27_lt L n⟩) := by
        refine (hfsI n.val n.isLt).trans ?_
        have e : (⟨(k0_off1 L) 0 + n.val, off1_lt L n.val n.isLt⟩ : Fin 16384) = ⟨(k0_off27 L) 1 + n.val, off27_lt L n⟩ :=
          Fin.ext (by show (k0_off1 L) 0 + n.val = (k0_off27 L) 1 + n.val; rw [off1_eq_off27])
        rw [e]
      rw [hfc r n n.isLt, colVal_eq0 m d fs ft r n.val _ hw, hftI]
      rfl
    iapply (Entails.of_eq (pointsTo_congr hout))
    iexact Hout
  isplitl [Hb0 Hb1 Hb2 Hb3 Hb4 Hb5 Hb6 Hb7 Hb8 Hb9 Hb10 Hbrest]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    isplitl [Hb10]; · iexists _; iexact Hb10
    iexact Hbrest
  isplitl [Hs11 Hs12 Hs13 Hs14 Hs15 Hs16 Hs17 Hs18 Hs19 Hsc0 Hsc1 Hsrest]
  · isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hsc0]; · iexact Hsc0
    isplitl [Hsc1]; · iexact Hsc1
    iexact Hsrest
  iexists _; isplitr
  swap
  · iexact HO
  · ipureintro; intro p hp
    rcases Finset.mem_insert.mp hp with hp | hp
    · right; rw [hp]; rfl
    · exact hW' p hp

end Cert.Proof.Block

end
-- ==== Proof.PackedValue2.lean ====
/-
  The packed gather's store lemmas over the second packed call's scratch buffers: the first loop's store of 16 shifted
  words, and the sixteen stores of 16 lanes along a row of the 32 × 512 block — the same statements and proofs as for the
  first packed call, which name a scratch buffer only as the view the writes go through.
-/
import proofs.«204991_g57140244906297_cont_9to1_m_249_19_alg».proof.Proof.PackedValue

noncomputable section

namespace Cert.Proof.Packed

open Idealize.ShloMosaic Cert.KernelIdeal Cert.KernelIdeal.Gen
open Idealize.ShloMosaic.ValueIdx (ix1 ix2)

/-! ## Sixteen stores along a row -/

/-- Sixteen stores of 16 lanes each along row `k` of the half starting at column `b0`, each piece a block of the contents
    after `k + 1` trips: the contents after `k` trips become those after `k + 1`. -/
theorem cols16_2 {F : FTy → Type} (R : S256x128.Idx → Elt F .f32) (F5 : S512.Idx → BitVec 32) (b0 k : ℕ) (Cf : S32x512.Idx → Elt F .f32)
    (r0 : Rect S32x512) (w0 : r0.shape.Idx → Elt F .f32)
    (r1 : Rect S32x512) (w1 : r1.shape.Idx → Elt F .f32)
    (r2 : Rect S32x512) (w2 : r2.shape.Idx → Elt F .f32)
    (r3 : Rect S32x512) (w3 : r3.shape.Idx → Elt F .f32)
    (r4 : Rect S32x512) (w4 : r4.shape.Idx → Elt F .f32)
    (r5 : Rect S32x512) (w5 : r5.shape.Idx → Elt F .f32)
    (r6 : Rect S32x512) (w6 : r6.shape.Idx → Elt F .f32)
    (r7 : Rect S32x512) (w7 : r7.shape.Idx → Elt F .f32)
    (r8 : Rect S32x512) (w8 : r8.shape.Idx → Elt F .f32)
    (r9 : Rect S32x512) (w9 : r9.shape.Idx → Elt F .f32)
    (r10 : Rect S32x512) (w10 : r10.shape.Idx → Elt F .f32)
    (r11 : Rect S32x512) (w11 : r11.shape.Idx → Elt F .f32)
    (r12 : Rect S32x512) (w12 : r12.shape.Idx → Elt F .f32)
    (r13 : Rect S32x512) (w13 : r13.shape.Idx → Elt F .f32)
    (r14 : Rect S32x512) (w14 : r14.shape.Idx → Elt F .f32)
    (r15 : Rect S32x512) (w15 : r15.shape.Idx → Elt F .f32)
    (hm0 : ∀ y : S32x512.Idx, y ∈ r0.set ↔ ((y 0).val = k ∧ b0 + 0 ≤ (y 1).val ∧ (y 1).val < b0 + 0 + 16))
    (hm1 : ∀ y : S32x512.Idx, y ∈ r1.set ↔ ((y 0).val = k ∧ b0 + 16 ≤ (y 1).val ∧ (y 1).val < b0 + 16 + 16))
    (hm2 : ∀ y : S32x512.Idx, y ∈ r2.set ↔ ((y 0).val = k ∧ b0 + 32 ≤ (y 1).val ∧ (y 1).val < b0 + 32 + 16))
    (hm3 : ∀ y : S32x512.Idx, y ∈ r3.set ↔ ((y 0).val = k ∧ b0 + 48 ≤ (y 1).val ∧ (y 1).val < b0 + 48 + 16))
    (hm4 : ∀ y : S32x512.Idx, y ∈ r4.set ↔ ((y 0).val = k ∧ b0 + 64 ≤ (y 1).val ∧ (y 1).val < b0 + 64 + 16))
    (hm5 : ∀ y : S32x512.Idx, y ∈ r5.set ↔ ((y 0).val = k ∧ b0 + 80 ≤ (y 1).val ∧ (y 1).val < b0 + 80 + 16))
    (hm6 : ∀ y : S32x512.Idx, y ∈ r6.set ↔ ((y 0).val = k ∧ b0 + 96 ≤ (y 1).val ∧ (y 1).val < b0 + 96 + 16))
    (hm7 : ∀ y : S32x512.Idx, y ∈ r7.set ↔ ((y 0).val = k ∧ b0 + 112 ≤ (y 1).val ∧ (y 1).val < b0 + 112 + 16))
    (hm8 : ∀ y : S32x512.Idx, y ∈ r8.set ↔ ((y 0).val = k ∧ b0 + 128 ≤ (y 1).val ∧ (y 1).val < b0 + 128 + 16))
    (hm9 : ∀ y : S32x512.Idx, y ∈ r9.set ↔ ((y 0).val = k ∧ b0 + 144 ≤ (y 1).val ∧ (y 1).val < b0 + 144 + 16))
    (hm10 : ∀ y : S32x512.Idx, y ∈ r10.set ↔ ((y 0).val = k ∧ b0 + 160 ≤ (y 1).val ∧ (y 1).val < b0 + 160 + 16))
    (hm11 : ∀ y : S32x512.Idx, y ∈ r11.set ↔ ((y 0).val = k ∧ b0 + 176 ≤ (y 1).val ∧ (y 1).val < b0 + 176 + 16))
    (hm12 : ∀ y : S32x512.Idx, y ∈ r12.set ↔ ((y 0).val = k ∧ b0 + 192 ≤ (y 1).val ∧ (y 1).val < b0 + 192 + 16))
    (hm13 : ∀ y : S32x512.Idx, y ∈ r13.set ↔ ((y 0).val = k ∧ b0 + 208 ≤ (y 1).val ∧ (y 1).val < b0 + 208 + 16))
    (hm14 : ∀ y : S32x512.Idx, y ∈ r14.set ↔ ((y 0).val = k ∧ b0 + 224 ≤ (y 1).val ∧ (y 1).val < b0 + 224 + 16))
    (hm15 : ∀ y : S32x512.Idx, y ∈ r15.set ↔ ((y 0).val = k ∧ b0 + 240 ≤ (y 1).val ∧ (y 1).val < b0 + 240 + 16))
    (hv0 : ∀ x, w0 x = cHalf R F5 b0 Cf (k + 1) (r0.emb x))
    (hv1 : ∀ x, w1 x = cHalf R F5 b0 Cf (k + 1) (r1.emb x))
    (hv2 : ∀ x, w2 x = cHalf R F5 b0 Cf (k + 1) (r2.emb x))
    (hv3 : ∀ x, w3 x = cHalf R F5 b0 Cf (k + 1) (r3.emb x))
    (hv4 : ∀ x, w4 x = cHalf R F5 b0 Cf (k + 1) (r4.emb x))
    (hv5 : ∀ x, w5 x = cHalf R F5 b0 Cf (k + 1) (r5.emb x))
    (hv6 : ∀ x, w6 x = cHalf R F5 b0 Cf (k + 1) (r6.emb x))
    (hv7 : ∀ x, w7 x = cHalf R F5 b0 Cf (k + 1) (r7.emb x))
    (hv8 : ∀ x, w8 x = cHalf R F5 b0 Cf (k + 1) (r8.emb x))
    (hv9 : ∀ x, w9 x = cHalf R F5 b0 Cf (k + 1) (r9.emb x))
    (hv10 : ∀ x, w10 x = cHalf R F5 b0 Cf (k + 1) (r10.emb x))
    (hv11 : ∀ x, w11 x = cHalf R F5 b0 Cf (k + 1) (r11.emb x))
    (hv12 : ∀ x, w12 x = cHalf R F5 b0 Cf (k + 1) (r12.emb x))
    (hv13 : ∀ x, w13 x = cHalf R F5 b0 Cf (k + 1) (r13.emb x))
    (hv14 : ∀ x, w14 x = cHalf R F5 b0 Cf (k + 1) (r14.emb x))
    (hv15 : ∀ x, w15 x = cHalf R F5 b0 Cf (k + 1) (r15.emb x)) :
    (Memref.whole cc2_scratch4).view.writes (Elt F) (cHalf R F5 b0 Cf k)
        [⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩]
      = cHalf R F5 b0 Cf (k + 1) := by
  funext y
  by_cases h : (y 0).val = k ∧ b0 ≤ (y 1).val ∧ (y 1).val < b0 + 256
  · have hy : ∃ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∈ p.1.set := by
      simp only [List.mem_cons, List.not_mem_nil, or_false, exists_eq_or_imp, exists_eq_left,
        hm0, hm1, hm2, hm3, hm4, hm5, hm6, hm7, hm8, hm9, hm10, hm11, hm12, hm13, hm14, hm15]
      omega
    exact View.read_writes_apply_of_pieces (Memref.whole cc2_scratch4).view _ (cHalf R F5 b0 Cf (k + 1)) _ (by
      intro p hp
      simp only [List.mem_cons, List.not_mem_nil, or_false] at hp
      rcases hp with rfl | rfl | rfl | rfl | rfl | rfl | rfl | rfl | rfl | rfl | rfl | rfl | rfl | rfl | rfl | rfl <;> assumption) y hy
  · have hn : ∀ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∉ p.1.set := by
      intro p hp
      simp only [List.mem_cons, List.not_mem_nil, or_false] at hp
      rcases hp with rfl | rfl | rfl | rfl | rfl | rfl | rfl | rfl | rfl | rfl | rfl | rfl | rfl | rfl | rfl | rfl
      · rw [hm15]; omega
      · rw [hm14]; omega
      · rw [hm13]; omega
      · rw [hm12]; omega
      · rw [hm11]; omega
      · rw [hm10]; omega
      · rw [hm9]; omega
      · rw [hm8]; omega
      · rw [hm7]; omega
      · rw [hm6]; omega
      · rw [hm5]; omega
      · rw [hm4]; omega
      · rw [hm3]; omega
      · rw [hm2]; omega
      · rw [hm1]; omega
      · rw [hm0]; omega
    refine (View.read_writes_apply_of_forall_not_mem (Memref.whole cc2_scratch4).view _ y _ hn).trans ?_
    show cHalf R F5 b0 Cf k y = cHalf R F5 b0 Cf (k + 1) y
    simp only [cHalf]
    by_cases h1 : (y 0).val < k ∧ b0 ≤ (y 1).val ∧ (y 1).val < b0 + 256
    · rw [if_pos h1, if_pos ⟨by omega, h1.2⟩]
    · rw [if_neg h1, if_neg (by intro h2; apply h1; refine ⟨?_, h2.2⟩; by_contra h3; exact h ⟨by omega, h2.2⟩)]

/-! ## The first loop's store -/

theorem q1_step2 {F : FTy → Type} (F5 f6 : S512.Idx → BitVec 32) (k : ℕ) (off : Fin 1 → ℕ) (hoff : off = ![16 * k]) (inb : ∀ a, off a + S16.size a ≤ S512.size a)
    (w : S16.Idx → BitVec 32) (hw : ∀ x, w x = F5 ((Rect.unit (s := S512) off S16.size inb).emb x) >>> 2) :
    (Memref.whole cc2_scratch1).view.writes (Elt F) (q1F F5 f6 k) [⟨Rect.unit (s := S512) off S16.size inb, w⟩] = q1F F5 f6 (k + 1) := by
  subst hoff
  funext j
  by_cases hj : j ∈ (Rect.unit (s := S512) ![16 * k] S16.size inb).set
  · obtain ⟨x, hx⟩ : ∃ x, (Rect.unit (s := S512) ![16 * k] S16.size inb).emb x = j := (Rect.unit (s := S512) ![16 * k] S16.size inb).exists_idx_of_mem hj
    have key := View.read_writes_cons_emb (Val := Elt F) (Memref.whole cc2_scratch1).view (q1F F5 f6 k) _ w [] x
    rw [hx] at key
    refine key.trans ?_
    rw [hw, hx]
    have h0 : (j 0).val = 16 * k + (x 0).val := by
      rw [← hx, Rect.emb_apply]; show 16 * k + 1 * (x 0).val = _; omega
    have hx16 : (x 0).val < 16 := (x 0).isLt
    have hc : (j 0).val < 16 * (k + 1) := by omega
    simp only [q1F]
    rw [if_pos hc]
  · have hn : ∀ p ∈ ([⟨Rect.unit (s := S512) ![16 * k] S16.size inb, w⟩] : List (View.Piece (Elt F) S512 .i32)), j ∉ p.1.set := by
      intro p hp
      simp only [List.mem_cons, List.not_mem_nil, or_false] at hp
      subst hp; exact hj
    refine (View.read_writes_apply_of_forall_not_mem (Val := Elt F) (Memref.whole cc2_scratch1).view _ j _ hn).trans ?_
    show q1F F5 f6 k j = q1F F5 f6 (k + 1) j
    rw [Rect.mem_set_unit, Fin.forall_fin_one] at hj
    have hj' : ¬ (16 * k ≤ (j 0).val ∧ (j 0).val < 16 * k + 16) := hj
    simp only [q1F]
    by_cases h1 : (j 0).val < 16 * k
    · rw [if_pos h1, if_pos (by omega)]
    · rw [if_neg h1, if_neg (by omega)]

end Cert.Proof.Packed

end
-- ==== Proof.PackedBlock2.lean ====
/-
  The block a task copies out, read at an element of its slice of the output: from what the index copy, the two row
  gathers and the two column loops left in the scratch buffers, every element of the slice holds the lookup's value.
-/
import proofs.«204991_g57140244906297_cont_9to1_m_249_19_alg».proof.Proof.PackedFinal

noncomputable section

namespace Cert.Proof.Packed

open Idealize.ShloMosaic Cert.KernelIdeal Cert.KernelIdeal.Gen
open Idealize.ShloMosaic.ValueIdx (ix1 ix2)

theorem whole_piece2_2 {F : FTy → Type} (j G : S256x128.Idx → Elt F .f32) (x : S256x128.Idx) :
    (Memref.whole cc2_scratch2).view.writes (Elt F) j [⟨Rect.whole S256x128, G⟩] x = G x := by
  have key := View.read_writes_cons_emb (Val := Elt F) (Memref.whole cc2_scratch2).view j (Rect.whole S256x128) G [] x
  have e : (Rect.whole S256x128).emb x = x := by
    funext a; apply Fin.ext; show 0 + 1 * (x a).val = (x a).val; omega
  rw [e] at key
  exact key

theorem whole_piece3_2 {F : FTy → Type} (j G : S256x128.Idx → Elt F .f32) (x : S256x128.Idx) :
    (Memref.whole cc2_scratch3).view.writes (Elt F) j [⟨Rect.whole S256x128, G⟩] x = G x := by
  have key := View.read_writes_cons_emb (Val := Elt F) (Memref.whole cc2_scratch3).view j (Rect.whole S256x128) G [] x
  have e : (Rect.whole S256x128).emb x = x := by
    funext a; apply Fin.ext; show 0 + 1 * (x a).val = (x a).val; omega
  rw [e] at key
  exact key

set_option maxHeartbeats 4000000 in
theorem block_value2 {F : FTy → Type} (L : grid2.Coords) (IDS : S16384.Idx → BitVec 32) (TQ : S250x128.Idx → Elt F .f32)
    (F5 : S512.Idx → BitVec 32)
    (hF5v : ∀ y, F5 y = View.read (Elt F) (idsW2.slice (Rect.unit (s := S16384) (k2_off1 L) S512.size (k2_off1_inb L)) (fun _ => rfl)).view IDS y)
    (hg : S250x128.Gathers 0 S256x128) (hn : S256.numel = S256x128.size hg.axis')
    (inbt : ∀ a, (![0, 0] : Fin 2 → ℕ) a + S250x128.size a ≤ S250x128.size a)
    (hinA : ∀ x, (View.read (Elt F) ((Memref.whole cc2_scratch1).slice (Rect.unit (s := S512) ![0] S256.size inb_S512_S256_0) (fun _ => rfl)).view (qFull F5) x).toNat < S250x128.size hg.axis)
    (hinB : ∀ x, (View.read (Elt F) ((Memref.whole cc2_scratch1).slice (Rect.unit (s := S512) ![256] S256.size inb_S512_S256_256) (fun _ => rfl)).view (qFull F5) x).toNat < S250x128.size hg.axis)
    (j7 j8 : S256x128.Idx → Elt F .f32) (R0 R1 : S256x128.Idx → Elt F .f32)
    (hR0 : R0 = (Memref.whole cc2_scratch2).view.writes (Elt F) j7 [⟨Rect.whole S256x128,
      SparseCore.gatherPayload hg (View.read (Elt F) (tqW2.slice (Rect.unit (s := S250x128) ![0, 0] S250x128.size inbt) (fun _ => rfl)).view TQ)
        (SparseCore.rows (F := F) (View.read (Elt F) ((Memref.whole cc2_scratch1).slice (Rect.unit (s := S512) ![0] S256.size inb_S512_S256_0) (fun _ => rfl)).view (qFull F5)) hn hinA)⟩])
    (hR1 : R1 = (Memref.whole cc2_scratch3).view.writes (Elt F) j8 [⟨Rect.whole S256x128,
      SparseCore.gatherPayload hg (View.read (Elt F) (tqW2.slice (Rect.unit (s := S250x128) ![0, 0] S250x128.size inbt) (fun _ => rfl)).view TQ)
        (SparseCore.rows (F := F) (View.read (Elt F) ((Memref.whole cc2_scratch1).slice (Rect.unit (s := S512) ![256] S256.size inb_S512_S256_256) (fun _ => rfl)).view (qFull F5)) hn hinB)⟩])
    (f0 : S32x16384.Idx → Elt F .f32) (f9 : S32x512.Idx → Elt F .f32) :
    ∀ i ∈ (outBlk2 L).view.set,
      ((outBlk2 L).view.writes (Elt F) f0 [⟨Rect.whole S32x512, ReadAs.same.apply (View.read (Elt F) (Memref.whole cc2_scratch4).view
          (cHalf R1 F5 256 (cHalf R0 F5 0 f9 32) 32))⟩]) i = packedE2 (F := F) IDS TQ i := by
  have hL0 : (L 0).val < 2 := (L 0).isLt
  have hL1 : (L 1).val < 16 := (L 1).isLt
  have hF5n : ∀ n : Fin 512, F5 (ix1 n) = IDS (ix1 ⟨(1024 * (L 1).val + 512 * (L 0).val) + n.val, by omega⟩) := by
    intro n
    rw [hF5v]
    show IDS ((idsW2.slice (Rect.unit (s := S16384) (k2_off1 L) S512.size (k2_off1_inb L)) (fun _ => rfl)).view.emb (ix1 n)) = _
    congr 1
    funext a
    apply Fin.ext
    fin_cases a
    have e : (k2_off1 L) 0 = 1024 * (L 1).val + 512 * (L 0).val := congrFun (k2_off1_eq L) 0
    show (k2_off1 L) 0 + 1 * n.val = (1024 * (L 1).val + 512 * (L 0).val) + n.val
    omega
  have hR0' : ∀ (r : Fin 256) (c : Fin 128), R0 (ix2 r c)
      = TQ (ix2 ⟨(F5 (ix1 ⟨r.val, by omega⟩) >>> 2).toNat % 250, Nat.mod_lt _ (by decide)⟩ c) := by
    intro r c
    rw [hR0, whole_piece2_2]
    have h := gather_payload_at2 (F := F) TQ (qFull F5) 0 (by omega) inb_S512_S256_0 (fun _ => rfl) inbt (fun _ => rfl) hg hn hinA r c
    simp only [Nat.zero_add] at h
    exact h
  have hR1' : ∀ (r : Fin 256) (c : Fin 128), R1 (ix2 r c)
      = TQ (ix2 ⟨(F5 (ix1 ⟨256 + r.val, by omega⟩) >>> 2).toNat % 250, Nat.mod_lt _ (by decide)⟩ c) := by
    intro r c
    rw [hR1, whole_piece3_2]
    exact gather_payload_at2 (F := F) TQ (qFull F5) 256 (by omega) inb_S512_S256_256 (fun _ => rfl) inbt (fun _ => rfl) hg hn hinB r c
  intro i hi
  obtain ⟨y, -, rfl⟩ := Finset.mem_map.mp hi
  have key := View.read_writes_cons_emb (Val := Elt F) (outBlk2 L).view f0 (Rect.whole S32x512) (ReadAs.same.apply (View.read (Elt F) (Memref.whole cc2_scratch4).view
          (cHalf R1 F5 256 (cHalf R0 F5 0 f9 32) 32))) [] y
  have e : (Rect.whole S32x512).emb y = y := by
    funext a; apply Fin.ext; show 0 + 1 * (y a).val = (y a).val; omega
  rw [e] at key
  refine (show _ = _ from key).trans ?_
  show cHalf R1 F5 256 (cHalf R0 F5 0 f9 32) 32 y = _
  rw [out_value2 (F := F) IDS TQ F5 (1024 * (L 1).val + 512 * (L 0).val) (by omega) hF5n R0 R1 hR0' hR1' f9 y]
  congr 1
  funext a
  apply Fin.ext
  fin_cases a
  · have e : (k2_off35 L) 0 = 0 := congrFun (k2_off35_eq L) 0
    show (y 0).val = (k2_off35 L) 0 + 1 * (y 0).val
    omega
  · have e : (k2_off35 L) 1 = 1024 * (L 1).val + 512 * (L 0).val := congrFun (k2_off35_eq L) 1
    show (1024 * (L 1).val + 512 * (L 0).val) + (y 1).val = (k2_off35 L) 1 + 1 * (y 1).val
    omega

end Cert.Proof.Packed

end
-- ==== Proof.PackedBody2.lean ====
/-
  The task of one vector subcore in the packed gather of the third table (SparseCore call 2): the tile copies its 512
  index words into a scratch, writes each word shifted right by two into a second scratch, gathers the 256 + 256 rows
  those name out of the table read as 250 rows of 128, picks lane ((idx &&& 3) <<< 5) + c of row n for every column
  c < 32 and position n < 512, and copies the 32 × 512 block so built to its columns of the output.
-/
import proofs.«204991_g57140244906297_cont_9to1_m_249_19_alg».proof.Proof.CommonI
import proofs.«204991_g57140244906297_cont_9to1_m_249_19_alg».proof.Proof.PackedDefs
import proofs.«204991_g57140244906297_cont_9to1_m_249_19_alg».proof.Proof.PackedValue
import proofs.«204991_g57140244906297_cont_9to1_m_249_19_alg».proof.Proof.PackedValue2
import proofs.«204991_g57140244906297_cont_9to1_m_249_19_alg».proof.Proof.PackedBlock2
import proofs.«204991_g57140244906297_cont_9to1_m_249_19_alg».proof.Proof.Gen.KernelIdeal.Skeleton
import Idealize.ShloMosaic.Lib.SparseCore.Stream
import Idealize.ShloMosaic.Lib.Transfers
import Idealize.ShloMosaic.Lib.Writes
import Idealize.ShloMosaic.Lib.ValueIdx

noncomputable section

namespace Cert.Proof.Packed

open Cert.KernelIdeal Cert.KernelIdeal.Gen
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 4) (Elt F) ℕ UU ℕ

/-! ## The tile's own semaphores and scratch buffers -/

abbrev g0_2 (d : Dev nD) (L : grid2.Coords) : GSem nD τ sig := (thr2 d L, .dma cc2_scoped0.sem)
abbrev g1_2 (d : Dev nD) (L : grid2.Coords) : GSem nD τ sig := (thr2 d L, .dma cc2_scoped1.sem)
abbrev gA_2 (d : Dev nD) (L : grid2.Coords) : GSem nD τ sig := (thr2 d L, .dma cc2_scratch5.sem)
abbrev gB_2 (d : Dev nD) (L : grid2.Coords) : GSem nD τ sig := (thr2 d L, .dma cc2_scratch6.sem)

/-- The four DMA semaphores the task uses. -/
def cells4_2 (d : Dev nD) (L : grid2.Coords) : Finset (GSem nD τ sig) := {g0_2 d L, g1_2 d L, gA_2 d L, gB_2 d L}

abbrev pV_2 (L : grid2.Coords) : Proc τ := Proc.scVector ((L 0).castLE hcore2) ((L 1).castLE hsub2)
abbrev r0_2 (L : grid2.Coords) : DevRef τ sig := (pV_2 L).devRef cc2_scratch0
abbrev r1_2 (L : grid2.Coords) : DevRef τ sig := (pV_2 L).devRef cc2_scratch1
abbrev r2_2 (L : grid2.Coords) : DevRef τ sig := (pV_2 L).devRef cc2_scratch2
abbrev r3_2 (L : grid2.Coords) : DevRef τ sig := (pV_2 L).devRef cc2_scratch3
abbrev r4_2 (L : grid2.Coords) : DevRef τ sig := (pV_2 L).devRef cc2_scratch4

/-- The five scratch buffers the task uses. -/
def refs5_2 (L : grid2.Coords) : Finset (DevRef τ sig) := {r0_2 L, r1_2 L, r2_2 L, r3_2 L, r4_2 L}

abbrev sIdx_2 : Memref sig .scVector .vmem S512 .i32 := Memref.whole cc2_scratch0
abbrev sQ_2 : Memref sig .scVector .vmem S512 .i32 := Memref.whole cc2_scratch1
abbrev sR0_2 : Memref sig .scVector .vmem S256x128 .f32 := Memref.whole cc2_scratch2
abbrev sR1_2 : Memref sig .scVector .vmem S256x128 .f32 := Memref.whole cc2_scratch3
abbrev sC_2 : Memref sig .scVector .vmem S32x512 .f32 := Memref.whole cc2_scratch4

omit [FloatOps F] in
theorem sems_eq_2 (d : Dev nD) (L : grid2.Coords) :
    (scopedSems0 (thr2 d L) : sProp 𝕄)
      = iprop((semVal (g0_2 d L) 0 ∗ semVal (g1_2 d L) 0 ∗ semVal (gA_2 d L) 0 ∗ semVal (gB_2 d L) 0)
          ∗ bigSep (ownCells (thr2 d L) \ cells4_2 d L) fun g => semVal g 0) := by
  have hsub : cells4_2 d L ⊆ ownCells (thr2 d L) := by
    intro g hg
    simp only [cells4_2, Finset.mem_insert, Finset.mem_singleton] at hg
    rcases hg with rfl | rfl | rfl | rfl
    · exact mem_ownCells.mpr ⟨rfl, by show (SemLoc.dma cc2_scoped0.sem : SemLoc sig).isScoped .scVector = true; decide⟩
    · exact mem_ownCells.mpr ⟨rfl, by show (SemLoc.dma cc2_scoped1.sem : SemLoc sig).isScoped .scVector = true; decide⟩
    · exact mem_ownCells.mpr ⟨rfl, by show (SemLoc.dma cc2_scratch5.sem : SemLoc sig).isScoped .scVector = true; decide⟩
    · exact mem_ownCells.mpr ⟨rfl, by show (SemLoc.dma cc2_scratch6.sem : SemLoc sig).isScoped .scVector = true; decide⟩
  rw [SparseCore.Cfg.scopedSems0_V (Val := Elt F) d _ _]
  unfold SparseCore.Cfg.ownSems0
  rw [SparseCore.bigSep_sdiff_split' hsub]
  unfold cells4_2
  rw [SparseCore.bigSep_insert' (by simp [Prod.ext_iff]; decide), SparseCore.bigSep_insert' (by simp [Prod.ext_iff]; decide),
    SparseCore.bigSep_insert' (by simp [Prod.ext_iff]; decide), bigSep_singleton]

theorem bufs_eq_2 (d : Dev nD) (L : grid2.Coords) :
    (scopedBufs (thr2 d L) : sProp 𝕄)
      = iprop(((∃ f, (sIdx_2).view.loc (thr2 d L) ↦{fullShare} f) ∗ (∃ f, (sQ_2).view.loc (thr2 d L) ↦{fullShare} f)
          ∗ (∃ f, (sR0_2).view.loc (thr2 d L) ↦{fullShare} f) ∗ (∃ f, (sR1_2).view.loc (thr2 d L) ↦{fullShare} f)
          ∗ (∃ f, (sC_2).view.loc (thr2 d L) ↦{fullShare} f))
          ∗ bigSep (ownRefs (τ := τ) (pV_2 L) \ refs5_2 L) fun b => iprop(∃ f, ((d, b) : Loc nD τ sig) ↦{fullShare} f)) := by
  have hsub : refs5_2 L ⊆ ownRefs (τ := τ) (pV_2 L) := by
    intro b hb
    simp only [refs5_2, Finset.mem_insert, Finset.mem_singleton] at hb
    rcases hb with rfl | rfl | rfl | rfl | rfl <;> exact SparseCore.Cfg.mem_ownRefs_of_owner (p := pV_2 L) rfl
  have hne : ∀ {a b : Ref sig .scVector}, a ≠ b → (pV_2 L).devRef a ≠ (pV_2 L).devRef b := fun h e => h (Proc.devRef_injective _ e)
  rw [(K (F := F)).scopedBufs_V facts d _ _]
  unfold SparseCore.Cfg.ownBufs
  rw [show ((thr2 d L : Thread nD τ).2) = pV_2 L from rfl, SparseCore.bigSep_sdiff_split' hsub]
  unfold refs5_2
  rw [SparseCore.bigSep_insert' (by simp only [Finset.mem_insert, Finset.mem_singleton, not_or]; exact ⟨hne (by decide), hne (by decide), hne (by decide), hne (by decide)⟩),
    SparseCore.bigSep_insert' (by simp only [Finset.mem_insert, Finset.mem_singleton, not_or]; exact ⟨hne (by decide), hne (by decide), hne (by decide)⟩),
    SparseCore.bigSep_insert' (by simp only [Finset.mem_insert, Finset.mem_singleton, not_or]; exact ⟨hne (by decide), hne (by decide)⟩),
    SparseCore.bigSep_insert' (by simp only [Finset.mem_singleton]; exact hne (by decide)), bigSep_singleton]

omit [FloatOps F] in
theorem pts_ids_2 (d : Dev nD) (L : grid2.Coords) (q : PosShare TreeShare) (f : Buf (Elt F) (idsLoc2 d)) :
    (View.loc (thr2 d L) (View.whole main_arg2_scv) ↦{q} f : sProp 𝕄) = ((idsW2).view.loc (thr2 d L) ↦{q} f) := rfl
omit [FloatOps F] in
theorem pts_tq_2 (d : Dev nD) (L : grid2.Coords) (q : PosShare TreeShare) (f : Buf (Elt F) (tqLoc2 d)) :
    (View.loc (thr2 d L) (View.whole main_v6_scv) ↦{q} f : sProp 𝕄) = ((tqW2).view.loc (thr2 d L) ↦{q} f) := rfl
omit [FloatOps F] in
theorem pts_out_2 (d : Dev nD) (L : grid2.Coords) (f : Buf (Elt F) (outLoc2 d)) :
    (View.loc (thr2 d L) ((View.whole main_v7_scv).slice (Rect.unit (s := S32x16384) (k2_off35 L) S32x512.size (k2_off35_inb L)))
        ↦[((View.whole main_v7_scv).slice (Rect.unit (s := S32x16384) (k2_off35 L) S32x512.size (k2_off35_inb L))).set]{fullShare} f : sProp 𝕄)
      = ((outBlk2 L).view.loc (thr2 d L) ↦[(outBlk2 L).view.set]{fullShare} f) := rfl

/-! ## The loops' invariants -/

omit [FloatOps F] in
def inv1_2 (d : Dev nD) (L : grid2.Coords) (F5 : Buf (Elt F) ((sIdx_2).view.loc (thr2 d L))) (f6 : Buf (Elt F) ((sQ_2).view.loc (thr2 d L)))
    (k : ℕ) (_ : PUnit) : sProp 𝕄 :=
  iprop(((sIdx_2).view.loc (thr2 d L) ↦{fullShare} F5) ∗ ∃ f, ((sQ_2).view.loc (thr2 d L) ↦{fullShare} f) ∗ ⌜f = q1F F5 f6 k⌝)

theorem trips1_2 : Scf.trips k2_t1_loop.lb k2_t1_loop.ub k2_t1_loop.st = 32 := by decide
theorem trips2_2 : Scf.trips k2_t2_loop.lb k2_t2_loop.ub k2_t2_loop.st = 32 := by decide
theorem trips3_2 : Scf.trips k2_t3_loop.lb k2_t3_loop.ub k2_t3_loop.st = 32 := by decide

theorem q1F_full_2 (F5 f6 : S512.Idx → BitVec 32) : q1F F5 f6 (Scf.trips k2_t1_loop.lb k2_t1_loop.ub k2_t1_loop.st) = qFull F5 := by
  rw [trips1_2]; exact q1F_32 F5 f6

omit [FloatOps F] in
def inv2_2 (d : Dev nD) (L : grid2.Coords) (F5 : Buf (Elt F) ((sIdx_2).view.loc (thr2 d L))) (R0 : Buf (Elt F) ((sR0_2).view.loc (thr2 d L)))
    (C0 : Buf (Elt F) ((sC_2).view.loc (thr2 d L))) (k : ℕ) (_ : PUnit) : sProp 𝕄 :=
  iprop(((sIdx_2).view.loc (thr2 d L) ↦{fullShare} F5) ∗ ((sR0_2).view.loc (thr2 d L) ↦{fullShare} R0)
    ∗ ∃ f, ((sC_2).view.loc (thr2 d L) ↦{fullShare} f) ∗ ⌜f = cHalf R0 F5 0 C0 k⌝)

omit [FloatOps F] in
theorem pts_acc7_2 (d : Dev nD) (L : grid2.Coords) (f : Buf (Elt F) ((sR0_2).view.loc (thr2 d L))) :
    ((sR0_2).view.loc (thr2 d L) ↦{fullShare} f : sProp 𝕄) = (((sR0_2).access (.whole S256x128)).loc (thr2 d L) ↦{fullShare} f) := rfl

set_option hygiene false in
/-- One lane group of a column trip: the run up to the indexed load, then the indexed load by its rule. -/
macro "vli_step_2" : tactic => `(tactic| (
  sl_exec (disch := (refine chk_ok _ _ ?_ _ _ hck; decide))
  ihave H7 := (Entails.of_eq (pts_acc7_2 (F := F) d L _)) $$ H7
  iapply (SparseCore.wp_vectorLoadIdx (defs := defs₀ (F := F)) 𝒱₀ (thr2 d L) none Set.univ (Finset.subset_univ _)) $$ H7
  iintro H7
  ihave H7 := (Entails.of_eq (pts_acc7_2 (F := F) d L _).symm) $$ H7))

omit [FloatOps F] in
def inv3_2 (d : Dev nD) (L : grid2.Coords) (F5 : Buf (Elt F) ((sIdx_2).view.loc (thr2 d L))) (R1 : Buf (Elt F) ((sR1_2).view.loc (thr2 d L)))
    (C0 : Buf (Elt F) ((sC_2).view.loc (thr2 d L))) (k : ℕ) (_ : PUnit) : sProp 𝕄 :=
  iprop(((sIdx_2).view.loc (thr2 d L) ↦{fullShare} F5) ∗ ((sR1_2).view.loc (thr2 d L) ↦{fullShare} R1)
    ∗ ∃ f, ((sC_2).view.loc (thr2 d L) ↦{fullShare} f) ∗ ⌜f = cHalf R1 F5 256 C0 k⌝)

omit [FloatOps F] in
theorem pts_acc8_2 (d : Dev nD) (L : grid2.Coords) (f : Buf (Elt F) ((sR1_2).view.loc (thr2 d L))) :
    ((sR1_2).view.loc (thr2 d L) ↦{fullShare} f : sProp 𝕄) = (((sR1_2).access (.whole S256x128)).loc (thr2 d L) ↦{fullShare} f) := rfl

set_option hygiene false in
/-- The same over the second gathered block. -/
macro "vli_step8_2" : tactic => `(tactic| (
  sl_exec (disch := (refine chk_ok _ _ ?_ _ _ hck; decide))
  ihave H8 := (Entails.of_eq (pts_acc8_2 (F := F) d L _)) $$ H8
  iapply (SparseCore.wp_vectorLoadIdx (defs := defs₀ (F := F)) 𝒱₀ (thr2 d L) none Set.univ (Finset.subset_univ _)) $$ H8
  iintro H8
  ihave H8 := (Entails.of_eq (pts_acc8_2 (F := F) d L _).symm) $$ H8))

set_option maxHeartbeats 16000000 in
set_option maxRecDepth 65536 in
theorem body2 (m : (ℓ : Loc nD τ sig) → Buf (Elt F) ℓ) (d : Dev nD) (L : grid2.Coords) (O : CellTallies nD τ sig (HIx 4)) (W : Waits sig (HIx 4))
    (hO : ∀ g, O g none = 0)
    (hin : ∀ j : S16384.Idx, ((m (idsLoc2 d) : S16384.Idx → BitVec 32) j).toNat < 1000)
    (f0 : Buf (Elt F) (outLoc2 d)) (q1 q4 : PosShare TreeShare) :
    (iprop(levAts (K (F := F)).L (K (F := F)).lev
        ∗ ((idsW2).view.loc (thr2 d L) ↦{q1} m (idsLoc2 d))
        ∗ ((tqW2).view.loc (thr2 d L) ↦{q4} m (tqLoc2 d))
        ∗ ((outBlk2 L).view.loc (thr2 d L) ↦[(outBlk2 L).view.set]{fullShare} f0)
        ∗ scopedBufs (thr2 d L) ∗ scopedSems0 (thr2 d L) ∗ owes (thr2 d L) O W) : sProp 𝕄)
      ⊢ wp frame (wpE (defs₀ (F := F)) 𝒱₀ (thr2 d L) none) Set.univ
          (cc2_packed_gather L idsW2 (Memref.isWhole_whole _) tqW2 (Memref.isWhole_whole _) outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(((idsW2).view.loc (thr2 d L) ↦{q1} m (idsLoc2 d))
            ∗ ((tqW2).view.loc (thr2 d L) ↦{q4} m (tqLoc2 d))
            ∗ ((outBlk2 L).view.loc (thr2 d L) ↦[(outBlk2 L).view.set]{fullShare}
                (packedE2 (F := F) (m (idsLoc2 d)) (m (tqLoc2 d)) : Buf (Elt F) (outLoc2 d)))
            ∗ scopedBufs (thr2 d L) ∗ scopedSems0 (thr2 d L) ∗ ∃ W', ⌜∀ p ∈ W', p ∈ W ∨ p.2 = none⌝ ∗ owes (thr2 d L) O W') := by
  simp only [cc2_packed_gather_eq_skeleton]; unfold cc2_packed_gather_skel
  rw [sems_eq_2, bufs_eq_2]
  iintro ⟨#Hlv, Hi, Ht, Ho, Hb, Hs, HO⟩
  icases Hb with ⟨Hb5, Hbufs⟩
  icases Hb5 with ⟨⟨%f5, H5⟩, ⟨%f6, H6⟩, ⟨%f7, H7⟩, ⟨%f8, H8⟩, ⟨%f9, H9⟩⟩
  icases Hs with ⟨⟨Hs0, Hs1, HsA, HsB⟩, Hsems⟩
  ihave Hmw := ((K (F := F)).mayWaits_none (thr := thr2 d L) hO) $$ Hlv
  ihave Hi := (Entails.of_eq (pts_ids_2 (F := F) d L q1 _)) $$ Hi
  ihave Ht := (Entails.of_eq (pts_tq_2 (F := F) d L q4 _)) $$ Ht
  ihave Ho := (Entails.of_eq (pts_out_2 (F := F) d L _)) $$ Ho
  sl_exec
  obtain ⟨F5, hF5⟩ : ∃ F5 : Buf (Elt F) ((sIdx_2).view.loc (thr2 d L)),
      F5 = View.write (Elt F) (Memref.whole cc2_scratch0).view f5 (body2.sl.dma0 m d L) Finset.univ := ⟨_, rfl⟩
  rw [← hF5]
  have hF5v : ∀ y, F5 y = View.read (Elt F) (idsW2.slice (Rect.unit (s := S16384) (k2_off1 L) S512.size (k2_off1_inb L)) (fun _ => rfl)).view (m (idsLoc2 d)) y := by
    intro y; rw [hF5]; unfold body2.sl.dma0; rw [View.write_whole_univ]
  have hF5lt : ∀ y, (F5 y : BitVec 32).toNat < 1000 := by
    intro y; rw [hF5v]; exact hin _
  sl_for (inv1_2 (F := F) d L F5 f6) $$ [H5 H6]
  case region =>
    intro k _
    unfold inv1_2
    iintro ⟨H5, %f, H6, %hf⟩
    subst hf
    sl_exec
    sl_step
    isplitl [H5]; · iexact H5
    iexists _; isplitl [H6]; · iexact H6
    ipureintro
    exact q1_step2 (F := F) F5 f6 k.val _ (k2_off2_eq k) _ _ (fun x => shrui2 _)
  · unfold inv1_2
    isplitl [H5]; · iexact H5
    iexists _; isplitl [H6]; · iexact H6
    ipureintro
    exact q1F_zero _ _
  iintro %_ HI
  unfold inv1_2
  icases HI with ⟨H5, %f, H6, %hf⟩
  have hf' := hf.trans (q1F_full_2 _ f6)
  subst hf'
  have hinA : ∀ x : (Rect.unit (s := S512) ![0] S256.size inb_S512_S256_0).shape.Idx,
      BitVec.toNat (View.read (Elt F) ((Memref.whole cc2_scratch1).slice (Rect.unit (s := S512) ![0] S256.size inb_S512_S256_0) (fun _ => rfl)).view
        (qFull F5) x) < 250 :=
    fun x => shr2_lt _ (hF5lt _)
  have hinB : ∀ x : (Rect.unit (s := S512) ![256] S256.size inb_S512_S256_256).shape.Idx,
      BitVec.toNat (View.read (Elt F) ((Memref.whole cc2_scratch1).slice (Rect.unit (s := S512) ![256] S256.size inb_S512_S256_256) (fun _ => rfl)).view
        (qFull F5) x) < 250 :=
    fun x => shr2_lt _ (hF5lt _)
  ihave Ht2 := (Transfers.pointsTo_toks_range q4 1).1 $$ Ht
  rw [Finset.range_one, bigSep_singleton]
  icases Ht2 with ⟨HtA, HtB⟩
  sl_exec
  obtain ⟨R0, hR0⟩ : ∃ R0 : Buf (Elt F) ((sR0_2).view.loc (thr2 d L)),
      R0 = sR0_2.view.writes (Elt F) sR0_2.view.junk [⟨Rect.whole S256x128, body2.sl.gather0 m d L F5 hinA⟩] := ⟨_, rfl⟩
  rw [← hR0]
  sl_for (inv2_2 (F := F) d L F5 R0 f9) $$ [H5 H7 H9]
  case region =>
    intro k _
    have hk : k.val < 32 := lt_of_lt_of_eq k.isLt trips2_2
    have hck : (cK k.val).toNat < 32 := by rw [cK_toNat _ hk]; exact hk
    unfold inv2_2
    iintro ⟨H5, H7, %f, H9, %hf⟩
    subst hf
    vli_step_2
    vli_step_2
    vli_step_2
    vli_step_2
    vli_step_2
    vli_step_2
    vli_step_2
    vli_step_2
    vli_step_2
    vli_step_2
    vli_step_2
    vli_step_2
    vli_step_2
    vli_step_2
    vli_step_2
    vli_step_2
    sl_exec
    sl_step
    isplitl [H5]; · iexact H5
    isplitl [H7]; · iexact H7
    iexists _; isplitl [H9]; · iexact H9
    ipureintro
    exact cols16_2 (F := F) R0 F5 0 k.val f9 _ _ _ _ _ _ _ _ _ _ _ _ _ _ _ _ _ _ _ _ _ _ _ _ _ _ _ _ _ _ _ _
      (mem_unit_row _ k.val (0 + 0) (k2_off3_eq k) _)
      (mem_unit_row _ k.val (0 + 16) (k2_off4_eq k) _)
      (mem_unit_row _ k.val (0 + 32) (k2_off5_eq k) _)
      (mem_unit_row _ k.val (0 + 48) (k2_off6_eq k) _)
      (mem_unit_row _ k.val (0 + 64) (k2_off7_eq k) _)
      (mem_unit_row _ k.val (0 + 80) (k2_off8_eq k) _)
      (mem_unit_row _ k.val (0 + 96) (k2_off9_eq k) _)
      (mem_unit_row _ k.val (0 + 112) (k2_off10_eq k) _)
      (mem_unit_row _ k.val (0 + 128) (k2_off11_eq k) _)
      (mem_unit_row _ k.val (0 + 144) (k2_off12_eq k) _)
      (mem_unit_row _ k.val (0 + 160) (k2_off13_eq k) _)
      (mem_unit_row _ k.val (0 + 176) (k2_off14_eq k) _)
      (mem_unit_row _ k.val (0 + 192) (k2_off15_eq k) _)
      (mem_unit_row _ k.val (0 + 208) (k2_off16_eq k) _)
      (mem_unit_row _ k.val (0 + 224) (k2_off17_eq k) _)
      (mem_unit_row _ k.val (0 + 240) (k2_off18_eq k) _)
      (fun x => piece_ok R0 _ (Memref.read_access_whole (Elt F) cc2_scratch2 R0) F5 f9 0 0 k.val (by decide) (by decide) hk _ _ _ (fun _ => rfl) _ (k2_off3_eq k) _ _ _ x)
      (fun x => piece_ok R0 _ (Memref.read_access_whole (Elt F) cc2_scratch2 R0) F5 f9 0 1 k.val (by decide) (by decide) hk _ _ _ (fun _ => rfl) _ (k2_off4_eq k) _ _ _ x)
      (fun x => piece_ok R0 _ (Memref.read_access_whole (Elt F) cc2_scratch2 R0) F5 f9 0 2 k.val (by decide) (by decide) hk _ _ _ (fun _ => rfl) _ (k2_off5_eq k) _ _ _ x)
      (fun x => piece_ok R0 _ (Memref.read_access_whole (Elt F) cc2_scratch2 R0) F5 f9 0 3 k.val (by decide) (by decide) hk _ _ _ (fun _ => rfl) _ (k2_off6_eq k) _ _ _ x)
      (fun x => piece_ok R0 _ (Memref.read_access_whole (Elt F) cc2_scratch2 R0) F5 f9 0 4 k.val (by decide) (by decide) hk _ _ _ (fun _ => rfl) _ (k2_off7_eq k) _ _ _ x)
      (fun x => piece_ok R0 _ (Memref.read_access_whole (Elt F) cc2_scratch2 R0) F5 f9 0 5 k.val (by decide) (by decide) hk _ _ _ (fun _ => rfl) _ (k2_off8_eq k) _ _ _ x)
      (fun x => piece_ok R0 _ (Memref.read_access_whole (Elt F) cc2_scratch2 R0) F5 f9 0 6 k.val (by decide) (by decide) hk _ _ _ (fun _ => rfl) _ (k2_off9_eq k) _ _ _ x)
      (fun x => piece_ok R0 _ (Memref.read_access_whole (Elt F) cc2_scratch2 R0) F5 f9 0 7 k.val (by decide) (by decide) hk _ _ _ (fun _ => rfl) _ (k2_off10_eq k) _ _ _ x)
      (fun x => piece_ok R0 _ (Memref.read_access_whole (Elt F) cc2_scratch2 R0) F5 f9 0 8 k.val (by decide) (by decide) hk _ _ _ (fun _ => rfl) _ (k2_off11_eq k) _ _ _ x)
      (fun x => piece_ok R0 _ (Memref.read_access_whole (Elt F) cc2_scratch2 R0) F5 f9 0 9 k.val (by decide) (by decide) hk _ _ _ (fun _ => rfl) _ (k2_off12_eq k) _ _ _ x)
      (fun x => piece_ok R0 _ (Memref.read_access_whole (Elt F) cc2_scratch2 R0) F5 f9 0 10 k.val (by decide) (by decide) hk _ _ _ (fun _ => rfl) _ (k2_off13_eq k) _ _ _ x)
      (fun x => piece_ok R0 _ (Memref.read_access_whole (Elt F) cc2_scratch2 R0) F5 f9 0 11 k.val (by decide) (by decide) hk _ _ _ (fun _ => rfl) _ (k2_off14_eq k) _ _ _ x)
      (fun x => piece_ok R0 _ (Memref.read_access_whole (Elt F) cc2_scratch2 R0) F5 f9 0 12 k.val (by decide) (by decide) hk _ _ _ (fun _ => rfl) _ (k2_off15_eq k) _ _ _ x)
      (fun x => piece_ok R0 _ (Memref.read_access_whole (Elt F) cc2_scratch2 R0) F5 f9 0 13 k.val (by decide) (by decide) hk _ _ _ (fun _ => rfl) _ (k2_off16_eq k) _ _ _ x)
      (fun x => piece_ok R0 _ (Memref.read_access_whole (Elt F) cc2_scratch2 R0) F5 f9 0 14 k.val (by decide) (by decide) hk _ _ _ (fun _ => rfl) _ (k2_off17_eq k) _ _ _ x)
      (fun x => piece_ok R0 _ (Memref.read_access_whole (Elt F) cc2_scratch2 R0) F5 f9 0 15 k.val (by decide) (by decide) hk _ _ _ (fun _ => rfl) _ (k2_off18_eq k) _ _ _ x)
  · unfold inv2_2
    isplitl [H5]; · iexact H5
    isplitl [H7]; · iexact H7
    iexists _; isplitl [H9]; · iexact H9
    ipureintro
    exact cHalf_zero _ _ _ _
  iintro %_ HI
  unfold inv2_2
  icases HI with ⟨H5, H7, %f, H9, %hf⟩
  subst hf
  sl_exec
  obtain ⟨R1, hR1⟩ : ∃ R1 : Buf (Elt F) ((sR1_2).view.loc (thr2 d L)),
      R1 = sR1_2.view.writes (Elt F) sR1_2.view.junk [⟨Rect.whole S256x128, body2.sl.gather1 m d L F5 hinB⟩] := ⟨_, rfl⟩
  rw [← hR1]
  sl_for (inv3_2 (F := F) d L F5 R1 (cHalf R0 F5 0 f9 (Scf.trips k2_t2_loop.lb k2_t2_loop.ub k2_t2_loop.st))) $$ [H5 H8 H9]
  case region =>
    intro k _
    have hk : k.val < 32 := lt_of_lt_of_eq k.isLt trips3_2
    have hck : (cK k.val).toNat < 32 := by rw [cK_toNat _ hk]; exact hk
    unfold inv3_2
    iintro ⟨H5, H8, %f, H9, %hf⟩
    subst hf
    vli_step8_2
    vli_step8_2
    vli_step8_2
    vli_step8_2
    vli_step8_2
    vli_step8_2
    vli_step8_2
    vli_step8_2
    vli_step8_2
    vli_step8_2
    vli_step8_2
    vli_step8_2
    vli_step8_2
    vli_step8_2
    vli_step8_2
    vli_step8_2
    sl_exec
    sl_step
    isplitl [H5]; · iexact H5
    isplitl [H8]; · iexact H8
    iexists _; isplitl [H9]; · iexact H9
    ipureintro
    exact cols16_2 (F := F) R1 F5 256 k.val (cHalf R0 F5 0 f9 (Scf.trips k2_t2_loop.lb k2_t2_loop.ub k2_t2_loop.st)) _ _ _ _ _ _ _ _ _ _ _ _ _ _ _ _ _ _ _ _ _ _ _ _ _ _ _ _ _ _ _ _
      (mem_unit_row _ k.val (256 + 0) (k2_off19_eq k) _)
      (mem_unit_row _ k.val (256 + 16) (k2_off20_eq k) _)
      (mem_unit_row _ k.val (256 + 32) (k2_off21_eq k) _)
      (mem_unit_row _ k.val (256 + 48) (k2_off22_eq k) _)
      (mem_unit_row _ k.val (256 + 64) (k2_off23_eq k) _)
      (mem_unit_row _ k.val (256 + 80) (k2_off24_eq k) _)
      (mem_unit_row _ k.val (256 + 96) (k2_off25_eq k) _)
      (mem_unit_row _ k.val (256 + 112) (k2_off26_eq k) _)
      (mem_unit_row _ k.val (256 + 128) (k2_off27_eq k) _)
      (mem_unit_row _ k.val (256 + 144) (k2_off28_eq k) _)
      (mem_unit_row _ k.val (256 + 160) (k2_off29_eq k) _)
      (mem_unit_row _ k.val (256 + 176) (k2_off30_eq k) _)
      (mem_unit_row _ k.val (256 + 192) (k2_off31_eq k) _)
      (mem_unit_row _ k.val (256 + 208) (k2_off32_eq k) _)
      (mem_unit_row _ k.val (256 + 224) (k2_off33_eq k) _)
      (mem_unit_row _ k.val (256 + 240) (k2_off34_eq k) _)
      (fun x => piece_ok R1 _ (Memref.read_access_whole (Elt F) cc2_scratch3 R1) F5 (cHalf R0 F5 0 f9 (Scf.trips k2_t2_loop.lb k2_t2_loop.ub k2_t2_loop.st)) 256 0 k.val (by decide) (by decide) hk _ _ _ (fun _ => rfl) _ (k2_off19_eq k) _ _ _ x)
      (fun x => piece_ok R1 _ (Memref.read_access_whole (Elt F) cc2_scratch3 R1) F5 (cHalf R0 F5 0 f9 (Scf.trips k2_t2_loop.lb k2_t2_loop.ub k2_t2_loop.st)) 256 1 k.val (by decide) (by decide) hk _ _ _ (fun _ => rfl) _ (k2_off20_eq k) _ _ _ x)
      (fun x => piece_ok R1 _ (Memref.read_access_whole (Elt F) cc2_scratch3 R1) F5 (cHalf R0 F5 0 f9 (Scf.trips k2_t2_loop.lb k2_t2_loop.ub k2_t2_loop.st)) 256 2 k.val (by decide) (by decide) hk _ _ _ (fun _ => rfl) _ (k2_off21_eq k) _ _ _ x)
      (fun x => piece_ok R1 _ (Memref.read_access_whole (Elt F) cc2_scratch3 R1) F5 (cHalf R0 F5 0 f9 (Scf.trips k2_t2_loop.lb k2_t2_loop.ub k2_t2_loop.st)) 256 3 k.val (by decide) (by decide) hk _ _ _ (fun _ => rfl) _ (k2_off22_eq k) _ _ _ x)
      (fun x => piece_ok R1 _ (Memref.read_access_whole (Elt F) cc2_scratch3 R1) F5 (cHalf R0 F5 0 f9 (Scf.trips k2_t2_loop.lb k2_t2_loop.ub k2_t2_loop.st)) 256 4 k.val (by decide) (by decide) hk _ _ _ (fun _ => rfl) _ (k2_off23_eq k) _ _ _ x)
      (fun x => piece_ok R1 _ (Memref.read_access_whole (Elt F) cc2_scratch3 R1) F5 (cHalf R0 F5 0 f9 (Scf.trips k2_t2_loop.lb k2_t2_loop.ub k2_t2_loop.st)) 256 5 k.val (by decide) (by decide) hk _ _ _ (fun _ => rfl) _ (k2_off24_eq k) _ _ _ x)
      (fun x => piece_ok R1 _ (Memref.read_access_whole (Elt F) cc2_scratch3 R1) F5 (cHalf R0 F5 0 f9 (Scf.trips k2_t2_loop.lb k2_t2_loop.ub k2_t2_loop.st)) 256 6 k.val (by decide) (by decide) hk _ _ _ (fun _ => rfl) _ (k2_off25_eq k) _ _ _ x)
      (fun x => piece_ok R1 _ (Memref.read_access_whole (Elt F) cc2_scratch3 R1) F5 (cHalf R0 F5 0 f9 (Scf.trips k2_t2_loop.lb k2_t2_loop.ub k2_t2_loop.st)) 256 7 k.val (by decide) (by decide) hk _ _ _ (fun _ => rfl) _ (k2_off26_eq k) _ _ _ x)
      (fun x => piece_ok R1 _ (Memref.read_access_whole (Elt F) cc2_scratch3 R1) F5 (cHalf R0 F5 0 f9 (Scf.trips k2_t2_loop.lb k2_t2_loop.ub k2_t2_loop.st)) 256 8 k.val (by decide) (by decide) hk _ _ _ (fun _ => rfl) _ (k2_off27_eq k) _ _ _ x)
      (fun x => piece_ok R1 _ (Memref.read_access_whole (Elt F) cc2_scratch3 R1) F5 (cHalf R0 F5 0 f9 (Scf.trips k2_t2_loop.lb k2_t2_loop.ub k2_t2_loop.st)) 256 9 k.val (by decide) (by decide) hk _ _ _ (fun _ => rfl) _ (k2_off28_eq k) _ _ _ x)
      (fun x => piece_ok R1 _ (Memref.read_access_whole (Elt F) cc2_scratch3 R1) F5 (cHalf R0 F5 0 f9 (Scf.trips k2_t2_loop.lb k2_t2_loop.ub k2_t2_loop.st)) 256 10 k.val (by decide) (by decide) hk _ _ _ (fun _ => rfl) _ (k2_off29_eq k) _ _ _ x)
      (fun x => piece_ok R1 _ (Memref.read_access_whole (Elt F) cc2_scratch3 R1) F5 (cHalf R0 F5 0 f9 (Scf.trips k2_t2_loop.lb k2_t2_loop.ub k2_t2_loop.st)) 256 11 k.val (by decide) (by decide) hk _ _ _ (fun _ => rfl) _ (k2_off30_eq k) _ _ _ x)
      (fun x => piece_ok R1 _ (Memref.read_access_whole (Elt F) cc2_scratch3 R1) F5 (cHalf R0 F5 0 f9 (Scf.trips k2_t2_loop.lb k2_t2_loop.ub k2_t2_loop.st)) 256 12 k.val (by decide) (by decide) hk _ _ _ (fun _ => rfl) _ (k2_off31_eq k) _ _ _ x)
      (fun x => piece_ok R1 _ (Memref.read_access_whole (Elt F) cc2_scratch3 R1) F5 (cHalf R0 F5 0 f9 (Scf.trips k2_t2_loop.lb k2_t2_loop.ub k2_t2_loop.st)) 256 13 k.val (by decide) (by decide) hk _ _ _ (fun _ => rfl) _ (k2_off32_eq k) _ _ _ x)
      (fun x => piece_ok R1 _ (Memref.read_access_whole (Elt F) cc2_scratch3 R1) F5 (cHalf R0 F5 0 f9 (Scf.trips k2_t2_loop.lb k2_t2_loop.ub k2_t2_loop.st)) 256 14 k.val (by decide) (by decide) hk _ _ _ (fun _ => rfl) _ (k2_off33_eq k) _ _ _ x)
      (fun x => piece_ok R1 _ (Memref.read_access_whole (Elt F) cc2_scratch3 R1) F5 (cHalf R0 F5 0 f9 (Scf.trips k2_t2_loop.lb k2_t2_loop.ub k2_t2_loop.st)) 256 15 k.val (by decide) (by decide) hk _ _ _ (fun _ => rfl) _ (k2_off34_eq k) _ _ _ x)
  · unfold inv3_2
    isplitl [H5]; · iexact H5
    isplitl [H8]; · iexact H8
    iexists _; isplitl [H9]; · iexact H9
    ipureintro
    exact cHalf_zero _ _ _ _
  iintro %_ HI
  unfold inv3_2
  icases HI with ⟨H5, H8, %f, H9, %hf⟩
  subst hf
  sl_exec
  have hval : ∀ i ∈ (outBlk2 L).view.set,
      ((outBlk2 L).view.writes (Elt F) f0 [⟨Rect.whole S32x512, body2.sl.dma0_1 d L f9 F5 R0 R1⟩]) i
        = (packedE2 (F := F) (m (idsLoc2 d)) (m (tqLoc2 d)) : Buf (Elt F) (outLoc2 d)) i := by
    unfold body2.sl.dma0_1
    unfold body2.sl.gather0 at hR0
    unfold body2.sl.gather1 at hR1
    rw [trips2_2]
    exact block_value2 (F := F) L (m (idsLoc2 d)) (m (tqLoc2 d)) F5 hF5v gathers_S250x128_S256x128 _ _ hinA hinB _ _ R0 R1 hR0 hR1 f0 f9
  sl_step
  isplitl [Hi]
  · iapply (Entails.of_eq (pts_ids_2 (F := F) d L q1 _).symm); iexact Hi
  isplitl [HtA HtB]
  · iapply (Entails.of_eq (pts_tq_2 (F := F) d L q4 _).symm)
    iapply (Transfers.pointsTo_toks_range q4 1).2
    rw [Finset.range_one, bigSep_singleton]
    isplitl [HtA]; · iexact HtA
    iexact HtB
  isplitl [Ho]
  · iapply (Entails.of_eq (pts_out_2 (F := F) d L _).symm)
    iapply (Entails.of_eq (pointsTo_congr (q := fullShare) hval))
    iexact Ho
  isplitl [H5 H6 H7 H8 H9 Hbufs]
  · isplitr [Hbufs]
    · isplitl [H5]; · iexists _; iexact H5
      isplitl [H6]; · iexists _; iexact H6
      isplitl [H7]; · iexists _; iexact H7
      isplitl [H8]; · iexists _; iexact H8
      iexists _; iexact H9
    · iexact Hbufs
  isplitl [Hs0 Hs1 HsA HsB Hsems]
  · isplitr [Hsems]
    · isplitl [Hs0]; · iexact Hs0
      isplitl [Hs1]; · iexact Hs1
      isplitl [HsA]; · iexact HsA
      iexact HsB
    · iexact Hsems
  iexists _; isplitr
  rotate_left
  · iexact HO
  · ipureintro
    intro p hp
    simp only [Finset.mem_insert] at hp
    rcases hp with rfl | rfl | rfl | rfl | hp
    · exact .inr rfl
    · exact .inr rfl
    · exact .inr rfl
    · exact .inr rfl
    · exact .inl hp

end Cert.Proof.Packed

end
-- ==== Proof.BlockOpenC3.lean ====
/-
  The subcore's own scratch buffers and semaphores in the kernel's second use, taken out of the bundles the launch hands a tile: the eleven
  scratch buffers the kernel names and the eleven DMA semaphores, each beside the rest of its bundle.
-/
import proofs.«204991_g57140244906297_cont_9to1_m_249_19_alg».proof.Proof.BlockDefs
import proofs.«204991_g57140244906297_cont_9to1_m_249_19_alg».proof.Proof.BlockDefs3
import proofs.«204991_g57140244906297_cont_9to1_m_249_19_alg».proof.Proof.BlockOpen

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

section Tile

variable (d : Dev nD) (L : grid3.Coords)

/-- The cell of DMA semaphore `k` of the tile. -/
abbrev cell (k : DmaSem sig) : GSem nD τ sig := (thr d L, .dma k)

/-- The eleven DMA semaphores of the kernel: the ring's eight, the tail's, the two scoped ones. -/
def semList : List (DmaSem sig) :=
  [cc3_scratch11.sem, cc3_scratch12.sem, cc3_scratch13.sem, cc3_scratch14.sem, cc3_scratch15.sem, cc3_scratch16.sem,
    cc3_scratch17.sem, cc3_scratch18.sem, cc3_scratch19.sem, cc3_scoped0.sem, cc3_scoped1.sem]

theorem semList_nodup : semList.Nodup := by decide

theorem semList_scoped : ∀ k ∈ semList, (SemLoc.dma k : SemLoc sig).isScoped .scVector = true := by decide

/-- The rest of the tile's scoped cells. -/
def semRest : Finset (GSem nD τ sig) := ownCells (thr d L) \ (semList.map (cell d L)).toFinset

theorem ownSems0_open :
    (ownSems0 (thr d L) : sProp 𝕄)
      = (semList.map (cell d L)).foldr (fun g R => iprop(semVal g 0 ∗ R)) (bigSep (semRest d L) fun g => semVal g 0) := by
  unfold SparseCore.Cfg.ownSems0 semRest
  refine bigSep_take (fun g => (semVal g 0 : sProp 𝕄)) _ _ ?_ ?_
  · refine List.Nodup.map ?_ semList_nodup
    intro a b h; simpa [cell] using h
  · intro g hg
    obtain ⟨k, hk, rfl⟩ := List.mem_map.mp hg
    exact mem_ownCells.mpr ⟨rfl, semList_scoped k hk⟩

/-- The eleven scratch buffers of the kernel: the index scratch, the ring's eight slots, the tail, the columns. -/
def bufList : List (Ref sig .scVector) :=
  [cc3_scratch0, cc3_scratch1, cc3_scratch2, cc3_scratch3, cc3_scratch4, cc3_scratch5, cc3_scratch6, cc3_scratch7,
    cc3_scratch8, cc3_scratch9, cc3_scratch10]

theorem bufList_nodup : bufList.Nodup := by decide

abbrev bref (b : Ref sig .scVector) : DevRef τ sig := (Proc.scVector (cV L) (jV L)).devRef b

def bufRest : Finset (DevRef τ sig) := ownRefs (τ := τ) (.scVector (cV L) (jV L)) \ (bufList.map (bref L)).toFinset

theorem ownBufs_open :
    (ownBufs (thr d L) : sProp 𝕄)
      = (bufList.map (bref L)).foldr (fun b R => iprop((∃ f, ((d, b) : Loc nD τ sig) ↦{fullShare} f) ∗ R))
          (bigSep (bufRest L) fun b => iprop(∃ f, ((d, b) : Loc nD τ sig) ↦{fullShare} f)) := by
  unfold SparseCore.Cfg.ownBufs bufRest
  refine bigSep_take (fun b => (iprop(∃ f, ((d, b) : Loc nD τ sig) ↦{fullShare} f) : sProp 𝕄)) _ _ ?_ ?_
  · exact List.Nodup.map (fun a b h => Proc.devRef_injective (Proc.scVector (cV L) (jV L)) h) bufList_nodup
  · intro b hb
    obtain ⟨r, hr, rfl⟩ := List.mem_map.mp hb
    unfold bufList at hr
    fin_cases hr <;> exact SparseCore.Cfg.mem_ownRefs_of_owner rfl

end Tile

end Cert.Proof.Block3

end
-- ==== Proof.BlockInvC3.lean ====
/-
  The block-gather task's loop in the kernel's second use (the ring's read tokens are numbered after the ring's semaphores, 19 … 26): the side conditions the printed body assumes (each holds of every word), the trip's
  sixteen conditions decided from the trip's number, the ring's slots — a slot in flight holds the flight of its block
  copy beside the rest of its read token, an idle slot its buffer, its semaphore at zero and its token whole — and the
  loop's invariant: the index scratch and the tail as loaded, the columns below the trip done, the eight slots each
  serving its next index.
-/
import proofs.«204991_g57140244906297_cont_9to1_m_249_19_alg».proof.Proof.BlockDefs
import proofs.«204991_g57140244906297_cont_9to1_m_249_19_alg».proof.Proof.BlockDefs3
import proofs.«204991_g57140244906297_cont_9to1_m_249_19_alg».proof.Proof.BlockOpenC3
import proofs.«204991_g57140244906297_cont_9to1_m_249_19_alg».proof.Proof.BlockArith
import proofs.«204991_g57140244906297_cont_9to1_m_249_19_alg».proof.Proof.Gen.KernelIdeal
import proofs.«204991_g57140244906297_cont_9to1_m_249_19_alg».proof.Proof.BlockInv

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

/-- A separating conjunction over the first twenty-seven numbers, written out. -/
theorem bigSep_range27 {M : Type} [URA M] (Φ : ℕ → sProp M) :
    bigSep (Finset.range 27) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ emp) := by
  rw [bigSep_take Φ [0, 1, 2, 3, 4, 5, 6, 7, 8, 9, 10, 11, 12, 13, 14, 15, 16, 17, 18, 19, 20, 21, 22, 23, 24, 25, 26] (Finset.range 27) (by decide) (by decide)]
  have h : Finset.range 27 \ [0, 1, 2, 3, 4, 5, 6, 7, 8, 9, 10, 11, 12, 13, 14, 15, 16, 17, 18, 19, 20, 21, 22, 23, 24, 25, 26].toFinset = ∅ := by decide
  rw [h, BI.bigSep_empty]
  rfl

/-- The sixteen conditions of a trip, decided from the trip's number: which slot it serves (its residue mod 8) and
    whether eight trips later is still inside the loop. -/
theorem conds (k : Fin k3_t1_loop.trips) :
    ((k3_cond1 k = 1#1 ↔ k.val % 8 = 0) ∧ (k3_cond3 k = 1#1 ↔ k.val % 8 = 1) ∧ (k3_cond5 k = 1#1 ↔ k.val % 8 = 2)
      ∧ (k3_cond7 k = 1#1 ↔ k.val % 8 = 3) ∧ (k3_cond9 k = 1#1 ↔ k.val % 8 = 4) ∧ (k3_cond11 k = 1#1 ↔ k.val % 8 = 5)
      ∧ (k3_cond13 k = 1#1 ↔ k.val % 8 = 6) ∧ (k3_cond15 k = 1#1 ↔ k.val % 8 = 7))
    ∧ ((k3_cond2 k = 1#1 ↔ k.val + 8 < 512) ∧ (k3_cond4 k = 1#1 ↔ k.val + 8 < 512) ∧ (k3_cond6 k = 1#1 ↔ k.val + 8 < 512)
      ∧ (k3_cond8 k = 1#1 ↔ k.val + 8 < 512) ∧ (k3_cond10 k = 1#1 ↔ k.val + 8 < 512) ∧ (k3_cond12 k = 1#1 ↔ k.val + 8 < 512)
      ∧ (k3_cond14 k = 1#1 ↔ k.val + 8 < 512) ∧ (k3_cond16 k = 1#1 ↔ k.val + 8 < 512)) := by
  revert k
  decide +kernel

theorem trips_eq : k3_t1_loop.trips = 512 := by decide

/-- The trip's number as the kernel's word for it. -/
theorem v77_toNat (k : Fin k3_t1_loop.trips) : (Scalar.addi 0#32 (Scalar.muli (Scf.iv 0#32 1#32 k) 1#32)).toNat = k.val := by
  revert k
  decide +kernel

/-! ## The ring's slots and the loop's invariant -/

section Ring

variable (m : (ℓ : Loc nD τ sig) → Buf (Elt F) ℓ) (d : Dev nD) (L : grid3.Coords) (q : PosShare TreeShare)

/-- The 128-column block of the transposed table that word `w` selects. -/
abbrev blkMem (w : BitVec 32) : Memref sig .scVector .hbm S32x128 .f32 :=
  ttV.slice (Rect.unit (s := S32x1000000) ![0, (blkOff w).toNat] S32x128.size (blk_ok w).2) (fun _ => rfl)

/-- What a copy of that block carries. -/
abbrev blkPay (w : BitVec 32) : S32x128.Idx → Elt F .f32 :=
  (ReadAs.same : ReadAs (Elt F) S32x128 .f32 S32x128 .f32).apply ((blkMem w).view.read (Elt F) (m (ttLoc d)))

/-- Lane 0 of the 16-lane load of the index scratch at offsets `off`. -/
def wAtOff (fs : S528.Idx → Elt F .i32) (off : Fin 1 → ℕ) (h : ∀ a, off a + S16.size a ≤ S528.size a) : BitVec 32 :=
  let v : Vec F S16 .i32 := (Memref.whole cc3_scratch0 : Memref sig .scVector .vmem S528 .i32).view.readAt (Elt F)
    (Rect.unit (s := S528) off S16.size h).toLoadRect fs
  extractAt ![0] (extractStridedSlice S1 ![0] v slices_S16_o0_S1) inpos_S1_p0

/-- Word `n` of the index scratch, as the kernel reads it: lane 0 of the 16-lane load at `n`. -/
def wAt (fs : S528.Idx → Elt F .i32) (n : ℕ) : BitVec 32 :=
  if h : n < 512 then wAtOff fs ![n] (off_inb n h) else 0#32

omit [FloatOps F] in
theorem wAtOff_congr (fs : S528.Idx → Elt F .i32) {off off' : Fin 1 → ℕ} (e : off = off') (h : ∀ a, off a + S16.size a ≤ S528.size a)
    (h' : ∀ a, off' a + S16.size a ≤ S528.size a) : wAtOff fs off h = wAtOff fs off' h' := by subst e; rfl

omit [FloatOps F] in
/-- The word at `n`, read at offsets the kernel computes for `n`. -/
theorem wAt_off (fs : S528.Idx → Elt F .i32) (n : ℕ) (hn : n < 512) (off : Fin 1 → ℕ) (h : ∀ a, off a + S16.size a ≤ S528.size a)
    (e : off = ![n]) : wAt fs n = wAtOff fs off h := by
  unfold wAt; rw [dif_pos hn]; exact wAtOff_congr fs e.symm _ _

/-- A slot whose copy for word `w` is in flight on the slot's own semaphore: the flight — to deliver the slot rewritten
    with the block and the lent elements of the slot's read token — beside the rest of the token. -/
def slot (R : Memref sig .scVector .vmem S32x128 .f32) (sem : DmaSem sig) (s : ℕ) (w : BitVec 32) : sProp 𝕄 :=
  iprop((∃ g : Buf (Elt F) (R.view.loc (thr d L)),
      Transfers.Flight (countersEmb (U := UU) : UEmb Counters 𝕄) (thr d L) (SemLoc.dma sem) (default : HIx 4) 131072
        iprop((R.view.loc (thr d L) ↦{fullShare} View.write (Elt F) R.view g (blkPay m d w) Finset.univ)
          ∗ (ttV.view.loc (thr d L) ↦[(blkMem w).view.set]{Transfers.shareTokN q (19 + s)} m (ttLoc d))))
    ∗ (ttV.view.loc (thr d L) ↦[Finset.univ \ (blkMem w).view.set]{Transfers.shareTokN q (19 + s)} m (ttLoc d)))

/-- A slot with no copy outstanding: its buffer, its semaphore at zero, its read token whole. -/
def slotIdle (R : Memref sig .scVector .vmem S32x128 .f32) (sem : DmaSem sig) (s : ℕ) : sProp 𝕄 :=
  iprop((∃ g : Buf (Elt F) (R.view.loc (thr d L)), R.view.loc (thr d L) ↦{fullShare} g)
    ∗ semVal (thr d L, SemLoc.dma sem) 0
    ∗ (ttV.view.loc (thr d L) ↦{Transfers.shareTokN q (19 + s)} m (ttLoc d)))

/-- Slot `s` before trip `k`: in flight for its next index while that index is below 512, idle after. -/
def slotAt (fs : S528.Idx → Elt F .i32) (R : Memref sig .scVector .vmem S32x128 .f32) (sem : DmaSem sig) (s k : ℕ) : sProp 𝕄 :=
  if nxt s k < 512 then slot m d L q R sem s (wAt fs (nxt s k)) else slotIdle m d L q R sem s

/-- The loop's invariant before trip `k`: the index scratch and the tail as loaded, the columns with a record of what
    they hold, the eight slots, and the tile's debts with the waits so far recorded. -/
def inv (O : CellTallies nD τ sig (HIx 4)) (W : Waits sig (HIx 4)) (fs : S528.Idx → Elt F .i32) (ft : S2048.Idx → Elt F .f32)
    (CD : ℕ → (S32x512.Idx → Elt F .f32) → Prop) (k : ℕ) (_ : PUnit) : sProp 𝕄 :=
  iprop(Transfers.MayWaits (thr d L) (none : HIx 4) O
    ∗ ((Memref.whole cc3_scratch0 : Memref sig .scVector .vmem S528 .i32).view.loc (thr d L) ↦{fullShare} fs)
    ∗ ((Memref.whole cc3_scratch9 : Memref sig .scVector .vmem S2048 .f32).view.loc (thr d L) ↦{fullShare} ft)
    ∗ (∃ fc : S32x512.Idx → Elt F .f32,
        ((Memref.whole cc3_scratch10 : Memref sig .scVector .vmem S32x512 .f32).view.loc (thr d L) ↦{fullShare} fc) ∗ ⌜CD k fc⌝)
    ∗ slotAt m d L q fs (Memref.whole cc3_scratch1) cc3_scratch11.sem 0 k
    ∗ slotAt m d L q fs (Memref.whole cc3_scratch2) cc3_scratch12.sem 1 k
    ∗ slotAt m d L q fs (Memref.whole cc3_scratch3) cc3_scratch13.sem 2 k
    ∗ slotAt m d L q fs (Memref.whole cc3_scratch4) cc3_scratch14.sem 3 k
    ∗ slotAt m d L q fs (Memref.whole cc3_scratch5) cc3_scratch15.sem 4 k
    ∗ slotAt m d L q fs (Memref.whole cc3_scratch6) cc3_scratch16.sem 5 k
    ∗ slotAt m d L q fs (Memref.whole cc3_scratch7) cc3_scratch17.sem 6 k
    ∗ slotAt m d L q fs (Memref.whole cc3_scratch8) cc3_scratch18.sem 7 k
    ∗ ∃ W', ⌜∀ p ∈ W', p ∈ W ∨ p.2 = none⌝ ∗ owes (thr d L) O W')

omit [FloatOps F] in
theorem slotAt_zero (fs : S528.Idx → Elt F .i32) (R : Memref sig .scVector .vmem S32x128 .f32) (sem : DmaSem sig) (s : ℕ) (hs : s < 8) :
    slotAt m d L q fs R sem s 0 = slot m d L q R sem s (wAt fs s) := by
  unfold slotAt; rw [nxt_zero s hs, if_pos (by omega)]

omit [FloatOps F] in
theorem slotAt_end (fs : S528.Idx → Elt F .i32) (R : Memref sig .scVector .vmem S32x128 .f32) (sem : DmaSem sig) (s : ℕ) :
    slotAt m d L q fs R sem s 512 = slotIdle m d L q R sem s := by
  unfold slotAt; rw [if_neg]; have := nxt_ge s 512; omega

/-- The value the kernel stores for row `r` of column `n` of the task. -/
def colVal (fs : S528.Idx → Elt F .i32) (ft : S2048.Idx → Elt F .f32) (r : Fin 32) (n : ℕ) : Elt F .f32 :=
  if (999936 : ℤ) ≤ (wAt fs n).toInt then ft (ix1 ⟨tailAt (wAt fs n) r, tailAt_lt _ r⟩)
  else m (ttLoc d) (ix2 r ⟨colAt (wAt fs n), colAt_lt _⟩)

/-- The columns below `k` hold their values. -/
def colsDone (fs : S528.Idx → Elt F .i32) (ft : S2048.Idx → Elt F .f32) (k : ℕ) (fc : S32x512.Idx → Elt F .f32) : Prop :=
  ∀ (r : Fin 32) (n : Fin 512), n.val < k → fc (ix2 r n) = colVal m d fs ft r n.val

omit [FloatOps F] in
theorem slotAt_self (fs : S528.Idx → Elt F .i32) (R : Memref sig .scVector .vmem S32x128 .f32) (sem : DmaSem sig) (s k : ℕ)
    (h : k % 8 = s) (hk : k < 512) : slotAt m d L q fs R sem s k = slot m d L q R sem s (wAt fs k) := by
  unfold slotAt; rw [nxt_self s k h, if_pos hk]

omit [FloatOps F] in
theorem slotAt_succ_self (fs : S528.Idx → Elt F .i32) (R : Memref sig .scVector .vmem S32x128 .f32) (sem : DmaSem sig) (s k : ℕ)
    (h : k % 8 = s) :
    slotAt m d L q fs R sem s (k + 1) = if k + 8 < 512 then slot m d L q R sem s (wAt fs (k + 8)) else slotIdle m d L q R sem s := by
  unfold slotAt; rw [nxt_succ_self s k h]

omit [FloatOps F] in
theorem slotAt_succ_other (fs : S528.Idx → Elt F .i32) (R : Memref sig .scVector .vmem S32x128 .f32) (sem : DmaSem sig) (s k : ℕ)
    (hs : s < 8) (h : k % 8 ≠ s) : slotAt m d L q fs R sem s (k + 1) = slotAt m d L q fs R sem s k := by
  unfold slotAt; rw [nxt_succ_other s k hs h]

omit [FloatOps F] in
/-- After the last trip every slot is idle. -/
theorem inv_end (O : CellTallies nD τ sig (HIx 4)) (W : Waits sig (HIx 4)) (fs : S528.Idx → Elt F .i32) (ft : S2048.Idx → Elt F .f32)
    (CD : ℕ → (S32x512.Idx → Elt F .f32) → Prop) (u : PUnit) :
    inv m d L q O W fs ft CD 512 u
      = iprop(Transfers.MayWaits (thr d L) (none : HIx 4) O
        ∗ ((Memref.whole cc3_scratch0 : Memref sig .scVector .vmem S528 .i32).view.loc (thr d L) ↦{fullShare} fs)
        ∗ ((Memref.whole cc3_scratch9 : Memref sig .scVector .vmem S2048 .f32).view.loc (thr d L) ↦{fullShare} ft)
        ∗ (∃ fc : S32x512.Idx → Elt F .f32,
            ((Memref.whole cc3_scratch10 : Memref sig .scVector .vmem S32x512 .f32).view.loc (thr d L) ↦{fullShare} fc) ∗ ⌜CD 512 fc⌝)
        ∗ slotIdle m d L q (Memref.whole cc3_scratch1) cc3_scratch11.sem 0
        ∗ slotIdle m d L q (Memref.whole cc3_scratch2) cc3_scratch12.sem 1
        ∗ slotIdle m d L q (Memref.whole cc3_scratch3) cc3_scratch13.sem 2
        ∗ slotIdle m d L q (Memref.whole cc3_scratch4) cc3_scratch14.sem 3
        ∗ slotIdle m d L q (Memref.whole cc3_scratch5) cc3_scratch15.sem 4
        ∗ slotIdle m d L q (Memref.whole cc3_scratch6) cc3_scratch16.sem 5
        ∗ slotIdle m d L q (Memref.whole cc3_scratch7) cc3_scratch17.sem 6
        ∗ slotIdle m d L q (Memref.whole cc3_scratch8) cc3_scratch18.sem 7
        ∗ ∃ W', ⌜∀ p ∈ W', p ∈ W ∨ p.2 = none⌝ ∗ owes (thr d L) O W') := by
  unfold inv
  simp only [slotAt_end]

end Ring

section Step
variable (m : (ℓ : Loc nD τ sig) → Buf (Elt F) ℓ) (d : Dev nD)
omit [FloatOps F] in
/-- One more column done: the new contents hold the trip's value in column `k` and the old contents elsewhere. -/
theorem colsDone_step (fs : S528.Idx → Elt F .i32) (ft : S2048.Idx → Elt F .f32) (k : ℕ) (fc fc' : S32x512.Idx → Elt F .f32)
    (h : colsDone m d fs ft k fc)
    (hstep : ∀ (r : Fin 32) (n : Fin 512), fc' (ix2 r n) = if n.val = k then colVal m d fs ft r k else fc (ix2 r n)) :
    colsDone m d fs ft (k + 1) fc' := by
  intro r n hn
  rw [hstep r n]
  by_cases e : n.val = k
  · rw [if_pos e, e]
  · rw [if_neg e]; exact h r n (by omega)
end Step

section Respell
variable (d : Dev nD) (L : grid3.Coords)
omit [FloatOps F] in
/-- A scratch buffer of the tile, as its whole memref addresses it. -/
theorem pts_scr (b : Ref sig .scVector) (g : Buf (Elt F) (d, bref L b)) :
    (((d, bref L b) : Loc nD τ sig) ↦{fullShare} g : sProp 𝕄) = ((Memref.whole b).view.loc (thr d L) ↦{fullShare} g) := rfl
omit [FloatOps F] in
theorem pts_ids (q : PosShare TreeShare) (f : Buf (Elt F) (idsLoc d)) :
    ((idsLoc d ↦{q} f) : sProp 𝕄) = (idsV.view.loc (thr d L) ↦{q} f) := rfl
omit [FloatOps F] in
theorem pts_tt (q : PosShare TreeShare) (f : Buf (Elt F) (ttLoc d)) :
    ((ttLoc d ↦{q} f) : sProp 𝕄) = (ttV.view.loc (thr d L) ↦{q} f) := rfl
omit [FloatOps F] in
theorem pts_tail (q : PosShare TreeShare) (f : Buf (Elt F) (tailLoc d)) :
    ((tailLoc d ↦{q} f) : sProp 𝕄) = (tailV.view.loc (thr d L) ↦{q} f) := rfl
omit [FloatOps F] in
theorem pts_out (f : Buf (Elt F) (outLoc d)) :
    ((outLoc d ↦[outSet L]{fullShare} f) : sProp 𝕄) = ((outBlk L).view.loc (thr d L) ↦[(outBlk L).view.set]{fullShare} f) := rfl
end Respell

end Cert.Proof.Block3

end
-- ==== Proof.BlockTripC3.lean ====
/-
  One trip of the block-gather loop in its second use (over the fourth table), as pure facts about the vectors it computes.

  A trip handles one index word `w` and one output column `k`. It reads 16 lanes twice — rows `0 … 15` and rows
  `16 … 31` — from the fetched 128-column block at lane `w mod 128`, and from the flattened tail at entry
  `(row) + 32 · min (w − 999936) 63` (clamped, so always in range), keeps the tail's value when `w`, read signed, is at
  least 999936 and the block's otherwise, and stores the 16 values at rows `0 … 15`, then `16 … 31`, of column `k`.
  So the row vectors are `lane` and `lane + 16`, the column vectors are splats, every index is in range, the two stores
  name distinct elements, and after them column `k` holds the looked-up value at every row and the other columns are
  unchanged.
-/
import proofs.«204991_g57140244906297_cont_9to1_m_249_19_alg».proof.Proof.BlockDefs
import proofs.«204991_g57140244906297_cont_9to1_m_249_19_alg».proof.Proof.BlockDefs3
import proofs.«204991_g57140244906297_cont_9to1_m_249_19_alg».proof.Proof.BlockArith
import proofs.«204991_g57140244906297_cont_9to1_m_249_19_alg».proof.Proof.BlockStoreIdx
import proofs.«204991_g57140244906297_cont_9to1_m_249_19_alg».proof.Proof.BlockTrip
import proofs.«204991_g57140244906297_cont_9to1_m_249_19_alg».proof.Proof.Gen.KernelIdeal.Skeleton

noncomputable section

namespace Cert.Proof.Block3

open Cert.KernelIdeal Cert.KernelIdeal.Gen
open Cert.Proof.Block
open Idealize.ShloMosaic Idealize.ShloMosaic.ValueIdx

variable {F : FTy → Type} [FloatOps F]

/-! ## The index vectors at a lane -/

/-- The first row vector at a lane is the lane's number. -/
theorem pay4_toNat (x : S16.Idx) : (k3_pay4 x).toNat = (x 0).val := by
  show (BitVec.ofNat 32 (0 * 16 + (x 0).val) + 0#32).toNat = (x 0).val
  have h := lane_lt x
  rw [BitVec.toNat_add, BitVec.toNat_ofNat]
  have h0 : (0#32 : BitVec 32).toNat = 0 := rfl
  rw [h0]
  omega

/-- The second row vector at a lane is the lane's number plus 16. -/
theorem pay9_toNat (x : S16.Idx) : (k3_pay9 x).toNat = (x 0).val + 16 := by
  show (BitVec.ofNat 32 (0 * 16 + (x 0).val) + 16#32).toNat = (x 0).val + 16
  have h := lane_lt x
  rw [BitVec.toNat_add, BitVec.toNat_ofNat]
  have h0 : (16#32 : BitVec 32).toNat = 16 := rfl
  rw [h0]
  omega

/-- The column vectors are splats of their word. -/
theorem pay5_apply (v : BitVec 32) (x : S16.Idx) : k3_pay5 v x = v := by
  show (0#32 : BitVec 32) + v = v
  exact BitVec.zero_add v
theorem pay10_apply (v : BitVec 32) (x : S16.Idx) : k3_pay10 v x = v := by
  show (0#32 : BitVec 32) + v = v
  exact BitVec.zero_add v
theorem pay8_apply (v : BitVec 32) (x : S16.Idx) : k3_pay8 v x = v := by
  show (0#32 : BitVec 32) + v = v
  exact BitVec.zero_add v
theorem pay13_apply (v : BitVec 32) (x : S16.Idx) : k3_pay13 v x = v := by
  show (0#32 : BitVec 32) + v = v
  exact BitVec.zero_add v

/-- The tail index vectors at a lane: the row plus the tail offset of the word. -/
theorem pay6_toNat (w : BitVec 32) (x : S16.Idx) : (k3_pay6 w k3_pay4 x).toNat = (x 0).val + (tailOff w).toNat := by
  show (k3_pay4 x + tailOff w).toNat = _
  have h := lane_lt x
  have ht := (tailOff_spec w).1
  rw [BitVec.toNat_add, pay4_toNat]
  omega
theorem pay11_toNat (w : BitVec 32) (x : S16.Idx) : (k3_pay11 w k3_pay9 x).toNat = (x 0).val + 16 + (tailOff w).toNat := by
  show (k3_pay9 x + tailOff w).toNat = _
  have h := lane_lt x
  have ht := (tailOff_spec w).1
  rw [BitVec.toNat_add, pay9_toNat]
  omega

/-! ## Every index is in range -/

theorem ring_ok0 (w : BitVec 32) :
    ∀ a x, ((![k3_pay4, k3_pay5 (Scalar.andi w 127#32)] : Fin 2 → IVec S16 32) a x).toNat < S32x128.size a := by
  intro a x
  match a with
  | ⟨0, _⟩ =>
    show (k3_pay4 x).toNat < 32
    rw [pay4_toNat]; have := lane_lt x; omega
  | ⟨1, _⟩ =>
    show (k3_pay5 (Scalar.andi w 127#32) x).toNat < 128
    rw [pay5_apply, lane_toNat]; exact Nat.mod_lt _ (by decide)

theorem ring_ok1 (w : BitVec 32) :
    ∀ a x, ((![k3_pay9, k3_pay10 (Scalar.andi w 127#32)] : Fin 2 → IVec S16 32) a x).toNat < S32x128.size a := by
  intro a x
  match a with
  | ⟨0, _⟩ =>
    show (k3_pay9 x).toNat < 32
    rw [pay9_toNat]; have := lane_lt x; omega
  | ⟨1, _⟩ =>
    show (k3_pay10 (Scalar.andi w 127#32) x).toNat < 128
    rw [pay10_apply, lane_toNat]; exact Nat.mod_lt _ (by decide)

theorem tail_ok0 (w : BitVec 32) :
    ∀ a x, ((![k3_pay6 w k3_pay4] : Fin 1 → IVec S16 32) a x).toNat < S2048.size a := by
  intro a x
  match a with
  | ⟨0, _⟩ =>
    show (k3_pay6 w k3_pay4 x).toNat < 2048
    rw [pay6_toNat]; have := lane_lt x; have := (tailOff_spec w).1; omega

theorem tail_ok1 (w : BitVec 32) :
    ∀ a x, ((![k3_pay11 w k3_pay9] : Fin 1 → IVec S16 32) a x).toNat < S2048.size a := by
  intro a x
  match a with
  | ⟨0, _⟩ =>
    show (k3_pay11 w k3_pay9 x).toNat < 2048
    rw [pay11_toNat]; have := lane_lt x; have := (tailOff_spec w).1; omega

theorem cols_ok0 (v77 : BitVec 32) (hv : v77.toNat < 512) :
    ∀ a x, ((![k3_pay4, k3_pay8 v77] : Fin 2 → IVec S16 32) a x).toNat < S32x512.size a := by
  intro a x
  match a with
  | ⟨0, _⟩ =>
    show (k3_pay4 x).toNat < 32
    rw [pay4_toNat]; have := lane_lt x; omega
  | ⟨1, _⟩ =>
    show (k3_pay8 v77 x).toNat < 512
    rw [pay8_apply]; exact hv

theorem cols_ok1 (v77 : BitVec 32) (hv : v77.toNat < 512) :
    ∀ a x, ((![k3_pay9, k3_pay13 v77] : Fin 2 → IVec S16 32) a x).toNat < S32x512.size a := by
  intro a x
  match a with
  | ⟨0, _⟩ =>
    show (k3_pay9 x).toNat < 32
    rw [pay9_toNat]; have := lane_lt x; omega
  | ⟨1, _⟩ =>
    show (k3_pay13 v77 x).toNat < 512
    rw [pay13_apply]; exact hv

end Cert.Proof.Block3

end
-- ==== Proof.BlockTripValueC3.lean ====
/-
  One trip of the block-gather loop in its second use (over the fourth table): what its two indexed stores leave in the staging block.

  An unmasked indexed store of 16 lanes whose row vector is `lane + off` and whose column vector is the splat of `k`
  names the 16 distinct elements `(off + lane, k)`: afterwards element `(r, n)` holds lane `r − off` of the stored
  vector when `n = k` and `off ≤ r < off + 16`, and what it held before otherwise. The stored vectors are, lane by lane,
  the tail's entry when the word, read signed, is at least 999936, and the fetched block's entry at the word's lane
  otherwise — the block holding columns `128 · min (w / 128) 7811 …` of the transposed table. Two such stores, rows
  `0 … 15` then `16 … 31`, leave column `k` at the looked-up value at every row and every other column unchanged.
-/
import proofs.«204991_g57140244906297_cont_9to1_m_249_19_alg».proof.Proof.BlockTripC3
import proofs.«204991_g57140244906297_cont_9to1_m_249_19_alg».proof.Proof.BlockTripValue

noncomputable section

namespace Cert.Proof.Block3

open Cert.KernelIdeal Cert.KernelIdeal.Gen
open Cert.Proof.Block
open Idealize.ShloMosaic Idealize.ShloMosaic.ValueIdx

variable {F : FTy → Type} [FloatOps F]

/-- The selected vector at a lane: the tail's when the word, read signed, is at least 999936, else the block's. -/
theorem pay7_apply (w : BitVec 32) (a b : Vec F S16 .f32) (x : S16.Idx) :
    k3_pay7 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

theorem pay12_apply (w : BitVec 32) (a b : Vec F S16 .f32) (x : S16.Idx) :
    k3_pay12 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

/-- After the trip's two stores: column `k` holds the looked-up value at every row, the other columns are unchanged. -/
theorem trip_value (tt : S32x1000000.Idx → Elt F .f32) (ft : S2048.Idx → Elt F .f32) (fc : S32x512.Idx → Elt F .f32)
    (R : S32x128.Idx → Elt F .f32) (w v77 : BitVec 32) (k : ℕ) (hk : k < 512) (hv : v77.toNat = k)
    (hR : ∀ (r : Fin 32) (l : Fin 128), R (ix2 r l) = tt (ix2 r ⟨(blkOff w).toNat + l.val, blkCol_lt w l⟩))
    (h1 : ∀ a x, ((![k3_pay4, k3_pay5 (Scalar.andi w 127#32)] : Fin 2 → IVec S16 32) a x).toNat < S32x128.size a)
    (h2 : ∀ a x, ((![k3_pay6 w k3_pay4] : Fin 1 → IVec S16 32) a x).toNat < S2048.size a)
    (h3 : ∀ a x, ((![k3_pay4, k3_pay8 v77] : Fin 2 → IVec S16 32) a x).toNat < S32x512.size a)
    (h4 : ∀ a x, ((![k3_pay9, k3_pay10 (Scalar.andi w 127#32)] : Fin 2 → IVec S16 32) a x).toNat < S32x128.size a)
    (h5 : ∀ a x, ((![k3_pay11 w k3_pay9] : Fin 1 → IVec S16 32) a x).toNat < S2048.size a)
    (h6 : ∀ a x, ((![k3_pay9, k3_pay13 v77] : Fin 2 → IVec S16 32) a x).toNat < S32x512.size a) :
    ∀ (r : Fin 32) (n : Fin 512),
      storeIdx (storeIdx fc (![k3_pay4, k3_pay8 v77] : Fin 2 → IVec S16 32)
          (k3_pay7 (F := F) w (loadIdx (F := F) R (![k3_pay4, k3_pay5 (Scalar.andi w 127#32)] : Fin 2 → IVec S16 32) h1) (loadIdx (F := F) ft (![k3_pay6 w k3_pay4] : Fin 1 → IVec S16 32) h2)) (fun _ => 1#1) false h3)
        (![k3_pay9, k3_pay13 v77] : Fin 2 → IVec S16 32)
        (k3_pay12 (F := F) w (loadIdx (F := F) R (![k3_pay9, k3_pay10 (Scalar.andi w 127#32)] : Fin 2 → IVec S16 32) h4) (loadIdx (F := F) ft (![k3_pay11 w k3_pay9] : Fin 1 → IVec S16 32) h5)) (fun _ => 1#1) false h6 (ix2 r n)
      = if n.val = k then (if (999936 : ℤ) ≤ w.toInt then ft (ix1 ⟨tailAt w r, tailAt_lt w r⟩) else tt (ix2 r ⟨colAt w, colAt_lt w⟩))
        else fc (ix2 r n) := by
  intro r n
  have hq0 : ∀ x, (k3_pay8 v77 x).toNat = k := fun x => by rw [pay8_apply, hv]
  have hq1 : ∀ x, (k3_pay13 v77 x).toNat = k := fun x => by rw [pay13_apply, hv]
  have hp0 : ∀ x : S16.Idx, (k3_pay4 x).toNat = (x 0).val + 0 := fun x => (pay4_toNat x).trans (Nat.add_zero _).symm
  rw [colStore _ k3_pay9 (k3_pay13 v77) _ h6 16 k pay9_toNat hq1 r n,
    colStore fc k3_pay4 (k3_pay8 v77) _ h3 0 k hp0 hq0 r n]
  by_cases hn : n.val = k
  · rw [if_pos hn]
    by_cases hr : r.val < 16
    · rw [dif_neg (fun hc => by omega), dif_pos ⟨hn, Nat.zero_le _, by omega⟩, pay7_apply]
      by_cases hge : (999936 : ℤ) ≤ w.toInt
      · rw [if_pos hge, if_pos hge]
        exact load_tail ft w (k3_pay6 w k3_pay4) h2 _ r (by rw [pay6_toNat]; rfl) hge
      · rw [if_neg hge, if_neg hge]
        exact load_ring tt R w hR k3_pay4 (k3_pay5 (Scalar.andi w 127#32)) h1 _ r (by rw [pay4_toNat]; rfl) (pay5_apply _ _)
    · rw [dif_pos ⟨hn, by omega, by have := r.isLt; omega⟩, pay12_apply]
      by_cases hge : (999936 : ℤ) ≤ w.toInt
      · rw [if_pos hge, if_pos hge]
        exact load_tail ft w (k3_pay11 w k3_pay9) h5 _ r
          (by rw [pay11_toNat]; show (r.val - 16) + 16 + _ = r.val + _; omega) hge
      · rw [if_neg hge, if_neg hge]
        exact load_ring tt R w hR k3_pay9 (k3_pay10 (Scalar.andi w 127#32)) h4 _ r
          (by rw [pay9_toNat]; show (r.val - 16) + 16 = r.val; omega) (pay10_apply _ _)
  · rw [if_neg hn, dif_neg (fun hc => hn hc.1), dif_neg (fun hc => hn hc.1)]

end Cert.Proof.Block3

end
-- ==== Proof.BlockEnds2C3.lean ====
/-
  What the block-gather task's two table copies carry, in its second use (over the fourth table).

  The copy of one 128-column block of the transposed table, all 32 rows from column `blkOff w`, carries at `(r, l)` the
  table's entry `(r, blkOff w + l)`. The copy of the whole flattened tail over the whole tail scratch leaves the tail
  there, whatever the scratch held.
-/
import proofs.«204991_g57140244906297_cont_9to1_m_249_19_alg».proof.Proof.BlockTripValueC3
import proofs.«204991_g57140244906297_cont_9to1_m_249_19_alg».proof.Proof.BlockEnds2
import Idealize.ShloMosaic.Lib.Writes

noncomputable section

namespace Cert.Proof.Block3

open Cert.KernelIdeal Cert.KernelIdeal.Gen
open Cert.Proof.Block
open Idealize.ShloMosaic Idealize.ShloMosaic.ValueIdx

variable {F : FTy → Type} [FloatOps F]

/-- What the copied block holds at `(r, l)`: the transposed table at `(r, blkOff w + l)`. -/
theorem blkPay_apply (tt : S32x1000000.Idx → Elt F .f32) (w : BitVec 32)
    (h : ∀ a, (![0, (blkOff w).toNat] : Fin 2 → ℕ) a + S32x128.size a ≤ S32x1000000.size a) (r : Fin 32) (l : Fin 128) :
    (ReadAs.same : ReadAs (Elt F) S32x128 .f32 S32x128 .f32).apply
        ((ttV.slice (Rect.unit (s := S32x1000000) ![0, (blkOff w).toNat] S32x128.size h) (fun _ => rfl)).view.read (Elt F) tt) (ix2 r l)
      = tt (ix2 r ⟨(blkOff w).toNat + l.val, blkCol_lt w l⟩) := by
  show View.read (Elt F) (ttV.slice (Rect.unit (s := S32x1000000) ![0, (blkOff w).toNat] S32x128.size h) (fun _ => rfl)).view tt (ix2 r l) = _
  rw [View.read_apply]
  refine (eq_of_heq (cast_heq _ _)).trans (congrArg tt (funext fun a => ?_))
  match a with
  | ⟨0, _⟩ =>
    refine Fin.ext ?_
    show 0 + 1 * r.val = r.val
    omega
  | ⟨1, _⟩ =>
    refine Fin.ext ?_
    show (blkOff w).toNat + 1 * l.val = (blkOff w).toNat + l.val
    omega

/-- The whole tail copied over the whole tail scratch leaves the tail there. -/
theorem tail_copy (g9 tail : S2048.Idx → Elt F .f32) :
    View.write (Elt F) (Memref.whole cc3_scratch9 : Memref sig .scVector .vmem S2048 .f32).view g9
        ((ReadAs.same : ReadAs (Elt F) S2048 .f32 S2048 .f32).apply (tailV.view.read (Elt F) tail)) Finset.univ = tail :=
  (View.write_whole_univ cc3_scratch9 g9 _).trans (View.read_whole main_v10_scv tail)

end Cert.Proof.Block3

end
-- ==== Proof.BlockTrip0C3.lean ====
/-
  One trip of the block-gather loop, in the kernel's second use, whose number is 0 mod 8: it serves slot 0. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq0 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip0 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 0) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c1 : k3_cond1 k = 1#1 := o0.mpr hres
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 0 k.val hres hk, slotAt_succ_self m d L q fs _ _ 0 k.val hres,
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c2 : k3_cond2 k = 1#1 := e0.mpr hlast
    rw [if_pos hlast, wAt_off fs (k.val + 8) hlast (k3_off11 k) (k3_off11_inb k c1 c2) (k3_off11_eq k)]
    unfold slot
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch1) (LoadRect.whole S32x128) f = f :=
        fun f => Memref.readAt_whole (Elt F) cc3_scratch1 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch1) g P Finset.univ = P :=
        fun g P => View.write_whole_univ cc3_scratch1 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HF Hrest]
    · isplitl [HF]; · iexists _; iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c2 : ¬ k3_cond2 k = 1#1 := fun h => hlast (e0.mp h)
    rw [if_neg hlast]; unfold slot slotIdle
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch1) (LoadRect.whole S32x128) f = f :=
        fun f => Memref.readAt_whole (Elt F) cc3_scratch1 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch1) g P Finset.univ = P :=
        fun g P => View.write_whole_univ cc3_scratch1 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HF_dst HF Hrest]
    · isplitl [HF_dst]; · iexists _; iexact HF_dst
      isplitl [HF]; · iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3

end
-- ==== Proof.BlockTrip1C3.lean ====
/-
  One trip of the block-gather loop, in the kernel's second use, whose number is 1 mod 8: it serves slot 1. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq1 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip1 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 1) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c3 : k3_cond3 k = 1#1 := o1.mpr hres
  have c1 : ¬ k3_cond1 k = 1#1 := fun h => by have := o0.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 1 k.val hres hk, slotAt_succ_self m d L q fs _ _ 1 k.val hres,
    slotAt_succ_other m d L q fs _ _ 0 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c4 : k3_cond4 k = 1#1 := e1.mpr hlast
    rw [if_pos hlast, wAt_off fs (k.val + 8) hlast (k3_off13 k) (k3_off13_inb k c3 c4) (k3_off13_eq k)]
    unfold slot
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch2) (LoadRect.whole S32x128) f = f :=
        fun f => Memref.readAt_whole (Elt F) cc3_scratch2 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch2) g P Finset.univ = P :=
        fun g P => View.write_whole_univ cc3_scratch2 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HF Hrest]
    · isplitl [HF]; · iexists _; iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c4 : ¬ k3_cond4 k = 1#1 := fun h => hlast (e1.mp h)
    rw [if_neg hlast]; unfold slot slotIdle
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch2) (LoadRect.whole S32x128) f = f :=
        fun f => Memref.readAt_whole (Elt F) cc3_scratch2 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch2) g P Finset.univ = P :=
        fun g P => View.write_whole_univ cc3_scratch2 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HF_dst HF Hrest]
    · isplitl [HF_dst]; · iexists _; iexact HF_dst
      isplitl [HF]; · iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3

end
-- ==== Proof.BlockTrip2C3.lean ====
/-
  One trip of the block-gather loop, in the kernel's second use, whose number is 2 mod 8: it serves slot 2. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq2 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip2 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 2) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c5 : k3_cond5 k = 1#1 := o2.mpr hres
  have c1 : ¬ k3_cond1 k = 1#1 := fun h => by have := o0.mp h; omega
  have c3 : ¬ k3_cond3 k = 1#1 := fun h => by have := o1.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 2 k.val hres hk, slotAt_succ_self m d L q fs _ _ 2 k.val hres,
    slotAt_succ_other m d L q fs _ _ 0 k.val (by omega) (by omega),
    slotAt_succ_other m d L q fs _ _ 1 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c6 : k3_cond6 k = 1#1 := e2.mpr hlast
    rw [if_pos hlast, wAt_off fs (k.val + 8) hlast (k3_off15 k) (k3_off15_inb k c5 c6) (k3_off15_eq k)]
    unfold slot
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch3) (LoadRect.whole S32x128) f = f :=
        fun f => Memref.readAt_whole (Elt F) cc3_scratch3 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch3) g P Finset.univ = P :=
        fun g P => View.write_whole_univ cc3_scratch3 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HF Hrest]
    · isplitl [HF]; · iexists _; iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c6 : ¬ k3_cond6 k = 1#1 := fun h => hlast (e2.mp h)
    rw [if_neg hlast]; unfold slot slotIdle
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch3) (LoadRect.whole S32x128) f = f :=
        fun f => Memref.readAt_whole (Elt F) cc3_scratch3 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch3) g P Finset.univ = P :=
        fun g P => View.write_whole_univ cc3_scratch3 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HF_dst HF Hrest]
    · isplitl [HF_dst]; · iexists _; iexact HF_dst
      isplitl [HF]; · iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3

end
-- ==== Proof.BlockTrip3C3.lean ====
/-
  One trip of the block-gather loop, in the kernel's second use, whose number is 3 mod 8: it serves slot 3. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq3 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip3 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 3) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c7 : k3_cond7 k = 1#1 := o3.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 3 k.val hres hk, slotAt_succ_self m d L q fs _ _ 3 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c8 : k3_cond8 k = 1#1 := e3.mpr hlast
    rw [if_pos hlast, wAt_off fs (k.val + 8) hlast (k3_off17 k) (k3_off17_inb k c7 c8) (k3_off17_eq k)]
    unfold slot
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch4) (LoadRect.whole S32x128) f = f :=
        fun f => Memref.readAt_whole (Elt F) cc3_scratch4 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch4) g P Finset.univ = P :=
        fun g P => View.write_whole_univ cc3_scratch4 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HF Hrest]
    · isplitl [HF]; · iexists _; iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c8 : ¬ k3_cond8 k = 1#1 := fun h => hlast (e3.mp h)
    rw [if_neg hlast]; unfold slot slotIdle
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch4) (LoadRect.whole S32x128) f = f :=
        fun f => Memref.readAt_whole (Elt F) cc3_scratch4 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch4) g P Finset.univ = P :=
        fun g P => View.write_whole_univ cc3_scratch4 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HF_dst HF Hrest]
    · isplitl [HF_dst]; · iexists _; iexact HF_dst
      isplitl [HF]; · iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3

end
-- ==== Proof.BlockTrip4C3.lean ====
/-
  One trip of the block-gather loop, in the kernel's second use, whose number is 4 mod 8: it serves slot 4. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq4 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip4 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 4) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c9 : k3_cond9 k = 1#1 := o4.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 4 k.val hres hk, slotAt_succ_self m d L q fs _ _ 4 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c10 : k3_cond10 k = 1#1 := e4.mpr hlast
    rw [if_pos hlast, wAt_off fs (k.val + 8) hlast (k3_off19 k) (k3_off19_inb k c9 c10) (k3_off19_eq k)]
    unfold slot
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch5) (LoadRect.whole S32x128) f = f :=
        fun f => Memref.readAt_whole (Elt F) cc3_scratch5 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch5) g P Finset.univ = P :=
        fun g P => View.write_whole_univ cc3_scratch5 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF Hrest]
    · isplitl [HF]; · iexists _; iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c10 : ¬ k3_cond10 k = 1#1 := fun h => hlast (e4.mp h)
    rw [if_neg hlast]; unfold slot slotIdle
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch5) (LoadRect.whole S32x128) f = f :=
        fun f => Memref.readAt_whole (Elt F) cc3_scratch5 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch5) g P Finset.univ = P :=
        fun g P => View.write_whole_univ cc3_scratch5 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF_dst HF Hrest]
    · isplitl [HF_dst]; · iexists _; iexact HF_dst
      isplitl [HF]; · iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3

end
-- ==== Proof.BlockTrip5C3.lean ====
/-
  One trip of the block-gather loop, in the kernel's second use, whose number is 5 mod 8: it serves slot 5. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq5 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip5 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 5) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c11 : k3_cond11 k = 1#1 := o5.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c13 : ¬ k3_cond13 k = 1#1 := fun h => by have := o6.mp h; omega
  have c15 : ¬ k3_cond15 k = 1#1 := fun h => by have := o7.mp h; omega
  unfold inv
  rw [slotAt_self m d L q fs _ _ 5 k.val hres hk, slotAt_succ_self m d L q fs _ _ 5 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 6 k.val (by omega) (by omega),
    slotAt_succ_other m d L q fs _ _ 7 k.val (by omega) (by omega)]
  by_cases hlast : k.val + 8 < 512
  · have c12 : k3_cond12 k = 1#1 := e5.mpr hlast
    rw [if_pos hlast, wAt_off fs (k.val + 8) hlast (k3_off21 k) (k3_off21_inb k c11 c12) (k3_off21_eq k)]
    unfold slot
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch6) (LoadRect.whole S32x128) f = f :=
        fun f => Memref.readAt_whole (Elt F) cc3_scratch6 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch6) g P Finset.univ = P :=
        fun g P => View.write_whole_univ cc3_scratch6 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF Hrest]
    · isplitl [HF]; · iexists _; iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c12 : ¬ k3_cond12 k = 1#1 := fun h => hlast (e5.mp h)
    rw [if_neg hlast]; unfold slot slotIdle
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch6) (LoadRect.whole S32x128) f = f :=
        fun f => Memref.readAt_whole (Elt F) cc3_scratch6 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch6) g P Finset.univ = P :=
        fun g P => View.write_whole_univ cc3_scratch6 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF_dst HF Hrest]
    · isplitl [HF_dst]; · iexists _; iexact HF_dst
      isplitl [HF]; · iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3

end
-- ==== Proof.BlockTrip6C3.lean ====
/-
  One trip of the block-gather loop, in the kernel's second use, whose number is 6 mod 8: it serves slot 6. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq6 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip6 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 6) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c13 : k3_cond13 k = 1#1 := o6.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c15 : ¬ k3_cond15 k = 1#1 := fun h => by have := o7.mp h; omega
  unfold inv
  rw [slotAt_self m d L q fs _ _ 6 k.val hres hk, slotAt_succ_self m d L q fs _ _ 6 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 7 k.val (by omega) (by omega)]
  by_cases hlast : k.val + 8 < 512
  · have c14 : k3_cond14 k = 1#1 := e6.mpr hlast
    rw [if_pos hlast, wAt_off fs (k.val + 8) hlast (k3_off23 k) (k3_off23_inb k c13 c14) (k3_off23_eq k)]
    unfold slot
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch7) (LoadRect.whole S32x128) f = f :=
        fun f => Memref.readAt_whole (Elt F) cc3_scratch7 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch7) g P Finset.univ = P :=
        fun g P => View.write_whole_univ cc3_scratch7 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF Hrest]
    · isplitl [HF]; · iexists _; iexact HF
      iexact Hrest
    isplitl [HS7]; · iexact HS7
    iexists _; isplitr
    swap
    · iexact HO
    · ipureintro; intro p hp
      rcases Finset.mem_insert.mp hp with hp | hp
      · right; rw [hp]; rfl
      · exact hW' p hp
  · have c14 : ¬ k3_cond14 k = 1#1 := fun h => hlast (e6.mp h)
    rw [if_neg hlast]; unfold slot slotIdle
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch7) (LoadRect.whole S32x128) f = f :=
        fun f => Memref.readAt_whole (Elt F) cc3_scratch7 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch7) g P Finset.univ = P :=
        fun g P => View.write_whole_univ cc3_scratch7 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF_dst HF Hrest]
    · isplitl [HF_dst]; · iexists _; iexact HF_dst
      isplitl [HF]; · iexact HF
      iexact Hrest
    isplitl [HS7]; · iexact HS7
    iexists _; isplitr
    swap
    · iexact HO
    · ipureintro; intro p hp
      rcases Finset.mem_insert.mp hp with hp | hp
      · right; rw [hp]; rfl
      · exact hW' p hp

end Cert.Proof.Block3

end
-- ==== Proof.BlockTrip7C3.lean ====
/-
  One trip of the block-gather loop, in the kernel's second use, whose number is 7 mod 8: it serves slot 7. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3
import proofs.«204991_g57140244906297_cont_9to1_m_249_19_alg».proof.Proof.BlockTripValueC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq7 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip7 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 7) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c15 : k3_cond15 k = 1#1 := o7.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  unfold inv
  rw [slotAt_self m d L q fs _ _ 7 k.val hres hk, slotAt_succ_self m d L q fs _ _ 7 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega)]
  by_cases hlast : k.val + 8 < 512
  · have c16 : k3_cond16 k = 1#1 := e7.mpr hlast
    rw [if_pos hlast, wAt_off fs (k.val + 8) hlast (k3_off25 k) (k3_off25_inb k c15 c16) (k3_off25_eq k)]
    unfold slot
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch8) (LoadRect.whole S32x128) f = f :=
        fun f => Memref.readAt_whole (Elt F) cc3_scratch8 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch8) g P Finset.univ = P :=
        fun g P => View.write_whole_univ cc3_scratch8 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF Hrest]
    · isplitl [HF]; · iexists _; iexact HF
      iexact Hrest
    iexists _; isplitr
    swap
    · iexact HO
    · ipureintro; intro p hp
      rcases Finset.mem_insert.mp hp with hp | hp
      · right; rw [hp]; rfl
      · exact hW' p hp
  · have c16 : ¬ k3_cond16 k = 1#1 := fun h => hlast (e7.mp h)
    rw [if_neg hlast]; unfold slot slotIdle
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch8) (LoadRect.whole S32x128) f = f :=
        fun f => Memref.readAt_whole (Elt F) cc3_scratch8 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch8) g P Finset.univ = P :=
        fun g P => View.write_whole_univ cc3_scratch8 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF_dst HF Hrest]
    · isplitl [HF_dst]; · iexists _; iexact HF_dst
      isplitl [HF]; · iexact HF
      iexact Hrest
    iexists _; isplitr
    swap
    · iexact HO
    · ipureintro; intro p hp
      rcases Finset.mem_insert.mp hp with hp | hp
      · right; rw [hp]; rfl
      · exact hW' p hp

end Cert.Proof.Block3

end
-- ==== Proof.BlockEndsC3.lean ====
/-
  The two ends of the block-gather task in its second use (over the fourth table), as facts about contents.

  The index scratch after the first copy holds, in its first 512 words, the task's 512 index words; a 16-lane load at
  offset `j < 512` therefore has word `j` of the task, which is word `k3_off1 L + j` of the index array, in lane 0.
  The write-out copies the whole staging block over the task's block of the output, columns
  `k3_off27 L … + 511` of all 32 rows: if the staging block holds `g` at those columns, the output holds `g` on the
  task's block afterwards. The index slice and the output block start at the same column, `1024 · (L 1) + 512 · (L 0)`.
-/
import proofs.«204991_g57140244906297_cont_9to1_m_249_19_alg».proof.Proof.BlockDefs
import proofs.«204991_g57140244906297_cont_9to1_m_249_19_alg».proof.Proof.BlockDefs3
import proofs.«204991_g57140244906297_cont_9to1_m_249_19_alg».proof.Proof.BlockEnds
import Idealize.ShloMosaic.Lib.Writes

noncomputable section

namespace Cert.Proof.Block3

open Cert.KernelIdeal Cert.KernelIdeal.Gen
open Cert.Proof.Block
open Idealize.ShloMosaic Idealize.ShloMosaic.ValueIdx

variable {F : FTy → Type} [FloatOps F]

/-- The index slice and the output block of a task start at the same column. -/
theorem off1_eq_off27 (L : grid3.Coords) : (k3_off1 L) 0 = (k3_off27 L) 1 := by
  rw [k3_off1_eq, k3_off27_eq]
  rfl

/-- The output block of a task starts at row 0. -/
theorem off27_row (L : grid3.Coords) : (k3_off27 L) 0 = 0 := by
  rw [k3_off27_eq]
  rfl

/-- Column `n` of a task's output block lies inside the output. -/
theorem off27_lt (L : grid3.Coords) (n : Fin 512) : (k3_off27 L) 1 + n.val < 16384 := by
  have h : (k3_off27 L) 1 + 512 ≤ 16384 := k3_off27_inb L 1
  have := n.isLt
  omega

/-- After the staging block is written whole over the task's block of the output, that block holds `g` if the staging
    block held `g` at the task's columns. -/
theorem out_value (f0 : S32x16384.Idx → Elt F .f32) (fc : S32x512.Idx → Elt F .f32) (g : S32x16384.Idx → Elt F .f32)
    (L : grid3.Coords)
    (hfc : ∀ (r : Fin 32) (n : Fin 512), fc (ix2 r n) = g (ix2 r ⟨(k3_off27 L) 1 + n.val, off27_lt L n⟩)) :
    ∀ i ∈ (outBlk L).view.set, (outBlk L).view.writes (Elt F) f0 [⟨Rect.whole S32x512, fc⟩] i = g i := by
  intro i hi
  obtain ⟨y, -, rfl⟩ := Finset.mem_map.mp hi
  have h1 := View.read_writes_cons_emb (outBlk L).view f0 (Rect.whole S32x512) fc [] y
  rw [Rect.emb_whole_apply, View.read_apply] at h1
  refine ((eq_of_heq (cast_heq _ _)).symm.trans h1).trans ?_
  obtain ⟨r, n, rfl⟩ : ∃ (r : Fin 32) (n : Fin 512), y = ix2 r n := ⟨y 0, y 1, eq_ix2 y⟩
  rw [hfc]
  refine congrArg g (funext fun a => ?_)
  match a with
  | ⟨0, _⟩ =>
    refine Fin.ext ?_
    show r.val = (k3_off27 L) 0 + 1 * r.val
    rw [off27_row]
    omega
  | ⟨1, _⟩ =>
    refine Fin.ext ?_
    show (k3_off27 L) 1 + n.val = (k3_off27 L) 1 + 1 * n.val
    omega

/-- Word `j` of a task's index slice lies inside the index array. -/
theorem off1_lt (L : grid3.Coords) (j : ℕ) (hj : j < 512) : (k3_off1 L) 0 + j < 16384 := by
  have h : (k3_off1 L) 0 + 512 ≤ 16384 := k3_off1_inb L 0
  omega

/-- After the first copy has put the task's 512 index words at the head of the index scratch, lane 0 of a 16-lane
    load of the scratch at offset `j < 512` is word `k3_off1 L + j` of the index array. -/
theorem sidx_word (g0 : S528.Idx → Elt F .i32) (ids : S16384.Idx → Elt F .i32) (L : grid3.Coords) (j : ℕ) (hj : j < 512)
    (off : Fin 1 → ℕ) (h : ∀ a, off a + S16.size a ≤ S528.size a) (e : off = ![j]) :
    extractAt ![0] (extractStridedSlice (s := S16) S1 ![0]
      (((Memref.whole cc3_scratch0 : Memref sig .scVector .vmem S528 .i32).view.readAt (Elt F)
          (Rect.unit (s := S528) off S16.size h).toLoadRect
          ((Memref.whole cc3_scratch0 : Memref sig .scVector .vmem S528 .i32).view.writes (Elt F) g0
            [⟨Rect.unit (s := S528) ![0] S512.size inb_S528_S512_0,
              (ReadAs.same : ReadAs (Elt F) S512 .i32 S512 .i32).apply
                ((idsV.slice (Rect.unit (s := S16384) (k3_off1 L) S512.size (k3_off1_inb L)) (fun _ => rfl)).view.read (Elt F) ids)⟩]) :
        Vec F S16 .i32))
      slices_S16_o0_S1) inpos_S1_p0
    = ids (ix1 ⟨(k3_off1 L) 0 + j, off1_lt L j hj⟩) := by
  subst e
  refine (lane0_eq _).trans ?_
  have hidx : (Rect.unit (s := S528) ![j] S16.size h).toLoadRect.idx (ix1 (0 : Fin 16))
      = (Rect.unit (s := S528) ![0] S512.size inb_S528_S512_0).emb (ix1 (⟨j, hj⟩ : Fin 512)) := by
    funext a
    match a with
    | ⟨0, _⟩ =>
      refine Fin.ext ?_
      show j + 1 * 0 = 0 + 1 * j
      omega
  show View.read (Elt F) _ _ ((Rect.unit (s := S528) ![j] S16.size h).toLoadRect.idx (ix1 (0 : Fin 16))) = _
  rw [hidx, View.read_writes_cons_emb]
  show View.read (Elt F) (idsV.slice (Rect.unit (s := S16384) (k3_off1 L) S512.size (k3_off1_inb L)) (fun _ => rfl)).view ids
    (ix1 (⟨j, hj⟩ : Fin 512)) = _
  rw [View.read_apply]
  refine (eq_of_heq (cast_heq _ _)).trans (congrArg ids (funext fun a => ?_))
  match a with
  | ⟨0, _⟩ =>
    refine Fin.ext ?_
    show (k3_off1 L) 0 + 1 * j = (k3_off1 L) 0 + j
    omega

end Cert.Proof.Block3

end
-- ==== Proof.BlockBodyC3.lean ====
/-
  (The kernel's second use: the ring's read tokens are numbered after the ring's semaphores, 19 … 26, so the table's
  share is cut into 27 tokens of which the first 19 are carried through untouched.)

  The task of one vector subcore in the block-gather kernel, as a weakest-precondition entailment over explicit
  resources: the three operand arrays at a read share, the task's block of the output, the subcore's scratch and
  semaphores. The task copies its 512 index words and the tail, starts the ring's eight copies from eight read tokens
  of the table, runs the 512 trips by the loop's invariant, and writes the columns out; it ends holding what it was
  handed, its block of the output rewritten to `E` of the operands.
-/
import proofs.«204991_g57140244906297_cont_9to1_m_249_19_alg».proof.Proof.BlockInvC3
import proofs.«204991_g57140244906297_cont_9to1_m_249_19_alg».proof.Proof.BlockTrip0C3
import proofs.«204991_g57140244906297_cont_9to1_m_249_19_alg».proof.Proof.BlockTrip1C3
import proofs.«204991_g57140244906297_cont_9to1_m_249_19_alg».proof.Proof.BlockTrip2C3
import proofs.«204991_g57140244906297_cont_9to1_m_249_19_alg».proof.Proof.BlockTrip3C3
import proofs.«204991_g57140244906297_cont_9to1_m_249_19_alg».proof.Proof.BlockTrip4C3
import proofs.«204991_g57140244906297_cont_9to1_m_249_19_alg».proof.Proof.BlockTrip5C3
import proofs.«204991_g57140244906297_cont_9to1_m_249_19_alg».proof.Proof.BlockTrip6C3
import proofs.«204991_g57140244906297_cont_9to1_m_249_19_alg».proof.Proof.BlockTrip7C3
import proofs.«204991_g57140244906297_cont_9to1_m_249_19_alg».proof.Proof.BlockEndsC3
import proofs.«204991_g57140244906297_cont_9to1_m_249_19_alg».proof.Proof.BlockEnds2C3
import proofs.«204991_g57140244906297_cont_9to1_m_249_19_alg».proof.Proof.Gen.KernelIdeal.Skeleton

noncomputable section

namespace Cert.Proof.Block3

open Cert.KernelIdeal Cert.KernelIdeal.Gen
open Cert.Proof.Block
open Cert.Proof.KernelIdealC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

set_option maxHeartbeats 16000000 in
theorem body (m : (ℓ : Loc nD τ sig) → Buf (Elt F) ℓ) (d : Dev nD) (L : grid3.Coords)
    (O : CellTallies nD τ sig (HIx 4)) (W : Waits sig (HIx 4)) (hO : ∀ g, O g none = 0)
    (f0 : Buf (Elt F) (outLoc d)) (q : PosShare TreeShare) :
    iprop(levAts (K (F := F)).L (K (F := F)).lev
        ∗ ((idsLoc d ↦{q} m (idsLoc d)) ∗ (ttLoc d ↦{q} m (ttLoc d)) ∗ (tailLoc d ↦{q} m (tailLoc d)))
        ∗ (outLoc d ↦[outSet L]{fullShare} f0)
        ∗ scopedBufs (thr d L) ∗ scopedSems0 (thr d L) ∗ owes (thr d L) O W)
      ⊢ (wp frame (wpE (defs₀ (F := F)) 𝒱₀ (thr d L) none) Set.univ
          (cc3_block_gather L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(((idsLoc d ↦{q} m (idsLoc d)) ∗ (ttLoc d ↦{q} m (ttLoc d)) ∗ (tailLoc d ↦{q} m (tailLoc d)))
            ∗ (outLoc d ↦[outSet L]{fullShare} E (m (idsLoc d)) (m (ttLoc d)) (m (tailLoc d)))
            ∗ scopedBufs (thr d L) ∗ scopedSems0 (thr d L)
            ∗ ∃ W', ⌜∀ p ∈ W', p ∈ W ∨ p.2 = none⌝ ∗ owes (thr d L) O W') : sProp 𝕄) := by
  simp only [cc3_block_gather_eq_skeleton]; unfold cc3_block_gather_skel
  rw [(K (F := F)).scopedBufs_V facts d (cV L) (jV L), SparseCore.Cfg.scopedSems0_V (Val := Elt F) d (cV L) (jV L),
    ownSems0_open, ownBufs_open]
  simp only [semList, bufList, List.map, List.foldr]
  iintro ⟨#Hlv, ⟨Hids, Htt, Htail⟩, Hout, ⟨⟨%g0, Hb0⟩, ⟨%g1, Hb1⟩, ⟨%g2, Hb2⟩, ⟨%g3, Hb3⟩, ⟨%g4, Hb4⟩, ⟨%g5, Hb5⟩, ⟨%g6, Hb6⟩,
    ⟨%g7, Hb7⟩, ⟨%g8, Hb8⟩, ⟨%g9, Hb9⟩, ⟨%g10, Hb10⟩, Hbrest⟩,
    ⟨Hs11, Hs12, Hs13, Hs14, Hs15, Hs16, Hs17, Hs18, Hs19, Hsc0, Hsc1, Hsrest⟩, HO⟩
  ihave Hmw := ((K (F := F)).mayWaits_none (thr := thr d L) hO) $$ Hlv
  ihave Hids := (Entails.of_eq (pts_ids (F := F) d L q _)) $$ Hids
  ihave Htt := (Entails.of_eq (pts_tt (F := F) d L q _)) $$ Htt
  ihave Htail := (Entails.of_eq (pts_tail (F := F) d L q _)) $$ Htail
  ihave Hout := (Entails.of_eq (pts_out (F := F) d L _)) $$ Hout
  ihave Hb0 := (Entails.of_eq (pts_scr (F := F) d L cc3_scratch0 _)) $$ Hb0
  ihave Hb1 := (Entails.of_eq (pts_scr (F := F) d L cc3_scratch1 _)) $$ Hb1
  ihave Hb2 := (Entails.of_eq (pts_scr (F := F) d L cc3_scratch2 _)) $$ Hb2
  ihave Hb3 := (Entails.of_eq (pts_scr (F := F) d L cc3_scratch3 _)) $$ Hb3
  ihave Hb4 := (Entails.of_eq (pts_scr (F := F) d L cc3_scratch4 _)) $$ Hb4
  ihave Hb5 := (Entails.of_eq (pts_scr (F := F) d L cc3_scratch5 _)) $$ Hb5
  ihave Hb6 := (Entails.of_eq (pts_scr (F := F) d L cc3_scratch6 _)) $$ Hb6
  ihave Hb7 := (Entails.of_eq (pts_scr (F := F) d L cc3_scratch7 _)) $$ Hb7
  ihave Hb8 := (Entails.of_eq (pts_scr (F := F) d L cc3_scratch8 _)) $$ Hb8
  ihave Hb9 := (Entails.of_eq (pts_scr (F := F) d L cc3_scratch9 _)) $$ Hb9
  ihave Hb10 := (Entails.of_eq (pts_scr (F := F) d L cc3_scratch10 _)) $$ Hb10
  ihave Htt := (Transfers.pointsTo_toks_range (S := Finset.univ) q 27).1 $$ Htt
  icases Htt with ⟨Httd, Htoks⟩
  ihave Htoks := (Entails.of_eq (bigSep_range27 _)) $$ Htoks
  icases Htoks with ⟨Hu0, Hu1, Hu2, Hu3, Hu4, Hu5, Hu6, Hu7, Hu8, Hu9, Hu10, Hu11, Hu12, Hu13, Hu14, Hu15, Hu16, Hu17, Hu18, Hk0, Hk1, Hk2, Hk3, Hk4, Hk5, Hk6, Hk7, -⟩
  (set_option sl_exec.maxSteps 4 in sl_exec)
  -- the index scratch and the tail as loaded, named
  generalize hfs : ((Memref.whole cc3_scratch0 : Memref sig .scVector .vmem S528 .i32).view.writes (Elt F) g0 _) = fs
  generalize hft : (View.write (Elt F) (Memref.whole cc3_scratch9 : Memref sig .scVector .vmem S2048 .f32).view g9 _ Finset.univ) = ft
  sl_exec (disch := exact blk_ok _)
  sl_for (inv m d L q O W fs ft (colsDone m d fs ft)) $$ [Hmw Hb0 Hb9 Hb10 Hs11 Hk0 Hs12 Hk1 Hs13 Hk2 Hs14 Hk3 Hs15 Hk4 Hs16 Hk5 Hs17 Hk6 Hs18 Hk7 HO]
  case region =>
    intro k u
    rcases (show k.val % 8 = 0 ∨ k.val % 8 = 1 ∨ k.val % 8 = 2 ∨ k.val % 8 = 3 ∨ k.val % 8 = 4 ∨ k.val % 8 = 5 ∨ k.val % 8 = 6 ∨ k.val % 8 = 7 by omega)
      with hres | hres | hres | hres | hres | hres | hres | hres
    · exact trip0 m d L q O W fs ft k u hres
    · exact trip1 m d L q O W fs ft k u hres
    · exact trip2 m d L q O W fs ft k u hres
    · exact trip3 m d L q O W fs ft k u hres
    · exact trip4 m d L q O W fs ft k u hres
    · exact trip5 m d L q O W fs ft k u hres
    · exact trip6 m d L q O W fs ft k u hres
    · exact trip7 m d L q O W fs ft k u hres

  · unfold inv
    isplitr; · iexact Hmw
    isplitl [Hb0]; · iexact Hb0
    isplitl [Hb9]; · iexact Hb9
    isplitl [Hb10]
    · iexists g10; isplitl [Hb10]; · iexact Hb10
      ipureintro; intro r n hn; omega
    isplitl [Hs11 Hk0]
    · iapply (Entails.of_eq (slotAt_zero m d L q fs _ _ 0 (by omega)).symm)
      unfold slot
      isplitl [Hs11]; · iexists g1; iexact Hs11
      iexact Hk0
    isplitl [Hs12 Hk1]
    · iapply (Entails.of_eq (slotAt_zero m d L q fs _ _ 1 (by omega)).symm)
      unfold slot
      isplitl [Hs12]; · iexists g2; iexact Hs12
      iexact Hk1
    isplitl [Hs13 Hk2]
    · iapply (Entails.of_eq (slotAt_zero m d L q fs _ _ 2 (by omega)).symm)
      unfold slot
      isplitl [Hs13]; · iexists g3; iexact Hs13
      iexact Hk2
    isplitl [Hs14 Hk3]
    · iapply (Entails.of_eq (slotAt_zero m d L q fs _ _ 3 (by omega)).symm)
      unfold slot
      isplitl [Hs14]; · iexists g4; iexact Hs14
      iexact Hk3
    isplitl [Hs15 Hk4]
    · iapply (Entails.of_eq (slotAt_zero m d L q fs _ _ 4 (by omega)).symm)
      unfold slot
      isplitl [Hs15]; · iexists g5; iexact Hs15
      iexact Hk4
    isplitl [Hs16 Hk5]
    · iapply (Entails.of_eq (slotAt_zero m d L q fs _ _ 5 (by omega)).symm)
      unfold slot
      isplitl [Hs16]; · iexists g6; iexact Hs16
      iexact Hk5
    isplitl [Hs17 Hk6]
    · iapply (Entails.of_eq (slotAt_zero m d L q fs _ _ 6 (by omega)).symm)
      unfold slot
      isplitl [Hs17]; · iexists g7; iexact Hs17
      iexact Hk6
    isplitl [Hs18 Hk7]
    · iapply (Entails.of_eq (slotAt_zero m d L q fs _ _ 7 (by omega)).symm)
      unfold slot
      isplitl [Hs18]; · iexists g8; iexact Hs18
      iexact Hk7
    iexists _; isplitr
    swap
    · iexact HO
    · ipureintro; intro p hp
      rcases Finset.mem_insert.mp hp with hp | hp
      · right; rw [hp]; rfl
      rcases Finset.mem_insert.mp hp with hp | hp
      · right; rw [hp]; rfl
      · exact .inl hp
  iintro %u HI
  have htrips : Scf.trips k3_t1_loop.lb k3_t1_loop.ub k3_t1_loop.st = 512 := by decide
  ihave HI := (Entails.of_eq ((congrArg (fun n => inv m d L q O W fs ft (colsDone m d fs ft) n u) htrips).trans (inv_end m d L q O W fs ft _ u))) $$ HI
  unfold slotIdle
  icases HI with ⟨-, Hb0, Hb9, ⟨%fc, Hb10, %hfc⟩, ⟨⟨%r1, Hb1⟩, Hs11, Hk0⟩, ⟨⟨%r2, Hb2⟩, Hs12, Hk1⟩, ⟨⟨%r3, Hb3⟩, Hs13, Hk2⟩,
    ⟨⟨%r4, Hb4⟩, Hs14, Hk3⟩, ⟨⟨%r5, Hb5⟩, Hs15, Hk4⟩, ⟨⟨%r6, Hb6⟩, Hs16, Hk5⟩, ⟨⟨%r7, Hb7⟩, Hs17, Hk6⟩, ⟨⟨%r8, Hb8⟩, Hs18, Hk7⟩,
    ⟨%W', %hW', HO⟩⟩
  sl_exec
  sl_step
  isplitl [Hids Httd Hu0 Hu1 Hu2 Hu3 Hu4 Hu5 Hu6 Hu7 Hu8 Hu9 Hu10 Hu11 Hu12 Hu13 Hu14 Hu15 Hu16 Hu17 Hu18 Hk0 Hk1 Hk2 Hk3 Hk4 Hk5 Hk6 Hk7 Htail]
  · isplitl [Hids]; · iexact Hids
    isplitr [Htail]
    · iapply (Transfers.pointsTo_toks_range (S := Finset.univ) q 27).2
      isplitl [Httd]; · iexact Httd
      iapply (Entails.of_eq (bigSep_range27 _).symm)
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      iempintro
    · iexact Htail
  isplitl [Hout]
  · have hfsI : ∀ (j : ℕ) (hj : j < 512), wAt fs j = m (idsLoc d) (ix1 ⟨(k3_off1 L) 0 + j, off1_lt L j hj⟩) := by
      intro j hj
      rw [← hfs]
      unfold wAt
      rw [dif_pos hj]
      exact sidx_word g0 (m (idsLoc d)) L j hj ![j] (off_inb j hj) rfl
    have hftI : ft = m (tailLoc d) := by
      rw [← hft]
      exact tail_copy g9 (m (tailLoc d))
    have hout : ∀ i ∈ (outBlk L).view.set, (outBlk L).view.writes (Elt F) f0 [⟨Rect.whole S32x512, body.sl.dma0_2 fc⟩] i
        = E (m (idsLoc d)) (m (ttLoc d)) (m (tailLoc d)) i := by
      refine out_value f0 fc _ L (fun r n => ?_)
      have hw : wAt fs n.val = m (idsLoc d) (ix1 ⟨(k3_off27 L) 1 + n.val, off27_lt L n⟩) := by
        refine (hfsI n.val n.isLt).trans ?_
        have e : (⟨(k3_off1 L) 0 + n.val, off1_lt L n.val n.isLt⟩ : Fin 16384) = ⟨(k3_off27 L) 1 + n.val, off27_lt L n⟩ :=
          Fin.ext (by show (k3_off1 L) 0 + n.val = (k3_off27 L) 1 + n.val; rw [off1_eq_off27])
        rw [e]
      rw [hfc r n n.isLt, colVal_eq0 m d fs ft r n.val _ hw, hftI]
      rfl
    iapply (Entails.of_eq (pointsTo_congr hout))
    iexact Hout
  isplitl [Hb0 Hb1 Hb2 Hb3 Hb4 Hb5 Hb6 Hb7 Hb8 Hb9 Hb10 Hbrest]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    isplitl [Hb10]; · iexists _; iexact Hb10
    iexact Hbrest
  isplitl [Hs11 Hs12 Hs13 Hs14 Hs15 Hs16 Hs17 Hs18 Hs19 Hsc0 Hsc1 Hsrest]
  · isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hsc0]; · iexact Hsc0
    isplitl [Hsc1]; · iexact Hsc1
    iexact Hsrest
  iexists _; isplitr
  swap
  · iexact HO
  · ipureintro; intro p hp
    rcases Finset.mem_insert.mp hp with hp | hp
    · right; rw [hp]; rfl
    · exact hW' p hp

end Cert.Proof.Block3

end
-- ==== Proof.BodiesI.lean ====
/-
  The four tasks' bodies, gathered: each is the task's own module's theorem.
-/
import proofs.«204991_g57140244906297_cont_9to1_m_249_19_alg».proof.Proof.TileObl0I
import proofs.«204991_g57140244906297_cont_9to1_m_249_19_alg».proof.Proof.TileObl1I
import proofs.«204991_g57140244906297_cont_9to1_m_249_19_alg».proof.Proof.TileObl2I
import proofs.«204991_g57140244906297_cont_9to1_m_249_19_alg».proof.Proof.TileObl3I
import proofs.«204991_g57140244906297_cont_9to1_m_249_19_alg».proof.Proof.PackedBody
import proofs.«204991_g57140244906297_cont_9to1_m_249_19_alg».proof.Proof.BlockBody
import proofs.«204991_g57140244906297_cont_9to1_m_249_19_alg».proof.Proof.PackedBody2
import proofs.«204991_g57140244906297_cont_9to1_m_249_19_alg».proof.Proof.BlockBodyC3

noncomputable section

namespace Cert.Proof.KernelIdealC

open Cert.KernelIdeal Cert.KernelIdeal.Gen
open Idealize.ShloMosaic

variable {F : FTy → Type} [FloatOps F]

theorem body0 : Body0 (F := F) := Block.body
theorem body1 : Body1 (F := F) := Packed.body
theorem body2 : Body2 (F := F) := Packed.body2
theorem body3 : Body3 (F := F) := Block3.body

end Cert.Proof.KernelIdealC

end
-- ==== Proof.BlockOpenB.lean ====
/-
  The subcore's own scratch buffers and semaphores, taken out of the bundles the launch hands a tile: the eleven
  scratch buffers the kernel names and the eleven DMA semaphores, each beside the rest of its bundle.
-/
import proofs.«204991_g57140244906297_cont_9to1_m_249_19_alg».proof.Proof.BlockDefsB

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- A separating conjunction over a finite set with a list of its distinct members taken out in order. -/
theorem bigSep_take {I : Type} [DecidableEq I] {M : Type} [URA M] (Φ : I → sProp M) :
    ∀ (l : List I) (s : Finset I), l.Nodup → (∀ i ∈ l, i ∈ s) →
      bigSep s Φ = l.foldr (fun i R => iprop(Φ i ∗ R)) (bigSep (s \ l.toFinset) Φ)
  | [], s, _, _ => by simp
  | i :: l, s, hnd, hs => by
    have hi : i ∈ s := hs i (List.mem_cons_self)
    have hnd' := (List.nodup_cons.mp hnd)
    have hset : s.erase i \ l.toFinset = s \ (i :: l).toFinset := by
      ext x; simp only [Finset.mem_sdiff, Finset.mem_erase, List.toFinset_cons, Finset.mem_insert, List.mem_toFinset]; tauto
    rw [List.foldr_cons, SparseCore.bigSep_erase' hi, bigSep_take Φ l (s.erase i) hnd'.2 (fun j hj =>
      Finset.mem_erase.mpr ⟨fun e => hnd'.1 (e ▸ hj), hs j (List.mem_cons_of_mem _ hj)⟩), hset]

section Tile

variable (d : Dev nD) (L : grid0.Coords)

/-- The cell of DMA semaphore `k` of the tile. -/
abbrev cell (k : DmaSem sig) : GSem nD τ sig := (thr d L, .dma k)

/-- The eleven DMA semaphores of the kernel: the ring's eight, the tail's, the two scoped ones. -/
def semList : List (DmaSem sig) :=
  [cc0_scratch11.sem, cc0_scratch12.sem, cc0_scratch13.sem, cc0_scratch14.sem, cc0_scratch15.sem, cc0_scratch16.sem,
    cc0_scratch17.sem, cc0_scratch18.sem, cc0_scratch19.sem, cc0_scoped0.sem, cc0_scoped1.sem]

theorem semList_nodup : semList.Nodup := by decide

theorem semList_scoped : ∀ k ∈ semList, (SemLoc.dma k : SemLoc sig).isScoped .scVector = true := by decide

/-- The rest of the tile's scoped cells. -/
def semRest : Finset (GSem nD τ sig) := ownCells (thr d L) \ (semList.map (cell d L)).toFinset

theorem ownSems0_open :
    (ownSems0 (thr d L) : sProp 𝕄)
      = (semList.map (cell d L)).foldr (fun g R => iprop(semVal g 0 ∗ R)) (bigSep (semRest d L) fun g => semVal g 0) := by
  unfold SparseCore.Cfg.ownSems0 semRest
  refine bigSep_take (fun g => (semVal g 0 : sProp 𝕄)) _ _ ?_ ?_
  · refine List.Nodup.map ?_ semList_nodup
    intro a b h; simpa [cell] using h
  · intro g hg
    obtain ⟨k, hk, rfl⟩ := List.mem_map.mp hg
    exact mem_ownCells.mpr ⟨rfl, semList_scoped k hk⟩

/-- The eleven scratch buffers of the kernel: the index scratch, the ring's eight slots, the tail, the columns. -/
def bufList : List (Ref sig .scVector) :=
  [cc0_scratch0, cc0_scratch1, cc0_scratch2, cc0_scratch3, cc0_scratch4, cc0_scratch5, cc0_scratch6, cc0_scratch7,
    cc0_scratch8, cc0_scratch9, cc0_scratch10]

theorem bufList_nodup : bufList.Nodup := by decide

abbrev bref (b : Ref sig .scVector) : DevRef τ sig := (Proc.scVector (cV L) (jV L)).devRef b

def bufRest : Finset (DevRef τ sig) := ownRefs (τ := τ) (.scVector (cV L) (jV L)) \ (bufList.map (bref L)).toFinset

theorem ownBufs_open :
    (ownBufs (thr d L) : sProp 𝕄)
      = (bufList.map (bref L)).foldr (fun b R => iprop((∃ f, ((d, b) : Loc nD τ sig) ↦{fullShare} f) ∗ R))
          (bigSep (bufRest L) fun b => iprop(∃ f, ((d, b) : Loc nD τ sig) ↦{fullShare} f)) := by
  unfold SparseCore.Cfg.ownBufs bufRest
  refine bigSep_take (fun b => (iprop(∃ f, ((d, b) : Loc nD τ sig) ↦{fullShare} f) : sProp 𝕄)) _ _ ?_ ?_
  · exact List.Nodup.map (fun a b h => Proc.devRef_injective (Proc.scVector (cV L) (jV L)) h) bufList_nodup
  · intro b hb
    obtain ⟨r, hr, rfl⟩ := List.mem_map.mp hb
    unfold bufList at hr
    fin_cases hr <;> exact SparseCore.Cfg.mem_ownRefs_of_owner rfl

end Tile

end Cert.Proof.BlockB

end
-- ==== Proof.BlockArithB.lean ====
/-
  The kernel's word arithmetic, once for every 32-bit word: the offset of the 128-column block a word selects
  (its quotient by 128 clamped to 7811, times 128), its lane in the block (the word mod 128), the offset into the
  flattened tail (the word less 999936 clamped to [0, 63], times 32), and the signed comparison that chooses
  between the two.
-/
import Idealize.ShloMosaic.PureOps.Float
import Idealize.ShloMosaic.PureOps.Vector

namespace Cert.Proof.BlockB
open Idealize.ShloMosaic

/-- The block number of word `w`: `w / 128` clamped to 7811, as the kernel computes it. -/
def blkOff (w : BitVec 32) : BitVec 32 := Scalar.muli (Scalar.minsi (Scalar.shrui w 7#32) 7811#32) 128#32

theorem blkOff_toNat (w : BitVec 32) : (blkOff w).toNat = 128 * min (w.toNat / 128) 7811 := by
  unfold blkOff Scalar.muli Scalar.minsi Scalar.shrui IntOp.muli IntOp.minsi IntOp.shrui
  have h7 : (7#32 : BitVec 32).toNat < 32 := by decide
  rw [if_pos h7]
  have hs : (w >>> (7#32 : BitVec 32)).toNat = w.toNat / 128 := by
    rw [BitVec.ushiftRight_eq', BitVec.toNat_ushiftRight]; simp [Nat.shiftRight_eq_div_pow]
  have hlt : w.toNat / 128 < 2 ^ 25 := by have := w.isLt; omega
  by_cases hc : (w >>> (7#32 : BitVec 32)).slt 7811#32
  · rw [if_pos hc]
    have : w.toNat / 128 < 7811 := by
      rw [BitVec.slt_eq_decide, decide_eq_true_eq] at hc
      have h1 : (w >>> (7#32 : BitVec 32)).toInt = (w.toNat / 128 : ℕ) := by
        rw [BitVec.toInt_eq_toNat_of_lt (by rw [hs]; omega), hs]
      rw [h1] at hc
      have h2 : (7811#32 : BitVec 32).toInt = 7811 := by decide
      rw [h2] at hc; omega
    rw [BitVec.toNat_mul, hs]
    have : (128#32 : BitVec 32).toNat = 128 := by decide
    rw [this, Nat.min_eq_left (by omega)]
    omega
  · rw [if_neg hc]
    have : 7811 ≤ w.toNat / 128 := by
      rw [BitVec.slt_eq_decide, decide_eq_true_eq] at hc
      have h1 : (w >>> (7#32 : BitVec 32)).toInt = (w.toNat / 128 : ℕ) := by
        rw [BitVec.toInt_eq_toNat_of_lt (by rw [hs]; omega), hs]
      rw [h1] at hc
      have h2 : (7811#32 : BitVec 32).toInt = 7811 := by decide
      rw [h2] at hc; omega
    rw [Nat.min_eq_right this]
    decide

theorem toInt_cases (x : BitVec 32) :
    (x.toNat < 2147483648 ∧ x.toInt = (x.toNat : ℤ)) ∨ (2147483648 ≤ x.toNat ∧ x.toInt = (x.toNat : ℤ) - 4294967296) := by
  rw [BitVec.toInt_eq_toNat_cond]
  by_cases h : 2 * x.toNat < 2 ^ 32
  · left; rw [if_pos h]; exact ⟨by omega, rfl⟩
  · right; rw [if_neg h]; refine ⟨by omega, ?_⟩; omega

/-- The lane of word `w` in its block. -/
theorem lane_toNat (w : BitVec 32) : (Scalar.andi w 127#32).toNat = w.toNat % 128 := by
  unfold Scalar.andi IntOp.andi
  rw [BitVec.toNat_and]
  have : (127#32 : BitVec 32).toNat = 2 ^ 7 - 1 := by decide
  rw [this, Nat.and_two_pow_sub_one_eq_mod]

/-- The offset into the flattened tail for word `w`: `w − 999936` clamped to `[0, 63]`, times 32. -/
def tailOff (w : BitVec 32) : BitVec 32 :=
  Scalar.muli (Scalar.minsi 63#32 (Scalar.maxsi 0#32 (Scalar.subi w 999936#32))) 32#32

theorem tailOff_spec (w : BitVec 32) :
    (tailOff w).toNat ≤ 2016 ∧ ((999936 : ℤ) ≤ w.toInt → (tailOff w).toNat = 32 * min (w.toNat - 999936) 63) := by
  unfold tailOff Scalar.muli Scalar.minsi Scalar.maxsi Scalar.subi IntOp.muli IntOp.minsi IntOp.maxsi IntOp.subi
  generalize ht : w - 999936#32 = t
  have htn : t.toNat = (4294967296 - 999936 + w.toNat) % 4294967296 := by
    rw [← ht, BitVec.toNat_sub]; rfl
  have h0 : (0#32 : BitVec 32).toInt = 0 := by decide
  have h63 : (63#32 : BitVec 32).toInt = 63 := by decide
  have h32n : (32#32 : BitVec 32).toNat = 32 := by decide
  have hw := w.isLt
  by_cases h1 : t.slt 0#32 = true
  · rw [if_pos h1]
    have h2 : ¬ ((63#32 : BitVec 32).slt 0#32 = true) := by decide
    rw [if_neg h2]
    refine ⟨by decide, fun hge => ?_⟩
    rw [BitVec.slt_eq_decide, decide_eq_true_eq, h0] at h1
    rcases toInt_cases t with ⟨htl, hti⟩ | ⟨htl, hti⟩ <;> rcases toInt_cases w with ⟨hwl, hwi⟩ | ⟨hwl, hwi⟩ <;> omega
  · rw [if_neg h1]
    rw [BitVec.slt_eq_decide, decide_eq_true_eq, h0] at h1
    by_cases h2 : (63#32 : BitVec 32).slt t = true
    · rw [if_pos h2]
      rw [BitVec.slt_eq_decide, decide_eq_true_eq, h63] at h2
      have h2016 : (63#32 * 32#32 : BitVec 32).toNat = 2016 := by decide
      rw [h2016]
      refine ⟨le_refl _, fun hge => ?_⟩
      rcases toInt_cases t with ⟨htl, hti⟩ | ⟨htl, hti⟩ <;> rcases toInt_cases w with ⟨hwl, hwi⟩ | ⟨hwl, hwi⟩ <;> omega
    · rw [if_neg h2]
      rw [BitVec.slt_eq_decide, decide_eq_true_eq, h63] at h2
      rw [BitVec.toNat_mul, h32n]
      rcases toInt_cases t with ⟨htl, hti⟩ | ⟨htl, hti⟩ <;> rcases toInt_cases w with ⟨hwl, hwi⟩ | ⟨hwl, hwi⟩ <;>
        (refine ⟨by omega, fun hge => ?_⟩; omega)

/-- The tail is chosen exactly when the word, read signed, is at least 999936. -/
theorem sge_iff (w : BitVec 32) : Scalar.cmpi .sge w 999936#32 = 1#1 ↔ (999936 : ℤ) ≤ w.toInt := by
  unfold Scalar.cmpi IntOp.cmpi
  simp only [BitVec.sle_eq_decide]
  have h : (999936#32 : BitVec 32).toInt = 999936 := by decide
  rw [h]
  by_cases hc : (999936 : ℤ) ≤ w.toInt <;> simp [hc]

end Cert.Proof.BlockB
-- ==== Proof.BlockInvB.lean ====
/-
  The block-gather task's loop: the side conditions the printed body assumes (each holds of every word), the trip's
  sixteen conditions decided from the trip's number, the ring's slots — a slot in flight holds the flight of its block
  copy beside the rest of its read token, an idle slot its buffer, its semaphore at zero and its token whole — and the
  loop's invariant: the index scratch and the tail as loaded, the columns below the trip done, the eight slots each
  serving its next index.
-/
import proofs.«204991_g57140244906297_cont_9to1_m_249_19_alg».proof.Proof.BlockDefsB
import proofs.«204991_g57140244906297_cont_9to1_m_249_19_alg».proof.Proof.BlockOpenB
import proofs.«204991_g57140244906297_cont_9to1_m_249_19_alg».proof.Proof.BlockArithB
import proofs.«204991_g57140244906297_cont_9to1_m_249_19_alg».proof.Proof.Gen.Kernel

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Lean Elab Tactic Meta in
/-- Unfold, in the goal, every constant one of whose name components is `sl`: the names a symbolic run gives the values
    it computes. -/
elab "unfold_sl" : tactic => do
  let g ← getMainGoal
  let t ← instantiateMVars (← g.getType)
  let t' ← Meta.transform t (pre := fun e => do
    if let .const n _ := e.getAppFn then
      if n.components.contains `sl then
        if let some e' ← Meta.delta? e then
          return .visit e'.headBeta
    return .continue)
  replaceMainGoal [← g.replaceTargetDefEq t']

variable {F : FTy → Type} [FloatOps F]

local notation "𝕄" => MT nD τ sig (HIx 4) (Elt F) ℕ UU ℕ

/-- Every word's block is 128-aligned and inside the table. -/
theorem blk_ok (w : BitVec 32) :
    (128 ∣ (blkOff w).toNat) ∧ (∀ a : Fin 2, (![0, (blkOff w).toNat] : Fin 2 → ℕ) a + S32x128.size a ≤ S32x1000000.size a) := by
  rw [blkOff_toNat]
  refine ⟨Dvd.intro _ rfl, fun a => ?_⟩
  have h : min (w.toNat / 128) 7811 ≤ 7811 := Nat.min_le_right _ _
  fin_cases a
  · show 0 + 32 ≤ 32
    omega
  · show 128 * min (w.toNat / 128) 7811 + 128 ≤ 1000000
    omega

/-- A separating conjunction over the first eight numbers, written out. -/
theorem bigSep_range8 {M : Type} [URA M] (Φ : ℕ → sProp M) :
    bigSep (Finset.range 8) Φ = iprop(Φ 0 ∗ Φ 1 ∗ Φ 2 ∗ Φ 3 ∗ Φ 4 ∗ Φ 5 ∗ Φ 6 ∗ Φ 7 ∗ emp) := by
  rw [bigSep_take Φ [0, 1, 2, 3, 4, 5, 6, 7] (Finset.range 8) (by decide) (by decide)]
  have h : Finset.range 8 \ [0, 1, 2, 3, 4, 5, 6, 7].toFinset = ∅ := by decide
  rw [h, BI.bigSep_empty]
  rfl

/-- The sixteen conditions of a trip, decided from the trip's number: which slot it serves (its residue mod 8) and
    whether eight trips later is still inside the loop. -/
theorem conds (k : Fin k0_t1_loop.trips) :
    ((k0_cond1 k = 1#1 ↔ k.val % 8 = 0) ∧ (k0_cond3 k = 1#1 ↔ k.val % 8 = 1) ∧ (k0_cond5 k = 1#1 ↔ k.val % 8 = 2)
      ∧ (k0_cond7 k = 1#1 ↔ k.val % 8 = 3) ∧ (k0_cond9 k = 1#1 ↔ k.val % 8 = 4) ∧ (k0_cond11 k = 1#1 ↔ k.val % 8 = 5)
      ∧ (k0_cond13 k = 1#1 ↔ k.val % 8 = 6) ∧ (k0_cond15 k = 1#1 ↔ k.val % 8 = 7))
    ∧ ((k0_cond2 k = 1#1 ↔ k.val + 8 < 512) ∧ (k0_cond4 k = 1#1 ↔ k.val + 8 < 512) ∧ (k0_cond6 k = 1#1 ↔ k.val + 8 < 512)
      ∧ (k0_cond8 k = 1#1 ↔ k.val + 8 < 512) ∧ (k0_cond10 k = 1#1 ↔ k.val + 8 < 512) ∧ (k0_cond12 k = 1#1 ↔ k.val + 8 < 512)
      ∧ (k0_cond14 k = 1#1 ↔ k.val + 8 < 512) ∧ (k0_cond16 k = 1#1 ↔ k.val + 8 < 512)) := by
  revert k
  decide +kernel

theorem trips_eq : k0_t1_loop.trips = 512 := by decide

/-- The trip's number as the kernel's word for it. -/
theorem v77_toNat (k : Fin k0_t1_loop.trips) : (Scalar.addi 0#32 (Scalar.muli (Scf.iv 0#32 1#32 k) 1#32)).toNat = k.val := by
  revert k
  decide +kernel

/-! ## The ring's slots and the loop's invariant -/

section Ring

variable (m : (ℓ : Loc nD τ sig) → Buf (Elt F) ℓ) (d : Dev nD) (L : grid0.Coords) (q : PosShare TreeShare)

/-- The 128-column block of the transposed table that word `w` selects. -/
abbrev blkMem (w : BitVec 32) : Memref sig .scVector .hbm S32x128 .f32 :=
  ttV.slice (Rect.unit (s := S32x1000000) ![0, (blkOff w).toNat] S32x128.size (blk_ok w).2) (fun _ => rfl)

/-- What a copy of that block carries. -/
abbrev blkPay (w : BitVec 32) : S32x128.Idx → Elt F .f32 :=
  (ReadAs.same : ReadAs (Elt F) S32x128 .f32 S32x128 .f32).apply ((blkMem w).view.read (Elt F) (m (ttLoc d)))

/-- Lane 0 of the 16-lane load of the index scratch at offsets `off`. -/
def wAtOff (fs : S528.Idx → Elt F .i32) (off : Fin 1 → ℕ) (h : ∀ a, off a + S16.size a ≤ S528.size a) : BitVec 32 :=
  let v : Vec F S16 .i32 := (Memref.whole cc0_scratch0 : Memref sig .scVector .vmem S528 .i32).view.readAt (Elt F)
    (Rect.unit (s := S528) off S16.size h).toLoadRect fs
  extractAt ![0] (extractStridedSlice S1 ![0] v slices_S16_o0_S1) inpos_S1_p0

theorem off_inb (n : ℕ) (h : n < 512) : ∀ a, (![n] : Fin 1 → ℕ) a + S16.size a ≤ S528.size a := by
  intro a; fin_cases a; show n + 16 ≤ 528; omega

/-- Word `n` of the index scratch, as the kernel reads it: lane 0 of the 16-lane load at `n`. -/
def wAt (fs : S528.Idx → Elt F .i32) (n : ℕ) : BitVec 32 :=
  if h : n < 512 then wAtOff fs ![n] (off_inb n h) else 0#32

omit [FloatOps F] in
theorem wAtOff_congr (fs : S528.Idx → Elt F .i32) {off off' : Fin 1 → ℕ} (e : off = off') (h : ∀ a, off a + S16.size a ≤ S528.size a)
    (h' : ∀ a, off' a + S16.size a ≤ S528.size a) : wAtOff fs off h = wAtOff fs off' h' := by subst e; rfl

omit [FloatOps F] in
/-- The word at `n`, read at offsets the kernel computes for `n`. -/
theorem wAt_off (fs : S528.Idx → Elt F .i32) (n : ℕ) (hn : n < 512) (off : Fin 1 → ℕ) (h : ∀ a, off a + S16.size a ≤ S528.size a)
    (e : off = ![n]) : wAt fs n = wAtOff fs off h := by
  unfold wAt; rw [dif_pos hn]; exact wAtOff_congr fs e.symm _ _

/-- A slot whose copy for word `w` is in flight on the slot's own semaphore: the flight — to deliver the slot rewritten
    with the block and the lent elements of the slot's read token — beside the rest of the token. -/
def slot (R : Memref sig .scVector .vmem S32x128 .f32) (sem : DmaSem sig) (s : ℕ) (w : BitVec 32) : sProp 𝕄 :=
  iprop((∃ g : Buf (Elt F) (R.view.loc (thr d L)),
      Transfers.Flight (countersEmb (U := UU) : UEmb Counters 𝕄) (thr d L) (SemLoc.dma sem) (default : HIx 4) 131072
        iprop((R.view.loc (thr d L) ↦{fullShare} View.write (Elt F) R.view g (blkPay m d w) Finset.univ)
          ∗ (ttV.view.loc (thr d L) ↦[(blkMem w).view.set]{Transfers.shareTokN q s} m (ttLoc d))))
    ∗ (ttV.view.loc (thr d L) ↦[Finset.univ \ (blkMem w).view.set]{Transfers.shareTokN q s} m (ttLoc d)))

/-- A slot with no copy outstanding: its buffer, its semaphore at zero, its read token whole. -/
def slotIdle (R : Memref sig .scVector .vmem S32x128 .f32) (sem : DmaSem sig) (s : ℕ) : sProp 𝕄 :=
  iprop((∃ g : Buf (Elt F) (R.view.loc (thr d L)), R.view.loc (thr d L) ↦{fullShare} g)
    ∗ semVal (thr d L, SemLoc.dma sem) 0
    ∗ (ttV.view.loc (thr d L) ↦{Transfers.shareTokN q s} m (ttLoc d)))

/-- The first index at or after `k` that slot `s` serves. -/
def nxt (s k : ℕ) : ℕ := k + (s + 8 - k % 8) % 8

/-- Slot `s` before trip `k`: in flight for its next index while that index is below 512, idle after. -/
def slotAt (fs : S528.Idx → Elt F .i32) (R : Memref sig .scVector .vmem S32x128 .f32) (sem : DmaSem sig) (s k : ℕ) : sProp 𝕄 :=
  if nxt s k < 512 then slot m d L q R sem s (wAt fs (nxt s k)) else slotIdle m d L q R sem s

/-- The loop's invariant before trip `k`: the index scratch and the tail as loaded, the columns with a record of what
    they hold, the eight slots, and the tile's debts with the waits so far recorded. -/
def inv (O : CellTallies nD τ sig (HIx 4)) (W : Waits sig (HIx 4)) (fs : S528.Idx → Elt F .i32) (ft : S2048.Idx → Elt F .f32)
    (CD : ℕ → (S32x512.Idx → Elt F .f32) → Prop) (k : ℕ) (_ : PUnit) : sProp 𝕄 :=
  iprop(Transfers.MayWaits (thr d L) (none : HIx 4) O
    ∗ ((Memref.whole cc0_scratch0 : Memref sig .scVector .vmem S528 .i32).view.loc (thr d L) ↦{fullShare} fs)
    ∗ ((Memref.whole cc0_scratch9 : Memref sig .scVector .vmem S2048 .f32).view.loc (thr d L) ↦{fullShare} ft)
    ∗ (∃ fc : S32x512.Idx → Elt F .f32,
        ((Memref.whole cc0_scratch10 : Memref sig .scVector .vmem S32x512 .f32).view.loc (thr d L) ↦{fullShare} fc) ∗ ⌜CD k fc⌝)
    ∗ slotAt m d L q fs (Memref.whole cc0_scratch1) cc0_scratch11.sem 0 k
    ∗ slotAt m d L q fs (Memref.whole cc0_scratch2) cc0_scratch12.sem 1 k
    ∗ slotAt m d L q fs (Memref.whole cc0_scratch3) cc0_scratch13.sem 2 k
    ∗ slotAt m d L q fs (Memref.whole cc0_scratch4) cc0_scratch14.sem 3 k
    ∗ slotAt m d L q fs (Memref.whole cc0_scratch5) cc0_scratch15.sem 4 k
    ∗ slotAt m d L q fs (Memref.whole cc0_scratch6) cc0_scratch16.sem 5 k
    ∗ slotAt m d L q fs (Memref.whole cc0_scratch7) cc0_scratch17.sem 6 k
    ∗ slotAt m d L q fs (Memref.whole cc0_scratch8) cc0_scratch18.sem 7 k
    ∗ ∃ W', ⌜∀ p ∈ W', p ∈ W ∨ p.2 = none⌝ ∗ owes (thr d L) O W')

theorem nxt_zero (s : ℕ) (hs : s < 8) : nxt s 0 = s := by unfold nxt; omega
theorem nxt_self (s k : ℕ) (h : k % 8 = s) : nxt s k = k := by unfold nxt; omega
theorem nxt_succ_self (s k : ℕ) (h : k % 8 = s) : nxt s (k + 1) = k + 8 := by unfold nxt; omega
theorem nxt_succ_other (s k : ℕ) (hs : s < 8) (h : k % 8 ≠ s) : nxt s (k + 1) = nxt s k := by unfold nxt; omega
theorem nxt_ge (s k : ℕ) : k ≤ nxt s k := by unfold nxt; omega

omit [FloatOps F] in
theorem slotAt_zero (fs : S528.Idx → Elt F .i32) (R : Memref sig .scVector .vmem S32x128 .f32) (sem : DmaSem sig) (s : ℕ) (hs : s < 8) :
    slotAt m d L q fs R sem s 0 = slot m d L q R sem s (wAt fs s) := by
  unfold slotAt; rw [nxt_zero s hs, if_pos (by omega)]

omit [FloatOps F] in
theorem slotAt_end (fs : S528.Idx → Elt F .i32) (R : Memref sig .scVector .vmem S32x128 .f32) (sem : DmaSem sig) (s : ℕ) :
    slotAt m d L q fs R sem s 512 = slotIdle m d L q R sem s := by
  unfold slotAt; rw [if_neg]; have := nxt_ge s 512; omega

/-- The value the kernel stores for row `r` of column `n` of the task. -/
def colVal (fs : S528.Idx → Elt F .i32) (ft : S2048.Idx → Elt F .f32) (r : Fin 32) (n : ℕ) : Elt F .f32 :=
  if (999936 : ℤ) ≤ (wAt fs n).toInt then ft (ix1 ⟨tailAt (wAt fs n) r, tailAt_lt _ r⟩)
  else m (ttLoc d) (ix2 r ⟨colAt (wAt fs n), colAt_lt _⟩)

/-- The columns below `k` hold their values. -/
def colsDone (fs : S528.Idx → Elt F .i32) (ft : S2048.Idx → Elt F .f32) (k : ℕ) (fc : S32x512.Idx → Elt F .f32) : Prop :=
  ∀ (r : Fin 32) (n : Fin 512), n.val < k → fc (ix2 r n) = colVal m d fs ft r n.val

omit [FloatOps F] in
theorem slotAt_self (fs : S528.Idx → Elt F .i32) (R : Memref sig .scVector .vmem S32x128 .f32) (sem : DmaSem sig) (s k : ℕ)
    (h : k % 8 = s) (hk : k < 512) : slotAt m d L q fs R sem s k = slot m d L q R sem s (wAt fs k) := by
  unfold slotAt; rw [nxt_self s k h, if_pos hk]

omit [FloatOps F] in
theorem slotAt_succ_self (fs : S528.Idx → Elt F .i32) (R : Memref sig .scVector .vmem S32x128 .f32) (sem : DmaSem sig) (s k : ℕ)
    (h : k % 8 = s) :
    slotAt m d L q fs R sem s (k + 1) = if k + 8 < 512 then slot m d L q R sem s (wAt fs (k + 8)) else slotIdle m d L q R sem s := by
  unfold slotAt; rw [nxt_succ_self s k h]

omit [FloatOps F] in
theorem slotAt_succ_other (fs : S528.Idx → Elt F .i32) (R : Memref sig .scVector .vmem S32x128 .f32) (sem : DmaSem sig) (s k : ℕ)
    (hs : s < 8) (h : k % 8 ≠ s) : slotAt m d L q fs R sem s (k + 1) = slotAt m d L q fs R sem s k := by
  unfold slotAt; rw [nxt_succ_other s k hs h]

omit [FloatOps F] in
/-- After the last trip every slot is idle. -/
theorem inv_end (O : CellTallies nD τ sig (HIx 4)) (W : Waits sig (HIx 4)) (fs : S528.Idx → Elt F .i32) (ft : S2048.Idx → Elt F .f32)
    (CD : ℕ → (S32x512.Idx → Elt F .f32) → Prop) (u : PUnit) :
    inv m d L q O W fs ft CD 512 u
      = iprop(Transfers.MayWaits (thr d L) (none : HIx 4) O
        ∗ ((Memref.whole cc0_scratch0 : Memref sig .scVector .vmem S528 .i32).view.loc (thr d L) ↦{fullShare} fs)
        ∗ ((Memref.whole cc0_scratch9 : Memref sig .scVector .vmem S2048 .f32).view.loc (thr d L) ↦{fullShare} ft)
        ∗ (∃ fc : S32x512.Idx → Elt F .f32,
            ((Memref.whole cc0_scratch10 : Memref sig .scVector .vmem S32x512 .f32).view.loc (thr d L) ↦{fullShare} fc) ∗ ⌜CD 512 fc⌝)
        ∗ slotIdle m d L q (Memref.whole cc0_scratch1) cc0_scratch11.sem 0
        ∗ slotIdle m d L q (Memref.whole cc0_scratch2) cc0_scratch12.sem 1
        ∗ slotIdle m d L q (Memref.whole cc0_scratch3) cc0_scratch13.sem 2
        ∗ slotIdle m d L q (Memref.whole cc0_scratch4) cc0_scratch14.sem 3
        ∗ slotIdle m d L q (Memref.whole cc0_scratch5) cc0_scratch15.sem 4
        ∗ slotIdle m d L q (Memref.whole cc0_scratch6) cc0_scratch16.sem 5
        ∗ slotIdle m d L q (Memref.whole cc0_scratch7) cc0_scratch17.sem 6
        ∗ slotIdle m d L q (Memref.whole cc0_scratch8) cc0_scratch18.sem 7
        ∗ ∃ W', ⌜∀ p ∈ W', p ∈ W ∨ p.2 = none⌝ ∗ owes (thr d L) O W') := by
  unfold inv
  simp only [slotAt_end]

end Ring

section Step
variable (m : (ℓ : Loc nD τ sig) → Buf (Elt F) ℓ) (d : Dev nD)
omit [FloatOps F] in
/-- One more column done: the new contents hold the trip's value in column `k` and the old contents elsewhere. -/
theorem colsDone_step (fs : S528.Idx → Elt F .i32) (ft : S2048.Idx → Elt F .f32) (k : ℕ) (fc fc' : S32x512.Idx → Elt F .f32)
    (h : colsDone m d fs ft k fc)
    (hstep : ∀ (r : Fin 32) (n : Fin 512), fc' (ix2 r n) = if n.val = k then colVal m d fs ft r k else fc (ix2 r n)) :
    colsDone m d fs ft (k + 1) fc' := by
  intro r n hn
  rw [hstep r n]
  by_cases e : n.val = k
  · rw [if_pos e, e]
  · rw [if_neg e]; exact h r n (by omega)
end Step

section Respell
variable (d : Dev nD) (L : grid0.Coords)
omit [FloatOps F] in
/-- A scratch buffer of the tile, as its whole memref addresses it. -/
theorem pts_scr (b : Ref sig .scVector) (g : Buf (Elt F) (d, bref L b)) :
    (((d, bref L b) : Loc nD τ sig) ↦{fullShare} g : sProp 𝕄) = ((Memref.whole b).view.loc (thr d L) ↦{fullShare} g) := rfl
omit [FloatOps F] in
theorem pts_ids (q : PosShare TreeShare) (f : Buf (Elt F) (idsLoc d)) :
    ((idsLoc d ↦{q} f) : sProp 𝕄) = (idsV.view.loc (thr d L) ↦{q} f) := rfl
omit [FloatOps F] in
theorem pts_tt (q : PosShare TreeShare) (f : Buf (Elt F) (ttLoc d)) :
    ((ttLoc d ↦{q} f) : sProp 𝕄) = (ttV.view.loc (thr d L) ↦{q} f) := rfl
omit [FloatOps F] in
theorem pts_tail (q : PosShare TreeShare) (f : Buf (Elt F) (tailLoc d)) :
    ((tailLoc d ↦{q} f) : sProp 𝕄) = (tailV.view.loc (thr d L) ↦{q} f) := rfl
omit [FloatOps F] in
theorem pts_out (f : Buf (Elt F) (outLoc d)) :
    ((outLoc d ↦[outSet L]{fullShare} f) : sProp 𝕄) = ((outBlk L).view.loc (thr d L) ↦[(outBlk L).view.set]{fullShare} f) := rfl
end Respell

end Cert.Proof.BlockB

end
-- ==== Proof.BlockStoreIdxB.lean ====
/-
  An indexed store of a 16-lane vector, unmasked and overwriting, whose lanes name distinct elements: each lane's
  value is found at the element the lane names, and every other element is unchanged.
-/
import Idealize.ShloMosaic.PureOps.ShapeOps

namespace Cert.Proof.BlockB
open Idealize.ShloMosaic

variable {F : FTy → Type} [FloatOps F] {s : Shape} {e : EltTy} {d : Fin 1 → Nat}

/-- One lane of an unmasked, overwriting indexed store. -/
def laneStep (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (laneStep idxs v h) f := by
  unfold storeIdx laneStep
  simp

theorem foldl_laneStep_other (idxs : Fin s.rank → IVec ⟨1, d⟩ 32) (v : Vec F ⟨1, d⟩ e) (h : ∀ a x, (idxs a x).toNat < s.size a)
    (j : s.Idx) : ∀ (l : List (Fin (d 0))) (g : Vec F s e), (∀ k ∈ l, idxAt idxs h (Shape.ofLane k) ≠ j) →
      l.foldl (laneStep idxs v h) g j = g j
  | [], _, _ => rfl
  | k :: l, g, hne => by
    rw [List.foldl_cons, foldl_laneStep_other idxs v h j l _ (fun k' hk' => hne k' (List.mem_cons_of_mem _ hk'))]
    unfold laneStep
    rw [if_neg]
    intro hall
    exact hne k List.mem_cons_self (funext fun a => (Fin.ext (hall a)).symm)

theorem foldl_laneStep_hit (idxs : Fin s.rank → IVec ⟨1, d⟩ 32) (v : Vec F ⟨1, d⟩ e) (h : ∀ a x, (idxs a x).toNat < s.size a)
    (hinj : ∀ k k' : Fin (d 0), idxAt idxs h (Shape.ofLane k) = idxAt idxs h (Shape.ofLane k') → k = k') (k₀ : Fin (d 0)) :
    ∀ (l : List (Fin (d 0))) (g : Vec F s e), l.Nodup → k₀ ∈ l →
      l.foldl (laneStep idxs v h) g (idxAt idxs h (Shape.ofLane k₀)) = v (Shape.ofLane k₀)
  | [], _, _, hm => absurd hm List.not_mem_nil
  | k :: l, g, hnd, hm => by
    rw [List.foldl_cons]
    have hnd' := List.nodup_cons.mp hnd
    rcases List.mem_cons.mp hm with hk | hm'
    · subst hk
      rw [foldl_laneStep_other idxs v h _ l _ (fun k' hk' e => hnd'.1 (by have := hinj k' k₀ e; subst this; exact hk'))]
      unfold laneStep
      rw [if_pos (fun _ => rfl)]
    · exact foldl_laneStep_hit idxs v h hinj k₀ l _ hnd'.2 hm'

/-- An unmasked, overwriting indexed store whose lanes name distinct elements leaves lane `k`'s value at the element
    lane `k` names -/
theorem storeIdx_hit (f : Vec F s e) (idxs : Fin s.rank → IVec ⟨1, d⟩ 32) (v : Vec F ⟨1, d⟩ e)
    (h : ∀ a x, (idxs a x).toNat < s.size a)
    (hinj : ∀ k k' : Fin (d 0), idxAt idxs h (Shape.ofLane k) = idxAt idxs h (Shape.ofLane k') → k = k') (k : Fin (d 0)) :
    storeIdx f idxs v (fun _ => 1#1) false h (idxAt idxs h (Shape.ofLane k)) = v (Shape.ofLane k) := by
  rw [storeIdx_eq_foldl]
  exact foldl_laneStep_hit idxs v h hinj k _ f (List.nodup_finRange _) (List.mem_finRange k)

/-- and every element no lane names as it was. -/
theorem storeIdx_other (f : Vec F s e) (idxs : Fin s.rank → IVec ⟨1, d⟩ 32) (v : Vec F ⟨1, d⟩ e)
    (h : ∀ a x, (idxs a x).toNat < s.size a) (j : s.Idx) (hj : ∀ k : Fin (d 0), idxAt idxs h (Shape.ofLane k) ≠ j) :
    storeIdx f idxs v (fun _ => 1#1) false h j = f j := by
  rw [storeIdx_eq_foldl]
  exact foldl_laneStep_other idxs v h j _ f (fun k _ => hj k)

end Cert.Proof.BlockB
-- ==== Proof.BlockTripB.lean ====
/-
  One trip of the block-gather loop, as pure facts about the vectors it computes.

  A trip handles one index word `w` and one output column `k`. It reads 16 lanes twice — rows `0 … 15` and rows
  `16 … 31` — from the fetched 128-column block at lane `w mod 128`, and from the flattened tail at entry
  `(row) + 32 · min (w − 999936) 63` (clamped, so always in range), keeps the tail's value when `w`, read signed, is at
  least 999936 and the block's otherwise, and stores the 16 values at rows `0 … 15`, then `16 … 31`, of column `k`.
  So the row vectors are `lane` and `lane + 16`, the column vectors are splats, every index is in range, the two stores
  name distinct elements, and after them column `k` holds the looked-up value at every row and the other columns are
  unchanged.
-/
import proofs.«204991_g57140244906297_cont_9to1_m_249_19_alg».proof.Proof.BlockDefsB
import proofs.«204991_g57140244906297_cont_9to1_m_249_19_alg».proof.Proof.BlockArithB
import proofs.«204991_g57140244906297_cont_9to1_m_249_19_alg».proof.Proof.BlockStoreIdxB
import proofs.«204991_g57140244906297_cont_9to1_m_249_19_alg».proof.Proof.Gen.Kernel.Skeleton

noncomputable section

namespace Cert.Proof.BlockB

open Cert.Kernel Cert.Kernel.Gen
open Idealize.ShloMosaic Idealize.ShloMosaic.ValueIdx

variable {F : FTy → Type} [FloatOps F]

/-! ## The index vectors at a lane -/

/-- A lane's coordinate is below 16. -/
theorem lane_lt (x : S16.Idx) : (x 0).val < 16 := (x 0).isLt

/-- The first row vector at a lane is the lane's number. -/
theorem pay4_toNat (x : S16.Idx) : (k0_pay4 x).toNat = (x 0).val := by
  show (BitVec.ofNat 32 (0 * 16 + (x 0).val) + 0#32).toNat = (x 0).val
  have h := lane_lt x
  rw [BitVec.toNat_add, BitVec.toNat_ofNat]
  have h0 : (0#32 : BitVec 32).toNat = 0 := rfl
  rw [h0]
  omega

/-- The second row vector at a lane is the lane's number plus 16. -/
theorem pay9_toNat (x : S16.Idx) : (k0_pay9 x).toNat = (x 0).val + 16 := by
  show (BitVec.ofNat 32 (0 * 16 + (x 0).val) + 16#32).toNat = (x 0).val + 16
  have h := lane_lt x
  rw [BitVec.toNat_add, BitVec.toNat_ofNat]
  have h0 : (16#32 : BitVec 32).toNat = 16 := rfl
  rw [h0]
  omega

/-- The column vectors are splats of their word. -/
theorem pay5_apply (v : BitVec 32) (x : S16.Idx) : k0_pay5 v x = v := by
  show (0#32 : BitVec 32) + v = v
  exact BitVec.zero_add v
theorem pay10_apply (v : BitVec 32) (x : S16.Idx) : k0_pay10 v x = v := by
  show (0#32 : BitVec 32) + v = v
  exact BitVec.zero_add v
theorem pay8_apply (v : BitVec 32) (x : S16.Idx) : k0_pay8 v x = v := by
  show (0#32 : BitVec 32) + v = v
  exact BitVec.zero_add v
theorem pay13_apply (v : BitVec 32) (x : S16.Idx) : k0_pay13 v x = v := by
  show (0#32 : BitVec 32) + v = v
  exact BitVec.zero_add v

/-- The tail index vectors at a lane: the row plus the tail offset of the word. -/
theorem pay6_toNat (w : BitVec 32) (x : S16.Idx) : (k0_pay6 w k0_pay4 x).toNat = (x 0).val + (tailOff w).toNat := by
  show (k0_pay4 x + tailOff w).toNat = _
  have h := lane_lt x
  have ht := (tailOff_spec w).1
  rw [BitVec.toNat_add, pay4_toNat]
  omega
theorem pay11_toNat (w : BitVec 32) (x : S16.Idx) : (k0_pay11 w k0_pay9 x).toNat = (x 0).val + 16 + (tailOff w).toNat := by
  show (k0_pay9 x + tailOff w).toNat = _
  have h := lane_lt x
  have ht := (tailOff_spec w).1
  rw [BitVec.toNat_add, pay9_toNat]
  omega

/-! ## Every index is in range -/

theorem ring_ok0 (w : BitVec 32) :
    ∀ a x, ((![k0_pay4, k0_pay5 (Scalar.andi w 127#32)] : Fin 2 → IVec S16 32) a x).toNat < S32x128.size a := by
  intro a x
  match a with
  | ⟨0, _⟩ =>
    show (k0_pay4 x).toNat < 32
    rw [pay4_toNat]; have := lane_lt x; omega
  | ⟨1, _⟩ =>
    show (k0_pay5 (Scalar.andi w 127#32) x).toNat < 128
    rw [pay5_apply, lane_toNat]; exact Nat.mod_lt _ (by decide)

theorem ring_ok1 (w : BitVec 32) :
    ∀ a x, ((![k0_pay9, k0_pay10 (Scalar.andi w 127#32)] : Fin 2 → IVec S16 32) a x).toNat < S32x128.size a := by
  intro a x
  match a with
  | ⟨0, _⟩ =>
    show (k0_pay9 x).toNat < 32
    rw [pay9_toNat]; have := lane_lt x; omega
  | ⟨1, _⟩ =>
    show (k0_pay10 (Scalar.andi w 127#32) x).toNat < 128
    rw [pay10_apply, lane_toNat]; exact Nat.mod_lt _ (by decide)

theorem tail_ok0 (w : BitVec 32) :
    ∀ a x, ((![k0_pay6 w k0_pay4] : Fin 1 → IVec S16 32) a x).toNat < S2048.size a := by
  intro a x
  match a with
  | ⟨0, _⟩ =>
    show (k0_pay6 w k0_pay4 x).toNat < 2048
    rw [pay6_toNat]; have := lane_lt x; have := (tailOff_spec w).1; omega

theorem tail_ok1 (w : BitVec 32) :
    ∀ a x, ((![k0_pay11 w k0_pay9] : Fin 1 → IVec S16 32) a x).toNat < S2048.size a := by
  intro a x
  match a with
  | ⟨0, _⟩ =>
    show (k0_pay11 w k0_pay9 x).toNat < 2048
    rw [pay11_toNat]; have := lane_lt x; have := (tailOff_spec w).1; omega

theorem cols_ok0 (v77 : BitVec 32) (hv : v77.toNat < 512) :
    ∀ a x, ((![k0_pay4, k0_pay8 v77] : Fin 2 → IVec S16 32) a x).toNat < S32x512.size a := by
  intro a x
  match a with
  | ⟨0, _⟩ =>
    show (k0_pay4 x).toNat < 32
    rw [pay4_toNat]; have := lane_lt x; omega
  | ⟨1, _⟩ =>
    show (k0_pay8 v77 x).toNat < 512
    rw [pay8_apply]; exact hv

theorem cols_ok1 (v77 : BitVec 32) (hv : v77.toNat < 512) :
    ∀ a x, ((![k0_pay9, k0_pay13 v77] : Fin 2 → IVec S16 32) a x).toNat < S32x512.size a := by
  intro a x
  match a with
  | ⟨0, _⟩ =>
    show (k0_pay9 x).toNat < 32
    rw [pay9_toNat]; have := lane_lt x; omega
  | ⟨1, _⟩ =>
    show (k0_pay13 v77 x).toNat < 512
    rw [pay13_apply]; exact hv

end Cert.Proof.BlockB

end
-- ==== Proof.BlockTripValueB.lean ====
/-
  One trip of the block-gather loop: what its two indexed stores leave in the staging block.

  An unmasked indexed store of 16 lanes whose row vector is `lane + off` and whose column vector is the splat of `k`
  names the 16 distinct elements `(off + lane, k)`: afterwards element `(r, n)` holds lane `r − off` of the stored
  vector when `n = k` and `off ≤ r < off + 16`, and what it held before otherwise. The stored vectors are, lane by lane,
  the tail's entry when the word, read signed, is at least 999936, and the fetched block's entry at the word's lane
  otherwise — the block holding columns `128 · min (w / 128) 7811 …` of the transposed table. Two such stores, rows
  `0 … 15` then `16 … 31`, leave column `k` at the looked-up value at every row and every other column unchanged.
-/
import proofs.«204991_g57140244906297_cont_9to1_m_249_19_alg».proof.Proof.BlockTripB

noncomputable section

namespace Cert.Proof.BlockB

open Cert.Kernel Cert.Kernel.Gen
open Idealize.ShloMosaic Idealize.ShloMosaic.ValueIdx

variable {F : FTy → Type} [FloatOps F]

/-- The column read for word `w` at lane `l` of its block lies inside the table. -/
theorem blkCol_lt (w : BitVec 32) (l : Fin 128) : (blkOff w).toNat + l.val < 1000000 := by
  rw [blkOff_toNat]
  have h1 := Nat.min_le_right (w.toNat / 128) 7811
  have h2 := l.isLt
  omega

/-- The selected vector at a lane: the tail's when the word, read signed, is at least 999936, else the block's. -/
theorem pay7_apply (w : BitVec 32) (a b : Vec F S16 .f32) (x : S16.Idx) :
    k0_pay7 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

theorem pay12_apply (w : BitVec 32) (a b : Vec F S16 .f32) (x : S16.Idx) :
    k0_pay12 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

/-- A load from the fetched block at row vector `P` and the word's lane reads, at a lane whose row is `ρ`, the
    transposed table at `(ρ, colAt w)`. -/
theorem load_ring (tt : S32x1000000.Idx → Elt F .f32) (R : S32x128.Idx → Elt F .f32) (w : BitVec 32)
    (hR : ∀ (r : Fin 32) (l : Fin 128), R (ix2 r l) = tt (ix2 r ⟨(blkOff w).toNat + l.val, blkCol_lt w l⟩))
    (P Q : IVec S16 32) (h : ∀ a x, ((![P, Q] : Fin 2 → IVec S16 32) a x).toNat < S32x128.size a) (x : S16.Idx)
    (ρ : Fin 32) (hP : (P x).toNat = ρ.val) (hQ : Q x = Scalar.andi w 127#32) :
    loadIdx (F := F) R (![P, Q] : Fin 2 → IVec S16 32) h x = tt (ix2 ρ ⟨colAt w, colAt_lt w⟩) := by
  have hi : idxAt (![P, Q] : Fin 2 → IVec S16 32) h x = ix2 ρ ⟨w.toNat % 128, Nat.mod_lt _ (by decide)⟩ := by
    funext a
    match a with
    | ⟨0, _⟩ => exact Fin.ext hP
    | ⟨1, _⟩ =>
      refine Fin.ext ?_
      show (Q x).toNat = w.toNat % 128
      rw [hQ, lane_toNat]
  show R (idxAt (![P, Q] : Fin 2 → IVec S16 32) h x) = _
  rw [hi, hR]
  refine congrArg tt (congrArg (ix2 ρ) (Fin.ext ?_))
  show (blkOff w).toNat + w.toNat % 128 = colAt w
  rw [blkOff_toNat]
  rfl

/-- A load from the flattened tail at index vector `P` reads, at a lane whose entry is `ρ` plus the word's tail offset,
    entry `tailAt w ρ` — for a word that, read signed, is at least 999936. -/
theorem load_tail (ft : S2048.Idx → Elt F .f32) (w : BitVec 32) (P : IVec S16 32)
    (h : ∀ a x, ((![P] : Fin 1 → IVec S16 32) a x).toNat < S2048.size a) (x : S16.Idx) (ρ : Fin 32)
    (hP : (P x).toNat = ρ.val + (tailOff w).toNat) (hge : (999936 : ℤ) ≤ w.toInt) :
    loadIdx (F := F) ft (![P] : Fin 1 → IVec S16 32) h x = ft (ix1 ⟨tailAt w ρ, tailAt_lt w ρ⟩) := by
  show ft (idxAt (![P] : Fin 1 → IVec S16 32) h x) = _
  refine congrArg ft (funext fun a => ?_)
  match a with
  | ⟨0, _⟩ =>
    refine Fin.ext ?_
    show (P x).toNat = tailAt w ρ
    rw [hP, (tailOff_spec w).2 hge]
    unfold tailAt
    omega

/-- An unmasked overwriting store of 16 lanes at rows `lane + off` of column `k`: element `(r, n)` afterwards. -/
theorem colStore (fc : Vec F S32x512 .f32) (P Q : IVec S16 32) (val : Vec F S16 .f32)
    (h : ∀ a x, ((![P, Q] : Fin 2 → IVec S16 32) a x).toNat < S32x512.size a) (off k : ℕ)
    (hP : ∀ x, (P x).toNat = (x 0).val + off) (hQ : ∀ x, (Q x).toNat = k) (r : Fin 32) (n : Fin 512) :
    storeIdx fc (![P, Q] : Fin 2 → IVec S16 32) val (fun _ => 1#1) false h (ix2 r n)
      = if hc : n.val = k ∧ off ≤ r.val ∧ r.val < off + 16 then val (ix1 ⟨r.val - off, by omega⟩) else fc (ix2 r n) := by
  by_cases hc : n.val = k ∧ off ≤ r.val ∧ r.val < off + 16
  · rw [dif_pos hc]
    obtain ⟨hn, hlo, hhi⟩ := hc
    have hl : r.val - off < 16 := by omega
    have hlane : (Shape.ofLane (d := ![16]) ⟨r.val - off, hl⟩ : S16.Idx) = ix1 ⟨r.val - off, hl⟩ := by
      funext a
      match a with
      | ⟨0, _⟩ => rfl
    have hidx : idxAt (![P, Q] : Fin 2 → IVec S16 32) h (Shape.ofLane (d := ![16]) ⟨r.val - off, hl⟩) = ix2 r n := by
      funext a
      match a with
      | ⟨0, _⟩ =>
        refine Fin.ext ?_
        show (P (Shape.ofLane (d := ![16]) ⟨r.val - off, hl⟩)).toNat = r.val
        rw [hP, hlane]
        show (r.val - off) + off = r.val
        omega
      | ⟨1, _⟩ =>
        refine Fin.ext ?_
        show (Q (Shape.ofLane (d := ![16]) ⟨r.val - off, hl⟩)).toNat = n.val
        rw [hQ, hn]
    have hinj : ∀ k₁ k₂ : Fin ((![16] : Fin 1 → ℕ) 0),
        idxAt (s := S32x512) (![P, Q] : Fin 2 → IVec S16 32) h (Shape.ofLane k₁)
          = idxAt (s := S32x512) (![P, Q] : Fin 2 → IVec S16 32) h (Shape.ofLane k₂) → k₁ = k₂ := by
      intro k₁ k₂ e
      have e0 : (P (Shape.ofLane k₁)).toNat = (P (Shape.ofLane k₂)).toNat := congrArg (fun i => (i 0).val) e
      rw [hP, hP] at e0
      have h1 : ((Shape.ofLane k₁ : S16.Idx) 0).val = k₁.val := rfl
      have h2 : ((Shape.ofLane k₂ : S16.Idx) 0).val = k₂.val := rfl
      exact Fin.ext (by omega)
    rw [← hidx, storeIdx_hit fc _ val h hinj ⟨r.val - off, hl⟩, hlane]
  · rw [dif_neg hc]
    refine storeIdx_other fc _ val h (ix2 r n) (fun k' e => hc ?_)
    have e0 : (P (Shape.ofLane k')).toNat = r.val := congrArg (fun i => (i 0).val) e
    have e1 : (Q (Shape.ofLane k')).toNat = n.val := congrArg (fun i => (i 1).val) e
    rw [hP] at e0
    rw [hQ] at e1
    have h1 : ((Shape.ofLane k' : S16.Idx) 0).val = k'.val := rfl
    have h2 : k'.val < 16 := k'.isLt
    exact ⟨e1.symm, by omega, by omega⟩

/-- After the trip's two stores: column `k` holds the looked-up value at every row, the other columns are unchanged. -/
theorem trip_value (tt : S32x1000000.Idx → Elt F .f32) (ft : S2048.Idx → Elt F .f32) (fc : S32x512.Idx → Elt F .f32)
    (R : S32x128.Idx → Elt F .f32) (w v77 : BitVec 32) (k : ℕ) (hk : k < 512) (hv : v77.toNat = k)
    (hR : ∀ (r : Fin 32) (l : Fin 128), R (ix2 r l) = tt (ix2 r ⟨(blkOff w).toNat + l.val, blkCol_lt w l⟩))
    (h1 : ∀ a x, ((![k0_pay4, k0_pay5 (Scalar.andi w 127#32)] : Fin 2 → IVec S16 32) a x).toNat < S32x128.size a)
    (h2 : ∀ a x, ((![k0_pay6 w k0_pay4] : Fin 1 → IVec S16 32) a x).toNat < S2048.size a)
    (h3 : ∀ a x, ((![k0_pay4, k0_pay8 v77] : Fin 2 → IVec S16 32) a x).toNat < S32x512.size a)
    (h4 : ∀ a x, ((![k0_pay9, k0_pay10 (Scalar.andi w 127#32)] : Fin 2 → IVec S16 32) a x).toNat < S32x128.size a)
    (h5 : ∀ a x, ((![k0_pay11 w k0_pay9] : Fin 1 → IVec S16 32) a x).toNat < S2048.size a)
    (h6 : ∀ a x, ((![k0_pay9, k0_pay13 v77] : Fin 2 → IVec S16 32) a x).toNat < S32x512.size a) :
    ∀ (r : Fin 32) (n : Fin 512),
      storeIdx (storeIdx fc (![k0_pay4, k0_pay8 v77] : Fin 2 → IVec S16 32)
          (k0_pay7 (F := F) w (loadIdx (F := F) R (![k0_pay4, k0_pay5 (Scalar.andi w 127#32)] : Fin 2 → IVec S16 32) h1) (loadIdx (F := F) ft (![k0_pay6 w k0_pay4] : Fin 1 → IVec S16 32) h2)) (fun _ => 1#1) false h3)
        (![k0_pay9, k0_pay13 v77] : Fin 2 → IVec S16 32)
        (k0_pay12 (F := F) w (loadIdx (F := F) R (![k0_pay9, k0_pay10 (Scalar.andi w 127#32)] : Fin 2 → IVec S16 32) h4) (loadIdx (F := F) ft (![k0_pay11 w k0_pay9] : Fin 1 → IVec S16 32) h5)) (fun _ => 1#1) false h6 (ix2 r n)
      = if n.val = k then (if (999936 : ℤ) ≤ w.toInt then ft (ix1 ⟨tailAt w r, tailAt_lt w r⟩) else tt (ix2 r ⟨colAt w, colAt_lt w⟩))
        else fc (ix2 r n) := by
  intro r n
  have hq0 : ∀ x, (k0_pay8 v77 x).toNat = k := fun x => by rw [pay8_apply, hv]
  have hq1 : ∀ x, (k0_pay13 v77 x).toNat = k := fun x => by rw [pay13_apply, hv]
  have hp0 : ∀ x : S16.Idx, (k0_pay4 x).toNat = (x 0).val + 0 := fun x => (pay4_toNat x).trans (Nat.add_zero _).symm
  rw [colStore _ k0_pay9 (k0_pay13 v77) _ h6 16 k pay9_toNat hq1 r n,
    colStore fc k0_pay4 (k0_pay8 v77) _ h3 0 k hp0 hq0 r n]
  by_cases hn : n.val = k
  · rw [if_pos hn]
    by_cases hr : r.val < 16
    · rw [dif_neg (fun hc => by omega), dif_pos ⟨hn, Nat.zero_le _, by omega⟩, pay7_apply]
      by_cases hge : (999936 : ℤ) ≤ w.toInt
      · rw [if_pos hge, if_pos hge]
        exact load_tail ft w (k0_pay6 w k0_pay4) h2 _ r (by rw [pay6_toNat]; rfl) hge
      · rw [if_neg hge, if_neg hge]
        exact load_ring tt R w hR k0_pay4 (k0_pay5 (Scalar.andi w 127#32)) h1 _ r (by rw [pay4_toNat]; rfl) (pay5_apply _ _)
    · rw [dif_pos ⟨hn, by omega, by have := r.isLt; omega⟩, pay12_apply]
      by_cases hge : (999936 : ℤ) ≤ w.toInt
      · rw [if_pos hge, if_pos hge]
        exact load_tail ft w (k0_pay11 w k0_pay9) h5 _ r
          (by rw [pay11_toNat]; show (r.val - 16) + 16 + _ = r.val + _; omega) hge
      · rw [if_neg hge, if_neg hge]
        exact load_ring tt R w hR k0_pay9 (k0_pay10 (Scalar.andi w 127#32)) h4 _ r
          (by rw [pay9_toNat]; show (r.val - 16) + 16 = r.val; omega) (pay10_apply _ _)
  · rw [if_neg hn, dif_neg (fun hc => hn hc.1), dif_neg (fun hc => hn hc.1)]

end Cert.Proof.BlockB

end
-- ==== Proof.BlockEnds2B.lean ====
/-
  What the block-gather task's two table copies carry.

  The copy of one 128-column block of the transposed table, all 32 rows from column `blkOff w`, carries at `(r, l)` the
  table's entry `(r, blkOff w + l)`. The copy of the whole flattened tail over the whole tail scratch leaves the tail
  there, whatever the scratch held.
-/
import proofs.«204991_g57140244906297_cont_9to1_m_249_19_alg».proof.Proof.BlockTripValueB
import Idealize.ShloMosaic.Lib.Writes

noncomputable section

namespace Cert.Proof.BlockB

open Cert.Kernel Cert.Kernel.Gen
open Idealize.ShloMosaic Idealize.ShloMosaic.ValueIdx

variable {F : FTy → Type} [FloatOps F]

/-- What the copied block holds at `(r, l)`: the transposed table at `(r, blkOff w + l)`. -/
theorem blkPay_apply (tt : S32x1000000.Idx → Elt F .f32) (w : BitVec 32)
    (h : ∀ a, (![0, (blkOff w).toNat] : Fin 2 → ℕ) a + S32x128.size a ≤ S32x1000000.size a) (r : Fin 32) (l : Fin 128) :
    (ReadAs.same : ReadAs (Elt F) S32x128 .f32 S32x128 .f32).apply
        ((ttV.slice (Rect.unit (s := S32x1000000) ![0, (blkOff w).toNat] S32x128.size h) (fun _ => rfl)).view.read (Elt F) tt) (ix2 r l)
      = tt (ix2 r ⟨(blkOff w).toNat + l.val, blkCol_lt w l⟩) := by
  show View.read (Elt F) (ttV.slice (Rect.unit (s := S32x1000000) ![0, (blkOff w).toNat] S32x128.size h) (fun _ => rfl)).view tt (ix2 r l) = _
  rw [View.read_apply]
  refine (eq_of_heq (cast_heq _ _)).trans (congrArg tt (funext fun a => ?_))
  match a with
  | ⟨0, _⟩ =>
    refine Fin.ext ?_
    show 0 + 1 * r.val = r.val
    omega
  | ⟨1, _⟩ =>
    refine Fin.ext ?_
    show (blkOff w).toNat + 1 * l.val = (blkOff w).toNat + l.val
    omega

/-- The whole tail copied over the whole tail scratch leaves the tail there. -/
theorem tail_copy (g9 tail : S2048.Idx → Elt F .f32) :
    View.write (Elt F) (Memref.whole cc0_scratch9 : Memref sig .scVector .vmem S2048 .f32).view g9
        ((ReadAs.same : ReadAs (Elt F) S2048 .f32 S2048 .f32).apply (tailV.view.read (Elt F) tail)) Finset.univ = tail :=
  (View.write_whole_univ cc0_scratch9 g9 _).trans (View.read_whole main_v2_scv tail)

end Cert.Proof.BlockB

end
-- ==== Proof.BlockTrip0B.lean ====
/-
  One trip of the block-gather loop whose number is 0 mod 8: it serves slot 0. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq0 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip0 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 0) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c1 : k0_cond1 k = 1#1 := o0.mpr hres
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 0 k.val hres hk, slotAt_succ_self m d L q fs _ _ 0 k.val hres,
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c2 : k0_cond2 k = 1#1 := e0.mpr hlast
    rw [if_pos hlast, wAt_off fs (k.val + 8) hlast (k0_off11 k) (k0_off11_inb k c1 c2) (k0_off11_eq k)]
    unfold slot
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch1) (LoadRect.whole S32x128) f = f :=
        fun f => Memref.readAt_whole (Elt F) cc0_scratch1 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch1) g P Finset.univ = P :=
        fun g P => View.write_whole_univ cc0_scratch1 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HF Hrest]
    · isplitl [HF]; · iexists _; iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c2 : ¬ k0_cond2 k = 1#1 := fun h => hlast (e0.mp h)
    rw [if_neg hlast]; unfold slot slotIdle
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch1) (LoadRect.whole S32x128) f = f :=
        fun f => Memref.readAt_whole (Elt F) cc0_scratch1 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch1) g P Finset.univ = P :=
        fun g P => View.write_whole_univ cc0_scratch1 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HF_dst HF Hrest]
    · isplitl [HF_dst]; · iexists _; iexact HF_dst
      isplitl [HF]; · iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.BlockB

end
-- ==== Proof.BlockTrip1B.lean ====
/-
  One trip of the block-gather loop whose number is 1 mod 8: it serves slot 1. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq1 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip1 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 1) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c3 : k0_cond3 k = 1#1 := o1.mpr hres
  have c1 : ¬ k0_cond1 k = 1#1 := fun h => by have := o0.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 1 k.val hres hk, slotAt_succ_self m d L q fs _ _ 1 k.val hres,
    slotAt_succ_other m d L q fs _ _ 0 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c4 : k0_cond4 k = 1#1 := e1.mpr hlast
    rw [if_pos hlast, wAt_off fs (k.val + 8) hlast (k0_off13 k) (k0_off13_inb k c3 c4) (k0_off13_eq k)]
    unfold slot
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch2) (LoadRect.whole S32x128) f = f :=
        fun f => Memref.readAt_whole (Elt F) cc0_scratch2 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch2) g P Finset.univ = P :=
        fun g P => View.write_whole_univ cc0_scratch2 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HF Hrest]
    · isplitl [HF]; · iexists _; iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c4 : ¬ k0_cond4 k = 1#1 := fun h => hlast (e1.mp h)
    rw [if_neg hlast]; unfold slot slotIdle
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch2) (LoadRect.whole S32x128) f = f :=
        fun f => Memref.readAt_whole (Elt F) cc0_scratch2 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch2) g P Finset.univ = P :=
        fun g P => View.write_whole_univ cc0_scratch2 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HF_dst HF Hrest]
    · isplitl [HF_dst]; · iexists _; iexact HF_dst
      isplitl [HF]; · iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.BlockB

end
-- ==== Proof.BlockTrip2B.lean ====
/-
  One trip of the block-gather loop whose number is 2 mod 8: it serves slot 2. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq2 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip2 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 2) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c5 : k0_cond5 k = 1#1 := o2.mpr hres
  have c1 : ¬ k0_cond1 k = 1#1 := fun h => by have := o0.mp h; omega
  have c3 : ¬ k0_cond3 k = 1#1 := fun h => by have := o1.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 2 k.val hres hk, slotAt_succ_self m d L q fs _ _ 2 k.val hres,
    slotAt_succ_other m d L q fs _ _ 0 k.val (by omega) (by omega),
    slotAt_succ_other m d L q fs _ _ 1 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c6 : k0_cond6 k = 1#1 := e2.mpr hlast
    rw [if_pos hlast, wAt_off fs (k.val + 8) hlast (k0_off15 k) (k0_off15_inb k c5 c6) (k0_off15_eq k)]
    unfold slot
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch3) (LoadRect.whole S32x128) f = f :=
        fun f => Memref.readAt_whole (Elt F) cc0_scratch3 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch3) g P Finset.univ = P :=
        fun g P => View.write_whole_univ cc0_scratch3 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HF Hrest]
    · isplitl [HF]; · iexists _; iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c6 : ¬ k0_cond6 k = 1#1 := fun h => hlast (e2.mp h)
    rw [if_neg hlast]; unfold slot slotIdle
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch3) (LoadRect.whole S32x128) f = f :=
        fun f => Memref.readAt_whole (Elt F) cc0_scratch3 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch3) g P Finset.univ = P :=
        fun g P => View.write_whole_univ cc0_scratch3 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HF_dst HF Hrest]
    · isplitl [HF_dst]; · iexists _; iexact HF_dst
      isplitl [HF]; · iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.BlockB

end
-- ==== Proof.BlockTrip3B.lean ====
/-
  One trip of the block-gather loop whose number is 3 mod 8: it serves slot 3. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq3 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip3 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 3) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c7 : k0_cond7 k = 1#1 := o3.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 3 k.val hres hk, slotAt_succ_self m d L q fs _ _ 3 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c8 : k0_cond8 k = 1#1 := e3.mpr hlast
    rw [if_pos hlast, wAt_off fs (k.val + 8) hlast (k0_off17 k) (k0_off17_inb k c7 c8) (k0_off17_eq k)]
    unfold slot
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch4) (LoadRect.whole S32x128) f = f :=
        fun f => Memref.readAt_whole (Elt F) cc0_scratch4 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch4) g P Finset.univ = P :=
        fun g P => View.write_whole_univ cc0_scratch4 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HF Hrest]
    · isplitl [HF]; · iexists _; iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c8 : ¬ k0_cond8 k = 1#1 := fun h => hlast (e3.mp h)
    rw [if_neg hlast]; unfold slot slotIdle
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch4) (LoadRect.whole S32x128) f = f :=
        fun f => Memref.readAt_whole (Elt F) cc0_scratch4 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch4) g P Finset.univ = P :=
        fun g P => View.write_whole_univ cc0_scratch4 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HF_dst HF Hrest]
    · isplitl [HF_dst]; · iexists _; iexact HF_dst
      isplitl [HF]; · iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.BlockB

end
-- ==== Proof.BlockTrip4B.lean ====
/-
  One trip of the block-gather loop whose number is 4 mod 8: it serves slot 4. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq4 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip4 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 4) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c9 : k0_cond9 k = 1#1 := o4.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c11 : ¬ k0_cond11 k = 1#1 := fun h => by have := o5.mp h; omega
  have c13 : ¬ k0_cond13 k = 1#1 := fun h => by have := o6.mp h; omega
  have c15 : ¬ k0_cond15 k = 1#1 := fun h => by have := o7.mp h; omega
  unfold inv
  rw [slotAt_self m d L q fs _ _ 4 k.val hres hk, slotAt_succ_self m d L q fs _ _ 4 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c10 : k0_cond10 k = 1#1 := e4.mpr hlast
    rw [if_pos hlast, wAt_off fs (k.val + 8) hlast (k0_off19 k) (k0_off19_inb k c9 c10) (k0_off19_eq k)]
    unfold slot
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch5) (LoadRect.whole S32x128) f = f :=
        fun f => Memref.readAt_whole (Elt F) cc0_scratch5 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch5) g P Finset.univ = P :=
        fun g P => View.write_whole_univ cc0_scratch5 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF Hrest]
    · isplitl [HF]; · iexists _; iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c10 : ¬ k0_cond10 k = 1#1 := fun h => hlast (e4.mp h)
    rw [if_neg hlast]; unfold slot slotIdle
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch5) (LoadRect.whole S32x128) f = f :=
        fun f => Memref.readAt_whole (Elt F) cc0_scratch5 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch5) g P Finset.univ = P :=
        fun g P => View.write_whole_univ cc0_scratch5 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF_dst HF Hrest]
    · isplitl [HF_dst]; · iexists _; iexact HF_dst
      isplitl [HF]; · iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.BlockB

end
-- ==== Proof.BlockTrip5B.lean ====
/-
  One trip of the block-gather loop whose number is 5 mod 8: it serves slot 5. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq5 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip5 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 5) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c11 : k0_cond11 k = 1#1 := o5.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c13 : ¬ k0_cond13 k = 1#1 := fun h => by have := o6.mp h; omega
  have c15 : ¬ k0_cond15 k = 1#1 := fun h => by have := o7.mp h; omega
  unfold inv
  rw [slotAt_self m d L q fs _ _ 5 k.val hres hk, slotAt_succ_self m d L q fs _ _ 5 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 6 k.val (by omega) (by omega),
    slotAt_succ_other m d L q fs _ _ 7 k.val (by omega) (by omega)]
  by_cases hlast : k.val + 8 < 512
  · have c12 : k0_cond12 k = 1#1 := e5.mpr hlast
    rw [if_pos hlast, wAt_off fs (k.val + 8) hlast (k0_off21 k) (k0_off21_inb k c11 c12) (k0_off21_eq k)]
    unfold slot
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch6) (LoadRect.whole S32x128) f = f :=
        fun f => Memref.readAt_whole (Elt F) cc0_scratch6 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch6) g P Finset.univ = P :=
        fun g P => View.write_whole_univ cc0_scratch6 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF Hrest]
    · isplitl [HF]; · iexists _; iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c12 : ¬ k0_cond12 k = 1#1 := fun h => hlast (e5.mp h)
    rw [if_neg hlast]; unfold slot slotIdle
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch6) (LoadRect.whole S32x128) f = f :=
        fun f => Memref.readAt_whole (Elt F) cc0_scratch6 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch6) g P Finset.univ = P :=
        fun g P => View.write_whole_univ cc0_scratch6 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF_dst HF Hrest]
    · isplitl [HF_dst]; · iexists _; iexact HF_dst
      isplitl [HF]; · iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.BlockB

end
-- ==== Proof.BlockTrip6B.lean ====
/-
  One trip of the block-gather loop whose number is 6 mod 8: it serves slot 6. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq6 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip6 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 6) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c13 : k0_cond13 k = 1#1 := o6.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c15 : ¬ k0_cond15 k = 1#1 := fun h => by have := o7.mp h; omega
  unfold inv
  rw [slotAt_self m d L q fs _ _ 6 k.val hres hk, slotAt_succ_self m d L q fs _ _ 6 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 7 k.val (by omega) (by omega)]
  by_cases hlast : k.val + 8 < 512
  · have c14 : k0_cond14 k = 1#1 := e6.mpr hlast
    rw [if_pos hlast, wAt_off fs (k.val + 8) hlast (k0_off23 k) (k0_off23_inb k c13 c14) (k0_off23_eq k)]
    unfold slot
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch7) (LoadRect.whole S32x128) f = f :=
        fun f => Memref.readAt_whole (Elt F) cc0_scratch7 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch7) g P Finset.univ = P :=
        fun g P => View.write_whole_univ cc0_scratch7 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF Hrest]
    · isplitl [HF]; · iexists _; iexact HF
      iexact Hrest
    isplitl [HS7]; · iexact HS7
    iexists _; isplitr
    swap
    · iexact HO
    · ipureintro; intro p hp
      rcases Finset.mem_insert.mp hp with hp | hp
      · right; rw [hp]; rfl
      · exact hW' p hp
  · have c14 : ¬ k0_cond14 k = 1#1 := fun h => hlast (e6.mp h)
    rw [if_neg hlast]; unfold slot slotIdle
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch7) (LoadRect.whole S32x128) f = f :=
        fun f => Memref.readAt_whole (Elt F) cc0_scratch7 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch7) g P Finset.univ = P :=
        fun g P => View.write_whole_univ cc0_scratch7 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF_dst HF Hrest]
    · isplitl [HF_dst]; · iexists _; iexact HF_dst
      isplitl [HF]; · iexact HF
      iexact Hrest
    isplitl [HS7]; · iexact HS7
    iexists _; isplitr
    swap
    · iexact HO
    · ipureintro; intro p hp
      rcases Finset.mem_insert.mp hp with hp | hp
      · right; rw [hp]; rfl
      · exact hW' p hp

end Cert.Proof.BlockB

end
-- ==== Proof.BlockTrip7B.lean ====
/-
  One trip of the block-gather loop whose number is 7 mod 8: it serves slot 7. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvB
import proofs.«204991_g57140244906297_cont_9to1_m_249_19_alg».proof.Proof.BlockTripValueB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq7 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip7 (m : (ℓ : Loc nD τ sig) → Buf (Elt F) ℓ) (d : Dev nD) (L : grid0.Coords) (q : PosShare TreeShare)
    (O : CellTallies nD τ sig (HIx 4)) (W : Waits sig (HIx 4)) (fs : S528.Idx → Elt F .i32) (ft : S2048.Idx → Elt F .f32)
    (k : Fin k0_t1_loop.trips) (u : Unit) (hres : k.val % 8 = 7) :
    inv m d L q O W fs ft (colsDone m d fs ft) k.val u
      ⊢ (wp frame (wpE (defs₀ (F := F)) 𝒱₀ (thr d L) none) Set.univ
          (k0_t1_body L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1 k u)
          (inv m d L q O W fs ft (colsDone m d fs ft) (k.val + 1)) : sProp 𝕄) := by
  have hk : k.val < 512 := by
    have h := k.isLt
    have e : k0_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k0_t1_body
  have c15 : k0_cond15 k = 1#1 := o7.mpr hres
  have c1 : ¬ k0_cond1 k = 1#1 := fun h => by have := o0.mp h; omega
  have c3 : ¬ k0_cond3 k = 1#1 := fun h => by have := o1.mp h; omega
  have c5 : ¬ k0_cond5 k = 1#1 := fun h => by have := o2.mp h; omega
  have c7 : ¬ k0_cond7 k = 1#1 := fun h => by have := o3.mp h; omega
  have c9 : ¬ k0_cond9 k = 1#1 := fun h => by have := o4.mp h; omega
  have c11 : ¬ k0_cond11 k = 1#1 := fun h => by have := o5.mp h; omega
  have c13 : ¬ k0_cond13 k = 1#1 := fun h => by have := o6.mp h; omega
  unfold inv
  rw [slotAt_self m d L q fs _ _ 7 k.val hres hk, slotAt_succ_self m d L q fs _ _ 7 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega)]
  by_cases hlast : k.val + 8 < 512
  · have c16 : k0_cond16 k = 1#1 := e7.mpr hlast
    rw [if_pos hlast, wAt_off fs (k.val + 8) hlast (k0_off25 k) (k0_off25_inb k c15 c16) (k0_off25_eq k)]
    unfold slot
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch8) (LoadRect.whole S32x128) f = f :=
        fun f => Memref.readAt_whole (Elt F) cc0_scratch8 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch8) g P Finset.univ = P :=
        fun g P => View.write_whole_univ cc0_scratch8 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF Hrest]
    · isplitl [HF]; · iexists _; iexact HF
      iexact Hrest
    iexists _; isplitr
    swap
    · iexact HO
    · ipureintro; intro p hp
      rcases Finset.mem_insert.mp hp with hp | hp
      · right; rw [hp]; rfl
      · exact hW' p hp
  · have c16 : ¬ k0_cond16 k = 1#1 := fun h => hlast (e7.mp h)
    rw [if_neg hlast]; unfold slot slotIdle
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc0_scratch10).slice (Rect.whole S32x512)) f w Finset.univ = w :=
        fun f w => Memref.write_access_whole_univ (Elt F) cc0_scratch10 f w
      have e2 : ∀ f : S32x512.Idx → Elt F .f32, View.readAt (Elt F) (View.whole cc0_scratch10) (LoadRect.whole S32x512) f = f :=
        fun f => Memref.readAt_whole (Elt F) cc0_scratch10 f
      have e3 : ∀ f : S32x128.Idx → Elt F .f32, View.readAt (Elt F) (View.whole cc0_scratch8) (LoadRect.whole S32x128) f = f :=
        fun f => Memref.readAt_whole (Elt F) cc0_scratch8 f
      have e4 : ∀ f : S2048.Idx → Elt F .f32, View.readAt (Elt F) (View.whole cc0_scratch9) (LoadRect.whole S2048) f = f :=
        fun f => Memref.readAt_whole (Elt F) cc0_scratch9 f
      have e5 : ∀ g P : S32x128.Idx → Elt F .f32, View.write (Elt F) (View.whole cc0_scratch8) g P Finset.univ = P :=
        fun g P => View.write_whole_univ cc0_scratch8 g P
      simp only [View.readCov, View.writes_cons, View.writes_nil, e1, e2, e3, e4, e5]
      refine colsDone_step m d fs ft k.val fc _ hfc (fun r n => ?_)
      have hw : wAt fs k.val = wAtOff fs (k0_off10 k) (k0_off10_inb k) := wAt_off fs k.val hk _ _ (k0_off10_eq k)
      have hR : ∀ (r : Fin 32) (l : Fin 128), blkPay m d (wAt fs k.val) (ix2 r l)
          = m (ttLoc d) (ix2 r ⟨(blkOff (wAtOff fs (k0_off10 k) (k0_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k0_off10 k) (k0_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k0_off10 k) (k0_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF_dst HF Hrest]
    · isplitl [HF_dst]; · iexists _; iexact HF_dst
      isplitl [HF]; · iexact HF
      iexact Hrest
    iexists _; isplitr
    swap
    · iexact HO
    · ipureintro; intro p hp
      rcases Finset.mem_insert.mp hp with hp | hp
      · right; rw [hp]; rfl
      · exact hW' p hp

end Cert.Proof.BlockB

end
-- ==== Proof.BlockEndsB.lean ====
/-
  The two ends of the block-gather task, as facts about contents.

  The index scratch after the first copy holds, in its first 512 words, the task's 512 index words; a 16-lane load at
  offset `j < 512` therefore has word `j` of the task, which is word `k0_off1 L + j` of the index array, in lane 0.
  The write-out copies the whole staging block over the task's block of the output, columns
  `k0_off27 L … + 511` of all 32 rows: if the staging block holds `g` at those columns, the output holds `g` on the
  task's block afterwards. The index slice and the output block start at the same column, `1024 · (L 1) + 512 · (L 0)`.
-/
import proofs.«204991_g57140244906297_cont_9to1_m_249_19_alg».proof.Proof.BlockDefsB
import Idealize.ShloMosaic.Lib.Writes

noncomputable section

namespace Cert.Proof.BlockB

open Cert.Kernel Cert.Kernel.Gen
open Idealize.ShloMosaic Idealize.ShloMosaic.ValueIdx

variable {F : FTy → Type} [FloatOps F]

/-- The index slice and the output block of a task start at the same column. -/
theorem off1_eq_off27 (L : grid0.Coords) : (k0_off1 L) 0 = (k0_off27 L) 1 := by
  rw [k0_off1_eq, k0_off27_eq]
  rfl

/-- The output block of a task starts at row 0. -/
theorem off27_row (L : grid0.Coords) : (k0_off27 L) 0 = 0 := by
  rw [k0_off27_eq]
  rfl

/-- Column `n` of a task's output block lies inside the output. -/
theorem off27_lt (L : grid0.Coords) (n : Fin 512) : (k0_off27 L) 1 + n.val < 16384 := by
  have h : (k0_off27 L) 1 + 512 ≤ 16384 := k0_off27_inb L 1
  have := n.isLt
  omega

/-- After the staging block is written whole over the task's block of the output, that block holds `g` if the staging
    block held `g` at the task's columns. -/
theorem out_value (f0 : S32x16384.Idx → Elt F .f32) (fc : S32x512.Idx → Elt F .f32) (g : S32x16384.Idx → Elt F .f32)
    (L : grid0.Coords)
    (hfc : ∀ (r : Fin 32) (n : Fin 512), fc (ix2 r n) = g (ix2 r ⟨(k0_off27 L) 1 + n.val, off27_lt L n⟩)) :
    ∀ i ∈ (outBlk L).view.set, (outBlk L).view.writes (Elt F) f0 [⟨Rect.whole S32x512, fc⟩] i = g i := by
  intro i hi
  obtain ⟨y, -, rfl⟩ := Finset.mem_map.mp hi
  have h1 := View.read_writes_cons_emb (outBlk L).view f0 (Rect.whole S32x512) fc [] y
  rw [Rect.emb_whole_apply, View.read_apply] at h1
  refine ((eq_of_heq (cast_heq _ _)).symm.trans h1).trans ?_
  obtain ⟨r, n, rfl⟩ : ∃ (r : Fin 32) (n : Fin 512), y = ix2 r n := ⟨y 0, y 1, eq_ix2 y⟩
  rw [hfc]
  refine congrArg g (funext fun a => ?_)
  match a with
  | ⟨0, _⟩ =>
    refine Fin.ext ?_
    show r.val = (k0_off27 L) 0 + 1 * r.val
    rw [off27_row]
    omega
  | ⟨1, _⟩ =>
    refine Fin.ext ?_
    show (k0_off27 L) 1 + n.val = (k0_off27 L) 1 + 1 * n.val
    omega

/-- Word `j` of a task's index slice lies inside the index array. -/
theorem off1_lt (L : grid0.Coords) (j : ℕ) (hj : j < 512) : (k0_off1 L) 0 + j < 16384 := by
  have h : (k0_off1 L) 0 + 512 ≤ 16384 := k0_off1_inb L 0
  omega

/-- The word a kernel extracts from a 16-lane vector: its lane 0. -/
theorem lane0_eq {α : Type} (X : S16.Idx → α) :
    extractAt ![0] (extractStridedSlice (s := S16) S1 ![0] X slices_S16_o0_S1) inpos_S1_p0 = X (ix1 (0 : Fin 16)) := by
  show X _ = X _
  refine congrArg X (funext fun a => ?_)
  match a with
  | ⟨0, _⟩ => exact Fin.ext rfl

/-- After the first copy has put the task's 512 index words at the head of the index scratch, lane 0 of a 16-lane
    load of the scratch at offset `j < 512` is word `k0_off1 L + j` of the index array. -/
theorem sidx_word (g0 : S528.Idx → Elt F .i32) (ids : S16384.Idx → Elt F .i32) (L : grid0.Coords) (j : ℕ) (hj : j < 512)
    (off : Fin 1 → ℕ) (h : ∀ a, off a + S16.size a ≤ S528.size a) (e : off = ![j]) :
    extractAt ![0] (extractStridedSlice (s := S16) S1 ![0]
      (((Memref.whole cc0_scratch0 : Memref sig .scVector .vmem S528 .i32).view.readAt (Elt F)
          (Rect.unit (s := S528) off S16.size h).toLoadRect
          ((Memref.whole cc0_scratch0 : Memref sig .scVector .vmem S528 .i32).view.writes (Elt F) g0
            [⟨Rect.unit (s := S528) ![0] S512.size inb_S528_S512_0,
              (ReadAs.same : ReadAs (Elt F) S512 .i32 S512 .i32).apply
                ((idsV.slice (Rect.unit (s := S16384) (k0_off1 L) S512.size (k0_off1_inb L)) (fun _ => rfl)).view.read (Elt F) ids)⟩]) :
        Vec F S16 .i32))
      slices_S16_o0_S1) inpos_S1_p0
    = ids (ix1 ⟨(k0_off1 L) 0 + j, off1_lt L j hj⟩) := by
  subst e
  refine (lane0_eq _).trans ?_
  have hidx : (Rect.unit (s := S528) ![j] S16.size h).toLoadRect.idx (ix1 (0 : Fin 16))
      = (Rect.unit (s := S528) ![0] S512.size inb_S528_S512_0).emb (ix1 (⟨j, hj⟩ : Fin 512)) := by
    funext a
    match a with
    | ⟨0, _⟩ =>
      refine Fin.ext ?_
      show j + 1 * 0 = 0 + 1 * j
      omega
  show View.read (Elt F) _ _ ((Rect.unit (s := S528) ![j] S16.size h).toLoadRect.idx (ix1 (0 : Fin 16))) = _
  rw [hidx, View.read_writes_cons_emb]
  show View.read (Elt F) (idsV.slice (Rect.unit (s := S16384) (k0_off1 L) S512.size (k0_off1_inb L)) (fun _ => rfl)).view ids
    (ix1 (⟨j, hj⟩ : Fin 512)) = _
  rw [View.read_apply]
  refine (eq_of_heq (cast_heq _ _)).trans (congrArg ids (funext fun a => ?_))
  match a with
  | ⟨0, _⟩ =>
    refine Fin.ext ?_
    show (k0_off1 L) 0 + 1 * j = (k0_off1 L) 0 + j
    omega

end Cert.Proof.BlockB

end
-- ==== Proof.BlockBodyB.lean ====
/-
  The task of one vector subcore in the block-gather kernel, as a weakest-precondition entailment over explicit
  resources: the three operand arrays at a read share, the task's block of the output, the subcore's scratch and
  semaphores. The task copies its 512 index words and the tail, starts the ring's eight copies from eight read tokens
  of the table, runs the 512 trips by the loop's invariant, and writes the columns out; it ends holding what it was
  handed, its block of the output rewritten to `E` of the operands.
-/
import proofs.«204991_g57140244906297_cont_9to1_m_249_19_alg».proof.Proof.BlockInvB
import proofs.«204991_g57140244906297_cont_9to1_m_249_19_alg».proof.Proof.BlockTrip0B
import proofs.«204991_g57140244906297_cont_9to1_m_249_19_alg».proof.Proof.BlockTrip1B
import proofs.«204991_g57140244906297_cont_9to1_m_249_19_alg».proof.Proof.BlockTrip2B
import proofs.«204991_g57140244906297_cont_9to1_m_249_19_alg».proof.Proof.BlockTrip3B
import proofs.«204991_g57140244906297_cont_9to1_m_249_19_alg».proof.Proof.BlockTrip4B
import proofs.«204991_g57140244906297_cont_9to1_m_249_19_alg».proof.Proof.BlockTrip5B
import proofs.«204991_g57140244906297_cont_9to1_m_249_19_alg».proof.Proof.BlockTrip6B
import proofs.«204991_g57140244906297_cont_9to1_m_249_19_alg».proof.Proof.BlockTrip7B
import proofs.«204991_g57140244906297_cont_9to1_m_249_19_alg».proof.Proof.BlockEndsB
import proofs.«204991_g57140244906297_cont_9to1_m_249_19_alg».proof.Proof.BlockEnds2B
import proofs.«204991_g57140244906297_cont_9to1_m_249_19_alg».proof.Proof.Gen.Kernel.Skeleton

noncomputable section

namespace Cert.Proof.BlockB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

set_option maxHeartbeats 16000000 in
theorem body (m : (ℓ : Loc nD τ sig) → Buf (Elt F) ℓ) (d : Dev nD) (L : grid0.Coords)
    (O : CellTallies nD τ sig (HIx 4)) (W : Waits sig (HIx 4)) (hO : ∀ g, O g none = 0)
    (f0 : Buf (Elt F) (outLoc d)) (q : PosShare TreeShare) :
    iprop(levAts (K (F := F)).L (K (F := F)).lev
        ∗ ((idsLoc d ↦{q} m (idsLoc d)) ∗ (ttLoc d ↦{q} m (ttLoc d)) ∗ (tailLoc d ↦{q} m (tailLoc d)))
        ∗ (outLoc d ↦[outSet L]{fullShare} f0)
        ∗ scopedBufs (thr d L) ∗ scopedSems0 (thr d L) ∗ owes (thr d L) O W)
      ⊢ (wp frame (wpE (defs₀ (F := F)) 𝒱₀ (thr d L) none) Set.univ
          (cc0_block_gather L idsV (Memref.isWhole_whole _) ttV (Memref.isWhole_whole _) tailV (Memref.isWhole_whole _)
            outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scratch13 cc0_scratch14 cc0_scratch15 cc0_scratch16 cc0_scratch17 cc0_scratch18
            cc0_scratch19 cc0_scoped0 cc0_scoped1)
          fun _ => iprop(((idsLoc d ↦{q} m (idsLoc d)) ∗ (ttLoc d ↦{q} m (ttLoc d)) ∗ (tailLoc d ↦{q} m (tailLoc d)))
            ∗ (outLoc d ↦[outSet L]{fullShare} E (m (idsLoc d)) (m (ttLoc d)) (m (tailLoc d)))
            ∗ scopedBufs (thr d L) ∗ scopedSems0 (thr d L)
            ∗ ∃ W', ⌜∀ p ∈ W', p ∈ W ∨ p.2 = none⌝ ∗ owes (thr d L) O W') : sProp 𝕄) := by
  simp only [cc0_block_gather_eq_skeleton]; unfold cc0_block_gather_skel
  rw [(K (F := F)).scopedBufs_V facts d (cV L) (jV L), SparseCore.Cfg.scopedSems0_V (Val := Elt F) d (cV L) (jV L),
    ownSems0_open, ownBufs_open]
  simp only [semList, bufList, List.map, List.foldr]
  iintro ⟨#Hlv, ⟨Hids, Htt, Htail⟩, Hout, ⟨⟨%g0, Hb0⟩, ⟨%g1, Hb1⟩, ⟨%g2, Hb2⟩, ⟨%g3, Hb3⟩, ⟨%g4, Hb4⟩, ⟨%g5, Hb5⟩, ⟨%g6, Hb6⟩,
    ⟨%g7, Hb7⟩, ⟨%g8, Hb8⟩, ⟨%g9, Hb9⟩, ⟨%g10, Hb10⟩, Hbrest⟩,
    ⟨Hs11, Hs12, Hs13, Hs14, Hs15, Hs16, Hs17, Hs18, Hs19, Hsc0, Hsc1, Hsrest⟩, HO⟩
  ihave Hmw := ((K (F := F)).mayWaits_none (thr := thr d L) hO) $$ Hlv
  ihave Hids := (Entails.of_eq (pts_ids (F := F) d L q _)) $$ Hids
  ihave Htt := (Entails.of_eq (pts_tt (F := F) d L q _)) $$ Htt
  ihave Htail := (Entails.of_eq (pts_tail (F := F) d L q _)) $$ Htail
  ihave Hout := (Entails.of_eq (pts_out (F := F) d L _)) $$ Hout
  ihave Hb0 := (Entails.of_eq (pts_scr (F := F) d L cc0_scratch0 _)) $$ Hb0
  ihave Hb1 := (Entails.of_eq (pts_scr (F := F) d L cc0_scratch1 _)) $$ Hb1
  ihave Hb2 := (Entails.of_eq (pts_scr (F := F) d L cc0_scratch2 _)) $$ Hb2
  ihave Hb3 := (Entails.of_eq (pts_scr (F := F) d L cc0_scratch3 _)) $$ Hb3
  ihave Hb4 := (Entails.of_eq (pts_scr (F := F) d L cc0_scratch4 _)) $$ Hb4
  ihave Hb5 := (Entails.of_eq (pts_scr (F := F) d L cc0_scratch5 _)) $$ Hb5
  ihave Hb6 := (Entails.of_eq (pts_scr (F := F) d L cc0_scratch6 _)) $$ Hb6
  ihave Hb7 := (Entails.of_eq (pts_scr (F := F) d L cc0_scratch7 _)) $$ Hb7
  ihave Hb8 := (Entails.of_eq (pts_scr (F := F) d L cc0_scratch8 _)) $$ Hb8
  ihave Hb9 := (Entails.of_eq (pts_scr (F := F) d L cc0_scratch9 _)) $$ Hb9
  ihave Hb10 := (Entails.of_eq (pts_scr (F := F) d L cc0_scratch10 _)) $$ Hb10
  ihave Htt := (Transfers.pointsTo_toks_range (S := Finset.univ) q 8).1 $$ Htt
  icases Htt with ⟨Httd, Htoks⟩
  ihave Htoks := (Entails.of_eq (bigSep_range8 _)) $$ Htoks
  icases Htoks with ⟨Hk0, Hk1, Hk2, Hk3, Hk4, Hk5, Hk6, Hk7, -⟩
  (set_option sl_exec.maxSteps 4 in sl_exec)
  -- the index scratch and the tail as loaded, named
  generalize hfs : ((Memref.whole cc0_scratch0 : Memref sig .scVector .vmem S528 .i32).view.writes (Elt F) g0 _) = fs
  generalize hft : (View.write (Elt F) (Memref.whole cc0_scratch9 : Memref sig .scVector .vmem S2048 .f32).view g9 _ Finset.univ) = ft
  sl_exec (disch := exact blk_ok _)
  sl_for (inv m d L q O W fs ft (colsDone m d fs ft)) $$ [Hmw Hb0 Hb9 Hb10 Hs11 Hk0 Hs12 Hk1 Hs13 Hk2 Hs14 Hk3 Hs15 Hk4 Hs16 Hk5 Hs17 Hk6 Hs18 Hk7 HO]
  case region =>
    intro k u
    rcases (show k.val % 8 = 0 ∨ k.val % 8 = 1 ∨ k.val % 8 = 2 ∨ k.val % 8 = 3 ∨ k.val % 8 = 4 ∨ k.val % 8 = 5 ∨ k.val % 8 = 6 ∨ k.val % 8 = 7 by omega)
      with hres | hres | hres | hres | hres | hres | hres | hres
    · exact trip0 m d L q O W fs ft k u hres
    · exact trip1 m d L q O W fs ft k u hres
    · exact trip2 m d L q O W fs ft k u hres
    · exact trip3 m d L q O W fs ft k u hres
    · exact trip4 m d L q O W fs ft k u hres
    · exact trip5 m d L q O W fs ft k u hres
    · exact trip6 m d L q O W fs ft k u hres
    · exact trip7 m d L q O W fs ft k u hres

  · unfold inv
    isplitr; · iexact Hmw
    isplitl [Hb0]; · iexact Hb0
    isplitl [Hb9]; · iexact Hb9
    isplitl [Hb10]
    · iexists g10; isplitl [Hb10]; · iexact Hb10
      ipureintro; intro r n hn; omega
    isplitl [Hs11 Hk0]
    · iapply (Entails.of_eq (slotAt_zero m d L q fs _ _ 0 (by omega)).symm)
      unfold slot
      isplitl [Hs11]; · iexists g1; iexact Hs11
      iexact Hk0
    isplitl [Hs12 Hk1]
    · iapply (Entails.of_eq (slotAt_zero m d L q fs _ _ 1 (by omega)).symm)
      unfold slot
      isplitl [Hs12]; · iexists g2; iexact Hs12
      iexact Hk1
    isplitl [Hs13 Hk2]
    · iapply (Entails.of_eq (slotAt_zero m d L q fs _ _ 2 (by omega)).symm)
      unfold slot
      isplitl [Hs13]; · iexists g3; iexact Hs13
      iexact Hk2
    isplitl [Hs14 Hk3]
    · iapply (Entails.of_eq (slotAt_zero m d L q fs _ _ 3 (by omega)).symm)
      unfold slot
      isplitl [Hs14]; · iexists g4; iexact Hs14
      iexact Hk3
    isplitl [Hs15 Hk4]
    · iapply (Entails.of_eq (slotAt_zero m d L q fs _ _ 4 (by omega)).symm)
      unfold slot
      isplitl [Hs15]; · iexists g5; iexact Hs15
      iexact Hk4
    isplitl [Hs16 Hk5]
    · iapply (Entails.of_eq (slotAt_zero m d L q fs _ _ 5 (by omega)).symm)
      unfold slot
      isplitl [Hs16]; · iexists g6; iexact Hs16
      iexact Hk5
    isplitl [Hs17 Hk6]
    · iapply (Entails.of_eq (slotAt_zero m d L q fs _ _ 6 (by omega)).symm)
      unfold slot
      isplitl [Hs17]; · iexists g7; iexact Hs17
      iexact Hk6
    isplitl [Hs18 Hk7]
    · iapply (Entails.of_eq (slotAt_zero m d L q fs _ _ 7 (by omega)).symm)
      unfold slot
      isplitl [Hs18]; · iexists g8; iexact Hs18
      iexact Hk7
    iexists _; isplitr
    swap
    · iexact HO
    · ipureintro; intro p hp
      rcases Finset.mem_insert.mp hp with hp | hp
      · right; rw [hp]; rfl
      rcases Finset.mem_insert.mp hp with hp | hp
      · right; rw [hp]; rfl
      · exact .inl hp
  iintro %u HI
  have htrips : Scf.trips k0_t1_loop.lb k0_t1_loop.ub k0_t1_loop.st = 512 := by decide
  ihave HI := (Entails.of_eq ((congrArg (fun n => inv m d L q O W fs ft (colsDone m d fs ft) n u) htrips).trans (inv_end m d L q O W fs ft _ u))) $$ HI
  unfold slotIdle
  icases HI with ⟨-, Hb0, Hb9, ⟨%fc, Hb10, %hfc⟩, ⟨⟨%r1, Hb1⟩, Hs11, Hk0⟩, ⟨⟨%r2, Hb2⟩, Hs12, Hk1⟩, ⟨⟨%r3, Hb3⟩, Hs13, Hk2⟩,
    ⟨⟨%r4, Hb4⟩, Hs14, Hk3⟩, ⟨⟨%r5, Hb5⟩, Hs15, Hk4⟩, ⟨⟨%r6, Hb6⟩, Hs16, Hk5⟩, ⟨⟨%r7, Hb7⟩, Hs17, Hk6⟩, ⟨⟨%r8, Hb8⟩, Hs18, Hk7⟩,
    ⟨%W', %hW', HO⟩⟩
  sl_exec
  sl_step
  isplitl [Hids Httd Hk0 Hk1 Hk2 Hk3 Hk4 Hk5 Hk6 Hk7 Htail]
  · isplitl [Hids]; · iexact Hids
    isplitr [Htail]
    · iapply (Transfers.pointsTo_toks_range (S := Finset.univ) q 8).2
      isplitl [Httd]; · iexact Httd
      iapply (Entails.of_eq (bigSep_range8 _).symm)
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      iempintro
    · iexact Htail
  isplitl [Hout]
  · have hfsI : ∀ (j : ℕ) (hj : j < 512), wAt fs j = m (idsLoc d) (ix1 ⟨(k0_off1 L) 0 + j, off1_lt L j hj⟩) := by
      intro j hj
      rw [← hfs]
      unfold wAt
      rw [dif_pos hj]
      exact sidx_word g0 (m (idsLoc d)) L j hj ![j] (off_inb j hj) rfl
    have hftI : ft = m (tailLoc d) := by
      rw [← hft]
      exact tail_copy g9 (m (tailLoc d))
    have hout : ∀ i ∈ (outBlk L).view.set, (outBlk L).view.writes (Elt F) f0 [⟨Rect.whole S32x512, body.sl.dma0_2 fc⟩] i
        = E (m (idsLoc d)) (m (ttLoc d)) (m (tailLoc d)) i := by
      refine out_value f0 fc _ L (fun r n => ?_)
      have hw : wAt fs n.val = m (idsLoc d) (ix1 ⟨(k0_off27 L) 1 + n.val, off27_lt L n⟩) := by
        refine (hfsI n.val n.isLt).trans ?_
        have e : (⟨(k0_off1 L) 0 + n.val, off1_lt L n.val n.isLt⟩ : Fin 16384) = ⟨(k0_off27 L) 1 + n.val, off27_lt L n⟩ :=
          Fin.ext (by show (k0_off1 L) 0 + n.val = (k0_off27 L) 1 + n.val; rw [off1_eq_off27])
        rw [e]
      rw [hfc r n n.isLt, colVal_eq0 m d fs ft r n.val _ hw, hftI]
      rfl
    iapply (Entails.of_eq (pointsTo_congr hout))
    iexact Hout
  isplitl [Hb0 Hb1 Hb2 Hb3 Hb4 Hb5 Hb6 Hb7 Hb8 Hb9 Hb10 Hbrest]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    isplitl [Hb10]; · iexists _; iexact Hb10
    iexact Hbrest
  isplitl [Hs11 Hs12 Hs13 Hs14 Hs15 Hs16 Hs17 Hs18 Hs19 Hsc0 Hsc1 Hsrest]
  · isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hsc0]; · iexact Hsc0
    isplitl [Hsc1]; · iexact Hsc1
    iexact Hsrest
  iexists _; isplitr
  swap
  · iexact HO
  · ipureintro; intro p hp
    rcases Finset.mem_insert.mp hp with hp | hp
    · right; rw [hp]; rfl
    · exact hW' p hp

end Cert.Proof.BlockB

end
-- ==== Proof.PackedValueB.lean ====
/-
  The pure side of the packed gather's task: words (shifts, masks, the lane word below 128), the contents the three loops
  leave in the scratch buffers as functions of the trip count, and the store lemmas — one store of 16 shifted words, and
  sixteen stores of 16 lanes along a row of the 32 × 512 block, each lane of a gathered row picked by its index word.
-/
import Idealize.ShloMosaic.Lib.Writes
import Idealize.ShloMosaic.Lib.ValueIdx
import Idealize.ShloMosaic.Lib.Scf
import Idealize.ShloMosaic.Lib.SparseCore.Stream
import proofs.«204991_g57140244906297_cont_9to1_m_249_19_alg».proof.Proof.PackedDefsB

noncomputable section

namespace Cert.Proof.PackedB

open Idealize.ShloMosaic Cert.Kernel Cert.Kernel.Gen
open Idealize.ShloMosaic.ValueIdx (ix1 ix2)

/-! ## Words -/

theorem shli5 (x : BitVec 32) : IntOp.shli .vector x 5#32 = x <<< 5 := by
  simp [IntOp.shli]
theorem shrui2 (x : BitVec 32) : IntOp.shrui .vector x 2#32 = x >>> 2 := by
  simp [IntOp.shrui]
theorem andi3 (x : BitVec 32) : IntOp.andi x 3#32 = x &&& 3#32 := rfl
theorem addi' (x y : BitVec 32) : IntOp.addi x y = x + y := rfl

theorem shr2_toNat (x : BitVec 32) : (x >>> 2).toNat = x.toNat / 4 := by
  rw [BitVec.toNat_ushiftRight, Nat.shiftRight_eq_div_pow]

theorem and3_toNat (x : BitVec 32) : (x &&& 3#32).toNat = x.toNat % 4 := by
  rw [BitVec.toNat_and]
  exact Nat.and_two_pow_sub_one_eq_mod x.toNat 2

theorem lane_toNat (x c : BitVec 32) (hc : c.toNat < 32) : (((x &&& 3#32) <<< 5) + c).toNat = 32 * (x.toNat % 4) + c.toNat := by
  rw [BitVec.toNat_add, BitVec.toNat_shiftLeft, and3_toNat, Nat.shiftLeft_eq]
  have : x.toNat % 4 < 4 := Nat.mod_lt _ (by decide)
  omega

theorem lane_lt (x c : BitVec 32) (hc : c.toNat < 32) : (((x &&& 3#32) <<< 5) + c).toNat < 128 := by
  rw [lane_toNat x c hc]
  have : x.toNat % 4 < 4 := Nat.mod_lt _ (by decide)
  omega

theorem shr2_lt (x : BitVec 32) {V : Nat} (h : x.toNat < 4 * V) : (x >>> 2).toNat < V := by
  rw [shr2_toNat]; omega

/-- The column word of trip `k` of a counted loop from 0 by 1. -/
abbrev cK (k : ℕ) : BitVec 32 := Scalar.addi 0#32 (Scalar.muli (Scf.iv 0#32 1#32 k) 1#32)

theorem cK_toNat (k : ℕ) (hk : k < 32) : (cK k).toNat = k := by
  simp [cK, Scalar.addi, Scalar.muli, IntOp.addi, IntOp.muli, Scf.iv]
  omega

theorem iota_apply (h : S16.Iotas .scVector 32 [0]) (x : S16.Idx) : iota .scVector S16 32 [0] h x = BitVec.ofNat 32 (x 0).val := by
  simp [iota]

/-- Every lane a column trip reads of a gathered block is in the block: row 16·g + lane, lane word below 128. -/
theorem chk_ok (h : S16.Iotas .scVector 32 [0]) (r0 : BitVec 32) (hr : r0.toNat + 16 ≤ 256) (idv : IVec S16 32) (c : BitVec 32) (hc : c.toNat < 32) :
    ∀ (a : Fin 2) (x : S16.Idx),
      ((![addi (iota .scVector S16 32 [0] h) (broadcast S16 r0),
          addi (shli (andi idv (broadcast S16 3#32)) (broadcast S16 5#32)) (broadcast S16 c)] : Fin 2 → IVec S16 32) a x).toNat < S256x128.size a := by
  intro a x
  fin_cases a
  · show (IntOp.addi (iota .scVector S16 32 [0] h x) r0).toNat < 256
    rw [iota_apply, addi', BitVec.toNat_add, BitVec.toNat_ofNat]
    have := (x 0).isLt
    have : (x 0).val < 16 := this
    omega
  · show (IntOp.addi (IntOp.shli .vector (IntOp.andi (idv x) 3#32) 5#32) c).toNat < 128
    rw [shli5, andi3, addi']; exact lane_lt _ _ hc

/-! ## The contents the loops leave -/

/-- The shifted words after `k` trips of the first loop: lanes below 16·k hold the index word shifted right by two. -/
def q1F (F5 f6 : S512.Idx → BitVec 32) (k : ℕ) : S512.Idx → BitVec 32 :=
  fun j => if (j 0).val < 16 * k then F5 j >>> 2 else f6 j

/-- Every lane after the first loop: the index word shifted right by two. -/
def qFull (F5 : S512.Idx → BitVec 32) : S512.Idx → BitVec 32 := fun j => F5 j >>> 2

theorem q1F_zero (F5 f6 : S512.Idx → BitVec 32) : f6 = q1F F5 f6 0 := by
  funext j; simp [q1F]

theorem q1F_32 (F5 f6 : S512.Idx → BitVec 32) : q1F F5 f6 32 = qFull F5 := by
  funext j
  have : (j 0).val < 512 := (j 0).isLt
  simp only [q1F, qFull]
  rw [if_pos (by omega)]

/-- The column of an index of the 32 × 512 block, as a position of the task's 512. -/
def colOf (y : S32x512.Idx) : S512.Idx := ix1 ⟨(y 1).val, (y 1).isLt⟩

/-- The block after `k` column trips over the half starting at column `b0`: rows below `k` of that half hold, at
    column n, lane ((idx n &&& 3) <<< 5) + row of gathered row n - b0. -/
def cHalf {α : Type} (R : S256x128.Idx → α) (F5 : S512.Idx → BitVec 32) (b0 : ℕ) (Cf : S32x512.Idx → α) (k : ℕ) : S32x512.Idx → α :=
  fun y => if (y 0).val < k ∧ b0 ≤ (y 1).val ∧ (y 1).val < b0 + 256 then
      R (ix2 ⟨((y 1).val - b0) % 256, Nat.mod_lt _ (by decide)⟩
        ⟨(((F5 (colOf y) &&& 3#32) <<< 5) + BitVec.ofNat 32 (y 0).val).toNat % 128, Nat.mod_lt _ (by decide)⟩)
    else Cf y

theorem cHalf_zero {α : Type} (R : S256x128.Idx → α) (F5 : S512.Idx → BitVec 32) (b0 : ℕ) (Cf : S32x512.Idx → α) : Cf = cHalf R F5 b0 Cf 0 := by
  funext y; simp [cHalf]

/-! ## Sixteen stores along a row -/

theorem mem_unit_row (off : Fin 2 → ℕ) (k c0 : ℕ) (hoff : off = ![k, c0]) (inb : ∀ a, off a + S1x16.size a ≤ S32x512.size a) (y : S32x512.Idx) :
    y ∈ (Rect.unit (s := S32x512) off S1x16.size inb).set ↔ ((y 0).val = k ∧ c0 ≤ (y 1).val ∧ (y 1).val < c0 + 16) := by
  subst hoff
  rw [Rect.mem_set_unit, Fin.forall_fin_two]
  show (k ≤ (y 0).val ∧ (y 0).val < k + 1) ∧ (c0 ≤ (y 1).val ∧ (y 1).val < c0 + 16) ↔ _
  omega

/-- Sixteen stores of 16 lanes each along row `k` of the half starting at column `b0`, each piece a block of the contents
    after `k + 1` trips: the contents after `k` trips become those after `k + 1`. -/
theorem cols16 {F : FTy → Type} (R : S256x128.Idx → Elt F .f32) (F5 : S512.Idx → BitVec 32) (b0 k : ℕ) (Cf : S32x512.Idx → Elt F .f32)
    (r0 : Rect S32x512) (w0 : r0.shape.Idx → Elt F .f32)
    (r1 : Rect S32x512) (w1 : r1.shape.Idx → Elt F .f32)
    (r2 : Rect S32x512) (w2 : r2.shape.Idx → Elt F .f32)
    (r3 : Rect S32x512) (w3 : r3.shape.Idx → Elt F .f32)
    (r4 : Rect S32x512) (w4 : r4.shape.Idx → Elt F .f32)
    (r5 : Rect S32x512) (w5 : r5.shape.Idx → Elt F .f32)
    (r6 : Rect S32x512) (w6 : r6.shape.Idx → Elt F .f32)
    (r7 : Rect S32x512) (w7 : r7.shape.Idx → Elt F .f32)
    (r8 : Rect S32x512) (w8 : r8.shape.Idx → Elt F .f32)
    (r9 : Rect S32x512) (w9 : r9.shape.Idx → Elt F .f32)
    (r10 : Rect S32x512) (w10 : r10.shape.Idx → Elt F .f32)
    (r11 : Rect S32x512) (w11 : r11.shape.Idx → Elt F .f32)
    (r12 : Rect S32x512) (w12 : r12.shape.Idx → Elt F .f32)
    (r13 : Rect S32x512) (w13 : r13.shape.Idx → Elt F .f32)
    (r14 : Rect S32x512) (w14 : r14.shape.Idx → Elt F .f32)
    (r15 : Rect S32x512) (w15 : r15.shape.Idx → Elt F .f32)
    (hm0 : ∀ y : S32x512.Idx, y ∈ r0.set ↔ ((y 0).val = k ∧ b0 + 0 ≤ (y 1).val ∧ (y 1).val < b0 + 0 + 16))
    (hm1 : ∀ y : S32x512.Idx, y ∈ r1.set ↔ ((y 0).val = k ∧ b0 + 16 ≤ (y 1).val ∧ (y 1).val < b0 + 16 + 16))
    (hm2 : ∀ y : S32x512.Idx, y ∈ r2.set ↔ ((y 0).val = k ∧ b0 + 32 ≤ (y 1).val ∧ (y 1).val < b0 + 32 + 16))
    (hm3 : ∀ y : S32x512.Idx, y ∈ r3.set ↔ ((y 0).val = k ∧ b0 + 48 ≤ (y 1).val ∧ (y 1).val < b0 + 48 + 16))
    (hm4 : ∀ y : S32x512.Idx, y ∈ r4.set ↔ ((y 0).val = k ∧ b0 + 64 ≤ (y 1).val ∧ (y 1).val < b0 + 64 + 16))
    (hm5 : ∀ y : S32x512.Idx, y ∈ r5.set ↔ ((y 0).val = k ∧ b0 + 80 ≤ (y 1).val ∧ (y 1).val < b0 + 80 + 16))
    (hm6 : ∀ y : S32x512.Idx, y ∈ r6.set ↔ ((y 0).val = k ∧ b0 + 96 ≤ (y 1).val ∧ (y 1).val < b0 + 96 + 16))
    (hm7 : ∀ y : S32x512.Idx, y ∈ r7.set ↔ ((y 0).val = k ∧ b0 + 112 ≤ (y 1).val ∧ (y 1).val < b0 + 112 + 16))
    (hm8 : ∀ y : S32x512.Idx, y ∈ r8.set ↔ ((y 0).val = k ∧ b0 + 128 ≤ (y 1).val ∧ (y 1).val < b0 + 128 + 16))
    (hm9 : ∀ y : S32x512.Idx, y ∈ r9.set ↔ ((y 0).val = k ∧ b0 + 144 ≤ (y 1).val ∧ (y 1).val < b0 + 144 + 16))
    (hm10 : ∀ y : S32x512.Idx, y ∈ r10.set ↔ ((y 0).val = k ∧ b0 + 160 ≤ (y 1).val ∧ (y 1).val < b0 + 160 + 16))
    (hm11 : ∀ y : S32x512.Idx, y ∈ r11.set ↔ ((y 0).val = k ∧ b0 + 176 ≤ (y 1).val ∧ (y 1).val < b0 + 176 + 16))
    (hm12 : ∀ y : S32x512.Idx, y ∈ r12.set ↔ ((y 0).val = k ∧ b0 + 192 ≤ (y 1).val ∧ (y 1).val < b0 + 192 + 16))
    (hm13 : ∀ y : S32x512.Idx, y ∈ r13.set ↔ ((y 0).val = k ∧ b0 + 208 ≤ (y 1).val ∧ (y 1).val < b0 + 208 + 16))
    (hm14 : ∀ y : S32x512.Idx, y ∈ r14.set ↔ ((y 0).val = k ∧ b0 + 224 ≤ (y 1).val ∧ (y 1).val < b0 + 224 + 16))
    (hm15 : ∀ y : S32x512.Idx, y ∈ r15.set ↔ ((y 0).val = k ∧ b0 + 240 ≤ (y 1).val ∧ (y 1).val < b0 + 240 + 16))
    (hv0 : ∀ x, w0 x = cHalf R F5 b0 Cf (k + 1) (r0.emb x))
    (hv1 : ∀ x, w1 x = cHalf R F5 b0 Cf (k + 1) (r1.emb x))
    (hv2 : ∀ x, w2 x = cHalf R F5 b0 Cf (k + 1) (r2.emb x))
    (hv3 : ∀ x, w3 x = cHalf R F5 b0 Cf (k + 1) (r3.emb x))
    (hv4 : ∀ x, w4 x = cHalf R F5 b0 Cf (k + 1) (r4.emb x))
    (hv5 : ∀ x, w5 x = cHalf R F5 b0 Cf (k + 1) (r5.emb x))
    (hv6 : ∀ x, w6 x = cHalf R F5 b0 Cf (k + 1) (r6.emb x))
    (hv7 : ∀ x, w7 x = cHalf R F5 b0 Cf (k + 1) (r7.emb x))
    (hv8 : ∀ x, w8 x = cHalf R F5 b0 Cf (k + 1) (r8.emb x))
    (hv9 : ∀ x, w9 x = cHalf R F5 b0 Cf (k + 1) (r9.emb x))
    (hv10 : ∀ x, w10 x = cHalf R F5 b0 Cf (k + 1) (r10.emb x))
    (hv11 : ∀ x, w11 x = cHalf R F5 b0 Cf (k + 1) (r11.emb x))
    (hv12 : ∀ x, w12 x = cHalf R F5 b0 Cf (k + 1) (r12.emb x))
    (hv13 : ∀ x, w13 x = cHalf R F5 b0 Cf (k + 1) (r13.emb x))
    (hv14 : ∀ x, w14 x = cHalf R F5 b0 Cf (k + 1) (r14.emb x))
    (hv15 : ∀ x, w15 x = cHalf R F5 b0 Cf (k + 1) (r15.emb x)) :
    (Memref.whole cc1_scratch4).view.writes (Elt F) (cHalf R F5 b0 Cf k)
        [⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩]
      = cHalf R F5 b0 Cf (k + 1) := by
  funext y
  by_cases h : (y 0).val = k ∧ b0 ≤ (y 1).val ∧ (y 1).val < b0 + 256
  · have hy : ∃ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∈ p.1.set := by
      simp only [List.mem_cons, List.not_mem_nil, or_false, exists_eq_or_imp, exists_eq_left,
        hm0, hm1, hm2, hm3, hm4, hm5, hm6, hm7, hm8, hm9, hm10, hm11, hm12, hm13, hm14, hm15]
      omega
    exact View.read_writes_apply_of_pieces (Memref.whole cc1_scratch4).view _ (cHalf R F5 b0 Cf (k + 1)) _ (by
      intro p hp
      simp only [List.mem_cons, List.not_mem_nil, or_false] at hp
      rcases hp with rfl | rfl | rfl | rfl | rfl | rfl | rfl | rfl | rfl | rfl | rfl | rfl | rfl | rfl | rfl | rfl <;> assumption) y hy
  · have hn : ∀ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∉ p.1.set := by
      intro p hp
      simp only [List.mem_cons, List.not_mem_nil, or_false] at hp
      rcases hp with rfl | rfl | rfl | rfl | rfl | rfl | rfl | rfl | rfl | rfl | rfl | rfl | rfl | rfl | rfl | rfl
      · rw [hm15]; omega
      · rw [hm14]; omega
      · rw [hm13]; omega
      · rw [hm12]; omega
      · rw [hm11]; omega
      · rw [hm10]; omega
      · rw [hm9]; omega
      · rw [hm8]; omega
      · rw [hm7]; omega
      · rw [hm6]; omega
      · rw [hm5]; omega
      · rw [hm4]; omega
      · rw [hm3]; omega
      · rw [hm2]; omega
      · rw [hm1]; omega
      · rw [hm0]; omega
    refine (View.read_writes_apply_of_forall_not_mem (Memref.whole cc1_scratch4).view _ y _ hn).trans ?_
    show cHalf R F5 b0 Cf k y = cHalf R F5 b0 Cf (k + 1) y
    simp only [cHalf]
    by_cases h1 : (y 0).val < k ∧ b0 ≤ (y 1).val ∧ (y 1).val < b0 + 256
    · rw [if_pos h1, if_pos ⟨by omega, h1.2⟩]
    · rw [if_neg h1, if_neg (by intro h2; apply h1; refine ⟨?_, h2.2⟩; by_contra h3; exact h ⟨by omega, h2.2⟩)]

/-! ## One store's payload -/

theorem piece_ok {F : FTy → Type} (R R' : S256x128.Idx → Elt F .f32) (hR : R' = R) (F5 : S512.Idx → BitVec 32) (Cf : S32x512.Idx → Elt F .f32)
    (b0 g k : ℕ) (hb : b0 = 0 ∨ b0 = 256) (hg : g < 16) (hk : k < 32)
    (hio : S16.Iotas .scVector 32 [0]) (idv : IVec S16 32) (inb5 : ∀ a, (![b0 + 16 * g] : Fin 1 → ℕ) a + S16.size a ≤ S512.size a)
    (hidv : ∀ x, idv x = F5 ((Rect.unit (s := S512) ![b0 + 16 * g] S16.size inb5).emb x))
    (off : Fin 2 → ℕ) (hoff : off = ![k, b0 + 16 * g]) (inb9 : ∀ a, off a + S1x16.size a ≤ S32x512.size a)
    (hh : ∀ a x, ((![addi (iota .scVector S16 32 [0] hio) (broadcast S16 (BitVec.ofNat 32 (16 * g))),
        addi (shli (andi idv (broadcast S16 3#32)) (broadcast S16 5#32)) (broadcast S16 (cK k))] : Fin 2 → IVec S16 32) a x).toNat < S256x128.size a)
    (hsc : S16.ShapeCasts S1x16) (x : S1x16.Idx) :
    shapeCast S1x16 (loadIdx R' ![addi (iota .scVector S16 32 [0] hio) (broadcast S16 (BitVec.ofNat 32 (16 * g))),
        addi (shli (andi idv (broadcast S16 3#32)) (broadcast S16 5#32)) (broadcast S16 (cK k))] hh) hsc x
      = cHalf R F5 b0 Cf (k + 1) ((Rect.unit (s := S32x512) off S1x16.size inb9).emb x) := by
  subst hR hoff
  have hx0 : (x 0).val = 0 := by
    have h : (x 0).val < 1 := (x 0).isLt
    omega
  have hx1 : (x 1).val < 16 := (x 1).isLt
  obtain ⟨y, hy⟩ : ∃ y, y = (Rect.unit (s := S32x512) ![k, b0 + 16 * g] S1x16.size inb9).emb x := ⟨_, rfl⟩
  rw [← hy]
  have hy0 : (y 0).val = k := by
    rw [hy, Rect.emb_apply]; show k + 1 * (x 0).val = k; omega
  have hy1 : (y 1).val = b0 + 16 * g + (x 1).val := by
    rw [hy, Rect.emb_apply]; show b0 + 16 * g + 1 * (x 1).val = _; omega
  have hre : Shape.reshapeEquiv hsc x = ix1 ⟨(x 1).val, hx1⟩ :=
    Shape.reshapeEquiv_eq_of_rowMajor hsc (by
      rw [Shape.rowMajor_val_one, Shape.rowMajor_val_two]
      show (x 1).val = (x 0).val * 16 + (x 1).val
      omega)
  have hcond : (y 0).val < k + 1 ∧ b0 ≤ (y 1).val ∧ (y 1).val < b0 + 256 := ⟨by omega, by omega, by omega⟩
  simp only [cHalf]
  rw [if_pos hcond]
  show R' (idxAt _ hh (Shape.reshapeEquiv hsc x)) = _
  rw [hre]
  congr 1
  funext a
  apply Fin.ext
  fin_cases a
  · show (IntOp.addi (iota .scVector S16 32 [0] hio (ix1 ⟨(x 1).val, hx1⟩)) (BitVec.ofNat 32 (16 * g))).toNat = ((y 1).val - b0) % 256
    rw [hy1, iota_apply, addi', BitVec.toNat_add, BitVec.toNat_ofNat, BitVec.toNat_ofNat]
    show ((x 1).val % 2 ^ 32 + 16 * g % 2 ^ 32) % 2 ^ 32 = _
    omega
  · show (IntOp.addi (IntOp.shli .vector (IntOp.andi (idv (ix1 ⟨(x 1).val, hx1⟩)) 3#32) 5#32) (cK k)).toNat
        = (((F5 (colOf y) &&& 3#32) <<< 5) + BitVec.ofNat 32 (y 0).val).toNat % 128
    rw [shli5, andi3, addi', hidv]
    have hcol : (Rect.unit (s := S512) ![b0 + 16 * g] S16.size inb5).emb (ix1 ⟨(x 1).val, hx1⟩) = colOf y := by
      funext a
      apply Fin.ext
      fin_cases a
      show b0 + 16 * g + 1 * (x 1).val = (y 1).val
      omega
    have hck : cK k = BitVec.ofNat 32 k := by
      apply BitVec.eq_of_toNat_eq
      rw [cK_toNat k hk, BitVec.toNat_ofNat]; omega
    rw [hcol, hy0, hck]
    have hl := lane_lt (F5 (colOf y)) (BitVec.ofNat 32 k) (by rw [BitVec.toNat_ofNat]; omega)
    rw [Nat.mod_eq_of_lt hl]

/-! ## The first loop's store -/

theorem q1_step {F : FTy → Type} (F5 f6 : S512.Idx → BitVec 32) (k : ℕ) (off : Fin 1 → ℕ) (hoff : off = ![16 * k]) (inb : ∀ a, off a + S16.size a ≤ S512.size a)
    (w : S16.Idx → BitVec 32) (hw : ∀ x, w x = F5 ((Rect.unit (s := S512) off S16.size inb).emb x) >>> 2) :
    (Memref.whole cc1_scratch1).view.writes (Elt F) (q1F F5 f6 k) [⟨Rect.unit (s := S512) off S16.size inb, w⟩] = q1F F5 f6 (k + 1) := by
  subst hoff
  funext j
  by_cases hj : j ∈ (Rect.unit (s := S512) ![16 * k] S16.size inb).set
  · obtain ⟨x, hx⟩ : ∃ x, (Rect.unit (s := S512) ![16 * k] S16.size inb).emb x = j := (Rect.unit (s := S512) ![16 * k] S16.size inb).exists_idx_of_mem hj
    have key := View.read_writes_cons_emb (Val := Elt F) (Memref.whole cc1_scratch1).view (q1F F5 f6 k) _ w [] x
    rw [hx] at key
    refine key.trans ?_
    rw [hw, hx]
    have h0 : (j 0).val = 16 * k + (x 0).val := by
      rw [← hx, Rect.emb_apply]; show 16 * k + 1 * (x 0).val = _; omega
    have hx16 : (x 0).val < 16 := (x 0).isLt
    have hc : (j 0).val < 16 * (k + 1) := by omega
    simp only [q1F]
    rw [if_pos hc]
  · have hn : ∀ p ∈ ([⟨Rect.unit (s := S512) ![16 * k] S16.size inb, w⟩] : List (View.Piece (Elt F) S512 .i32)), j ∉ p.1.set := by
      intro p hp
      simp only [List.mem_cons, List.not_mem_nil, or_false] at hp
      subst hp; exact hj
    refine (View.read_writes_apply_of_forall_not_mem (Val := Elt F) (Memref.whole cc1_scratch1).view _ j _ hn).trans ?_
    show q1F F5 f6 k j = q1F F5 f6 (k + 1) j
    rw [Rect.mem_set_unit, Fin.forall_fin_one] at hj
    have hj' : ¬ (16 * k ≤ (j 0).val ∧ (j 0).val < 16 * k + 16) := hj
    simp only [q1F]
    by_cases h1 : (j 0).val < 16 * k
    · rw [if_pos h1, if_pos (by omega)]
    · rw [if_neg h1, if_neg (by omega)]

end Cert.Proof.PackedB

end
-- ==== Proof.PackedFinalB.lean ====
/-
  The packed gather's result, read at an index.

  A task gathers, for each of its 512 index words, the line of the table's 128-lane view that the word shifted right by
  two names — 256 lines at a time — and stores, row c of its 32 × 512 block at column n, lane ((word n &&& 3) <<< 5) + c of
  gathered line n. After both halves the block holds, at (c, n), exactly the packed lookup's entry (c, base + n), the
  task's words being the index array's from base on: the line and lane reductions are the same words' on both sides.
-/
import proofs.«204991_g57140244906297_cont_9to1_m_249_19_alg».proof.Proof.PackedValueB

noncomputable section

namespace Cert.Proof.PackedB

open Idealize.ShloMosaic Cert.Kernel Cert.Kernel.Gen
open Idealize.ShloMosaic.ValueIdx (ix1 ix2)

/-- A gathered line's entry is the packed lookup's: position m of the task's 512 and column c name, in the table's
    25000-line view, the line of the index word shifted right by two and the lane of its low two bits shifted left by
    five plus c — the task's words being the array's from base on. -/
theorem packed_pt {F : FTy → Type} (IDS : S16384.Idx → BitVec 32) (TQ : S25000x128.Idx → Elt F .f32)
    (F5 : S512.Idx → BitVec 32) (base : ℕ) (hbase : base + 512 ≤ 16384)
    (hF5 : ∀ n : Fin 512, F5 (ix1 n) = IDS (ix1 ⟨base + n.val, by omega⟩))
    (m : ℕ) (hm : m < 512) (c : ℕ) (hc : c < 32) (a : Fin 25000) (b : Fin 128)
    (ha : a.val = (F5 (ix1 ⟨m, hm⟩) >>> 2).toNat % 25000)
    (hb : b.val = (((F5 (ix1 ⟨m, hm⟩) &&& 3#32) <<< 5) + BitVec.ofNat 32 c).toNat % 128) :
    TQ (ix2 a b) = packedE (F := F) IDS TQ (ix2 ⟨c, hc⟩ ⟨base + m, by omega⟩) := by
  have e : F5 (ix1 ⟨m, hm⟩) = IDS (ix1 ⟨base + m, by omega⟩) := hF5 ⟨m, hm⟩
  unfold packedE
  show TQ (ix2 a b) = TQ (ix2 ⟨(IDS (ix1 ⟨base + m, by omega⟩) >>> 2).toNat % 25000, Nat.mod_lt _ (by decide)⟩
    ⟨(((IDS (ix1 ⟨base + m, by omega⟩) &&& 3#32) <<< 5) + BitVec.ofNat 32 c).toNat % 128, Nat.mod_lt _ (by decide)⟩)
  rw [← e]
  refine congrArg TQ (funext fun x => ?_)
  match x with
  | ⟨0, _⟩ => exact Fin.ext ha
  | ⟨1, _⟩ => exact Fin.ext hb

/-- THE BLOCK after both halves' 32 column trips is the packed lookup's column block from base on. -/
theorem out_value {F : FTy → Type} (IDS : S16384.Idx → BitVec 32) (TQ : S25000x128.Idx → Elt F .f32)
    (F5 : S512.Idx → BitVec 32) (base : ℕ) (hbase : base + 512 ≤ 16384)
    (hF5 : ∀ n : Fin 512, F5 (ix1 n) = IDS (ix1 ⟨base + n.val, by omega⟩))
    (R0 R1 : S256x128.Idx → Elt F .f32)
    (hR0 : ∀ (r : Fin 256) (c : Fin 128), R0 (ix2 r c) = TQ (ix2 ⟨(F5 (ix1 ⟨r.val, by omega⟩) >>> 2).toNat % 25000, Nat.mod_lt _ (by decide)⟩ c))
    (hR1 : ∀ (r : Fin 256) (c : Fin 128), R1 (ix2 r c) = TQ (ix2 ⟨(F5 (ix1 ⟨256 + r.val, by omega⟩) >>> 2).toNat % 25000, Nat.mod_lt _ (by decide)⟩ c))
    (f9 : S32x512.Idx → Elt F .f32) (y : S32x512.Idx) :
    cHalf R1 F5 256 (cHalf R0 F5 0 f9 32) 32 y
      = packedE (F := F) IDS TQ (ix2 ⟨(y 0).val, ValueIdx.idx2_lt0 y⟩ ⟨base + (y 1).val, by have := ValueIdx.idx2_lt1 y; omega⟩) := by
  have hy0 : (y 0).val < 32 := ValueIdx.idx2_lt0 y
  have hy1 : (y 1).val < 512 := ValueIdx.idx2_lt1 y
  unfold cHalf
  split_ifs with h1 h2
  · rw [hR1]
    refine packed_pt IDS TQ F5 base hbase hF5 (y 1).val hy1 (y 0).val hy0 _ _ ?_ rfl
    show (F5 (ix1 ⟨256 + ((y 1).val - 256) % 256, by omega⟩) >>> 2).toNat % 25000 = _
    rw [show (⟨256 + ((y 1).val - 256) % 256, by omega⟩ : Fin 512) = ⟨(y 1).val, hy1⟩ from Fin.ext (by show 256 + ((y 1).val - 256) % 256 = (y 1).val; omega)]
  · rw [hR0]
    refine packed_pt IDS TQ F5 base hbase hF5 (y 1).val hy1 (y 0).val hy0 _ _ ?_ rfl
    show (F5 (ix1 ⟨((y 1).val - 0) % 256, by omega⟩) >>> 2).toNat % 25000 = _
    rw [show (⟨((y 1).val - 0) % 256, by omega⟩ : Fin 512) = ⟨(y 1).val, hy1⟩ from Fin.ext (by show ((y 1).val - 0) % 256 = (y 1).val; omega)]
  · exfalso; omega

/-! ## The same over the table of 250 lines -/

/-- A gathered line's entry is the packed lookup's: position m of the task's 512 and column c name, in the table's
    250-line view, the line of the index word shifted right by two and the lane of its low two bits shifted left by
    five plus c — the task's words being the array's from base on. -/
theorem packed_pt2 {F : FTy → Type} (IDS : S16384.Idx → BitVec 32) (TQ : S250x128.Idx → Elt F .f32)
    (F5 : S512.Idx → BitVec 32) (base : ℕ) (hbase : base + 512 ≤ 16384)
    (hF5 : ∀ n : Fin 512, F5 (ix1 n) = IDS (ix1 ⟨base + n.val, by omega⟩))
    (m : ℕ) (hm : m < 512) (c : ℕ) (hc : c < 32) (a : Fin 250) (b : Fin 128)
    (ha : a.val = (F5 (ix1 ⟨m, hm⟩) >>> 2).toNat % 250)
    (hb : b.val = (((F5 (ix1 ⟨m, hm⟩) &&& 3#32) <<< 5) + BitVec.ofNat 32 c).toNat % 128) :
    TQ (ix2 a b) = packedE2 (F := F) IDS TQ (ix2 ⟨c, hc⟩ ⟨base + m, by omega⟩) := by
  have e : F5 (ix1 ⟨m, hm⟩) = IDS (ix1 ⟨base + m, by omega⟩) := hF5 ⟨m, hm⟩
  unfold packedE2
  show TQ (ix2 a b) = TQ (ix2 ⟨(IDS (ix1 ⟨base + m, by omega⟩) >>> 2).toNat % 250, Nat.mod_lt _ (by decide)⟩
    ⟨(((IDS (ix1 ⟨base + m, by omega⟩) &&& 3#32) <<< 5) + BitVec.ofNat 32 c).toNat % 128, Nat.mod_lt _ (by decide)⟩)
  rw [← e]
  refine congrArg TQ (funext fun x => ?_)
  match x with
  | ⟨0, _⟩ => exact Fin.ext ha
  | ⟨1, _⟩ => exact Fin.ext hb

/-- THE BLOCK after both halves' 32 column trips is the packed lookup's column block from base on. -/
theorem out_value2 {F : FTy → Type} (IDS : S16384.Idx → BitVec 32) (TQ : S250x128.Idx → Elt F .f32)
    (F5 : S512.Idx → BitVec 32) (base : ℕ) (hbase : base + 512 ≤ 16384)
    (hF5 : ∀ n : Fin 512, F5 (ix1 n) = IDS (ix1 ⟨base + n.val, by omega⟩))
    (R0 R1 : S256x128.Idx → Elt F .f32)
    (hR0 : ∀ (r : Fin 256) (c : Fin 128), R0 (ix2 r c) = TQ (ix2 ⟨(F5 (ix1 ⟨r.val, by omega⟩) >>> 2).toNat % 250, Nat.mod_lt _ (by decide)⟩ c))
    (hR1 : ∀ (r : Fin 256) (c : Fin 128), R1 (ix2 r c) = TQ (ix2 ⟨(F5 (ix1 ⟨256 + r.val, by omega⟩) >>> 2).toNat % 250, Nat.mod_lt _ (by decide)⟩ c))
    (f9 : S32x512.Idx → Elt F .f32) (y : S32x512.Idx) :
    cHalf R1 F5 256 (cHalf R0 F5 0 f9 32) 32 y
      = packedE2 (F := F) IDS TQ (ix2 ⟨(y 0).val, ValueIdx.idx2_lt0 y⟩ ⟨base + (y 1).val, by have := ValueIdx.idx2_lt1 y; omega⟩) := by
  have hy0 : (y 0).val < 32 := ValueIdx.idx2_lt0 y
  have hy1 : (y 1).val < 512 := ValueIdx.idx2_lt1 y
  unfold cHalf
  split_ifs with h1 h2
  · rw [hR1]
    refine packed_pt2 IDS TQ F5 base hbase hF5 (y 1).val hy1 (y 0).val hy0 _ _ ?_ rfl
    show (F5 (ix1 ⟨256 + ((y 1).val - 256) % 256, by omega⟩) >>> 2).toNat % 250 = _
    rw [show (⟨256 + ((y 1).val - 256) % 256, by omega⟩ : Fin 512) = ⟨(y 1).val, hy1⟩ from Fin.ext (by show 256 + ((y 1).val - 256) % 256 = (y 1).val; omega)]
  · rw [hR0]
    refine packed_pt2 IDS TQ F5 base hbase hF5 (y 1).val hy1 (y 0).val hy0 _ _ ?_ rfl
    show (F5 (ix1 ⟨((y 1).val - 0) % 256, by omega⟩) >>> 2).toNat % 250 = _
    rw [show (⟨((y 1).val - 0) % 256, by omega⟩ : Fin 512) = ⟨(y 1).val, hy1⟩ from Fin.ext (by show ((y 1).val - 0) % 256 = (y 1).val; omega)]
  · exfalso; omega

/-! ## An indirect gather's payload at an index -/

/-- The row an offset list names for line k: the word at position o + k of the task's 512. -/
theorem rows_val {F : FTy → Type} (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (n' z : ℕ) (hn : S256.numel = n')
    (hin : ∀ x, (View.read (Elt F) ((Memref.whole cc1_scratch1).slice (Rect.unit (s := S512) ![o] S256.size inbo) hst).view Q x).toNat < z)
    (k : Fin n') (hk : k.val < 256) :
    (SparseCore.rows (F := F) (View.read (Elt F) ((Memref.whole cc1_scratch1).slice (Rect.unit (s := S512) ![o] S256.size inbo) hst).view Q) hn hin k).val
      = (Q (ix1 ⟨o + k.val, by omega⟩)).toNat := by
  have hy : ((S256.rowMajor.symm (k.cast hn.symm)) 0).val = k.val := by
    rw [← Shape.rowMajor_val_one, Equiv.apply_symm_apply]; rfl
  show (View.read (Elt F) ((Memref.whole cc1_scratch1).slice (Rect.unit (s := S512) ![o] S256.size inbo) hst).view Q
    (S256.rowMajor.symm (k.cast hn.symm))).toNat = _
  rw [View.read_apply]
  show (Q (((Memref.whole cc1_scratch1).slice (Rect.unit (s := S512) ![o] S256.size inbo) hst).view.emb (S256.rowMajor.symm (k.cast hn.symm)))).toNat = _
  refine congrArg (fun j => (Q j).toNat) (funext fun a => Fin.ext ?_)
  match a with
  | ⟨0, _⟩ =>
    show o + 1 * ((S256.rowMajor.symm (k.cast hn.symm)) 0).val = o + k.val
    omega

/-- THE GATHER'S PAYLOAD at (r, c): the table's line that word o + r of the task's 512 names, at lane c. -/
theorem gather_payload_at {F : FTy → Type} (TQ : S25000x128.Idx → Elt F .f32) (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (inbt : ∀ a, (![0, 0] : Fin 2 → ℕ) a + S25000x128.size a ≤ S25000x128.size a)
    (hst' : ∀ a, (Rect.unit (s := S25000x128) ![0, 0] S25000x128.size inbt).stride a = 1)
    (hg : S25000x128.Gathers 0 S256x128) (hn : S256.numel = S256x128.size hg.axis')
    (hin : ∀ x, (View.read (Elt F) ((Memref.whole cc1_scratch1).slice (Rect.unit (s := S512) ![o] S256.size inbo) hst).view Q x).toNat < S25000x128.size hg.axis)
    (r : Fin 256) (c : Fin 128) :
    SparseCore.gatherPayload hg (View.read (Elt F) (tqW.slice (Rect.unit (s := S25000x128) ![0, 0] S25000x128.size inbt) hst').view TQ)
        (SparseCore.rows (F := F) (View.read (Elt F) ((Memref.whole cc1_scratch1).slice (Rect.unit (s := S512) ![o] S256.size inbo) hst).view Q) hn hin) (ix2 r c)
      = TQ (ix2 ⟨(Q (ix1 ⟨o + r.val, by omega⟩)).toNat % 25000, Nat.mod_lt _ (by decide)⟩ c) := by
  have hrow : (SparseCore.rows (F := F) (View.read (Elt F) ((Memref.whole cc1_scratch1).slice (Rect.unit (s := S512) ![o] S256.size inbo) hst).view Q) hn hin
      ((ix2 r c : S256x128.Idx) hg.axis')).val = (Q (ix1 ⟨o + r.val, by omega⟩)).toNat :=
    rows_val (F := F) Q o ho inbo hst _ _ hn hin ((ix2 r c : S256x128.Idx) hg.axis') r.isLt
  have hlt : (Q (ix1 ⟨o + r.val, by omega⟩)).toNat < 25000 := by
    have h := (SparseCore.rows (F := F) (View.read (Elt F) ((Memref.whole cc1_scratch1).slice (Rect.unit (s := S512) ![o] S256.size inbo) hst).view Q) hn hin
      ((ix2 r c : S256x128.Idx) hg.axis')).isLt
    rw [hrow] at h
    exact h
  have hax := hg.idx_axis (SparseCore.rows (F := F) (View.read (Elt F) ((Memref.whole cc1_scratch1).slice (Rect.unit (s := S512) ![o] S256.size inbo) hst).view Q) hn hin) (ix2 r c)
  have hne := hg.idx_of_ne (SparseCore.rows (F := F) (View.read (Elt F) ((Memref.whole cc1_scratch1).slice (Rect.unit (s := S512) ![o] S256.size inbo) hst).view Q) hn hin) (ix2 r c)
    (1 : Fin 2) (by decide)
  unfold SparseCore.gatherPayload
  rw [View.read_apply]
  show TQ ((tqW.slice (Rect.unit (s := S25000x128) ![0, 0] S25000x128.size inbt) hst').view.emb
    (hg.idx (SparseCore.rows (F := F) (View.read (Elt F) ((Memref.whole cc1_scratch1).slice (Rect.unit (s := S512) ![o] S256.size inbo) hst).view Q) hn hin) (ix2 r c))) = _
  refine congrArg TQ (funext fun a => Fin.ext ?_)
  match a with
  | ⟨0, _⟩ =>
    show 0 + 1 * (hg.idx (SparseCore.rows (F := F) (View.read (Elt F) ((Memref.whole cc1_scratch1).slice (Rect.unit (s := S512) ![o] S256.size inbo) hst).view Q) hn hin) (ix2 r c) hg.axis).val
      = (Q (ix1 ⟨o + r.val, by omega⟩)).toNat % 25000
    rw [hax, hrow, Nat.mod_eq_of_lt hlt]
    omega
  | ⟨1, _⟩ =>
    show 0 + 1 * (hg.idx (SparseCore.rows (F := F) (View.read (Elt F) ((Memref.whole cc1_scratch1).slice (Rect.unit (s := S512) ![o] S256.size inbo) hst).view Q) hn hin) (ix2 r c) (1 : Fin 2)).val
      = c.val
    rw [hne]
    show 0 + 1 * c.val = c.val
    omega

/-! ## The same for the table of 250 lines -/

/-- The row an offset list names for line k: the word at position o + k of the task's 512. -/
theorem rows_val2 {F : FTy → Type} (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (n' z : ℕ) (hn : S256.numel = n')
    (hin : ∀ x, (View.read (Elt F) ((Memref.whole cc2_scratch1).slice (Rect.unit (s := S512) ![o] S256.size inbo) hst).view Q x).toNat < z)
    (k : Fin n') (hk : k.val < 256) :
    (SparseCore.rows (F := F) (View.read (Elt F) ((Memref.whole cc2_scratch1).slice (Rect.unit (s := S512) ![o] S256.size inbo) hst).view Q) hn hin k).val
      = (Q (ix1 ⟨o + k.val, by omega⟩)).toNat := by
  have hy : ((S256.rowMajor.symm (k.cast hn.symm)) 0).val = k.val := by
    rw [← Shape.rowMajor_val_one, Equiv.apply_symm_apply]; rfl
  show (View.read (Elt F) ((Memref.whole cc2_scratch1).slice (Rect.unit (s := S512) ![o] S256.size inbo) hst).view Q
    (S256.rowMajor.symm (k.cast hn.symm))).toNat = _
  rw [View.read_apply]
  show (Q (((Memref.whole cc2_scratch1).slice (Rect.unit (s := S512) ![o] S256.size inbo) hst).view.emb (S256.rowMajor.symm (k.cast hn.symm)))).toNat = _
  refine congrArg (fun j => (Q j).toNat) (funext fun a => Fin.ext ?_)
  match a with
  | ⟨0, _⟩ =>
    show o + 1 * ((S256.rowMajor.symm (k.cast hn.symm)) 0).val = o + k.val
    omega

/-- THE GATHER'S PAYLOAD at (r, c): the table's line that word o + r of the task's 512 names, at lane c. -/
theorem gather_payload_at2 {F : FTy → Type} (TQ : S250x128.Idx → Elt F .f32) (Q : S512.Idx → BitVec 32) (o : ℕ) (ho : o + 256 ≤ 512)
    (inbo : ∀ a, (![o] : Fin 1 → ℕ) a + S256.size a ≤ S512.size a)
    (hst : ∀ a, (Rect.unit (s := S512) ![o] S256.size inbo).stride a = 1)
    (inbt : ∀ a, (![0, 0] : Fin 2 → ℕ) a + S250x128.size a ≤ S250x128.size a)
    (hst' : ∀ a, (Rect.unit (s := S250x128) ![0, 0] S250x128.size inbt).stride a = 1)
    (hg : S250x128.Gathers 0 S256x128) (hn : S256.numel = S256x128.size hg.axis')
    (hin : ∀ x, (View.read (Elt F) ((Memref.whole cc2_scratch1).slice (Rect.unit (s := S512) ![o] S256.size inbo) hst).view Q x).toNat < S250x128.size hg.axis)
    (r : Fin 256) (c : Fin 128) :
    SparseCore.gatherPayload hg (View.read (Elt F) (tqW2.slice (Rect.unit (s := S250x128) ![0, 0] S250x128.size inbt) hst').view TQ)
        (SparseCore.rows (F := F) (View.read (Elt F) ((Memref.whole cc2_scratch1).slice (Rect.unit (s := S512) ![o] S256.size inbo) hst).view Q) hn hin) (ix2 r c)
      = TQ (ix2 ⟨(Q (ix1 ⟨o + r.val, by omega⟩)).toNat % 250, Nat.mod_lt _ (by decide)⟩ c) := by
  have hrow : (SparseCore.rows (F := F) (View.read (Elt F) ((Memref.whole cc2_scratch1).slice (Rect.unit (s := S512) ![o] S256.size inbo) hst).view Q) hn hin
      ((ix2 r c : S256x128.Idx) hg.axis')).val = (Q (ix1 ⟨o + r.val, by omega⟩)).toNat :=
    rows_val2 (F := F) Q o ho inbo hst _ _ hn hin ((ix2 r c : S256x128.Idx) hg.axis') r.isLt
  have hlt : (Q (ix1 ⟨o + r.val, by omega⟩)).toNat < 250 := by
    have h := (SparseCore.rows (F := F) (View.read (Elt F) ((Memref.whole cc2_scratch1).slice (Rect.unit (s := S512) ![o] S256.size inbo) hst).view Q) hn hin
      ((ix2 r c : S256x128.Idx) hg.axis')).isLt
    rw [hrow] at h
    exact h
  have hax := hg.idx_axis (SparseCore.rows (F := F) (View.read (Elt F) ((Memref.whole cc2_scratch1).slice (Rect.unit (s := S512) ![o] S256.size inbo) hst).view Q) hn hin) (ix2 r c)
  have hne := hg.idx_of_ne (SparseCore.rows (F := F) (View.read (Elt F) ((Memref.whole cc2_scratch1).slice (Rect.unit (s := S512) ![o] S256.size inbo) hst).view Q) hn hin) (ix2 r c)
    (1 : Fin 2) (by decide)
  unfold SparseCore.gatherPayload
  rw [View.read_apply]
  show TQ ((tqW2.slice (Rect.unit (s := S250x128) ![0, 0] S250x128.size inbt) hst').view.emb
    (hg.idx (SparseCore.rows (F := F) (View.read (Elt F) ((Memref.whole cc2_scratch1).slice (Rect.unit (s := S512) ![o] S256.size inbo) hst).view Q) hn hin) (ix2 r c))) = _
  refine congrArg TQ (funext fun a => Fin.ext ?_)
  match a with
  | ⟨0, _⟩ =>
    show 0 + 1 * (hg.idx (SparseCore.rows (F := F) (View.read (Elt F) ((Memref.whole cc2_scratch1).slice (Rect.unit (s := S512) ![o] S256.size inbo) hst).view Q) hn hin) (ix2 r c) hg.axis).val
      = (Q (ix1 ⟨o + r.val, by omega⟩)).toNat % 250
    rw [hax, hrow, Nat.mod_eq_of_lt hlt]
    omega
  | ⟨1, _⟩ =>
    show 0 + 1 * (hg.idx (SparseCore.rows (F := F) (View.read (Elt F) ((Memref.whole cc2_scratch1).slice (Rect.unit (s := S512) ![o] S256.size inbo) hst).view Q) hn hin) (ix2 r c) (1 : Fin 2)).val
      = c.val
    rw [hne]
    show 0 + 1 * c.val = c.val
    omega

end Cert.Proof.PackedB

end
-- ==== Proof.PackedBlockB.lean ====
/-
  The block a task copies out, read at an element of its slice of the output: from what the index copy, the two row
  gathers and the two column loops left in the scratch buffers, every element of the slice holds the lookup's value.
-/
import proofs.«204991_g57140244906297_cont_9to1_m_249_19_alg».proof.Proof.PackedFinalB

noncomputable section

namespace Cert.Proof.PackedB

open Idealize.ShloMosaic Cert.Kernel Cert.Kernel.Gen
open Idealize.ShloMosaic.ValueIdx (ix1 ix2)

theorem whole_piece2 {F : FTy → Type} (j G : S256x128.Idx → Elt F .f32) (x : S256x128.Idx) :
    (Memref.whole cc1_scratch2).view.writes (Elt F) j [⟨Rect.whole S256x128, G⟩] x = G x := by
  have key := View.read_writes_cons_emb (Val := Elt F) (Memref.whole cc1_scratch2).view j (Rect.whole S256x128) G [] x
  have e : (Rect.whole S256x128).emb x = x := by
    funext a; apply Fin.ext; show 0 + 1 * (x a).val = (x a).val; omega
  rw [e] at key
  exact key

theorem whole_piece3 {F : FTy → Type} (j G : S256x128.Idx → Elt F .f32) (x : S256x128.Idx) :
    (Memref.whole cc1_scratch3).view.writes (Elt F) j [⟨Rect.whole S256x128, G⟩] x = G x := by
  have key := View.read_writes_cons_emb (Val := Elt F) (Memref.whole cc1_scratch3).view j (Rect.whole S256x128) G [] x
  have e : (Rect.whole S256x128).emb x = x := by
    funext a; apply Fin.ext; show 0 + 1 * (x a).val = (x a).val; omega
  rw [e] at key
  exact key

set_option maxHeartbeats 4000000 in
theorem block_value {F : FTy → Type} (L : grid1.Coords) (IDS : S16384.Idx → BitVec 32) (TQ : S25000x128.Idx → Elt F .f32)
    (F5 : S512.Idx → BitVec 32)
    (hF5v : ∀ y, F5 y = View.read (Elt F) (idsW.slice (Rect.unit (s := S16384) (k1_off1 L) S512.size (k1_off1_inb L)) (fun _ => rfl)).view IDS y)
    (hg : S25000x128.Gathers 0 S256x128) (hn : S256.numel = S256x128.size hg.axis')
    (inbt : ∀ a, (![0, 0] : Fin 2 → ℕ) a + S25000x128.size a ≤ S25000x128.size a)
    (hinA : ∀ x, (View.read (Elt F) ((Memref.whole cc1_scratch1).slice (Rect.unit (s := S512) ![0] S256.size inb_S512_S256_0) (fun _ => rfl)).view (qFull F5) x).toNat < S25000x128.size hg.axis)
    (hinB : ∀ x, (View.read (Elt F) ((Memref.whole cc1_scratch1).slice (Rect.unit (s := S512) ![256] S256.size inb_S512_S256_256) (fun _ => rfl)).view (qFull F5) x).toNat < S25000x128.size hg.axis)
    (j7 j8 : S256x128.Idx → Elt F .f32) (R0 R1 : S256x128.Idx → Elt F .f32)
    (hR0 : R0 = (Memref.whole cc1_scratch2).view.writes (Elt F) j7 [⟨Rect.whole S256x128,
      SparseCore.gatherPayload hg (View.read (Elt F) (tqW.slice (Rect.unit (s := S25000x128) ![0, 0] S25000x128.size inbt) (fun _ => rfl)).view TQ)
        (SparseCore.rows (F := F) (View.read (Elt F) ((Memref.whole cc1_scratch1).slice (Rect.unit (s := S512) ![0] S256.size inb_S512_S256_0) (fun _ => rfl)).view (qFull F5)) hn hinA)⟩])
    (hR1 : R1 = (Memref.whole cc1_scratch3).view.writes (Elt F) j8 [⟨Rect.whole S256x128,
      SparseCore.gatherPayload hg (View.read (Elt F) (tqW.slice (Rect.unit (s := S25000x128) ![0, 0] S25000x128.size inbt) (fun _ => rfl)).view TQ)
        (SparseCore.rows (F := F) (View.read (Elt F) ((Memref.whole cc1_scratch1).slice (Rect.unit (s := S512) ![256] S256.size inb_S512_S256_256) (fun _ => rfl)).view (qFull F5)) hn hinB)⟩])
    (f0 : S32x16384.Idx → Elt F .f32) (f9 : S32x512.Idx → Elt F .f32) :
    ∀ i ∈ (outBlk L).view.set,
      ((outBlk L).view.writes (Elt F) f0 [⟨Rect.whole S32x512, ReadAs.same.apply (View.read (Elt F) (Memref.whole cc1_scratch4).view
          (cHalf R1 F5 256 (cHalf R0 F5 0 f9 32) 32))⟩]) i = packedE (F := F) IDS TQ i := by
  have hL0 : (L 0).val < 2 := (L 0).isLt
  have hL1 : (L 1).val < 16 := (L 1).isLt
  have hF5n : ∀ n : Fin 512, F5 (ix1 n) = IDS (ix1 ⟨(1024 * (L 1).val + 512 * (L 0).val) + n.val, by omega⟩) := by
    intro n
    rw [hF5v]
    show IDS ((idsW.slice (Rect.unit (s := S16384) (k1_off1 L) S512.size (k1_off1_inb L)) (fun _ => rfl)).view.emb (ix1 n)) = _
    congr 1
    funext a
    apply Fin.ext
    fin_cases a
    have e : (k1_off1 L) 0 = 1024 * (L 1).val + 512 * (L 0).val := congrFun (k1_off1_eq L) 0
    show (k1_off1 L) 0 + 1 * n.val = (1024 * (L 1).val + 512 * (L 0).val) + n.val
    omega
  have hR0' : ∀ (r : Fin 256) (c : Fin 128), R0 (ix2 r c)
      = TQ (ix2 ⟨(F5 (ix1 ⟨r.val, by omega⟩) >>> 2).toNat % 25000, Nat.mod_lt _ (by decide)⟩ c) := by
    intro r c
    rw [hR0, whole_piece2]
    have h := gather_payload_at (F := F) TQ (qFull F5) 0 (by omega) inb_S512_S256_0 (fun _ => rfl) inbt (fun _ => rfl) hg hn hinA r c
    simp only [Nat.zero_add] at h
    exact h
  have hR1' : ∀ (r : Fin 256) (c : Fin 128), R1 (ix2 r c)
      = TQ (ix2 ⟨(F5 (ix1 ⟨256 + r.val, by omega⟩) >>> 2).toNat % 25000, Nat.mod_lt _ (by decide)⟩ c) := by
    intro r c
    rw [hR1, whole_piece3]
    exact gather_payload_at (F := F) TQ (qFull F5) 256 (by omega) inb_S512_S256_256 (fun _ => rfl) inbt (fun _ => rfl) hg hn hinB r c
  intro i hi
  obtain ⟨y, -, rfl⟩ := Finset.mem_map.mp hi
  have key := View.read_writes_cons_emb (Val := Elt F) (outBlk L).view f0 (Rect.whole S32x512) (ReadAs.same.apply (View.read (Elt F) (Memref.whole cc1_scratch4).view
          (cHalf R1 F5 256 (cHalf R0 F5 0 f9 32) 32))) [] y
  have e : (Rect.whole S32x512).emb y = y := by
    funext a; apply Fin.ext; show 0 + 1 * (y a).val = (y a).val; omega
  rw [e] at key
  refine (show _ = _ from key).trans ?_
  show cHalf R1 F5 256 (cHalf R0 F5 0 f9 32) 32 y = _
  rw [out_value (F := F) IDS TQ F5 (1024 * (L 1).val + 512 * (L 0).val) (by omega) hF5n R0 R1 hR0' hR1' f9 y]
  congr 1
  funext a
  apply Fin.ext
  fin_cases a
  · have e : (k1_off35 L) 0 = 0 := congrFun (k1_off35_eq L) 0
    show (y 0).val = (k1_off35 L) 0 + 1 * (y 0).val
    omega
  · have e : (k1_off35 L) 1 = 1024 * (L 1).val + 512 * (L 0).val := congrFun (k1_off35_eq L) 1
    show (1024 * (L 1).val + 512 * (L 0).val) + (y 1).val = (k1_off35 L) 1 + 1 * (y 1).val
    omega

end Cert.Proof.PackedB

end
-- ==== Proof.PackedBodyB.lean ====
/-
  The task of one vector subcore in the packed gather of the second table (SparseCore call 1): the tile copies its 512
  index words into a scratch, writes each word shifted right by two into a second scratch, gathers the 256 + 256 rows
  those name out of the table read as 25000 rows of 128, picks lane ((idx &&& 3) <<< 5) + c of row n for every column
  c < 32 and position n < 512, and copies the 32 × 512 block so built to its columns of the output.
-/
import proofs.«204991_g57140244906297_cont_9to1_m_249_19_alg».proof.Proof.CommonB
import proofs.«204991_g57140244906297_cont_9to1_m_249_19_alg».proof.Proof.PackedDefsB
import proofs.«204991_g57140244906297_cont_9to1_m_249_19_alg».proof.Proof.PackedValueB
import proofs.«204991_g57140244906297_cont_9to1_m_249_19_alg».proof.Proof.PackedBlockB
import proofs.«204991_g57140244906297_cont_9to1_m_249_19_alg».proof.Proof.Gen.Kernel.Skeleton
import Idealize.ShloMosaic.Lib.SparseCore.Stream
import Idealize.ShloMosaic.Lib.Transfers
import Idealize.ShloMosaic.Lib.Writes
import Idealize.ShloMosaic.Lib.ValueIdx

noncomputable section

namespace Cert.Proof.PackedB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 4) (Elt F) ℕ UU ℕ

/-! ## The tile's own semaphores and scratch buffers -/

abbrev g0 (d : Dev nD) (L : grid1.Coords) : GSem nD τ sig := (thr d L, .dma cc1_scoped0.sem)
abbrev g1 (d : Dev nD) (L : grid1.Coords) : GSem nD τ sig := (thr d L, .dma cc1_scoped1.sem)
abbrev gA (d : Dev nD) (L : grid1.Coords) : GSem nD τ sig := (thr d L, .dma cc1_scratch5.sem)
abbrev gB (d : Dev nD) (L : grid1.Coords) : GSem nD τ sig := (thr d L, .dma cc1_scratch6.sem)

/-- The four DMA semaphores the task uses. -/
def cells4 (d : Dev nD) (L : grid1.Coords) : Finset (GSem nD τ sig) := {g0 d L, g1 d L, gA d L, gB d L}

abbrev pV (L : grid1.Coords) : Proc τ := Proc.scVector ((L 0).castLE hcore1) ((L 1).castLE hsub1)
abbrev r0 (L : grid1.Coords) : DevRef τ sig := (pV L).devRef cc1_scratch0
abbrev r1 (L : grid1.Coords) : DevRef τ sig := (pV L).devRef cc1_scratch1
abbrev r2 (L : grid1.Coords) : DevRef τ sig := (pV L).devRef cc1_scratch2
abbrev r3 (L : grid1.Coords) : DevRef τ sig := (pV L).devRef cc1_scratch3
abbrev r4 (L : grid1.Coords) : DevRef τ sig := (pV L).devRef cc1_scratch4

/-- The five scratch buffers the task uses. -/
def refs5 (L : grid1.Coords) : Finset (DevRef τ sig) := {r0 L, r1 L, r2 L, r3 L, r4 L}

abbrev sIdx : Memref sig .scVector .vmem S512 .i32 := Memref.whole cc1_scratch0
abbrev sQ : Memref sig .scVector .vmem S512 .i32 := Memref.whole cc1_scratch1
abbrev sR0 : Memref sig .scVector .vmem S256x128 .f32 := Memref.whole cc1_scratch2
abbrev sR1 : Memref sig .scVector .vmem S256x128 .f32 := Memref.whole cc1_scratch3
abbrev sC : Memref sig .scVector .vmem S32x512 .f32 := Memref.whole cc1_scratch4

omit [FloatOps F] in
theorem sems_eq (d : Dev nD) (L : grid1.Coords) :
    (scopedSems0 (thr d L) : sProp 𝕄)
      = iprop((semVal (g0 d L) 0 ∗ semVal (g1 d L) 0 ∗ semVal (gA d L) 0 ∗ semVal (gB d L) 0)
          ∗ bigSep (ownCells (thr d L) \ cells4 d L) fun g => semVal g 0) := by
  have hsub : cells4 d L ⊆ ownCells (thr d L) := by
    intro g hg
    simp only [cells4, Finset.mem_insert, Finset.mem_singleton] at hg
    rcases hg with rfl | rfl | rfl | rfl
    · exact mem_ownCells.mpr ⟨rfl, by show (SemLoc.dma cc1_scoped0.sem : SemLoc sig).isScoped .scVector = true; decide⟩
    · exact mem_ownCells.mpr ⟨rfl, by show (SemLoc.dma cc1_scoped1.sem : SemLoc sig).isScoped .scVector = true; decide⟩
    · exact mem_ownCells.mpr ⟨rfl, by show (SemLoc.dma cc1_scratch5.sem : SemLoc sig).isScoped .scVector = true; decide⟩
    · exact mem_ownCells.mpr ⟨rfl, by show (SemLoc.dma cc1_scratch6.sem : SemLoc sig).isScoped .scVector = true; decide⟩
  rw [SparseCore.Cfg.scopedSems0_V (Val := Elt F) d _ _]
  unfold SparseCore.Cfg.ownSems0
  rw [SparseCore.bigSep_sdiff_split' hsub]
  unfold cells4
  rw [SparseCore.bigSep_insert' (by simp [Prod.ext_iff]; decide), SparseCore.bigSep_insert' (by simp [Prod.ext_iff]; decide),
    SparseCore.bigSep_insert' (by simp [Prod.ext_iff]; decide), bigSep_singleton]

theorem bufs_eq (d : Dev nD) (L : grid1.Coords) :
    (scopedBufs (thr d L) : sProp 𝕄)
      = iprop(((∃ f, (sIdx).view.loc (thr d L) ↦{fullShare} f) ∗ (∃ f, (sQ).view.loc (thr d L) ↦{fullShare} f)
          ∗ (∃ f, (sR0).view.loc (thr d L) ↦{fullShare} f) ∗ (∃ f, (sR1).view.loc (thr d L) ↦{fullShare} f)
          ∗ (∃ f, (sC).view.loc (thr d L) ↦{fullShare} f))
          ∗ bigSep (ownRefs (τ := τ) (pV L) \ refs5 L) fun b => iprop(∃ f, ((d, b) : Loc nD τ sig) ↦{fullShare} f)) := by
  have hsub : refs5 L ⊆ ownRefs (τ := τ) (pV L) := by
    intro b hb
    simp only [refs5, Finset.mem_insert, Finset.mem_singleton] at hb
    rcases hb with rfl | rfl | rfl | rfl | rfl <;> exact SparseCore.Cfg.mem_ownRefs_of_owner (p := pV L) rfl
  have hne : ∀ {a b : Ref sig .scVector}, a ≠ b → (pV L).devRef a ≠ (pV L).devRef b := fun h e => h (Proc.devRef_injective _ e)
  rw [(K (F := F)).scopedBufs_V facts d _ _]
  unfold SparseCore.Cfg.ownBufs
  rw [show ((thr d L : Thread nD τ).2) = pV L from rfl, SparseCore.bigSep_sdiff_split' hsub]
  unfold refs5
  rw [SparseCore.bigSep_insert' (by simp only [Finset.mem_insert, Finset.mem_singleton, not_or]; exact ⟨hne (by decide), hne (by decide), hne (by decide), hne (by decide)⟩),
    SparseCore.bigSep_insert' (by simp only [Finset.mem_insert, Finset.mem_singleton, not_or]; exact ⟨hne (by decide), hne (by decide), hne (by decide)⟩),
    SparseCore.bigSep_insert' (by simp only [Finset.mem_insert, Finset.mem_singleton, not_or]; exact ⟨hne (by decide), hne (by decide)⟩),
    SparseCore.bigSep_insert' (by simp only [Finset.mem_singleton]; exact hne (by decide)), bigSep_singleton]

omit [FloatOps F] in
theorem pts_ids (d : Dev nD) (L : grid1.Coords) (q : PosShare TreeShare) (f : Buf (Elt F) (idsLoc d)) :
    (View.loc (thr d L) (View.whole main_arg1_scv) ↦{q} f : sProp 𝕄) = ((idsW).view.loc (thr d L) ↦{q} f) := rfl
omit [FloatOps F] in
theorem pts_tq (d : Dev nD) (L : grid1.Coords) (q : PosShare TreeShare) (f : Buf (Elt F) (tqLoc d)) :
    (View.loc (thr d L) (View.whole main_v4_scv) ↦{q} f : sProp 𝕄) = ((tqW).view.loc (thr d L) ↦{q} f) := rfl
omit [FloatOps F] in
theorem pts_out (d : Dev nD) (L : grid1.Coords) (f : Buf (Elt F) (outLoc d)) :
    (View.loc (thr d L) ((View.whole main_v5_scv).slice (Rect.unit (s := S32x16384) (k1_off35 L) S32x512.size (k1_off35_inb L)))
        ↦[((View.whole main_v5_scv).slice (Rect.unit (s := S32x16384) (k1_off35 L) S32x512.size (k1_off35_inb L))).set]{fullShare} f : sProp 𝕄)
      = ((outBlk L).view.loc (thr d L) ↦[(outBlk L).view.set]{fullShare} f) := rfl

/-! ## The loops' invariants -/

omit [FloatOps F] in
def inv1 (d : Dev nD) (L : grid1.Coords) (F5 : Buf (Elt F) ((sIdx).view.loc (thr d L))) (f6 : Buf (Elt F) ((sQ).view.loc (thr d L)))
    (k : ℕ) (_ : PUnit) : sProp 𝕄 :=
  iprop(((sIdx).view.loc (thr d L) ↦{fullShare} F5) ∗ ∃ f, ((sQ).view.loc (thr d L) ↦{fullShare} f) ∗ ⌜f = q1F F5 f6 k⌝)

theorem trips1 : Scf.trips k1_t1_loop.lb k1_t1_loop.ub k1_t1_loop.st = 32 := by decide
theorem trips2 : Scf.trips k1_t2_loop.lb k1_t2_loop.ub k1_t2_loop.st = 32 := by decide
theorem trips3 : Scf.trips k1_t3_loop.lb k1_t3_loop.ub k1_t3_loop.st = 32 := by decide

theorem q1F_full (F5 f6 : S512.Idx → BitVec 32) : q1F F5 f6 (Scf.trips k1_t1_loop.lb k1_t1_loop.ub k1_t1_loop.st) = qFull F5 := by
  rw [trips1]; exact q1F_32 F5 f6

omit [FloatOps F] in
def inv2 (d : Dev nD) (L : grid1.Coords) (F5 : Buf (Elt F) ((sIdx).view.loc (thr d L))) (R0 : Buf (Elt F) ((sR0).view.loc (thr d L)))
    (C0 : Buf (Elt F) ((sC).view.loc (thr d L))) (k : ℕ) (_ : PUnit) : sProp 𝕄 :=
  iprop(((sIdx).view.loc (thr d L) ↦{fullShare} F5) ∗ ((sR0).view.loc (thr d L) ↦{fullShare} R0)
    ∗ ∃ f, ((sC).view.loc (thr d L) ↦{fullShare} f) ∗ ⌜f = cHalf R0 F5 0 C0 k⌝)

omit [FloatOps F] in
theorem pts_acc7 (d : Dev nD) (L : grid1.Coords) (f : Buf (Elt F) ((sR0).view.loc (thr d L))) :
    ((sR0).view.loc (thr d L) ↦{fullShare} f : sProp 𝕄) = (((sR0).access (.whole S256x128)).loc (thr d L) ↦{fullShare} f) := rfl

set_option hygiene false in
/-- One lane group of a column trip: the run up to the indexed load, then the indexed load by its rule. -/
macro "vli_step" : tactic => `(tactic| (
  sl_exec (disch := (refine chk_ok _ _ ?_ _ _ hck; decide))
  ihave H7 := (Entails.of_eq (pts_acc7 (F := F) d L _)) $$ H7
  iapply (SparseCore.wp_vectorLoadIdx (defs := defs₀ (F := F)) 𝒱₀ (thr d L) none Set.univ (Finset.subset_univ _)) $$ H7
  iintro H7
  ihave H7 := (Entails.of_eq (pts_acc7 (F := F) d L _).symm) $$ H7))

omit [FloatOps F] in
def inv3 (d : Dev nD) (L : grid1.Coords) (F5 : Buf (Elt F) ((sIdx).view.loc (thr d L))) (R1 : Buf (Elt F) ((sR1).view.loc (thr d L)))
    (C0 : Buf (Elt F) ((sC).view.loc (thr d L))) (k : ℕ) (_ : PUnit) : sProp 𝕄 :=
  iprop(((sIdx).view.loc (thr d L) ↦{fullShare} F5) ∗ ((sR1).view.loc (thr d L) ↦{fullShare} R1)
    ∗ ∃ f, ((sC).view.loc (thr d L) ↦{fullShare} f) ∗ ⌜f = cHalf R1 F5 256 C0 k⌝)

omit [FloatOps F] in
theorem pts_acc8 (d : Dev nD) (L : grid1.Coords) (f : Buf (Elt F) ((sR1).view.loc (thr d L))) :
    ((sR1).view.loc (thr d L) ↦{fullShare} f : sProp 𝕄) = (((sR1).access (.whole S256x128)).loc (thr d L) ↦{fullShare} f) := rfl

set_option hygiene false in
/-- The same over the second gathered block. -/
macro "vli_step8" : tactic => `(tactic| (
  sl_exec (disch := (refine chk_ok _ _ ?_ _ _ hck; decide))
  ihave H8 := (Entails.of_eq (pts_acc8 (F := F) d L _)) $$ H8
  iapply (SparseCore.wp_vectorLoadIdx (defs := defs₀ (F := F)) 𝒱₀ (thr d L) none Set.univ (Finset.subset_univ _)) $$ H8
  iintro H8
  ihave H8 := (Entails.of_eq (pts_acc8 (F := F) d L _).symm) $$ H8))

set_option maxHeartbeats 16000000 in
set_option maxRecDepth 65536 in
theorem body (m : (ℓ : Loc nD τ sig) → Buf (Elt F) ℓ) (d : Dev nD) (L : grid1.Coords) (O : CellTallies nD τ sig (HIx 4)) (W : Waits sig (HIx 4))
    (hO : ∀ g, O g none = 0)
    (hin : ∀ j : S16384.Idx, ((m (idsLoc d) : S16384.Idx → BitVec 32) j).toNat < 100000)
    (f0 : Buf (Elt F) (outLoc d)) (q1 q4 : PosShare TreeShare) :
    (iprop(levAts (K (F := F)).L (K (F := F)).lev
        ∗ ((idsW).view.loc (thr d L) ↦{q1} m (idsLoc d))
        ∗ ((tqW).view.loc (thr d L) ↦{q4} m (tqLoc d))
        ∗ ((outBlk L).view.loc (thr d L) ↦[(outBlk L).view.set]{fullShare} f0)
        ∗ scopedBufs (thr d L) ∗ scopedSems0 (thr d L) ∗ owes (thr d L) O W) : sProp 𝕄)
      ⊢ wp frame (wpE (defs₀ (F := F)) 𝒱₀ (thr d L) none) Set.univ
          (cc1_packed_gather L idsW (Memref.isWhole_whole _) tqW (Memref.isWhole_whole _) outW (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) cc1_scratch5 cc1_scratch6 cc1_scoped0 cc1_scoped1)
          fun _ => iprop(((idsW).view.loc (thr d L) ↦{q1} m (idsLoc d))
            ∗ ((tqW).view.loc (thr d L) ↦{q4} m (tqLoc d))
            ∗ ((outBlk L).view.loc (thr d L) ↦[(outBlk L).view.set]{fullShare}
                (packedE (F := F) (m (idsLoc d)) (m (tqLoc d)) : Buf (Elt F) (outLoc d)))
            ∗ scopedBufs (thr d L) ∗ scopedSems0 (thr d L) ∗ ∃ W', ⌜∀ p ∈ W', p ∈ W ∨ p.2 = none⌝ ∗ owes (thr d L) O W') := by
  simp only [cc1_packed_gather_eq_skeleton]; unfold cc1_packed_gather_skel
  rw [sems_eq, bufs_eq]
  iintro ⟨#Hlv, Hi, Ht, Ho, Hb, Hs, HO⟩
  icases Hb with ⟨Hb5, Hbufs⟩
  icases Hb5 with ⟨⟨%f5, H5⟩, ⟨%f6, H6⟩, ⟨%f7, H7⟩, ⟨%f8, H8⟩, ⟨%f9, H9⟩⟩
  icases Hs with ⟨⟨Hs0, Hs1, HsA, HsB⟩, Hsems⟩
  ihave Hmw := ((K (F := F)).mayWaits_none (thr := thr d L) hO) $$ Hlv
  ihave Hi := (Entails.of_eq (pts_ids (F := F) d L q1 _)) $$ Hi
  ihave Ht := (Entails.of_eq (pts_tq (F := F) d L q4 _)) $$ Ht
  ihave Ho := (Entails.of_eq (pts_out (F := F) d L _)) $$ Ho
  sl_exec
  obtain ⟨F5, hF5⟩ : ∃ F5 : Buf (Elt F) ((sIdx).view.loc (thr d L)),
      F5 = View.write (Elt F) (Memref.whole cc1_scratch0).view f5 (body.sl.dma0 m d L) Finset.univ := ⟨_, rfl⟩
  rw [← hF5]
  have hF5v : ∀ y, F5 y = View.read (Elt F) (idsW.slice (Rect.unit (s := S16384) (k1_off1 L) S512.size (k1_off1_inb L)) (fun _ => rfl)).view (m (idsLoc d)) y := by
    intro y; rw [hF5]; unfold body.sl.dma0; rw [View.write_whole_univ]
  have hF5lt : ∀ y, (F5 y : BitVec 32).toNat < 100000 := by
    intro y; rw [hF5v]; exact hin _
  sl_for (inv1 (F := F) d L F5 f6) $$ [H5 H6]
  case region =>
    intro k _
    unfold inv1
    iintro ⟨H5, %f, H6, %hf⟩
    subst hf
    sl_exec
    sl_step
    isplitl [H5]; · iexact H5
    iexists _; isplitl [H6]; · iexact H6
    ipureintro
    exact q1_step (F := F) F5 f6 k.val _ (k1_off2_eq k) _ _ (fun x => shrui2 _)
  · unfold inv1
    isplitl [H5]; · iexact H5
    iexists _; isplitl [H6]; · iexact H6
    ipureintro
    exact q1F_zero _ _
  iintro %_ HI
  unfold inv1
  icases HI with ⟨H5, %f, H6, %hf⟩
  have hf' := hf.trans (q1F_full _ f6)
  subst hf'
  have hinA : ∀ x : (Rect.unit (s := S512) ![0] S256.size inb_S512_S256_0).shape.Idx,
      BitVec.toNat (View.read (Elt F) ((Memref.whole cc1_scratch1).slice (Rect.unit (s := S512) ![0] S256.size inb_S512_S256_0) (fun _ => rfl)).view
        (qFull F5) x) < 25000 :=
    fun x => shr2_lt _ (hF5lt _)
  have hinB : ∀ x : (Rect.unit (s := S512) ![256] S256.size inb_S512_S256_256).shape.Idx,
      BitVec.toNat (View.read (Elt F) ((Memref.whole cc1_scratch1).slice (Rect.unit (s := S512) ![256] S256.size inb_S512_S256_256) (fun _ => rfl)).view
        (qFull F5) x) < 25000 :=
    fun x => shr2_lt _ (hF5lt _)
  ihave Ht2 := (Transfers.pointsTo_toks_range q4 1).1 $$ Ht
  rw [Finset.range_one, bigSep_singleton]
  icases Ht2 with ⟨HtA, HtB⟩
  sl_exec
  obtain ⟨R0, hR0⟩ : ∃ R0 : Buf (Elt F) ((sR0).view.loc (thr d L)),
      R0 = sR0.view.writes (Elt F) sR0.view.junk [⟨Rect.whole S256x128, body.sl.gather0 m d L F5 hinA⟩] := ⟨_, rfl⟩
  rw [← hR0]
  sl_for (inv2 (F := F) d L F5 R0 f9) $$ [H5 H7 H9]
  case region =>
    intro k _
    have hk : k.val < 32 := lt_of_lt_of_eq k.isLt trips2
    have hck : (cK k.val).toNat < 32 := by rw [cK_toNat _ hk]; exact hk
    unfold inv2
    iintro ⟨H5, H7, %f, H9, %hf⟩
    subst hf
    vli_step
    vli_step
    vli_step
    vli_step
    vli_step
    vli_step
    vli_step
    vli_step
    vli_step
    vli_step
    vli_step
    vli_step
    vli_step
    vli_step
    vli_step
    vli_step
    sl_exec
    sl_step
    isplitl [H5]; · iexact H5
    isplitl [H7]; · iexact H7
    iexists _; isplitl [H9]; · iexact H9
    ipureintro
    exact cols16 (F := F) R0 F5 0 k.val f9 _ _ _ _ _ _ _ _ _ _ _ _ _ _ _ _ _ _ _ _ _ _ _ _ _ _ _ _ _ _ _ _
      (mem_unit_row _ k.val (0 + 0) (k1_off3_eq k) _)
      (mem_unit_row _ k.val (0 + 16) (k1_off4_eq k) _)
      (mem_unit_row _ k.val (0 + 32) (k1_off5_eq k) _)
      (mem_unit_row _ k.val (0 + 48) (k1_off6_eq k) _)
      (mem_unit_row _ k.val (0 + 64) (k1_off7_eq k) _)
      (mem_unit_row _ k.val (0 + 80) (k1_off8_eq k) _)
      (mem_unit_row _ k.val (0 + 96) (k1_off9_eq k) _)
      (mem_unit_row _ k.val (0 + 112) (k1_off10_eq k) _)
      (mem_unit_row _ k.val (0 + 128) (k1_off11_eq k) _)
      (mem_unit_row _ k.val (0 + 144) (k1_off12_eq k) _)
      (mem_unit_row _ k.val (0 + 160) (k1_off13_eq k) _)
      (mem_unit_row _ k.val (0 + 176) (k1_off14_eq k) _)
      (mem_unit_row _ k.val (0 + 192) (k1_off15_eq k) _)
      (mem_unit_row _ k.val (0 + 208) (k1_off16_eq k) _)
      (mem_unit_row _ k.val (0 + 224) (k1_off17_eq k) _)
      (mem_unit_row _ k.val (0 + 240) (k1_off18_eq k) _)
      (fun x => piece_ok R0 _ (Memref.read_access_whole (Elt F) cc1_scratch2 R0) F5 f9 0 0 k.val (by decide) (by decide) hk _ _ _ (fun _ => rfl) _ (k1_off3_eq k) _ _ _ x)
      (fun x => piece_ok R0 _ (Memref.read_access_whole (Elt F) cc1_scratch2 R0) F5 f9 0 1 k.val (by decide) (by decide) hk _ _ _ (fun _ => rfl) _ (k1_off4_eq k) _ _ _ x)
      (fun x => piece_ok R0 _ (Memref.read_access_whole (Elt F) cc1_scratch2 R0) F5 f9 0 2 k.val (by decide) (by decide) hk _ _ _ (fun _ => rfl) _ (k1_off5_eq k) _ _ _ x)
      (fun x => piece_ok R0 _ (Memref.read_access_whole (Elt F) cc1_scratch2 R0) F5 f9 0 3 k.val (by decide) (by decide) hk _ _ _ (fun _ => rfl) _ (k1_off6_eq k) _ _ _ x)
      (fun x => piece_ok R0 _ (Memref.read_access_whole (Elt F) cc1_scratch2 R0) F5 f9 0 4 k.val (by decide) (by decide) hk _ _ _ (fun _ => rfl) _ (k1_off7_eq k) _ _ _ x)
      (fun x => piece_ok R0 _ (Memref.read_access_whole (Elt F) cc1_scratch2 R0) F5 f9 0 5 k.val (by decide) (by decide) hk _ _ _ (fun _ => rfl) _ (k1_off8_eq k) _ _ _ x)
      (fun x => piece_ok R0 _ (Memref.read_access_whole (Elt F) cc1_scratch2 R0) F5 f9 0 6 k.val (by decide) (by decide) hk _ _ _ (fun _ => rfl) _ (k1_off9_eq k) _ _ _ x)
      (fun x => piece_ok R0 _ (Memref.read_access_whole (Elt F) cc1_scratch2 R0) F5 f9 0 7 k.val (by decide) (by decide) hk _ _ _ (fun _ => rfl) _ (k1_off10_eq k) _ _ _ x)
      (fun x => piece_ok R0 _ (Memref.read_access_whole (Elt F) cc1_scratch2 R0) F5 f9 0 8 k.val (by decide) (by decide) hk _ _ _ (fun _ => rfl) _ (k1_off11_eq k) _ _ _ x)
      (fun x => piece_ok R0 _ (Memref.read_access_whole (Elt F) cc1_scratch2 R0) F5 f9 0 9 k.val (by decide) (by decide) hk _ _ _ (fun _ => rfl) _ (k1_off12_eq k) _ _ _ x)
      (fun x => piece_ok R0 _ (Memref.read_access_whole (Elt F) cc1_scratch2 R0) F5 f9 0 10 k.val (by decide) (by decide) hk _ _ _ (fun _ => rfl) _ (k1_off13_eq k) _ _ _ x)
      (fun x => piece_ok R0 _ (Memref.read_access_whole (Elt F) cc1_scratch2 R0) F5 f9 0 11 k.val (by decide) (by decide) hk _ _ _ (fun _ => rfl) _ (k1_off14_eq k) _ _ _ x)
      (fun x => piece_ok R0 _ (Memref.read_access_whole (Elt F) cc1_scratch2 R0) F5 f9 0 12 k.val (by decide) (by decide) hk _ _ _ (fun _ => rfl) _ (k1_off15_eq k) _ _ _ x)
      (fun x => piece_ok R0 _ (Memref.read_access_whole (Elt F) cc1_scratch2 R0) F5 f9 0 13 k.val (by decide) (by decide) hk _ _ _ (fun _ => rfl) _ (k1_off16_eq k) _ _ _ x)
      (fun x => piece_ok R0 _ (Memref.read_access_whole (Elt F) cc1_scratch2 R0) F5 f9 0 14 k.val (by decide) (by decide) hk _ _ _ (fun _ => rfl) _ (k1_off17_eq k) _ _ _ x)
      (fun x => piece_ok R0 _ (Memref.read_access_whole (Elt F) cc1_scratch2 R0) F5 f9 0 15 k.val (by decide) (by decide) hk _ _ _ (fun _ => rfl) _ (k1_off18_eq k) _ _ _ x)
  · unfold inv2
    isplitl [H5]; · iexact H5
    isplitl [H7]; · iexact H7
    iexists _; isplitl [H9]; · iexact H9
    ipureintro
    exact cHalf_zero _ _ _ _
  iintro %_ HI
  unfold inv2
  icases HI with ⟨H5, H7, %f, H9, %hf⟩
  subst hf
  sl_exec
  obtain ⟨R1, hR1⟩ : ∃ R1 : Buf (Elt F) ((sR1).view.loc (thr d L)),
      R1 = sR1.view.writes (Elt F) sR1.view.junk [⟨Rect.whole S256x128, body.sl.gather1 m d L F5 hinB⟩] := ⟨_, rfl⟩
  rw [← hR1]
  sl_for (inv3 (F := F) d L F5 R1 (cHalf R0 F5 0 f9 (Scf.trips k1_t2_loop.lb k1_t2_loop.ub k1_t2_loop.st))) $$ [H5 H8 H9]
  case region =>
    intro k _
    have hk : k.val < 32 := lt_of_lt_of_eq k.isLt trips3
    have hck : (cK k.val).toNat < 32 := by rw [cK_toNat _ hk]; exact hk
    unfold inv3
    iintro ⟨H5, H8, %f, H9, %hf⟩
    subst hf
    vli_step8
    vli_step8
    vli_step8
    vli_step8
    vli_step8
    vli_step8
    vli_step8
    vli_step8
    vli_step8
    vli_step8
    vli_step8
    vli_step8
    vli_step8
    vli_step8
    vli_step8
    vli_step8
    sl_exec
    sl_step
    isplitl [H5]; · iexact H5
    isplitl [H8]; · iexact H8
    iexists _; isplitl [H9]; · iexact H9
    ipureintro
    exact cols16 (F := F) R1 F5 256 k.val (cHalf R0 F5 0 f9 (Scf.trips k1_t2_loop.lb k1_t2_loop.ub k1_t2_loop.st)) _ _ _ _ _ _ _ _ _ _ _ _ _ _ _ _ _ _ _ _ _ _ _ _ _ _ _ _ _ _ _ _
      (mem_unit_row _ k.val (256 + 0) (k1_off19_eq k) _)
      (mem_unit_row _ k.val (256 + 16) (k1_off20_eq k) _)
      (mem_unit_row _ k.val (256 + 32) (k1_off21_eq k) _)
      (mem_unit_row _ k.val (256 + 48) (k1_off22_eq k) _)
      (mem_unit_row _ k.val (256 + 64) (k1_off23_eq k) _)
      (mem_unit_row _ k.val (256 + 80) (k1_off24_eq k) _)
      (mem_unit_row _ k.val (256 + 96) (k1_off25_eq k) _)
      (mem_unit_row _ k.val (256 + 112) (k1_off26_eq k) _)
      (mem_unit_row _ k.val (256 + 128) (k1_off27_eq k) _)
      (mem_unit_row _ k.val (256 + 144) (k1_off28_eq k) _)
      (mem_unit_row _ k.val (256 + 160) (k1_off29_eq k) _)
      (mem_unit_row _ k.val (256 + 176) (k1_off30_eq k) _)
      (mem_unit_row _ k.val (256 + 192) (k1_off31_eq k) _)
      (mem_unit_row _ k.val (256 + 208) (k1_off32_eq k) _)
      (mem_unit_row _ k.val (256 + 224) (k1_off33_eq k) _)
      (mem_unit_row _ k.val (256 + 240) (k1_off34_eq k) _)
      (fun x => piece_ok R1 _ (Memref.read_access_whole (Elt F) cc1_scratch3 R1) F5 (cHalf R0 F5 0 f9 (Scf.trips k1_t2_loop.lb k1_t2_loop.ub k1_t2_loop.st)) 256 0 k.val (by decide) (by decide) hk _ _ _ (fun _ => rfl) _ (k1_off19_eq k) _ _ _ x)
      (fun x => piece_ok R1 _ (Memref.read_access_whole (Elt F) cc1_scratch3 R1) F5 (cHalf R0 F5 0 f9 (Scf.trips k1_t2_loop.lb k1_t2_loop.ub k1_t2_loop.st)) 256 1 k.val (by decide) (by decide) hk _ _ _ (fun _ => rfl) _ (k1_off20_eq k) _ _ _ x)
      (fun x => piece_ok R1 _ (Memref.read_access_whole (Elt F) cc1_scratch3 R1) F5 (cHalf R0 F5 0 f9 (Scf.trips k1_t2_loop.lb k1_t2_loop.ub k1_t2_loop.st)) 256 2 k.val (by decide) (by decide) hk _ _ _ (fun _ => rfl) _ (k1_off21_eq k) _ _ _ x)
      (fun x => piece_ok R1 _ (Memref.read_access_whole (Elt F) cc1_scratch3 R1) F5 (cHalf R0 F5 0 f9 (Scf.trips k1_t2_loop.lb k1_t2_loop.ub k1_t2_loop.st)) 256 3 k.val (by decide) (by decide) hk _ _ _ (fun _ => rfl) _ (k1_off22_eq k) _ _ _ x)
      (fun x => piece_ok R1 _ (Memref.read_access_whole (Elt F) cc1_scratch3 R1) F5 (cHalf R0 F5 0 f9 (Scf.trips k1_t2_loop.lb k1_t2_loop.ub k1_t2_loop.st)) 256 4 k.val (by decide) (by decide) hk _ _ _ (fun _ => rfl) _ (k1_off23_eq k) _ _ _ x)
      (fun x => piece_ok R1 _ (Memref.read_access_whole (Elt F) cc1_scratch3 R1) F5 (cHalf R0 F5 0 f9 (Scf.trips k1_t2_loop.lb k1_t2_loop.ub k1_t2_loop.st)) 256 5 k.val (by decide) (by decide) hk _ _ _ (fun _ => rfl) _ (k1_off24_eq k) _ _ _ x)
      (fun x => piece_ok R1 _ (Memref.read_access_whole (Elt F) cc1_scratch3 R1) F5 (cHalf R0 F5 0 f9 (Scf.trips k1_t2_loop.lb k1_t2_loop.ub k1_t2_loop.st)) 256 6 k.val (by decide) (by decide) hk _ _ _ (fun _ => rfl) _ (k1_off25_eq k) _ _ _ x)
      (fun x => piece_ok R1 _ (Memref.read_access_whole (Elt F) cc1_scratch3 R1) F5 (cHalf R0 F5 0 f9 (Scf.trips k1_t2_loop.lb k1_t2_loop.ub k1_t2_loop.st)) 256 7 k.val (by decide) (by decide) hk _ _ _ (fun _ => rfl) _ (k1_off26_eq k) _ _ _ x)
      (fun x => piece_ok R1 _ (Memref.read_access_whole (Elt F) cc1_scratch3 R1) F5 (cHalf R0 F5 0 f9 (Scf.trips k1_t2_loop.lb k1_t2_loop.ub k1_t2_loop.st)) 256 8 k.val (by decide) (by decide) hk _ _ _ (fun _ => rfl) _ (k1_off27_eq k) _ _ _ x)
      (fun x => piece_ok R1 _ (Memref.read_access_whole (Elt F) cc1_scratch3 R1) F5 (cHalf R0 F5 0 f9 (Scf.trips k1_t2_loop.lb k1_t2_loop.ub k1_t2_loop.st)) 256 9 k.val (by decide) (by decide) hk _ _ _ (fun _ => rfl) _ (k1_off28_eq k) _ _ _ x)
      (fun x => piece_ok R1 _ (Memref.read_access_whole (Elt F) cc1_scratch3 R1) F5 (cHalf R0 F5 0 f9 (Scf.trips k1_t2_loop.lb k1_t2_loop.ub k1_t2_loop.st)) 256 10 k.val (by decide) (by decide) hk _ _ _ (fun _ => rfl) _ (k1_off29_eq k) _ _ _ x)
      (fun x => piece_ok R1 _ (Memref.read_access_whole (Elt F) cc1_scratch3 R1) F5 (cHalf R0 F5 0 f9 (Scf.trips k1_t2_loop.lb k1_t2_loop.ub k1_t2_loop.st)) 256 11 k.val (by decide) (by decide) hk _ _ _ (fun _ => rfl) _ (k1_off30_eq k) _ _ _ x)
      (fun x => piece_ok R1 _ (Memref.read_access_whole (Elt F) cc1_scratch3 R1) F5 (cHalf R0 F5 0 f9 (Scf.trips k1_t2_loop.lb k1_t2_loop.ub k1_t2_loop.st)) 256 12 k.val (by decide) (by decide) hk _ _ _ (fun _ => rfl) _ (k1_off31_eq k) _ _ _ x)
      (fun x => piece_ok R1 _ (Memref.read_access_whole (Elt F) cc1_scratch3 R1) F5 (cHalf R0 F5 0 f9 (Scf.trips k1_t2_loop.lb k1_t2_loop.ub k1_t2_loop.st)) 256 13 k.val (by decide) (by decide) hk _ _ _ (fun _ => rfl) _ (k1_off32_eq k) _ _ _ x)
      (fun x => piece_ok R1 _ (Memref.read_access_whole (Elt F) cc1_scratch3 R1) F5 (cHalf R0 F5 0 f9 (Scf.trips k1_t2_loop.lb k1_t2_loop.ub k1_t2_loop.st)) 256 14 k.val (by decide) (by decide) hk _ _ _ (fun _ => rfl) _ (k1_off33_eq k) _ _ _ x)
      (fun x => piece_ok R1 _ (Memref.read_access_whole (Elt F) cc1_scratch3 R1) F5 (cHalf R0 F5 0 f9 (Scf.trips k1_t2_loop.lb k1_t2_loop.ub k1_t2_loop.st)) 256 15 k.val (by decide) (by decide) hk _ _ _ (fun _ => rfl) _ (k1_off34_eq k) _ _ _ x)
  · unfold inv3
    isplitl [H5]; · iexact H5
    isplitl [H8]; · iexact H8
    iexists _; isplitl [H9]; · iexact H9
    ipureintro
    exact cHalf_zero _ _ _ _
  iintro %_ HI
  unfold inv3
  icases HI with ⟨H5, H8, %f, H9, %hf⟩
  subst hf
  sl_exec
  have hval : ∀ i ∈ (outBlk L).view.set,
      ((outBlk L).view.writes (Elt F) f0 [⟨Rect.whole S32x512, body.sl.dma0_1 d L f9 F5 R0 R1⟩]) i
        = (packedE (F := F) (m (idsLoc d)) (m (tqLoc d)) : Buf (Elt F) (outLoc d)) i := by
    unfold body.sl.dma0_1
    unfold body.sl.gather0 at hR0
    unfold body.sl.gather1 at hR1
    rw [trips2]
    exact block_value (F := F) L (m (idsLoc d)) (m (tqLoc d)) F5 hF5v gathers_S25000x128_S256x128 _ _ hinA hinB _ _ R0 R1 hR0 hR1 f0 f9
  sl_step
  isplitl [Hi]
  · iapply (Entails.of_eq (pts_ids (F := F) d L q1 _).symm); iexact Hi
  isplitl [HtA HtB]
  · iapply (Entails.of_eq (pts_tq (F := F) d L q4 _).symm)
    iapply (Transfers.pointsTo_toks_range q4 1).2
    rw [Finset.range_one, bigSep_singleton]
    isplitl [HtA]; · iexact HtA
    iexact HtB
  isplitl [Ho]
  · iapply (Entails.of_eq (pts_out (F := F) d L _).symm)
    iapply (Entails.of_eq (pointsTo_congr (q := fullShare) hval))
    iexact Ho
  isplitl [H5 H6 H7 H8 H9 Hbufs]
  · isplitr [Hbufs]
    · isplitl [H5]; · iexists _; iexact H5
      isplitl [H6]; · iexists _; iexact H6
      isplitl [H7]; · iexists _; iexact H7
      isplitl [H8]; · iexists _; iexact H8
      iexists _; iexact H9
    · iexact Hbufs
  isplitl [Hs0 Hs1 HsA HsB Hsems]
  · isplitr [Hsems]
    · isplitl [Hs0]; · iexact Hs0
      isplitl [Hs1]; · iexact Hs1
      isplitl [HsA]; · iexact HsA
      iexact HsB
    · iexact Hsems
  iexists _; isplitr
  rotate_left
  · iexact HO
  · ipureintro
    intro p hp
    simp only [Finset.mem_insert] at hp
    rcases hp with rfl | rfl | rfl | rfl | hp
    · exact .inr rfl
    · exact .inr rfl
    · exact .inr rfl
    · exact .inr rfl
    · exact .inl hp

end Cert.Proof.PackedB

end
-- ==== Proof.PackedValue2B.lean ====
/-
  The packed gather's store lemmas over the second packed call's scratch buffers: the first loop's store of 16 shifted
  words, and the sixteen stores of 16 lanes along a row of the 32 × 512 block — the same statements and proofs as for the
  first packed call, which name a scratch buffer only as the view the writes go through.
-/
import proofs.«204991_g57140244906297_cont_9to1_m_249_19_alg».proof.Proof.PackedValueB

noncomputable section

namespace Cert.Proof.PackedB

open Idealize.ShloMosaic Cert.Kernel Cert.Kernel.Gen
open Idealize.ShloMosaic.ValueIdx (ix1 ix2)

/-! ## Sixteen stores along a row -/

/-- Sixteen stores of 16 lanes each along row `k` of the half starting at column `b0`, each piece a block of the contents
    after `k + 1` trips: the contents after `k` trips become those after `k + 1`. -/
theorem cols16_2 {F : FTy → Type} (R : S256x128.Idx → Elt F .f32) (F5 : S512.Idx → BitVec 32) (b0 k : ℕ) (Cf : S32x512.Idx → Elt F .f32)
    (r0 : Rect S32x512) (w0 : r0.shape.Idx → Elt F .f32)
    (r1 : Rect S32x512) (w1 : r1.shape.Idx → Elt F .f32)
    (r2 : Rect S32x512) (w2 : r2.shape.Idx → Elt F .f32)
    (r3 : Rect S32x512) (w3 : r3.shape.Idx → Elt F .f32)
    (r4 : Rect S32x512) (w4 : r4.shape.Idx → Elt F .f32)
    (r5 : Rect S32x512) (w5 : r5.shape.Idx → Elt F .f32)
    (r6 : Rect S32x512) (w6 : r6.shape.Idx → Elt F .f32)
    (r7 : Rect S32x512) (w7 : r7.shape.Idx → Elt F .f32)
    (r8 : Rect S32x512) (w8 : r8.shape.Idx → Elt F .f32)
    (r9 : Rect S32x512) (w9 : r9.shape.Idx → Elt F .f32)
    (r10 : Rect S32x512) (w10 : r10.shape.Idx → Elt F .f32)
    (r11 : Rect S32x512) (w11 : r11.shape.Idx → Elt F .f32)
    (r12 : Rect S32x512) (w12 : r12.shape.Idx → Elt F .f32)
    (r13 : Rect S32x512) (w13 : r13.shape.Idx → Elt F .f32)
    (r14 : Rect S32x512) (w14 : r14.shape.Idx → Elt F .f32)
    (r15 : Rect S32x512) (w15 : r15.shape.Idx → Elt F .f32)
    (hm0 : ∀ y : S32x512.Idx, y ∈ r0.set ↔ ((y 0).val = k ∧ b0 + 0 ≤ (y 1).val ∧ (y 1).val < b0 + 0 + 16))
    (hm1 : ∀ y : S32x512.Idx, y ∈ r1.set ↔ ((y 0).val = k ∧ b0 + 16 ≤ (y 1).val ∧ (y 1).val < b0 + 16 + 16))
    (hm2 : ∀ y : S32x512.Idx, y ∈ r2.set ↔ ((y 0).val = k ∧ b0 + 32 ≤ (y 1).val ∧ (y 1).val < b0 + 32 + 16))
    (hm3 : ∀ y : S32x512.Idx, y ∈ r3.set ↔ ((y 0).val = k ∧ b0 + 48 ≤ (y 1).val ∧ (y 1).val < b0 + 48 + 16))
    (hm4 : ∀ y : S32x512.Idx, y ∈ r4.set ↔ ((y 0).val = k ∧ b0 + 64 ≤ (y 1).val ∧ (y 1).val < b0 + 64 + 16))
    (hm5 : ∀ y : S32x512.Idx, y ∈ r5.set ↔ ((y 0).val = k ∧ b0 + 80 ≤ (y 1).val ∧ (y 1).val < b0 + 80 + 16))
    (hm6 : ∀ y : S32x512.Idx, y ∈ r6.set ↔ ((y 0).val = k ∧ b0 + 96 ≤ (y 1).val ∧ (y 1).val < b0 + 96 + 16))
    (hm7 : ∀ y : S32x512.Idx, y ∈ r7.set ↔ ((y 0).val = k ∧ b0 + 112 ≤ (y 1).val ∧ (y 1).val < b0 + 112 + 16))
    (hm8 : ∀ y : S32x512.Idx, y ∈ r8.set ↔ ((y 0).val = k ∧ b0 + 128 ≤ (y 1).val ∧ (y 1).val < b0 + 128 + 16))
    (hm9 : ∀ y : S32x512.Idx, y ∈ r9.set ↔ ((y 0).val = k ∧ b0 + 144 ≤ (y 1).val ∧ (y 1).val < b0 + 144 + 16))
    (hm10 : ∀ y : S32x512.Idx, y ∈ r10.set ↔ ((y 0).val = k ∧ b0 + 160 ≤ (y 1).val ∧ (y 1).val < b0 + 160 + 16))
    (hm11 : ∀ y : S32x512.Idx, y ∈ r11.set ↔ ((y 0).val = k ∧ b0 + 176 ≤ (y 1).val ∧ (y 1).val < b0 + 176 + 16))
    (hm12 : ∀ y : S32x512.Idx, y ∈ r12.set ↔ ((y 0).val = k ∧ b0 + 192 ≤ (y 1).val ∧ (y 1).val < b0 + 192 + 16))
    (hm13 : ∀ y : S32x512.Idx, y ∈ r13.set ↔ ((y 0).val = k ∧ b0 + 208 ≤ (y 1).val ∧ (y 1).val < b0 + 208 + 16))
    (hm14 : ∀ y : S32x512.Idx, y ∈ r14.set ↔ ((y 0).val = k ∧ b0 + 224 ≤ (y 1).val ∧ (y 1).val < b0 + 224 + 16))
    (hm15 : ∀ y : S32x512.Idx, y ∈ r15.set ↔ ((y 0).val = k ∧ b0 + 240 ≤ (y 1).val ∧ (y 1).val < b0 + 240 + 16))
    (hv0 : ∀ x, w0 x = cHalf R F5 b0 Cf (k + 1) (r0.emb x))
    (hv1 : ∀ x, w1 x = cHalf R F5 b0 Cf (k + 1) (r1.emb x))
    (hv2 : ∀ x, w2 x = cHalf R F5 b0 Cf (k + 1) (r2.emb x))
    (hv3 : ∀ x, w3 x = cHalf R F5 b0 Cf (k + 1) (r3.emb x))
    (hv4 : ∀ x, w4 x = cHalf R F5 b0 Cf (k + 1) (r4.emb x))
    (hv5 : ∀ x, w5 x = cHalf R F5 b0 Cf (k + 1) (r5.emb x))
    (hv6 : ∀ x, w6 x = cHalf R F5 b0 Cf (k + 1) (r6.emb x))
    (hv7 : ∀ x, w7 x = cHalf R F5 b0 Cf (k + 1) (r7.emb x))
    (hv8 : ∀ x, w8 x = cHalf R F5 b0 Cf (k + 1) (r8.emb x))
    (hv9 : ∀ x, w9 x = cHalf R F5 b0 Cf (k + 1) (r9.emb x))
    (hv10 : ∀ x, w10 x = cHalf R F5 b0 Cf (k + 1) (r10.emb x))
    (hv11 : ∀ x, w11 x = cHalf R F5 b0 Cf (k + 1) (r11.emb x))
    (hv12 : ∀ x, w12 x = cHalf R F5 b0 Cf (k + 1) (r12.emb x))
    (hv13 : ∀ x, w13 x = cHalf R F5 b0 Cf (k + 1) (r13.emb x))
    (hv14 : ∀ x, w14 x = cHalf R F5 b0 Cf (k + 1) (r14.emb x))
    (hv15 : ∀ x, w15 x = cHalf R F5 b0 Cf (k + 1) (r15.emb x)) :
    (Memref.whole cc2_scratch4).view.writes (Elt F) (cHalf R F5 b0 Cf k)
        [⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩]
      = cHalf R F5 b0 Cf (k + 1) := by
  funext y
  by_cases h : (y 0).val = k ∧ b0 ≤ (y 1).val ∧ (y 1).val < b0 + 256
  · have hy : ∃ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∈ p.1.set := by
      simp only [List.mem_cons, List.not_mem_nil, or_false, exists_eq_or_imp, exists_eq_left,
        hm0, hm1, hm2, hm3, hm4, hm5, hm6, hm7, hm8, hm9, hm10, hm11, hm12, hm13, hm14, hm15]
      omega
    exact View.read_writes_apply_of_pieces (Memref.whole cc2_scratch4).view _ (cHalf R F5 b0 Cf (k + 1)) _ (by
      intro p hp
      simp only [List.mem_cons, List.not_mem_nil, or_false] at hp
      rcases hp with rfl | rfl | rfl | rfl | rfl | rfl | rfl | rfl | rfl | rfl | rfl | rfl | rfl | rfl | rfl | rfl <;> assumption) y hy
  · have hn : ∀ p ∈ ([⟨r15, w15⟩, ⟨r14, w14⟩, ⟨r13, w13⟩, ⟨r12, w12⟩, ⟨r11, w11⟩, ⟨r10, w10⟩, ⟨r9, w9⟩, ⟨r8, w8⟩, ⟨r7, w7⟩, ⟨r6, w6⟩, ⟨r5, w5⟩, ⟨r4, w4⟩, ⟨r3, w3⟩, ⟨r2, w2⟩, ⟨r1, w1⟩, ⟨r0, w0⟩] : List (View.Piece (Elt F) S32x512 .f32)), y ∉ p.1.set := by
      intro p hp
      simp only [List.mem_cons, List.not_mem_nil, or_false] at hp
      rcases hp with rfl | rfl | rfl | rfl | rfl | rfl | rfl | rfl | rfl | rfl | rfl | rfl | rfl | rfl | rfl | rfl
      · rw [hm15]; omega
      · rw [hm14]; omega
      · rw [hm13]; omega
      · rw [hm12]; omega
      · rw [hm11]; omega
      · rw [hm10]; omega
      · rw [hm9]; omega
      · rw [hm8]; omega
      · rw [hm7]; omega
      · rw [hm6]; omega
      · rw [hm5]; omega
      · rw [hm4]; omega
      · rw [hm3]; omega
      · rw [hm2]; omega
      · rw [hm1]; omega
      · rw [hm0]; omega
    refine (View.read_writes_apply_of_forall_not_mem (Memref.whole cc2_scratch4).view _ y _ hn).trans ?_
    show cHalf R F5 b0 Cf k y = cHalf R F5 b0 Cf (k + 1) y
    simp only [cHalf]
    by_cases h1 : (y 0).val < k ∧ b0 ≤ (y 1).val ∧ (y 1).val < b0 + 256
    · rw [if_pos h1, if_pos ⟨by omega, h1.2⟩]
    · rw [if_neg h1, if_neg (by intro h2; apply h1; refine ⟨?_, h2.2⟩; by_contra h3; exact h ⟨by omega, h2.2⟩)]

/-! ## The first loop's store -/

theorem q1_step2 {F : FTy → Type} (F5 f6 : S512.Idx → BitVec 32) (k : ℕ) (off : Fin 1 → ℕ) (hoff : off = ![16 * k]) (inb : ∀ a, off a + S16.size a ≤ S512.size a)
    (w : S16.Idx → BitVec 32) (hw : ∀ x, w x = F5 ((Rect.unit (s := S512) off S16.size inb).emb x) >>> 2) :
    (Memref.whole cc2_scratch1).view.writes (Elt F) (q1F F5 f6 k) [⟨Rect.unit (s := S512) off S16.size inb, w⟩] = q1F F5 f6 (k + 1) := by
  subst hoff
  funext j
  by_cases hj : j ∈ (Rect.unit (s := S512) ![16 * k] S16.size inb).set
  · obtain ⟨x, hx⟩ : ∃ x, (Rect.unit (s := S512) ![16 * k] S16.size inb).emb x = j := (Rect.unit (s := S512) ![16 * k] S16.size inb).exists_idx_of_mem hj
    have key := View.read_writes_cons_emb (Val := Elt F) (Memref.whole cc2_scratch1).view (q1F F5 f6 k) _ w [] x
    rw [hx] at key
    refine key.trans ?_
    rw [hw, hx]
    have h0 : (j 0).val = 16 * k + (x 0).val := by
      rw [← hx, Rect.emb_apply]; show 16 * k + 1 * (x 0).val = _; omega
    have hx16 : (x 0).val < 16 := (x 0).isLt
    have hc : (j 0).val < 16 * (k + 1) := by omega
    simp only [q1F]
    rw [if_pos hc]
  · have hn : ∀ p ∈ ([⟨Rect.unit (s := S512) ![16 * k] S16.size inb, w⟩] : List (View.Piece (Elt F) S512 .i32)), j ∉ p.1.set := by
      intro p hp
      simp only [List.mem_cons, List.not_mem_nil, or_false] at hp
      subst hp; exact hj
    refine (View.read_writes_apply_of_forall_not_mem (Val := Elt F) (Memref.whole cc2_scratch1).view _ j _ hn).trans ?_
    show q1F F5 f6 k j = q1F F5 f6 (k + 1) j
    rw [Rect.mem_set_unit, Fin.forall_fin_one] at hj
    have hj' : ¬ (16 * k ≤ (j 0).val ∧ (j 0).val < 16 * k + 16) := hj
    simp only [q1F]
    by_cases h1 : (j 0).val < 16 * k
    · rw [if_pos h1, if_pos (by omega)]
    · rw [if_neg h1, if_neg (by omega)]

end Cert.Proof.PackedB

end
-- ==== Proof.PackedBlock2B.lean ====
/-
  The block a task copies out, read at an element of its slice of the output: from what the index copy, the two row
  gathers and the two column loops left in the scratch buffers, every element of the slice holds the lookup's value.
-/
import proofs.«204991_g57140244906297_cont_9to1_m_249_19_alg».proof.Proof.PackedFinalB

noncomputable section

namespace Cert.Proof.PackedB

open Idealize.ShloMosaic Cert.Kernel Cert.Kernel.Gen
open Idealize.ShloMosaic.ValueIdx (ix1 ix2)

theorem whole_piece2_2 {F : FTy → Type} (j G : S256x128.Idx → Elt F .f32) (x : S256x128.Idx) :
    (Memref.whole cc2_scratch2).view.writes (Elt F) j [⟨Rect.whole S256x128, G⟩] x = G x := by
  have key := View.read_writes_cons_emb (Val := Elt F) (Memref.whole cc2_scratch2).view j (Rect.whole S256x128) G [] x
  have e : (Rect.whole S256x128).emb x = x := by
    funext a; apply Fin.ext; show 0 + 1 * (x a).val = (x a).val; omega
  rw [e] at key
  exact key

theorem whole_piece3_2 {F : FTy → Type} (j G : S256x128.Idx → Elt F .f32) (x : S256x128.Idx) :
    (Memref.whole cc2_scratch3).view.writes (Elt F) j [⟨Rect.whole S256x128, G⟩] x = G x := by
  have key := View.read_writes_cons_emb (Val := Elt F) (Memref.whole cc2_scratch3).view j (Rect.whole S256x128) G [] x
  have e : (Rect.whole S256x128).emb x = x := by
    funext a; apply Fin.ext; show 0 + 1 * (x a).val = (x a).val; omega
  rw [e] at key
  exact key

set_option maxHeartbeats 4000000 in
theorem block_value2 {F : FTy → Type} (L : grid2.Coords) (IDS : S16384.Idx → BitVec 32) (TQ : S250x128.Idx → Elt F .f32)
    (F5 : S512.Idx → BitVec 32)
    (hF5v : ∀ y, F5 y = View.read (Elt F) (idsW2.slice (Rect.unit (s := S16384) (k2_off1 L) S512.size (k2_off1_inb L)) (fun _ => rfl)).view IDS y)
    (hg : S250x128.Gathers 0 S256x128) (hn : S256.numel = S256x128.size hg.axis')
    (inbt : ∀ a, (![0, 0] : Fin 2 → ℕ) a + S250x128.size a ≤ S250x128.size a)
    (hinA : ∀ x, (View.read (Elt F) ((Memref.whole cc2_scratch1).slice (Rect.unit (s := S512) ![0] S256.size inb_S512_S256_0) (fun _ => rfl)).view (qFull F5) x).toNat < S250x128.size hg.axis)
    (hinB : ∀ x, (View.read (Elt F) ((Memref.whole cc2_scratch1).slice (Rect.unit (s := S512) ![256] S256.size inb_S512_S256_256) (fun _ => rfl)).view (qFull F5) x).toNat < S250x128.size hg.axis)
    (j7 j8 : S256x128.Idx → Elt F .f32) (R0 R1 : S256x128.Idx → Elt F .f32)
    (hR0 : R0 = (Memref.whole cc2_scratch2).view.writes (Elt F) j7 [⟨Rect.whole S256x128,
      SparseCore.gatherPayload hg (View.read (Elt F) (tqW2.slice (Rect.unit (s := S250x128) ![0, 0] S250x128.size inbt) (fun _ => rfl)).view TQ)
        (SparseCore.rows (F := F) (View.read (Elt F) ((Memref.whole cc2_scratch1).slice (Rect.unit (s := S512) ![0] S256.size inb_S512_S256_0) (fun _ => rfl)).view (qFull F5)) hn hinA)⟩])
    (hR1 : R1 = (Memref.whole cc2_scratch3).view.writes (Elt F) j8 [⟨Rect.whole S256x128,
      SparseCore.gatherPayload hg (View.read (Elt F) (tqW2.slice (Rect.unit (s := S250x128) ![0, 0] S250x128.size inbt) (fun _ => rfl)).view TQ)
        (SparseCore.rows (F := F) (View.read (Elt F) ((Memref.whole cc2_scratch1).slice (Rect.unit (s := S512) ![256] S256.size inb_S512_S256_256) (fun _ => rfl)).view (qFull F5)) hn hinB)⟩])
    (f0 : S32x16384.Idx → Elt F .f32) (f9 : S32x512.Idx → Elt F .f32) :
    ∀ i ∈ (outBlk2 L).view.set,
      ((outBlk2 L).view.writes (Elt F) f0 [⟨Rect.whole S32x512, ReadAs.same.apply (View.read (Elt F) (Memref.whole cc2_scratch4).view
          (cHalf R1 F5 256 (cHalf R0 F5 0 f9 32) 32))⟩]) i = packedE2 (F := F) IDS TQ i := by
  have hL0 : (L 0).val < 2 := (L 0).isLt
  have hL1 : (L 1).val < 16 := (L 1).isLt
  have hF5n : ∀ n : Fin 512, F5 (ix1 n) = IDS (ix1 ⟨(1024 * (L 1).val + 512 * (L 0).val) + n.val, by omega⟩) := by
    intro n
    rw [hF5v]
    show IDS ((idsW2.slice (Rect.unit (s := S16384) (k2_off1 L) S512.size (k2_off1_inb L)) (fun _ => rfl)).view.emb (ix1 n)) = _
    congr 1
    funext a
    apply Fin.ext
    fin_cases a
    have e : (k2_off1 L) 0 = 1024 * (L 1).val + 512 * (L 0).val := congrFun (k2_off1_eq L) 0
    show (k2_off1 L) 0 + 1 * n.val = (1024 * (L 1).val + 512 * (L 0).val) + n.val
    omega
  have hR0' : ∀ (r : Fin 256) (c : Fin 128), R0 (ix2 r c)
      = TQ (ix2 ⟨(F5 (ix1 ⟨r.val, by omega⟩) >>> 2).toNat % 250, Nat.mod_lt _ (by decide)⟩ c) := by
    intro r c
    rw [hR0, whole_piece2_2]
    have h := gather_payload_at2 (F := F) TQ (qFull F5) 0 (by omega) inb_S512_S256_0 (fun _ => rfl) inbt (fun _ => rfl) hg hn hinA r c
    simp only [Nat.zero_add] at h
    exact h
  have hR1' : ∀ (r : Fin 256) (c : Fin 128), R1 (ix2 r c)
      = TQ (ix2 ⟨(F5 (ix1 ⟨256 + r.val, by omega⟩) >>> 2).toNat % 250, Nat.mod_lt _ (by decide)⟩ c) := by
    intro r c
    rw [hR1, whole_piece3_2]
    exact gather_payload_at2 (F := F) TQ (qFull F5) 256 (by omega) inb_S512_S256_256 (fun _ => rfl) inbt (fun _ => rfl) hg hn hinB r c
  intro i hi
  obtain ⟨y, -, rfl⟩ := Finset.mem_map.mp hi
  have key := View.read_writes_cons_emb (Val := Elt F) (outBlk2 L).view f0 (Rect.whole S32x512) (ReadAs.same.apply (View.read (Elt F) (Memref.whole cc2_scratch4).view
          (cHalf R1 F5 256 (cHalf R0 F5 0 f9 32) 32))) [] y
  have e : (Rect.whole S32x512).emb y = y := by
    funext a; apply Fin.ext; show 0 + 1 * (y a).val = (y a).val; omega
  rw [e] at key
  refine (show _ = _ from key).trans ?_
  show cHalf R1 F5 256 (cHalf R0 F5 0 f9 32) 32 y = _
  rw [out_value2 (F := F) IDS TQ F5 (1024 * (L 1).val + 512 * (L 0).val) (by omega) hF5n R0 R1 hR0' hR1' f9 y]
  congr 1
  funext a
  apply Fin.ext
  fin_cases a
  · have e : (k2_off35 L) 0 = 0 := congrFun (k2_off35_eq L) 0
    show (y 0).val = (k2_off35 L) 0 + 1 * (y 0).val
    omega
  · have e : (k2_off35 L) 1 = 1024 * (L 1).val + 512 * (L 0).val := congrFun (k2_off35_eq L) 1
    show (1024 * (L 1).val + 512 * (L 0).val) + (y 1).val = (k2_off35 L) 1 + 1 * (y 1).val
    omega

end Cert.Proof.PackedB

end
-- ==== Proof.PackedBody2B.lean ====
/-
  The task of one vector subcore in the packed gather of the third table (SparseCore call 2): the tile copies its 512
  index words into a scratch, writes each word shifted right by two into a second scratch, gathers the 256 + 256 rows
  those name out of the table read as 250 rows of 128, picks lane ((idx &&& 3) <<< 5) + c of row n for every column
  c < 32 and position n < 512, and copies the 32 × 512 block so built to its columns of the output.
-/
import proofs.«204991_g57140244906297_cont_9to1_m_249_19_alg».proof.Proof.CommonB
import proofs.«204991_g57140244906297_cont_9to1_m_249_19_alg».proof.Proof.PackedDefsB
import proofs.«204991_g57140244906297_cont_9to1_m_249_19_alg».proof.Proof.PackedValueB
import proofs.«204991_g57140244906297_cont_9to1_m_249_19_alg».proof.Proof.PackedValue2B
import proofs.«204991_g57140244906297_cont_9to1_m_249_19_alg».proof.Proof.PackedBlock2B
import proofs.«204991_g57140244906297_cont_9to1_m_249_19_alg».proof.Proof.Gen.Kernel.Skeleton
import Idealize.ShloMosaic.Lib.SparseCore.Stream
import Idealize.ShloMosaic.Lib.Transfers
import Idealize.ShloMosaic.Lib.Writes
import Idealize.ShloMosaic.Lib.ValueIdx

noncomputable section

namespace Cert.Proof.PackedB

open Cert.Kernel Cert.Kernel.Gen
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 4) (Elt F) ℕ UU ℕ

/-! ## The tile's own semaphores and scratch buffers -/

abbrev g0_2 (d : Dev nD) (L : grid2.Coords) : GSem nD τ sig := (thr2 d L, .dma cc2_scoped0.sem)
abbrev g1_2 (d : Dev nD) (L : grid2.Coords) : GSem nD τ sig := (thr2 d L, .dma cc2_scoped1.sem)
abbrev gA_2 (d : Dev nD) (L : grid2.Coords) : GSem nD τ sig := (thr2 d L, .dma cc2_scratch5.sem)
abbrev gB_2 (d : Dev nD) (L : grid2.Coords) : GSem nD τ sig := (thr2 d L, .dma cc2_scratch6.sem)

/-- The four DMA semaphores the task uses. -/
def cells4_2 (d : Dev nD) (L : grid2.Coords) : Finset (GSem nD τ sig) := {g0_2 d L, g1_2 d L, gA_2 d L, gB_2 d L}

abbrev pV_2 (L : grid2.Coords) : Proc τ := Proc.scVector ((L 0).castLE hcore2) ((L 1).castLE hsub2)
abbrev r0_2 (L : grid2.Coords) : DevRef τ sig := (pV_2 L).devRef cc2_scratch0
abbrev r1_2 (L : grid2.Coords) : DevRef τ sig := (pV_2 L).devRef cc2_scratch1
abbrev r2_2 (L : grid2.Coords) : DevRef τ sig := (pV_2 L).devRef cc2_scratch2
abbrev r3_2 (L : grid2.Coords) : DevRef τ sig := (pV_2 L).devRef cc2_scratch3
abbrev r4_2 (L : grid2.Coords) : DevRef τ sig := (pV_2 L).devRef cc2_scratch4

/-- The five scratch buffers the task uses. -/
def refs5_2 (L : grid2.Coords) : Finset (DevRef τ sig) := {r0_2 L, r1_2 L, r2_2 L, r3_2 L, r4_2 L}

abbrev sIdx_2 : Memref sig .scVector .vmem S512 .i32 := Memref.whole cc2_scratch0
abbrev sQ_2 : Memref sig .scVector .vmem S512 .i32 := Memref.whole cc2_scratch1
abbrev sR0_2 : Memref sig .scVector .vmem S256x128 .f32 := Memref.whole cc2_scratch2
abbrev sR1_2 : Memref sig .scVector .vmem S256x128 .f32 := Memref.whole cc2_scratch3
abbrev sC_2 : Memref sig .scVector .vmem S32x512 .f32 := Memref.whole cc2_scratch4

omit [FloatOps F] in
theorem sems_eq_2 (d : Dev nD) (L : grid2.Coords) :
    (scopedSems0 (thr2 d L) : sProp 𝕄)
      = iprop((semVal (g0_2 d L) 0 ∗ semVal (g1_2 d L) 0 ∗ semVal (gA_2 d L) 0 ∗ semVal (gB_2 d L) 0)
          ∗ bigSep (ownCells (thr2 d L) \ cells4_2 d L) fun g => semVal g 0) := by
  have hsub : cells4_2 d L ⊆ ownCells (thr2 d L) := by
    intro g hg
    simp only [cells4_2, Finset.mem_insert, Finset.mem_singleton] at hg
    rcases hg with rfl | rfl | rfl | rfl
    · exact mem_ownCells.mpr ⟨rfl, by show (SemLoc.dma cc2_scoped0.sem : SemLoc sig).isScoped .scVector = true; decide⟩
    · exact mem_ownCells.mpr ⟨rfl, by show (SemLoc.dma cc2_scoped1.sem : SemLoc sig).isScoped .scVector = true; decide⟩
    · exact mem_ownCells.mpr ⟨rfl, by show (SemLoc.dma cc2_scratch5.sem : SemLoc sig).isScoped .scVector = true; decide⟩
    · exact mem_ownCells.mpr ⟨rfl, by show (SemLoc.dma cc2_scratch6.sem : SemLoc sig).isScoped .scVector = true; decide⟩
  rw [SparseCore.Cfg.scopedSems0_V (Val := Elt F) d _ _]
  unfold SparseCore.Cfg.ownSems0
  rw [SparseCore.bigSep_sdiff_split' hsub]
  unfold cells4_2
  rw [SparseCore.bigSep_insert' (by simp [Prod.ext_iff]; decide), SparseCore.bigSep_insert' (by simp [Prod.ext_iff]; decide),
    SparseCore.bigSep_insert' (by simp [Prod.ext_iff]; decide), bigSep_singleton]

theorem bufs_eq_2 (d : Dev nD) (L : grid2.Coords) :
    (scopedBufs (thr2 d L) : sProp 𝕄)
      = iprop(((∃ f, (sIdx_2).view.loc (thr2 d L) ↦{fullShare} f) ∗ (∃ f, (sQ_2).view.loc (thr2 d L) ↦{fullShare} f)
          ∗ (∃ f, (sR0_2).view.loc (thr2 d L) ↦{fullShare} f) ∗ (∃ f, (sR1_2).view.loc (thr2 d L) ↦{fullShare} f)
          ∗ (∃ f, (sC_2).view.loc (thr2 d L) ↦{fullShare} f))
          ∗ bigSep (ownRefs (τ := τ) (pV_2 L) \ refs5_2 L) fun b => iprop(∃ f, ((d, b) : Loc nD τ sig) ↦{fullShare} f)) := by
  have hsub : refs5_2 L ⊆ ownRefs (τ := τ) (pV_2 L) := by
    intro b hb
    simp only [refs5_2, Finset.mem_insert, Finset.mem_singleton] at hb
    rcases hb with rfl | rfl | rfl | rfl | rfl <;> exact SparseCore.Cfg.mem_ownRefs_of_owner (p := pV_2 L) rfl
  have hne : ∀ {a b : Ref sig .scVector}, a ≠ b → (pV_2 L).devRef a ≠ (pV_2 L).devRef b := fun h e => h (Proc.devRef_injective _ e)
  rw [(K (F := F)).scopedBufs_V facts d _ _]
  unfold SparseCore.Cfg.ownBufs
  rw [show ((thr2 d L : Thread nD τ).2) = pV_2 L from rfl, SparseCore.bigSep_sdiff_split' hsub]
  unfold refs5_2
  rw [SparseCore.bigSep_insert' (by simp only [Finset.mem_insert, Finset.mem_singleton, not_or]; exact ⟨hne (by decide), hne (by decide), hne (by decide), hne (by decide)⟩),
    SparseCore.bigSep_insert' (by simp only [Finset.mem_insert, Finset.mem_singleton, not_or]; exact ⟨hne (by decide), hne (by decide), hne (by decide)⟩),
    SparseCore.bigSep_insert' (by simp only [Finset.mem_insert, Finset.mem_singleton, not_or]; exact ⟨hne (by decide), hne (by decide)⟩),
    SparseCore.bigSep_insert' (by simp only [Finset.mem_singleton]; exact hne (by decide)), bigSep_singleton]

omit [FloatOps F] in
theorem pts_ids_2 (d : Dev nD) (L : grid2.Coords) (q : PosShare TreeShare) (f : Buf (Elt F) (idsLoc2 d)) :
    (View.loc (thr2 d L) (View.whole main_arg2_scv) ↦{q} f : sProp 𝕄) = ((idsW2).view.loc (thr2 d L) ↦{q} f) := rfl
omit [FloatOps F] in
theorem pts_tq_2 (d : Dev nD) (L : grid2.Coords) (q : PosShare TreeShare) (f : Buf (Elt F) (tqLoc2 d)) :
    (View.loc (thr2 d L) (View.whole main_v6_scv) ↦{q} f : sProp 𝕄) = ((tqW2).view.loc (thr2 d L) ↦{q} f) := rfl
omit [FloatOps F] in
theorem pts_out_2 (d : Dev nD) (L : grid2.Coords) (f : Buf (Elt F) (outLoc2 d)) :
    (View.loc (thr2 d L) ((View.whole main_v7_scv).slice (Rect.unit (s := S32x16384) (k2_off35 L) S32x512.size (k2_off35_inb L)))
        ↦[((View.whole main_v7_scv).slice (Rect.unit (s := S32x16384) (k2_off35 L) S32x512.size (k2_off35_inb L))).set]{fullShare} f : sProp 𝕄)
      = ((outBlk2 L).view.loc (thr2 d L) ↦[(outBlk2 L).view.set]{fullShare} f) := rfl

/-! ## The loops' invariants -/

omit [FloatOps F] in
def inv1_2 (d : Dev nD) (L : grid2.Coords) (F5 : Buf (Elt F) ((sIdx_2).view.loc (thr2 d L))) (f6 : Buf (Elt F) ((sQ_2).view.loc (thr2 d L)))
    (k : ℕ) (_ : PUnit) : sProp 𝕄 :=
  iprop(((sIdx_2).view.loc (thr2 d L) ↦{fullShare} F5) ∗ ∃ f, ((sQ_2).view.loc (thr2 d L) ↦{fullShare} f) ∗ ⌜f = q1F F5 f6 k⌝)

theorem trips1_2 : Scf.trips k2_t1_loop.lb k2_t1_loop.ub k2_t1_loop.st = 32 := by decide
theorem trips2_2 : Scf.trips k2_t2_loop.lb k2_t2_loop.ub k2_t2_loop.st = 32 := by decide
theorem trips3_2 : Scf.trips k2_t3_loop.lb k2_t3_loop.ub k2_t3_loop.st = 32 := by decide

theorem q1F_full_2 (F5 f6 : S512.Idx → BitVec 32) : q1F F5 f6 (Scf.trips k2_t1_loop.lb k2_t1_loop.ub k2_t1_loop.st) = qFull F5 := by
  rw [trips1_2]; exact q1F_32 F5 f6

omit [FloatOps F] in
def inv2_2 (d : Dev nD) (L : grid2.Coords) (F5 : Buf (Elt F) ((sIdx_2).view.loc (thr2 d L))) (R0 : Buf (Elt F) ((sR0_2).view.loc (thr2 d L)))
    (C0 : Buf (Elt F) ((sC_2).view.loc (thr2 d L))) (k : ℕ) (_ : PUnit) : sProp 𝕄 :=
  iprop(((sIdx_2).view.loc (thr2 d L) ↦{fullShare} F5) ∗ ((sR0_2).view.loc (thr2 d L) ↦{fullShare} R0)
    ∗ ∃ f, ((sC_2).view.loc (thr2 d L) ↦{fullShare} f) ∗ ⌜f = cHalf R0 F5 0 C0 k⌝)

omit [FloatOps F] in
theorem pts_acc7_2 (d : Dev nD) (L : grid2.Coords) (f : Buf (Elt F) ((sR0_2).view.loc (thr2 d L))) :
    ((sR0_2).view.loc (thr2 d L) ↦{fullShare} f : sProp 𝕄) = (((sR0_2).access (.whole S256x128)).loc (thr2 d L) ↦{fullShare} f) := rfl

set_option hygiene false in
/-- One lane group of a column trip: the run up to the indexed load, then the indexed load by its rule. -/
macro "vli_step_2" : tactic => `(tactic| (
  sl_exec (disch := (refine chk_ok _ _ ?_ _ _ hck; decide))
  ihave H7 := (Entails.of_eq (pts_acc7_2 (F := F) d L _)) $$ H7
  iapply (SparseCore.wp_vectorLoadIdx (defs := defs₀ (F := F)) 𝒱₀ (thr2 d L) none Set.univ (Finset.subset_univ _)) $$ H7
  iintro H7
  ihave H7 := (Entails.of_eq (pts_acc7_2 (F := F) d L _).symm) $$ H7))

omit [FloatOps F] in
def inv3_2 (d : Dev nD) (L : grid2.Coords) (F5 : Buf (Elt F) ((sIdx_2).view.loc (thr2 d L))) (R1 : Buf (Elt F) ((sR1_2).view.loc (thr2 d L)))
    (C0 : Buf (Elt F) ((sC_2).view.loc (thr2 d L))) (k : ℕ) (_ : PUnit) : sProp 𝕄 :=
  iprop(((sIdx_2).view.loc (thr2 d L) ↦{fullShare} F5) ∗ ((sR1_2).view.loc (thr2 d L) ↦{fullShare} R1)
    ∗ ∃ f, ((sC_2).view.loc (thr2 d L) ↦{fullShare} f) ∗ ⌜f = cHalf R1 F5 256 C0 k⌝)

omit [FloatOps F] in
theorem pts_acc8_2 (d : Dev nD) (L : grid2.Coords) (f : Buf (Elt F) ((sR1_2).view.loc (thr2 d L))) :
    ((sR1_2).view.loc (thr2 d L) ↦{fullShare} f : sProp 𝕄) = (((sR1_2).access (.whole S256x128)).loc (thr2 d L) ↦{fullShare} f) := rfl

set_option hygiene false in
/-- The same over the second gathered block. -/
macro "vli_step8_2" : tactic => `(tactic| (
  sl_exec (disch := (refine chk_ok _ _ ?_ _ _ hck; decide))
  ihave H8 := (Entails.of_eq (pts_acc8_2 (F := F) d L _)) $$ H8
  iapply (SparseCore.wp_vectorLoadIdx (defs := defs₀ (F := F)) 𝒱₀ (thr2 d L) none Set.univ (Finset.subset_univ _)) $$ H8
  iintro H8
  ihave H8 := (Entails.of_eq (pts_acc8_2 (F := F) d L _).symm) $$ H8))

set_option maxHeartbeats 16000000 in
set_option maxRecDepth 65536 in
theorem body2 (m : (ℓ : Loc nD τ sig) → Buf (Elt F) ℓ) (d : Dev nD) (L : grid2.Coords) (O : CellTallies nD τ sig (HIx 4)) (W : Waits sig (HIx 4))
    (hO : ∀ g, O g none = 0)
    (hin : ∀ j : S16384.Idx, ((m (idsLoc2 d) : S16384.Idx → BitVec 32) j).toNat < 1000)
    (f0 : Buf (Elt F) (outLoc2 d)) (q1 q4 : PosShare TreeShare) :
    (iprop(levAts (K (F := F)).L (K (F := F)).lev
        ∗ ((idsW2).view.loc (thr2 d L) ↦{q1} m (idsLoc2 d))
        ∗ ((tqW2).view.loc (thr2 d L) ↦{q4} m (tqLoc2 d))
        ∗ ((outBlk2 L).view.loc (thr2 d L) ↦[(outBlk2 L).view.set]{fullShare} f0)
        ∗ scopedBufs (thr2 d L) ∗ scopedSems0 (thr2 d L) ∗ owes (thr2 d L) O W) : sProp 𝕄)
      ⊢ wp frame (wpE (defs₀ (F := F)) 𝒱₀ (thr2 d L) none) Set.univ
          (cc2_packed_gather L idsW2 (Memref.isWhole_whole _) tqW2 (Memref.isWhole_whole _) outW2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) cc2_scratch5 cc2_scratch6 cc2_scoped0 cc2_scoped1)
          fun _ => iprop(((idsW2).view.loc (thr2 d L) ↦{q1} m (idsLoc2 d))
            ∗ ((tqW2).view.loc (thr2 d L) ↦{q4} m (tqLoc2 d))
            ∗ ((outBlk2 L).view.loc (thr2 d L) ↦[(outBlk2 L).view.set]{fullShare}
                (packedE2 (F := F) (m (idsLoc2 d)) (m (tqLoc2 d)) : Buf (Elt F) (outLoc2 d)))
            ∗ scopedBufs (thr2 d L) ∗ scopedSems0 (thr2 d L) ∗ ∃ W', ⌜∀ p ∈ W', p ∈ W ∨ p.2 = none⌝ ∗ owes (thr2 d L) O W') := by
  simp only [cc2_packed_gather_eq_skeleton]; unfold cc2_packed_gather_skel
  rw [sems_eq_2, bufs_eq_2]
  iintro ⟨#Hlv, Hi, Ht, Ho, Hb, Hs, HO⟩
  icases Hb with ⟨Hb5, Hbufs⟩
  icases Hb5 with ⟨⟨%f5, H5⟩, ⟨%f6, H6⟩, ⟨%f7, H7⟩, ⟨%f8, H8⟩, ⟨%f9, H9⟩⟩
  icases Hs with ⟨⟨Hs0, Hs1, HsA, HsB⟩, Hsems⟩
  ihave Hmw := ((K (F := F)).mayWaits_none (thr := thr2 d L) hO) $$ Hlv
  ihave Hi := (Entails.of_eq (pts_ids_2 (F := F) d L q1 _)) $$ Hi
  ihave Ht := (Entails.of_eq (pts_tq_2 (F := F) d L q4 _)) $$ Ht
  ihave Ho := (Entails.of_eq (pts_out_2 (F := F) d L _)) $$ Ho
  sl_exec
  obtain ⟨F5, hF5⟩ : ∃ F5 : Buf (Elt F) ((sIdx_2).view.loc (thr2 d L)),
      F5 = View.write (Elt F) (Memref.whole cc2_scratch0).view f5 (body2.sl.dma0 m d L) Finset.univ := ⟨_, rfl⟩
  rw [← hF5]
  have hF5v : ∀ y, F5 y = View.read (Elt F) (idsW2.slice (Rect.unit (s := S16384) (k2_off1 L) S512.size (k2_off1_inb L)) (fun _ => rfl)).view (m (idsLoc2 d)) y := by
    intro y; rw [hF5]; unfold body2.sl.dma0; rw [View.write_whole_univ]
  have hF5lt : ∀ y, (F5 y : BitVec 32).toNat < 1000 := by
    intro y; rw [hF5v]; exact hin _
  sl_for (inv1_2 (F := F) d L F5 f6) $$ [H5 H6]
  case region =>
    intro k _
    unfold inv1_2
    iintro ⟨H5, %f, H6, %hf⟩
    subst hf
    sl_exec
    sl_step
    isplitl [H5]; · iexact H5
    iexists _; isplitl [H6]; · iexact H6
    ipureintro
    exact q1_step2 (F := F) F5 f6 k.val _ (k2_off2_eq k) _ _ (fun x => shrui2 _)
  · unfold inv1_2
    isplitl [H5]; · iexact H5
    iexists _; isplitl [H6]; · iexact H6
    ipureintro
    exact q1F_zero _ _
  iintro %_ HI
  unfold inv1_2
  icases HI with ⟨H5, %f, H6, %hf⟩
  have hf' := hf.trans (q1F_full_2 _ f6)
  subst hf'
  have hinA : ∀ x : (Rect.unit (s := S512) ![0] S256.size inb_S512_S256_0).shape.Idx,
      BitVec.toNat (View.read (Elt F) ((Memref.whole cc2_scratch1).slice (Rect.unit (s := S512) ![0] S256.size inb_S512_S256_0) (fun _ => rfl)).view
        (qFull F5) x) < 250 :=
    fun x => shr2_lt _ (hF5lt _)
  have hinB : ∀ x : (Rect.unit (s := S512) ![256] S256.size inb_S512_S256_256).shape.Idx,
      BitVec.toNat (View.read (Elt F) ((Memref.whole cc2_scratch1).slice (Rect.unit (s := S512) ![256] S256.size inb_S512_S256_256) (fun _ => rfl)).view
        (qFull F5) x) < 250 :=
    fun x => shr2_lt _ (hF5lt _)
  ihave Ht2 := (Transfers.pointsTo_toks_range q4 1).1 $$ Ht
  rw [Finset.range_one, bigSep_singleton]
  icases Ht2 with ⟨HtA, HtB⟩
  sl_exec
  obtain ⟨R0, hR0⟩ : ∃ R0 : Buf (Elt F) ((sR0_2).view.loc (thr2 d L)),
      R0 = sR0_2.view.writes (Elt F) sR0_2.view.junk [⟨Rect.whole S256x128, body2.sl.gather0 m d L F5 hinA⟩] := ⟨_, rfl⟩
  rw [← hR0]
  sl_for (inv2_2 (F := F) d L F5 R0 f9) $$ [H5 H7 H9]
  case region =>
    intro k _
    have hk : k.val < 32 := lt_of_lt_of_eq k.isLt trips2_2
    have hck : (cK k.val).toNat < 32 := by rw [cK_toNat _ hk]; exact hk
    unfold inv2_2
    iintro ⟨H5, H7, %f, H9, %hf⟩
    subst hf
    vli_step_2
    vli_step_2
    vli_step_2
    vli_step_2
    vli_step_2
    vli_step_2
    vli_step_2
    vli_step_2
    vli_step_2
    vli_step_2
    vli_step_2
    vli_step_2
    vli_step_2
    vli_step_2
    vli_step_2
    vli_step_2
    sl_exec
    sl_step
    isplitl [H5]; · iexact H5
    isplitl [H7]; · iexact H7
    iexists _; isplitl [H9]; · iexact H9
    ipureintro
    exact cols16_2 (F := F) R0 F5 0 k.val f9 _ _ _ _ _ _ _ _ _ _ _ _ _ _ _ _ _ _ _ _ _ _ _ _ _ _ _ _ _ _ _ _
      (mem_unit_row _ k.val (0 + 0) (k2_off3_eq k) _)
      (mem_unit_row _ k.val (0 + 16) (k2_off4_eq k) _)
      (mem_unit_row _ k.val (0 + 32) (k2_off5_eq k) _)
      (mem_unit_row _ k.val (0 + 48) (k2_off6_eq k) _)
      (mem_unit_row _ k.val (0 + 64) (k2_off7_eq k) _)
      (mem_unit_row _ k.val (0 + 80) (k2_off8_eq k) _)
      (mem_unit_row _ k.val (0 + 96) (k2_off9_eq k) _)
      (mem_unit_row _ k.val (0 + 112) (k2_off10_eq k) _)
      (mem_unit_row _ k.val (0 + 128) (k2_off11_eq k) _)
      (mem_unit_row _ k.val (0 + 144) (k2_off12_eq k) _)
      (mem_unit_row _ k.val (0 + 160) (k2_off13_eq k) _)
      (mem_unit_row _ k.val (0 + 176) (k2_off14_eq k) _)
      (mem_unit_row _ k.val (0 + 192) (k2_off15_eq k) _)
      (mem_unit_row _ k.val (0 + 208) (k2_off16_eq k) _)
      (mem_unit_row _ k.val (0 + 224) (k2_off17_eq k) _)
      (mem_unit_row _ k.val (0 + 240) (k2_off18_eq k) _)
      (fun x => piece_ok R0 _ (Memref.read_access_whole (Elt F) cc2_scratch2 R0) F5 f9 0 0 k.val (by decide) (by decide) hk _ _ _ (fun _ => rfl) _ (k2_off3_eq k) _ _ _ x)
      (fun x => piece_ok R0 _ (Memref.read_access_whole (Elt F) cc2_scratch2 R0) F5 f9 0 1 k.val (by decide) (by decide) hk _ _ _ (fun _ => rfl) _ (k2_off4_eq k) _ _ _ x)
      (fun x => piece_ok R0 _ (Memref.read_access_whole (Elt F) cc2_scratch2 R0) F5 f9 0 2 k.val (by decide) (by decide) hk _ _ _ (fun _ => rfl) _ (k2_off5_eq k) _ _ _ x)
      (fun x => piece_ok R0 _ (Memref.read_access_whole (Elt F) cc2_scratch2 R0) F5 f9 0 3 k.val (by decide) (by decide) hk _ _ _ (fun _ => rfl) _ (k2_off6_eq k) _ _ _ x)
      (fun x => piece_ok R0 _ (Memref.read_access_whole (Elt F) cc2_scratch2 R0) F5 f9 0 4 k.val (by decide) (by decide) hk _ _ _ (fun _ => rfl) _ (k2_off7_eq k) _ _ _ x)
      (fun x => piece_ok R0 _ (Memref.read_access_whole (Elt F) cc2_scratch2 R0) F5 f9 0 5 k.val (by decide) (by decide) hk _ _ _ (fun _ => rfl) _ (k2_off8_eq k) _ _ _ x)
      (fun x => piece_ok R0 _ (Memref.read_access_whole (Elt F) cc2_scratch2 R0) F5 f9 0 6 k.val (by decide) (by decide) hk _ _ _ (fun _ => rfl) _ (k2_off9_eq k) _ _ _ x)
      (fun x => piece_ok R0 _ (Memref.read_access_whole (Elt F) cc2_scratch2 R0) F5 f9 0 7 k.val (by decide) (by decide) hk _ _ _ (fun _ => rfl) _ (k2_off10_eq k) _ _ _ x)
      (fun x => piece_ok R0 _ (Memref.read_access_whole (Elt F) cc2_scratch2 R0) F5 f9 0 8 k.val (by decide) (by decide) hk _ _ _ (fun _ => rfl) _ (k2_off11_eq k) _ _ _ x)
      (fun x => piece_ok R0 _ (Memref.read_access_whole (Elt F) cc2_scratch2 R0) F5 f9 0 9 k.val (by decide) (by decide) hk _ _ _ (fun _ => rfl) _ (k2_off12_eq k) _ _ _ x)
      (fun x => piece_ok R0 _ (Memref.read_access_whole (Elt F) cc2_scratch2 R0) F5 f9 0 10 k.val (by decide) (by decide) hk _ _ _ (fun _ => rfl) _ (k2_off13_eq k) _ _ _ x)
      (fun x => piece_ok R0 _ (Memref.read_access_whole (Elt F) cc2_scratch2 R0) F5 f9 0 11 k.val (by decide) (by decide) hk _ _ _ (fun _ => rfl) _ (k2_off14_eq k) _ _ _ x)
      (fun x => piece_ok R0 _ (Memref.read_access_whole (Elt F) cc2_scratch2 R0) F5 f9 0 12 k.val (by decide) (by decide) hk _ _ _ (fun _ => rfl) _ (k2_off15_eq k) _ _ _ x)
      (fun x => piece_ok R0 _ (Memref.read_access_whole (Elt F) cc2_scratch2 R0) F5 f9 0 13 k.val (by decide) (by decide) hk _ _ _ (fun _ => rfl) _ (k2_off16_eq k) _ _ _ x)
      (fun x => piece_ok R0 _ (Memref.read_access_whole (Elt F) cc2_scratch2 R0) F5 f9 0 14 k.val (by decide) (by decide) hk _ _ _ (fun _ => rfl) _ (k2_off17_eq k) _ _ _ x)
      (fun x => piece_ok R0 _ (Memref.read_access_whole (Elt F) cc2_scratch2 R0) F5 f9 0 15 k.val (by decide) (by decide) hk _ _ _ (fun _ => rfl) _ (k2_off18_eq k) _ _ _ x)
  · unfold inv2_2
    isplitl [H5]; · iexact H5
    isplitl [H7]; · iexact H7
    iexists _; isplitl [H9]; · iexact H9
    ipureintro
    exact cHalf_zero _ _ _ _
  iintro %_ HI
  unfold inv2_2
  icases HI with ⟨H5, H7, %f, H9, %hf⟩
  subst hf
  sl_exec
  obtain ⟨R1, hR1⟩ : ∃ R1 : Buf (Elt F) ((sR1_2).view.loc (thr2 d L)),
      R1 = sR1_2.view.writes (Elt F) sR1_2.view.junk [⟨Rect.whole S256x128, body2.sl.gather1 m d L F5 hinB⟩] := ⟨_, rfl⟩
  rw [← hR1]
  sl_for (inv3_2 (F := F) d L F5 R1 (cHalf R0 F5 0 f9 (Scf.trips k2_t2_loop.lb k2_t2_loop.ub k2_t2_loop.st))) $$ [H5 H8 H9]
  case region =>
    intro k _
    have hk : k.val < 32 := lt_of_lt_of_eq k.isLt trips3_2
    have hck : (cK k.val).toNat < 32 := by rw [cK_toNat _ hk]; exact hk
    unfold inv3_2
    iintro ⟨H5, H8, %f, H9, %hf⟩
    subst hf
    vli_step8_2
    vli_step8_2
    vli_step8_2
    vli_step8_2
    vli_step8_2
    vli_step8_2
    vli_step8_2
    vli_step8_2
    vli_step8_2
    vli_step8_2
    vli_step8_2
    vli_step8_2
    vli_step8_2
    vli_step8_2
    vli_step8_2
    vli_step8_2
    sl_exec
    sl_step
    isplitl [H5]; · iexact H5
    isplitl [H8]; · iexact H8
    iexists _; isplitl [H9]; · iexact H9
    ipureintro
    exact cols16_2 (F := F) R1 F5 256 k.val (cHalf R0 F5 0 f9 (Scf.trips k2_t2_loop.lb k2_t2_loop.ub k2_t2_loop.st)) _ _ _ _ _ _ _ _ _ _ _ _ _ _ _ _ _ _ _ _ _ _ _ _ _ _ _ _ _ _ _ _
      (mem_unit_row _ k.val (256 + 0) (k2_off19_eq k) _)
      (mem_unit_row _ k.val (256 + 16) (k2_off20_eq k) _)
      (mem_unit_row _ k.val (256 + 32) (k2_off21_eq k) _)
      (mem_unit_row _ k.val (256 + 48) (k2_off22_eq k) _)
      (mem_unit_row _ k.val (256 + 64) (k2_off23_eq k) _)
      (mem_unit_row _ k.val (256 + 80) (k2_off24_eq k) _)
      (mem_unit_row _ k.val (256 + 96) (k2_off25_eq k) _)
      (mem_unit_row _ k.val (256 + 112) (k2_off26_eq k) _)
      (mem_unit_row _ k.val (256 + 128) (k2_off27_eq k) _)
      (mem_unit_row _ k.val (256 + 144) (k2_off28_eq k) _)
      (mem_unit_row _ k.val (256 + 160) (k2_off29_eq k) _)
      (mem_unit_row _ k.val (256 + 176) (k2_off30_eq k) _)
      (mem_unit_row _ k.val (256 + 192) (k2_off31_eq k) _)
      (mem_unit_row _ k.val (256 + 208) (k2_off32_eq k) _)
      (mem_unit_row _ k.val (256 + 224) (k2_off33_eq k) _)
      (mem_unit_row _ k.val (256 + 240) (k2_off34_eq k) _)
      (fun x => piece_ok R1 _ (Memref.read_access_whole (Elt F) cc2_scratch3 R1) F5 (cHalf R0 F5 0 f9 (Scf.trips k2_t2_loop.lb k2_t2_loop.ub k2_t2_loop.st)) 256 0 k.val (by decide) (by decide) hk _ _ _ (fun _ => rfl) _ (k2_off19_eq k) _ _ _ x)
      (fun x => piece_ok R1 _ (Memref.read_access_whole (Elt F) cc2_scratch3 R1) F5 (cHalf R0 F5 0 f9 (Scf.trips k2_t2_loop.lb k2_t2_loop.ub k2_t2_loop.st)) 256 1 k.val (by decide) (by decide) hk _ _ _ (fun _ => rfl) _ (k2_off20_eq k) _ _ _ x)
      (fun x => piece_ok R1 _ (Memref.read_access_whole (Elt F) cc2_scratch3 R1) F5 (cHalf R0 F5 0 f9 (Scf.trips k2_t2_loop.lb k2_t2_loop.ub k2_t2_loop.st)) 256 2 k.val (by decide) (by decide) hk _ _ _ (fun _ => rfl) _ (k2_off21_eq k) _ _ _ x)
      (fun x => piece_ok R1 _ (Memref.read_access_whole (Elt F) cc2_scratch3 R1) F5 (cHalf R0 F5 0 f9 (Scf.trips k2_t2_loop.lb k2_t2_loop.ub k2_t2_loop.st)) 256 3 k.val (by decide) (by decide) hk _ _ _ (fun _ => rfl) _ (k2_off22_eq k) _ _ _ x)
      (fun x => piece_ok R1 _ (Memref.read_access_whole (Elt F) cc2_scratch3 R1) F5 (cHalf R0 F5 0 f9 (Scf.trips k2_t2_loop.lb k2_t2_loop.ub k2_t2_loop.st)) 256 4 k.val (by decide) (by decide) hk _ _ _ (fun _ => rfl) _ (k2_off23_eq k) _ _ _ x)
      (fun x => piece_ok R1 _ (Memref.read_access_whole (Elt F) cc2_scratch3 R1) F5 (cHalf R0 F5 0 f9 (Scf.trips k2_t2_loop.lb k2_t2_loop.ub k2_t2_loop.st)) 256 5 k.val (by decide) (by decide) hk _ _ _ (fun _ => rfl) _ (k2_off24_eq k) _ _ _ x)
      (fun x => piece_ok R1 _ (Memref.read_access_whole (Elt F) cc2_scratch3 R1) F5 (cHalf R0 F5 0 f9 (Scf.trips k2_t2_loop.lb k2_t2_loop.ub k2_t2_loop.st)) 256 6 k.val (by decide) (by decide) hk _ _ _ (fun _ => rfl) _ (k2_off25_eq k) _ _ _ x)
      (fun x => piece_ok R1 _ (Memref.read_access_whole (Elt F) cc2_scratch3 R1) F5 (cHalf R0 F5 0 f9 (Scf.trips k2_t2_loop.lb k2_t2_loop.ub k2_t2_loop.st)) 256 7 k.val (by decide) (by decide) hk _ _ _ (fun _ => rfl) _ (k2_off26_eq k) _ _ _ x)
      (fun x => piece_ok R1 _ (Memref.read_access_whole (Elt F) cc2_scratch3 R1) F5 (cHalf R0 F5 0 f9 (Scf.trips k2_t2_loop.lb k2_t2_loop.ub k2_t2_loop.st)) 256 8 k.val (by decide) (by decide) hk _ _ _ (fun _ => rfl) _ (k2_off27_eq k) _ _ _ x)
      (fun x => piece_ok R1 _ (Memref.read_access_whole (Elt F) cc2_scratch3 R1) F5 (cHalf R0 F5 0 f9 (Scf.trips k2_t2_loop.lb k2_t2_loop.ub k2_t2_loop.st)) 256 9 k.val (by decide) (by decide) hk _ _ _ (fun _ => rfl) _ (k2_off28_eq k) _ _ _ x)
      (fun x => piece_ok R1 _ (Memref.read_access_whole (Elt F) cc2_scratch3 R1) F5 (cHalf R0 F5 0 f9 (Scf.trips k2_t2_loop.lb k2_t2_loop.ub k2_t2_loop.st)) 256 10 k.val (by decide) (by decide) hk _ _ _ (fun _ => rfl) _ (k2_off29_eq k) _ _ _ x)
      (fun x => piece_ok R1 _ (Memref.read_access_whole (Elt F) cc2_scratch3 R1) F5 (cHalf R0 F5 0 f9 (Scf.trips k2_t2_loop.lb k2_t2_loop.ub k2_t2_loop.st)) 256 11 k.val (by decide) (by decide) hk _ _ _ (fun _ => rfl) _ (k2_off30_eq k) _ _ _ x)
      (fun x => piece_ok R1 _ (Memref.read_access_whole (Elt F) cc2_scratch3 R1) F5 (cHalf R0 F5 0 f9 (Scf.trips k2_t2_loop.lb k2_t2_loop.ub k2_t2_loop.st)) 256 12 k.val (by decide) (by decide) hk _ _ _ (fun _ => rfl) _ (k2_off31_eq k) _ _ _ x)
      (fun x => piece_ok R1 _ (Memref.read_access_whole (Elt F) cc2_scratch3 R1) F5 (cHalf R0 F5 0 f9 (Scf.trips k2_t2_loop.lb k2_t2_loop.ub k2_t2_loop.st)) 256 13 k.val (by decide) (by decide) hk _ _ _ (fun _ => rfl) _ (k2_off32_eq k) _ _ _ x)
      (fun x => piece_ok R1 _ (Memref.read_access_whole (Elt F) cc2_scratch3 R1) F5 (cHalf R0 F5 0 f9 (Scf.trips k2_t2_loop.lb k2_t2_loop.ub k2_t2_loop.st)) 256 14 k.val (by decide) (by decide) hk _ _ _ (fun _ => rfl) _ (k2_off33_eq k) _ _ _ x)
      (fun x => piece_ok R1 _ (Memref.read_access_whole (Elt F) cc2_scratch3 R1) F5 (cHalf R0 F5 0 f9 (Scf.trips k2_t2_loop.lb k2_t2_loop.ub k2_t2_loop.st)) 256 15 k.val (by decide) (by decide) hk _ _ _ (fun _ => rfl) _ (k2_off34_eq k) _ _ _ x)
  · unfold inv3_2
    isplitl [H5]; · iexact H5
    isplitl [H8]; · iexact H8
    iexists _; isplitl [H9]; · iexact H9
    ipureintro
    exact cHalf_zero _ _ _ _
  iintro %_ HI
  unfold inv3_2
  icases HI with ⟨H5, H8, %f, H9, %hf⟩
  subst hf
  sl_exec
  have hval : ∀ i ∈ (outBlk2 L).view.set,
      ((outBlk2 L).view.writes (Elt F) f0 [⟨Rect.whole S32x512, body2.sl.dma0_1 d L f9 F5 R0 R1⟩]) i
        = (packedE2 (F := F) (m (idsLoc2 d)) (m (tqLoc2 d)) : Buf (Elt F) (outLoc2 d)) i := by
    unfold body2.sl.dma0_1
    unfold body2.sl.gather0 at hR0
    unfold body2.sl.gather1 at hR1
    rw [trips2_2]
    exact block_value2 (F := F) L (m (idsLoc2 d)) (m (tqLoc2 d)) F5 hF5v gathers_S250x128_S256x128 _ _ hinA hinB _ _ R0 R1 hR0 hR1 f0 f9
  sl_step
  isplitl [Hi]
  · iapply (Entails.of_eq (pts_ids_2 (F := F) d L q1 _).symm); iexact Hi
  isplitl [HtA HtB]
  · iapply (Entails.of_eq (pts_tq_2 (F := F) d L q4 _).symm)
    iapply (Transfers.pointsTo_toks_range q4 1).2
    rw [Finset.range_one, bigSep_singleton]
    isplitl [HtA]; · iexact HtA
    iexact HtB
  isplitl [Ho]
  · iapply (Entails.of_eq (pts_out_2 (F := F) d L _).symm)
    iapply (Entails.of_eq (pointsTo_congr (q := fullShare) hval))
    iexact Ho
  isplitl [H5 H6 H7 H8 H9 Hbufs]
  · isplitr [Hbufs]
    · isplitl [H5]; · iexists _; iexact H5
      isplitl [H6]; · iexists _; iexact H6
      isplitl [H7]; · iexists _; iexact H7
      isplitl [H8]; · iexists _; iexact H8
      iexists _; iexact H9
    · iexact Hbufs
  isplitl [Hs0 Hs1 HsA HsB Hsems]
  · isplitr [Hsems]
    · isplitl [Hs0]; · iexact Hs0
      isplitl [Hs1]; · iexact Hs1
      isplitl [HsA]; · iexact HsA
      iexact HsB
    · iexact Hsems
  iexists _; isplitr
  rotate_left
  · iexact HO
  · ipureintro
    intro p hp
    simp only [Finset.mem_insert] at hp
    rcases hp with rfl | rfl | rfl | rfl | hp
    · exact .inr rfl
    · exact .inr rfl
    · exact .inr rfl
    · exact .inr rfl
    · exact .inl hp

end Cert.Proof.PackedB

end
-- ==== Proof.BlockOpenC3B.lean ====
/-
  The subcore's own scratch buffers and semaphores in the kernel's second use, taken out of the bundles the launch hands a tile: the eleven
  scratch buffers the kernel names and the eleven DMA semaphores, each beside the rest of its bundle.
-/
import proofs.«204991_g57140244906297_cont_9to1_m_249_19_alg».proof.Proof.BlockDefsB
import proofs.«204991_g57140244906297_cont_9to1_m_249_19_alg».proof.Proof.BlockDefs3B
import proofs.«204991_g57140244906297_cont_9to1_m_249_19_alg».proof.Proof.BlockOpenB

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

section Tile

variable (d : Dev nD) (L : grid3.Coords)

/-- The cell of DMA semaphore `k` of the tile. -/
abbrev cell (k : DmaSem sig) : GSem nD τ sig := (thr d L, .dma k)

/-- The eleven DMA semaphores of the kernel: the ring's eight, the tail's, the two scoped ones. -/
def semList : List (DmaSem sig) :=
  [cc3_scratch11.sem, cc3_scratch12.sem, cc3_scratch13.sem, cc3_scratch14.sem, cc3_scratch15.sem, cc3_scratch16.sem,
    cc3_scratch17.sem, cc3_scratch18.sem, cc3_scratch19.sem, cc3_scoped0.sem, cc3_scoped1.sem]

theorem semList_nodup : semList.Nodup := by decide

theorem semList_scoped : ∀ k ∈ semList, (SemLoc.dma k : SemLoc sig).isScoped .scVector = true := by decide

/-- The rest of the tile's scoped cells. -/
def semRest : Finset (GSem nD τ sig) := ownCells (thr d L) \ (semList.map (cell d L)).toFinset

theorem ownSems0_open :
    (ownSems0 (thr d L) : sProp 𝕄)
      = (semList.map (cell d L)).foldr (fun g R => iprop(semVal g 0 ∗ R)) (bigSep (semRest d L) fun g => semVal g 0) := by
  unfold SparseCore.Cfg.ownSems0 semRest
  refine bigSep_take (fun g => (semVal g 0 : sProp 𝕄)) _ _ ?_ ?_
  · refine List.Nodup.map ?_ semList_nodup
    intro a b h; simpa [cell] using h
  · intro g hg
    obtain ⟨k, hk, rfl⟩ := List.mem_map.mp hg
    exact mem_ownCells.mpr ⟨rfl, semList_scoped k hk⟩

/-- The eleven scratch buffers of the kernel: the index scratch, the ring's eight slots, the tail, the columns. -/
def bufList : List (Ref sig .scVector) :=
  [cc3_scratch0, cc3_scratch1, cc3_scratch2, cc3_scratch3, cc3_scratch4, cc3_scratch5, cc3_scratch6, cc3_scratch7,
    cc3_scratch8, cc3_scratch9, cc3_scratch10]

theorem bufList_nodup : bufList.Nodup := by decide

abbrev bref (b : Ref sig .scVector) : DevRef τ sig := (Proc.scVector (cV L) (jV L)).devRef b

def bufRest : Finset (DevRef τ sig) := ownRefs (τ := τ) (.scVector (cV L) (jV L)) \ (bufList.map (bref L)).toFinset

theorem ownBufs_open :
    (ownBufs (thr d L) : sProp 𝕄)
      = (bufList.map (bref L)).foldr (fun b R => iprop((∃ f, ((d, b) : Loc nD τ sig) ↦{fullShare} f) ∗ R))
          (bigSep (bufRest L) fun b => iprop(∃ f, ((d, b) : Loc nD τ sig) ↦{fullShare} f)) := by
  unfold SparseCore.Cfg.ownBufs bufRest
  refine bigSep_take (fun b => (iprop(∃ f, ((d, b) : Loc nD τ sig) ↦{fullShare} f) : sProp 𝕄)) _ _ ?_ ?_
  · exact List.Nodup.map (fun a b h => Proc.devRef_injective (Proc.scVector (cV L) (jV L)) h) bufList_nodup
  · intro b hb
    obtain ⟨r, hr, rfl⟩ := List.mem_map.mp hb
    unfold bufList at hr
    fin_cases hr <;> exact SparseCore.Cfg.mem_ownRefs_of_owner rfl

end Tile

end Cert.Proof.Block3B

end
-- ==== Proof.BlockInvC3B.lean ====
/-
  The block-gather task's loop in the kernel's second use (the ring's read tokens are numbered after the ring's semaphores, 19 … 26): the side conditions the printed body assumes (each holds of every word), the trip's
  sixteen conditions decided from the trip's number, the ring's slots — a slot in flight holds the flight of its block
  copy beside the rest of its read token, an idle slot its buffer, its semaphore at zero and its token whole — and the
  loop's invariant: the index scratch and the tail as loaded, the columns below the trip done, the eight slots each
  serving its next index.
-/
import proofs.«204991_g57140244906297_cont_9to1_m_249_19_alg».proof.Proof.BlockDefsB
import proofs.«204991_g57140244906297_cont_9to1_m_249_19_alg».proof.Proof.BlockDefs3B
import proofs.«204991_g57140244906297_cont_9to1_m_249_19_alg».proof.Proof.BlockOpenC3B
import proofs.«204991_g57140244906297_cont_9to1_m_249_19_alg».proof.Proof.BlockArithB
import proofs.«204991_g57140244906297_cont_9to1_m_249_19_alg».proof.Proof.Gen.Kernel
import proofs.«204991_g57140244906297_cont_9to1_m_249_19_alg».proof.Proof.BlockInvB

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

/-- A separating conjunction over the first twenty-seven numbers, written out. -/
theorem bigSep_range27 {M : Type} [URA M] (Φ : ℕ → sProp M) :
    bigSep (Finset.range 27) Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ emp) := by
  rw [bigSep_take Φ [0, 1, 2, 3, 4, 5, 6, 7, 8, 9, 10, 11, 12, 13, 14, 15, 16, 17, 18, 19, 20, 21, 22, 23, 24, 25, 26] (Finset.range 27) (by decide) (by decide)]
  have h : Finset.range 27 \ [0, 1, 2, 3, 4, 5, 6, 7, 8, 9, 10, 11, 12, 13, 14, 15, 16, 17, 18, 19, 20, 21, 22, 23, 24, 25, 26].toFinset = ∅ := by decide
  rw [h, BI.bigSep_empty]
  rfl

/-- The sixteen conditions of a trip, decided from the trip's number: which slot it serves (its residue mod 8) and
    whether eight trips later is still inside the loop. -/
theorem conds (k : Fin k3_t1_loop.trips) :
    ((k3_cond1 k = 1#1 ↔ k.val % 8 = 0) ∧ (k3_cond3 k = 1#1 ↔ k.val % 8 = 1) ∧ (k3_cond5 k = 1#1 ↔ k.val % 8 = 2)
      ∧ (k3_cond7 k = 1#1 ↔ k.val % 8 = 3) ∧ (k3_cond9 k = 1#1 ↔ k.val % 8 = 4) ∧ (k3_cond11 k = 1#1 ↔ k.val % 8 = 5)
      ∧ (k3_cond13 k = 1#1 ↔ k.val % 8 = 6) ∧ (k3_cond15 k = 1#1 ↔ k.val % 8 = 7))
    ∧ ((k3_cond2 k = 1#1 ↔ k.val + 8 < 512) ∧ (k3_cond4 k = 1#1 ↔ k.val + 8 < 512) ∧ (k3_cond6 k = 1#1 ↔ k.val + 8 < 512)
      ∧ (k3_cond8 k = 1#1 ↔ k.val + 8 < 512) ∧ (k3_cond10 k = 1#1 ↔ k.val + 8 < 512) ∧ (k3_cond12 k = 1#1 ↔ k.val + 8 < 512)
      ∧ (k3_cond14 k = 1#1 ↔ k.val + 8 < 512) ∧ (k3_cond16 k = 1#1 ↔ k.val + 8 < 512)) := by
  revert k
  decide +kernel

theorem trips_eq : k3_t1_loop.trips = 512 := by decide

/-- The trip's number as the kernel's word for it. -/
theorem v77_toNat (k : Fin k3_t1_loop.trips) : (Scalar.addi 0#32 (Scalar.muli (Scf.iv 0#32 1#32 k) 1#32)).toNat = k.val := by
  revert k
  decide +kernel

/-! ## The ring's slots and the loop's invariant -/

section Ring

variable (m : (ℓ : Loc nD τ sig) → Buf (Elt F) ℓ) (d : Dev nD) (L : grid3.Coords) (q : PosShare TreeShare)

/-- The 128-column block of the transposed table that word `w` selects. -/
abbrev blkMem (w : BitVec 32) : Memref sig .scVector .hbm S32x128 .f32 :=
  ttV.slice (Rect.unit (s := S32x1000000) ![0, (blkOff w).toNat] S32x128.size (blk_ok w).2) (fun _ => rfl)

/-- What a copy of that block carries. -/
abbrev blkPay (w : BitVec 32) : S32x128.Idx → Elt F .f32 :=
  (ReadAs.same : ReadAs (Elt F) S32x128 .f32 S32x128 .f32).apply ((blkMem w).view.read (Elt F) (m (ttLoc d)))

/-- Lane 0 of the 16-lane load of the index scratch at offsets `off`. -/
def wAtOff (fs : S528.Idx → Elt F .i32) (off : Fin 1 → ℕ) (h : ∀ a, off a + S16.size a ≤ S528.size a) : BitVec 32 :=
  let v : Vec F S16 .i32 := (Memref.whole cc3_scratch0 : Memref sig .scVector .vmem S528 .i32).view.readAt (Elt F)
    (Rect.unit (s := S528) off S16.size h).toLoadRect fs
  extractAt ![0] (extractStridedSlice S1 ![0] v slices_S16_o0_S1) inpos_S1_p0

/-- Word `n` of the index scratch, as the kernel reads it: lane 0 of the 16-lane load at `n`. -/
def wAt (fs : S528.Idx → Elt F .i32) (n : ℕ) : BitVec 32 :=
  if h : n < 512 then wAtOff fs ![n] (off_inb n h) else 0#32

omit [FloatOps F] in
theorem wAtOff_congr (fs : S528.Idx → Elt F .i32) {off off' : Fin 1 → ℕ} (e : off = off') (h : ∀ a, off a + S16.size a ≤ S528.size a)
    (h' : ∀ a, off' a + S16.size a ≤ S528.size a) : wAtOff fs off h = wAtOff fs off' h' := by subst e; rfl

omit [FloatOps F] in
/-- The word at `n`, read at offsets the kernel computes for `n`. -/
theorem wAt_off (fs : S528.Idx → Elt F .i32) (n : ℕ) (hn : n < 512) (off : Fin 1 → ℕ) (h : ∀ a, off a + S16.size a ≤ S528.size a)
    (e : off = ![n]) : wAt fs n = wAtOff fs off h := by
  unfold wAt; rw [dif_pos hn]; exact wAtOff_congr fs e.symm _ _

/-- A slot whose copy for word `w` is in flight on the slot's own semaphore: the flight — to deliver the slot rewritten
    with the block and the lent elements of the slot's read token — beside the rest of the token. -/
def slot (R : Memref sig .scVector .vmem S32x128 .f32) (sem : DmaSem sig) (s : ℕ) (w : BitVec 32) : sProp 𝕄 :=
  iprop((∃ g : Buf (Elt F) (R.view.loc (thr d L)),
      Transfers.Flight (countersEmb (U := UU) : UEmb Counters 𝕄) (thr d L) (SemLoc.dma sem) (default : HIx 4) 131072
        iprop((R.view.loc (thr d L) ↦{fullShare} View.write (Elt F) R.view g (blkPay m d w) Finset.univ)
          ∗ (ttV.view.loc (thr d L) ↦[(blkMem w).view.set]{Transfers.shareTokN q (19 + s)} m (ttLoc d))))
    ∗ (ttV.view.loc (thr d L) ↦[Finset.univ \ (blkMem w).view.set]{Transfers.shareTokN q (19 + s)} m (ttLoc d)))

/-- A slot with no copy outstanding: its buffer, its semaphore at zero, its read token whole. -/
def slotIdle (R : Memref sig .scVector .vmem S32x128 .f32) (sem : DmaSem sig) (s : ℕ) : sProp 𝕄 :=
  iprop((∃ g : Buf (Elt F) (R.view.loc (thr d L)), R.view.loc (thr d L) ↦{fullShare} g)
    ∗ semVal (thr d L, SemLoc.dma sem) 0
    ∗ (ttV.view.loc (thr d L) ↦{Transfers.shareTokN q (19 + s)} m (ttLoc d)))

/-- Slot `s` before trip `k`: in flight for its next index while that index is below 512, idle after. -/
def slotAt (fs : S528.Idx → Elt F .i32) (R : Memref sig .scVector .vmem S32x128 .f32) (sem : DmaSem sig) (s k : ℕ) : sProp 𝕄 :=
  if nxt s k < 512 then slot m d L q R sem s (wAt fs (nxt s k)) else slotIdle m d L q R sem s

/-- The loop's invariant before trip `k`: the index scratch and the tail as loaded, the columns with a record of what
    they hold, the eight slots, and the tile's debts with the waits so far recorded. -/
def inv (O : CellTallies nD τ sig (HIx 4)) (W : Waits sig (HIx 4)) (fs : S528.Idx → Elt F .i32) (ft : S2048.Idx → Elt F .f32)
    (CD : ℕ → (S32x512.Idx → Elt F .f32) → Prop) (k : ℕ) (_ : PUnit) : sProp 𝕄 :=
  iprop(Transfers.MayWaits (thr d L) (none : HIx 4) O
    ∗ ((Memref.whole cc3_scratch0 : Memref sig .scVector .vmem S528 .i32).view.loc (thr d L) ↦{fullShare} fs)
    ∗ ((Memref.whole cc3_scratch9 : Memref sig .scVector .vmem S2048 .f32).view.loc (thr d L) ↦{fullShare} ft)
    ∗ (∃ fc : S32x512.Idx → Elt F .f32,
        ((Memref.whole cc3_scratch10 : Memref sig .scVector .vmem S32x512 .f32).view.loc (thr d L) ↦{fullShare} fc) ∗ ⌜CD k fc⌝)
    ∗ slotAt m d L q fs (Memref.whole cc3_scratch1) cc3_scratch11.sem 0 k
    ∗ slotAt m d L q fs (Memref.whole cc3_scratch2) cc3_scratch12.sem 1 k
    ∗ slotAt m d L q fs (Memref.whole cc3_scratch3) cc3_scratch13.sem 2 k
    ∗ slotAt m d L q fs (Memref.whole cc3_scratch4) cc3_scratch14.sem 3 k
    ∗ slotAt m d L q fs (Memref.whole cc3_scratch5) cc3_scratch15.sem 4 k
    ∗ slotAt m d L q fs (Memref.whole cc3_scratch6) cc3_scratch16.sem 5 k
    ∗ slotAt m d L q fs (Memref.whole cc3_scratch7) cc3_scratch17.sem 6 k
    ∗ slotAt m d L q fs (Memref.whole cc3_scratch8) cc3_scratch18.sem 7 k
    ∗ ∃ W', ⌜∀ p ∈ W', p ∈ W ∨ p.2 = none⌝ ∗ owes (thr d L) O W')

omit [FloatOps F] in
theorem slotAt_zero (fs : S528.Idx → Elt F .i32) (R : Memref sig .scVector .vmem S32x128 .f32) (sem : DmaSem sig) (s : ℕ) (hs : s < 8) :
    slotAt m d L q fs R sem s 0 = slot m d L q R sem s (wAt fs s) := by
  unfold slotAt; rw [nxt_zero s hs, if_pos (by omega)]

omit [FloatOps F] in
theorem slotAt_end (fs : S528.Idx → Elt F .i32) (R : Memref sig .scVector .vmem S32x128 .f32) (sem : DmaSem sig) (s : ℕ) :
    slotAt m d L q fs R sem s 512 = slotIdle m d L q R sem s := by
  unfold slotAt; rw [if_neg]; have := nxt_ge s 512; omega

/-- The value the kernel stores for row `r` of column `n` of the task. -/
def colVal (fs : S528.Idx → Elt F .i32) (ft : S2048.Idx → Elt F .f32) (r : Fin 32) (n : ℕ) : Elt F .f32 :=
  if (999936 : ℤ) ≤ (wAt fs n).toInt then ft (ix1 ⟨tailAt (wAt fs n) r, tailAt_lt _ r⟩)
  else m (ttLoc d) (ix2 r ⟨colAt (wAt fs n), colAt_lt _⟩)

/-- The columns below `k` hold their values. -/
def colsDone (fs : S528.Idx → Elt F .i32) (ft : S2048.Idx → Elt F .f32) (k : ℕ) (fc : S32x512.Idx → Elt F .f32) : Prop :=
  ∀ (r : Fin 32) (n : Fin 512), n.val < k → fc (ix2 r n) = colVal m d fs ft r n.val

omit [FloatOps F] in
theorem slotAt_self (fs : S528.Idx → Elt F .i32) (R : Memref sig .scVector .vmem S32x128 .f32) (sem : DmaSem sig) (s k : ℕ)
    (h : k % 8 = s) (hk : k < 512) : slotAt m d L q fs R sem s k = slot m d L q R sem s (wAt fs k) := by
  unfold slotAt; rw [nxt_self s k h, if_pos hk]

omit [FloatOps F] in
theorem slotAt_succ_self (fs : S528.Idx → Elt F .i32) (R : Memref sig .scVector .vmem S32x128 .f32) (sem : DmaSem sig) (s k : ℕ)
    (h : k % 8 = s) :
    slotAt m d L q fs R sem s (k + 1) = if k + 8 < 512 then slot m d L q R sem s (wAt fs (k + 8)) else slotIdle m d L q R sem s := by
  unfold slotAt; rw [nxt_succ_self s k h]

omit [FloatOps F] in
theorem slotAt_succ_other (fs : S528.Idx → Elt F .i32) (R : Memref sig .scVector .vmem S32x128 .f32) (sem : DmaSem sig) (s k : ℕ)
    (hs : s < 8) (h : k % 8 ≠ s) : slotAt m d L q fs R sem s (k + 1) = slotAt m d L q fs R sem s k := by
  unfold slotAt; rw [nxt_succ_other s k hs h]

omit [FloatOps F] in
/-- After the last trip every slot is idle. -/
theorem inv_end (O : CellTallies nD τ sig (HIx 4)) (W : Waits sig (HIx 4)) (fs : S528.Idx → Elt F .i32) (ft : S2048.Idx → Elt F .f32)
    (CD : ℕ → (S32x512.Idx → Elt F .f32) → Prop) (u : PUnit) :
    inv m d L q O W fs ft CD 512 u
      = iprop(Transfers.MayWaits (thr d L) (none : HIx 4) O
        ∗ ((Memref.whole cc3_scratch0 : Memref sig .scVector .vmem S528 .i32).view.loc (thr d L) ↦{fullShare} fs)
        ∗ ((Memref.whole cc3_scratch9 : Memref sig .scVector .vmem S2048 .f32).view.loc (thr d L) ↦{fullShare} ft)
        ∗ (∃ fc : S32x512.Idx → Elt F .f32,
            ((Memref.whole cc3_scratch10 : Memref sig .scVector .vmem S32x512 .f32).view.loc (thr d L) ↦{fullShare} fc) ∗ ⌜CD 512 fc⌝)
        ∗ slotIdle m d L q (Memref.whole cc3_scratch1) cc3_scratch11.sem 0
        ∗ slotIdle m d L q (Memref.whole cc3_scratch2) cc3_scratch12.sem 1
        ∗ slotIdle m d L q (Memref.whole cc3_scratch3) cc3_scratch13.sem 2
        ∗ slotIdle m d L q (Memref.whole cc3_scratch4) cc3_scratch14.sem 3
        ∗ slotIdle m d L q (Memref.whole cc3_scratch5) cc3_scratch15.sem 4
        ∗ slotIdle m d L q (Memref.whole cc3_scratch6) cc3_scratch16.sem 5
        ∗ slotIdle m d L q (Memref.whole cc3_scratch7) cc3_scratch17.sem 6
        ∗ slotIdle m d L q (Memref.whole cc3_scratch8) cc3_scratch18.sem 7
        ∗ ∃ W', ⌜∀ p ∈ W', p ∈ W ∨ p.2 = none⌝ ∗ owes (thr d L) O W') := by
  unfold inv
  simp only [slotAt_end]

end Ring

section Step
variable (m : (ℓ : Loc nD τ sig) → Buf (Elt F) ℓ) (d : Dev nD)
omit [FloatOps F] in
/-- One more column done: the new contents hold the trip's value in column `k` and the old contents elsewhere. -/
theorem colsDone_step (fs : S528.Idx → Elt F .i32) (ft : S2048.Idx → Elt F .f32) (k : ℕ) (fc fc' : S32x512.Idx → Elt F .f32)
    (h : colsDone m d fs ft k fc)
    (hstep : ∀ (r : Fin 32) (n : Fin 512), fc' (ix2 r n) = if n.val = k then colVal m d fs ft r k else fc (ix2 r n)) :
    colsDone m d fs ft (k + 1) fc' := by
  intro r n hn
  rw [hstep r n]
  by_cases e : n.val = k
  · rw [if_pos e, e]
  · rw [if_neg e]; exact h r n (by omega)
end Step

section Respell
variable (d : Dev nD) (L : grid3.Coords)
omit [FloatOps F] in
/-- A scratch buffer of the tile, as its whole memref addresses it. -/
theorem pts_scr (b : Ref sig .scVector) (g : Buf (Elt F) (d, bref L b)) :
    (((d, bref L b) : Loc nD τ sig) ↦{fullShare} g : sProp 𝕄) = ((Memref.whole b).view.loc (thr d L) ↦{fullShare} g) := rfl
omit [FloatOps F] in
theorem pts_ids (q : PosShare TreeShare) (f : Buf (Elt F) (idsLoc d)) :
    ((idsLoc d ↦{q} f) : sProp 𝕄) = (idsV.view.loc (thr d L) ↦{q} f) := rfl
omit [FloatOps F] in
theorem pts_tt (q : PosShare TreeShare) (f : Buf (Elt F) (ttLoc d)) :
    ((ttLoc d ↦{q} f) : sProp 𝕄) = (ttV.view.loc (thr d L) ↦{q} f) := rfl
omit [FloatOps F] in
theorem pts_tail (q : PosShare TreeShare) (f : Buf (Elt F) (tailLoc d)) :
    ((tailLoc d ↦{q} f) : sProp 𝕄) = (tailV.view.loc (thr d L) ↦{q} f) := rfl
omit [FloatOps F] in
theorem pts_out (f : Buf (Elt F) (outLoc d)) :
    ((outLoc d ↦[outSet L]{fullShare} f) : sProp 𝕄) = ((outBlk L).view.loc (thr d L) ↦[(outBlk L).view.set]{fullShare} f) := rfl
end Respell

end Cert.Proof.Block3B

end
-- ==== Proof.BlockTripC3B.lean ====
/-
  One trip of the block-gather loop in its second use (over the fourth table), as pure facts about the vectors it computes.

  A trip handles one index word `w` and one output column `k`. It reads 16 lanes twice — rows `0 … 15` and rows
  `16 … 31` — from the fetched 128-column block at lane `w mod 128`, and from the flattened tail at entry
  `(row) + 32 · min (w − 999936) 63` (clamped, so always in range), keeps the tail's value when `w`, read signed, is at
  least 999936 and the block's otherwise, and stores the 16 values at rows `0 … 15`, then `16 … 31`, of column `k`.
  So the row vectors are `lane` and `lane + 16`, the column vectors are splats, every index is in range, the two stores
  name distinct elements, and after them column `k` holds the looked-up value at every row and the other columns are
  unchanged.
-/
import proofs.«204991_g57140244906297_cont_9to1_m_249_19_alg».proof.Proof.BlockDefsB
import proofs.«204991_g57140244906297_cont_9to1_m_249_19_alg».proof.Proof.BlockDefs3B
import proofs.«204991_g57140244906297_cont_9to1_m_249_19_alg».proof.Proof.BlockArithB
import proofs.«204991_g57140244906297_cont_9to1_m_249_19_alg».proof.Proof.BlockStoreIdxB
import proofs.«204991_g57140244906297_cont_9to1_m_249_19_alg».proof.Proof.BlockTripB
import proofs.«204991_g57140244906297_cont_9to1_m_249_19_alg».proof.Proof.Gen.Kernel.Skeleton

noncomputable section

namespace Cert.Proof.Block3B

open Cert.Kernel Cert.Kernel.Gen
open Cert.Proof.BlockB
open Idealize.ShloMosaic Idealize.ShloMosaic.ValueIdx

variable {F : FTy → Type} [FloatOps F]

/-! ## The index vectors at a lane -/

/-- The first row vector at a lane is the lane's number. -/
theorem pay4_toNat (x : S16.Idx) : (k3_pay4 x).toNat = (x 0).val := by
  show (BitVec.ofNat 32 (0 * 16 + (x 0).val) + 0#32).toNat = (x 0).val
  have h := lane_lt x
  rw [BitVec.toNat_add, BitVec.toNat_ofNat]
  have h0 : (0#32 : BitVec 32).toNat = 0 := rfl
  rw [h0]
  omega

/-- The second row vector at a lane is the lane's number plus 16. -/
theorem pay9_toNat (x : S16.Idx) : (k3_pay9 x).toNat = (x 0).val + 16 := by
  show (BitVec.ofNat 32 (0 * 16 + (x 0).val) + 16#32).toNat = (x 0).val + 16
  have h := lane_lt x
  rw [BitVec.toNat_add, BitVec.toNat_ofNat]
  have h0 : (16#32 : BitVec 32).toNat = 16 := rfl
  rw [h0]
  omega

/-- The column vectors are splats of their word. -/
theorem pay5_apply (v : BitVec 32) (x : S16.Idx) : k3_pay5 v x = v := by
  show (0#32 : BitVec 32) + v = v
  exact BitVec.zero_add v
theorem pay10_apply (v : BitVec 32) (x : S16.Idx) : k3_pay10 v x = v := by
  show (0#32 : BitVec 32) + v = v
  exact BitVec.zero_add v
theorem pay8_apply (v : BitVec 32) (x : S16.Idx) : k3_pay8 v x = v := by
  show (0#32 : BitVec 32) + v = v
  exact BitVec.zero_add v
theorem pay13_apply (v : BitVec 32) (x : S16.Idx) : k3_pay13 v x = v := by
  show (0#32 : BitVec 32) + v = v
  exact BitVec.zero_add v

/-- The tail index vectors at a lane: the row plus the tail offset of the word. -/
theorem pay6_toNat (w : BitVec 32) (x : S16.Idx) : (k3_pay6 w k3_pay4 x).toNat = (x 0).val + (tailOff w).toNat := by
  show (k3_pay4 x + tailOff w).toNat = _
  have h := lane_lt x
  have ht := (tailOff_spec w).1
  rw [BitVec.toNat_add, pay4_toNat]
  omega
theorem pay11_toNat (w : BitVec 32) (x : S16.Idx) : (k3_pay11 w k3_pay9 x).toNat = (x 0).val + 16 + (tailOff w).toNat := by
  show (k3_pay9 x + tailOff w).toNat = _
  have h := lane_lt x
  have ht := (tailOff_spec w).1
  rw [BitVec.toNat_add, pay9_toNat]
  omega

/-! ## Every index is in range -/

theorem ring_ok0 (w : BitVec 32) :
    ∀ a x, ((![k3_pay4, k3_pay5 (Scalar.andi w 127#32)] : Fin 2 → IVec S16 32) a x).toNat < S32x128.size a := by
  intro a x
  match a with
  | ⟨0, _⟩ =>
    show (k3_pay4 x).toNat < 32
    rw [pay4_toNat]; have := lane_lt x; omega
  | ⟨1, _⟩ =>
    show (k3_pay5 (Scalar.andi w 127#32) x).toNat < 128
    rw [pay5_apply, lane_toNat]; exact Nat.mod_lt _ (by decide)

theorem ring_ok1 (w : BitVec 32) :
    ∀ a x, ((![k3_pay9, k3_pay10 (Scalar.andi w 127#32)] : Fin 2 → IVec S16 32) a x).toNat < S32x128.size a := by
  intro a x
  match a with
  | ⟨0, _⟩ =>
    show (k3_pay9 x).toNat < 32
    rw [pay9_toNat]; have := lane_lt x; omega
  | ⟨1, _⟩ =>
    show (k3_pay10 (Scalar.andi w 127#32) x).toNat < 128
    rw [pay10_apply, lane_toNat]; exact Nat.mod_lt _ (by decide)

theorem tail_ok0 (w : BitVec 32) :
    ∀ a x, ((![k3_pay6 w k3_pay4] : Fin 1 → IVec S16 32) a x).toNat < S2048.size a := by
  intro a x
  match a with
  | ⟨0, _⟩ =>
    show (k3_pay6 w k3_pay4 x).toNat < 2048
    rw [pay6_toNat]; have := lane_lt x; have := (tailOff_spec w).1; omega

theorem tail_ok1 (w : BitVec 32) :
    ∀ a x, ((![k3_pay11 w k3_pay9] : Fin 1 → IVec S16 32) a x).toNat < S2048.size a := by
  intro a x
  match a with
  | ⟨0, _⟩ =>
    show (k3_pay11 w k3_pay9 x).toNat < 2048
    rw [pay11_toNat]; have := lane_lt x; have := (tailOff_spec w).1; omega

theorem cols_ok0 (v77 : BitVec 32) (hv : v77.toNat < 512) :
    ∀ a x, ((![k3_pay4, k3_pay8 v77] : Fin 2 → IVec S16 32) a x).toNat < S32x512.size a := by
  intro a x
  match a with
  | ⟨0, _⟩ =>
    show (k3_pay4 x).toNat < 32
    rw [pay4_toNat]; have := lane_lt x; omega
  | ⟨1, _⟩ =>
    show (k3_pay8 v77 x).toNat < 512
    rw [pay8_apply]; exact hv

theorem cols_ok1 (v77 : BitVec 32) (hv : v77.toNat < 512) :
    ∀ a x, ((![k3_pay9, k3_pay13 v77] : Fin 2 → IVec S16 32) a x).toNat < S32x512.size a := by
  intro a x
  match a with
  | ⟨0, _⟩ =>
    show (k3_pay9 x).toNat < 32
    rw [pay9_toNat]; have := lane_lt x; omega
  | ⟨1, _⟩ =>
    show (k3_pay13 v77 x).toNat < 512
    rw [pay13_apply]; exact hv

end Cert.Proof.Block3B

end
-- ==== Proof.BlockTripValueC3B.lean ====
/-
  One trip of the block-gather loop in its second use (over the fourth table): what its two indexed stores leave in the staging block.

  An unmasked indexed store of 16 lanes whose row vector is `lane + off` and whose column vector is the splat of `k`
  names the 16 distinct elements `(off + lane, k)`: afterwards element `(r, n)` holds lane `r − off` of the stored
  vector when `n = k` and `off ≤ r < off + 16`, and what it held before otherwise. The stored vectors are, lane by lane,
  the tail's entry when the word, read signed, is at least 999936, and the fetched block's entry at the word's lane
  otherwise — the block holding columns `128 · min (w / 128) 7811 …` of the transposed table. Two such stores, rows
  `0 … 15` then `16 … 31`, leave column `k` at the looked-up value at every row and every other column unchanged.
-/
import proofs.«204991_g57140244906297_cont_9to1_m_249_19_alg».proof.Proof.BlockTripC3B
import proofs.«204991_g57140244906297_cont_9to1_m_249_19_alg».proof.Proof.BlockTripValueB

noncomputable section

namespace Cert.Proof.Block3B

open Cert.Kernel Cert.Kernel.Gen
open Cert.Proof.BlockB
open Idealize.ShloMosaic Idealize.ShloMosaic.ValueIdx

variable {F : FTy → Type} [FloatOps F]

/-- The selected vector at a lane: the tail's when the word, read signed, is at least 999936, else the block's. -/
theorem pay7_apply (w : BitVec 32) (a b : Vec F S16 .f32) (x : S16.Idx) :
    k3_pay7 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

theorem pay12_apply (w : BitVec 32) (a b : Vec F S16 .f32) (x : S16.Idx) :
    k3_pay12 (F := F) w a b x = if (999936 : ℤ) ≤ w.toInt then b x else a x := by
  show Scalar.select (Scalar.cmpi .sge w 999936#32) b a x = _
  by_cases h : (999936 : ℤ) ≤ w.toInt
  · rw [if_pos h, (sge_iff w).2 h, select_one]
  · rw [if_neg h, eq_zero_of_ne_one (fun e => h ((sge_iff w).1 e)), select_zero]

/-- After the trip's two stores: column `k` holds the looked-up value at every row, the other columns are unchanged. -/
theorem trip_value (tt : S32x1000000.Idx → Elt F .f32) (ft : S2048.Idx → Elt F .f32) (fc : S32x512.Idx → Elt F .f32)
    (R : S32x128.Idx → Elt F .f32) (w v77 : BitVec 32) (k : ℕ) (hk : k < 512) (hv : v77.toNat = k)
    (hR : ∀ (r : Fin 32) (l : Fin 128), R (ix2 r l) = tt (ix2 r ⟨(blkOff w).toNat + l.val, blkCol_lt w l⟩))
    (h1 : ∀ a x, ((![k3_pay4, k3_pay5 (Scalar.andi w 127#32)] : Fin 2 → IVec S16 32) a x).toNat < S32x128.size a)
    (h2 : ∀ a x, ((![k3_pay6 w k3_pay4] : Fin 1 → IVec S16 32) a x).toNat < S2048.size a)
    (h3 : ∀ a x, ((![k3_pay4, k3_pay8 v77] : Fin 2 → IVec S16 32) a x).toNat < S32x512.size a)
    (h4 : ∀ a x, ((![k3_pay9, k3_pay10 (Scalar.andi w 127#32)] : Fin 2 → IVec S16 32) a x).toNat < S32x128.size a)
    (h5 : ∀ a x, ((![k3_pay11 w k3_pay9] : Fin 1 → IVec S16 32) a x).toNat < S2048.size a)
    (h6 : ∀ a x, ((![k3_pay9, k3_pay13 v77] : Fin 2 → IVec S16 32) a x).toNat < S32x512.size a) :
    ∀ (r : Fin 32) (n : Fin 512),
      storeIdx (storeIdx fc (![k3_pay4, k3_pay8 v77] : Fin 2 → IVec S16 32)
          (k3_pay7 (F := F) w (loadIdx (F := F) R (![k3_pay4, k3_pay5 (Scalar.andi w 127#32)] : Fin 2 → IVec S16 32) h1) (loadIdx (F := F) ft (![k3_pay6 w k3_pay4] : Fin 1 → IVec S16 32) h2)) (fun _ => 1#1) false h3)
        (![k3_pay9, k3_pay13 v77] : Fin 2 → IVec S16 32)
        (k3_pay12 (F := F) w (loadIdx (F := F) R (![k3_pay9, k3_pay10 (Scalar.andi w 127#32)] : Fin 2 → IVec S16 32) h4) (loadIdx (F := F) ft (![k3_pay11 w k3_pay9] : Fin 1 → IVec S16 32) h5)) (fun _ => 1#1) false h6 (ix2 r n)
      = if n.val = k then (if (999936 : ℤ) ≤ w.toInt then ft (ix1 ⟨tailAt w r, tailAt_lt w r⟩) else tt (ix2 r ⟨colAt w, colAt_lt w⟩))
        else fc (ix2 r n) := by
  intro r n
  have hq0 : ∀ x, (k3_pay8 v77 x).toNat = k := fun x => by rw [pay8_apply, hv]
  have hq1 : ∀ x, (k3_pay13 v77 x).toNat = k := fun x => by rw [pay13_apply, hv]
  have hp0 : ∀ x : S16.Idx, (k3_pay4 x).toNat = (x 0).val + 0 := fun x => (pay4_toNat x).trans (Nat.add_zero _).symm
  rw [colStore _ k3_pay9 (k3_pay13 v77) _ h6 16 k pay9_toNat hq1 r n,
    colStore fc k3_pay4 (k3_pay8 v77) _ h3 0 k hp0 hq0 r n]
  by_cases hn : n.val = k
  · rw [if_pos hn]
    by_cases hr : r.val < 16
    · rw [dif_neg (fun hc => by omega), dif_pos ⟨hn, Nat.zero_le _, by omega⟩, pay7_apply]
      by_cases hge : (999936 : ℤ) ≤ w.toInt
      · rw [if_pos hge, if_pos hge]
        exact load_tail ft w (k3_pay6 w k3_pay4) h2 _ r (by rw [pay6_toNat]; rfl) hge
      · rw [if_neg hge, if_neg hge]
        exact load_ring tt R w hR k3_pay4 (k3_pay5 (Scalar.andi w 127#32)) h1 _ r (by rw [pay4_toNat]; rfl) (pay5_apply _ _)
    · rw [dif_pos ⟨hn, by omega, by have := r.isLt; omega⟩, pay12_apply]
      by_cases hge : (999936 : ℤ) ≤ w.toInt
      · rw [if_pos hge, if_pos hge]
        exact load_tail ft w (k3_pay11 w k3_pay9) h5 _ r
          (by rw [pay11_toNat]; show (r.val - 16) + 16 + _ = r.val + _; omega) hge
      · rw [if_neg hge, if_neg hge]
        exact load_ring tt R w hR k3_pay9 (k3_pay10 (Scalar.andi w 127#32)) h4 _ r
          (by rw [pay9_toNat]; show (r.val - 16) + 16 = r.val; omega) (pay10_apply _ _)
  · rw [if_neg hn, dif_neg (fun hc => hn hc.1), dif_neg (fun hc => hn hc.1)]

end Cert.Proof.Block3B

end
-- ==== Proof.BlockEnds2C3B.lean ====
/-
  What the block-gather task's two table copies carry, in its second use (over the fourth table).

  The copy of one 128-column block of the transposed table, all 32 rows from column `blkOff w`, carries at `(r, l)` the
  table's entry `(r, blkOff w + l)`. The copy of the whole flattened tail over the whole tail scratch leaves the tail
  there, whatever the scratch held.
-/
import proofs.«204991_g57140244906297_cont_9to1_m_249_19_alg».proof.Proof.BlockTripValueC3B
import proofs.«204991_g57140244906297_cont_9to1_m_249_19_alg».proof.Proof.BlockEnds2B
import Idealize.ShloMosaic.Lib.Writes

noncomputable section

namespace Cert.Proof.Block3B

open Cert.Kernel Cert.Kernel.Gen
open Cert.Proof.BlockB
open Idealize.ShloMosaic Idealize.ShloMosaic.ValueIdx

variable {F : FTy → Type} [FloatOps F]

/-- What the copied block holds at `(r, l)`: the transposed table at `(r, blkOff w + l)`. -/
theorem blkPay_apply (tt : S32x1000000.Idx → Elt F .f32) (w : BitVec 32)
    (h : ∀ a, (![0, (blkOff w).toNat] : Fin 2 → ℕ) a + S32x128.size a ≤ S32x1000000.size a) (r : Fin 32) (l : Fin 128) :
    (ReadAs.same : ReadAs (Elt F) S32x128 .f32 S32x128 .f32).apply
        ((ttV.slice (Rect.unit (s := S32x1000000) ![0, (blkOff w).toNat] S32x128.size h) (fun _ => rfl)).view.read (Elt F) tt) (ix2 r l)
      = tt (ix2 r ⟨(blkOff w).toNat + l.val, blkCol_lt w l⟩) := by
  show View.read (Elt F) (ttV.slice (Rect.unit (s := S32x1000000) ![0, (blkOff w).toNat] S32x128.size h) (fun _ => rfl)).view tt (ix2 r l) = _
  rw [View.read_apply]
  refine (eq_of_heq (cast_heq _ _)).trans (congrArg tt (funext fun a => ?_))
  match a with
  | ⟨0, _⟩ =>
    refine Fin.ext ?_
    show 0 + 1 * r.val = r.val
    omega
  | ⟨1, _⟩ =>
    refine Fin.ext ?_
    show (blkOff w).toNat + 1 * l.val = (blkOff w).toNat + l.val
    omega

/-- The whole tail copied over the whole tail scratch leaves the tail there. -/
theorem tail_copy (g9 tail : S2048.Idx → Elt F .f32) :
    View.write (Elt F) (Memref.whole cc3_scratch9 : Memref sig .scVector .vmem S2048 .f32).view g9
        ((ReadAs.same : ReadAs (Elt F) S2048 .f32 S2048 .f32).apply (tailV.view.read (Elt F) tail)) Finset.univ = tail :=
  (View.write_whole_univ cc3_scratch9 g9 _).trans (View.read_whole main_v10_scv tail)

end Cert.Proof.Block3B

end
-- ==== Proof.BlockTrip0C3B.lean ====
/-
  One trip of the block-gather loop, in the kernel's second use, whose number is 0 mod 8: it serves slot 0. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq0 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip0 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 0) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c1 : k3_cond1 k = 1#1 := o0.mpr hres
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 0 k.val hres hk, slotAt_succ_self m d L q fs _ _ 0 k.val hres,
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c2 : k3_cond2 k = 1#1 := e0.mpr hlast
    rw [if_pos hlast, wAt_off fs (k.val + 8) hlast (k3_off11 k) (k3_off11_inb k c1 c2) (k3_off11_eq k)]
    unfold slot
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch1) (LoadRect.whole S32x128) f = f :=
        fun f => Memref.readAt_whole (Elt F) cc3_scratch1 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch1) g P Finset.univ = P :=
        fun g P => View.write_whole_univ cc3_scratch1 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HF Hrest]
    · isplitl [HF]; · iexists _; iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c2 : ¬ k3_cond2 k = 1#1 := fun h => hlast (e0.mp h)
    rw [if_neg hlast]; unfold slot slotIdle
    iintro ⟨#Hmw, Hb0, Hb9, ⟨%fc, Hb10, %hfc⟩, ⟨⟨%g, HF⟩, Hrest⟩, HS1, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch1) (LoadRect.whole S32x128) f = f :=
        fun f => Memref.readAt_whole (Elt F) cc3_scratch1 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch1) g P Finset.univ = P :=
        fun g P => View.write_whole_univ cc3_scratch1 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq0 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HF_dst HF Hrest]
    · isplitl [HF_dst]; · iexists _; iexact HF_dst
      isplitl [HF]; · iexact HF
      iexact Hrest
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3B

end
-- ==== Proof.BlockTrip1C3B.lean ====
/-
  One trip of the block-gather loop, in the kernel's second use, whose number is 1 mod 8: it serves slot 1. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq1 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip1 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 1) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c3 : k3_cond3 k = 1#1 := o1.mpr hres
  have c1 : ¬ k3_cond1 k = 1#1 := fun h => by have := o0.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 1 k.val hres hk, slotAt_succ_self m d L q fs _ _ 1 k.val hres,
    slotAt_succ_other m d L q fs _ _ 0 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c4 : k3_cond4 k = 1#1 := e1.mpr hlast
    rw [if_pos hlast, wAt_off fs (k.val + 8) hlast (k3_off13 k) (k3_off13_inb k c3 c4) (k3_off13_eq k)]
    unfold slot
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch2) (LoadRect.whole S32x128) f = f :=
        fun f => Memref.readAt_whole (Elt F) cc3_scratch2 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch2) g P Finset.univ = P :=
        fun g P => View.write_whole_univ cc3_scratch2 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HF Hrest]
    · isplitl [HF]; · iexists _; iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c4 : ¬ k3_cond4 k = 1#1 := fun h => hlast (e1.mp h)
    rw [if_neg hlast]; unfold slot slotIdle
    iintro ⟨#Hmw, Hb0, Hb9, ⟨%fc, Hb10, %hfc⟩, HS0, ⟨⟨%g, HF⟩, Hrest⟩, HS2, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch2) (LoadRect.whole S32x128) f = f :=
        fun f => Memref.readAt_whole (Elt F) cc3_scratch2 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch2) g P Finset.univ = P :=
        fun g P => View.write_whole_univ cc3_scratch2 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq1 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HF_dst HF Hrest]
    · isplitl [HF_dst]; · iexists _; iexact HF_dst
      isplitl [HF]; · iexact HF
      iexact Hrest
    isplitl [HS2]; · iexact HS2
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3B

end
-- ==== Proof.BlockTrip2C3B.lean ====
/-
  One trip of the block-gather loop, in the kernel's second use, whose number is 2 mod 8: it serves slot 2. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq2 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip2 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 2) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c5 : k3_cond5 k = 1#1 := o2.mpr hres
  have c1 : ¬ k3_cond1 k = 1#1 := fun h => by have := o0.mp h; omega
  have c3 : ¬ k3_cond3 k = 1#1 := fun h => by have := o1.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 2 k.val hres hk, slotAt_succ_self m d L q fs _ _ 2 k.val hres,
    slotAt_succ_other m d L q fs _ _ 0 k.val (by omega) (by omega),
    slotAt_succ_other m d L q fs _ _ 1 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c6 : k3_cond6 k = 1#1 := e2.mpr hlast
    rw [if_pos hlast, wAt_off fs (k.val + 8) hlast (k3_off15 k) (k3_off15_inb k c5 c6) (k3_off15_eq k)]
    unfold slot
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch3) (LoadRect.whole S32x128) f = f :=
        fun f => Memref.readAt_whole (Elt F) cc3_scratch3 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch3) g P Finset.univ = P :=
        fun g P => View.write_whole_univ cc3_scratch3 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HF Hrest]
    · isplitl [HF]; · iexists _; iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c6 : ¬ k3_cond6 k = 1#1 := fun h => hlast (e2.mp h)
    rw [if_neg hlast]; unfold slot slotIdle
    iintro ⟨#Hmw, Hb0, Hb9, ⟨%fc, Hb10, %hfc⟩, HS0, HS1, ⟨⟨%g, HF⟩, Hrest⟩, HS3, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch3) (LoadRect.whole S32x128) f = f :=
        fun f => Memref.readAt_whole (Elt F) cc3_scratch3 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch3) g P Finset.univ = P :=
        fun g P => View.write_whole_univ cc3_scratch3 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq2 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HF_dst HF Hrest]
    · isplitl [HF_dst]; · iexists _; iexact HF_dst
      isplitl [HF]; · iexact HF
      iexact Hrest
    isplitl [HS3]; · iexact HS3
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3B

end
-- ==== Proof.BlockTrip3C3B.lean ====
/-
  One trip of the block-gather loop, in the kernel's second use, whose number is 3 mod 8: it serves slot 3. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq3 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip3 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 3) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c7 : k3_cond7 k = 1#1 := o3.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 3 k.val hres hk, slotAt_succ_self m d L q fs _ _ 3 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 4 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c8 : k3_cond8 k = 1#1 := e3.mpr hlast
    rw [if_pos hlast, wAt_off fs (k.val + 8) hlast (k3_off17 k) (k3_off17_inb k c7 c8) (k3_off17_eq k)]
    unfold slot
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch4) (LoadRect.whole S32x128) f = f :=
        fun f => Memref.readAt_whole (Elt F) cc3_scratch4 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch4) g P Finset.univ = P :=
        fun g P => View.write_whole_univ cc3_scratch4 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HF Hrest]
    · isplitl [HF]; · iexists _; iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c8 : ¬ k3_cond8 k = 1#1 := fun h => hlast (e3.mp h)
    rw [if_neg hlast]; unfold slot slotIdle
    iintro ⟨#Hmw, Hb0, Hb9, ⟨%fc, Hb10, %hfc⟩, HS0, HS1, HS2, ⟨⟨%g, HF⟩, Hrest⟩, HS4, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch4) (LoadRect.whole S32x128) f = f :=
        fun f => Memref.readAt_whole (Elt F) cc3_scratch4 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch4) g P Finset.univ = P :=
        fun g P => View.write_whole_univ cc3_scratch4 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq3 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HF_dst HF Hrest]
    · isplitl [HF_dst]; · iexists _; iexact HF_dst
      isplitl [HF]; · iexact HF
      iexact Hrest
    isplitl [HS4]; · iexact HS4
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3B

end
-- ==== Proof.BlockTrip4C3B.lean ====
/-
  One trip of the block-gather loop, in the kernel's second use, whose number is 4 mod 8: it serves slot 4. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq4 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip4 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 4) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c9 : k3_cond9 k = 1#1 := o4.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c11 : ¬ k3_cond11 k = 1#1 := fun h => by have := o5.mp h; omega
  have c13 : ¬ k3_cond13 k = 1#1 := fun h => by have := o6.mp h; omega
  have c15 : ¬ k3_cond15 k = 1#1 := fun h => by have := o7.mp h; omega
  unfold inv
  rw [slotAt_self m d L q fs _ _ 4 k.val hres hk, slotAt_succ_self m d L q fs _ _ 4 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 5 k.val (by omega) (by omega),
    slotAt_succ_other m d L q fs _ _ 6 k.val (by omega) (by omega),
    slotAt_succ_other m d L q fs _ _ 7 k.val (by omega) (by omega)]
  by_cases hlast : k.val + 8 < 512
  · have c10 : k3_cond10 k = 1#1 := e4.mpr hlast
    rw [if_pos hlast, wAt_off fs (k.val + 8) hlast (k3_off19 k) (k3_off19_inb k c9 c10) (k3_off19_eq k)]
    unfold slot
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch5) (LoadRect.whole S32x128) f = f :=
        fun f => Memref.readAt_whole (Elt F) cc3_scratch5 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch5) g P Finset.univ = P :=
        fun g P => View.write_whole_univ cc3_scratch5 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF Hrest]
    · isplitl [HF]; · iexists _; iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c10 : ¬ k3_cond10 k = 1#1 := fun h => hlast (e4.mp h)
    rw [if_neg hlast]; unfold slot slotIdle
    iintro ⟨#Hmw, Hb0, Hb9, ⟨%fc, Hb10, %hfc⟩, HS0, HS1, HS2, HS3, ⟨⟨%g, HF⟩, Hrest⟩, HS5, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch5) (LoadRect.whole S32x128) f = f :=
        fun f => Memref.readAt_whole (Elt F) cc3_scratch5 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch5) g P Finset.univ = P :=
        fun g P => View.write_whole_univ cc3_scratch5 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq4 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HF_dst HF Hrest]
    · isplitl [HF_dst]; · iexists _; iexact HF_dst
      isplitl [HF]; · iexact HF
      iexact Hrest
    isplitl [HS5]; · iexact HS5
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3B

end
-- ==== Proof.BlockTrip5C3B.lean ====
/-
  One trip of the block-gather loop, in the kernel's second use, whose number is 5 mod 8: it serves slot 5. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq5 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip5 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 5) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c11 : k3_cond11 k = 1#1 := o5.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c13 : ¬ k3_cond13 k = 1#1 := fun h => by have := o6.mp h; omega
  have c15 : ¬ k3_cond15 k = 1#1 := fun h => by have := o7.mp h; omega
  unfold inv
  rw [slotAt_self m d L q fs _ _ 5 k.val hres hk, slotAt_succ_self m d L q fs _ _ 5 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 6 k.val (by omega) (by omega),
    slotAt_succ_other m d L q fs _ _ 7 k.val (by omega) (by omega)]
  by_cases hlast : k.val + 8 < 512
  · have c12 : k3_cond12 k = 1#1 := e5.mpr hlast
    rw [if_pos hlast, wAt_off fs (k.val + 8) hlast (k3_off21 k) (k3_off21_inb k c11 c12) (k3_off21_eq k)]
    unfold slot
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch6) (LoadRect.whole S32x128) f = f :=
        fun f => Memref.readAt_whole (Elt F) cc3_scratch6 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch6) g P Finset.univ = P :=
        fun g P => View.write_whole_univ cc3_scratch6 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF Hrest]
    · isplitl [HF]; · iexists _; iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp
  · have c12 : ¬ k3_cond12 k = 1#1 := fun h => hlast (e5.mp h)
    rw [if_neg hlast]; unfold slot slotIdle
    iintro ⟨#Hmw, Hb0, Hb9, ⟨%fc, Hb10, %hfc⟩, HS0, HS1, HS2, HS3, HS4, ⟨⟨%g, HF⟩, Hrest⟩, HS6, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch6) (LoadRect.whole S32x128) f = f :=
        fun f => Memref.readAt_whole (Elt F) cc3_scratch6 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch6) g P Finset.univ = P :=
        fun g P => View.write_whole_univ cc3_scratch6 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq5 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HF_dst HF Hrest]
    · isplitl [HF_dst]; · iexists _; iexact HF_dst
      isplitl [HF]; · iexact HF
      iexact Hrest
    isplitl [HS6]; · iexact HS6
    isplitl [HS7]; · iexact HS7
    iexists _; isplitr
    swap
    · iexact HO
    · ipureintro; intro p hp
      rcases Finset.mem_insert.mp hp with hp | hp
      · right; rw [hp]; rfl
      · exact hW' p hp

end Cert.Proof.Block3B

end
-- ==== Proof.BlockTrip6C3B.lean ====
/-
  One trip of the block-gather loop, in the kernel's second use, whose number is 6 mod 8: it serves slot 6. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq6 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip6 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 6) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c13 : k3_cond13 k = 1#1 := o6.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c15 : ¬ k3_cond15 k = 1#1 := fun h => by have := o7.mp h; omega
  unfold inv
  rw [slotAt_self m d L q fs _ _ 6 k.val hres hk, slotAt_succ_self m d L q fs _ _ 6 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 7 k.val (by omega) (by omega)]
  by_cases hlast : k.val + 8 < 512
  · have c14 : k3_cond14 k = 1#1 := e6.mpr hlast
    rw [if_pos hlast, wAt_off fs (k.val + 8) hlast (k3_off23 k) (k3_off23_inb k c13 c14) (k3_off23_eq k)]
    unfold slot
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch7) (LoadRect.whole S32x128) f = f :=
        fun f => Memref.readAt_whole (Elt F) cc3_scratch7 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch7) g P Finset.univ = P :=
        fun g P => View.write_whole_univ cc3_scratch7 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF Hrest]
    · isplitl [HF]; · iexists _; iexact HF
      iexact Hrest
    isplitl [HS7]; · iexact HS7
    iexists _; isplitr
    swap
    · iexact HO
    · ipureintro; intro p hp
      rcases Finset.mem_insert.mp hp with hp | hp
      · right; rw [hp]; rfl
      · exact hW' p hp
  · have c14 : ¬ k3_cond14 k = 1#1 := fun h => hlast (e6.mp h)
    rw [if_neg hlast]; unfold slot slotIdle
    iintro ⟨#Hmw, Hb0, Hb9, ⟨%fc, Hb10, %hfc⟩, HS0, HS1, HS2, HS3, HS4, HS5, ⟨⟨%g, HF⟩, Hrest⟩, HS7, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch7) (LoadRect.whole S32x128) f = f :=
        fun f => Memref.readAt_whole (Elt F) cc3_scratch7 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch7) g P Finset.univ = P :=
        fun g P => View.write_whole_univ cc3_scratch7 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq6 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HF_dst HF Hrest]
    · isplitl [HF_dst]; · iexists _; iexact HF_dst
      isplitl [HF]; · iexact HF
      iexact Hrest
    isplitl [HS7]; · iexact HS7
    iexists _; isplitr
    swap
    · iexact HO
    · ipureintro; intro p hp
      rcases Finset.mem_insert.mp hp with hp | hp
      · right; rw [hp]; rfl
      · exact hW' p hp

end Cert.Proof.Block3B

end
-- ==== Proof.BlockTrip7C3B.lean ====
/-
  One trip of the block-gather loop, in the kernel's second use, whose number is 7 mod 8: it serves slot 7. The trip waits for the slot's block, reads
  the trip's column out of the block (or out of the tail), stores it into the columns, and, while eight trips later is
  still inside the loop, starts the slot's next copy. The invariant is re-established with one more column done.
-/
import proofs.«204991_g57140244906297_cont_9to1_m_249_19_alg».proof.Proof.BlockInvC3B
import proofs.«204991_g57140244906297_cont_9to1_m_249_19_alg».proof.Proof.BlockTripValueC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

omit [FloatOps F] in
/-- The trip's value, stated of any spelling of the trip's word. -/
theorem colVal_eq7 (m : (ℓ : Loc nD τ sig) → Buf (Elt F) ℓ) (d : Dev nD) (fs : S528.Idx → Elt F .i32) (ft : S2048.Idx → Elt F .f32)
    (r : Fin 32) (n : ℕ) (w : BitVec 32) (hw : wAt fs n = w) :
    colVal m d fs ft r n = if (999936 : ℤ) ≤ w.toInt then ft (ix1 ⟨tailAt w r, tailAt_lt w r⟩)
      else m (ttLoc d) (ix2 r ⟨colAt w, colAt_lt w⟩) := by
  subst hw; rfl

set_option maxRecDepth 65536 in
set_option maxHeartbeats 16000000 in
theorem trip7 (m : (ℓ : Loc nD τ sig) → Buf (Elt F) ℓ) (d : Dev nD) (L : grid3.Coords) (q : PosShare TreeShare)
    (O : CellTallies nD τ sig (HIx 4)) (W : Waits sig (HIx 4)) (fs : S528.Idx → Elt F .i32) (ft : S2048.Idx → Elt F .f32)
    (k : Fin k3_t1_loop.trips) (u : Unit) (hres : k.val % 8 = 7) :
    inv m d L q O W fs ft (colsDone m d fs ft) k.val u
      ⊢ (wp frame (wpE (defs₀ (F := F)) 𝒱₀ (thr d L) none) Set.univ
          (k3_t1_body L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1 k u)
          (inv m d L q O W fs ft (colsDone m d fs ft) (k.val + 1)) : sProp 𝕄) := by
  have hk : k.val < 512 := by
    have h := k.isLt
    have e : k3_t1_loop.trips = 512 := trips_eq
    omega
  have hv : (Scalar.addi 0#32 (Scalar.muli (Scf.iv 0#32 1#32 k) 1#32)).toNat < 512 := lt_of_eq_of_lt (v77_toNat k) hk
  obtain ⟨⟨o0, o1, o2, o3, o4, o5, o6, o7⟩, ⟨e0, e1, e2, e3, e4, e5, e6, e7⟩⟩ := conds k
  unfold k3_t1_body
  have c15 : k3_cond15 k = 1#1 := o7.mpr hres
  have c1 : ¬ k3_cond1 k = 1#1 := fun h => by have := o0.mp h; omega
  have c3 : ¬ k3_cond3 k = 1#1 := fun h => by have := o1.mp h; omega
  have c5 : ¬ k3_cond5 k = 1#1 := fun h => by have := o2.mp h; omega
  have c7 : ¬ k3_cond7 k = 1#1 := fun h => by have := o3.mp h; omega
  have c9 : ¬ k3_cond9 k = 1#1 := fun h => by have := o4.mp h; omega
  have c11 : ¬ k3_cond11 k = 1#1 := fun h => by have := o5.mp h; omega
  have c13 : ¬ k3_cond13 k = 1#1 := fun h => by have := o6.mp h; omega
  unfold inv
  rw [slotAt_self m d L q fs _ _ 7 k.val hres hk, slotAt_succ_self m d L q fs _ _ 7 k.val hres,
    slotAt_succ_other m d L q fs _ _ 0 k.val (by omega) (by omega),
    slotAt_succ_other m d L q fs _ _ 1 k.val (by omega) (by omega),
    slotAt_succ_other m d L q fs _ _ 2 k.val (by omega) (by omega),
    slotAt_succ_other m d L q fs _ _ 3 k.val (by omega) (by omega),
    slotAt_succ_other m d L q fs _ _ 4 k.val (by omega) (by omega),
    slotAt_succ_other m d L q fs _ _ 5 k.val (by omega) (by omega),
    slotAt_succ_other m d L q fs _ _ 6 k.val (by omega) (by omega)]
  by_cases hlast : k.val + 8 < 512
  · have c16 : k3_cond16 k = 1#1 := e7.mpr hlast
    rw [if_pos hlast, wAt_off fs (k.val + 8) hlast (k3_off25 k) (k3_off25_inb k c15 c16) (k3_off25_eq k)]
    unfold slot
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec (disch := exact ⟨fun _ _ => (blk_ok _).1, fun _ _ => (blk_ok _).2⟩)
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch8) (LoadRect.whole S32x128) f = f :=
        fun f => Memref.readAt_whole (Elt F) cc3_scratch8 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch8) g P Finset.univ = P :=
        fun g P => View.write_whole_univ cc3_scratch8 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF Hrest]
    · isplitl [HF]; · iexists _; iexact HF
      iexact Hrest
    iexists _; isplitr
    swap
    · iexact HO
    · ipureintro; intro p hp
      rcases Finset.mem_insert.mp hp with hp | hp
      · right; rw [hp]; rfl
      · exact hW' p hp
  · have c16 : ¬ k3_cond16 k = 1#1 := fun h => hlast (e7.mp h)
    rw [if_neg hlast]; unfold slot slotIdle
    iintro ⟨#Hmw, Hb0, Hb9, ⟨%fc, Hb10, %hfc⟩, HS0, HS1, HS2, HS3, HS4, HS5, HS6, ⟨⟨%g, HF⟩, Hrest⟩, ⟨%W', %hW', HO⟩⟩
    sl_exec (disch := exact fun _ => ring_ok0 _)
    sl_rw [SparseCore.vectorLoadIdx_bind (c := thr d L)]
    sl_exec (disch := exact fun _ => tail_ok0 _)
    sl_rw [SparseCore.vectorLoadIdx_bind (c := thr d L)]
    sl_exec (disch := exact fun _ => cols_ok0 _ hv)
    sl_rw [SparseCore.vectorStoreIdx_bind (c := thr d L)]
    sl_exec (disch := exact fun _ => ring_ok1 _)
    sl_rw [SparseCore.vectorLoadIdx_bind (c := thr d L)]
    sl_exec (disch := exact fun _ => tail_ok1 _)
    sl_rw [SparseCore.vectorLoadIdx_bind (c := thr d L)]
    sl_exec (disch := exact fun _ => cols_ok1 _ hv)
    sl_rw [SparseCore.vectorStoreIdx_bind (c := thr d L)]
    sl_exec
    sl_step
    isplitr; · iexact Hmw
    isplitl [Hb0]; · iexact Hb0
    isplitl [Hb9]; · iexact Hb9
    isplitl [Hb10]
    · iexists _; isplitl [Hb10]; · iexact Hb10
      ipureintro
      unfold_sl
      have e1 : ∀ (f w : S32x512.Idx → Elt F .f32),
          View.write (Elt F) ((View.whole cc3_scratch10).slice (Rect.whole S32x512)) f w Finset.univ = w :=
        fun f w => Memref.write_access_whole_univ (Elt F) cc3_scratch10 f w
      have e2 : ∀ f : S32x512.Idx → Elt F .f32, View.readAt (Elt F) (View.whole cc3_scratch10) (LoadRect.whole S32x512) f = f :=
        fun f => Memref.readAt_whole (Elt F) cc3_scratch10 f
      have e3 : ∀ f : S32x128.Idx → Elt F .f32, View.readAt (Elt F) (View.whole cc3_scratch8) (LoadRect.whole S32x128) f = f :=
        fun f => Memref.readAt_whole (Elt F) cc3_scratch8 f
      have e4 : ∀ f : S2048.Idx → Elt F .f32, View.readAt (Elt F) (View.whole cc3_scratch9) (LoadRect.whole S2048) f = f :=
        fun f => Memref.readAt_whole (Elt F) cc3_scratch9 f
      have e5 : ∀ g P : S32x128.Idx → Elt F .f32, View.write (Elt F) (View.whole cc3_scratch8) g P Finset.univ = P :=
        fun g P => View.write_whole_univ cc3_scratch8 g P
      simp only [View.readCov, View.writes_cons, View.writes_nil, e1, e2, e3, e4, e5]
      refine colsDone_step m d fs ft k.val fc _ hfc (fun r n => ?_)
      have hw : wAt fs k.val = wAtOff fs (k3_off10 k) (k3_off10_inb k) := wAt_off fs k.val hk _ _ (k3_off10_eq k)
      have hR : ∀ (r : Fin 32) (l : Fin 128), blkPay m d (wAt fs k.val) (ix2 r l)
          = m (ttLoc d) (ix2 r ⟨(blkOff (wAtOff fs (k3_off10 k) (k3_off10_inb k))).toNat + l.val, blkCol_lt _ l⟩) := by
        intro r l
        have h1 := blkPay_apply (m (ttLoc d)) (wAt fs k.val) (blk_ok _).2 r l
        have e : (⟨(blkOff (wAt fs k.val)).toNat + l.val, blkCol_lt _ l⟩ : Fin 1000000)
            = ⟨(blkOff (wAtOff fs (k3_off10 k) (k3_off10_inb k))).toNat + l.val, blkCol_lt _ l⟩ := by
          apply Fin.ext
          show (blkOff (wAt fs k.val)).toNat + l.val = _
          rw [hw]
        rw [← e]
        exact h1
      rw [colVal_eq7 m d fs ft r k.val _ hw]
      exact trip_value (m (ttLoc d)) ft fc (blkPay m d (wAt fs k.val)) (wAtOff fs (k3_off10 k) (k3_off10_inb k)) _ k.val hk (v77_toNat k)
        hR _ _ _ _ _ _ r n
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HF_dst HF Hrest]
    · isplitl [HF_dst]; · iexists _; iexact HF_dst
      isplitl [HF]; · iexact HF
      iexact Hrest
    iexists _; isplitr
    swap
    · iexact HO
    · ipureintro; intro p hp
      rcases Finset.mem_insert.mp hp with hp | hp
      · right; rw [hp]; rfl
      · exact hW' p hp

end Cert.Proof.Block3B

end
-- ==== Proof.BlockEndsC3B.lean ====
/-
  The two ends of the block-gather task in its second use (over the fourth table), as facts about contents.

  The index scratch after the first copy holds, in its first 512 words, the task's 512 index words; a 16-lane load at
  offset `j < 512` therefore has word `j` of the task, which is word `k3_off1 L + j` of the index array, in lane 0.
  The write-out copies the whole staging block over the task's block of the output, columns
  `k3_off27 L … + 511` of all 32 rows: if the staging block holds `g` at those columns, the output holds `g` on the
  task's block afterwards. The index slice and the output block start at the same column, `1024 · (L 1) + 512 · (L 0)`.
-/
import proofs.«204991_g57140244906297_cont_9to1_m_249_19_alg».proof.Proof.BlockDefsB
import proofs.«204991_g57140244906297_cont_9to1_m_249_19_alg».proof.Proof.BlockDefs3B
import proofs.«204991_g57140244906297_cont_9to1_m_249_19_alg».proof.Proof.BlockEndsB
import Idealize.ShloMosaic.Lib.Writes

noncomputable section

namespace Cert.Proof.Block3B

open Cert.Kernel Cert.Kernel.Gen
open Cert.Proof.BlockB
open Idealize.ShloMosaic Idealize.ShloMosaic.ValueIdx

variable {F : FTy → Type} [FloatOps F]

/-- The index slice and the output block of a task start at the same column. -/
theorem off1_eq_off27 (L : grid3.Coords) : (k3_off1 L) 0 = (k3_off27 L) 1 := by
  rw [k3_off1_eq, k3_off27_eq]
  rfl

/-- The output block of a task starts at row 0. -/
theorem off27_row (L : grid3.Coords) : (k3_off27 L) 0 = 0 := by
  rw [k3_off27_eq]
  rfl

/-- Column `n` of a task's output block lies inside the output. -/
theorem off27_lt (L : grid3.Coords) (n : Fin 512) : (k3_off27 L) 1 + n.val < 16384 := by
  have h : (k3_off27 L) 1 + 512 ≤ 16384 := k3_off27_inb L 1
  have := n.isLt
  omega

/-- After the staging block is written whole over the task's block of the output, that block holds `g` if the staging
    block held `g` at the task's columns. -/
theorem out_value (f0 : S32x16384.Idx → Elt F .f32) (fc : S32x512.Idx → Elt F .f32) (g : S32x16384.Idx → Elt F .f32)
    (L : grid3.Coords)
    (hfc : ∀ (r : Fin 32) (n : Fin 512), fc (ix2 r n) = g (ix2 r ⟨(k3_off27 L) 1 + n.val, off27_lt L n⟩)) :
    ∀ i ∈ (outBlk L).view.set, (outBlk L).view.writes (Elt F) f0 [⟨Rect.whole S32x512, fc⟩] i = g i := by
  intro i hi
  obtain ⟨y, -, rfl⟩ := Finset.mem_map.mp hi
  have h1 := View.read_writes_cons_emb (outBlk L).view f0 (Rect.whole S32x512) fc [] y
  rw [Rect.emb_whole_apply, View.read_apply] at h1
  refine ((eq_of_heq (cast_heq _ _)).symm.trans h1).trans ?_
  obtain ⟨r, n, rfl⟩ : ∃ (r : Fin 32) (n : Fin 512), y = ix2 r n := ⟨y 0, y 1, eq_ix2 y⟩
  rw [hfc]
  refine congrArg g (funext fun a => ?_)
  match a with
  | ⟨0, _⟩ =>
    refine Fin.ext ?_
    show r.val = (k3_off27 L) 0 + 1 * r.val
    rw [off27_row]
    omega
  | ⟨1, _⟩ =>
    refine Fin.ext ?_
    show (k3_off27 L) 1 + n.val = (k3_off27 L) 1 + 1 * n.val
    omega

/-- Word `j` of a task's index slice lies inside the index array. -/
theorem off1_lt (L : grid3.Coords) (j : ℕ) (hj : j < 512) : (k3_off1 L) 0 + j < 16384 := by
  have h : (k3_off1 L) 0 + 512 ≤ 16384 := k3_off1_inb L 0
  omega

/-- After the first copy has put the task's 512 index words at the head of the index scratch, lane 0 of a 16-lane
    load of the scratch at offset `j < 512` is word `k3_off1 L + j` of the index array. -/
theorem sidx_word (g0 : S528.Idx → Elt F .i32) (ids : S16384.Idx → Elt F .i32) (L : grid3.Coords) (j : ℕ) (hj : j < 512)
    (off : Fin 1 → ℕ) (h : ∀ a, off a + S16.size a ≤ S528.size a) (e : off = ![j]) :
    extractAt ![0] (extractStridedSlice (s := S16) S1 ![0]
      (((Memref.whole cc3_scratch0 : Memref sig .scVector .vmem S528 .i32).view.readAt (Elt F)
          (Rect.unit (s := S528) off S16.size h).toLoadRect
          ((Memref.whole cc3_scratch0 : Memref sig .scVector .vmem S528 .i32).view.writes (Elt F) g0
            [⟨Rect.unit (s := S528) ![0] S512.size inb_S528_S512_0,
              (ReadAs.same : ReadAs (Elt F) S512 .i32 S512 .i32).apply
                ((idsV.slice (Rect.unit (s := S16384) (k3_off1 L) S512.size (k3_off1_inb L)) (fun _ => rfl)).view.read (Elt F) ids)⟩]) :
        Vec F S16 .i32))
      slices_S16_o0_S1) inpos_S1_p0
    = ids (ix1 ⟨(k3_off1 L) 0 + j, off1_lt L j hj⟩) := by
  subst e
  refine (lane0_eq _).trans ?_
  have hidx : (Rect.unit (s := S528) ![j] S16.size h).toLoadRect.idx (ix1 (0 : Fin 16))
      = (Rect.unit (s := S528) ![0] S512.size inb_S528_S512_0).emb (ix1 (⟨j, hj⟩ : Fin 512)) := by
    funext a
    match a with
    | ⟨0, _⟩ =>
      refine Fin.ext ?_
      show j + 1 * 0 = 0 + 1 * j
      omega
  show View.read (Elt F) _ _ ((Rect.unit (s := S528) ![j] S16.size h).toLoadRect.idx (ix1 (0 : Fin 16))) = _
  rw [hidx, View.read_writes_cons_emb]
  show View.read (Elt F) (idsV.slice (Rect.unit (s := S16384) (k3_off1 L) S512.size (k3_off1_inb L)) (fun _ => rfl)).view ids
    (ix1 (⟨j, hj⟩ : Fin 512)) = _
  rw [View.read_apply]
  refine (eq_of_heq (cast_heq _ _)).trans (congrArg ids (funext fun a => ?_))
  match a with
  | ⟨0, _⟩ =>
    refine Fin.ext ?_
    show (k3_off1 L) 0 + 1 * j = (k3_off1 L) 0 + j
    omega

end Cert.Proof.Block3B

end
-- ==== Proof.BlockBodyC3B.lean ====
/-
  (The kernel's second use: the ring's read tokens are numbered after the ring's semaphores, 19 … 26, so the table's
  share is cut into 27 tokens of which the first 19 are carried through untouched.)

  The task of one vector subcore in the block-gather kernel, as a weakest-precondition entailment over explicit
  resources: the three operand arrays at a read share, the task's block of the output, the subcore's scratch and
  semaphores. The task copies its 512 index words and the tail, starts the ring's eight copies from eight read tokens
  of the table, runs the 512 trips by the loop's invariant, and writes the columns out; it ends holding what it was
  handed, its block of the output rewritten to `E` of the operands.
-/
import proofs.«204991_g57140244906297_cont_9to1_m_249_19_alg».proof.Proof.BlockInvC3B
import proofs.«204991_g57140244906297_cont_9to1_m_249_19_alg».proof.Proof.BlockTrip0C3B
import proofs.«204991_g57140244906297_cont_9to1_m_249_19_alg».proof.Proof.BlockTrip1C3B
import proofs.«204991_g57140244906297_cont_9to1_m_249_19_alg».proof.Proof.BlockTrip2C3B
import proofs.«204991_g57140244906297_cont_9to1_m_249_19_alg».proof.Proof.BlockTrip3C3B
import proofs.«204991_g57140244906297_cont_9to1_m_249_19_alg».proof.Proof.BlockTrip4C3B
import proofs.«204991_g57140244906297_cont_9to1_m_249_19_alg».proof.Proof.BlockTrip5C3B
import proofs.«204991_g57140244906297_cont_9to1_m_249_19_alg».proof.Proof.BlockTrip6C3B
import proofs.«204991_g57140244906297_cont_9to1_m_249_19_alg».proof.Proof.BlockTrip7C3B
import proofs.«204991_g57140244906297_cont_9to1_m_249_19_alg».proof.Proof.BlockEndsC3B
import proofs.«204991_g57140244906297_cont_9to1_m_249_19_alg».proof.Proof.BlockEnds2C3B
import proofs.«204991_g57140244906297_cont_9to1_m_249_19_alg».proof.Proof.Gen.Kernel.Skeleton

noncomputable section

namespace Cert.Proof.Block3B

open Cert.Kernel Cert.Kernel.Gen
open Cert.Proof.BlockB
open Cert.Proof.KernelC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 4) (Elt F) ℕ UU ℕ

set_option maxHeartbeats 16000000 in
theorem body (m : (ℓ : Loc nD τ sig) → Buf (Elt F) ℓ) (d : Dev nD) (L : grid3.Coords)
    (O : CellTallies nD τ sig (HIx 4)) (W : Waits sig (HIx 4)) (hO : ∀ g, O g none = 0)
    (f0 : Buf (Elt F) (outLoc d)) (q : PosShare TreeShare) :
    iprop(levAts (K (F := F)).L (K (F := F)).lev
        ∗ ((idsLoc d ↦{q} m (idsLoc d)) ∗ (ttLoc d ↦{q} m (ttLoc d)) ∗ (tailLoc d ↦{q} m (tailLoc d)))
        ∗ (outLoc d ↦[outSet L]{fullShare} f0)
        ∗ scopedBufs (thr d L) ∗ scopedSems0 (thr d L) ∗ owes (thr d L) O W)
      ⊢ (wp frame (wpE (defs₀ (F := F)) 𝒱₀ (thr d L) none) Set.univ
          (cc3_block_gather L idsV (Memref.isWhole_whole _) ttV (Memref.isWhole_whole _) tailV (Memref.isWhole_whole _)
            outV (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            (Memref.whole cc3_scratch4) (Memref.isWhole_whole _) (Memref.whole cc3_scratch5) (Memref.isWhole_whole _)
            (Memref.whole cc3_scratch6) (Memref.isWhole_whole _) (Memref.whole cc3_scratch7) (Memref.isWhole_whole _)
            (Memref.whole cc3_scratch8) (Memref.isWhole_whole _) (Memref.whole cc3_scratch9) (Memref.isWhole_whole _)
            (Memref.whole cc3_scratch10) (Memref.isWhole_whole _)
            cc3_scratch11 cc3_scratch12 cc3_scratch13 cc3_scratch14 cc3_scratch15 cc3_scratch16 cc3_scratch17 cc3_scratch18
            cc3_scratch19 cc3_scoped0 cc3_scoped1)
          fun _ => iprop(((idsLoc d ↦{q} m (idsLoc d)) ∗ (ttLoc d ↦{q} m (ttLoc d)) ∗ (tailLoc d ↦{q} m (tailLoc d)))
            ∗ (outLoc d ↦[outSet L]{fullShare} E (m (idsLoc d)) (m (ttLoc d)) (m (tailLoc d)))
            ∗ scopedBufs (thr d L) ∗ scopedSems0 (thr d L)
            ∗ ∃ W', ⌜∀ p ∈ W', p ∈ W ∨ p.2 = none⌝ ∗ owes (thr d L) O W') : sProp 𝕄) := by
  simp only [cc3_block_gather_eq_skeleton]; unfold cc3_block_gather_skel
  rw [(K (F := F)).scopedBufs_V facts d (cV L) (jV L), SparseCore.Cfg.scopedSems0_V (Val := Elt F) d (cV L) (jV L),
    ownSems0_open, ownBufs_open]
  simp only [semList, bufList, List.map, List.foldr]
  iintro ⟨#Hlv, ⟨Hids, Htt, Htail⟩, Hout, ⟨⟨%g0, Hb0⟩, ⟨%g1, Hb1⟩, ⟨%g2, Hb2⟩, ⟨%g3, Hb3⟩, ⟨%g4, Hb4⟩, ⟨%g5, Hb5⟩, ⟨%g6, Hb6⟩,
    ⟨%g7, Hb7⟩, ⟨%g8, Hb8⟩, ⟨%g9, Hb9⟩, ⟨%g10, Hb10⟩, Hbrest⟩,
    ⟨Hs11, Hs12, Hs13, Hs14, Hs15, Hs16, Hs17, Hs18, Hs19, Hsc0, Hsc1, Hsrest⟩, HO⟩
  ihave Hmw := ((K (F := F)).mayWaits_none (thr := thr d L) hO) $$ Hlv
  ihave Hids := (Entails.of_eq (pts_ids (F := F) d L q _)) $$ Hids
  ihave Htt := (Entails.of_eq (pts_tt (F := F) d L q _)) $$ Htt
  ihave Htail := (Entails.of_eq (pts_tail (F := F) d L q _)) $$ Htail
  ihave Hout := (Entails.of_eq (pts_out (F := F) d L _)) $$ Hout
  ihave Hb0 := (Entails.of_eq (pts_scr (F := F) d L cc3_scratch0 _)) $$ Hb0
  ihave Hb1 := (Entails.of_eq (pts_scr (F := F) d L cc3_scratch1 _)) $$ Hb1
  ihave Hb2 := (Entails.of_eq (pts_scr (F := F) d L cc3_scratch2 _)) $$ Hb2
  ihave Hb3 := (Entails.of_eq (pts_scr (F := F) d L cc3_scratch3 _)) $$ Hb3
  ihave Hb4 := (Entails.of_eq (pts_scr (F := F) d L cc3_scratch4 _)) $$ Hb4
  ihave Hb5 := (Entails.of_eq (pts_scr (F := F) d L cc3_scratch5 _)) $$ Hb5
  ihave Hb6 := (Entails.of_eq (pts_scr (F := F) d L cc3_scratch6 _)) $$ Hb6
  ihave Hb7 := (Entails.of_eq (pts_scr (F := F) d L cc3_scratch7 _)) $$ Hb7
  ihave Hb8 := (Entails.of_eq (pts_scr (F := F) d L cc3_scratch8 _)) $$ Hb8
  ihave Hb9 := (Entails.of_eq (pts_scr (F := F) d L cc3_scratch9 _)) $$ Hb9
  ihave Hb10 := (Entails.of_eq (pts_scr (F := F) d L cc3_scratch10 _)) $$ Hb10
  ihave Htt := (Transfers.pointsTo_toks_range (S := Finset.univ) q 27).1 $$ Htt
  icases Htt with ⟨Httd, Htoks⟩
  ihave Htoks := (Entails.of_eq (bigSep_range27 _)) $$ Htoks
  icases Htoks with ⟨Hu0, Hu1, Hu2, Hu3, Hu4, Hu5, Hu6, Hu7, Hu8, Hu9, Hu10, Hu11, Hu12, Hu13, Hu14, Hu15, Hu16, Hu17, Hu18, Hk0, Hk1, Hk2, Hk3, Hk4, Hk5, Hk6, Hk7, -⟩
  (set_option sl_exec.maxSteps 4 in sl_exec)
  -- the index scratch and the tail as loaded, named
  generalize hfs : ((Memref.whole cc3_scratch0 : Memref sig .scVector .vmem S528 .i32).view.writes (Elt F) g0 _) = fs
  generalize hft : (View.write (Elt F) (Memref.whole cc3_scratch9 : Memref sig .scVector .vmem S2048 .f32).view g9 _ Finset.univ) = ft
  sl_exec (disch := exact blk_ok _)
  sl_for (inv m d L q O W fs ft (colsDone m d fs ft)) $$ [Hmw Hb0 Hb9 Hb10 Hs11 Hk0 Hs12 Hk1 Hs13 Hk2 Hs14 Hk3 Hs15 Hk4 Hs16 Hk5 Hs17 Hk6 Hs18 Hk7 HO]
  case region =>
    intro k u
    rcases (show k.val % 8 = 0 ∨ k.val % 8 = 1 ∨ k.val % 8 = 2 ∨ k.val % 8 = 3 ∨ k.val % 8 = 4 ∨ k.val % 8 = 5 ∨ k.val % 8 = 6 ∨ k.val % 8 = 7 by omega)
      with hres | hres | hres | hres | hres | hres | hres | hres
    · exact trip0 m d L q O W fs ft k u hres
    · exact trip1 m d L q O W fs ft k u hres
    · exact trip2 m d L q O W fs ft k u hres
    · exact trip3 m d L q O W fs ft k u hres
    · exact trip4 m d L q O W fs ft k u hres
    · exact trip5 m d L q O W fs ft k u hres
    · exact trip6 m d L q O W fs ft k u hres
    · exact trip7 m d L q O W fs ft k u hres

  · unfold inv
    isplitr; · iexact Hmw
    isplitl [Hb0]; · iexact Hb0
    isplitl [Hb9]; · iexact Hb9
    isplitl [Hb10]
    · iexists g10; isplitl [Hb10]; · iexact Hb10
      ipureintro; intro r n hn; omega
    isplitl [Hs11 Hk0]
    · iapply (Entails.of_eq (slotAt_zero m d L q fs _ _ 0 (by omega)).symm)
      unfold slot
      isplitl [Hs11]; · iexists g1; iexact Hs11
      iexact Hk0
    isplitl [Hs12 Hk1]
    · iapply (Entails.of_eq (slotAt_zero m d L q fs _ _ 1 (by omega)).symm)
      unfold slot
      isplitl [Hs12]; · iexists g2; iexact Hs12
      iexact Hk1
    isplitl [Hs13 Hk2]
    · iapply (Entails.of_eq (slotAt_zero m d L q fs _ _ 2 (by omega)).symm)
      unfold slot
      isplitl [Hs13]; · iexists g3; iexact Hs13
      iexact Hk2
    isplitl [Hs14 Hk3]
    · iapply (Entails.of_eq (slotAt_zero m d L q fs _ _ 3 (by omega)).symm)
      unfold slot
      isplitl [Hs14]; · iexists g4; iexact Hs14
      iexact Hk3
    isplitl [Hs15 Hk4]
    · iapply (Entails.of_eq (slotAt_zero m d L q fs _ _ 4 (by omega)).symm)
      unfold slot
      isplitl [Hs15]; · iexists g5; iexact Hs15
      iexact Hk4
    isplitl [Hs16 Hk5]
    · iapply (Entails.of_eq (slotAt_zero m d L q fs _ _ 5 (by omega)).symm)
      unfold slot
      isplitl [Hs16]; · iexists g6; iexact Hs16
      iexact Hk5
    isplitl [Hs17 Hk6]
    · iapply (Entails.of_eq (slotAt_zero m d L q fs _ _ 6 (by omega)).symm)
      unfold slot
      isplitl [Hs17]; · iexists g7; iexact Hs17
      iexact Hk6
    isplitl [Hs18 Hk7]
    · iapply (Entails.of_eq (slotAt_zero m d L q fs _ _ 7 (by omega)).symm)
      unfold slot
      isplitl [Hs18]; · iexists g8; iexact Hs18
      iexact Hk7
    iexists _; isplitr
    swap
    · iexact HO
    · ipureintro; intro p hp
      rcases Finset.mem_insert.mp hp with hp | hp
      · right; rw [hp]; rfl
      rcases Finset.mem_insert.mp hp with hp | hp
      · right; rw [hp]; rfl
      · exact .inl hp
  iintro %u HI
  have htrips : Scf.trips k3_t1_loop.lb k3_t1_loop.ub k3_t1_loop.st = 512 := by decide
  ihave HI := (Entails.of_eq ((congrArg (fun n => inv m d L q O W fs ft (colsDone m d fs ft) n u) htrips).trans (inv_end m d L q O W fs ft _ u))) $$ HI
  unfold slotIdle
  icases HI with ⟨-, Hb0, Hb9, ⟨%fc, Hb10, %hfc⟩, ⟨⟨%r1, Hb1⟩, Hs11, Hk0⟩, ⟨⟨%r2, Hb2⟩, Hs12, Hk1⟩, ⟨⟨%r3, Hb3⟩, Hs13, Hk2⟩,
    ⟨⟨%r4, Hb4⟩, Hs14, Hk3⟩, ⟨⟨%r5, Hb5⟩, Hs15, Hk4⟩, ⟨⟨%r6, Hb6⟩, Hs16, Hk5⟩, ⟨⟨%r7, Hb7⟩, Hs17, Hk6⟩, ⟨⟨%r8, Hb8⟩, Hs18, Hk7⟩,
    ⟨%W', %hW', HO⟩⟩
  sl_exec
  sl_step
  isplitl [Hids Httd Hu0 Hu1 Hu2 Hu3 Hu4 Hu5 Hu6 Hu7 Hu8 Hu9 Hu10 Hu11 Hu12 Hu13 Hu14 Hu15 Hu16 Hu17 Hu18 Hk0 Hk1 Hk2 Hk3 Hk4 Hk5 Hk6 Hk7 Htail]
  · isplitl [Hids]; · iexact Hids
    isplitr [Htail]
    · iapply (Transfers.pointsTo_toks_range (S := Finset.univ) q 27).2
      isplitl [Httd]; · iexact Httd
      iapply (Entails.of_eq (bigSep_range27 _).symm)
      isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      isplitl [Hu7]; · iexact Hu7
      isplitl [Hu8]; · iexact Hu8
      isplitl [Hu9]; · iexact Hu9
      isplitl [Hu10]; · iexact Hu10
      isplitl [Hu11]; · iexact Hu11
      isplitl [Hu12]; · iexact Hu12
      isplitl [Hu13]; · iexact Hu13
      isplitl [Hu14]; · iexact Hu14
      isplitl [Hu15]; · iexact Hu15
      isplitl [Hu16]; · iexact Hu16
      isplitl [Hu17]; · iexact Hu17
      isplitl [Hu18]; · iexact Hu18
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      iempintro
    · iexact Htail
  isplitl [Hout]
  · have hfsI : ∀ (j : ℕ) (hj : j < 512), wAt fs j = m (idsLoc d) (ix1 ⟨(k3_off1 L) 0 + j, off1_lt L j hj⟩) := by
      intro j hj
      rw [← hfs]
      unfold wAt
      rw [dif_pos hj]
      exact sidx_word g0 (m (idsLoc d)) L j hj ![j] (off_inb j hj) rfl
    have hftI : ft = m (tailLoc d) := by
      rw [← hft]
      exact tail_copy g9 (m (tailLoc d))
    have hout : ∀ i ∈ (outBlk L).view.set, (outBlk L).view.writes (Elt F) f0 [⟨Rect.whole S32x512, body.sl.dma0_2 fc⟩] i
        = E (m (idsLoc d)) (m (ttLoc d)) (m (tailLoc d)) i := by
      refine out_value f0 fc _ L (fun r n => ?_)
      have hw : wAt fs n.val = m (idsLoc d) (ix1 ⟨(k3_off27 L) 1 + n.val, off27_lt L n⟩) := by
        refine (hfsI n.val n.isLt).trans ?_
        have e : (⟨(k3_off1 L) 0 + n.val, off1_lt L n.val n.isLt⟩ : Fin 16384) = ⟨(k3_off27 L) 1 + n.val, off27_lt L n⟩ :=
          Fin.ext (by show (k3_off1 L) 0 + n.val = (k3_off27 L) 1 + n.val; rw [off1_eq_off27])
        rw [e]
      rw [hfc r n n.isLt, colVal_eq0 m d fs ft r n.val _ hw, hftI]
      rfl
    iapply (Entails.of_eq (pointsTo_congr hout))
    iexact Hout
  isplitl [Hb0 Hb1 Hb2 Hb3 Hb4 Hb5 Hb6 Hb7 Hb8 Hb9 Hb10 Hbrest]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    isplitl [Hb10]; · iexists _; iexact Hb10
    iexact Hbrest
  isplitl [Hs11 Hs12 Hs13 Hs14 Hs15 Hs16 Hs17 Hs18 Hs19 Hsc0 Hsc1 Hsrest]
  · isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hsc0]; · iexact Hsc0
    isplitl [Hsc1]; · iexact Hsc1
    iexact Hsrest
  iexists _; isplitr
  swap
  · iexact HO
  · ipureintro; intro p hp
    rcases Finset.mem_insert.mp hp with hp | hp
    · right; rw [hp]; rfl
    · exact hW' p hp

end Cert.Proof.Block3B

end
-- ==== Proof.BodiesB.lean ====
/-
  The four tasks' bodies, gathered: each is the task's own module's theorem.
-/
import proofs.«204991_g57140244906297_cont_9to1_m_249_19_alg».proof.Proof.TileObl0B
import proofs.«204991_g57140244906297_cont_9to1_m_249_19_alg».proof.Proof.TileObl1B
import proofs.«204991_g57140244906297_cont_9to1_m_249_19_alg».proof.Proof.TileObl2B
import proofs.«204991_g57140244906297_cont_9to1_m_249_19_alg».proof.Proof.TileObl3B
import proofs.«204991_g57140244906297_cont_9to1_m_249_19_alg».proof.Proof.BlockBodyB
import proofs.«204991_g57140244906297_cont_9to1_m_249_19_alg».proof.Proof.PackedBodyB
import proofs.«204991_g57140244906297_cont_9to1_m_249_19_alg».proof.Proof.PackedBody2B
import proofs.«204991_g57140244906297_cont_9to1_m_249_19_alg».proof.Proof.BlockBodyC3B

noncomputable section

namespace Cert.Proof.KernelC

open Cert.Kernel Cert.Kernel.Gen
open Idealize.ShloMosaic

variable {F : FTy → Type} [FloatOps F]

theorem body0 : Body0 (F := F) := BlockB.body
theorem body1 : Body1 (F := F) := PackedB.body
theorem body2 : Body2 (F := F) := PackedB.body2
theorem body3 : Body3 (F := F) := Block3B.body

end Cert.Proof.KernelC

end
-- ==== Proof.LibTypedRef.lean ====
/-
  An inlined call's operations are the plain ones, no program in sight.

  A called function's host operations name their buffers by references that CARRY the tensor type of the value they hold,
  and move the operation's function to the buffers' own types along the equation "the buffer's type is the carried
  type". When that equation is the identity — which it is at every literal reference — the typed operation IS the plain
  builder's at the same buffers with the same function. The proof destructures each typed reference so that the carried
  type becomes, literally, the buffer's type: the transports are then along reflexivity and disappear. The function is
  given twice, at the two spellings of its type (over the carried types, over the buffers' types), and the two are
  related by heterogeneous equality; at literal references that relation is reflexivity, because the two types compute
  to the same one.

  Why bother: a fold of many operations read at a buffer contains one transport per typed operand, and comparing such a
  term with a transport-free one makes the checker recompute a buffer's type from the signature's tables at every
  transport, nested. Entry by entry the same facts cost one such computation per operand. So a list of operations is
  first rewritten, entry by entry, to its plain spelling (the tactic at the end), and only then folded.
-/
import Idealize.ShloMosaic.Lib.StableHlo

namespace Cert.LibTypedRef

open Idealize.ShloMosaic Idealize.ShloMosaic.StableHlo

variable {τ : Topo} {sig : RefSig} {Val : EltTy → Type} {Tx Ta Tb Tc Ty : BufTy}

/-- A typed constant-like operation is the plain one at its buffer, for the same value. -/
theorem tnullary_eq (y : TRef sig Ty) (v : Ty.Contents Val) (w : y.ref.ty.Contents Val) (h : HEq v w) :
    (TRef.nullary y v : HloOp τ sig Val) = StableHlo.nullary y.ref w y.dev := by
  obtain ⟨y, rfl, _, _⟩ := y
  cases h; rfl

/-- A typed one-operand operation is the plain one at its buffers, for the same function. -/
theorem tunary_eq (x : TRef sig Tx) (y : TRef sig Ty) (f : Tx.Contents Val → Ty.Contents Val)
    (g : x.ref.ty.Contents Val → y.ref.ty.Contents Val) (h : HEq f g) :
    (TRef.unary x y f : HloOp τ sig Val) = StableHlo.unary x.ref y.ref g x.dev y.dev := by
  obtain ⟨x, rfl, _, _⟩ := x
  obtain ⟨y, rfl, _, _⟩ := y
  cases h; rfl

/-- A typed two-operand operation is the plain one at its buffers, for the same function. -/
theorem tbinary_eq (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    (TRef.binary a b y f : HloOp τ sig Val) = StableHlo.binary a.ref b.ref y.ref g a.dev b.dev y.dev := by
  obtain ⟨a, rfl, _, _⟩ := a
  obtain ⟨b, rfl, _, _⟩ := b
  obtain ⟨y, rfl, _, _⟩ := y
  cases h; rfl

/-- A typed three-operand operation is the plain one at its buffers, for the same function. -/
theorem tternary_eq (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    (TRef.ternary c a b y f : HloOp τ sig Val)
      = StableHlo.ternary c.ref a.ref b.ref y.ref g c.dev a.dev b.dev y.dev := by
  obtain ⟨c, rfl, _, _⟩ := c
  obtain ⟨a, rfl, _, _⟩ := a
  obtain ⟨b, rfl, _, _⟩ := b
  obtain ⟨y, rfl, _, _⟩ := y
  cases h; rfl

/-- Two literal lists of operations are equal entry by entry: an entry spelt the same on both sides by reflexivity
    (at reducible transparency, so that a typed entry is never compared with a plain one by computation), a typed
    operation against its plain spelling by the four lemmas above. Closes `[e₁, …, eₙ] = [p₁, …, pₙ]`. -/
macro "ops_entries" : tactic =>
  `(tactic| repeat (first
      | refine congrArg₂ List.cons (by first
          | with_reducible rfl
          | exact Cert.LibTypedRef.tnullary_eq _ _ _ HEq.rfl
          | exact Cert.LibTypedRef.tunary_eq _ _ _ _ HEq.rfl
          | exact Cert.LibTypedRef.tbinary_eq _ _ _ _ _ HEq.rfl
          | exact Cert.LibTypedRef.tternary_eq _ _ _ _ _ _ HEq.rfl) ?_
      | exact rfl))

end Cert.LibTypedRef
-- ==== Proof.RefOps.lean ====
/-
  The reference program as a straight line of host operations.

  The reference gathers rows of four tables through an outlined lookup function (called four times, at three table
  sizes), which itself calls an outlined select. Unfolding the calls at their sites gives one line of 98 operations:
  per lookup, twenty-three (the wrap of negative indices: a comparison with zero, the table size added, the select; the
  index column; the range mask: two comparisons, their conjunction, its reduction along the unit axis; the row gather;
  the mask broadcast over the columns; the fill value and its broadcast; the final select), then the concatenation of
  the four lookups along the columns, the transposed weights, the contraction, the bias broadcast twice, and the sum.

  The line is stated twice: over the typed references the outlined functions use, which is what the program unfolds to,
  and over the plain buffers; the two lists are equal entry by entry.
-/
import proofs.«204991_g57140244906297_cont_9to1_m_249_19_alg».proof.ReferenceIdeal
import Idealize.ShloMosaic.Lib.StableHlo.Run
import proofs.«204991_g57140244906297_cont_9to1_m_249_19_alg».proof.Proof.LibTypedRef

set_option synthInstance.maxSize 4096

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- One lookup over a table of 1000000 rows, as a line of twenty-three operations over the call's buffers. -/
abbrev takeOpsT (arg0 : TRef sig ⟨S1000000x32, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 1000000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 999999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S1000000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The lookup function's body is that line: the select it calls unfolded, sequencing reassociated. -/
theorem take_eq (arg0 : TRef sig ⟨S1000000x32, .f32⟩) (arg1 : TRef sig ⟨S16384, .i32⟩) (φ : fn_take.Bufs) :
    fn_take.body (F := F) arg0 arg1 φ = seq (takeOpsT arg0 arg1 φ) := by
  simp only [fn_take.body, fn_where.body, seq, bind_assoc, pure_bind]

/-- One lookup over a table of 100000 rows, as a line of twenty-three operations over the call's buffers. -/
abbrev take0OpsT (arg0 : TRef sig ⟨S100000x32, .f32⟩) (arg1 : TRef sig ⟨S16384, .i32⟩) (φ : fn_take_0.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 100000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S100000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The lookup function's body is that line: the select it calls unfolded, sequencing reassociated. -/
theorem take0_eq (arg0 : TRef sig ⟨S100000x32, .f32⟩) (arg1 : TRef sig ⟨S16384, .i32⟩) (φ : fn_take_0.Bufs) :
    fn_take_0.body (F := F) arg0 arg1 φ = seq (take0OpsT arg0 arg1 φ) := by
  simp only [fn_take_0.body, fn_where.body, seq, bind_assoc, pure_bind]

/-- One lookup over a table of 1000 rows, as a line of twenty-three operations over the call's buffers. -/
abbrev take1OpsT (arg0 : TRef sig ⟨S1000x32, .f32⟩) (arg1 : TRef sig ⟨S16384, .i32⟩) (φ : fn_take_1.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 1000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S1000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The lookup function's body is that line: the select it calls unfolded, sequencing reassociated. -/
theorem take1_eq (arg0 : TRef sig ⟨S1000x32, .f32⟩) (arg1 : TRef sig ⟨S16384, .i32⟩) (φ : fn_take_1.Bufs) :
    fn_take_1.body (F := F) arg0 arg1 φ = seq (take1OpsT arg0 arg1 φ) := by
  simp only [fn_take_1.body, fn_where.body, seq, bind_assoc, pure_bind]

/-- What follows the four lookups: the concatenation, the transposed weights, the contraction, the bias broadcast twice, the sum. -/
abbrev tailOps : List (HloOp τ sig (Elt F)) :=
  [ nary ![main_v0, main_v1, main_v2, main_v3] main_v4 (fun u => concatenate S16384x128 1 [⟨S16384x32, u 0⟩, ⟨S16384x32, u 1⟩, ⟨S16384x32, u 2⟩, ⟨S16384x32, u 3⟩] concatenates_S16384x32_S16384x32_S16384x32_S16384x32_S16384x128_d1),
    unary main_arg8 main_v5 ((transpose S128x64 [1, 0] · transposes_S64x128_S128x64_1_0) : (⟨S64x128, .f32⟩ : BufTy).Contents (Elt F) → (⟨S128x64, .f32⟩ : BufTy).Contents (Elt F)),
    binary main_v4 main_v5 main_v6 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg9 main_v7 (broadcastInDim S1x64 ![1] bcast_S64_S1x64_1 : (⟨S64, .f32⟩ : BufTy).Contents (Elt F) → (⟨S1x64, .f32⟩ : BufTy).Contents (Elt F)),
    unary main_v7 main_v8 (broadcastInDim S16384x64 ![0, 1] bcast_S1x64_S16384x64_0_1 : (⟨S1x64, .f32⟩ : BufTy).Contents (Elt F) → (⟨S16384x64, .f32⟩ : BufTy).Contents (Elt F)),
    binary main_v6 main_v8 main_v9 (addf : (⟨S16384x64, .f32⟩ : BufTy).Contents (Elt F) → (⟨S16384x64, .f32⟩ : BufTy).Contents (Elt F) → (⟨S16384x64, .f32⟩ : BufTy).Contents (Elt F)) ]

/-- @main's operations in order, the calls unfolded, over the typed references of the outlined functions. -/
abbrev opsT : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg4) main_call0.v5 main_call0.v13 (fun x i => Host.gather gather_S1000000x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg5) main_call1.v5 main_call1.v13 (fun x i => Host.gather gather_S100000x32_S16384x1_S16384x32_1_0_n_n_0_1_132 x i),
    TRef.unary main_call1.v12 main_call1.v14 (broadcastInDim S16384x32 ![0] bcast_S16384_S16384x32_0),
    TRef.nullary main_call1.cst (constant S_ .f32 0x7FC00000#32),
    TRef.unary main_call1.cst main_call1.v15 (broadcastInDim S16384x32 ![] bcast_S_S16384x32),
    TRef.ternary main_call1.v14 main_call1.v13 main_call1.v15 main_call1.v16 select,
    TRef.nullary main_call2.c (constantI S_ 32 0#32),
    TRef.unary main_call2.c main_call2.v0 (broadcastInDim S16384 ![] bcast_S_S16384),
    TRef.binary (.of main_arg2) main_call2.v0 main_call2.v1 (cmpi .slt),
    TRef.nullary main_call2.c_0 (constantI S_ 32 1000#32),
    TRef.unary main_call2.c_0 main_call2.v2 (broadcastInDim S16384 ![] bcast_S_S16384),
    TRef.binary (.of main_arg2) main_call2.v2 main_call2.v3 addi,
    TRef.ternary main_call2.v1 main_call2.v3 (.of main_arg2) main_call2.call0.v0 select,
    TRef.unary main_call2.call0.v0 main_call2.v5 (broadcastInDim S16384x1 ![0] bcast_S16384_S16384x1_0),
    TRef.nullary main_call2.c_1 (constantI S1 32 999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg6) main_call2.v5 main_call2.v13 (fun x i => Host.gather gather_S1000x32_S16384x1_S16384x32_1_0_n_n_0_1_132 x i),
    TRef.unary main_call2.v12 main_call2.v14 (broadcastInDim S16384x32 ![0] bcast_S16384_S16384x32_0),
    TRef.nullary main_call2.cst (constant S_ .f32 0x7FC00000#32),
    TRef.unary main_call2.cst main_call2.v15 (broadcastInDim S16384x32 ![] bcast_S_S16384x32),
    TRef.ternary main_call2.v14 main_call2.v13 main_call2.v15 main_call2.v16 select,
    TRef.nullary main_call3.c (constantI S_ 32 0#32),
    TRef.unary main_call3.c main_call3.v0 (broadcastInDim S16384 ![] bcast_S_S16384),
    TRef.binary (.of main_arg3) main_call3.v0 main_call3.v1 (cmpi .slt),
    TRef.nullary main_call3.c_0 (constantI S_ 32 1000000#32),
    TRef.unary main_call3.c_0 main_call3.v2 (broadcastInDim S16384 ![] bcast_S_S16384),
    TRef.binary (.of main_arg3) main_call3.v2 main_call3.v3 addi,
    TRef.ternary main_call3.v1 main_call3.v3 (.of main_arg3) main_call3.call0.v0 select,
    TRef.unary main_call3.call0.v0 main_call3.v5 (broadcastInDim S16384x1 ![0] bcast_S16384_S16384x1_0),
    TRef.nullary main_call3.c_1 (constantI S1 32 999999#32),
    TRef.nullary main_call3.c_2 (constantI S_ 32 0#32),
    TRef.unary main_call3.c_2 main_call3.v6 (broadcastInDim S16384x1 ![] bcast_S_S16384x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S16384x1 ![0, 1] bcast_S1x1_S16384x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S16384x1_S16384_d1 h_S_),
    TRef.binary (.of main_arg7) main_call3.v5 main_call3.v13 (fun x i => Host.gather gather_S1000000x32_S16384x1_S16384x32_1_0_n_n_0_1_132 x i),
    TRef.unary main_call3.v12 main_call3.v14 (broadcastInDim S16384x32 ![0] bcast_S16384_S16384x32_0),
    TRef.nullary main_call3.cst (constant S_ .f32 0x7FC00000#32),
    TRef.unary main_call3.cst main_call3.v15 (broadcastInDim S16384x32 ![] bcast_S_S16384x32),
    TRef.ternary main_call3.v14 main_call3.v13 main_call3.v15 main_call3.v16 select,
    nary ![main_v0, main_v1, main_v2, main_v3] main_v4 (fun u => concatenate S16384x128 1 [⟨S16384x32, u 0⟩, ⟨S16384x32, u 1⟩, ⟨S16384x32, u 2⟩, ⟨S16384x32, u 3⟩] concatenates_S16384x32_S16384x32_S16384x32_S16384x32_S16384x128_d1),
    unary main_arg8 main_v5 ((transpose S128x64 [1, 0] · transposes_S64x128_S128x64_1_0) : (⟨S64x128, .f32⟩ : BufTy).Contents (Elt F) → (⟨S128x64, .f32⟩ : BufTy).Contents (Elt F)),
    binary main_v4 main_v5 main_v6 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg9 main_v7 (broadcastInDim S1x64 ![1] bcast_S64_S1x64_1 : (⟨S64, .f32⟩ : BufTy).Contents (Elt F) → (⟨S1x64, .f32⟩ : BufTy).Contents (Elt F)),
    unary main_v7 main_v8 (broadcastInDim S16384x64 ![0, 1] bcast_S1x64_S16384x64_0_1 : (⟨S1x64, .f32⟩ : BufTy).Contents (Elt F) → (⟨S16384x64, .f32⟩ : BufTy).Contents (Elt F)),
    binary main_v6 main_v8 main_v9 (addf : (⟨S16384x64, .f32⟩ : BufTy).Contents (Elt F) → (⟨S16384x64, .f32⟩ : BufTy).Contents (Elt F) → (⟨S16384x64, .f32⟩ : BufTy).Contents (Elt F)) ]

/-- The same operations over the plain buffers. -/
abbrev ops : List (HloOp τ sig (Elt F)) :=
  [ nullary main_call0_c (constantI S_ 32 0#32 : (⟨S_, .i32⟩ : BufTy).Contents (Elt F)),
    unary main_call0_c main_call0_v0 (broadcastInDim S16384 ![] bcast_S_S16384 : (⟨S_, .i32⟩ : BufTy).Contents (Elt F) → (⟨S16384, .i32⟩ : BufTy).Contents (Elt F)),
    binary main_arg0 main_call0_v0 main_call0_v1 (cmpi .slt : (⟨S16384, .i32⟩ : BufTy).Contents (Elt F) → (⟨S16384, .i32⟩ : BufTy).Contents (Elt F) → (⟨S16384, .i1⟩ : BufTy).Contents (Elt F)),
    nullary main_call0_c_0 (constantI S_ 32 1000000#32 : (⟨S_, .i32⟩ : BufTy).Contents (Elt F)),
    unary main_call0_c_0 main_call0_v2 (broadcastInDim S16384 ![] bcast_S_S16384 : (⟨S_, .i32⟩ : BufTy).Contents (Elt F) → (⟨S16384, .i32⟩ : BufTy).Contents (Elt F)),
    binary main_arg0 main_call0_v2 main_call0_v3 (addi : (⟨S16384, .i32⟩ : BufTy).Contents (Elt F) → (⟨S16384, .i32⟩ : BufTy).Contents (Elt F) → (⟨S16384, .i32⟩ : BufTy).Contents (Elt F)),
    ternary main_call0_v1 main_call0_v3 main_arg0 main_call0_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call0_v4 main_call0_v5 (broadcastInDim S16384x1 ![0] bcast_S16384_S16384x1_0 : (⟨S16384, .i32⟩ : BufTy).Contents (Elt F) → (⟨S16384x1, .i32⟩ : BufTy).Contents (Elt F)),
    nullary main_call0_c_1 (constantI S1 32 999999#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x1 ![] bcast_S_S16384x1 : (⟨S_, .i32⟩ : BufTy).Contents (Elt F) → (⟨S16384x1, .i32⟩ : BufTy).Contents (Elt F)),
    binary main_call0_v5 main_call0_v6 main_call0_v7 (cmpi .sge : (⟨S16384x1, .i32⟩ : BufTy).Contents (Elt F) → (⟨S16384x1, .i32⟩ : BufTy).Contents (Elt F) → (⟨S16384x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S16384x1 ![0, 1] bcast_S1x1_S16384x1_0_1 : (⟨S1x1, .i32⟩ : BufTy).Contents (Elt F) → (⟨S16384x1, .i32⟩ : BufTy).Contents (Elt F)),
    binary main_call0_v5 main_call0_v9 main_call0_v10 (cmpi .sle : (⟨S16384x1, .i32⟩ : BufTy).Contents (Elt F) → (⟨S16384x1, .i32⟩ : BufTy).Contents (Elt F) → (⟨S16384x1, .i1⟩ : BufTy).Contents (Elt F)),
    binary main_call0_v7 main_call0_v10 main_call0_v11 (andi : (⟨S16384x1, .i1⟩ : BufTy).Contents (Elt F) → (⟨S16384x1, .i1⟩ : BufTy).Contents (Elt F) → (⟨S16384x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg4 main_call0_v5 main_call0_v13 ((fun x i => Host.gather gather_S1000000x32_S16384x1_S16384x32_1_0_n_n_0_1_132 x i) : (⟨S1000000x32, .f32⟩ : BufTy).Contents (Elt F) → (⟨S16384x1, .i32⟩ : BufTy).Contents (Elt F) → (⟨S16384x32, .f32⟩ : BufTy).Contents (Elt F)),
    unary main_call0_v12 main_call0_v14 (broadcastInDim S16384x32 ![0] bcast_S16384_S16384x32_0 : (⟨S16384, .i1⟩ : BufTy).Contents (Elt F) → (⟨S16384x32, .i1⟩ : BufTy).Contents (Elt F)),
    nullary main_call0_cst (constant S_ .f32 0x7FC00000#32 : (⟨S_, .f32⟩ : BufTy).Contents (Elt F)),
    unary main_call0_cst main_call0_v15 (broadcastInDim S16384x32 ![] bcast_S_S16384x32 : (⟨S_, .f32⟩ : BufTy).Contents (Elt F) → (⟨S16384x32, .f32⟩ : BufTy).Contents (Elt F)),
    ternary main_call0_v14 main_call0_v13 main_call0_v15 main_v0 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)),
    nullary main_call1_c (constantI S_ 32 0#32 : (⟨S_, .i32⟩ : BufTy).Contents (Elt F)),
    unary main_call1_c main_call1_v0 (broadcastInDim S16384 ![] bcast_S_S16384 : (⟨S_, .i32⟩ : BufTy).Contents (Elt F) → (⟨S16384, .i32⟩ : BufTy).Contents (Elt F)),
    binary main_arg1 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 100000#32 : (⟨S_, .i32⟩ : BufTy).Contents (Elt F)),
    unary main_call1_c_0 main_call1_v2 (broadcastInDim S16384 ![] bcast_S_S16384 : (⟨S_, .i32⟩ : BufTy).Contents (Elt F) → (⟨S16384, .i32⟩ : BufTy).Contents (Elt F)),
    binary main_arg1 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_arg1 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 99999#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg5 main_call1_v5 main_call1_v13 ((fun x i => Host.gather gather_S100000x32_S16384x1_S16384x32_1_0_n_n_0_1_132 x i) : (⟨S100000x32, .f32⟩ : BufTy).Contents (Elt F) → (⟨S16384x1, .i32⟩ : BufTy).Contents (Elt F) → (⟨S16384x32, .f32⟩ : BufTy).Contents (Elt F)),
    unary main_call1_v12 main_call1_v14 (broadcastInDim S16384x32 ![0] bcast_S16384_S16384x32_0 : (⟨S16384, .i1⟩ : BufTy).Contents (Elt F) → (⟨S16384x32, .i1⟩ : BufTy).Contents (Elt F)),
    nullary main_call1_cst (constant S_ .f32 0x7FC00000#32 : (⟨S_, .f32⟩ : BufTy).Contents (Elt F)),
    unary main_call1_cst main_call1_v15 (broadcastInDim S16384x32 ![] bcast_S_S16384x32 : (⟨S_, .f32⟩ : BufTy).Contents (Elt F) → (⟨S16384x32, .f32⟩ : BufTy).Contents (Elt F)),
    ternary main_call1_v14 main_call1_v13 main_call1_v15 main_v1 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)),
    nullary main_call2_c (constantI S_ 32 0#32 : (⟨S_, .i32⟩ : BufTy).Contents (Elt F)),
    unary main_call2_c main_call2_v0 (broadcastInDim S16384 ![] bcast_S_S16384 : (⟨S_, .i32⟩ : BufTy).Contents (Elt F) → (⟨S16384, .i32⟩ : BufTy).Contents (Elt F)),
    binary main_arg2 main_call2_v0 main_call2_v1 (cmpi .slt : (⟨S16384, .i32⟩ : BufTy).Contents (Elt F) → (⟨S16384, .i32⟩ : BufTy).Contents (Elt F) → (⟨S16384, .i1⟩ : BufTy).Contents (Elt F)),
    nullary main_call2_c_0 (constantI S_ 32 1000#32 : (⟨S_, .i32⟩ : BufTy).Contents (Elt F)),
    unary main_call2_c_0 main_call2_v2 (broadcastInDim S16384 ![] bcast_S_S16384 : (⟨S_, .i32⟩ : BufTy).Contents (Elt F) → (⟨S16384, .i32⟩ : BufTy).Contents (Elt F)),
    binary main_arg2 main_call2_v2 main_call2_v3 (addi : (⟨S16384, .i32⟩ : BufTy).Contents (Elt F) → (⟨S16384, .i32⟩ : BufTy).Contents (Elt F) → (⟨S16384, .i32⟩ : BufTy).Contents (Elt F)),
    ternary main_call2_v1 main_call2_v3 main_arg2 main_call2_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call2_v4 main_call2_v5 (broadcastInDim S16384x1 ![0] bcast_S16384_S16384x1_0 : (⟨S16384, .i32⟩ : BufTy).Contents (Elt F) → (⟨S16384x1, .i32⟩ : BufTy).Contents (Elt F)),
    nullary main_call2_c_1 (constantI S1 32 999#32 : (⟨S1, .i32⟩ : BufTy).Contents (Elt F)),
    nullary main_call2_c_2 (constantI S_ 32 0#32 : (⟨S_, .i32⟩ : BufTy).Contents (Elt F)),
    unary main_call2_c_2 main_call2_v6 (broadcastInDim S16384x1 ![] bcast_S_S16384x1 : (⟨S_, .i32⟩ : BufTy).Contents (Elt F) → (⟨S16384x1, .i32⟩ : BufTy).Contents (Elt F)),
    binary main_call2_v5 main_call2_v6 main_call2_v7 (cmpi .sge : (⟨S16384x1, .i32⟩ : BufTy).Contents (Elt F) → (⟨S16384x1, .i32⟩ : BufTy).Contents (Elt F) → (⟨S16384x1, .i1⟩ : BufTy).Contents (Elt F)),
    unary main_call2_c_1 main_call2_v8 (broadcastInDim S1x1 ![1] bcast_S1_S1x1_1 : (⟨S1, .i32⟩ : BufTy).Contents (Elt F) → (⟨S1x1, .i32⟩ : BufTy).Contents (Elt F)),
    unary main_call2_v8 main_call2_v9 (broadcastInDim S16384x1 ![0, 1] bcast_S1x1_S16384x1_0_1 : (⟨S1x1, .i32⟩ : BufTy).Contents (Elt F) → (⟨S16384x1, .i32⟩ : BufTy).Contents (Elt F)),
    binary main_call2_v5 main_call2_v9 main_call2_v10 (cmpi .sle : (⟨S16384x1, .i32⟩ : BufTy).Contents (Elt F) → (⟨S16384x1, .i32⟩ : BufTy).Contents (Elt F) → (⟨S16384x1, .i1⟩ : BufTy).Contents (Elt F)),
    binary main_call2_v7 main_call2_v10 main_call2_v11 (andi : (⟨S16384x1, .i1⟩ : BufTy).Contents (Elt F) → (⟨S16384x1, .i1⟩ : BufTy).Contents (Elt F) → (⟨S16384x1, .i1⟩ : BufTy).Contents (Elt F)),
    nullary main_call2_c_3 (constantI S_ 1 1#1 : (⟨S_, .i1⟩ : BufTy).Contents (Elt F)),
    binary main_call2_v11 main_call2_c_3 main_call2_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg6 main_call2_v5 main_call2_v13 ((fun x i => Host.gather gather_S1000x32_S16384x1_S16384x32_1_0_n_n_0_1_132 x i) : (⟨S1000x32, .f32⟩ : BufTy).Contents (Elt F) → (⟨S16384x1, .i32⟩ : BufTy).Contents (Elt F) → (⟨S16384x32, .f32⟩ : BufTy).Contents (Elt F)),
    unary main_call2_v12 main_call2_v14 (broadcastInDim S16384x32 ![0] bcast_S16384_S16384x32_0 : (⟨S16384, .i1⟩ : BufTy).Contents (Elt F) → (⟨S16384x32, .i1⟩ : BufTy).Contents (Elt F)),
    nullary main_call2_cst (constant S_ .f32 0x7FC00000#32 : (⟨S_, .f32⟩ : BufTy).Contents (Elt F)),
    unary main_call2_cst main_call2_v15 (broadcastInDim S16384x32 ![] bcast_S_S16384x32 : (⟨S_, .f32⟩ : BufTy).Contents (Elt F) → (⟨S16384x32, .f32⟩ : BufTy).Contents (Elt F)),
    ternary main_call2_v14 main_call2_v13 main_call2_v15 main_v2 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)),
    nullary main_call3_c (constantI S_ 32 0#32 : (⟨S_, .i32⟩ : BufTy).Contents (Elt F)),
    unary main_call3_c main_call3_v0 (broadcastInDim S16384 ![] bcast_S_S16384 : (⟨S_, .i32⟩ : BufTy).Contents (Elt F) → (⟨S16384, .i32⟩ : BufTy).Contents (Elt F)),
    binary main_arg3 main_call3_v0 main_call3_v1 (cmpi .slt : (⟨S16384, .i32⟩ : BufTy).Contents (Elt F) → (⟨S16384, .i32⟩ : BufTy).Contents (Elt F) → (⟨S16384, .i1⟩ : BufTy).Contents (Elt F)),
    nullary main_call3_c_0 (constantI S_ 32 1000000#32 : (⟨S_, .i32⟩ : BufTy).Contents (Elt F)),
    unary main_call3_c_0 main_call3_v2 (broadcastInDim S16384 ![] bcast_S_S16384 : (⟨S_, .i32⟩ : BufTy).Contents (Elt F) → (⟨S16384, .i32⟩ : BufTy).Contents (Elt F)),
    binary main_arg3 main_call3_v2 main_call3_v3 (addi : (⟨S16384, .i32⟩ : BufTy).Contents (Elt F) → (⟨S16384, .i32⟩ : BufTy).Contents (Elt F) → (⟨S16384, .i32⟩ : BufTy).Contents (Elt F)),
    ternary main_call3_v1 main_call3_v3 main_arg3 main_call3_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call3_v4 main_call3_v5 (broadcastInDim S16384x1 ![0] bcast_S16384_S16384x1_0 : (⟨S16384, .i32⟩ : BufTy).Contents (Elt F) → (⟨S16384x1, .i32⟩ : BufTy).Contents (Elt F)),
    nullary main_call3_c_1 (constantI S1 32 999999#32 : (⟨S1, .i32⟩ : BufTy).Contents (Elt F)),
    nullary main_call3_c_2 (constantI S_ 32 0#32 : (⟨S_, .i32⟩ : BufTy).Contents (Elt F)),
    unary main_call3_c_2 main_call3_v6 (broadcastInDim S16384x1 ![] bcast_S_S16384x1 : (⟨S_, .i32⟩ : BufTy).Contents (Elt F) → (⟨S16384x1, .i32⟩ : BufTy).Contents (Elt F)),
    binary main_call3_v5 main_call3_v6 main_call3_v7 (cmpi .sge : (⟨S16384x1, .i32⟩ : BufTy).Contents (Elt F) → (⟨S16384x1, .i32⟩ : BufTy).Contents (Elt F) → (⟨S16384x1, .i1⟩ : BufTy).Contents (Elt F)),
    unary main_call3_c_1 main_call3_v8 (broadcastInDim S1x1 ![1] bcast_S1_S1x1_1 : (⟨S1, .i32⟩ : BufTy).Contents (Elt F) → (⟨S1x1, .i32⟩ : BufTy).Contents (Elt F)),
    unary main_call3_v8 main_call3_v9 (broadcastInDim S16384x1 ![0, 1] bcast_S1x1_S16384x1_0_1 : (⟨S1x1, .i32⟩ : BufTy).Contents (Elt F) → (⟨S16384x1, .i32⟩ : BufTy).Contents (Elt F)),
    binary main_call3_v5 main_call3_v9 main_call3_v10 (cmpi .sle : (⟨S16384x1, .i32⟩ : BufTy).Contents (Elt F) → (⟨S16384x1, .i32⟩ : BufTy).Contents (Elt F) → (⟨S16384x1, .i1⟩ : BufTy).Contents (Elt F)),
    binary main_call3_v7 main_call3_v10 main_call3_v11 (andi : (⟨S16384x1, .i1⟩ : BufTy).Contents (Elt F) → (⟨S16384x1, .i1⟩ : BufTy).Contents (Elt F) → (⟨S16384x1, .i1⟩ : BufTy).Contents (Elt F)),
    nullary main_call3_c_3 (constantI S_ 1 1#1 : (⟨S_, .i1⟩ : BufTy).Contents (Elt F)),
    binary main_call3_v11 main_call3_c_3 main_call3_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg7 main_call3_v5 main_call3_v13 ((fun x i => Host.gather gather_S1000000x32_S16384x1_S16384x32_1_0_n_n_0_1_132 x i) : (⟨S1000000x32, .f32⟩ : BufTy).Contents (Elt F) → (⟨S16384x1, .i32⟩ : BufTy).Contents (Elt F) → (⟨S16384x32, .f32⟩ : BufTy).Contents (Elt F)),
    unary main_call3_v12 main_call3_v14 (broadcastInDim S16384x32 ![0] bcast_S16384_S16384x32_0 : (⟨S16384, .i1⟩ : BufTy).Contents (Elt F) → (⟨S16384x32, .i1⟩ : BufTy).Contents (Elt F)),
    nullary main_call3_cst (constant S_ .f32 0x7FC00000#32 : (⟨S_, .f32⟩ : BufTy).Contents (Elt F)),
    unary main_call3_cst main_call3_v15 (broadcastInDim S16384x32 ![] bcast_S_S16384x32 : (⟨S_, .f32⟩ : BufTy).Contents (Elt F) → (⟨S16384x32, .f32⟩ : BufTy).Contents (Elt F)),
    ternary main_call3_v14 main_call3_v13 main_call3_v15 main_v3 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)),
    nary ![main_v0, main_v1, main_v2, main_v3] main_v4 (fun u => concatenate S16384x128 1 [⟨S16384x32, u 0⟩, ⟨S16384x32, u 1⟩, ⟨S16384x32, u 2⟩, ⟨S16384x32, u 3⟩] concatenates_S16384x32_S16384x32_S16384x32_S16384x32_S16384x128_d1),
    unary main_arg8 main_v5 ((transpose S128x64 [1, 0] · transposes_S64x128_S128x64_1_0) : (⟨S64x128, .f32⟩ : BufTy).Contents (Elt F) → (⟨S128x64, .f32⟩ : BufTy).Contents (Elt F)),
    binary main_v4 main_v5 main_v6 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg9 main_v7 (broadcastInDim S1x64 ![1] bcast_S64_S1x64_1 : (⟨S64, .f32⟩ : BufTy).Contents (Elt F) → (⟨S1x64, .f32⟩ : BufTy).Contents (Elt F)),
    unary main_v7 main_v8 (broadcastInDim S16384x64 ![0, 1] bcast_S1x64_S16384x64_0_1 : (⟨S1x64, .f32⟩ : BufTy).Contents (Elt F) → (⟨S16384x64, .f32⟩ : BufTy).Contents (Elt F)),
    binary main_v6 main_v8 main_v9 (addf : (⟨S16384x64, .f32⟩ : BufTy).Contents (Elt F) → (⟨S16384x64, .f32⟩ : BufTy).Contents (Elt F) → (⟨S16384x64, .f32⟩ : BufTy).Contents (Elt F)) ]

/-- The typed line is the four lookups' lines and the tail, one after the other. -/
theorem opsT_append : (opsT : List (HloOp τ sig (Elt F))) = takeOpsT (.of main_arg4) (.of main_arg0) main_call0 ++ (take0OpsT (.of main_arg5) (.of main_arg1) main_call1 ++ (take1OpsT (.of main_arg6) (.of main_arg2) main_call2 ++ (takeOpsT (.of main_arg7) (.of main_arg3) main_call3 ++ tailOps))) := rfl

/-- @main is the typed line: each call is its function's line, and lines run one after the other are their concatenation. -/
theorem main_eqT (c : Dev nD) : main (F := F) c = seq opsT := by
  rw [opsT_append, seq_append, seq_append, seq_append, seq_append, ← take_eq, ← take0_eq, ← take1_eq, ← take_eq]
  rfl

set_option maxRecDepth 4096 in
/-- The typed line is the plain line, entry by entry. -/
theorem opsT_eq : (opsT : List (HloOp τ sig (Elt F))) = ops := by
  ops_entries

/-- @main is the plain line. -/
theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., unary_bufs_sub .., binary_bufs_sub .., unary_bufs_sub .., unary_bufs_sub .., binary_bufs_sub ..⟩

end Cert.ReferenceIdeal.RefValue

end
-- ==== Proof.RefDefs.lean ====
/-
  The reference's function of its arguments, as the reference spells it.

  One lookup (`takeG`): the index column is the indices with the negative ones wrapped by the table size (`idxCol`); the
  mask of a row is the conjunction, reduced along the column's unit axis, of "the wrapped index is at least zero" and
  "it is at most the last row" (`maskOf`); the looked-up rows are the row gather of the table at the index column where
  the mask holds and the fill value elsewhere. The projection (`projG`): the four lookups concatenated along the
  columns, contracted with the transposed weights, plus the bias broadcast over the rows. The whole function (`RefG`)
  is the projection of the four lookups.
-/
import proofs.«204991_g57140244906297_cont_9to1_m_249_19_alg».proof.ReferenceIdeal

set_option synthInstance.maxSize 4096

noncomputable section

namespace Cert.ReferenceIdeal.RefValue

open Cert.ReferenceIdeal Cert.ReferenceIdeal.Facts₀ Idealize.ShloMosaic Idealize.SL.Sem

variable {F : FTy → Type} [FloatOps F] [Cert.ReferenceIdeal.Facts]

/-- The index column of a lookup: index `n`, with the table size added when it is negative, at `(n, 0)`. -/
def idxCol (V : BitVec 32) (ids : (⟨S16384, .i32⟩ : BufTy).Contents (Elt F)) : (⟨S16384x1, .i32⟩ : BufTy).Contents (Elt F) :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 V))) ids)

/-- The mask of a lookup: row `n` is kept when its index-column entry lies in `[0, hi]`. -/
def maskOf (hi : BitVec 32) (col : (⟨S16384x1, .i32⟩ : BufTy).Contents (Elt F)) : (⟨S16384, .i1⟩ : BufTy).Contents (Elt F) :=
  Host.reduce IntOp.andi
    (andi (cmpi .sge col (broadcastInDim S16384x1 ![] bcast_S_S16384x1 (constantI S_ 32 0#32)))
      (cmpi .sle col (broadcastInDim S16384x1 ![0, 1] bcast_S1x1_S16384x1_0_1
        (broadcastInDim S1x1 ![1] bcast_S1_S1x1_1 (constantI S1 32 hi)))))
    (constantI S_ 1 1#1) reducesTo_S16384x1_S16384_d1 h_S_

/-- One lookup: the gathered rows where the mask holds, the fill value elsewhere. -/
def takeG {ts : Shape} (g : GatherDims ts S16384x1 S16384x32) (V hi : BitVec 32) (T : (⟨ts, .f32⟩ : BufTy).Contents (Elt F))
    (ids : (⟨S16384, .i32⟩ : BufTy).Contents (Elt F)) : (⟨S16384x32, .f32⟩ : BufTy).Contents (Elt F) :=
  select (broadcastInDim S16384x32 ![0] bcast_S16384_S16384x32_0 (maskOf (F := F) hi (idxCol (F := F) V ids)))
    (Host.gather g T (idxCol (F := F) V ids))
    (broadcastInDim S16384x32 ![] bcast_S_S16384x32 (constant S_ .f32 0x7FC00000#32))

/-- The projection of four looked-up row blocks: concatenated, contracted with the transposed weights, the bias added. -/
def projG (e0 e1 e2 e3 : (⟨S16384x32, .f32⟩ : BufTy).Contents (Elt F)) (W : (⟨S64x128, .f32⟩ : BufTy).Contents (Elt F)) (b : (⟨S64, .f32⟩ : BufTy).Contents (Elt F)) : (⟨S16384x64, .f32⟩ : BufTy).Contents (Elt F) :=
  addf
    (Host.dotGeneral dot_S16384x128_S128x64_S16384x64_1_0_0_1_n_n none
      (concatenate S16384x128 1 [⟨S16384x32, e0⟩, ⟨S16384x32, e1⟩, ⟨S16384x32, e2⟩, ⟨S16384x32, e3⟩]
        concatenates_S16384x32_S16384x32_S16384x32_S16384x32_S16384x128_d1)
      (transpose S128x64 [1, 0] W transposes_S64x128_S128x64_1_0))
    (broadcastInDim S16384x64 ![0, 1] bcast_S1x64_S16384x64_0_1 (broadcastInDim S1x64 ![1] bcast_S64_S1x64_1 b))

/-- The reference's function of its arguments. -/
def RefG (ids0 : (⟨S16384, .i32⟩ : BufTy).Contents (Elt F)) (ids1 : (⟨S16384, .i32⟩ : BufTy).Contents (Elt F)) (ids2 : (⟨S16384, .i32⟩ : BufTy).Contents (Elt F)) (ids3 : (⟨S16384, .i32⟩ : BufTy).Contents (Elt F)) (T0 : (⟨S1000000x32, .f32⟩ : BufTy).Contents (Elt F)) (T1 : (⟨S100000x32, .f32⟩ : BufTy).Contents (Elt F)) (T2 : (⟨S1000x32, .f32⟩ : BufTy).Contents (Elt F)) (T3 : (⟨S1000000x32, .f32⟩ : BufTy).Contents (Elt F)) (W : (⟨S64x128, .f32⟩ : BufTy).Contents (Elt F)) (b : (⟨S64, .f32⟩ : BufTy).Contents (Elt F)) : (⟨S16384x64, .f32⟩ : BufTy).Contents (Elt F) :=
  projG (takeG gather_S1000000x32_S16384x1_S16384x32_1_0_n_n_0_1_132 1000000#32 999999#32 T0 ids0)
    (takeG gather_S100000x32_S16384x1_S16384x32_1_0_n_n_0_1_132 100000#32 99999#32 T1 ids1)
    (takeG gather_S1000x32_S16384x1_S16384x32_1_0_n_n_0_1_132 1000#32 999#32 T2 ids2)
    (takeG gather_S1000000x32_S16384x1_S16384x32_1_0_n_n_0_1_132 1000000#32 999999#32 T3 ids3) W b

end Cert.ReferenceIdeal.RefValue

end
-- ==== Proof.RefRun.lean ====
/-
  The reference's run: what its result buffer holds at the end, as one term of the arguments.

  The function `RefG` of the arguments — four lookups `takeG`, projected by `projG` — is spelt as the reference spells it.

  The line of host operations is read in five stretches, the four lookups and what follows them. Each stretch writes its
  own buffers only, so a buffer it does not write holds afterwards what it held before; and the buffer a stretch is for
  holds afterwards the stretch's function of what its operand buffers held before. Chained, the result buffer ends at
  `RefG` of the arguments, and each argument buffer, written by no stretch, ends as it began.
-/
import proofs.«204991_g57140244906297_cont_9to1_m_249_19_alg».proof.Proof.RefOps
import proofs.«204991_g57140244906297_cont_9to1_m_249_19_alg».proof.Proof.RefDefs

set_option synthInstance.maxSize 4096

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The operations of lookup 0. -/
abbrev seg0 : List (HloOp τ sig (Elt F)) :=
  [ nullary main_call0_c (constantI S_ 32 0#32 : (⟨S_, .i32⟩ : BufTy).Contents (Elt F)),
    unary main_call0_c main_call0_v0 (broadcastInDim S16384 ![] bcast_S_S16384 : (⟨S_, .i32⟩ : BufTy).Contents (Elt F) → (⟨S16384, .i32⟩ : BufTy).Contents (Elt F)),
    binary main_arg0 main_call0_v0 main_call0_v1 (cmpi .slt : (⟨S16384, .i32⟩ : BufTy).Contents (Elt F) → (⟨S16384, .i32⟩ : BufTy).Contents (Elt F) → (⟨S16384, .i1⟩ : BufTy).Contents (Elt F)),
    nullary main_call0_c_0 (constantI S_ 32 1000000#32 : (⟨S_, .i32⟩ : BufTy).Contents (Elt F)),
    unary main_call0_c_0 main_call0_v2 (broadcastInDim S16384 ![] bcast_S_S16384 : (⟨S_, .i32⟩ : BufTy).Contents (Elt F) → (⟨S16384, .i32⟩ : BufTy).Contents (Elt F)),
    binary main_arg0 main_call0_v2 main_call0_v3 (addi : (⟨S16384, .i32⟩ : BufTy).Contents (Elt F) → (⟨S16384, .i32⟩ : BufTy).Contents (Elt F) → (⟨S16384, .i32⟩ : BufTy).Contents (Elt F)),
    ternary main_call0_v1 main_call0_v3 main_arg0 main_call0_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call0_v4 main_call0_v5 (broadcastInDim S16384x1 ![0] bcast_S16384_S16384x1_0 : (⟨S16384, .i32⟩ : BufTy).Contents (Elt F) → (⟨S16384x1, .i32⟩ : BufTy).Contents (Elt F)),
    nullary main_call0_c_1 (constantI S1 32 999999#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x1 ![] bcast_S_S16384x1 : (⟨S_, .i32⟩ : BufTy).Contents (Elt F) → (⟨S16384x1, .i32⟩ : BufTy).Contents (Elt F)),
    binary main_call0_v5 main_call0_v6 main_call0_v7 (cmpi .sge : (⟨S16384x1, .i32⟩ : BufTy).Contents (Elt F) → (⟨S16384x1, .i32⟩ : BufTy).Contents (Elt F) → (⟨S16384x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S16384x1 ![0, 1] bcast_S1x1_S16384x1_0_1 : (⟨S1x1, .i32⟩ : BufTy).Contents (Elt F) → (⟨S16384x1, .i32⟩ : BufTy).Contents (Elt F)),
    binary main_call0_v5 main_call0_v9 main_call0_v10 (cmpi .sle : (⟨S16384x1, .i32⟩ : BufTy).Contents (Elt F) → (⟨S16384x1, .i32⟩ : BufTy).Contents (Elt F) → (⟨S16384x1, .i1⟩ : BufTy).Contents (Elt F)),
    binary main_call0_v7 main_call0_v10 main_call0_v11 (andi : (⟨S16384x1, .i1⟩ : BufTy).Contents (Elt F) → (⟨S16384x1, .i1⟩ : BufTy).Contents (Elt F) → (⟨S16384x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg4 main_call0_v5 main_call0_v13 ((fun x i => Host.gather gather_S1000000x32_S16384x1_S16384x32_1_0_n_n_0_1_132 x i) : (⟨S1000000x32, .f32⟩ : BufTy).Contents (Elt F) → (⟨S16384x1, .i32⟩ : BufTy).Contents (Elt F) → (⟨S16384x32, .f32⟩ : BufTy).Contents (Elt F)),
    unary main_call0_v12 main_call0_v14 (broadcastInDim S16384x32 ![0] bcast_S16384_S16384x32_0 : (⟨S16384, .i1⟩ : BufTy).Contents (Elt F) → (⟨S16384x32, .i1⟩ : BufTy).Contents (Elt F)),
    nullary main_call0_cst (constant S_ .f32 0x7FC00000#32 : (⟨S_, .f32⟩ : BufTy).Contents (Elt F)),
    unary main_call0_cst main_call0_v15 (broadcastInDim S16384x32 ![] bcast_S_S16384x32 : (⟨S_, .f32⟩ : BufTy).Contents (Elt F) → (⟨S16384x32, .f32⟩ : BufTy).Contents (Elt F)),
    ternary main_call0_v14 main_call0_v13 main_call0_v15 main_v0 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers those operations write. -/
abbrev seg0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem seg0_writes : (seg0 : List (HloOp τ sig (Elt F))).Forall fun op => op.writes ⊆ (seg0_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer they do not write keeps its contents through them. -/
theorem seg0_keep (V : Valuation τ sig (Elt F)) (r : Ref sig .tc) (h : r ∉ seg0_W) :
    after seg0 V (Proc.devRef (τ := τ) .tc r) = V (Proc.devRef (τ := τ) .tc r) :=
  after_of_writes_sub seg0 V seg0_writes h

set_option maxRecDepth 8192 in
set_option maxHeartbeats 2400000 in
/-- After them the lookup's result buffer holds the lookup of what the table and index buffers held. -/
theorem seg0_res (V : Valuation τ sig (Elt F)) :
    after seg0 V (Proc.devRef (τ := τ) .tc main_v0) = takeG gather_S1000000x32_S16384x1_S16384x32_1_0_n_n_0_1_132 1000000#32 999999#32 (V (Proc.devRef (τ := τ) .tc main_arg4)) (V (Proc.devRef (τ := τ) .tc main_arg0)) := by
  after_results_simp
  all_goals rfl

/-- The operations of lookup 1. -/
abbrev seg1 : List (HloOp τ sig (Elt F)) :=
  [ nullary main_call1_c (constantI S_ 32 0#32 : (⟨S_, .i32⟩ : BufTy).Contents (Elt F)),
    unary main_call1_c main_call1_v0 (broadcastInDim S16384 ![] bcast_S_S16384 : (⟨S_, .i32⟩ : BufTy).Contents (Elt F) → (⟨S16384, .i32⟩ : BufTy).Contents (Elt F)),
    binary main_arg1 main_call1_v0 main_call1_v1 (cmpi .slt : (⟨S16384, .i32⟩ : BufTy).Contents (Elt F) → (⟨S16384, .i32⟩ : BufTy).Contents (Elt F) → (⟨S16384, .i1⟩ : BufTy).Contents (Elt F)),
    nullary main_call1_c_0 (constantI S_ 32 100000#32 : (⟨S_, .i32⟩ : BufTy).Contents (Elt F)),
    unary main_call1_c_0 main_call1_v2 (broadcastInDim S16384 ![] bcast_S_S16384 : (⟨S_, .i32⟩ : BufTy).Contents (Elt F) → (⟨S16384, .i32⟩ : BufTy).Contents (Elt F)),
    binary main_arg1 main_call1_v2 main_call1_v3 (addi : (⟨S16384, .i32⟩ : BufTy).Contents (Elt F) → (⟨S16384, .i32⟩ : BufTy).Contents (Elt F) → (⟨S16384, .i32⟩ : BufTy).Contents (Elt F)),
    ternary main_call1_v1 main_call1_v3 main_arg1 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call1_v4 main_call1_v5 (broadcastInDim S16384x1 ![0] bcast_S16384_S16384x1_0 : (⟨S16384, .i32⟩ : BufTy).Contents (Elt F) → (⟨S16384x1, .i32⟩ : BufTy).Contents (Elt F)),
    nullary main_call1_c_1 (constantI S1 32 99999#32 : (⟨S1, .i32⟩ : BufTy).Contents (Elt F)),
    nullary main_call1_c_2 (constantI S_ 32 0#32 : (⟨S_, .i32⟩ : BufTy).Contents (Elt F)),
    unary main_call1_c_2 main_call1_v6 (broadcastInDim S16384x1 ![] bcast_S_S16384x1 : (⟨S_, .i32⟩ : BufTy).Contents (Elt F) → (⟨S16384x1, .i32⟩ : BufTy).Contents (Elt F)),
    binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
    binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
    binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg5 main_call1_v5 main_call1_v13 ((fun x i => Host.gather gather_S100000x32_S16384x1_S16384x32_1_0_n_n_0_1_132 x i) : (⟨S100000x32, .f32⟩ : BufTy).Contents (Elt F) → (⟨S16384x1, .i32⟩ : BufTy).Contents (Elt F) → (⟨S16384x32, .f32⟩ : BufTy).Contents (Elt F)),
    unary main_call1_v12 main_call1_v14 (broadcastInDim S16384x32 ![0] bcast_S16384_S16384x32_0 : (⟨S16384, .i1⟩ : BufTy).Contents (Elt F) → (⟨S16384x32, .i1⟩ : BufTy).Contents (Elt F)),
    nullary main_call1_cst (constant S_ .f32 0x7FC00000#32 : (⟨S_, .f32⟩ : BufTy).Contents (Elt F)),
    unary main_call1_cst main_call1_v15 (broadcastInDim S16384x32 ![] bcast_S_S16384x32 : (⟨S_, .f32⟩ : BufTy).Contents (Elt F) → (⟨S16384x32, .f32⟩ : BufTy).Contents (Elt F)),
    ternary main_call1_v14 main_call1_v13 main_call1_v15 main_v1 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers those operations write. -/
abbrev seg1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]

theorem seg1_writes : (seg1 : List (HloOp τ sig (Elt F))).Forall fun op => op.writes ⊆ (seg1_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer they do not write keeps its contents through them. -/
theorem seg1_keep (V : Valuation τ sig (Elt F)) (r : Ref sig .tc) (h : r ∉ seg1_W) :
    after seg1 V (Proc.devRef (τ := τ) .tc r) = V (Proc.devRef (τ := τ) .tc r) :=
  after_of_writes_sub seg1 V seg1_writes h

set_option maxRecDepth 8192 in
set_option maxHeartbeats 2400000 in
/-- After them the lookup's result buffer holds the lookup of what the table and index buffers held. -/
theorem seg1_res (V : Valuation τ sig (Elt F)) :
    after seg1 V (Proc.devRef (τ := τ) .tc main_v1) = takeG gather_S100000x32_S16384x1_S16384x32_1_0_n_n_0_1_132 100000#32 99999#32 (V (Proc.devRef (τ := τ) .tc main_arg5)) (V (Proc.devRef (τ := τ) .tc main_arg1)) := by
  after_results_simp
  all_goals rfl

/-- The operations of lookup 2. -/
abbrev seg2 : List (HloOp τ sig (Elt F)) :=
  [ nullary main_call2_c (constantI S_ 32 0#32 : (⟨S_, .i32⟩ : BufTy).Contents (Elt F)),
    unary main_call2_c main_call2_v0 (broadcastInDim S16384 ![] bcast_S_S16384 : (⟨S_, .i32⟩ : BufTy).Contents (Elt F) → (⟨S16384, .i32⟩ : BufTy).Contents (Elt F)),
    binary main_arg2 main_call2_v0 main_call2_v1 (cmpi .slt : (⟨S16384, .i32⟩ : BufTy).Contents (Elt F) → (⟨S16384, .i32⟩ : BufTy).Contents (Elt F) → (⟨S16384, .i1⟩ : BufTy).Contents (Elt F)),
    nullary main_call2_c_0 (constantI S_ 32 1000#32 : (⟨S_, .i32⟩ : BufTy).Contents (Elt F)),
    unary main_call2_c_0 main_call2_v2 (broadcastInDim S16384 ![] bcast_S_S16384 : (⟨S_, .i32⟩ : BufTy).Contents (Elt F) → (⟨S16384, .i32⟩ : BufTy).Contents (Elt F)),
    binary main_arg2 main_call2_v2 main_call2_v3 (addi : (⟨S16384, .i32⟩ : BufTy).Contents (Elt F) → (⟨S16384, .i32⟩ : BufTy).Contents (Elt F) → (⟨S16384, .i32⟩ : BufTy).Contents (Elt F)),
    ternary main_call2_v1 main_call2_v3 main_arg2 main_call2_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call2_v4 main_call2_v5 (broadcastInDim S16384x1 ![0] bcast_S16384_S16384x1_0 : (⟨S16384, .i32⟩ : BufTy).Contents (Elt F) → (⟨S16384x1, .i32⟩ : BufTy).Contents (Elt F)),
    nullary main_call2_c_1 (constantI S1 32 999#32 : (⟨S1, .i32⟩ : BufTy).Contents (Elt F)),
    nullary main_call2_c_2 (constantI S_ 32 0#32 : (⟨S_, .i32⟩ : BufTy).Contents (Elt F)),
    unary main_call2_c_2 main_call2_v6 (broadcastInDim S16384x1 ![] bcast_S_S16384x1 : (⟨S_, .i32⟩ : BufTy).Contents (Elt F) → (⟨S16384x1, .i32⟩ : BufTy).Contents (Elt F)),
    binary main_call2_v5 main_call2_v6 main_call2_v7 (cmpi .sge : (⟨S16384x1, .i32⟩ : BufTy).Contents (Elt F) → (⟨S16384x1, .i32⟩ : BufTy).Contents (Elt F) → (⟨S16384x1, .i1⟩ : BufTy).Contents (Elt F)),
    unary main_call2_c_1 main_call2_v8 (broadcastInDim S1x1 ![1] bcast_S1_S1x1_1 : (⟨S1, .i32⟩ : BufTy).Contents (Elt F) → (⟨S1x1, .i32⟩ : BufTy).Contents (Elt F)),
    unary main_call2_v8 main_call2_v9 (broadcastInDim S16384x1 ![0, 1] bcast_S1x1_S16384x1_0_1 : (⟨S1x1, .i32⟩ : BufTy).Contents (Elt F) → (⟨S16384x1, .i32⟩ : BufTy).Contents (Elt F)),
    binary main_call2_v5 main_call2_v9 main_call2_v10 (cmpi .sle : (⟨S16384x1, .i32⟩ : BufTy).Contents (Elt F) → (⟨S16384x1, .i32⟩ : BufTy).Contents (Elt F) → (⟨S16384x1, .i1⟩ : BufTy).Contents (Elt F)),
    binary main_call2_v7 main_call2_v10 main_call2_v11 (andi : (⟨S16384x1, .i1⟩ : BufTy).Contents (Elt F) → (⟨S16384x1, .i1⟩ : BufTy).Contents (Elt F) → (⟨S16384x1, .i1⟩ : BufTy).Contents (Elt F)),
    nullary main_call2_c_3 (constantI S_ 1 1#1 : (⟨S_, .i1⟩ : BufTy).Contents (Elt F)),
    binary main_call2_v11 main_call2_c_3 main_call2_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg6 main_call2_v5 main_call2_v13 ((fun x i => Host.gather gather_S1000x32_S16384x1_S16384x32_1_0_n_n_0_1_132 x i) : (⟨S1000x32, .f32⟩ : BufTy).Contents (Elt F) → (⟨S16384x1, .i32⟩ : BufTy).Contents (Elt F) → (⟨S16384x32, .f32⟩ : BufTy).Contents (Elt F)),
    unary main_call2_v12 main_call2_v14 (broadcastInDim S16384x32 ![0] bcast_S16384_S16384x32_0 : (⟨S16384, .i1⟩ : BufTy).Contents (Elt F) → (⟨S16384x32, .i1⟩ : BufTy).Contents (Elt F)),
    nullary main_call2_cst (constant S_ .f32 0x7FC00000#32 : (⟨S_, .f32⟩ : BufTy).Contents (Elt F)),
    unary main_call2_cst main_call2_v15 (broadcastInDim S16384x32 ![] bcast_S_S16384x32 : (⟨S_, .f32⟩ : BufTy).Contents (Elt F) → (⟨S16384x32, .f32⟩ : BufTy).Contents (Elt F)),
    ternary main_call2_v14 main_call2_v13 main_call2_v15 main_v2 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers those operations write. -/
abbrev seg2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2]

theorem seg2_writes : (seg2 : List (HloOp τ sig (Elt F))).Forall fun op => op.writes ⊆ (seg2_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer they do not write keeps its contents through them. -/
theorem seg2_keep (V : Valuation τ sig (Elt F)) (r : Ref sig .tc) (h : r ∉ seg2_W) :
    after seg2 V (Proc.devRef (τ := τ) .tc r) = V (Proc.devRef (τ := τ) .tc r) :=
  after_of_writes_sub seg2 V seg2_writes h

set_option maxRecDepth 8192 in
set_option maxHeartbeats 2400000 in
/-- After them the lookup's result buffer holds the lookup of what the table and index buffers held. -/
theorem seg2_res (V : Valuation τ sig (Elt F)) :
    after seg2 V (Proc.devRef (τ := τ) .tc main_v2) = takeG gather_S1000x32_S16384x1_S16384x32_1_0_n_n_0_1_132 1000#32 999#32 (V (Proc.devRef (τ := τ) .tc main_arg6)) (V (Proc.devRef (τ := τ) .tc main_arg2)) := by
  after_results_simp
  all_goals rfl

/-- The operations of lookup 3. -/
abbrev seg3 : List (HloOp τ sig (Elt F)) :=
  [ nullary main_call3_c (constantI S_ 32 0#32 : (⟨S_, .i32⟩ : BufTy).Contents (Elt F)),
    unary main_call3_c main_call3_v0 (broadcastInDim S16384 ![] bcast_S_S16384 : (⟨S_, .i32⟩ : BufTy).Contents (Elt F) → (⟨S16384, .i32⟩ : BufTy).Contents (Elt F)),
    binary main_arg3 main_call3_v0 main_call3_v1 (cmpi .slt : (⟨S16384, .i32⟩ : BufTy).Contents (Elt F) → (⟨S16384, .i32⟩ : BufTy).Contents (Elt F) → (⟨S16384, .i1⟩ : BufTy).Contents (Elt F)),
    nullary main_call3_c_0 (constantI S_ 32 1000000#32 : (⟨S_, .i32⟩ : BufTy).Contents (Elt F)),
    unary main_call3_c_0 main_call3_v2 (broadcastInDim S16384 ![] bcast_S_S16384 : (⟨S_, .i32⟩ : BufTy).Contents (Elt F) → (⟨S16384, .i32⟩ : BufTy).Contents (Elt F)),
    binary main_arg3 main_call3_v2 main_call3_v3 (addi : (⟨S16384, .i32⟩ : BufTy).Contents (Elt F) → (⟨S16384, .i32⟩ : BufTy).Contents (Elt F) → (⟨S16384, .i32⟩ : BufTy).Contents (Elt F)),
    ternary main_call3_v1 main_call3_v3 main_arg3 main_call3_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_call3_v4 main_call3_v5 (broadcastInDim S16384x1 ![0] bcast_S16384_S16384x1_0 : (⟨S16384, .i32⟩ : BufTy).Contents (Elt F) → (⟨S16384x1, .i32⟩ : BufTy).Contents (Elt F)),
    nullary main_call3_c_1 (constantI S1 32 999999#32 : (⟨S1, .i32⟩ : BufTy).Contents (Elt F)),
    nullary main_call3_c_2 (constantI S_ 32 0#32 : (⟨S_, .i32⟩ : BufTy).Contents (Elt F)),
    unary main_call3_c_2 main_call3_v6 (broadcastInDim S16384x1 ![] bcast_S_S16384x1 : (⟨S_, .i32⟩ : BufTy).Contents (Elt F) → (⟨S16384x1, .i32⟩ : BufTy).Contents (Elt F)),
    binary main_call3_v5 main_call3_v6 main_call3_v7 (cmpi .sge : (⟨S16384x1, .i32⟩ : BufTy).Contents (Elt F) → (⟨S16384x1, .i32⟩ : BufTy).Contents (Elt F) → (⟨S16384x1, .i1⟩ : BufTy).Contents (Elt F)),
    unary main_call3_c_1 main_call3_v8 (broadcastInDim S1x1 ![1] bcast_S1_S1x1_1 : (⟨S1, .i32⟩ : BufTy).Contents (Elt F) → (⟨S1x1, .i32⟩ : BufTy).Contents (Elt F)),
    unary main_call3_v8 main_call3_v9 (broadcastInDim S16384x1 ![0, 1] bcast_S1x1_S16384x1_0_1 : (⟨S1x1, .i32⟩ : BufTy).Contents (Elt F) → (⟨S16384x1, .i32⟩ : BufTy).Contents (Elt F)),
    binary main_call3_v5 main_call3_v9 main_call3_v10 (cmpi .sle : (⟨S16384x1, .i32⟩ : BufTy).Contents (Elt F) → (⟨S16384x1, .i32⟩ : BufTy).Contents (Elt F) → (⟨S16384x1, .i1⟩ : BufTy).Contents (Elt F)),
    binary main_call3_v7 main_call3_v10 main_call3_v11 (andi : (⟨S16384x1, .i1⟩ : BufTy).Contents (Elt F) → (⟨S16384x1, .i1⟩ : BufTy).Contents (Elt F) → (⟨S16384x1, .i1⟩ : BufTy).Contents (Elt F)),
    nullary main_call3_c_3 (constantI S_ 1 1#1 : (⟨S_, .i1⟩ : BufTy).Contents (Elt F)),
    binary main_call3_v11 main_call3_c_3 main_call3_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    binary main_arg7 main_call3_v5 main_call3_v13 ((fun x i => Host.gather gather_S1000000x32_S16384x1_S16384x32_1_0_n_n_0_1_132 x i) : (⟨S1000000x32, .f32⟩ : BufTy).Contents (Elt F) → (⟨S16384x1, .i32⟩ : BufTy).Contents (Elt F) → (⟨S16384x32, .f32⟩ : BufTy).Contents (Elt F)),
    unary main_call3_v12 main_call3_v14 (broadcastInDim S16384x32 ![0] bcast_S16384_S16384x32_0 : (⟨S16384, .i1⟩ : BufTy).Contents (Elt F) → (⟨S16384x32, .i1⟩ : BufTy).Contents (Elt F)),
    nullary main_call3_cst (constant S_ .f32 0x7FC00000#32 : (⟨S_, .f32⟩ : BufTy).Contents (Elt F)),
    unary main_call3_cst main_call3_v15 (broadcastInDim S16384x32 ![] bcast_S_S16384x32 : (⟨S_, .f32⟩ : BufTy).Contents (Elt F) → (⟨S16384x32, .f32⟩ : BufTy).Contents (Elt F)),
    ternary main_call3_v14 main_call3_v13 main_call3_v15 main_v3 (select : (⟨S16384x32, .i1⟩ : BufTy).Contents (Elt F) → (⟨S16384x32, .f32⟩ : BufTy).Contents (Elt F) → (⟨S16384x32, .f32⟩ : BufTy).Contents (Elt F) → (⟨S16384x32, .f32⟩ : BufTy).Contents (Elt F)) ]

/-- The buffers those operations write. -/
abbrev seg3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v3]

theorem seg3_writes : (seg3 : List (HloOp τ sig (Elt F))).Forall fun op => op.writes ⊆ (seg3_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer they do not write keeps its contents through them. -/
theorem seg3_keep (V : Valuation τ sig (Elt F)) (r : Ref sig .tc) (h : r ∉ seg3_W) :
    after seg3 V (Proc.devRef (τ := τ) .tc r) = V (Proc.devRef (τ := τ) .tc r) :=
  after_of_writes_sub seg3 V seg3_writes h

set_option maxRecDepth 8192 in
set_option maxHeartbeats 2400000 in
/-- After them the lookup's result buffer holds the lookup of what the table and index buffers held. -/
theorem seg3_res (V : Valuation τ sig (Elt F)) :
    after seg3 V (Proc.devRef (τ := τ) .tc main_v3) = takeG gather_S1000000x32_S16384x1_S16384x32_1_0_n_n_0_1_132 1000000#32 999999#32 (V (Proc.devRef (τ := τ) .tc main_arg7)) (V (Proc.devRef (τ := τ) .tc main_arg3)) := by
  after_results_simp
  all_goals rfl

/-- The operations after the four lookups. -/
abbrev seg4 : List (HloOp τ sig (Elt F)) :=
  [ nary ![main_v0, main_v1, main_v2, main_v3] main_v4 (fun u => concatenate S16384x128 1 [⟨S16384x32, u 0⟩, ⟨S16384x32, u 1⟩, ⟨S16384x32, u 2⟩, ⟨S16384x32, u 3⟩] concatenates_S16384x32_S16384x32_S16384x32_S16384x32_S16384x128_d1),
    unary main_arg8 main_v5 ((transpose S128x64 [1, 0] · transposes_S64x128_S128x64_1_0) : (⟨S64x128, .f32⟩ : BufTy).Contents (Elt F) → (⟨S128x64, .f32⟩ : BufTy).Contents (Elt F)),
    binary main_v4 main_v5 main_v6 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg9 main_v7 (broadcastInDim S1x64 ![1] bcast_S64_S1x64_1 : (⟨S64, .f32⟩ : BufTy).Contents (Elt F) → (⟨S1x64, .f32⟩ : BufTy).Contents (Elt F)),
    unary main_v7 main_v8 (broadcastInDim S16384x64 ![0, 1] bcast_S1x64_S16384x64_0_1 : (⟨S1x64, .f32⟩ : BufTy).Contents (Elt F) → (⟨S16384x64, .f32⟩ : BufTy).Contents (Elt F)),
    binary main_v6 main_v8 main_v9 (addf : (⟨S16384x64, .f32⟩ : BufTy).Contents (Elt F) → (⟨S16384x64, .f32⟩ : BufTy).Contents (Elt F) → (⟨S16384x64, .f32⟩ : BufTy).Contents (Elt F)) ]

/-- The buffers those operations write. -/
abbrev seg4_W : List (Ref sig .tc) := [main_v4, main_v5, main_v6, main_v7, main_v8, main_v9]

theorem seg4_writes : (seg4 : List (HloOp τ sig (Elt F))).Forall fun op => op.writes ⊆ (seg4_W.map (Proc.devRef (τ := τ) .tc)).toFinset := by
  simp only [List.Forall]
  exact ⟨by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide),
    by simp only [nullary_writes, unary_writes, binary_writes, ternary_writes, nary_writes, Finset.singleton_subset_iff, List.mem_toFinset]; exact List.mem_map_of_mem (by decide)⟩

/-- A buffer they do not write keeps its contents through them. -/
theorem seg4_keep (V : Valuation τ sig (Elt F)) (r : Ref sig .tc) (h : r ∉ seg4_W) :
    after seg4 V (Proc.devRef (τ := τ) .tc r) = V (Proc.devRef (τ := τ) .tc r) :=
  after_of_writes_sub seg4 V seg4_writes h

set_option maxRecDepth 8192 in
set_option maxHeartbeats 1000000 in
/-- After them the result buffer holds the projection of what the four lookup buffers, the weights and the bias held. -/
theorem seg4_res (V : Valuation τ sig (Elt F)) :
    after seg4 V (Proc.devRef (τ := τ) .tc main_v9) = projG (V (Proc.devRef (τ := τ) .tc main_v0)) (V (Proc.devRef (τ := τ) .tc main_v1)) (V (Proc.devRef (τ := τ) .tc main_v2)) (V (Proc.devRef (τ := τ) .tc main_v3)) (V (Proc.devRef (τ := τ) .tc main_arg8)) (V (Proc.devRef (τ := τ) .tc main_arg9)) := by
  after_results_simp
  all_goals rfl

/-- The line is its five stretches, in order. -/
theorem ops_split : (ops : List (HloOp τ sig (Elt F))) = seg0 ++ (seg1 ++ (seg2 ++ (seg3 ++ seg4))) := rfl

/-- The fold of the line read at the result buffer is `RefG` of what the argument buffers held. -/
theorem out_eq (V : Valuation τ sig (Elt F)) :
    after ops V (Proc.devRef (τ := τ) .tc main_v9) = RefG (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := by
  rw [ops_split,
    after_append,
    after_append,
    after_append,
    after_append,
    seg4_res,
    seg3_keep _ main_v0 (by decide),
    seg2_keep _ main_v0 (by decide),
    seg1_keep _ main_v0 (by decide),
    seg0_res,
    seg3_keep _ main_v1 (by decide),
    seg2_keep _ main_v1 (by decide),
    seg1_res,
    seg0_keep _ main_arg5 (by decide),
    seg0_keep _ main_arg1 (by decide),
    seg3_keep _ main_v2 (by decide),
    seg2_res,
    seg1_keep _ main_arg6 (by decide),
    seg0_keep _ main_arg6 (by decide),
    seg1_keep _ main_arg2 (by decide),
    seg0_keep _ main_arg2 (by decide),
    seg3_res,
    seg2_keep _ main_arg7 (by decide),
    seg1_keep _ main_arg7 (by decide),
    seg0_keep _ main_arg7 (by decide),
    seg2_keep _ main_arg3 (by decide),
    seg1_keep _ main_arg3 (by decide),
    seg0_keep _ main_arg3 (by decide),
    seg3_keep _ main_arg8 (by decide),
    seg2_keep _ main_arg8 (by decide),
    seg1_keep _ main_arg8 (by decide),
    seg0_keep _ main_arg8 (by decide),
    seg3_keep _ main_arg9 (by decide),
    seg2_keep _ main_arg9 (by decide),
    seg1_keep _ main_arg9 (by decide),
    seg0_keep _ main_arg9 (by decide)]
  rfl

/-- A buffer none of the five stretches writes holds after the line what it held before. -/
theorem arg_keep (V : Valuation τ sig (Elt F)) (r : Ref sig .tc) (h0 : r ∉ seg0_W) (h1 : r ∉ seg1_W) (h2 : r ∉ seg2_W)
    (h3 : r ∉ seg3_W) (h4 : r ∉ seg4_W) : after ops V (Proc.devRef (τ := τ) .tc r) = V (Proc.devRef (τ := τ) .tc r) := by
  rw [ops_split, after_append, after_append, after_append, after_append, seg4_keep _ r h4, seg3_keep _ r h3,
    seg2_keep _ r h2, seg1_keep _ r h1, seg0_keep _ r h0]

/-- At the compiled mesh, for any float values, from any memory with zero counters: every weakly fair execution of the
    reference terminates with the result buffer at `RefG` of the arguments and the arguments unchanged. -/
theorem runG (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v9) = RefG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v9).trans (out_eq _),
      (h c main_arg0).trans (arg_keep _ main_arg0 (by decide) (by decide) (by decide) (by decide) (by decide)),
      (h c main_arg1).trans (arg_keep _ main_arg1 (by decide) (by decide) (by decide) (by decide) (by decide)),
      (h c main_arg2).trans (arg_keep _ main_arg2 (by decide) (by decide) (by decide) (by decide) (by decide)),
      (h c main_arg3).trans (arg_keep _ main_arg3 (by decide) (by decide) (by decide) (by decide) (by decide)),
      (h c main_arg4).trans (arg_keep _ main_arg4 (by decide) (by decide) (by decide) (by decide) (by decide)),
      (h c main_arg5).trans (arg_keep _ main_arg5 (by decide) (by decide) (by decide) (by decide) (by decide)),
      (h c main_arg6).trans (arg_keep _ main_arg6 (by decide) (by decide) (by decide) (by decide) (by decide)),
      (h c main_arg7).trans (arg_keep _ main_arg7 (by decide) (by decide) (by decide) (by decide) (by decide)),
      (h c main_arg8).trans (arg_keep _ main_arg8 (by decide) (by decide) (by decide) (by decide) (by decide)),
      (h c main_arg9).trans (arg_keep _ main_arg9 (by decide) (by decide) (by decide) (by decide) (by decide))⟩)
    (run_seq scopedRefs_eq scopedSems_eq defs main (fun _ => ops) main_eq (fun _ => ops_sub) m ρ)

end Cert.ReferenceIdeal.RefValue

end
-- ==== Proof.RefTake.lean ====
/-
  One lookup of the reference, read at an index, when every index lies in its table.

  The reference's lookup wraps a negative index by the table size, gathers the row the wrapped index names (the gather
  clamps it into the table), and replaces by the fill value every row whose wrapped index falls outside the table.
  When every index `v` satisfies `0 ≤ v ≤ hi` (read signed), nothing wraps: the comparison with zero is false, so the
  select keeps the index, and the index column holds index `n` at `(n, 0)`. Both range tests then hold at every row,
  their conjunction is one, and its reduction by `and` along the unit axis — a fold from one over words that are all
  one — is one: no row is replaced. So entry `(n, c)` of the lookup is entry `c` of the table row that index `n` names.
-/
import proofs.«204991_g57140244906297_cont_9to1_m_249_19_alg».proof.Proof.RefDefs
import proofs.«204991_g57140244906297_cont_9to1_m_249_19_alg».proof.Proof.LibRowOps
import Idealize.ShloMosaic.Lib.ReduceAll
import Idealize.ShloMosaic.Lib.ValueIdx
import Idealize.ShloMosaic.Lib.IdealHost
import Idealize.ShloMosaic.Lib.Pipeline.Value

set_option synthInstance.maxSize 4096

noncomputable section

namespace Cert.ReferenceIdeal.RefValue

open Cert.ReferenceIdeal Cert.ReferenceIdeal.Facts₀ Idealize.ShloMosaic Idealize.ShloMosaic.ValueIdx Idealize.ShloMosaic.RowOps

variable {F : FTy → Type} [FloatOps F] [Cert.ReferenceIdeal.Facts]

/-- A left fold by `and` of one-bit words, started at one, over words that are all one, is one. -/
theorem foldl_andi_one {ι : Type} (f : ι → BitVec 1) :
    ∀ (l : List ι) (init : BitVec 1), init = 1#1 → (∀ i ∈ l, f i = 1#1) → l.foldl (fun r i => IntOp.andi r (f i)) init = 1#1
  | [], _, h, _ => h
  | a :: l, init, h, hl => by
    rw [List.foldl_cons]
    exact foldl_andi_one f l _ (IntOp.andi_eq_one.2 ⟨h, hl a List.mem_cons_self⟩) fun i hi => hl i (List.mem_cons_of_mem _ hi)

/-- The signed reading of the zero word. -/
theorem toInt_zero32 : (0#32 : BitVec 32).toInt = 0 := by decide

/-- The index column at `(n, 0)` is index `n` when that index is not negative: nothing wraps. -/
theorem idxCol_apply (V : BitVec 32) (ids : IVec S16384 32) (n : Fin 16384) (k : Fin 1) (h : 0 ≤ (ids (ix1 n)).toInt) :
    idxCol (F := F) V ids (ix2 n k) = ids (ix1 n) := by
  have hc : cmpi .slt ids (broadcastInDim S16384 ![] bcast_S_S16384 (constantI S_ 32 0#32)) (ix1 n) = 0#1 := by
    refine eq_zero_of_ne_one fun hh => ?_
    have h2 : (ids (ix1 n)).toInt < (0#32 : BitVec 32).toInt := IntOp.cmpi_slt.1 hh
    rw [toInt_zero32] at h2
    omega
  unfold idxCol
  refine (broadcastInDim_apply (s := S16384) (t := S16384x1) ![0] bcast_S16384_S16384x1_0 _ (ix2 n k) (ix1 n)
    (fun a => by match a with | ⟨0, _⟩ => rfl)).trans ?_
  rw [select_apply, hc, select_zero]

/-- The mask is one at every row when every entry of the index column lies in `[0, hi]`. -/
theorem maskOf_eq_one (hi : BitVec 32) (col : IVec S16384x1 32)
    (hall : ∀ (n : Fin 16384) (k : Fin 1), 0 ≤ (col (ix2 n k)).toInt ∧ (col (ix2 n k)).toInt ≤ hi.toInt) (n : S16384.Idx) :
    maskOf (F := F) hi col n = 1#1 := by
  refine (Host.reduce_eq_foldl IntOp.andi _ _ _ _ n).trans ?_
  refine foldl_andi_one _ _ _ rfl fun i _ => ?_
  obtain ⟨n', k', rfl⟩ : ∃ (n' : Fin 16384) (k' : Fin 1), i = ix2 n' k' := ⟨i 0, i 1, eq_ix2 i⟩
  show IntOp.andi (IntOp.cmpi .sge (col (ix2 n' k')) 0#32) (IntOp.cmpi .sle (col (ix2 n' k')) hi) = 1#1
  refine IntOp.andi_eq_one.2 ⟨IntOp.cmpi_sge.2 ?_, IntOp.cmpi_sle.2 (hall n' k').2⟩
  rw [toInt_zero32]
  exact (hall n' k').1

/-- A select whose condition word is one at an index reads its first branch there. -/
theorem select_of_one {s : Shape} {α : Type} (C : IVec s 1) (A B : s.Idx → α) (i : s.Idx) (h : C i = 1#1) :
    select C A B i = A i := by
  rw [select_apply, h, select_one]

set_option maxRecDepth 8192 in
/-- Entry `(n, c)` of a lookup whose indices all lie in `[0, hi]` is entry `c` of the table row that index `n` names. -/
theorem takeG_apply {N : Nat} (hN : 0 < N)
    (wf : GatherDims.WF ⟨2, ![N, 32]⟩ ⟨2, ![16384, 1]⟩ ⟨2, ![16384, 32]⟩ [1] [0] [] [0] [] 1 ![1, 32])
    (V hi : BitVec 32) (T : (⟨⟨2, ![N, 32]⟩, .f32⟩ : BufTy).Contents (Elt F)) (ids : IVec S16384 32)
    (hr : ∀ n, 0 ≤ (ids n).toInt ∧ (ids n).toInt ≤ hi.toInt) (n : Fin 16384) (c : Fin 32) :
    takeG (F := F) (rowDims2 N 32 16384 wf) V hi T ids (ix2 n c) = T (ix2 (rowOf N hN (ids (ix1 n))) c) := by
  have hm : broadcastInDim S16384x32 ![0] bcast_S16384_S16384x32_0 (maskOf (F := F) hi (idxCol (F := F) V ids)) (ix2 n c) = 1#1 :=
    (broadcastInDim_apply (s := S16384) (t := S16384x32) ![0] bcast_S16384_S16384x32_0 _ (ix2 n c) (ix1 n) (fun a => by match a with | ⟨0, _⟩ => rfl)).trans
      (maskOf_eq_one hi _ (fun n' k' => by rw [idxCol_apply V ids n' k' (hr _).1]; exact hr _) (ix1 n))
  have hg : Host.gather (rowDims2 N 32 16384 wf) T (idxCol (F := F) V ids) (ix2 n c) = T (ix2 (rowOf N hN (ids (ix1 n))) c) := by
    rw [gather_row2_apply hN wf, idxCol_apply V ids n 0 (hr _).1]
  unfold takeG
  exact (select_of_one _ _ _ _ hm).trans hg

end Cert.ReferenceIdeal.RefValue

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.RefProj.lean ====
/-
  The reference's projection, read at an index, is the specification's.

  The reference concatenates the four looked-up row blocks along the columns (columns `32 f + c` of the concatenation
  are columns `c` of block `f`), contracts the 128 columns against the transposed weights (entry `(k, o)` of the
  transpose is entry `(o, k)` of the weights; a contraction over one axis is the sum over that axis' coordinate of the
  products), and adds the bias broadcast over the rows: `Σ_{k < 128} cat (n, k) · W (o, k) + b o`. The specification
  keeps the blocks transposed and adds, bias first, one 32-column band per block. The two agree because a sum over 128
  positions is the sum over 4 tiles of 32, and addition of extended reals is commutative and associative.
-/
import proofs.«204991_g57140244906297_cont_9to1_m_249_19_alg».proof.Proof.RefDefs
import proofs.«204991_g57140244906297_cont_9to1_m_249_19_alg».proof.Proof.Spec
import proofs.«204991_g57140244906297_cont_9to1_m_249_19_alg».proof.Proof.LibTiles
import Idealize.ShloMosaic.Lib.ValueIdx
import Idealize.ShloMosaic.Lib.IdealHost
import Idealize.ShloMosaic.Lib.Pipeline.Value
import Idealize.ShloMosaic.PureOps.Ideal.Laws

set_option synthInstance.maxSize 4096

open scoped BigOperators

noncomputable section

namespace Cert.ReferenceIdeal.RefValue

open Cert.ReferenceIdeal Cert.ReferenceIdeal.Facts₀ Idealize.ShloMosaic Idealize.ShloMosaic.ValueIdx

variable [Cert.ReferenceIdeal.Facts]

/-- Column `0 + c` of the concatenation is column `c` of block 0. -/
theorem cat_apply_0 {α : Type} (e0 e1 e2 e3 : S16384x32.Idx → α) (n : Fin 16384) (c : Fin 32) (hlt : 0 + c.val < 128) :
    concatenate S16384x128 1 [⟨S16384x32, e0⟩, ⟨S16384x32, e1⟩, ⟨S16384x32, e2⟩, ⟨S16384x32, e3⟩] concatenates_S16384x32_S16384x32_S16384x32_S16384x32_S16384x128_d1 (ix2 n ⟨0 + c.val, hlt⟩) = e0 (ix2 n c) :=
  concatenate_apply_piece (1 : Fin S16384x128.rank) ([⟨S16384x32, e0⟩, ⟨S16384x32, e1⟩, ⟨S16384x32, e2⟩, ⟨S16384x32, e3⟩] : List ((s : Shape) × (s.Idx → α))) concatenates_S16384x32_S16384x32_S16384x32_S16384x32_S16384x128_d1 (ix2 n ⟨0 + c.val, hlt⟩) 0 (by simp) S16384x32 e0 rfl rfl 0 rfl (ix2 n c)
    (fun b hb => by match b with | ⟨0, _⟩ => rfl | ⟨1, _⟩ => exact absurd rfl hb) rfl

/-- Column `32 + c` of the concatenation is column `c` of block 1. -/
theorem cat_apply_1 {α : Type} (e0 e1 e2 e3 : S16384x32.Idx → α) (n : Fin 16384) (c : Fin 32) (hlt : 32 + c.val < 128) :
    concatenate S16384x128 1 [⟨S16384x32, e0⟩, ⟨S16384x32, e1⟩, ⟨S16384x32, e2⟩, ⟨S16384x32, e3⟩] concatenates_S16384x32_S16384x32_S16384x32_S16384x32_S16384x128_d1 (ix2 n ⟨32 + c.val, hlt⟩) = e1 (ix2 n c) :=
  concatenate_apply_piece (1 : Fin S16384x128.rank) ([⟨S16384x32, e0⟩, ⟨S16384x32, e1⟩, ⟨S16384x32, e2⟩, ⟨S16384x32, e3⟩] : List ((s : Shape) × (s.Idx → α))) concatenates_S16384x32_S16384x32_S16384x32_S16384x32_S16384x128_d1 (ix2 n ⟨32 + c.val, hlt⟩) 1 (by simp) S16384x32 e1 rfl rfl 32 rfl (ix2 n c)
    (fun b hb => by match b with | ⟨0, _⟩ => rfl | ⟨1, _⟩ => exact absurd rfl hb) rfl

/-- Column `64 + c` of the concatenation is column `c` of block 2. -/
theorem cat_apply_2 {α : Type} (e0 e1 e2 e3 : S16384x32.Idx → α) (n : Fin 16384) (c : Fin 32) (hlt : 64 + c.val < 128) :
    concatenate S16384x128 1 [⟨S16384x32, e0⟩, ⟨S16384x32, e1⟩, ⟨S16384x32, e2⟩, ⟨S16384x32, e3⟩] concatenates_S16384x32_S16384x32_S16384x32_S16384x32_S16384x128_d1 (ix2 n ⟨64 + c.val, hlt⟩) = e2 (ix2 n c) :=
  concatenate_apply_piece (1 : Fin S16384x128.rank) ([⟨S16384x32, e0⟩, ⟨S16384x32, e1⟩, ⟨S16384x32, e2⟩, ⟨S16384x32, e3⟩] : List ((s : Shape) × (s.Idx → α))) concatenates_S16384x32_S16384x32_S16384x32_S16384x32_S16384x128_d1 (ix2 n ⟨64 + c.val, hlt⟩) 2 (by simp) S16384x32 e2 rfl rfl 64 rfl (ix2 n c)
    (fun b hb => by match b with | ⟨0, _⟩ => rfl | ⟨1, _⟩ => exact absurd rfl hb) rfl

/-- Column `96 + c` of the concatenation is column `c` of block 3. -/
theorem cat_apply_3 {α : Type} (e0 e1 e2 e3 : S16384x32.Idx → α) (n : Fin 16384) (c : Fin 32) (hlt : 96 + c.val < 128) :
    concatenate S16384x128 1 [⟨S16384x32, e0⟩, ⟨S16384x32, e1⟩, ⟨S16384x32, e2⟩, ⟨S16384x32, e3⟩] concatenates_S16384x32_S16384x32_S16384x32_S16384x32_S16384x128_d1 (ix2 n ⟨96 + c.val, hlt⟩) = e3 (ix2 n c) :=
  concatenate_apply_piece (1 : Fin S16384x128.rank) ([⟨S16384x32, e0⟩, ⟨S16384x32, e1⟩, ⟨S16384x32, e2⟩, ⟨S16384x32, e3⟩] : List ((s : Shape) × (s.Idx → α))) concatenates_S16384x32_S16384x32_S16384x32_S16384x32_S16384x128_d1 (ix2 n ⟨96 + c.val, hlt⟩) 3 (by simp) S16384x32 e3 rfl rfl 96 rfl (ix2 n c)
    (fun b hb => by match b with | ⟨0, _⟩ => rfl | ⟨1, _⟩ => exact absurd rfl hb) rfl

/-- The contraction's one axis has 128 positions: its index is that coordinate. -/
def cE : (dot_S16384x128_S128x64_S16384x64_1_0_0_1_n_n).contr.Idx ≃ Fin 128 := contrEquiv1 dot_S16384x128_S128x64_S16384x64_1_0_0_1_n_n 128 rfl rfl

/-- At output `(n, o)` and contraction position `k` the left operand is read at `(n, k)`. -/
theorem lhs_at (n : Fin 16384) (o : Fin 64) (k : Fin 128) : (dot_S16384x128_S128x64_S16384x64_1_0_0_1_n_n).lhsIdx (ix2 n o) (cE.symm k) = ix2 n k := by
  funext a
  match a with
  | ⟨0, _⟩ => exact Fin.ext rfl
  | ⟨1, _⟩ => exact Fin.ext rfl

/-- At output `(n, o)` and contraction position `k` the right operand is read at `(k, o)`. -/
theorem rhs_at (n : Fin 16384) (o : Fin 64) (k : Fin 128) : (dot_S16384x128_S128x64_S16384x64_1_0_0_1_n_n).rhsIdx (ix2 n o) (cE.symm k) = ix2 k o := by
  funext a
  match a with
  | ⟨0, _⟩ => exact Fin.ext rfl
  | ⟨1, _⟩ => exact Fin.ext rfl

/-- The contraction at `(n, o)`: the sum over the 128 columns of the products. -/
theorem dot_apply (L : FVec Ideal S16384x128 .f32) (R : FVec Ideal S128x64 .f32) (n : Fin 16384) (o : Fin 64) :
    Host.dotGeneral dot_S16384x128_S128x64_S16384x64_1_0_0_1_n_n none L R (ix2 n o) = ∑ k : Fin 128, L (ix2 n k) * R (ix2 k o) := by
  simp only [Host.dotGeneral]
  rw [Ideal.dotGeneral_apply, ← Equiv.sum_comp cE.symm]
  refine Finset.sum_congr rfl fun k _ => ?_
  rw [lhs_at, rhs_at]

/-- The transposed weights at `(k, o)` are the weights at `(o, k)`. -/
theorem wT_apply {α : Type} (W : S64x128.Idx → α) (k : Fin 128) (o : Fin 64) :
    transpose S128x64 [1, 0] W transposes_S64x128_S128x64_1_0 (ix2 k o) = W (ix2 o k) :=
  transpose_apply [1, 0] W transposes_S64x128_S128x64_1_0 (ix2 k o) (ix2 o k)
    (fun b => by match b with | ⟨0, _⟩ => rfl | ⟨1, _⟩ => rfl)

/-- The bias broadcast over the rows at `(n, o)` is the bias at `o`. -/
theorem bias_apply {α : Type} (b : S64.Idx → α) (n : Fin 16384) (o : Fin 64) :
    broadcastInDim S16384x64 ![0, 1] bcast_S1x64_S16384x64_0_1 (broadcastInDim S1x64 ![1] bcast_S64_S1x64_1 b) (ix2 n o)
      = b (ix1 o) := by
  rw [broadcastInDim_apply ![0, 1] bcast_S1x64_S16384x64_0_1 _ (ix2 n o) (ix2 (0 : Fin 1) o)
      (fun a => by match a with | ⟨0, _⟩ => rfl | ⟨1, _⟩ => rfl),
    broadcastInDim_apply ![1] bcast_S64_S1x64_1 b (ix2 (0 : Fin 1) o) (ix1 o) (fun a => by match a with | ⟨0, _⟩ => rfl)]

/-- Four terms and then a fifth, or the fifth first: the same sum. -/
theorem add_shuffle {M : Type*} [AddCommMonoid M] (b s0 s1 s2 s3 : M) :
    s0 + s1 + s2 + s3 + b = b + s0 + s1 + s2 + s3 := by
  rw [add_comm (s0 + s1 + s2 + s3) b]
  simp only [add_assoc]

/-- The reference's projection at `(n, o)` is the specification's projection of the transposed blocks. -/
theorem projG_apply (e0 e1 e2 e3 : FVec Ideal S16384x32 .f32) (W : FVec Ideal S64x128 .f32) (b : FVec Ideal S64 .f32)
    (n : Fin 16384) (o : Fin 64) :
    projG (F := Ideal) e0 e1 e2 e3 W b (ix2 n o)
      = Cert.Spec.proj (fun j => e0 (ix2 (j 1) (j 0))) (fun j => e1 (ix2 (j 1) (j 0))) (fun j => e2 (ix2 (j 1) (j 0)))
          (fun j => e3 (ix2 (j 1) (j 0))) W b (ix2 n o) := by
  unfold projG
  rw [addf_apply, dot_apply, bias_apply, Cert.Spec.proj_apply]
  have hsum : (∑ k : Fin 128, concatenate S16384x128 1 [⟨S16384x32, e0⟩, ⟨S16384x32, e1⟩, ⟨S16384x32, e2⟩, ⟨S16384x32, e3⟩] concatenates_S16384x32_S16384x32_S16384x32_S16384x32_S16384x128_d1 (ix2 n k)
        * transpose S128x64 [1, 0] W transposes_S64x128_S128x64_1_0 (ix2 k o))
      = ((Cert.Spec.band (fun j => e0 (ix2 (j 1) (j 0))) W 0 n o + Cert.Spec.band (fun j => e1 (ix2 (j 1) (j 0))) W 1 n o)
          + Cert.Spec.band (fun j => e2 (ix2 (j 1) (j 0))) W 2 n o) + Cert.Spec.band (fun j => e3 (ix2 (j 1) (j 0))) W 3 n o := by
    refine (Finset.sum_congr rfl fun k _ => congrArg
      (fun x => concatenate S16384x128 1 [⟨S16384x32, e0⟩, ⟨S16384x32, e1⟩, ⟨S16384x32, e2⟩, ⟨S16384x32, e3⟩] concatenates_S16384x32_S16384x32_S16384x32_S16384x32_S16384x128_d1 (ix2 n k) * x) (wT_apply W k o)).trans ?_
    refine (Cert.LibTiles.sum_tiles_mul 4 32
      (fun k : Fin 128 => concatenate S16384x128 1 [⟨S16384x32, e0⟩, ⟨S16384x32, e1⟩, ⟨S16384x32, e2⟩, ⟨S16384x32, e3⟩] concatenates_S16384x32_S16384x32_S16384x32_S16384x32_S16384x128_d1 (ix2 n k) * W (ix2 o k))
      (fun j p => by omega)).symm.trans ?_
    rw [Fin.sum_univ_four]
    unfold Cert.Spec.band
    refine congrArg₂ (· + ·) (congrArg₂ (· + ·) (congrArg₂ (· + ·) ?_ ?_) ?_) ?_
    · refine Finset.sum_congr rfl fun c _ => ?_
      show concatenate S16384x128 1 [⟨S16384x32, e0⟩, ⟨S16384x32, e1⟩, ⟨S16384x32, e2⟩, ⟨S16384x32, e3⟩] concatenates_S16384x32_S16384x32_S16384x32_S16384x32_S16384x128_d1 (ix2 n ⟨0 + c.val, by omega⟩) * _ = e0 (ix2 n c) * _
      rw [cat_apply_0]
    · refine Finset.sum_congr rfl fun c _ => ?_
      show concatenate S16384x128 1 [⟨S16384x32, e0⟩, ⟨S16384x32, e1⟩, ⟨S16384x32, e2⟩, ⟨S16384x32, e3⟩] concatenates_S16384x32_S16384x32_S16384x32_S16384x32_S16384x128_d1 (ix2 n ⟨32 + c.val, by omega⟩) * _ = e1 (ix2 n c) * _
      rw [cat_apply_1]
    · refine Finset.sum_congr rfl fun c _ => ?_
      show concatenate S16384x128 1 [⟨S16384x32, e0⟩, ⟨S16384x32, e1⟩, ⟨S16384x32, e2⟩, ⟨S16384x32, e3⟩] concatenates_S16384x32_S16384x32_S16384x32_S16384x32_S16384x128_d1 (ix2 n ⟨64 + c.val, by omega⟩) * _ = e2 (ix2 n c) * _
      rw [cat_apply_2]
    · refine Finset.sum_congr rfl fun c _ => ?_
      show concatenate S16384x128 1 [⟨S16384x32, e0⟩, ⟨S16384x32, e1⟩, ⟨S16384x32, e2⟩, ⟨S16384x32, e3⟩] concatenates_S16384x32_S16384x32_S16384x32_S16384x32_S16384x128_d1 (ix2 n ⟨96 + c.val, by omega⟩) * _ = e3 (ix2 n c) * _
      rw [cat_apply_3]
  rw [hsum]
  exact add_shuffle _ _ _ _ _

end Cert.ReferenceIdeal.RefValue

end
-- ==== Proof.RefValue.lean ====
/-
  The reference computes the specified function.

  Under the precondition every index lies in its table, so each lookup of the reference is the plain row lookup
  (nothing wraps, no row is replaced by the fill value), and the reference's projection of the four lookups is the
  specification's: the reference's function of its arguments is the specified one. With the reference's run, which
  ends with the result buffer at that function of the arguments and the arguments unchanged, this is the statement.
-/
import proofs.«204991_g57140244906297_cont_9to1_m_249_19_alg».proof.Defs
import proofs.«204991_g57140244906297_cont_9to1_m_249_19_alg».proof.Proof.RefRun
import proofs.«204991_g57140244906297_cont_9to1_m_249_19_alg».proof.Proof.RefTake
import proofs.«204991_g57140244906297_cont_9to1_m_249_19_alg».proof.Proof.RefProj
import proofs.«204991_g57140244906297_cont_9to1_m_249_19_alg».proof.Proof.PreRanges

set_option synthInstance.maxSize 4096

noncomputable section

namespace Cert.ReferenceIdeal.RefValue

open Cert.ReferenceIdeal Cert.ReferenceIdeal.Facts₀ Idealize.ShloMosaic Idealize.ShloMosaic.ValueIdx Idealize.ShloMosaic.RowOps Idealize.SL.Sem

variable [Cert.ReferenceIdeal.Facts]

/-- The signed readings of the last rows' numbers. -/
theorem toInt_999999 : (999999#32 : BitVec 32).toInt = 999999 := by decide
theorem toInt_99999 : (99999#32 : BitVec 32).toInt = 99999 := by decide
theorem toInt_999 : (999#32 : BitVec 32).toInt = 999 := by decide

/-- With every index in its table, the reference's function of its arguments is the specified one. -/
theorem RefG_eq_out (ids0 ids1 ids2 ids3 : IVec S16384 32) (T0 : FVec Ideal S1000000x32 .f32) (T1 : FVec Ideal S100000x32 .f32)
    (T2 : FVec Ideal S1000x32 .f32) (T3 : FVec Ideal S1000000x32 .f32) (W : FVec Ideal S64x128 .f32) (b : FVec Ideal S64 .f32)
    (h0 : ∀ j, 0 ≤ (ids0 j).toInt ∧ (ids0 j).toInt ≤ 999999) (h1 : ∀ j, 0 ≤ (ids1 j).toInt ∧ (ids1 j).toInt ≤ 99999)
    (h2 : ∀ j, 0 ≤ (ids2 j).toInt ∧ (ids2 j).toInt ≤ 999) (h3 : ∀ j, 0 ≤ (ids3 j).toInt ∧ (ids3 j).toInt ≤ 999999) :
    RefG (F := Ideal) ids0 ids1 ids2 ids3 T0 T1 T2 T3 W b = Cert.Spec.out ids0 ids1 ids2 ids3 T0 T1 T2 T3 W b := by
  funext j
  obtain ⟨n, o, rfl⟩ : ∃ (n : Fin 16384) (o : Fin 64), j = ix2 n o := ⟨j 0, j 1, eq_ix2 j⟩
  have t0 : (fun i : (⟨2, ![32, 16384]⟩ : Shape).Idx => takeG (F := Ideal) gather_S1000000x32_S16384x1_S16384x32_1_0_n_n_0_1_132 1000000#32 999999#32 T0 ids0 (ix2 (i 1) (i 0)))
      = Cert.Spec.lookT 1000000 (by omega) T0 ids0 :=
    funext fun i => takeG_apply (F := Ideal) (by omega) gather_S1000000x32_S16384x1_S16384x32_1_0_n_n_0_1_132_wf 1000000#32 999999#32 T0 ids0
      (fun n => by rw [toInt_999999]; exact h0 n) (i 1) (i 0)
  have t1 : (fun i : (⟨2, ![32, 16384]⟩ : Shape).Idx => takeG (F := Ideal) gather_S100000x32_S16384x1_S16384x32_1_0_n_n_0_1_132 100000#32 99999#32 T1 ids1 (ix2 (i 1) (i 0)))
      = Cert.Spec.lookT 100000 (by omega) T1 ids1 :=
    funext fun i => takeG_apply (F := Ideal) (by omega) gather_S100000x32_S16384x1_S16384x32_1_0_n_n_0_1_132_wf 100000#32 99999#32 T1 ids1
      (fun n => by rw [toInt_99999]; exact h1 n) (i 1) (i 0)
  have t2 : (fun i : (⟨2, ![32, 16384]⟩ : Shape).Idx => takeG (F := Ideal) gather_S1000x32_S16384x1_S16384x32_1_0_n_n_0_1_132 1000#32 999#32 T2 ids2 (ix2 (i 1) (i 0)))
      = Cert.Spec.lookT 1000 (by omega) T2 ids2 :=
    funext fun i => takeG_apply (F := Ideal) (by omega) gather_S1000x32_S16384x1_S16384x32_1_0_n_n_0_1_132_wf 1000#32 999#32 T2 ids2
      (fun n => by rw [toInt_999]; exact h2 n) (i 1) (i 0)
  have t3 : (fun i : (⟨2, ![32, 16384]⟩ : Shape).Idx => takeG (F := Ideal) gather_S1000000x32_S16384x1_S16384x32_1_0_n_n_0_1_132 1000000#32 999999#32 T3 ids3 (ix2 (i 1) (i 0)))
      = Cert.Spec.lookT 1000000 (by omega) T3 ids3 :=
    funext fun i => takeG_apply (F := Ideal) (by omega) gather_S1000000x32_S16384x1_S16384x32_1_0_n_n_0_1_132_wf 1000000#32 999999#32 T3 ids3
      (fun n => by rw [toInt_999999]; exact h3 n) (i 1) (i 0)
  calc RefG (F := Ideal) ids0 ids1 ids2 ids3 T0 T1 T2 T3 W b (ix2 n o)
      = Cert.Spec.proj (fun i : (⟨2, ![32, 16384]⟩ : Shape).Idx => takeG (F := Ideal) gather_S1000000x32_S16384x1_S16384x32_1_0_n_n_0_1_132 1000000#32 999999#32 T0 ids0 (ix2 (i 1) (i 0)))
          (fun i : (⟨2, ![32, 16384]⟩ : Shape).Idx => takeG (F := Ideal) gather_S100000x32_S16384x1_S16384x32_1_0_n_n_0_1_132 100000#32 99999#32 T1 ids1 (ix2 (i 1) (i 0)))
          (fun i : (⟨2, ![32, 16384]⟩ : Shape).Idx => takeG (F := Ideal) gather_S1000x32_S16384x1_S16384x32_1_0_n_n_0_1_132 1000#32 999#32 T2 ids2 (ix2 (i 1) (i 0)))
          (fun i : (⟨2, ![32, 16384]⟩ : Shape).Idx => takeG (F := Ideal) gather_S1000000x32_S16384x1_S16384x32_1_0_n_n_0_1_132 1000000#32 999999#32 T3 ids3 (ix2 (i 1) (i 0))) W b (ix2 n o) := projG_apply _ _ _ _ W b n o
    _ = Cert.Spec.proj (Cert.Spec.lookT 1000000 (by omega) T0 ids0) (Cert.Spec.lookT 100000 (by omega) T1 ids1) (Cert.Spec.lookT 1000 (by omega) T2 ids2) (Cert.Spec.lookT 1000000 (by omega) T3 ids3) W b (ix2 n o) := by
        rw [t0, t1, t2, t3]

/-- At the compiled mesh, from any memory satisfying the precondition, with zero counters: every weakly fair execution
    of the reference terminates with the result buffer at the specified function of the arguments and the arguments
    unchanged. -/
theorem run [Cert.Pre_input_domain.Facts]
    (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
          r.2.mem ((c.tc : Thread Cert.ReferenceIdeal.nD Cert.ReferenceIdeal.τ).loc Cert.ReferenceIdeal.main_v9)
            = Cert.Spec.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run (Cert.ReferenceIdeal.defs (F := Ideal)) _ _).mono
    (fun _ h c => by
      obtain ⟨r0, r1, r2, r3⟩ := Cert.PreRanges.ranges (F := Ideal) _ _ _ _ _ _ _ _ _ _ (hpre c)
      exact ⟨(h c).1.trans (RefG_eq_out _ _ _ _ _ _ _ _ _ _ r0 r1 r2 r3), (h c).2⟩)
    (runG (F := Ideal) m ρ)

end Cert.ReferenceIdeal.RefValue

end
-- ==== Proof.RefClaims.lean ====
/-
  The reference's share of the claim, over the facts the generated modules prove.

  Its frame is its run with the result's value dropped. Its half of the comparison with the kernel: from a memory that
  agrees with the kernel's on the ten arguments the precondition holds of the reference's arguments too (it is a
  function of the ten arrays alone), so the reference ends with its result at the specified function of its own
  arguments, which are the kernel's.
-/
import proofs.«204991_g57140244906297_cont_9to1_m_249_19_alg».proof.Defs
import proofs.«204991_g57140244906297_cont_9to1_m_249_19_alg».proof.Proof.RefRun
import proofs.«204991_g57140244906297_cont_9to1_m_249_19_alg».proof.Proof.RefValue
import proofs.«204991_g57140244906297_cont_9to1_m_249_19_alg».proof.Proof.Gen.Kernel
import proofs.«204991_g57140244906297_cont_9to1_m_249_19_alg».proof.Proof.Gen.KernelIdeal
import proofs.«204991_g57140244906297_cont_9to1_m_249_19_alg».proof.Proof.Gen.ReferenceIdeal
import proofs.«204991_g57140244906297_cont_9to1_m_249_19_alg».proof.Proof.Gen.Pre_input_domain

noncomputable section

namespace Cert.Proof.RefClaims

open Idealize.ShloMosaic Idealize.SL.Sem

/-- The reference runs, faults nowhere, and leaves its arguments unchanged. -/
theorem frame_ri : Cert.frame_ReferenceIdeal (hReferenceIdeal := Cert.ReferenceIdeal.Gen.facts)
    (hPre_input_domain := Cert.Pre_input_domain.Gen.facts) :=
  fun m g _ => (θ_run (Cert.ReferenceIdeal.defs (F := Ideal)) _ _).mono (fun _ h c => (h c).2)
    (Cert.ReferenceIdeal.RefValue.runG (F := Ideal) m g)

/-- The specified function of the kernel's arguments, per device: the value both programs end with. -/
def v0 (m : (ℓ : Loc Cert.KernelIdeal.nD Cert.KernelIdeal.τ Cert.KernelIdeal.sig) → Buf (Elt Ideal) ℓ) :
    (c : Dev Cert.KernelIdeal.nD) → Buf (Elt Ideal) ((c.tc : Thread Cert.KernelIdeal.nD Cert.KernelIdeal.τ).loc Cert.KernelIdeal.main_v13) :=
  fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- From a memory agreeing with the kernel's on the arguments, under the kernel's precondition: the reference ends with
    its result at the specified function of the kernel's arguments, and its own arguments unchanged. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  have hpre' : Cert.Pre_ReferenceIdeal (hPre_input_domain := Cert.Pre_input_domain.Gen.facts) m' := by
    intro c
    obtain ⟨a0, a1, a2, a3, a4, a5, a6, a7, a8, a9⟩ := hagree c
    rw [a0, a1, a2, a3, a4, a5, a6, a7, a8, a9]
    exact hpre c
  refine (θ_run (Cert.ReferenceIdeal.defs (F := Ideal)) _ _).mono (fun _ h c => ?_) (Cert.ReferenceIdeal.RefValue.run m' g' hpre')
  obtain ⟨a0, a1, a2, a3, a4, a5, a6, a7, a8, a9⟩ := hagree c
  refine ⟨(h c).1.trans ?_, (h c).2⟩
  show Cert.Spec.out _ _ _ _ _ _ _ _ _ _ = Cert.Spec.out _ _ _ _ _ _ _ _ _ _
  rw [a0, a1, a2, a3, a4, a5, a6, a7, a8, a9]

end Cert.Proof.RefClaims

end
-- ==== Proof.ProjValue.lean ====
/-
  The projection at the ideal instance is the specification's.

  At extended reals a matmul into the zero accumulator is the plain sum over the contracted axis; the body contracts
  each lookup block's axis 0 with its weight band's axis 1, so output entry (n, o) is the bias at o plus, lookup by
  lookup, the sum over c of the lookup's entry (c, n) times the weights' entry (o, 32 f + c) — in the kernel's own
  order of additions, which is the specification's.
-/
import proofs.«204991_g57140244906297_cont_9to1_m_249_19_alg».proof.Proof.ProjFinal
import proofs.«204991_g57140244906297_cont_9to1_m_249_19_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

open scoped BigOperators

noncomputable section

namespace Cert.Proof.Proj

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The matmul at an index -/

/-- The body's contraction: the left operand's axis 0 against the right operand's axis 1. -/
abbrev DD : DotDims S32x2048 S64x32 S2048x64 := dot_S32x2048_S64x32_S2048x64_0_1_1_0_n_n

theorem lhs_contr (j : S2048x64.Idx) (k : DD.contr.Idx) : (DD.lhsIdx j k (0 : Fin 2)).val = (k ⟨0, by decide⟩).val :=
  DD.lhsIdx_val_of_single (cl := (0 : Fin 2)) rfl j k

theorem rhs_contr (j : S2048x64.Idx) (k : DD.contr.Idx) : (DD.rhsIdx j k (1 : Fin 2)).val = (k ⟨0, by decide⟩).val :=
  DD.rhsIdx_val_of_single (cr := (1 : Fin 2)) rfl j k

theorem lhs_non (j : S2048x64.Idx) (k : DD.contr.Idx) : (DD.lhsIdx j k (1 : Fin 2)).val = (j 0).val := by
  simp [DotDims.lhsIdx, DD, dot_S32x2048_S64x32_S2048x64_0_1_1_0_n_n]
  rfl

theorem rhs_non (j : S2048x64.Idx) (k : DD.contr.Idx) : (DD.rhsIdx j k (0 : Fin 2)).val = (j 1).val := by
  simp [DotDims.rhsIdx, DD, dot_S32x2048_S64x32_S2048x64_0_1_1_0_n_n]
  rfl

/-- A lookup block against a weight band, into zero, at row p and column o: the sum over the 32 contracted places. -/
theorem mm_apply (x : FVec Ideal S32x2048 .f32) (v : FVec Ideal S64x32 .f32) (p : Fin 2048) (o : Fin 64) :
    matmul (φ₁ := FTy.f32) (φ₂ := FTy.f32) DD none x v (constant (F := Ideal) S2048x64 .f32 0x00000000#32) (ix2 p o) = ∑ c : Fin 32, x (ix2 c p) * v (ix2 o c) := by
  refine (Ideal.matmul_constant_zero_apply DD none x v (ix2 p o)).trans ?_
  rw [← Equiv.sum_comp (contrEquiv1 DD 32 rfl rfl).symm]
  refine Finset.sum_congr rfl fun c _ => ?_
  have hl : DD.lhsIdx (ix2 p o) ((contrEquiv1 DD 32 rfl rfl).symm c) = ix2 c p := by
    funext a; apply Fin.ext
    match a with
    | ⟨0, _⟩ => exact (lhs_contr _ _).trans (contrEquiv1_symm_val DD 32 rfl rfl c)
    | ⟨1, _⟩ => exact lhs_non _ _
  have hr : DD.rhsIdx (ix2 p o) ((contrEquiv1 DD 32 rfl rfl).symm c) = ix2 o c := by
    funext a; apply Fin.ext
    match a with
    | ⟨0, _⟩ => exact rhs_non _ _
    | ⟨1, _⟩ => exact (rhs_contr _ _).trans (contrEquiv1_symm_val DD 32 rfl rfl c)
  rw [hl, hr]

/-! ## The blocks at an index -/

theorem hz2 : (![0, 0] : Fin 2 → Nat) = fun _ => 0 := funext fun a => by fin_cases a <;> rfl

/-- The inputs' index maps, decided over the grid: the lookups' blocks move along the columns with the point; the
    weights' and the bias row's stay. -/
theorem idx_in : ∀ t : Fin cfg4.N,
    (win4_0.index t (0 : Fin 2) = 0 ∧ win4_0.index t (1 : Fin 2) = t.val) ∧ (win4_1.index t (0 : Fin 2) = 0 ∧ win4_1.index t (1 : Fin 2) = t.val)
    ∧ (win4_2.index t (0 : Fin 2) = 0 ∧ win4_2.index t (1 : Fin 2) = t.val) ∧ (win4_3.index t (0 : Fin 2) = 0 ∧ win4_3.index t (1 : Fin 2) = t.val)
    ∧ (win4_4.index t (0 : Fin 2) = 0 ∧ win4_4.index t (1 : Fin 2) = 0) ∧ (win4_5.index t (0 : Fin 2) = 0 ∧ win4_5.index t (1 : Fin 2) = 0) :=
  (by decide +kernel : ∀ t : Fin grid4.N,
    (win4_0.index t (0 : Fin 2) = 0 ∧ win4_0.index t (1 : Fin 2) = t.val) ∧ (win4_1.index t (0 : Fin 2) = 0 ∧ win4_1.index t (1 : Fin 2) = t.val)
    ∧ (win4_2.index t (0 : Fin 2) = 0 ∧ win4_2.index t (1 : Fin 2) = t.val) ∧ (win4_3.index t (0 : Fin 2) = 0 ∧ win4_3.index t (1 : Fin 2) = t.val)
    ∧ (win4_4.index t (0 : Fin 2) = 0 ∧ win4_4.index t (1 : Fin 2) = 0) ∧ (win4_5.index t (0 : Fin 2) = 0 ∧ win4_5.index t (1 : Fin 2) = 0))

section Blocks

variable {d : Dev nD}
  (e0 : Buf (Elt Ideal) ((d : Thread nD τ).loc main_v3)) (e1 : Buf (Elt Ideal) ((d : Thread nD τ).loc main_v5))
  (e2 : Buf (Elt Ideal) ((d : Thread nD τ).loc main_v7)) (e3 : Buf (Elt Ideal) ((d : Thread nD τ).loc main_v11))
  (w : Buf (Elt Ideal) ((d : Thread nD τ).loc main_arg8)) (b2 : Buf (Elt Ideal) ((d : Thread nD τ).loc main_v12))
  (t : Fin cfg4.N)

/-- Lookup 0's block at point t, at (c, p): the lookup at (c, 2048 t + p). -/
theorem rd_e0 (c : Fin 32) (p : Fin 2048) (n : Fin 16384) (hn : n.val = 2048 * t.val + p.val) :
    rdBlk (c := d) 0 t e0 (ix2 c p) = e0 (ix2 c n) := by
  obtain ⟨⟨h0, h1⟩, -⟩ := idx_in t
  show e0 (((cfg4.win 0).blk t).view.emb (ix2 c p)) = e0 (ix2 c n)
  refine congrArg e0 (funext fun a => Fin.ext ?_)
  match a with
  | ⟨0, _⟩ => show win4_0.index t (0 : Fin 2) * 32 + 1 * c.val = c.val; omega
  | ⟨1, _⟩ => show win4_0.index t (1 : Fin 2) * 2048 + 1 * p.val = n.val; omega

theorem rd_e1 (c : Fin 32) (p : Fin 2048) (n : Fin 16384) (hn : n.val = 2048 * t.val + p.val) :
    rdBlk (c := d) 1 t e1 (ix2 c p) = e1 (ix2 c n) := by
  obtain ⟨-, ⟨h0, h1⟩, -⟩ := idx_in t
  show e1 (((cfg4.win 1).blk t).view.emb (ix2 c p)) = e1 (ix2 c n)
  refine congrArg e1 (funext fun a => Fin.ext ?_)
  match a with
  | ⟨0, _⟩ => show win4_1.index t (0 : Fin 2) * 32 + 1 * c.val = c.val; omega
  | ⟨1, _⟩ => show win4_1.index t (1 : Fin 2) * 2048 + 1 * p.val = n.val; omega

theorem rd_e2 (c : Fin 32) (p : Fin 2048) (n : Fin 16384) (hn : n.val = 2048 * t.val + p.val) :
    rdBlk (c := d) 2 t e2 (ix2 c p) = e2 (ix2 c n) := by
  obtain ⟨-, -, ⟨h0, h1⟩, -⟩ := idx_in t
  show e2 (((cfg4.win 2).blk t).view.emb (ix2 c p)) = e2 (ix2 c n)
  refine congrArg e2 (funext fun a => Fin.ext ?_)
  match a with
  | ⟨0, _⟩ => show win4_2.index t (0 : Fin 2) * 32 + 1 * c.val = c.val; omega
  | ⟨1, _⟩ => show win4_2.index t (1 : Fin 2) * 2048 + 1 * p.val = n.val; omega

theorem rd_e3 (c : Fin 32) (p : Fin 2048) (n : Fin 16384) (hn : n.val = 2048 * t.val + p.val) :
    rdBlk (c := d) 3 t e3 (ix2 c p) = e3 (ix2 c n) := by
  obtain ⟨-, -, -, ⟨h0, h1⟩, -⟩ := idx_in t
  show e3 (((cfg4.win 3).blk t).view.emb (ix2 c p)) = e3 (ix2 c n)
  refine congrArg e3 (funext fun a => Fin.ext ?_)
  match a with
  | ⟨0, _⟩ => show win4_3.index t (0 : Fin 2) * 32 + 1 * c.val = c.val; omega
  | ⟨1, _⟩ => show win4_3.index t (1 : Fin 2) * 2048 + 1 * p.val = n.val; omega

/-- The weights' block is the whole array. -/
theorem rd_w (o : Fin 64) (k : Fin 128) : rdBlk (c := d) 4 t w (ix2 o k) = w (ix2 o k) := by
  obtain ⟨-, -, -, -, ⟨h0, h1⟩, -⟩ := idx_in t
  show w (((cfg4.win 4).blk t).view.emb (ix2 o k)) = w (ix2 o k)
  refine congrArg w (funext fun a => Fin.ext ?_)
  match a with
  | ⟨0, _⟩ => show win4_4.index t (0 : Fin 2) * 64 + 1 * o.val = o.val; omega
  | ⟨1, _⟩ => show win4_4.index t (1 : Fin 2) * 128 + 1 * k.val = k.val; omega

/-- The bias row's block is the whole row. -/
theorem rd_b (z : Fin 1) (o : Fin 64) : rdBlk (c := d) 5 t b2 (ix2 z o) = b2 (ix2 z o) := by
  obtain ⟨-, -, -, -, -, ⟨h0, h1⟩⟩ := idx_in t
  show b2 (((cfg4.win 5).blk t).view.emb (ix2 z o)) = b2 (ix2 z o)
  refine congrArg b2 (funext fun a => Fin.ext ?_)
  match a with
  | ⟨0, _⟩ => show win4_5.index t (0 : Fin 2) * 1 + 1 * z.val = z.val; omega
  | ⟨1, _⟩ => show win4_5.index t (1 : Fin 2) * 64 + 1 * o.val = o.val; omega

end Blocks

/-! ## The body's terms at an index -/

/-- A band's rectangle of the weights, at (o, c): row o, column offset + c. -/
theorem rW_idx (off : Nat) (h : ∀ a, (![0, off] : Fin 2 → Nat) a + S64x32.size a ≤ S64x128.size a) (o : Fin 64) (c : Fin 32) (k : Fin 128)
    (hk : k.val = off + c.val) : (Rect.unit (s := S64x128) ![0, off] S64x32.size h).idx (ix2 o c) = ix2 o k := by
  funext a; apply Fin.ext
  match a with
  | ⟨0, _⟩ => show 0 + 1 * o.val = o.val; omega
  | ⟨1, _⟩ => show off + 1 * c.val = k.val; omega

section Terms

variable {d : Dev nD}
  (e0 : Buf (Elt Ideal) ((d : Thread nD τ).loc main_v3)) (e1 : Buf (Elt Ideal) ((d : Thread nD τ).loc main_v5))
  (e2 : Buf (Elt Ideal) ((d : Thread nD τ).loc main_v7)) (e3 : Buf (Elt Ideal) ((d : Thread nD τ).loc main_v11))
  (w : Buf (Elt Ideal) ((d : Thread nD τ).loc main_arg8)) (b2 : Buf (Elt Ideal) ((d : Thread nD τ).loc main_v12))
  (t : Fin cfg4.N)

/-- The bias row, broadcast over the block's rows, at (p, o): the bias at o. -/
theorem bias_apply (p : Fin 2048) (o : Fin 64) :
    broadcastTo S2048x64 (shapeCast S1x64 (View.ld (rdBlk (c := d) 5 t b2) rB) shapeCasts_S1x64_S1x64) broadcasts_S1x64_S2048x64 (ix2 p o)
      = b2 (ix2 0 o) := by
  erw [shapeCast_self]
  rw [View.ld_unit_zero (S := S1x64) hz2,
    broadcastTo_apply _ broadcasts_S1x64_S2048x64 (ix2 p o) (ix2 (0 : Fin 1) o) (fun a => by match a with | ⟨0, _⟩ => rfl | ⟨1, _⟩ => rfl)]
  exact rd_b b2 t 0 o

/-- Lookup 0 against its band of the weights, at (p, o) of point t's block: the specification's band 0 at row n. -/
theorem band0_apply (p : Fin 2048) (o : Fin 64) (n : Fin 16384) (hn : n.val = 2048 * t.val + p.val) :
    matmul (φ₁ := FTy.f32) (φ₂ := FTy.f32) DD none (shapeCast S32x2048 (View.ld (rdBlk (c := d) 0 t e0) rX) shapeCasts_S32x2048_S32x2048) (View.ld (rdBlk (c := d) 4 t w) rW0)
      (constant (F := Ideal) S2048x64 .f32 0x00000000#32) (ix2 p o) = Cert.Spec.band e0 w 0 n o := by
  erw [shapeCast_self]
  rw [View.ld_unit_zero (S := S32x2048) hz2, mm_apply]
  unfold Cert.Spec.band
  refine Finset.sum_congr rfl fun c _ => ?_
  have hc : c.val < 32 := c.isLt
  have hW : View.ld (rdBlk (c := d) 4 t w) rW0 (ix2 o c) = w (ix2 o ⟨32 * (0 : Fin 4).val + c.val, by show 32 * 0 + c.val < 128; omega⟩) := by
    show rdBlk (c := d) 4 t w (rW0.idx (ix2 o c)) = _
    rw [rW_idx 0 _ o c ⟨32 * (0 : Fin 4).val + c.val, by show 32 * 0 + c.val < 128; omega⟩ (by show 32 * 0 + c.val = 0 + c.val; omega), rd_w]
  rw [rd_e0 e0 t c p n hn, hW]

/-- Lookup 1 against its band of the weights, at (p, o) of point t's block: the specification's band 1 at row n. -/
theorem band1_apply (p : Fin 2048) (o : Fin 64) (n : Fin 16384) (hn : n.val = 2048 * t.val + p.val) :
    matmul (φ₁ := FTy.f32) (φ₂ := FTy.f32) DD none (shapeCast S32x2048 (View.ld (rdBlk (c := d) 1 t e1) rX) shapeCasts_S32x2048_S32x2048) (View.ld (rdBlk (c := d) 4 t w) rW1)
      (constant (F := Ideal) S2048x64 .f32 0x00000000#32) (ix2 p o) = Cert.Spec.band e1 w 1 n o := by
  erw [shapeCast_self]
  rw [View.ld_unit_zero (S := S32x2048) hz2, mm_apply]
  unfold Cert.Spec.band
  refine Finset.sum_congr rfl fun c _ => ?_
  have hc : c.val < 32 := c.isLt
  have hW : View.ld (rdBlk (c := d) 4 t w) rW1 (ix2 o c) = w (ix2 o ⟨32 * (1 : Fin 4).val + c.val, by show 32 * 1 + c.val < 128; omega⟩) := by
    show rdBlk (c := d) 4 t w (rW1.idx (ix2 o c)) = _
    rw [rW_idx 32 _ o c ⟨32 * (1 : Fin 4).val + c.val, by show 32 * 1 + c.val < 128; omega⟩ (by show 32 * 1 + c.val = 32 + c.val; omega), rd_w]
  rw [rd_e1 e1 t c p n hn, hW]

/-- Lookup 2 against its band of the weights, at (p, o) of point t's block: the specification's band 2 at row n. -/
theorem band2_apply (p : Fin 2048) (o : Fin 64) (n : Fin 16384) (hn : n.val = 2048 * t.val + p.val) :
    matmul (φ₁ := FTy.f32) (φ₂ := FTy.f32) DD none (shapeCast S32x2048 (View.ld (rdBlk (c := d) 2 t e2) rX) shapeCasts_S32x2048_S32x2048) (View.ld (rdBlk (c := d) 4 t w) rW2)
      (constant (F := Ideal) S2048x64 .f32 0x00000000#32) (ix2 p o) = Cert.Spec.band e2 w 2 n o := by
  erw [shapeCast_self]
  rw [View.ld_unit_zero (S := S32x2048) hz2, mm_apply]
  unfold Cert.Spec.band
  refine Finset.sum_congr rfl fun c _ => ?_
  have hc : c.val < 32 := c.isLt
  have hW : View.ld (rdBlk (c := d) 4 t w) rW2 (ix2 o c) = w (ix2 o ⟨32 * (2 : Fin 4).val + c.val, by show 32 * 2 + c.val < 128; omega⟩) := by
    show rdBlk (c := d) 4 t w (rW2.idx (ix2 o c)) = _
    rw [rW_idx 64 _ o c ⟨32 * (2 : Fin 4).val + c.val, by show 32 * 2 + c.val < 128; omega⟩ (by show 32 * 2 + c.val = 64 + c.val; omega), rd_w]
  rw [rd_e2 e2 t c p n hn, hW]

/-- Lookup 3 against its band of the weights, at (p, o) of point t's block: the specification's band 3 at row n. -/
theorem band3_apply (p : Fin 2048) (o : Fin 64) (n : Fin 16384) (hn : n.val = 2048 * t.val + p.val) :
    matmul (φ₁ := FTy.f32) (φ₂ := FTy.f32) DD none (shapeCast S32x2048 (View.ld (rdBlk (c := d) 3 t e3) rX) shapeCasts_S32x2048_S32x2048) (View.ld (rdBlk (c := d) 4 t w) rW3)
      (constant (F := Ideal) S2048x64 .f32 0x00000000#32) (ix2 p o) = Cert.Spec.band e3 w 3 n o := by
  erw [shapeCast_self]
  rw [View.ld_unit_zero (S := S32x2048) hz2, mm_apply]
  unfold Cert.Spec.band
  refine Finset.sum_congr rfl fun c _ => ?_
  have hc : c.val < 32 := c.isLt
  have hW : View.ld (rdBlk (c := d) 4 t w) rW3 (ix2 o c) = w (ix2 o ⟨32 * (3 : Fin 4).val + c.val, by show 32 * 3 + c.val < 128; omega⟩) := by
    show rdBlk (c := d) 4 t w (rW3.idx (ix2 o c)) = _
    rw [rW_idx 96 _ o c ⟨32 * (3 : Fin 4).val + c.val, by show 32 * 3 + c.val < 128; omega⟩ (by show 32 * 3 + c.val = 96 + c.val; omega), rd_w]
  rw [rd_e3 e3 t c p n hn, hW]

/-! ## The projection is the specification's -/

/-- THE VALUE: at extended reals the projection of the six arrays is the specification's, index by index. -/
theorem ProjF_eq_proj :
    ProjF (F := Ideal) (c := d) e0 e1 e2 e3 w b2 = Cert.Spec.proj e0 e1 e2 e3 w (fun j => b2 (ix2 0 (j 0))) := by
  funext i
  obtain ⟨n, o, rfl⟩ : ∃ (n : Fin 16384) (o : Fin 64), i = ix2 n o := ⟨i 0, i 1, eq_ix2 i⟩
  rw [Cert.Spec.proj_apply]
  have hn : n.val = 2048 * (ptOf n.val n.isLt).val + (⟨n.val % 2048, Nat.mod_lt _ (by decide)⟩ : Fin 2048).val := by
    show n.val = 2048 * (n.val / 2048) + n.val % 2048; omega
  show blkOut e0 e1 e2 e3 w b2 (ptOf n.val n.isLt) (ix2 (⟨n.val % 2048, Nat.mod_lt _ (by decide)⟩ : Fin 2048) o) = _
  unfold blkOut outBlk
  rw [View.canon_unit_zero hz2]
  dsimp only [k4_pay1]
  rw [addf_apply, addf_apply, addf_apply, addf_apply, bias_apply]
  congr 1
  · congr 1
    · congr 1
      · congr 1
        exact band0_apply e0 w _ _ o n hn
      · exact band1_apply e1 w _ _ o n hn
    · exact band2_apply e2 w _ _ o n hn
  · exact band3_apply e3 w _ _ o n hn

end Terms

end Cert.Proof.Proj

end
-- ==== Proof.BiasRow.lean ====
/-
  The bias as a row: a vector of 64 entries reshaped to one row of 64 holds entry `o` of the vector at `(0, o)`, since
  both sit at flat position `o`.
-/
import proofs.«204991_g57140244906297_cont_9to1_m_249_19_alg».proof.KernelIdeal
import proofs.«204991_g57140244906297_cont_9to1_m_249_19_alg».proof.Proof.Gen.KernelIdeal
import Idealize.ShloMosaic.Lib.Pipeline.Value
import Idealize.ShloMosaic.Lib.ValueIdx

noncomputable section

namespace Cert.Proof.BiasRow

open Cert.KernelIdeal Cert.KernelIdeal.Gen
open Idealize.ShloMosaic Idealize.ShloMosaic.ValueIdx

/-- The row read at `(0, o)` is the vector at `o`. -/
theorem row_apply {α : Type} (b : S64.Idx → α) (o : Fin 64) :
    shapeCast S1x64 b shapeCasts_S64_S1x64 (ix2 (0 : Fin 1) o) = b (ix1 o) := by
  refine shapeCast_apply b shapeCasts_S64_S1x64 (ix2 (0 : Fin 1) o) (ix1 o) ?_
  rw [Shape.rowMajor_val_one, Shape.rowMajor_val_two]
  show o.val = (0 : Fin 1).val * 64 + o.val
  simp

/-- Reading the row back along its one row gives the vector. -/
theorem row_eq {α : Type} (b : S64.Idx → α) :
    (fun j : S64.Idx => shapeCast S1x64 b shapeCasts_S64_S1x64 (ix2 (0 : Fin 1) (j 0))) = b := by
  funext j
  obtain ⟨o, rfl⟩ : ∃ o : Fin 64, j = ix1 o := ⟨j 0, eq_ix1 j⟩
  exact row_apply b o

end Cert.Proof.BiasRow

end
-- ==== Proof.lean ====
/-
  The claim: the kernel and its idealization each run to the end, faulting nowhere, with their arguments unchanged; the
  reference does; the idealization rewrote no operation; and at the ideal instance the idealized kernel and the
  reference, run from memories that agree on the arguments, end with equal results.

  The kernel looks four embedding tables up at 16384 row indices each, on the SparseCores — every tile its 512 indices,
  the two large tables by 128-column blocks of the transposed table fetched through a ring of eight buffers with the last
  64 rows read from a flat copy, the two small ones by rows of the table viewed four rows to a row —, keeps each lookup
  transposed, and projects them on the TensorCore: bias plus, table by table, the looked-up row times its 32-column band
  of the weights. The reference takes the rows, concatenates them and multiplies by the transposed weights, adding the
  bias last. On the extended reals the two differ by the order and grouping of one sum of 128 products and the place of
  the bias: commutativity and associativity of addition, no finiteness. The index ranges of the precondition are what
  make every indexed copy and indexed load of the kernel, and the reference's fill-mode lookup, read the row named.
-/
import proofs.«204991_g57140244906297_cont_9to1_m_249_19_alg».proof.Defs
import proofs.«204991_g57140244906297_cont_9to1_m_249_19_alg».proof.Proof.Gen.Kernel
import proofs.«204991_g57140244906297_cont_9to1_m_249_19_alg».proof.Proof.Gen.KernelIdeal
import proofs.«204991_g57140244906297_cont_9to1_m_249_19_alg».proof.Proof.Gen.ReferenceIdeal
import proofs.«204991_g57140244906297_cont_9to1_m_249_19_alg».proof.Proof.Gen.Pre_input_domain
import proofs.«204991_g57140244906297_cont_9to1_m_249_19_alg».proof.Proof.FinalI
import proofs.«204991_g57140244906297_cont_9to1_m_249_19_alg».proof.Proof.FinalB
import proofs.«204991_g57140244906297_cont_9to1_m_249_19_alg».proof.Proof.BodiesI
import proofs.«204991_g57140244906297_cont_9to1_m_249_19_alg».proof.Proof.BodiesB
import proofs.«204991_g57140244906297_cont_9to1_m_249_19_alg».proof.Proof.RefClaims
import proofs.«204991_g57140244906297_cont_9to1_m_249_19_alg».proof.Proof.ProjValue
import proofs.«204991_g57140244906297_cont_9to1_m_249_19_alg».proof.Proof.BiasRow

noncomputable section

namespace Cert.Proof

open Idealize.ShloMosaic Idealize.SL.Sem

/-- The precondition puts the four index arrays in range of their tables (idealized kernel's memory). -/
theorem rangesI (m : (ℓ : Loc Cert.KernelIdeal.nD Cert.KernelIdeal.τ Cert.KernelIdeal.sig) → Buf (Elt Ideal) ℓ)
    (hpre : Cert.Pre_KernelIdeal m) : KernelIdealC.Ranges (F := Ideal) m :=
  fun d => Cert.PreRanges.ranges (F := Ideal) _ _ _ _ _ _ _ _ _ _ (hpre d)

/-- The same of the kernel's memory at the word-level instance. -/
theorem rangesB (m : (ℓ : Loc Cert.Kernel.nD Cert.Kernel.τ Cert.Kernel.sig) → Buf (Elt Bits) ℓ)
    (hpre : Cert.Pre_Kernel m) : KernelC.Ranges (F := Bits) m :=
  fun d => Cert.PreRanges.ranges (F := Bits) _ _ _ _ _ _ _ _ _ _ (hpre d)

theorem frame_k : Cert.frame_Kernel := fun m ρ hpre =>
  (θ_run Cert.Kernel.defs _ _).mono (fun _ h c => (h c).2)
    (KernelC.run_post (F := Bits) m ρ (rangesB m hpre) KernelC.body0 KernelC.body1 KernelC.body2 KernelC.body3)

theorem frame_ki : Cert.frame_KernelIdeal := fun m ρ hpre =>
  (θ_run Cert.KernelIdeal.defs _ _).mono (fun _ h c => (h c).2)
    (KernelIdealC.run_post (F := Ideal) m ρ (rangesI m hpre) KernelIdealC.body0 KernelIdealC.body1 KernelIdealC.body2 KernelIdealC.body3)

/-- At the ideal instance the projection of the four lookups is the specification's output of the arguments. -/
theorem pval_eq (m : (ℓ : Loc Cert.KernelIdeal.nD Cert.KernelIdeal.τ Cert.KernelIdeal.sig) → Buf (Elt Ideal) ℓ) (c : Dev Cert.KernelIdeal.nD) :
    KernelIdealC.PVal (F := Ideal) m c = RefClaims.v0 m c := by
  unfold KernelIdealC.PVal
  rw [Proj.ProjF_eq_proj]
  unfold RefClaims.v0 Cert.Spec.out
  rw [Cert.Proof.BiasRow.row_eq]
  rfl

theorem alg : Cert.algebraic_KernelIdeal_ReferenceIdeal := by
  intro m g m' g' hpre hagree
  refine ⟨RefClaims.v0 m, ?_, RefClaims.ref_half m m' g' hpre hagree⟩
  exact (θ_run Cert.KernelIdeal.defs _ _).mono (fun _ h c => ⟨(h c).1.trans (pval_eq m c), (h c).2⟩)
    (KernelIdealC.run_post (F := Ideal) m g (rangesI m hpre) KernelIdealC.body0 KernelIdealC.body1 KernelIdealC.body2 KernelIdealC.body3)

theorem claim : Cert.Claim :=
  ⟨Cert.Kernel.Gen.facts, Cert.KernelIdeal.Gen.facts, Cert.ReferenceIdeal.Gen.facts, Cert.Pre_input_domain.Gen.facts,
    frame_k, frame_ki, RefClaims.frame_ri, trivial, alg⟩

end Cert.Proof

end
